-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x8192 : Shape := ⟨2, ![64, 8192]⟩
abbrev S1024x512 : Shape := ⟨2, ![1024, 512]⟩
abbrev S1024 : Shape := ⟨1, ![1024]⟩
abbrev S7x1024x1024 : Shape := ⟨3, ![7, 1024, 1024]⟩
abbrev S7x1024 : Shape := ⟨2, ![7, 1024]⟩
abbrev S7x1024x8192 : Shape := ⟨3, ![7, 1024, 8192]⟩
abbrev S6x1024x7168 : Shape := ⟨3, ![6, 1024, 7168]⟩
abbrev S512x1024 : Shape := ⟨2, ![512, 1024]⟩
abbrev S512 : Shape := ⟨1, ![512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S7x1024x1024 : S_.BroadcastsInDim S7x1024x1024 (![] : Fin 0 → Fin S7x1024x1024.rank)
  reducesTo_S7x1024x1024_S_d0_1_2 : S7x1024x1024.ReducesTo [0, 1, 2] S_
  bcast_S_S7x1024 : S_.BroadcastsInDim S7x1024 (![] : Fin 0 → Fin S7x1024.rank)
  reducesTo_S7x1024_S_d0_1 : S7x1024.ReducesTo [0, 1] S_
  bcast_S_S7x1024x8192 : S_.BroadcastsInDim S7x1024x8192 (![] : Fin 0 → Fin S7x1024x8192.rank)
  reducesTo_S7x1024x8192_S_d0_1_2 : S7x1024x8192.ReducesTo [0, 1, 2] S_
  bcast_S_S6x1024x7168 : S_.BroadcastsInDim S6x1024x7168 (![] : Fin 0 → Fin S6x1024x7168.rank)
  reducesTo_S6x1024x7168_S_d0_1_2 : S6x1024x7168.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S7x1024x8192 .f32) (main_arg12 : FVec F S6x1024x7168 .f32) (main_v48 : IVec S_ 1) (main_v49 : FVec F S7x1024x1024 .f32) (main_v50 : FVec F S7x1024x1024 .f32) : IVec S_ 1 :=
  let main_v51 : IVec S7x1024x1024 1 := cmpf .olt main_v49 main_v50
  let main_c_19 : IVec S_ 1 := constantI S_ 1 1#1
  let main_v52 : IVec S_ 1 := (fun x v => Host.reduce IntOp.andi x v reducesTo_S7x1024x1024_S_d0_1_2 h_S_) main_v51 main_c_19
  let main_v53 : IVec S_ 1 := andi main_v48 main_v52
  let main_v54 : FVec F S7x1024x8192 .f32 := Host.absf main_arg11
  let main_cst_20 : FVec F S_ .f32 := constant S_ .f32 0x7F800000#32
  let main_v55 : FVec F S7x1024x8192 .f32 := broadcastInDim S7x1024x8192 ![] bcast_S_S7x1024x8192 main_cst_20
  let main_v56 : IVec S7x1024x8192 1 := cmpf .olt main_v54 main_v55
  let main_c_21 : IVec S_ 1 := constantI S_ 1 1#1
  let main_v57 : IVec S_ 1 := (fun x v => Host.reduce IntOp.andi x v reducesTo_S7x1024x8192_S_d0_1_2 h_S_) main_v56 main_c_21
  let main_v58 : IVec S_ 1 := andi main_v53 main_v57
  let main_v59 : FVec F S6x1024x7168 .f32 := Host.absf main_arg12
  let main_cst_22 : FVec F S_ .f32 := constant S_ .f32 0x7F800000#32
  let main_v60 : FVec F S6x1024x7168 .f32 := broadcastInDim S6x1024x7168 ![] bcast_S_S6x1024x7168 main_cst_22
  let main_v61 : IVec S6x1024x7168 1 := cmpf .olt main_v59 main_v60
  let main_c_23 : IVec S_ 1 := constantI S_ 1 1#1
  let main_v62 : IVec S_ 1 := (fun x v => Host.reduce IntOp.andi x v reducesTo_S6x1024x7168_S_d0_1_2 h_S_) main_v61 main_c_23
  let main_v63 : IVec S_ 1 := andi main_v58 main_v62
  main_v63

def fn_part2 {F : FTy → Type} [FloatOps F] (main_arg7 : FVec F S6x1024x7168 .f32) (main_arg8 : FVec F S512x1024 .f32) (main_arg9 : FVec F S512 .f32) (main_arg10 : FVec F S7x1024x1024 .f32) (main_arg11 : FVec F S7x1024x8192 .f32) (main_arg12 : FVec F S6x1024x7168 .f32) (main_v33 : IVec S_ 1) : IVec S_ 1 :=
  let main_v34 : FVec F S6x1024x7168 .f32 := Host.absf main_arg7
  let main_cst_12 : FVec F S_ .f32 := constant S_ .f32 0x7F800000#32
  let main_v35 : FVec F S6x1024x7168 .f32 := broadcastInDim S6x1024x7168 ![] bcast_S_S6x1024x7168 main_cst_12
  let main_v36 : IVec S6x1024x7168 1 := cmpf .olt main_v34 main_v35
  let main_c_13 : IVec S_ 1 := constantI S_ 1 1#1
  let main_v37 : IVec S_ 1 := (fun x v => Host.reduce IntOp.andi x v reducesTo_S6x1024x7168_S_d0_1_2 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S7x1024x1024 .f32 := Host.absf main_arg10
  let main_cst_18 : FVec F S_ .f32 := constant S_ .f32 0x7F800000#32
  let main_v50 : FVec F S7x1024x1024 .f32 := broadcastInDim S7x1024x1024 ![] bcast_S_S7x1024x1024 main_cst_18
  fn_part3 (F := F) main_arg11 main_arg12 main_v48 main_v49 main_v50

def fn_part1 {F : FTy → Type} [FloatOps F] (main_arg4 : FVec F S7x1024x1024 .f32) (main_arg5 : FVec F S7x1024 .f32) (main_arg6 : FVec F S7x1024x8192 .f32) (main_arg7 : FVec F S6x1024x7168 .f32) (main_arg8 : FVec F S512x1024 .f32) (main_arg9 : FVec F S512 .f32) (main_arg10 : FVec F S7x1024x1024 .f32) (main_arg11 : FVec F S7x1024x8192 .f32) (main_arg12 : FVec F S6x1024x7168 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S7x1024x1024 .f32 := Host.absf main_arg4
  let main_cst_6 : FVec F S_ .f32 := constant S_ .f32 0x7F800000#32
  let main_v20 : FVec F S7x1024x1024 .f32 := broadcastInDim S7x1024x1024 ![] bcast_S_S7x1024x1024 main_cst_6
  let main_v21 : IVec S7x1024x1024 1 := cmpf .olt main_v19 main_v20
  let main_c_7 : IVec S_ 1 := constantI S_ 1 1#1
  let main_v22 : IVec S_ 1 := (fun x v => Host.reduce IntOp.andi x v reducesTo_S7x1024x1024_S_d0_1_2 h_S_) main_v21 main_c_7
  let main_v23 : IVec S_ 1 := andi main_v18 main_v22
  let main_v24 : FVec F S7x1024 .f32 := Host.absf main_arg5
  let main_cst_8 : FVec F S_ .f32 := constant S_ .f32 0x7F800000#32
  let main_v25 : FVec F S7x1024 .f32 := broadcastInDim S7x1024 ![] bcast_S_S7x1024 main_cst_8
  let main_v26 : IVec S7x1024 1 := cmpf .olt main_v24 main_v25
  let main_c_9 : IVec S_ 1 := constantI S_ 1 1#1
  let main_v27 : IVec S_ 1 := (fun x v => Host.reduce IntOp.andi x v reducesTo_S7x1024_S_d0_1 h_S_) main_v26 main_c_9
  let main_v28 : IVec S_ 1 := andi main_v23 main_v27
  let main_v29 : FVec F S7x1024x8192 .f32 := Host.absf main_arg6
  let main_cst_10 : FVec F S_ .f32 := constant S_ .f32 0x7F800000#32
  let main_v30 : FVec F S7x1024x8192 .f32 := broadcastInDim S7x1024x8192 ![] bcast_S_S7x1024x8192 main_cst_10
  let main_v31 : IVec S7x1024x8192 1 := cmpf .olt main_v29 main_v30
  let main_c_11 : IVec S_ 1 := constantI S_ 1 1#1
  let main_v32 : IVec S_ 1 := (fun x v => Host.reduce IntOp.andi x v reducesTo_S7x1024x8192_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S64x8192 .f32) (main_arg2 : FVec F S1024x512 .f32) (main_arg3 : FVec F S1024 .f32) (main_arg4 : FVec F S7x1024x1024 .f32) (main_arg5 : FVec F S7x1024 .f32) (main_arg6 : FVec F S7x1024x8192 .f32) (main_arg7 : FVec F S6x1024x7168 .f32) (main_arg8 : FVec F S512x1024 .f32) (main_arg9 : FVec F S512 .f32) (main_arg10 : FVec F S7x1024x1024 .f32) (main_arg11 : FVec F S7x1024x8192 .f32) (main_arg12 : FVec F S6x1024x7168 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S64x8192 : Shape := ⟨2, ![64, 8192]⟩
abbrev S1024x512 : Shape := ⟨2, ![1024, 512]⟩
abbrev S1024 : Shape := ⟨1, ![1024]⟩
abbrev S7x1024x1024 : Shape := ⟨3, ![7, 1024, 1024]⟩
abbrev S7x1024 : Shape := ⟨2, ![7, 1024]⟩
abbrev S7x1024x8192 : Shape := ⟨3, ![7, 1024, 8192]⟩
abbrev S6x1024x7168 : Shape := ⟨3, ![6, 1024, 7168]⟩
abbrev S512x1024 : Shape := ⟨2, ![512, 1024]⟩
abbrev S512 : Shape := ⟨1, ![512]⟩
abbrev S_ : Shape := ⟨0, ![]⟩
abbrev S1x1024x8192 : Shape := ⟨3, ![1, 1024, 8192]⟩
abbrev S1024x8192 : Shape := ⟨2, ![1024, 8192]⟩
abbrev S1x1024 : Shape := ⟨2, ![1, 1024]⟩
abbrev S64x1024 : Shape := ⟨2, ![64, 1024]⟩
abbrev S64x7168 : Shape := ⟨2, ![64, 7168]⟩
abbrev S1 : Shape := ⟨1, ![1]⟩
abbrev S1x1024x1024 : Shape := ⟨3, ![1, 1024, 1024]⟩
abbrev S1024x1024 : Shape := ⟨2, ![1024, 1024]⟩
abbrev S1x1024x7168 : Shape := ⟨3, ![1, 1024, 7168]⟩
abbrev S1024x7168 : Shape := ⟨2, ![1024, 7168]⟩
abbrev S1x512 : Shape := ⟨2, ![1, 512]⟩

abbrev nBuf : Space → Nat
  | .hbm => 150
  | .vmem => 154
  | .smem => 0
  | _ => 0

abbrev hbmTy0_0 (i : Nat) : BufTy := match i % 128 with
  | 0 => ⟨S64x512, .f32⟩
  | 1 => ⟨S64x8192, .f32⟩
  | 2 => ⟨S1024x512, .f32⟩
  | 3 => ⟨S1024, .f32⟩
  | 4 => ⟨S7x1024x1024, .f32⟩
  | 5 => ⟨S7x1024, .f32⟩
  | 6 => ⟨S7x1024x8192, .f32⟩
  | 7 => ⟨S6x1024x7168, .f32⟩
  | 8 => ⟨S512x1024, .f32⟩
  | 9 => ⟨S512, .f32⟩
  | 10 => ⟨S7x1024x1024, .f32⟩
  | 11 => ⟨S7x1024x8192, .f32⟩
  | 12 => ⟨S6x1024x7168, .f32⟩
  | 13 => ⟨S_, .f32⟩
  | 14 => ⟨S1024x512, .f32⟩
  | 15 => ⟨S1x1024x8192, .f32⟩
  | 16 => ⟨S1024x8192, .f32⟩
  | 17 => ⟨S1x1024x8192, .f32⟩
  | 18 => ⟨S1024x8192, .f32⟩
  | 19 => ⟨S1x1024, .f32⟩
  | 20 => ⟨S64x1024, .f32⟩
  | 21 => ⟨S_, .f32⟩
  | 22 => ⟨S64x7168, .f32⟩
  | 23 => ⟨S_, .i32⟩
  | 24 => ⟨S1, .i32⟩
  | 25 => ⟨S64x7168, .f32⟩
  | 26 => ⟨S1x1024x1024, .f32⟩
  | 27 => ⟨S1024x1024, .f32⟩
  | 28 => ⟨S1x1024x1024, .f32⟩
  | 29 => ⟨S1024x1024, .f32⟩
  | 30 => ⟨S1x1024x8192, .f32⟩
  | 31 => ⟨S1024x8192, .f32⟩
  | 32 => ⟨S1x1024x8192, .f32⟩
  | 33 => ⟨S1024x8192, .f32⟩
  | 34 => ⟨S1x1024, .f32⟩
  | 35 => ⟨S1024, .f32⟩
  | 36 => ⟨S1x1024, .f32⟩
  | 37 => ⟨S64x1024, .f32⟩
  | 38 => ⟨S_, .i32⟩
  | 39 => ⟨S1, .i32⟩
  | 40 => ⟨S64x7168, .f32⟩
  | 41 => ⟨S1x1024x1024, .f32⟩
  | 42 => ⟨S1024x1024, .f32⟩
  | 43 => ⟨S1x1024x1024, .f32⟩
  | 44 => ⟨S1024x1024, .f32⟩
  | 45 => ⟨S1x1024x8192, .f32⟩
  | 46 => ⟨S1024x8192, .f32⟩
  | 47 => ⟨S1x1024x8192, .f32⟩
  | 48 => ⟨S1024x8192, .f32⟩
  | 49 => ⟨S1x1024x7168, .f32⟩
  | 50 => ⟨S1024x7168, .f32⟩
  | 51 => ⟨S1x1024x7168, .f32⟩
  | 52 => ⟨S1024x7168, .f32⟩
  | 53 => ⟨S1x1024, .f32⟩
  | 54 => ⟨S1024, .f32⟩
  | 55 => ⟨S1x1024, .f32⟩
  | 56 => ⟨S64x1024, .f32⟩
  | 57 => ⟨S_, .i32⟩
  | 58 => ⟨S1, .i32⟩
  | 59 => ⟨S64x7168, .f32⟩
  | 60 => ⟨S1x1024x1024, .f32⟩
  | 61 => ⟨S1024x1024, .f32⟩
  | 62 => ⟨S1x1024x1024, .f32⟩
  | 63 => ⟨S1024x1024, .f32⟩
  | 64 => ⟨S1x1024x8192, .f32⟩
  | 65 => ⟨S1024x8192, .f32⟩
  | 66 => ⟨S1x1024x8192, .f32⟩
  | 67 => ⟨S1024x8192, .f32⟩
  | 68 => ⟨S1x1024x7168, .f32⟩
  | 69 => ⟨S1024x7168, .f32⟩
  | 70 => ⟨S1x1024x7168, .f32⟩
  | 71 => ⟨S1024x7168, .f32⟩
  | 72 => ⟨S1x1024, .f32⟩
  | 73 => ⟨S1024, .f32⟩
  | 74 => ⟨S1x1024, .f32⟩
  | 75 => ⟨S64x1024, .f32⟩
  | 76 => ⟨S_, .i32⟩
  | 77 => ⟨S1, .i32⟩
  | 78 => ⟨S64x7168, .f32⟩
  | 79 => ⟨S1x1024x1024, .f32⟩
  | 80 => ⟨S1024x1024, .f32⟩
  | 81 => ⟨S1x1024x1024, .f32⟩
  | 82 => ⟨S1024x1024, .f32⟩
  | 83 => ⟨S1x1024x8192, .f32⟩
  | 84 => ⟨S1024x8192, .f32⟩
  | 85 => ⟨S1x1024x8192, .f32⟩
  | 86 => ⟨S1024x8192, .f32⟩
  | 87 => ⟨S1x1024x7168, .f32⟩
  | 88 => ⟨S1024x7168, .f32⟩
  | 89 => ⟨S1x1024x7168, .f32⟩
  | 90 => ⟨S1024x7168, .f32⟩
  | 91 => ⟨S1x1024, .f32⟩
  | 92 => ⟨S1024, .f32⟩
  | 93 => ⟨S1x1024, .f32⟩
  | 94 => ⟨S64x1024, .f32⟩
  | 95 => ⟨S_, .i32⟩
  | 96 => ⟨S1, .i32⟩
  | 97 => ⟨S64x7168, .f32⟩
  | 98 => ⟨S1x1024x1024, .f32⟩
  | 99 => ⟨S1024x1024, .f32⟩
  | 100 => ⟨S1x1024x1024, .f32⟩
  | 101 => ⟨S1024x1024, .f32⟩
  | 102 => ⟨S1x1024x8192, .f32⟩
  | 103 => ⟨S1024x8192, .f32⟩
  | 104 => ⟨S1x1024x8192, .f32⟩
  | 105 => ⟨S1024x8192, .f32⟩
  | 106 => ⟨S1x1024x7168, .f32⟩
  | 107 => ⟨S1024x7168, .f32⟩
  | 108 => ⟨S1x1024x7168, .f32⟩
  | 109 => ⟨S1024x7168, .f32⟩
  | 110 => ⟨S1x1024, .f32⟩
  | 111 => ⟨S1024, .f32⟩
  | 112 => ⟨S1x1024, .f32⟩
  | 113 => ⟨S64x1024, .f32⟩
  | 114 => ⟨S_, .i32⟩
  | 115 => ⟨S1, .i32⟩
  | 116 => ⟨S64x7168, .f32⟩
  | 117 => ⟨S1x1024x1024, .f32⟩
  | 118 => ⟨S1024x1024, .f32⟩
  | 119 => ⟨S1x1024x1024, .f32⟩
  | 120 => ⟨S1024x1024, .f32⟩
  | 121 => ⟨S1x1024x8192, .f32⟩
  | 122 => ⟨S1024x8192, .f32⟩
  | 123 => ⟨S1x1024x8192, .f32⟩
  | 124 => ⟨S1024x8192, .f32⟩
  | 125 => ⟨S1x1024x7168, .f32⟩
  | 126 => ⟨S1024x7168, .f32⟩
  | 127 => ⟨S1x1024x7168, .f32⟩
  | _ => ⟨S64x512, .f32⟩

abbrev hbmTy0_1 (i : Nat) : BufTy := match i % 128 with
  | 0 => ⟨S1024x7168, .f32⟩
  | 1 => ⟨S1x1024, .f32⟩
  | 2 => ⟨S1024, .f32⟩
  | 3 => ⟨S1x1024, .f32⟩
  | 4 => ⟨S64x1024, .f32⟩
  | 5 => ⟨S_, .i32⟩
  | 6 => ⟨S1, .i32⟩
  | 7 => ⟨S64x7168, .f32⟩
  | 8 => ⟨S1x1024x1024, .f32⟩
  | 9 => ⟨S1024x1024, .f32⟩
  | 10 => ⟨S1x1024x1024, .f32⟩
  | 11 => ⟨S1024x1024, .f32⟩
  | 12 => ⟨S1x1024x7168, .f32⟩
  | 13 => ⟨S1024x7168, .f32⟩
  | 14 => ⟨S1x1024x7168, .f32⟩
  | 15 => ⟨S1024x7168, .f32⟩
  | 16 => ⟨S1x1024, .f32⟩
  | 17 => ⟨S1024, .f32⟩
  | 18 => ⟨S1x1024, .f32⟩
  | 19 => ⟨S64x1024, .f32⟩
  | 20 => ⟨S1x512, .f32⟩
  | 21 => ⟨S64x512, .f32⟩
  | _ => ⟨S64x512, .f32⟩

abbrev hbmTy (i : Nat) : BufTy := match i / 128 with
  | 0 => hbmTy0_0 i
  | 1 => hbmTy0_1 i
  | _ => ⟨S64x512, .f32⟩

abbrev vmemTy0_0 (i : Nat) : BufTy := match i % 128 with
  | 0 => ⟨S64x512, .f32⟩
  | 1 => ⟨S64x512, .f32⟩
  | 2 => ⟨S1024x512, .f32⟩
  | 3 => ⟨S1024x512, .f32⟩
  | 4 => ⟨S1024x512, .f32⟩
  | 5 => ⟨S1024x512, .f32⟩
  | 6 => ⟨S64x512, .f32⟩
  | 7 => ⟨S64x512, .f32⟩
  | 8 => ⟨S1024x512, .f32⟩
  | 9 => ⟨S1024x512, .f32⟩
  | 10 => ⟨S1024x512, .f32⟩
  | 11 => ⟨S1024x512, .f32⟩
  | 12 => ⟨S1x1024, .f32⟩
  | 13 => ⟨S64x1024, .f32⟩
  | 14 => ⟨S64x1024, .f32⟩
  | 15 => ⟨S64x512, .f32⟩
  | 16 => ⟨S64x512, .f32⟩
  | 17 => ⟨S1024x512, .f32⟩
  | 18 => ⟨S1024x512, .f32⟩
  | 19 => ⟨S1024x512, .f32⟩
  | 20 => ⟨S1024x512, .f32⟩
  | 21 => ⟨S64x512, .f32⟩
  | 22 => ⟨S64x512, .f32⟩
  | 23 => ⟨S1024x512, .f32⟩
  | 24 => ⟨S1024x512, .f32⟩
  | 25 => ⟨S1024x512, .f32⟩
  | 26 => ⟨S1024x512, .f32⟩
  | 27 => ⟨S1x1024, .f32⟩
  | 28 => ⟨S64x1024, .f32⟩
  | 29 => ⟨S64x1024, .f32⟩
  | 30 => ⟨S64x512, .f32⟩
  | 31 => ⟨S64x512, .f32⟩
  | 32 => ⟨S1024x512, .f32⟩
  | 33 => ⟨S1024x512, .f32⟩
  | 34 => ⟨S1024x512, .f32⟩
  | 35 => ⟨S1024x512, .f32⟩
  | 36 => ⟨S64x512, .f32⟩
  | 37 => ⟨S64x512, .f32⟩
  | 38 => ⟨S1024x512, .f32⟩
  | 39 => ⟨S1024x512, .f32⟩
  | 40 => ⟨S1024x512, .f32⟩
  | 41 => ⟨S1024x512, .f32⟩
  | 42 => ⟨S64x512, .f32⟩
  | 43 => ⟨S64x512, .f32⟩
  | 44 => ⟨S1024x512, .f32⟩
  | 45 => ⟨S1024x512, .f32⟩
  | 46 => ⟨S1024x512, .f32⟩
  | 47 => ⟨S1024x512, .f32⟩
  | 48 => ⟨S1x1024, .f32⟩
  | 49 => ⟨S64x1024, .f32⟩
  | 50 => ⟨S64x1024, .f32⟩
  | 51 => ⟨S64x512, .f32⟩
  | 52 => ⟨S64x512, .f32⟩
  | 53 => ⟨S1024x512, .f32⟩
  | 54 => ⟨S1024x512, .f32⟩
  | 55 => ⟨S1024x512, .f32⟩
  | 56 => ⟨S1024x512, .f32⟩
  | 57 => ⟨S64x512, .f32⟩
  | 58 => ⟨S64x512, .f32⟩
  | 59 => ⟨S1024x512, .f32⟩
  | 60 => ⟨S1024x512, .f32⟩
  | 61 => ⟨S1024x512, .f32⟩
  | 62 => ⟨S1024x512, .f32⟩
  | 63 => ⟨S64x512, .f32⟩
  | 64 => ⟨S64x512, .f32⟩
  | 65 => ⟨S1024x512, .f32⟩
  | 66 => ⟨S1024x512, .f32⟩
  | 67 => ⟨S1024x512, .f32⟩
  | 68 => ⟨S1024x512, .f32⟩
  | 69 => ⟨S1x1024, .f32⟩
  | 70 => ⟨S64x1024, .f32⟩
  | 71 => ⟨S64x1024, .f32⟩
  | 72 => ⟨S64x512, .f32⟩
  | 73 => ⟨S64x512, .f32⟩
  | 74 => ⟨S1024x512, .f32⟩
  | 75 => ⟨S1024x512, .f32⟩
  | 76 => ⟨S1024x512, .f32⟩
  | 77 => ⟨S1024x512, .f32⟩
  | 78 => ⟨S64x512, .f32⟩
  | 79 => ⟨S64x512, .f32⟩
  | 80 => ⟨S1024x512, .f32⟩
  | 81 => ⟨S1024x512, .f32⟩
  | 82 => ⟨S1024x512, .f32⟩
  | 83 => ⟨S1024x512, .f32⟩
  | 84 => ⟨S64x512, .f32⟩
  | 85 => ⟨S64x512, .f32⟩
  | 86 => ⟨S1024x512, .f32⟩
  | 87 => ⟨S1024x512, .f32⟩
  | 88 => ⟨S1024x512, .f32⟩
  | 89 => ⟨S1024x512, .f32⟩
  | 90 => ⟨S1x1024, .f32⟩
  | 91 => ⟨S64x1024, .f32⟩
  | 92 => ⟨S64x1024, .f32⟩
  | 93 => ⟨S64x512, .f32⟩
  | 94 => ⟨S64x512, .f32⟩
  | 95 => ⟨S1024x512, .f32⟩
  | 96 => ⟨S1024x512, .f32⟩
  | 97 => ⟨S1024x512, .f32⟩
  | 98 => ⟨S1024x512, .f32⟩
  | 99 => ⟨S64x512, .f32⟩
  | 100 => ⟨S64x512, .f32⟩
  | 101 => ⟨S1024x512, .f32⟩
  | 102 => ⟨S1024x512, .f32⟩
  | 103 => ⟨S1024x512, .f32⟩
  | 104 => ⟨S1024x512, .f32⟩
  | 105 => ⟨S64x512, .f32⟩
  | 106 => ⟨S64x512, .f32⟩
  | 107 => ⟨S1024x512, .f32⟩
  | 108 => ⟨S1024x512, .f32⟩
  | 109 => ⟨S1024x512, .f32⟩
  | 110 => ⟨S1024x512, .f32⟩
  | 111 => ⟨S1x1024, .f32⟩
  | 112 => ⟨S64x1024, .f32⟩
  | 113 => ⟨S64x1024, .f32⟩
  | 114 => ⟨S64x512, .f32⟩
  | 115 => ⟨S64x512, .f32⟩
  | 116 => ⟨S1024x512, .f32⟩
  | 117 => ⟨S1024x512, .f32⟩
  | 118 => ⟨S1024x512, .f32⟩
  | 119 => ⟨S1024x512, .f32⟩
  | 120 => ⟨S64x512, .f32⟩
  | 121 => ⟨S64x512, .f32⟩
  | 122 => ⟨S1024x512, .f32⟩
  | 123 => ⟨S1024x512, .f32⟩
  | 124 => ⟨S1024x512, .f32⟩
  | 125 => ⟨S1024x512, .f32⟩
  | 126 => ⟨S64x512, .f32⟩
  | 127 => ⟨S64x512, .f32⟩
  | _ => ⟨S64x512, .f32⟩

abbrev vmemTy0_1 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1x1024, .f32⟩
  | 5 => ⟨S64x1024, .f32⟩
  | 6 => ⟨S64x1024, .f32⟩
  | 7 => ⟨S64x512, .f32⟩
  | 8 => ⟨S64x512, .f32⟩
  | 9 => ⟨S1024x512, .f32⟩
  | 10 => ⟨S1024x512, .f32⟩
  | 11 => ⟨S1024x512, .f32⟩
  | 12 => ⟨S1024x512, .f32⟩
  | 13 => ⟨S64x512, .f32⟩
  | 14 => ⟨S64x512, .f32⟩
  | 15 => ⟨S1024x512, .f32⟩
  | 16 => ⟨S1024x512, .f32⟩
  | 17 => ⟨S1024x512, .f32⟩
  | 18 => ⟨S1024x512, .f32⟩
  | 19 => ⟨S1x1024, .f32⟩
  | 20 => ⟨S64x1024, .f32⟩
  | 21 => ⟨S64x1024, .f32⟩
  | 22 => ⟨S64x1024, .f32⟩
  | 23 => ⟨S512x1024, .f32⟩
  | 24 => ⟨S1x512, .f32⟩
  | 25 => ⟨S64x512, .f32⟩
  | _ => ⟨S64x512, .f32⟩

abbrev vmemTy (i : Nat) : BufTy := match i / 128 with
  | 0 => vmemTy0_0 i
  | 1 => vmemTy0_1 i
  | _ => ⟨S64x512, .f32⟩

abbrev bufTy : (tb : Table) → Fin (tcTables nBuf tb) → BufTy
  | .hbm, ⟨i, _⟩ => hbmTy i
  | .local _ .vmem, ⟨i, _⟩ => vmemTy i
  | _, _ => ⟨S64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 146 → Bool
  | ⟨i, _⟩ => dmaSemScopedAt i

abbrev sig : RefSig :=
  ofTc nBuf bufTy 0 146 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_4 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_c_5 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_c_6 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_stg7_0 : Ref sig .tc := ⟨.vmem, 44, rfl⟩
abbrev cc2_stg7_1 : Ref sig .tc := ⟨.vmem, 45, rfl⟩
abbrev cc2_stg8_0 : Ref sig .tc := ⟨.vmem, 46, rfl⟩
abbrev cc2_stg8_1 : Ref sig .tc := ⟨.vmem, 47, rfl⟩
abbrev cc2_stg9_0 : Ref sig .tc := ⟨.vmem, 48, rfl⟩
abbrev cc2_stg10_0 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg3_1 : Ref sig .tc := ⟨.vmem, 58, rfl⟩
abbrev cc3_stg4_0 : Ref sig .tc := ⟨.vmem, 59, rfl⟩
abbrev cc3_stg4_1 : Ref sig .tc := ⟨.vmem, 60, rfl⟩
abbrev cc3_stg5_0 : Ref sig .tc := ⟨.vmem, 61, rfl⟩
abbrev cc3_stg5_1 : Ref sig .tc := ⟨.vmem, 62, rfl⟩
abbrev cc3_stg6_0 : Ref sig .tc := ⟨.vmem, 63, rfl⟩
abbrev cc3_stg6_1 : Ref sig .tc := ⟨.vmem, 64, rfl⟩
abbrev cc3_stg7_0 : Ref sig .tc := ⟨.vmem, 65, rfl⟩
abbrev cc3_stg7_1 : Ref sig .tc := ⟨.vmem, 66, rfl⟩
abbrev cc3_stg8_0 : Ref sig .tc := ⟨.vmem, 67, rfl⟩
abbrev cc3_stg8_1 : Ref sig .tc := ⟨.vmem, 68, rfl⟩
abbrev cc3_stg9_0 : Ref sig .tc := ⟨.vmem, 69, rfl⟩
abbrev cc3_stg10_0 : Ref sig .tc := ⟨.vmem, 70, rfl⟩
abbrev cc3_scratch0 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg2_1 : Ref sig .tc := ⟨.vmem, 77, rfl⟩
abbrev cc4_stg3_0 : Ref sig .tc := ⟨.vmem, 78, rfl⟩
abbrev cc4_stg3_1 : Ref sig .tc := ⟨.vmem, 79, rfl⟩
abbrev cc4_stg4_0 : Ref sig .tc := ⟨.vmem, 80, rfl⟩
abbrev cc4_stg4_1 : Ref sig .tc := ⟨.vmem, 81, rfl⟩
abbrev cc4_stg5_0 : Ref sig .tc := ⟨.vmem, 82, rfl⟩
abbrev cc4_stg5_1 : Ref sig .tc := ⟨.vmem, 83, rfl⟩
abbrev cc4_stg6_0 : Ref sig .tc := ⟨.vmem, 84, rfl⟩
abbrev cc4_stg6_1 : Ref sig .tc := ⟨.vmem, 85, rfl⟩
abbrev cc4_stg7_0 : Ref sig .tc := ⟨.vmem, 86, rfl⟩
abbrev cc4_stg7_1 : Ref sig .tc := ⟨.vmem, 87, rfl⟩
abbrev cc4_stg8_0 : Ref sig .tc := ⟨.vmem, 88, rfl⟩
abbrev cc4_stg8_1 : Ref sig .tc := ⟨.vmem, 89, rfl⟩
abbrev cc4_stg9_0 : Ref sig .tc := ⟨.vmem, 90, rfl⟩
abbrev cc4_stg10_0 : Ref sig .tc := ⟨.vmem, 91, rfl⟩
abbrev cc4_scratch0 : Ref sig .tc := ⟨.vmem, 92, rfl⟩
abbrev cc5_stg0_0 : Ref sig .tc := ⟨.vmem, 93, rfl⟩
abbrev cc5_stg0_1 : Ref sig .tc := ⟨.vmem, 94, rfl⟩
abbrev cc5_stg1_0 : Ref sig .tc := ⟨.vmem, 95, rfl⟩
abbrev cc5_stg1_1 : Ref sig .tc := ⟨.vmem, 96, rfl⟩
abbrev cc5_stg2_0 : Ref sig .tc := ⟨.vmem, 97, rfl⟩
abbrev cc5_stg2_1 : Ref sig .tc := ⟨.vmem, 98, rfl⟩
abbrev cc5_stg3_0 : Ref sig .tc := ⟨.vmem, 99, rfl⟩
abbrev cc5_stg3_1 : Ref sig .tc := ⟨.vmem, 100, rfl⟩
abbrev cc5_stg4_0 : Ref sig .tc := ⟨.vmem, 101, rfl⟩
abbrev cc5_stg4_1 : Ref sig .tc := ⟨.vmem, 102, rfl⟩
abbrev cc5_stg5_0 : Ref sig .tc := ⟨.vmem, 103, rfl⟩
abbrev cc5_stg5_1 : Ref sig .tc := ⟨.vmem, 104, rfl⟩
abbrev cc5_stg6_0 : Ref sig .tc := ⟨.vmem, 105, rfl⟩
abbrev cc5_stg6_1 : Ref sig .tc := ⟨.vmem, 106, rfl⟩
abbrev cc5_stg7_0 : Ref sig .tc := ⟨.vmem, 107, rfl⟩
abbrev cc5_stg7_1 : Ref sig .tc := ⟨.vmem, 108, rfl⟩
abbrev cc5_stg8_0 : Ref sig .tc := ⟨.vmem, 109, rfl⟩
abbrev cc5_stg8_1 : Ref sig .tc := ⟨.vmem, 110, rfl⟩
abbrev cc5_stg9_0 : Ref sig .tc := ⟨.vmem, 111, rfl⟩
abbrev cc5_stg10_0 : Ref sig .tc := ⟨.vmem, 112, rfl⟩
abbrev cc5_scratch0 : Ref sig .tc := ⟨.vmem, 113, rfl⟩
abbrev cc6_stg0_0 : Ref sig .tc := ⟨.vmem, 114, rfl⟩
abbrev cc6_stg0_1 : Ref sig .tc := ⟨.vmem, 115, rfl⟩
abbrev cc6_stg1_0 : Ref sig .tc := ⟨.vmem, 116, rfl⟩
abbrev cc6_stg1_1 : Ref sig .tc := ⟨.vmem, 117, rfl⟩
abbrev cc6_stg2_0 : Ref sig .tc := ⟨.vmem, 118, rfl⟩
abbrev cc6_stg2_1 : Ref sig .tc := ⟨.vmem, 119, rfl⟩
abbrev cc6_stg3_0 : Ref sig .tc := ⟨.vmem, 120, rfl⟩
abbrev cc6_stg3_1 : Ref sig .tc := ⟨.vmem, 121, rfl⟩
abbrev cc6_stg4_0 : Ref sig .tc := ⟨.vmem, 122, rfl⟩
abbrev cc6_stg4_1 : Ref sig .tc := ⟨.vmem, 123, rfl⟩
abbrev cc6_stg5_0 : Ref sig .tc := ⟨.vmem, 124, rfl⟩
abbrev cc6_stg5_1 : Ref sig .tc := ⟨.vmem, 125, rfl⟩
abbrev cc6_stg6_0 : Ref sig .tc := ⟨.vmem, 126, rfl⟩
abbrev cc6_stg6_1 : Ref sig .tc := ⟨.vmem, 127, rfl⟩
abbrev cc6_stg7_0 : Ref sig .tc := ⟨.vmem, 128, rfl⟩
abbrev cc6_stg7_1 : Ref sig .tc := ⟨.vmem, 129, rfl⟩
abbrev cc6_stg8_0 : Ref sig .tc := ⟨.vmem, 130, rfl⟩
abbrev cc6_stg8_1 : Ref sig .tc := ⟨.vmem, 131, rfl⟩
abbrev cc6_stg9_0 : Ref sig .tc := ⟨.vmem, 132, rfl⟩
abbrev cc6_stg10_0 : Ref sig .tc := ⟨.vmem, 133, rfl⟩
abbrev cc6_scratch0 : Ref sig .tc := ⟨.vmem, 134, rfl⟩
abbrev cc7_stg0_0 : Ref sig .tc := ⟨.vmem, 135, rfl⟩
abbrev cc7_stg0_1 : Ref sig .tc := ⟨.vmem, 136, rfl⟩
abbrev cc7_stg1_0 : Ref sig .tc := ⟨.vmem, 137, rfl⟩
abbrev cc7_stg1_1 : Ref sig .tc := ⟨.vmem, 138, rfl⟩
abbrev cc7_stg2_0 : Ref sig .tc := ⟨.vmem, 139, rfl⟩
abbrev cc7_stg2_1 : Ref sig .tc := ⟨.vmem, 140, rfl⟩
abbrev cc7_stg3_0 : Ref sig .tc := ⟨.vmem, 141, rfl⟩
abbrev cc7_stg3_1 : Ref sig .tc := ⟨.vmem, 142, rfl⟩
abbrev cc7_stg4_0 : Ref sig .tc := ⟨.vmem, 143, rfl⟩
abbrev cc7_stg4_1 : Ref sig .tc := ⟨.vmem, 144, rfl⟩
abbrev cc7_stg5_0 : Ref sig .tc := ⟨.vmem, 145, rfl⟩
abbrev cc7_stg5_1 : Ref sig .tc := ⟨.vmem, 146, rfl⟩
abbrev cc7_stg6_0 : Ref sig .tc := ⟨.vmem, 147, rfl⟩
abbrev cc7_stg7_0 : Ref sig .tc := ⟨.vmem, 148, rfl⟩
abbrev cc7_scratch0 : Ref sig .tc := ⟨.vmem, 149, rfl⟩
abbrev cc8_stg0_0 : Ref sig .tc := ⟨.vmem, 150, rfl⟩
abbrev cc8_stg1_0 : Ref sig .tc := ⟨.vmem, 151, rfl⟩
abbrev cc8_stg2_0 : Ref sig .tc := ⟨.vmem, 152, rfl⟩
abbrev cc8_stg3_0 : Ref sig .tc := ⟨.vmem, 153, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem10_0 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc3_sem8_0 : DmaSem sig := 64
abbrev cc3_sem8_1 : DmaSem sig := 65
abbrev cc3_sem9_0 : DmaSem sig := 66
abbrev cc3_sem10_0 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73
abbrev cc4_sem3_0 : DmaSem sig := 74
abbrev cc4_sem3_1 : DmaSem sig := 75
abbrev cc4_sem4_0 : DmaSem sig := 76
abbrev cc4_sem4_1 : DmaSem sig := 77
abbrev cc4_sem5_0 : DmaSem sig := 78
abbrev cc4_sem5_1 : DmaSem sig := 79
abbrev cc4_sem6_0 : DmaSem sig := 80
abbrev cc4_sem6_1 : DmaSem sig := 81
abbrev cc4_sem7_0 : DmaSem sig := 82
abbrev cc4_sem7_1 : DmaSem sig := 83
abbrev cc4_sem8_0 : DmaSem sig := 84
abbrev cc4_sem8_1 : DmaSem sig := 85
abbrev cc4_sem9_0 : DmaSem sig := 86
abbrev cc4_sem10_0 : DmaSem sig := 87
abbrev cc5_sem0_0 : DmaSem sig := 88
abbrev cc5_sem0_1 : DmaSem sig := 89
abbrev cc5_sem1_0 : DmaSem sig := 90
abbrev cc5_sem1_1 : DmaSem sig := 91
abbrev cc5_sem2_0 : DmaSem sig := 92
abbrev cc5_sem2_1 : DmaSem sig := 93
abbrev cc5_sem3_0 : DmaSem sig := 94
abbrev cc5_sem3_1 : DmaSem sig := 95
abbrev cc5_sem4_0 : DmaSem sig := 96
abbrev cc5_sem4_1 : DmaSem sig := 97
abbrev cc5_sem5_0 : DmaSem sig := 98
abbrev cc5_sem5_1 : DmaSem sig := 99
abbrev cc5_sem6_0 : DmaSem sig := 100
abbrev cc5_sem6_1 : DmaSem sig := 101
abbrev cc5_sem7_0 : DmaSem sig := 102
abbrev cc5_sem7_1 : DmaSem sig := 103
abbrev cc5_sem8_0 : DmaSem sig := 104
abbrev cc5_sem8_1 : DmaSem sig := 105
abbrev cc5_sem9_0 : DmaSem sig := 106
abbrev cc5_sem10_0 : DmaSem sig := 107
abbrev cc6_sem0_0 : DmaSem sig := 108
abbrev cc6_sem0_1 : DmaSem sig := 109
abbrev cc6_sem1_0 : DmaSem sig := 110
abbrev cc6_sem1_1 : DmaSem sig := 111
abbrev cc6_sem2_0 : DmaSem sig := 112
abbrev cc6_sem2_1 : DmaSem sig := 113
abbrev cc6_sem3_0 : DmaSem sig := 114
abbrev cc6_sem3_1 : DmaSem sig := 115
abbrev cc6_sem4_0 : DmaSem sig := 116
abbrev cc6_sem4_1 : DmaSem sig := 117
abbrev cc6_sem5_0 : DmaSem sig := 118
abbrev cc6_sem5_1 : DmaSem sig := 119
abbrev cc6_sem6_0 : DmaSem sig := 120
abbrev cc6_sem6_1 : DmaSem sig := 121
abbrev cc6_sem7_0 : DmaSem sig := 122
abbrev cc6_sem7_1 : DmaSem sig := 123
abbrev cc6_sem8_0 : DmaSem sig := 124
abbrev cc6_sem8_1 : DmaSem sig := 125
abbrev cc6_sem9_0 : DmaSem sig := 126
abbrev cc6_sem10_0 : DmaSem sig := 127
abbrev cc7_sem0_0 : DmaSem sig := 128
abbrev cc7_sem0_1 : DmaSem sig := 129
abbrev cc7_sem1_0 : DmaSem sig := 130
abbrev cc7_sem1_1 : DmaSem sig := 131
abbrev cc7_sem2_0 : DmaSem sig := 132
abbrev cc7_sem2_1 : DmaSem sig := 133
abbrev cc7_sem3_0 : DmaSem sig := 134
abbrev cc7_sem3_1 : DmaSem sig := 135
abbrev cc7_sem4_0 : DmaSem sig := 136
abbrev cc7_sem4_1 : DmaSem sig := 137
abbrev cc7_sem5_0 : DmaSem sig := 138
abbrev cc7_sem5_1 : DmaSem sig := 139
abbrev cc7_sem6_0 : DmaSem sig := 140
abbrev cc7_sem7_0 : DmaSem sig := 141
abbrev cc8_sem0_0 : DmaSem sig := 142
abbrev cc8_sem1_0 : DmaSem sig := 143
abbrev cc8_sem2_0 : DmaSem sig := 144
abbrev cc8_sem3_0 : DmaSem sig := 145

abbrev nD : Nat := 1
abbrev τ : Topo := Topo.v7x

variable {F : FTy → Type} [FloatOps F]

abbrev grid0 : Pipeline.Grid := ⟨1, ![17], ![false]⟩

def k0_cond4 (i : grid0.Coords) : BitVec 1 :=
  let arg0 : BitVec 32 := BitVec.ofNat 32 (i 0).val
  let c16_i32 : BitVec 32 := 16#32
  let v13 : BitVec 1 := Scalar.cmpi .eq arg0 c16_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let v2 : BitVec 32 := Scalar.minsi v1 c0_i32_1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let v2 : BitVec 32 := Scalar.minsi v1 c0_i32_1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let v2 : BitVec 32 := Scalar.minsi v1 c0_i32_1
  let c0_i32_2 : BitVec 32 := 0#32
  let c0_i32_3 : BitVec 32 := 0#32
  ![c0_i32_2.toNat, v2.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![18], ![false]⟩

def k1_cond4 (i : grid1.Coords) : BitVec 1 :=
  let arg0 : BitVec 32 := BitVec.ofNat 32 (i 0).val
  let c17_i32 : BitVec 32 := 17#32
  let v13 : BitVec 1 := Scalar.cmpi .eq arg0 c17_i32
  let v14 : BitVec 32 := Scalar.extui v13
  let c0_i32_5 : BitVec 32 := 0#32
  let v15 : BitVec 1 := Scalar.cmpi .ne v14 c0_i32_5
  v15

def cc1_transform_0 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc1_transform_1 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc1_transform_2 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc1_transform_3 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc1_transform_4 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc1_transform_5 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![32], ![false]⟩

def k2_cond5 (i : grid2.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_7 : BitVec 32 := 0#32
  let v20 : BitVec 1 := Scalar.cmpi .ne v19 c0_i32_7
  v20

def cc2_transform_0 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc2_transform_1 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc2_transform_2 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc2_transform_3 (i : grid2.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc2_transform_4 (i : grid2.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc2_transform_5 (i : grid2.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc2_transform_6 (i : grid2.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc2_transform_7 (i : grid2.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc2_transform_8 (i : grid2.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S64x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![32], ![false]⟩

def k3_cond5 (i : grid3.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_7 : BitVec 32 := 0#32
  let v20 : BitVec 1 := Scalar.cmpi .ne v19 c0_i32_7
  v20

def cc3_transform_0 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc3_transform_1 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc3_transform_2 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc3_transform_3 (i : grid3.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc3_transform_4 (i : grid3.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc3_transform_5 (i : grid3.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc3_transform_6 (i : grid3.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc3_transform_7 (i : grid3.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc3_transform_8 (i : grid3.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S64x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S64x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1024x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1024x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![32], ![false]⟩

def k4_cond5 (i : grid4.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_7 : BitVec 32 := 0#32
  let v20 : BitVec 1 := Scalar.cmpi .ne v19 c0_i32_7
  v20

def cc4_transform_0 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc4_transform_1 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc4_transform_2 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc4_transform_3 (i : grid4.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc4_transform_4 (i : grid4.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc4_transform_5 (i : grid4.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc4_transform_6 (i : grid4.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc4_transform_7 (i : grid4.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc4_transform_8 (i : grid4.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S64x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S64x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S64x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1024x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1024x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S64x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨1, ![32], ![false]⟩

def k5_cond5 (i : grid5.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_7 : BitVec 32 := 0#32
  let v20 : BitVec 1 := Scalar.cmpi .ne v19 c0_i32_7
  v20

def cc5_transform_0 (i : grid5.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc5_transform_1 (i : grid5.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc5_transform_2 (i : grid5.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc5_transform_3 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc5_transform_4 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc5_transform_5 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc5_transform_6 (i : grid5.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc5_transform_7 (i : grid5.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc5_transform_8 (i : grid5.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S64x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S64x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1024x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S64x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1024x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1024x512 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x1024 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S64x1024 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨1, ![32], ![false]⟩

def k6_cond5 (i : grid6.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_7 : BitVec 32 := 0#32
  let v20 : BitVec 1 := Scalar.cmpi .ne v19 c0_i32_7
  v20

def cc6_transform_0 (i : grid6.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc6_transform_1 (i : grid6.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc6_transform_2 (i : grid6.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc6_transform_3 (i : grid6.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc6_transform_4 (i : grid6.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc6_transform_5 (i : grid6.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c15_i32 : BitVec 32 := 15#32
  let v2 : BitVec 32 := Scalar.minsi v1 c15_i32
  let c0_i32_0 : BitVec 32 := 0#32
  let c0_i32_1 : BitVec 32 := 0#32
  ![c0_i32_0.toNat, v2.toNat]

def cc6_transform_6 (i : grid6.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc6_transform_7 (i : grid6.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc6_transform_8 (i : grid6.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S64x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S64x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1024x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S64x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1024x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1024x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨1, ![16], ![false]⟩

def k7_cond4 (i : grid7.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_5 : BitVec 32 := 0#32
  let v15 : BitVec 1 := Scalar.cmpi .ne v14 c0_i32_5
  v15

def cc7_transform_0 (i : grid7.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc7_transform_1 (i : grid7.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc7_transform_2 (i : grid7.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.minsi v1 c1_i32
  let c0_i32_1 : BitVec 32 := 0#32
  let c0_i32_2 : BitVec 32 := 0#32
  ![c0_i32_1.toNat, v2.toNat]

def cc7_transform_3 (i : grid7.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc7_transform_4 (i : grid7.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc7_transform_5 (i : grid7.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c13_i32 : BitVec 32 := 13#32
  let v2 : BitVec 32 := Scalar.minsi v1 c13_i32
  let c0_i32_0 : BitVec 32 := 0#32
  let c0_i32_1 : BitVec 32 := 0#32
  ![c0_i32_0.toNat, v2.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S64x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S64x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1024x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x1024 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S512x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  bcast_S_S1024x512 : S_.BroadcastsInDim S1024x512 (![] : Fin 0 → Fin S1024x512.rank)
  slices_S7x1024x8192_S1x1024x8192_0_0_0 : S7x1024x8192.Slices ![0, 0, 0] S1x1024x8192
  shapeCasts_S1x1024x8192_S1024x8192 : S1x1024x8192.ShapeCasts S1024x8192
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  bcast_S_S64x7168 : S_.BroadcastsInDim S64x7168 (![] : Fin 0 → Fin S64x7168.rank)
  bcast_S_S1 : S_.BroadcastsInDim S1 (![] : Fin 0 → Fin S1.rank)
  slices_S7x1024x1024_S1x1024x1024_0_0_0 : S7x1024x1024.Slices ![0, 0, 0] S1x1024x1024
  shapeCasts_S1x1024x1024_S1024x1024 : S1x1024x1024.ShapeCasts S1024x1024
  slices_S7x1024x8192_S1x1024x8192_1_0_0 : S7x1024x8192.Slices ![1, 0, 0] S1x1024x8192
  slices_S7x1024_S1x1024_0_0 : S7x1024.Slices ![0, 0] S1x1024
  shapeCasts_S1x1024_S1024 : S1x1024.ShapeCasts S1024
  shapeCasts_S64x512_S64x512 : S64x512.ShapeCasts S64x512
  slices_S7x1024x1024_S1x1024x1024_1_0_0 : S7x1024x1024.Slices ![1, 0, 0] S1x1024x1024
  slices_S7x1024x8192_S1x1024x8192_2_0_0 : S7x1024x8192.Slices ![2, 0, 0] S1x1024x8192
  slices_S6x1024x7168_S1x1024x7168_0_0_0 : S6x1024x7168.Slices ![0, 0, 0] S1x1024x7168
  shapeCasts_S1x1024x7168_S1024x7168 : S1x1024x7168.ShapeCasts S1024x7168
  slices_S7x1024_S1x1024_1_0 : S7x1024.Slices ![1, 0] S1x1024
  slices_S7x1024x1024_S1x1024x1024_2_0_0 : S7x1024x1024.Slices ![2, 0, 0] S1x1024x1024
  slices_S7x1024x8192_S1x1024x8192_3_0_0 : S7x1024x8192.Slices ![3, 0, 0] S1x1024x8192
  slices_S6x1024x7168_S1x1024x7168_1_0_0 : S6x1024x7168.Slices ![1, 0, 0] S1x1024x7168
  slices_S7x1024_S1x1024_2_0 : S7x1024.Slices ![2, 0] S1x1024
  slices_S7x1024x1024_S1x1024x1024_3_0_0 : S7x1024x1024.Slices ![3, 0, 0] S1x1024x1024
  slices_S7x1024x8192_S1x1024x8192_4_0_0 : S7x1024x8192.Slices ![4, 0, 0] S1x1024x8192
  slices_S6x1024x7168_S1x1024x7168_2_0_0 : S6x1024x7168.Slices ![2, 0, 0] S1x1024x7168
  slices_S7x1024_S1x1024_3_0 : S7x1024.Slices ![3, 0] S1x1024
  slices_S7x1024x1024_S1x1024x1024_4_0_0 : S7x1024x1024.Slices ![4, 0, 0] S1x1024x1024
  slices_S7x1024x8192_S1x1024x8192_5_0_0 : S7x1024x8192.Slices ![5, 0, 0] S1x1024x8192
  slices_S6x1024x7168_S1x1024x7168_3_0_0 : S6x1024x7168.Slices ![3, 0, 0] S1x1024x7168
  slices_S7x1024_S1x1024_4_0 : S7x1024.Slices ![4, 0] S1x1024
  slices_S7x1024x1024_S1x1024x1024_5_0_0 : S7x1024x1024.Slices ![5, 0, 0] S1x1024x1024
  slices_S7x1024x8192_S1x1024x8192_6_0_0 : S7x1024x8192.Slices ![6, 0, 0] S1x1024x8192
  slices_S6x1024x7168_S1x1024x7168_4_0_0 : S6x1024x7168.Slices ![4, 0, 0] S1x1024x7168
  slices_S7x1024_S1x1024_5_0 : S7x1024.Slices ![5, 0] S1x1024
  slices_S7x1024x1024_S1x1024x1024_6_0_0 : S7x1024x1024.Slices ![6, 0, 0] S1x1024x1024
  slices_S6x1024x7168_S1x1024x7168_5_0_0 : S6x1024x7168.Slices ![5, 0, 0] S1x1024x7168
  slices_S7x1024_S1x1024_6_0 : S7x1024.Slices ![6, 0] S1x1024
  shapeCasts_S512_S1x512 : S512.ShapeCasts S1x512
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  dot_S64x512_S1024x512_S64x1024_1_1_0_0_n_n_wf : DotDims.WF S64x512 S1024x512 S64x1024 [1] [1] [0] [0] [] []
  scatter_S64x7168_S1_S64x1024_01_n_1_0_wf : ScatterDims.WF S64x7168 S1 S64x1024 [0, 1] [] [1] 0
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x8192.size a
  hwx0_3 : ∀ i : grid0.Coords, EltTy.bits .f32 = 32 ∨ (Rect.block (s := S64x8192) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x8192.size a
  hwx0_4 : ∀ i : grid0.Coords, EltTy.bits .f32 = 32 ∨ (Rect.block (s := S1024x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x8192.size a
  hwx0_5 : ∀ i : grid0.Coords, EltTy.bits .f32 = 32 ∨ (Rect.block (s := S1024x8192) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .f32 = 32 ∨ (Rect.block (s := S64x1024) S64x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x1024.size a
  hwx1_0 : ∀ i : grid1.Coords, EltTy.bits .f32 = 32 ∨ (Rect.block (s := S64x1024) S64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x1024.size a
  hwx1_1 : ∀ i : grid1.Coords, EltTy.bits .f32 = 32 ∨ (Rect.block (s := S1024x1024) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x1024.size a
  hwx1_2 : ∀ i : grid1.Coords, EltTy.bits .f32 = 32 ∨ (Rect.block (s := S1024x1024) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x8192.size a
  hwx1_3 : ∀ i : grid1.Coords, EltTy.bits .f32 = 32 ∨ (Rect.block (s := S64x8192) S64x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S1024x8192.size a
  hwx1_4 : ∀ i : grid1.Coords, EltTy.bits .f32 = 32 ∨ (Rect.block (s := S1024x8192) S1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x8192.size a
  hwx1_5 : ∀ i : grid1.Coords, EltTy.bits .f32 = 32 ∨ (Rect.block (s := S1024x8192) S1024x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1024.size a ≤ S64x1024.size a
  hwx1_7 : ∀ i : grid1.Coords, EltTy.bits .f32 = 32 ∨ (Rect.block (s := S64x1024) S64x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x1024.size a
  hwx2_0 : ∀ i : grid2.Coords, EltTy.bits .f32 = 32 ∨ (Rect.block (s := S64x1024) S64x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .f32 = 32 ∨ (Rect.block (s := S1024x1024) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x1024.size a
  hwx2_2 : ∀ i : grid2.Coords, EltTy.bits .f32 = 32 ∨ (Rect.block (s := S1024x1024) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x8192.size a
  hwx2_3 : ∀ i : grid2.Coords, EltTy.bits .f32 = 32 ∨ (Rect.block (s := S64x8192) S64x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S1024x8192.size a
  hwx2_4 : ∀ i : grid2.Coords, EltTy.bits .f32 = 32 ∨ (Rect.block (s := S1024x8192) S1024x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S1024x8192.size a
  hwx2_5 : ∀ i : grid2.Coords, EltTy.bits .f32 = 32 ∨ (Rect.block (s := S1024x8192) S1024x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x512.size a ≤ S64x7168.size a
  hwx2_6 : ∀ i : grid2.Coords, EltTy.bits .f32 = 32 ∨ (Rect.block (s := S64x7168) S64x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S1024x7168.size a
  hwx2_7 : ∀ i : grid2.Coords, EltTy.bits .f32 = 32 ∨ (Rect.block (s := S1024x7168) S1024x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x512.size a ≤ S1024x7168.size a
  hwx2_8 : ∀ i : grid2.Coords, EltTy.bits .f32 = 32 ∨ (Rect.block (s := S1024x7168) S1024x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1024.size a ≤ S1x1024.size a
  hwx2_9 : ∀ i : grid2.Coords, EltTy.bits .f32 = 32 ∨ (Rect.block (s := S1x1024) S1x1024.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x1024.size a ≤ S64x1024.size a
  hwx2_10 : ∀ i : grid2.Coords, EltTy.bits .f32 = 32 ∨ (Rect.block (s := S64x1024) S64x1024.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x512.size a ≤ S64x1024.size a
  hwx3_0 : ∀ i : grid3.Coords, EltTy.bits .f32 = 32 ∨ (Rect.block (s := S64x1024) S64x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x1024.size a
  hwx3_1 : ∀ i : grid3.Coords, EltTy.bits .f32 = 32 ∨ (Rect.block (s := S1024x1024) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S1024x1024.size a
  hwx3_2 : ∀ i : grid3.Coords, EltTy.bits .f32 = 32 ∨ (Rect.block (s := S1024x1024) S1024x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x512.size a ≤ S64x8192.size a
  hwx3_3 : ∀ i : grid3.Coords, EltTy.bits .f32 = 32 ∨ (Rect.block (s := S64x8192) S64x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S1024x8192.size a
  hwx3_4 : ∀ i : grid3.Coords, EltTy.bits .f32 = 32 ∨ (Rect.block (s := S1024x8192) S1024x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x512.size a ≤ S1024x8192.size a
  hwx3_5 : ∀ i : grid3.Coords, EltTy.bits .f32 = 32 ∨ (Rect.block (s := S1024x8192) S1024x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S64x512.size a ≤ S64x7168.size a
  hwx3_6 : ∀ i : grid3.Coords, EltTy.bits .f32 = 32 ∨ (Rect.block (s := S64x7168) S64x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x512.size a ≤ S1024x7168.size a
  hwx3_7 : ∀ i : grid3.Coords, EltTy.bits .f32 = 32 ∨ (Rect.block (s := S1024x7168) S1024x512.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x512.size a ≤ S1024x7168.size a
  hwx3_8 : ∀ i : grid3.Coords, EltTy.bits .f32 = 32 ∨ (Rect.block (s := S1024x7168) S1024x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1024.size a ≤ S1x1024.size a
  hwx3_9 : ∀ i : grid3.Coords, EltTy.bits .f32 = 32 ∨ (Rect.block (s := S1x1024) S1x1024.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x1024.size a ≤ S64x1024.size a
  hwx3_10 : ∀ i : grid3.Coords, EltTy.bits .f32 = 32 ∨ (Rect.block (s := S64x1024) S64x1024.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x512.size a ≤ S64x1024.size a
  hwx4_0 : ∀ i : grid4.Coords, EltTy.bits .f32 = 32 ∨ (Rect.block (s := S64x1024) S64x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x1024.size a
  hwx4_1 : ∀ i : grid4.Coords, EltTy.bits .f32 = 32 ∨ (Rect.block (s := S1024x1024) S1024x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S1024x1024.size a
  hwx4_2 : ∀ i : grid4.Coords, EltTy.bits .f32 = 32 ∨ (Rect.block (s := S1024x1024) S1024x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x512.size a ≤ S64x8192.size a
  hwx4_3 : ∀ i : grid4.Coords, EltTy.bits .f32 = 32 ∨ (Rect.block (s := S64x8192) S64x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x512.size a ≤ S1024x8192.size a
  hwx4_4 : ∀ i : grid4.Coords, EltTy.bits .f32 = 32 ∨ (Rect.block (s := S1024x8192) S1024x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x512.size a ≤ S1024x8192.size a
  hwx4_5 : ∀ i : grid4.Coords, EltTy.bits .f32 = 32 ∨ (Rect.block (s := S1024x8192) S1024x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x512.size a ≤ S64x7168.size a
  hwx4_6 : ∀ i : grid4.Coords, EltTy.bits .f32 = 32 ∨ (Rect.block (s := S64x7168) S64x512.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x512.size a ≤ S1024x7168.size a
  hwx4_7 : ∀ i : grid4.Coords, EltTy.bits .f32 = 32 ∨ (Rect.block (s := S1024x7168) S1024x512.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x512.size a ≤ S1024x7168.size a
  hwx4_8 : ∀ i : grid4.Coords, EltTy.bits .f32 = 32 ∨ (Rect.block (s := S1024x7168) S1024x512.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1024.size a ≤ S1x1024.size a
  hwx4_9 : ∀ i : grid4.Coords, EltTy.bits .f32 = 32 ∨ (Rect.block (s := S1x1024) S1x1024.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x1024.size a ≤ S64x1024.size a
  hwx4_10 : ∀ i : grid4.Coords, EltTy.bits .f32 = 32 ∨ (Rect.block (s := S64x1024) S64x1024.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x512.size a ≤ S64x1024.size a
  hwx5_0 : ∀ i : grid5.Coords, EltTy.bits .f32 = 32 ∨ (Rect.block (s := S64x1024) S64x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S1024x1024.size a
  hwx5_1 : ∀ i : grid5.Coords, EltTy.bits .f32 = 32 ∨ (Rect.block (s := S1024x1024) S1024x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S1024x1024.size a
  hwx5_2 : ∀ i : grid5.Coords, EltTy.bits .f32 = 32 ∨ (Rect.block (s := S1024x1024) S1024x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S64x512.size a ≤ S64x8192.size a
  hwx5_3 : ∀ i : grid5.Coords, EltTy.bits .f32 = 32 ∨ (Rect.block (s := S64x8192) S64x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x512.size a ≤ S1024x8192.size a
  hwx5_4 : ∀ i : grid5.Coords, EltTy.bits .f32 = 32 ∨ (Rect.block (s := S1024x8192) S1024x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x512.size a ≤ S1024x8192.size a
  hwx5_5 : ∀ i : grid5.Coords, EltTy.bits .f32 = 32 ∨ (Rect.block (s := S1024x8192) S1024x512.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S64x512.size a ≤ S64x7168.size a
  hwx5_6 : ∀ i : grid5.Coords, EltTy.bits .f32 = 32 ∨ (Rect.block (s := S64x7168) S64x512.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1024x512.size a ≤ S1024x7168.size a
  hwx5_7 : ∀ i : grid5.Coords, EltTy.bits .f32 = 32 ∨ (Rect.block (s := S1024x7168) S1024x512.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x512.size a ≤ S1024x7168.size a
  hwx5_8 : ∀ i : grid5.Coords, EltTy.bits .f32 = 32 ∨ (Rect.block (s := S1024x7168) S1024x512.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x1024.size a ≤ S1x1024.size a
  hwx5_9 : ∀ i : grid5.Coords, EltTy.bits .f32 = 32 ∨ (Rect.block (s := S1x1024) S1x1024.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S64x1024.size a ≤ S64x1024.size a
  hwx5_10 : ∀ i : grid5.Coords, EltTy.bits .f32 = 32 ∨ (Rect.block (s := S64x1024) S64x1024.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x512.size a ≤ S64x1024.size a
  hwx6_0 : ∀ i : grid6.Coords, EltTy.bits .f32 = 32 ∨ (Rect.block (s := S64x1024) S64x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S1024x1024.size a
  hwx6_1 : ∀ i : grid6.Coords, EltTy.bits .f32 = 32 ∨ (Rect.block (s := S1024x1024) S1024x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S1024x1024.size a
  hwx6_2 : ∀ i : grid6.Coords, EltTy.bits .f32 = 32 ∨ (Rect.block (s := S1024x1024) S1024x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S64x512.size a ≤ S64x8192.size a
  hwx6_3 : ∀ i : grid6.Coords, EltTy.bits .f32 = 32 ∨ (Rect.block (s := S64x8192) S64x512.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x512.size a ≤ S1024x8192.size a
  hwx6_4 : ∀ i : grid6.Coords, EltTy.bits .f32 = 32 ∨ (Rect.block (s := S1024x8192) S1024x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x512.size a ≤ S1024x8192.size a
  hwx6_5 : ∀ i : grid6.Coords, EltTy.bits .f32 = 32 ∨ (Rect.block (s := S1024x8192) S1024x512.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S64x512.size a ≤ S64x7168.size a
  hwx6_6 : ∀ i : grid6.Coords, EltTy.bits .f32 = 32 ∨ (Rect.block (s := S64x7168) S64x512.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1024x512.size a ≤ S1024x7168.size a
  hwx6_7 : ∀ i : grid6.Coords, EltTy.bits .f32 = 32 ∨ (Rect.block (s := S1024x7168) S1024x512.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x512.size a ≤ S1024x7168.size a
  hwx6_8 : ∀ i : grid6.Coords, EltTy.bits .f32 = 32 ∨ (Rect.block (s := S1024x7168) S1024x512.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1024.size a ≤ S1x1024.size a
  hwx6_9 : ∀ i : grid6.Coords, EltTy.bits .f32 = 32 ∨ (Rect.block (s := S1x1024) S1x1024.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64x1024.size a ≤ S64x1024.size a
  hwx6_10 : ∀ i : grid6.Coords, EltTy.bits .f32 = 32 ∨ (Rect.block (s := S64x1024) S64x1024.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x512.size a ≤ S64x1024.size a
  hwx7_0 : ∀ i : grid7.Coords, EltTy.bits .f32 = 32 ∨ (Rect.block (s := S64x1024) S64x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S1024x1024.size a
  hwx7_1 : ∀ i : grid7.Coords, EltTy.bits .f32 = 32 ∨ (Rect.block (s := S1024x1024) S1024x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x512.size a ≤ S1024x1024.size a
  hwx7_2 : ∀ i : grid7.Coords, EltTy.bits .f32 = 32 ∨ (Rect.block (s := S1024x1024) S1024x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S64x512.size a ≤ S64x7168.size a
  hwx7_3 : ∀ i : grid7.Coords, EltTy.bits .f32 = 32 ∨ (Rect.block (s := S64x7168) S64x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x512.size a ≤ S1024x7168.size a
  hwx7_4 : ∀ i : grid7.Coords, EltTy.bits .f32 = 32 ∨ (Rect.block (s := S1024x7168) S1024x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x512.size a ≤ S1024x7168.size a
  hwx7_5 : ∀ i : grid7.Coords, EltTy.bits .f32 = 32 ∨ (Rect.block (s := S1024x7168) S1024x512.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1024.size a ≤ S1x1024.size a
  hwx7_6 : ∀ i : grid7.Coords, EltTy.bits .f32 = 32 ∨ (Rect.block (s := S1x1024) S1x1024.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x1024.size a ≤ S64x1024.size a
  hwx7_7 : ∀ i : grid7.Coords, EltTy.bits .f32 = 32 ∨ (Rect.block (s := S64x1024) S64x1024.size (cc7_transform_7 i) (hinb7_7 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x1024.size a ≤ S64x1024.size a
  hwx8_0 : ∀ i : grid8.Coords, EltTy.bits .f32 = 32 ∨ (Rect.block (s := S64x1024) S64x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x1024.size a ≤ S512x1024.size a
  hwx8_1 : ∀ i : grid8.Coords, EltTy.bits .f32 = 32 ∨ (Rect.block (s := S512x1024) S512x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x512.size a ≤ S64x512.size a
  hwx8_3 : ∀ i : grid8.Coords, EltTy.bits .f32 = 32 ∨ (Rect.block (s := S64x512) S64x512.size (cc8_transform_3 i) (hinb8_3 i)).WholeWords (EltTy.packing .f32)

variable [Facts₀]

def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def scatter_S64x7168_S1_S64x1024_01_n_1_0 : ScatterDims S64x7168 S1 S64x1024 where
  updateWindowDims := [0, 1]
  insertedWindowDims := []
  scatterDimsToOperandDims := [1]
  indexVectorDim := 0
  wf := scatter_S64x7168_S1_S64x1024_01_n_1_0_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

abbrev win1_0 : Pipeline.Window sig grid1 :=
  Pipeline.Window.ofSpec (Memref.whole main_v6) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S64x1024.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond4 i == 1#1) | ⟨_ + 8, h⟩ => absurd h (Nat.not_lt.2 (Nat.le_add_left _ _))

abbrev win2_0 : Pipeline.Window sig grid2 :=
  Pipeline.Window.ofSpec (Memref.whole main_v21) S64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S64x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1024x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S64x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v33) S1024x512.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v35) S1024x512.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v38) S1x1024.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v39) S64x1024.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond5 i == 1#1) | ⟨_ + 11, h⟩ => absurd h (Nat.not_lt.2 (Nat.le_add_left _ _))

abbrev win3_0 : Pipeline.Window sig grid3 :=
  Pipeline.Window.ofSpec (Memref.whole main_v39) S64x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S64x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1024x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v49) S1024x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41) S64x512.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v51) S1024x512.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v53) S1024x512.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v56) S1x1024.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v57) S64x1024.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond5 i == 1#1) | ⟨_ + 11, h⟩ => absurd h (Nat.not_lt.2 (Nat.le_add_left _ _))

abbrev win4_0 : Pipeline.Window sig grid4 :=
  Pipeline.Window.ofSpec (Memref.whole main_v57) S64x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1024x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S64x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1024x512.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1024x512.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v59) S64x512.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v69) S1024x512.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v71) S1024x512.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v74) S1x1024.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v75) S64x1024.size cc4_transform_10 reads4_10 true true 1 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev idle4 : Fin 11 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k4_cond5 i == 1#1) | ⟨_ + 11, h⟩ => absurd h (Nat.not_lt.2 (Nat.le_add_left _ _))

abbrev win5_0 : Pipeline.Window sig grid5 :=
  Pipeline.Window.ofSpec (Memref.whole main_v75) S64x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1024x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg1) S64x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1024x512.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1024x512.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v77) S64x512.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v87) S1024x512.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v89) S1024x512.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v92) S1x1024.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v93) S64x1024.size cc5_transform_10 reads5_10 true true 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev idle5 : Fin 11 → grid5.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k5_cond5 i == 1#1) | ⟨_ + 11, h⟩ => absurd h (Nat.not_lt.2 (Nat.le_add_left _ _))

abbrev win6_0 : Pipeline.Window sig grid6 :=
  Pipeline.Window.ofSpec (Memref.whole main_v93) S64x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1024x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg1) S64x512.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1024x512.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v103) S1024x512.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v95) S64x512.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v105) S1024x512.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v107) S1024x512.size cc6_transform_8 reads6_8 false false 2 stage6_8 sem6_8
    hrank6 hreads6_8 hinb6_8 nbuf6_8 (Memref.isWhole_whole _) hwx6_8 hstage6_8

abbrev win6_9 : Pipeline.Window sig grid6 :=
  Pipeline.Window.ofSpec (Memref.whole main_v110) S1x1024.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v111) S64x1024.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev idle6 : Fin 11 → grid6.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k6_cond5 i == 1#1) | ⟨_ + 11, h⟩ => absurd h (Nat.not_lt.2 (Nat.le_add_left _ _))

abbrev win7_0 : Pipeline.Window sig grid7 :=
  Pipeline.Window.ofSpec (Memref.whole main_v111) S64x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v117) S1024x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v113) S64x512.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v119) S1024x512.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v121) S1024x512.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v124) S1x1024.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v125) S64x1024.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun _ => false | 7 => fun i => !(k7_cond4 i == 1#1) | ⟨_ + 8, h⟩ => absurd h (Nat.not_lt.2 (Nat.le_add_left _ _))

abbrev win8_0 : Pipeline.Window sig grid8 :=
  Pipeline.Window.ofSpec (Memref.whole main_v125) S64x1024.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S512x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v126) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v127) S64x512.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S64x512 : Shape := ⟨2, ![64, 512]⟩
abbrev S64x8192 : Shape := ⟨2, ![64, 8192]⟩
abbrev S1024x512 : Shape := ⟨2, ![1024, 512]⟩
abbrev S1024 : Shape := ⟨1, ![1024]⟩
abbrev S7x1024x1024 : Shape := ⟨3, ![7, 1024, 1024]⟩
abbrev S7x1024 : Shape := ⟨2, ![7, 1024]⟩
abbrev S7x1024x8192 : Shape := ⟨3, ![7, 1024, 8192]⟩
abbrev S6x1024x7168 : Shape := ⟨3, ![6, 1024, 7168]⟩
abbrev S512x1024 : Shape := ⟨2, ![512, 1024]⟩
abbrev S512 : Shape := ⟨1, ![512]⟩
abbrev S64x1024 : Shape := ⟨2, ![64, 1024]⟩
abbrev S1x1024 : Shape := ⟨2, ![1, 1024]⟩
abbrev S1x1024x8192 : Shape := ⟨3, ![1, 1024, 8192]⟩
abbrev S1024x8192 : Shape := ⟨2, ![1024, 8192]⟩
abbrev S8192x1024 : Shape := ⟨2, ![8192, 1024]⟩
abbrev S_ : Shape := ⟨0, ![]⟩
abbrev S64x7168 : Shape := ⟨2, ![64, 7168]⟩
abbrev S1 : Shape := ⟨1, ![1]⟩
abbrev S1x1024x1024 : Shape := ⟨3, ![1, 1024, 1024]⟩
abbrev S1024x1024 : Shape := ⟨2, ![1024, 1024]⟩
abbrev S1x1024x7168 : Shape := ⟨3, ![1, 1024, 7168]⟩
abbrev S1024x7168 : Shape := ⟨2, ![1024, 7168]⟩
abbrev S7168x1024 : Shape := ⟨2, ![7168, 1024]⟩
abbrev S1x512 : Shape := ⟨2, ![1, 512]⟩

abbrev nBuf : Space → Nat
  | .hbm => 298
  | .vmem => 0
  | .smem => 0
  | _ => 0

abbrev hbmTy0_0 (i : Nat) : BufTy := match i % 128 with
  | 0 => ⟨S64x512, .f32⟩
  | 1 => ⟨S64x8192, .f32⟩
  | 2 => ⟨S1024x512, .f32⟩
  | 3 => ⟨S1024, .f32⟩
  | 4 => ⟨S7x1024x1024, .f32⟩
  | 5 => ⟨S7x1024, .f32⟩
  | 6 => ⟨S7x1024x8192, .f32⟩
  | 7 => ⟨S6x1024x7168, .f32⟩
  | 8 => ⟨S512x1024, .f32⟩
  | 9 => ⟨S512, .f32⟩
  | 10 => ⟨S7x1024x1024, .f32⟩
  | 11 => ⟨S7x1024x8192, .f32⟩
  | 12 => ⟨S6x1024x7168, .f32⟩
  | 13 => ⟨S512x1024, .f32⟩
  | 14 => ⟨S64x1024, .f32⟩
  | 15 => ⟨S1x1024, .f32⟩
  | 16 => ⟨S64x1024, .f32⟩
  | 17 => ⟨S64x1024, .f32⟩
  | 18 => ⟨S1x1024x8192, .f32⟩
  | 19 => ⟨S1024x8192, .f32⟩
  | 20 => ⟨S1x1024x8192, .f32⟩
  | 21 => ⟨S1024x8192, .f32⟩
  | 22 => ⟨S1024x8192, .f32⟩
  | 23 => ⟨S8192x1024, .f32⟩
  | 24 => ⟨S64x1024, .f32⟩
  | 25 => ⟨S64x1024, .f32⟩
  | 26 => ⟨S64x1024, .f32⟩
  | 27 => ⟨S64x1024, .f32⟩
  | 28 => ⟨S_, .f32⟩
  | 29 => ⟨S64x1024, .f32⟩
  | 30 => ⟨S64x1024, .f32⟩
  | 31 => ⟨S_, .f32⟩
  | 32 => ⟨S64x1024, .f32⟩
  | 33 => ⟨S64x1024, .f32⟩
  | 34 => ⟨S_, .f32⟩
  | 35 => ⟨S64x7168, .f32⟩
  | 36 => ⟨S_, .i32⟩
  | 37 => ⟨S1, .i32⟩
  | 38 => ⟨S64x7168, .f32⟩
  | 39 => ⟨S1x1024x1024, .f32⟩
  | 40 => ⟨S1024x1024, .f32⟩
  | 41 => ⟨S1x1024x1024, .f32⟩
  | 42 => ⟨S1024x1024, .f32⟩
  | 43 => ⟨S1024x1024, .f32⟩
  | 44 => ⟨S1024x1024, .f32⟩
  | 45 => ⟨S64x1024, .f32⟩
  | 46 => ⟨S1x1024, .f32⟩
  | 47 => ⟨S1024, .f32⟩
  | 48 => ⟨S1x1024, .f32⟩
  | 49 => ⟨S64x1024, .f32⟩
  | 50 => ⟨S64x1024, .f32⟩
  | 51 => ⟨S1x1024x8192, .f32⟩
  | 52 => ⟨S1024x8192, .f32⟩
  | 53 => ⟨S1x1024x8192, .f32⟩
  | 54 => ⟨S1024x8192, .f32⟩
  | 55 => ⟨S1024x8192, .f32⟩
  | 56 => ⟨S8192x1024, .f32⟩
  | 57 => ⟨S64x1024, .f32⟩
  | 58 => ⟨S64x1024, .f32⟩
  | 59 => ⟨S64x1024, .f32⟩
  | 60 => ⟨S64x1024, .f32⟩
  | 61 => ⟨S_, .f32⟩
  | 62 => ⟨S64x1024, .f32⟩
  | 63 => ⟨S64x1024, .f32⟩
  | 64 => ⟨S_, .f32⟩
  | 65 => ⟨S64x1024, .f32⟩
  | 66 => ⟨S64x1024, .f32⟩
  | 67 => ⟨S_, .i32⟩
  | 68 => ⟨S1, .i32⟩
  | 69 => ⟨S64x7168, .f32⟩
  | 70 => ⟨S1x1024x1024, .f32⟩
  | 71 => ⟨S1024x1024, .f32⟩
  | 72 => ⟨S1x1024x1024, .f32⟩
  | 73 => ⟨S1024x1024, .f32⟩
  | 74 => ⟨S1024x1024, .f32⟩
  | 75 => ⟨S1024x1024, .f32⟩
  | 76 => ⟨S64x1024, .f32⟩
  | 77 => ⟨S1x1024, .f32⟩
  | 78 => ⟨S1024, .f32⟩
  | 79 => ⟨S1x1024, .f32⟩
  | 80 => ⟨S64x1024, .f32⟩
  | 81 => ⟨S64x1024, .f32⟩
  | 82 => ⟨S1x1024x8192, .f32⟩
  | 83 => ⟨S1024x8192, .f32⟩
  | 84 => ⟨S1x1024x8192, .f32⟩
  | 85 => ⟨S1024x8192, .f32⟩
  | 86 => ⟨S1024x8192, .f32⟩
  | 87 => ⟨S8192x1024, .f32⟩
  | 88 => ⟨S64x1024, .f32⟩
  | 89 => ⟨S64x1024, .f32⟩
  | 90 => ⟨S1x1024x7168, .f32⟩
  | 91 => ⟨S1024x7168, .f32⟩
  | 92 => ⟨S1x1024x7168, .f32⟩
  | 93 => ⟨S1024x7168, .f32⟩
  | 94 => ⟨S1024x7168, .f32⟩
  | 95 => ⟨S7168x1024, .f32⟩
  | 96 => ⟨S64x1024, .f32⟩
  | 97 => ⟨S64x1024, .f32⟩
  | 98 => ⟨S64x1024, .f32⟩
  | 99 => ⟨S64x1024, .f32⟩
  | 100 => ⟨S_, .f32⟩
  | 101 => ⟨S64x1024, .f32⟩
  | 102 => ⟨S64x1024, .f32⟩
  | 103 => ⟨S_, .f32⟩
  | 104 => ⟨S64x1024, .f32⟩
  | 105 => ⟨S64x1024, .f32⟩
  | 106 => ⟨S_, .i32⟩
  | 107 => ⟨S1, .i32⟩
  | 108 => ⟨S64x7168, .f32⟩
  | 109 => ⟨S1x1024x1024, .f32⟩
  | 110 => ⟨S1024x1024, .f32⟩
  | 111 => ⟨S1x1024x1024, .f32⟩
  | 112 => ⟨S1024x1024, .f32⟩
  | 113 => ⟨S1024x1024, .f32⟩
  | 114 => ⟨S1024x1024, .f32⟩
  | 115 => ⟨S64x1024, .f32⟩
  | 116 => ⟨S1x1024, .f32⟩
  | 117 => ⟨S1024, .f32⟩
  | 118 => ⟨S1x1024, .f32⟩
  | 119 => ⟨S64x1024, .f32⟩
  | 120 => ⟨S64x1024, .f32⟩
  | 121 => ⟨S1x1024x8192, .f32⟩
  | 122 => ⟨S1024x8192, .f32⟩
  | 123 => ⟨S1x1024x8192, .f32⟩
  | 124 => ⟨S1024x8192, .f32⟩
  | 125 => ⟨S1024x8192, .f32⟩
  | 126 => ⟨S8192x1024, .f32⟩
  | 127 => ⟨S64x1024, .f32⟩
  | _ => ⟨S64x512, .f32⟩

abbrev hbmTy0_1 (i : Nat) : BufTy := match i % 128 with
  | 0 => ⟨S64x1024, .f32⟩
  | 1 => ⟨S1x1024x7168, .f32⟩
  | 2 => ⟨S1024x7168, .f32⟩
  | 3 => ⟨S1x1024x7168, .f32⟩
  | 4 => ⟨S1024x7168, .f32⟩
  | 5 => ⟨S1024x7168, .f32⟩
  | 6 => ⟨S7168x1024, .f32⟩
  | 7 => ⟨S64x1024, .f32⟩
  | 8 => ⟨S64x1024, .f32⟩
  | 9 => ⟨S64x1024, .f32⟩
  | 10 => ⟨S64x1024, .f32⟩
  | 11 => ⟨S_, .f32⟩
  | 12 => ⟨S64x1024, .f32⟩
  | 13 => ⟨S64x1024, .f32⟩
  | 14 => ⟨S_, .f32⟩
  | 15 => ⟨S64x1024, .f32⟩
  | 16 => ⟨S64x1024, .f32⟩
  | 17 => ⟨S_, .i32⟩
  | 18 => ⟨S1, .i32⟩
  | 19 => ⟨S64x7168, .f32⟩
  | 20 => ⟨S1x1024x1024, .f32⟩
  | 21 => ⟨S1024x1024, .f32⟩
  | 22 => ⟨S1x1024x1024, .f32⟩
  | 23 => ⟨S1024x1024, .f32⟩
  | 24 => ⟨S1024x1024, .f32⟩
  | 25 => ⟨S1024x1024, .f32⟩
  | 26 => ⟨S64x1024, .f32⟩
  | 27 => ⟨S1x1024, .f32⟩
  | 28 => ⟨S1024, .f32⟩
  | 29 => ⟨S1x1024, .f32⟩
  | 30 => ⟨S64x1024, .f32⟩
  | 31 => ⟨S64x1024, .f32⟩
  | 32 => ⟨S1x1024x8192, .f32⟩
  | 33 => ⟨S1024x8192, .f32⟩
  | 34 => ⟨S1x1024x8192, .f32⟩
  | 35 => ⟨S1024x8192, .f32⟩
  | 36 => ⟨S1024x8192, .f32⟩
  | 37 => ⟨S8192x1024, .f32⟩
  | 38 => ⟨S64x1024, .f32⟩
  | 39 => ⟨S64x1024, .f32⟩
  | 40 => ⟨S1x1024x7168, .f32⟩
  | 41 => ⟨S1024x7168, .f32⟩
  | 42 => ⟨S1x1024x7168, .f32⟩
  | 43 => ⟨S1024x7168, .f32⟩
  | 44 => ⟨S1024x7168, .f32⟩
  | 45 => ⟨S7168x1024, .f32⟩
  | 46 => ⟨S64x1024, .f32⟩
  | 47 => ⟨S64x1024, .f32⟩
  | 48 => ⟨S64x1024, .f32⟩
  | 49 => ⟨S64x1024, .f32⟩
  | 50 => ⟨S_, .f32⟩
  | 51 => ⟨S64x1024, .f32⟩
  | 52 => ⟨S64x1024, .f32⟩
  | 53 => ⟨S_, .f32⟩
  | 54 => ⟨S64x1024, .f32⟩
  | 55 => ⟨S64x1024, .f32⟩
  | 56 => ⟨S_, .i32⟩
  | 57 => ⟨S1, .i32⟩
  | 58 => ⟨S64x7168, .f32⟩
  | 59 => ⟨S1x1024x1024, .f32⟩
  | 60 => ⟨S1024x1024, .f32⟩
  | 61 => ⟨S1x1024x1024, .f32⟩
  | 62 => ⟨S1024x1024, .f32⟩
  | 63 => ⟨S1024x1024, .f32⟩
  | 64 => ⟨S1024x1024, .f32⟩
  | 65 => ⟨S64x1024, .f32⟩
  | 66 => ⟨S1x1024, .f32⟩
  | 67 => ⟨S1024, .f32⟩
  | 68 => ⟨S1x1024, .f32⟩
  | 69 => ⟨S64x1024, .f32⟩
  | 70 => ⟨S64x1024, .f32⟩
  | 71 => ⟨S1x1024x8192, .f32⟩
  | 72 => ⟨S1024x8192, .f32⟩
  | 73 => ⟨S1x1024x8192, .f32⟩
  | 74 => ⟨S1024x8192, .f32⟩
  | 75 => ⟨S1024x8192, .f32⟩
  | 76 => ⟨S8192x1024, .f32⟩
  | 77 => ⟨S64x1024, .f32⟩
  | 78 => ⟨S64x1024, .f32⟩
  | 79 => ⟨S1x1024x7168, .f32⟩
  | 80 => ⟨S1024x7168, .f32⟩
  | 81 => ⟨S1x1024x7168, .f32⟩
  | 82 => ⟨S1024x7168, .f32⟩
  | 83 => ⟨S1024x7168, .f32⟩
  | 84 => ⟨S7168x1024, .f32⟩
  | 85 => ⟨S64x1024, .f32⟩
  | 86 => ⟨S64x1024, .f32⟩
  | 87 => ⟨S64x1024, .f32⟩
  | 88 => ⟨S64x1024, .f32⟩
  | 89 => ⟨S_, .f32⟩
  | 90 => ⟨S64x1024, .f32⟩
  | 91 => ⟨S64x1024, .f32⟩
  | 92 => ⟨S_, .f32⟩
  | 93 => ⟨S64x1024, .f32⟩
  | 94 => ⟨S64x1024, .f32⟩
  | 95 => ⟨S_, .i32⟩
  | 96 => ⟨S1, .i32⟩
  | 97 => ⟨S64x7168, .f32⟩
  | 98 => ⟨S1x1024x1024, .f32⟩
  | 99 => ⟨S1024x1024, .f32⟩
  | 100 => ⟨S1x1024x1024, .f32⟩
  | 101 => ⟨S1024x1024, .f32⟩
  | 102 => ⟨S1024x1024, .f32⟩
  | 103 => ⟨S1024x1024, .f32⟩
  | 104 => ⟨S64x1024, .f32⟩
  | 105 => ⟨S1x1024, .f32⟩
  | 106 => ⟨S1024, .f32⟩
  | 107 => ⟨S1x1024, .f32⟩
  | 108 => ⟨S64x1024, .f32⟩
  | 109 => ⟨S64x1024, .f32⟩
  | 110 => ⟨S1x1024x8192, .f32⟩
  | 111 => ⟨S1024x8192, .f32⟩
  | 112 => ⟨S1x1024x8192, .f32⟩
  | 113 => ⟨S1024x8192, .f32⟩
  | 114 => ⟨S1024x8192, .f32⟩
  | 115 => ⟨S8192x1024, .f32⟩
  | 116 => ⟨S64x1024, .f32⟩
  | 117 => ⟨S64x1024, .f32⟩
  | 118 => ⟨S1x1024x7168, .f32⟩
  | 119 => ⟨S1024x7168, .f32⟩
  | 120 => ⟨S1x1024x7168, .f32⟩
  | 121 => ⟨S1024x7168, .f32⟩
  | 122 => ⟨S1024x7168, .f32⟩
  | 123 => ⟨S7168x1024, .f32⟩
  | 124 => ⟨S64x1024, .f32⟩
  | 125 => ⟨S64x1024, .f32⟩
  | 126 => ⟨S64x1024, .f32⟩
  | 127 => ⟨S64x1024, .f32⟩
  | _ => ⟨S64x512, .f32⟩

abbrev hbmTy0_2 (i : Nat) : BufTy := match i % 128 with
  | 0 => ⟨S_, .f32⟩
  | 1 => ⟨S64x1024, .f32⟩
  | 2 => ⟨S64x1024, .f32⟩
  | 3 => ⟨S_, .f32⟩
  | 4 => ⟨S64x1024, .f32⟩
  | 5 => ⟨S64x1024, .f32⟩
  | 6 => ⟨S_, .i32⟩
  | 7 => ⟨S1, .i32⟩
  | 8 => ⟨S64x7168, .f32⟩
  | 9 => ⟨S1x1024x1024, .f32⟩
  | 10 => ⟨S1024x1024, .f32⟩
  | 11 => ⟨S1x1024x1024, .f32⟩
  | 12 => ⟨S1024x1024, .f32⟩
  | 13 => ⟨S1024x1024, .f32⟩
  | 14 => ⟨S1024x1024, .f32⟩
  | 15 => ⟨S64x1024, .f32⟩
  | 16 => ⟨S1x1024, .f32⟩
  | 17 => ⟨S1024, .f32⟩
  | 18 => ⟨S1x1024, .f32⟩
  | 19 => ⟨S64x1024, .f32⟩
  | 20 => ⟨S64x1024, .f32⟩
  | 21 => ⟨S1x1024x7168, .f32⟩
  | 22 => ⟨S1024x7168, .f32⟩
  | 23 => ⟨S1x1024x7168, .f32⟩
  | 24 => ⟨S1024x7168, .f32⟩
  | 25 => ⟨S1024x7168, .f32⟩
  | 26 => ⟨S7168x1024, .f32⟩
  | 27 => ⟨S64x1024, .f32⟩
  | 28 => ⟨S64x1024, .f32⟩
  | 29 => ⟨S64x1024, .f32⟩
  | 30 => ⟨S64x1024, .f32⟩
  | 31 => ⟨S_, .f32⟩
  | 32 => ⟨S64x1024, .f32⟩
  | 33 => ⟨S64x1024, .f32⟩
  | 34 => ⟨S_, .f32⟩
  | 35 => ⟨S64x1024, .f32⟩
  | 36 => ⟨S64x1024, .f32⟩
  | 37 => ⟨S1024x512, .f32⟩
  | 38 => ⟨S64x512, .f32⟩
  | 39 => ⟨S1x512, .f32⟩
  | 40 => ⟨S64x512, .f32⟩
  | 41 => ⟨S64x512, .f32⟩
  | _ => ⟨S64x512, .f32⟩

abbrev hbmTy (i : Nat) : BufTy := match i / 128 with
  | 0 => hbmTy0_0 i
  | 1 => hbmTy0_1 i
  | 2 => hbmTy0_2 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_5 : Ref sig .tc := ⟨.hbm, 100, rfl⟩
abbrev main_v80 : Ref sig .tc := ⟨.hbm, 101, rfl⟩
abbrev main_v81 : Ref sig .tc := ⟨.hbm, 102, rfl⟩
abbrev main_cst_6 : Ref sig .tc := ⟨.hbm, 103, rfl⟩
abbrev main_v82 : Ref sig .tc := ⟨.hbm, 104, rfl⟩
abbrev main_v83 : Ref sig .tc := ⟨.hbm, 105, rfl⟩
abbrev main_c_7 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_8 : Ref sig .tc := ⟨.hbm, 139, rfl⟩
abbrev main_v116 : Ref sig .tc := ⟨.hbm, 140, rfl⟩
abbrev main_v117 : Ref sig .tc := ⟨.hbm, 141, rfl⟩
abbrev main_cst_9 : Ref sig .tc := ⟨.hbm, 142, rfl⟩
abbrev main_v118 : Ref sig .tc := ⟨.hbm, 143, rfl⟩
abbrev main_v119 : Ref sig .tc := ⟨.hbm, 144, rfl⟩
abbrev main_c_10 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_11 : Ref sig .tc := ⟨.hbm, 178, rfl⟩
abbrev main_v152 : Ref sig .tc := ⟨.hbm, 179, rfl⟩
abbrev main_v153 : Ref sig .tc := ⟨.hbm, 180, rfl⟩
abbrev main_cst_12 : Ref sig .tc := ⟨.hbm, 181, rfl⟩
abbrev main_v154 : Ref sig .tc := ⟨.hbm, 182, rfl⟩
abbrev main_v155 : Ref sig .tc := ⟨.hbm, 183, rfl⟩
abbrev main_c_13 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_cst_14 : Ref sig .tc := ⟨.hbm, 217, rfl⟩
abbrev main_v188 : Ref sig .tc := ⟨.hbm, 218, rfl⟩
abbrev main_v189 : Ref sig .tc := ⟨.hbm, 219, rfl⟩
abbrev main_cst_15 : Ref sig .tc := ⟨.hbm, 220, rfl⟩
abbrev main_v190 : Ref sig .tc := ⟨.hbm, 221, rfl⟩
abbrev main_v191 : Ref sig .tc := ⟨.hbm, 222, rfl⟩
abbrev main_c_16 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_cst_17 : Ref sig .tc := ⟨.hbm, 256, rfl⟩
abbrev main_v224 : Ref sig .tc := ⟨.hbm, 257, rfl⟩
abbrev main_v225 : Ref sig .tc := ⟨.hbm, 258, rfl⟩
abbrev main_cst_18 : Ref sig .tc := ⟨.hbm, 259, rfl⟩
abbrev main_v226 : Ref sig .tc := ⟨.hbm, 260, rfl⟩
abbrev main_v227 : Ref sig .tc := ⟨.hbm, 261, rfl⟩
abbrev main_c_19 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_cst_20 : Ref sig .tc := ⟨.hbm, 287, rfl⟩
abbrev main_v252 : Ref sig .tc := ⟨.hbm, 288, rfl⟩
abbrev main_v253 : Ref sig .tc := ⟨.hbm, 289, rfl⟩
abbrev main_cst_21 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  slices_S7x1024x8192_S1x1024x8192_0_0_0 : S7x1024x8192.Slices ![0, 0, 0] S1x1024x8192
  shapeCasts_S1x1024x8192_S1024x8192 : S1x1024x8192.ShapeCasts S1024x8192
  transposes_S1024x8192_S8192x1024_1_0 : S1024x8192.Transposes [1, 0] S8192x1024
  bcast_S_S64x1024 : S_.BroadcastsInDim S64x1024 (![] : Fin 0 → Fin S64x1024.rank)
  bcast_S_S64x7168 : S_.BroadcastsInDim S64x7168 (![] : Fin 0 → Fin S64x7168.rank)
  bcast_S_S1 : S_.BroadcastsInDim S1 (![] : Fin 0 → Fin S1.rank)
  slices_S7x1024x1024_S1x1024x1024_0_0_0 : S7x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S7x1024_S1x1024_0_0 : S7x1024.Slices ![0, 0] S1x1024
  shapeCasts_S1x1024_S1024 : S1x1024.ShapeCasts S1024
  slices_S7x1024x8192_S1x1024x8192_1_0_0 : S7x1024x8192.Slices ![1, 0, 0] S1x1024x8192
  slices_S7x1024x1024_S1x1024x1024_1_0_0 : S7x1024x1024.Slices ![1, 0, 0] S1x1024x1024
  slices_S7x1024_S1x1024_1_0 : S7x1024.Slices ![1, 0] S1x1024
  slices_S7x1024x8192_S1x1024x8192_2_0_0 : S7x1024x8192.Slices ![2, 0, 0] S1x1024x8192
  slices_S6x1024x7168_S1x1024x7168_0_0_0 : S6x1024x7168.Slices ![0, 0, 0] S1x1024x7168
  shapeCasts_S1x1024x7168_S1024x7168 : S1x1024x7168.ShapeCasts S1024x7168
  transposes_S1024x7168_S7168x1024_1_0 : S1024x7168.Transposes [1, 0] S7168x1024
  slices_S7x1024x1024_S1x1024x1024_2_0_0 : S7x1024x1024.Slices ![2, 0, 0] S1x1024x1024
  slices_S7x1024_S1x1024_2_0 : S7x1024.Slices ![2, 0] S1x1024
  slices_S7x1024x8192_S1x1024x8192_3_0_0 : S7x1024x8192.Slices ![3, 0, 0] S1x1024x8192
  slices_S6x1024x7168_S1x1024x7168_1_0_0 : S6x1024x7168.Slices ![1, 0, 0] S1x1024x7168
  slices_S7x1024x1024_S1x1024x1024_3_0_0 : S7x1024x1024.Slices ![3, 0, 0] S1x1024x1024
  slices_S7x1024_S1x1024_3_0 : S7x1024.Slices ![3, 0] S1x1024
  slices_S7x1024x8192_S1x1024x8192_4_0_0 : S7x1024x8192.Slices ![4, 0, 0] S1x1024x8192
  slices_S6x1024x7168_S1x1024x7168_2_0_0 : S6x1024x7168.Slices ![2, 0, 0] S1x1024x7168
  slices_S7x1024x1024_S1x1024x1024_4_0_0 : S7x1024x1024.Slices ![4, 0, 0] S1x1024x1024
  slices_S7x1024_S1x1024_4_0 : S7x1024.Slices ![4, 0] S1x1024
  slices_S7x1024x8192_S1x1024x8192_5_0_0 : S7x1024x8192.Slices ![5, 0, 0] S1x1024x8192
  slices_S6x1024x7168_S1x1024x7168_3_0_0 : S6x1024x7168.Slices ![3, 0, 0] S1x1024x7168
  slices_S7x1024x1024_S1x1024x1024_5_0_0 : S7x1024x1024.Slices ![5, 0, 0] S1x1024x1024
  slices_S7x1024_S1x1024_5_0 : S7x1024.Slices ![5, 0] S1x1024
  slices_S7x1024x8192_S1x1024x8192_6_0_0 : S7x1024x8192.Slices ![6, 0, 0] S1x1024x8192
  slices_S6x1024x7168_S1x1024x7168_4_0_0 : S6x1024x7168.Slices ![4, 0, 0] S1x1024x7168
  slices_S7x1024x1024_S1x1024x1024_6_0_0 : S7x1024x1024.Slices ![6, 0, 0] S1x1024x1024
  slices_S7x1024_S1x1024_6_0 : S7x1024.Slices ![6, 0] S1x1024
  slices_S6x1024x7168_S1x1024x7168_5_0_0 : S6x1024x7168.Slices ![5, 0, 0] S1x1024x7168
  transposes_S512x1024_S1024x512_1_0 : S512x1024.Transposes [1, 0] S1024x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  dot_S64x512_S512x1024_S64x1024_1_0_0_1_n_n_wf : DotDims.WF S64x512 S512x1024 S64x1024 [1] [0] [0] [1] [] []
  dot_S64x8192_S8192x1024_S64x1024_1_0_0_1_n_n_wf : DotDims.WF S64x8192 S8192x1024 S64x1024 [1] [0] [0] [1] [] []
  scatter_S64x7168_S1_S64x1024_01_n_1_0_wf : ScatterDims.WF S64x7168 S1 S64x1024 [0, 1] [] [1] 0
  dot_S64x1024_S1024x1024_S64x1024_1_0_0_1_n_n_wf : DotDims.WF S64x1024 S1024x1024 S64x1024 [1] [0] [0] [1] [] []
  dot_S64x7168_S7168x1024_S64x1024_1_0_0_1_n_n_wf : DotDims.WF S64x7168 S7168x1024 S64x1024 [1] [0] [0] [1] [] []
  dot_S64x1024_S1024x512_S64x512_1_0_0_1_n_n_wf : DotDims.WF S64x1024 S1024x512 S64x512 [1] [0] [0] [1] [] []

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x8192_S8192x1024_S64x1024_1_0_0_1_n_n : DotDims S64x8192 S8192x1024 S64x1024 where
  lhsContracting := [1]
  rhsContracting := [0]
  lhsNonContracting := [0]
  rhsNonContracting := [1]
  lhsBatch := []
  rhsBatch := []
  wf := dot_S64x8192_S8192x1024_S64x1024_1_0_0_1_n_n_wf
def scatter_S64x7168_S1_S64x1024_01_n_1_0 : ScatterDims S64x7168 S1 S64x1024 where
  updateWindowDims := [0, 1]
  insertedWindowDims := []
  scatterDimsToOperandDims := [1]
  indexVectorDim := 0
  wf := scatter_S64x7168_S1_S64x1024_01_n_1_0_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x7168_S7168x1024_S64x1024_1_0_0_1_n_n : DotDims S64x7168 S7168x1024 S64x1024 where
  lhsContracting := [1]
  rhsContracting := [0]
  lhsNonContracting := [0]
  rhsNonContracting := [1]
  lhsBatch := []
  rhsBatch := []
  wf := dot_S64x7168_S7168x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

class Facts : Prop extends Facts₀ where

variable [Facts]
-- ==== Proof.K.R0Runs.lean ====
/- Region 0 (2 masked-matmul term(s), K-tiles at points 0..0, 1..16; accumulated in a scratch buffer; bias and sigmoid at the last point):
   the body's branch conditions and its run in each control case the 17 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's branch conditions as functions of the grid position -/

/-- "first point": the accumulator is reset. -/
abbrev cond0_1 (i : grid0.Coords) : Prop := (Scalar.cmpi .ne (Scalar.extui (Scalar.cmpi .eq (BitVec.ofNat 32 (i 0).val) 0#32)) 0#32) = 1#1
/-- term 0's K-tiles: points 0 to 0. -/
abbrev cond0_2 (i : grid0.Coords) : Prop := (Scalar.cmpi .ne (Scalar.extui (Scalar.andi (Scalar.cmpi .sge (BitVec.ofNat 32 (i 0).val) 0#32) (Scalar.cmpi .slt (BitVec.ofNat 32 (i 0).val) 1#32))) 0#32) = 1#1
/-- term 1's K-tiles: points 1 to 16. -/
abbrev cond0_3 (i : grid0.Coords) : Prop := (Scalar.cmpi .ne (Scalar.extui (Scalar.andi (Scalar.cmpi .sge (BitVec.ofNat 32 (i 0).val) 1#32) (Scalar.cmpi .slt (BitVec.ofNat 32 (i 0).val) 17#32))) 0#32) = 1#1
/-- "last point": bias, sigmoid, store. -/
abbrev cond0_4 (i : grid0.Coords) : Prop := k0_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨[], ?_, fun xi E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨[], ?_, fun xi E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.Kernel.Hand

end
-- ==== Proof.K.R0Frame.lean ====
/- Region 0: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: where each case sits on the grid -/
theorem case0_A : ∀ t : Fin cfg0.N, t.val = 0 → cond0_1 (grid0.coords t) ∧ cond0_2 (grid0.coords t) ∧ ¬cond0_3 (grid0.coords t) ∧ ¬cond0_4 (grid0.coords t) :=
  (by decide +kernel : ∀ t : Fin grid0.N, t.val = 0 → cond0_1 (grid0.coords t) ∧ cond0_2 (grid0.coords t) ∧ ¬cond0_3 (grid0.coords t) ∧ ¬cond0_4 (grid0.coords t))
theorem case0_Z : ∀ t : Fin cfg0.N, t.val ≠ 0 → t.val = 16 → ¬cond0_1 (grid0.coords t) ∧ ¬cond0_2 (grid0.coords t) ∧ cond0_3 (grid0.coords t) ∧ cond0_4 (grid0.coords t) :=
  (by decide +kernel : ∀ t : Fin grid0.N, t.val ≠ 0 → t.val = 16 → ¬cond0_1 (grid0.coords t) ∧ ¬cond0_2 (grid0.coords t) ∧ cond0_3 (grid0.coords t) ∧ cond0_4 (grid0.coords t))
theorem case0_B : ∀ t : Fin cfg0.N, t.val ≠ 0 → ¬t.val = 16 → ¬cond0_1 (grid0.coords t) ∧ ¬cond0_2 (grid0.coords t) ∧ cond0_3 (grid0.coords t) ∧ ¬cond0_4 (grid0.coords t) :=
  (by decide +kernel : ∀ t : Fin grid0.N, t.val ≠ 0 → ¬t.val = 16 → ¬cond0_1 (grid0.coords t) ∧ ¬cond0_2 (grid0.coords t) ∧ cond0_3 (grid0.coords t) ∧ ¬cond0_4 (grid0.coords t))

/-! ## The windows' blocks, the staging buffers and the accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0 : View sig .tc .vmem S64x1024 .f32 := (Memref.whole cc0_stg7_0 : Memref sig .tc .vmem S64x1024 .f32).view
abbrev ms0_0 (t : Fin cfg0.N) : Memref sig .tc .vmem S64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1024 .f32 := win0_7.stage (cfg0.slots t 7)
abbrev hs0_7 (t : Fin cfg0.N) : (ms0_7 t).IsWhole := hstage0_7 ((cfg0.slots t 7).cast nbuf0_7)
abbrev scM0 : Memref sig .tc .vmem S64x1024 .f32 := Memref.whole cc0_scratch0
abbrev VS0 : View sig .tc .vmem S64x1024 .f32 := scM0.view
/-- Every scoped buffer that is neither a staging buffer of this region nor its accumulator, at some contents. -/
abbrev restBut0 (c : Dev nD) : sProp 𝕄 := Pipeline.scopedRestBut (Ix := Unit) (Name := ℕ) (U := UR sig nD τ) (Lvl := ℕ) (Val := Elt F) spec0 c [cc0_scratch0]

/-- The class invariant with the accumulator taken out of the scoped rest. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA; rw [scopedRest0_split]; simp only [scM0, owns_whole]; try rfl

/-! ## Where the windows are idle -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem idle0_7 : ∀ t : Fin cfg0.N, t.val ≠ 16 → cfg0.idle 7 (grid0.coords t) = true := by decide +kernel
theorem noFlush0_7 : ∀ t : Fin cfg0.N, t.val ≠ 16 → (cfg0.win 7).flush t = false := by decide +kernel
theorem live0_7 : ∀ t : Fin cfg0.N, t.val = 16 → cfg0.idle 7 (grid0.coords t) = false := by decide +kernel

theorem live0_0_all : ∀ i, cfg0.idle 0 i = false := fun _ => rfl
theorem live0_1_all : ∀ i, cfg0.idle 1 i = false := fun _ => rfl
theorem live0_2_all : ∀ i, cfg0.idle 2 i = false := fun _ => rfl
theorem live0_3_all : ∀ i, cfg0.idle 3 i = false := fun _ => rfl
theorem live0_4_all : ∀ i, cfg0.idle 4 i = false := fun _ => rfl
theorem live0_5_all : ∀ i, cfg0.idle 5 i = false := fun _ => rfl
theorem live0_6_all : ∀ i, cfg0.idle 6 i = false := fun _ => rfl

/-! ## What each case leaves in the accumulator (and, at the last point, in the output's buffer) -/

theorem scover0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun0_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS0.read (Elt F) (VS0.writes (Elt F) VS0.junk (kernelRun0_A c i arg1 harg1 arg2 harg2 arg3 harg3 arg4 harg4 arg5 harg5 arg6 harg6 arg7 harg7 arg8 harg8 arg9 harg9 hc1 hc2 hc3 hc4 x1 x2 x3 x4 x5 x6 x7).2.1)

theorem scover0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS0.read (Elt F) (VS0.writes (Elt F) VS0.junk (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO0.read (Elt F) (VO0.writes (Elt F) VO0.junk (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS0.read (Elt F) (VS0.writes (Elt F) VS0.junk (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut0 : Vec F S64x1024 .f32 := VO0.read (Elt F) (VO0.writes (Elt F) VO0.junk [])

/-! ## The accumulation, point by point -/

/-- After the body at position `n`: (the output's staging buffer, the accumulator). -/
def outsAt0 (c : Dev nD) : (n : ℕ) → n < cfg0.N → Vec F S64x1024 .f32 × Vec F S64x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((case0_A ⟨0, hn⟩ rfl).1) ((case0_A ⟨0, hn⟩ rfl).2.1) ((case0_A ⟨0, hn⟩ rfl).2.2.1) ((case0_A ⟨0, hn⟩ rfl).2.2.2) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : n + 1 = 16 then
      (out0_Z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_Z ⟨n + 1, hn⟩ (Nat.succ_ne_zero n) h0).1) ((case0_Z ⟨n + 1, hn⟩ (Nat.succ_ne_zero n) h0).2.1) ((case0_Z ⟨n + 1, hn⟩ (Nat.succ_ne_zero n) h0).2.2.1) ((case0_Z ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_Z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_Z ⟨n + 1, hn⟩ (Nat.succ_ne_zero n) h0).1) ((case0_Z ⟨n + 1, hn⟩ (Nat.succ_ne_zero n) h0).2.1) ((case0_Z ⟨n + 1, hn⟩ (Nat.succ_ne_zero n) h0).2.2.1) ((case0_Z ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_B ⟨n + 1, hn⟩ (Nat.succ_ne_zero n) h0).1) ((case0_B ⟨n + 1, hn⟩ (Nat.succ_ne_zero n) h0).2.1) ((case0_B ⟨n + 1, hn⟩ (Nat.succ_ne_zero n) h0).2.2.1) ((case0_B ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (hz : t.val = 0) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_A t hz).1) ((case0_A t hz).2.1) ((case0_A t hz).2.2.1) ((case0_A t hz).2.2.2) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact absurd hz (Nat.succ_ne_zero n)

theorem outsAt0_Z (c : Dev nD) (t : Fin cfg0.N) (hz : t.val ≠ 0) (h0 : t.val = 16) :
    outsAt0 V c t.val t.isLt = (out0_Z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_Z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact absurd rfl hz
  | succ n => exact (dif_pos h0).trans rfl

theorem outsAt0_B (c : Dev nD) (t : Fin cfg0.N) (hz : t.val ≠ 0) (h0 : ¬t.val = 16) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_B t hz h0).1) ((case0_B t hz h0).2.1) ((case0_B t hz h0).2.2.1) ((case0_B t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact absurd rfl hz
  | succ n => exact (dif_neg h0).trans (rfl)

/-! ## The region's invariant: before the first point the class's; afterwards the accumulator at what the point before left -/

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (live0_0_all) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (live0_1_all) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (live0_2_all) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (live0_3_all) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (live0_4_all) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (live0_5_all) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (live0_6_all) (fun _ _ _ => rfl) (fun t => by rw [after0_6]; unfold Dat.blockOf iblk0; rw [A_eq0]; try rfl) t d).trans
    (by unfold Dat.fetched Dat.blockOf iblk0; rw [A_eq0]; try rfl)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]
theorem leaves0_3 (c : Dev nD) (t : Fin cfg0.N) : (dat0 V c).leavesExact 3 t = owns (c : Thread nD τ) (ms0_3 t) fullShare (iblk0 V c 3 t) := by
  unfold Dat.leavesExact; rw [live0_3 t, after0_3]
theorem leaves0_4 (c : Dev nD) (t : Fin cfg0.N) : (dat0 V c).leavesExact 4 t = owns (c : Thread nD τ) (ms0_4 t) fullShare (iblk0 V c 4 t) := by
  unfold Dat.leavesExact; rw [live0_4 t, after0_4]
theorem leaves0_5 (c : Dev nD) (t : Fin cfg0.N) : (dat0 V c).leavesExact 5 t = owns (c : Thread nD τ) (ms0_5 t) fullShare (iblk0 V c 5 t) := by
  unfold Dat.leavesExact; rw [live0_5 t, after0_5]
theorem leaves0_6 (c : Dev nD) (t : Fin cfg0.N) : (dat0 V c).leavesExact 6 t = owns (c : Thread nD τ) (ms0_6 t) fullShare (iblk0 V c 6 t) := by
  unfold Dat.leavesExact; rw [live0_6 t, after0_6]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the case the point is in decides the branches; the invariant hands the body the accumulator at
    what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6]
  have hN : t.val < 17 := lt_of_lt_of_eq t.isLt (show cfg0.N = 17 from N_0)
  by_cases hz : t.val = 0
  · have hne : t.val ≠ 16 := by omega
    rw [Dat.leavesExact_idle (dat0 V c) 7 t (idle0_7 t hne) (noFlush0_7 t hne)]
    rw [outsAt0_A V c t hz]
    unfold sout0_A; (try dsimp only)
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((case0_A t hz).1) ((case0_A t hz).2.1) ((case0_A t hz).2.2.1) ((case0_A t hz).2.2.2) (iblk0 V c 0 t) (iblk0 V c 1 t) (iblk0 V c 2 t) (iblk0 V c 3 t) (iblk0 V c 4 t) (iblk0 V c 5 t) (iblk0 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 16
    · have hlast : t.val = 16 := by omega
      rw [show (dat0 V c).leavesExact 7 t = owns (c : Thread nD τ) (ms0_7 t) fullShare ((dat0 V c).after 7 t) from by
        unfold Dat.leavesExact; rw [live0_7 t hlast], after0_7]
      rw [outsAt0_Z V c t hz h0]
      unfold out0_Z sout0_Z; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_Z c (grid0.coords t) _ _ _ _ _ _ _ _ _ _ _ _ _ _ _ _ _ _ ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover0_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_Z c _ _ _ _ _ _ _ _ _ _ _ _ _ _ _ _ _ _ _ _ _ _ _ _ _ _ _ _ _ _ _)
    · have hne : t.val ≠ 16 := by omega
      rw [Dat.leavesExact_idle (dat0 V c) 7 t (idle0_7 t hne) (noFlush0_7 t hne)]
      rw [outsAt0_B V c t hz h0]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ ((case0_B t hz h0).1) ((case0_B t hz h0).2.1) ((case0_B t hz h0).2.2.1) ((case0_B t hz h0).2.2.2) (iblk0 V c 0 t) (iblk0 V c 1 t) (iblk0 V c 2 t) (iblk0 V c 3 t) (iblk0 V c 4 t) (iblk0 V c 5 t) (iblk0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%eS, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 17 := N_0; omega), PhiA0_eq]
  iintro ⟨⟨HS, Hrest⟩, Hg⟩
  isplitl [HS Hrest]
  · isplitl [HS]
    · iexists _; iexact HS
    iexact Hrest
  iexact Hg

end Cert.Kernel.Hand

end
-- ==== Proof.K.R1Runs.lean ====
/- Region 1 (2 masked-matmul term(s), K-tiles at points 0..1, 2..17; accumulated in a scratch buffer; bias and sigmoid at the last point):
   the body's branch conditions and its run in each control case the 18 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the body's branch conditions as functions of the grid position -/

/-- "first point": the accumulator is reset. -/
abbrev cond1_1 (i : grid1.Coords) : Prop := (Scalar.cmpi .ne (Scalar.extui (Scalar.cmpi .eq (BitVec.ofNat 32 (i 0).val) 0#32)) 0#32) = 1#1
/-- term 0's K-tiles: points 0 to 1. -/
abbrev cond1_2 (i : grid1.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond1_3 (i : grid1.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- "last point": bias, sigmoid, store. -/
abbrev cond1_4 (i : grid1.Coords) : Prop := k1_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.Kernel.Hand

end
-- ==== Proof.K.R1Frame.lean ====
/- Region 1: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: where each case sits on the grid -/
theorem case1_A : ∀ t : Fin cfg1.N, t.val = 0 → cond1_1 (grid1.coords t) ∧ cond1_2 (grid1.coords t) ∧ ¬cond1_3 (grid1.coords t) ∧ ¬cond1_4 (grid1.coords t) :=
  (by decide +kernel : ∀ t : Fin grid1.N, t.val = 0 → cond1_1 (grid1.coords t) ∧ cond1_2 (grid1.coords t) ∧ ¬cond1_3 (grid1.coords t) ∧ ¬cond1_4 (grid1.coords t))
theorem case1_Z : ∀ t : Fin cfg1.N, t.val ≠ 0 → t.val = 17 → ¬cond1_1 (grid1.coords t) ∧ ¬cond1_2 (grid1.coords t) ∧ cond1_3 (grid1.coords t) ∧ cond1_4 (grid1.coords t) :=
  (by decide +kernel : ∀ t : Fin grid1.N, t.val ≠ 0 → t.val = 17 → ¬cond1_1 (grid1.coords t) ∧ ¬cond1_2 (grid1.coords t) ∧ cond1_3 (grid1.coords t) ∧ cond1_4 (grid1.coords t))
theorem case1_B : ∀ t : Fin cfg1.N, t.val ≠ 0 → ¬t.val = 17 → t.val = 1 → ¬cond1_1 (grid1.coords t) ∧ cond1_2 (grid1.coords t) ∧ ¬cond1_3 (grid1.coords t) ∧ ¬cond1_4 (grid1.coords t) :=
  (by decide +kernel : ∀ t : Fin grid1.N, t.val ≠ 0 → ¬t.val = 17 → t.val = 1 → ¬cond1_1 (grid1.coords t) ∧ cond1_2 (grid1.coords t) ∧ ¬cond1_3 (grid1.coords t) ∧ ¬cond1_4 (grid1.coords t))
theorem case1_C : ∀ t : Fin cfg1.N, t.val ≠ 0 → ¬t.val = 17 → ¬t.val = 1 → ¬cond1_1 (grid1.coords t) ∧ ¬cond1_2 (grid1.coords t) ∧ cond1_3 (grid1.coords t) ∧ ¬cond1_4 (grid1.coords t) :=
  (by decide +kernel : ∀ t : Fin grid1.N, t.val ≠ 0 → ¬t.val = 17 → ¬t.val = 1 → ¬cond1_1 (grid1.coords t) ∧ ¬cond1_2 (grid1.coords t) ∧ cond1_3 (grid1.coords t) ∧ ¬cond1_4 (grid1.coords t))

/-! ## The windows' blocks, the staging buffers and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1 : View sig .tc .vmem S64x1024 .f32 := (Memref.whole cc1_stg7_0 : Memref sig .tc .vmem S64x1024 .f32).view
abbrev ms1_0 (t : Fin cfg1.N) : Memref sig .tc .vmem S64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1024 .f32 := win1_7.stage (cfg1.slots t 7)
abbrev hs1_7 (t : Fin cfg1.N) : (ms1_7 t).IsWhole := hstage1_7 ((cfg1.slots t 7).cast nbuf1_7)
abbrev scM1 : Memref sig .tc .vmem S64x1024 .f32 := Memref.whole cc1_scratch0
abbrev VS1 : View sig .tc .vmem S64x1024 .f32 := scM1.view
/-- Every scoped buffer that is neither a staging buffer of this region nor its accumulator, at some contents. -/
abbrev restBut1 (c : Dev nD) : sProp 𝕄 := Pipeline.scopedRestBut (Ix := Unit) (Name := ℕ) (U := UR sig nD τ) (Lvl := ℕ) (Val := Elt F) spec1 c [cc1_scratch0]

/-- The class invariant with the accumulator taken out of the scoped rest. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

/-! ## Where the windows are idle -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem idle1_7 : ∀ t : Fin cfg1.N, t.val ≠ 17 → cfg1.idle 7 (grid1.coords t) = true := by decide +kernel
theorem noFlush1_7 : ∀ t : Fin cfg1.N, t.val ≠ 17 → (cfg1.win 7).flush t = false := by decide +kernel
theorem live1_7 : ∀ t : Fin cfg1.N, t.val = 17 → cfg1.idle 7 (grid1.coords t) = false := by decide +kernel

theorem live1_0_all : ∀ i, cfg1.idle 0 i = false := fun _ => rfl
theorem live1_1_all : ∀ i, cfg1.idle 1 i = false := fun _ => rfl
theorem live1_2_all : ∀ i, cfg1.idle 2 i = false := fun _ => rfl
theorem live1_3_all : ∀ i, cfg1.idle 3 i = false := fun _ => rfl
theorem live1_4_all : ∀ i, cfg1.idle 4 i = false := fun _ => rfl
theorem live1_5_all : ∀ i, cfg1.idle 5 i = false := fun _ => rfl
theorem live1_6_all : ∀ i, cfg1.idle 6 i = false := fun _ => rfl

/-! ## What each case leaves in the accumulator (and, at the last point, in the output's buffer) -/

theorem scover1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun1_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS1.read (Elt F) (VS1.writes (Elt F) VS1.junk (kernelRun1_A c i arg1 harg1 arg2 harg2 arg3 harg3 arg4 harg4 arg5 harg5 arg6 harg6 arg7 harg7 arg8 harg8 arg9 harg9 hc1 hc2 hc3 hc4 x1 x2 x3 x4 x5 x6 x7).2.1)

theorem scover1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO1.read (Elt F) (VO1.writes (Elt F) VO1.junk (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1)

theorem scover1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut1 : Vec F S64x1024 .f32 := VO1.read (Elt F) (VO1.writes (Elt F) VO1.junk [])

/-! ## The accumulation, point by point -/

/-- After the body at position `n`: (the output's staging buffer, the accumulator). -/
def outsAt1 (c : Dev nD) : (n : ℕ) → n < cfg1.N → Vec F S64x1024 .f32 × Vec F S64x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((case1_A ⟨0, hn⟩ rfl).1) ((case1_A ⟨0, hn⟩ rfl).2.1) ((case1_A ⟨0, hn⟩ rfl).2.2.1) ((case1_A ⟨0, hn⟩ rfl).2.2.2) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : n + 1 = 17 then
      (out1_Z c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_Z ⟨n + 1, hn⟩ (Nat.succ_ne_zero n) h0).1) ((case1_Z ⟨n + 1, hn⟩ (Nat.succ_ne_zero n) h0).2.1) ((case1_Z ⟨n + 1, hn⟩ (Nat.succ_ne_zero n) h0).2.2.1) ((case1_Z ⟨n + 1, hn⟩ (Nat.succ_ne_zero n) h0).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_Z c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_Z ⟨n + 1, hn⟩ (Nat.succ_ne_zero n) h0).1) ((case1_Z ⟨n + 1, hn⟩ (Nat.succ_ne_zero n) h0).2.1) ((case1_Z ⟨n + 1, hn⟩ (Nat.succ_ne_zero n) h0).2.2.1) ((case1_Z ⟨n + 1, hn⟩ (Nat.succ_ne_zero n) h0).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
    else
      if h1 : n + 1 = 1 then
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_B ⟨n + 1, hn⟩ (Nat.succ_ne_zero n) h0 h1).1) ((case1_B ⟨n + 1, hn⟩ (Nat.succ_ne_zero n) h0 h1).2.1) ((case1_B ⟨n + 1, hn⟩ (Nat.succ_ne_zero n) h0 h1).2.2.1) ((case1_B ⟨n + 1, hn⟩ (Nat.succ_ne_zero n) h0 h1).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (idleOut1, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_C ⟨n + 1, hn⟩ (Nat.succ_ne_zero n) h0 h1).1) ((case1_C ⟨n + 1, hn⟩ (Nat.succ_ne_zero n) h0 h1).2.1) ((case1_C ⟨n + 1, hn⟩ (Nat.succ_ne_zero n) h0 h1).2.2.1) ((case1_C ⟨n + 1, hn⟩ (Nat.succ_ne_zero n) h0 h1).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (hz : t.val = 0) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_A t hz).1) ((case1_A t hz).2.1) ((case1_A t hz).2.2.1) ((case1_A t hz).2.2.2) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact absurd hz (Nat.succ_ne_zero n)

theorem outsAt1_Z (c : Dev nD) (t : Fin cfg1.N) (hz : t.val ≠ 0) (h0 : t.val = 17) :
    outsAt1 V c t.val t.isLt = (out1_Z c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_Z c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_pos h0).trans rfl

theorem outsAt1_B (c : Dev nD) (t : Fin cfg1.N) (hz : t.val ≠ 0) (h0 : ¬t.val = 17) (h1 : t.val = 1) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_B t hz h0 h1).1) ((case1_B t hz h0 h1).2.1) ((case1_B t hz h0 h1).2.2.1) ((case1_B t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt1_C (c : Dev nD) (t : Fin cfg1.N) (hz : t.val ≠ 0) (h0 : ¬t.val = 17) (h1 : ¬t.val = 1) :
    outsAt1 V c t.val t.isLt = (idleOut1, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_C t hz h0 h1).1) ((case1_C t hz h0 h1).2.1) ((case1_C t hz h0 h1).2.2.1) ((case1_C t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_neg h0).trans ((dif_neg h1).trans (rfl))

/-! ## The region's invariant: before the first point the class's; afterwards the accumulator at what the point before left -/

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (live1_0_all) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (live1_1_all) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (live1_2_all) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (live1_3_all) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (live1_4_all) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (live1_5_all) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (live1_6_all) (fun _ _ _ => rfl) (fun t => by rw [after1_6]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
theorem leaves1_3 (c : Dev nD) (t : Fin cfg1.N) : (dat1 V c).leavesExact 3 t = owns (c : Thread nD τ) (ms1_3 t) fullShare (iblk1 V c 3 t) := by
  unfold Dat.leavesExact; rw [live1_3 t, after1_3]
theorem leaves1_4 (c : Dev nD) (t : Fin cfg1.N) : (dat1 V c).leavesExact 4 t = owns (c : Thread nD τ) (ms1_4 t) fullShare (iblk1 V c 4 t) := by
  unfold Dat.leavesExact; rw [live1_4 t, after1_4]
theorem leaves1_5 (c : Dev nD) (t : Fin cfg1.N) : (dat1 V c).leavesExact 5 t = owns (c : Thread nD τ) (ms1_5 t) fullShare (iblk1 V c 5 t) := by
  unfold Dat.leavesExact; rw [live1_5 t, after1_5]
theorem leaves1_6 (c : Dev nD) (t : Fin cfg1.N) : (dat1 V c).leavesExact 6 t = owns (c : Thread nD τ) (ms1_6 t) fullShare (iblk1 V c 6 t) := by
  unfold Dat.leavesExact; rw [live1_6 t, after1_6]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the case the point is in decides the branches; the invariant hands the body the accumulator at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 18 := lt_of_lt_of_eq t.isLt (show cfg1.N = 18 from N_1)
  by_cases hz : t.val = 0
  · have hne : t.val ≠ 17 := by omega
    rw [Dat.leavesExact_idle (dat1 V c) 7 t (idle1_7 t hne) (noFlush1_7 t hne)]
    rw [outsAt1_A V c t hz]
    unfold sout1_A; (try dsimp only)
    rw [PhiS1_castSucc V c t, PhiS1_zero V c _ _ hz, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((case1_A t hz).1) ((case1_A t hz).2.1) ((case1_A t hz).2.2.1) ((case1_A t hz).2.2.2) (iblk1 V c 0 t) (iblk1 V c 1 t) (iblk1 V c 2 t) (iblk1 V c 3 t) (iblk1 V c 4 t) (iblk1 V c 5 t) (iblk1 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 17
    · have hlast : t.val = 17 := by omega
      rw [show (dat1 V c).leavesExact 7 t = owns (c : Thread nD τ) (ms1_7 t) fullShare ((dat1 V c).after 7 t) from by
        unfold Dat.leavesExact; rw [live1_7 t hlast], after1_7]
      rw [outsAt1_Z V c t hz h0]
      unfold out1_Z sout1_Z; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover1_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_Z c _ _ _ _ _ _ _ _ _ _ _ _ _ _ _ _ _ _ _ _ _ _ _ _ _ _ _ _ _ _ _)
    · by_cases h1 : t.val = 1
      · have hne : t.val ≠ 17 := by omega
        rw [Dat.leavesExact_idle (dat1 V c) 7 t (idle1_7 t hne) (noFlush1_7 t hne)]
        rw [outsAt1_B V c t hz h0 h1]
        unfold sout1_B; (try dsimp only)
        rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ ((case1_B t hz h0 h1).1) ((case1_B t hz h0 h1).2.1) ((case1_B t hz h0 h1).2.2.1) ((case1_B t hz h0 h1).2.2.2) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover1_B c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · have hne : t.val ≠ 17 := by omega
        rw [Dat.leavesExact_idle (dat1 V c) 7 t (idle1_7 t hne) (noFlush1_7 t hne)]
        rw [outsAt1_C V c t hz h0 h1]
        unfold sout1_C; (try dsimp only)
        rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ ((case1_C t hz h0 h1).1) ((case1_C t hz h0 h1).2.1) ((case1_C t hz h0 h1).2.2.1) ((case1_C t hz h0 h1).2.2.2) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover1_C c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 18 := N_1; omega), PhiA1_eq]
  iintro ⟨⟨HS, Hrest⟩, Hg⟩
  isplitl [HS Hrest]
  · isplitl [HS]
    · iexists _; iexact HS
    iexact Hrest
  iexact Hg

end Cert.Kernel.Hand

end
-- ==== Proof.K.R2Runs.lean ====
/- Region 2 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the body's branch conditions as functions of the grid position -/

/-- "first point": the accumulator is reset. -/
abbrev cond2_1 (i : grid2.Coords) : Prop := (Scalar.cmpi .ne (Scalar.extui (Scalar.cmpi .eq (BitVec.ofNat 32 (i 0).val) 0#32)) 0#32) = 1#1
/-- term 0's K-tiles: points 0 to 1. -/
abbrev cond2_2 (i : grid2.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond2_3 (i : grid2.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond2_4 (i : grid2.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond2_5 (i : grid2.Coords) : Prop := k2_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.Kernel.Hand

end
-- ==== Proof.K.R2Frame.lean ====
/- Region 2: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: where each case sits on the grid -/
theorem case2_A : ∀ t : Fin cfg2.N, t.val = 0 → cond2_1 (grid2.coords t) ∧ cond2_2 (grid2.coords t) ∧ ¬cond2_3 (grid2.coords t) ∧ ¬cond2_4 (grid2.coords t) ∧ ¬cond2_5 (grid2.coords t) :=
  (by decide +kernel : ∀ t : Fin grid2.N, t.val = 0 → cond2_1 (grid2.coords t) ∧ cond2_2 (grid2.coords t) ∧ ¬cond2_3 (grid2.coords t) ∧ ¬cond2_4 (grid2.coords t) ∧ ¬cond2_5 (grid2.coords t))
theorem case2_Z : ∀ t : Fin cfg2.N, t.val ≠ 0 → t.val = 31 → ¬cond2_1 (grid2.coords t) ∧ ¬cond2_2 (grid2.coords t) ∧ ¬cond2_3 (grid2.coords t) ∧ cond2_4 (grid2.coords t) ∧ cond2_5 (grid2.coords t) :=
  (by decide +kernel : ∀ t : Fin grid2.N, t.val ≠ 0 → t.val = 31 → ¬cond2_1 (grid2.coords t) ∧ ¬cond2_2 (grid2.coords t) ∧ ¬cond2_3 (grid2.coords t) ∧ cond2_4 (grid2.coords t) ∧ cond2_5 (grid2.coords t))
theorem case2_B : ∀ t : Fin cfg2.N, t.val ≠ 0 → ¬t.val = 31 → t.val = 1 → ¬cond2_1 (grid2.coords t) ∧ cond2_2 (grid2.coords t) ∧ ¬cond2_3 (grid2.coords t) ∧ ¬cond2_4 (grid2.coords t) ∧ ¬cond2_5 (grid2.coords t) :=
  (by decide +kernel : ∀ t : Fin grid2.N, t.val ≠ 0 → ¬t.val = 31 → t.val = 1 → ¬cond2_1 (grid2.coords t) ∧ cond2_2 (grid2.coords t) ∧ ¬cond2_3 (grid2.coords t) ∧ ¬cond2_4 (grid2.coords t) ∧ ¬cond2_5 (grid2.coords t))
theorem case2_C : ∀ t : Fin cfg2.N, t.val ≠ 0 → ¬t.val = 31 → ¬t.val = 1 → (2 ≤ t.val ∧ t.val ≤ 17) → ¬cond2_1 (grid2.coords t) ∧ ¬cond2_2 (grid2.coords t) ∧ cond2_3 (grid2.coords t) ∧ ¬cond2_4 (grid2.coords t) ∧ ¬cond2_5 (grid2.coords t) :=
  (by decide +kernel : ∀ t : Fin grid2.N, t.val ≠ 0 → ¬t.val = 31 → ¬t.val = 1 → (2 ≤ t.val ∧ t.val ≤ 17) → ¬cond2_1 (grid2.coords t) ∧ ¬cond2_2 (grid2.coords t) ∧ cond2_3 (grid2.coords t) ∧ ¬cond2_4 (grid2.coords t) ∧ ¬cond2_5 (grid2.coords t))
theorem case2_D : ∀ t : Fin cfg2.N, t.val ≠ 0 → ¬t.val = 31 → ¬t.val = 1 → ¬(2 ≤ t.val ∧ t.val ≤ 17) → ¬cond2_1 (grid2.coords t) ∧ ¬cond2_2 (grid2.coords t) ∧ ¬cond2_3 (grid2.coords t) ∧ cond2_4 (grid2.coords t) ∧ ¬cond2_5 (grid2.coords t) :=
  (by decide +kernel : ∀ t : Fin grid2.N, t.val ≠ 0 → ¬t.val = 31 → ¬t.val = 1 → ¬(2 ≤ t.val ∧ t.val ≤ 17) → ¬cond2_1 (grid2.coords t) ∧ ¬cond2_2 (grid2.coords t) ∧ ¬cond2_3 (grid2.coords t) ∧ cond2_4 (grid2.coords t) ∧ ¬cond2_5 (grid2.coords t))

/-! ## The windows' blocks, the staging buffers and the accumulator -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev VO2 : View sig .tc .vmem S64x1024 .f32 := (Memref.whole cc2_stg10_0 : Memref sig .tc .vmem S64x1024 .f32).view
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1024x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1024 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64x1024 .f32 := win2_10.stage (cfg2.slots t 10)
abbrev hs2_10 (t : Fin cfg2.N) : (ms2_10 t).IsWhole := hstage2_10 ((cfg2.slots t 10).cast nbuf2_10)
abbrev scM2 : Memref sig .tc .vmem S64x1024 .f32 := Memref.whole cc2_scratch0
abbrev VS2 : View sig .tc .vmem S64x1024 .f32 := scM2.view
/-- Every scoped buffer that is neither a staging buffer of this region nor its accumulator, at some contents. -/
abbrev restBut2 (c : Dev nD) : sProp 𝕄 := Pipeline.scopedRestBut (Ix := Unit) (Name := ℕ) (U := UR sig nD τ) (Lvl := ℕ) (Val := Elt F) spec2 c [cc2_scratch0]

/-- The class invariant with the accumulator taken out of the scoped rest. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel
theorem idle2_10 : ∀ t : Fin cfg2.N, t.val ≠ 31 → cfg2.idle 10 (grid2.coords t) = true := by decide +kernel
theorem noFlush2_10 : ∀ t : Fin cfg2.N, t.val ≠ 31 → (cfg2.win 10).flush t = false := by decide +kernel
theorem live2_10 : ∀ t : Fin cfg2.N, t.val = 31 → cfg2.idle 10 (grid2.coords t) = false := by decide +kernel

theorem live2_0_all : ∀ i, cfg2.idle 0 i = false := fun _ => rfl
theorem live2_1_all : ∀ i, cfg2.idle 1 i = false := fun _ => rfl
theorem live2_2_all : ∀ i, cfg2.idle 2 i = false := fun _ => rfl
theorem live2_3_all : ∀ i, cfg2.idle 3 i = false := fun _ => rfl
theorem live2_4_all : ∀ i, cfg2.idle 4 i = false := fun _ => rfl
theorem live2_5_all : ∀ i, cfg2.idle 5 i = false := fun _ => rfl
theorem live2_6_all : ∀ i, cfg2.idle 6 i = false := fun _ => rfl
theorem live2_7_all : ∀ i, cfg2.idle 7 i = false := fun _ => rfl
theorem live2_8_all : ∀ i, cfg2.idle 8 i = false := fun _ => rfl
theorem live2_9_all : ∀ i, cfg2.idle 9 i = false := fun _ => rfl

/-! ## What each case leaves in the accumulator (and, at the last point, in the output's buffer) -/

theorem scover2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS2.read (Elt F) (VS2.writes (Elt F) VS2.junk (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO2.read (Elt F) (VO2.writes (Elt F) VO2.junk (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut2 : Vec F S64x1024 .f32 := VO2.read (Elt F) (VO2.writes (Elt F) VO2.junk [])

/-! ## The accumulation, point by point -/

/-- After the body at position `n`: (the output's staging buffer, the accumulator). -/
def outsAt2 (c : Dev nD) : (n : ℕ) → n < cfg2.N → Vec F S64x1024 .f32 × Vec F S64x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2 (Memref.isWhole_whole _) ((case2_A ⟨0, hn⟩ rfl).1) ((case2_A ⟨0, hn⟩ rfl).2.1) ((case2_A ⟨0, hn⟩ rfl).2.2.1) ((case2_A ⟨0, hn⟩ rfl).2.2.2.1) ((case2_A ⟨0, hn⟩ rfl).2.2.2.2) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : n + 1 = 31 then
      (out2_Z c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_Z ⟨n + 1, hn⟩ (Nat.succ_ne_zero n) h0).1) ((case2_Z ⟨n + 1, hn⟩ (Nat.succ_ne_zero n) h0).2.1) ((case2_Z ⟨n + 1, hn⟩ (Nat.succ_ne_zero n) h0).2.2.1) ((case2_Z ⟨n + 1, hn⟩ (Nat.succ_ne_zero n) h0).2.2.2.1) ((case2_Z ⟨n + 1, hn⟩ (Nat.succ_ne_zero n) h0).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_Z c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_Z ⟨n + 1, hn⟩ (Nat.succ_ne_zero n) h0).1) ((case2_Z ⟨n + 1, hn⟩ (Nat.succ_ne_zero n) h0).2.1) ((case2_Z ⟨n + 1, hn⟩ (Nat.succ_ne_zero n) h0).2.2.1) ((case2_Z ⟨n + 1, hn⟩ (Nat.succ_ne_zero n) h0).2.2.2.1) ((case2_Z ⟨n + 1, hn⟩ (Nat.succ_ne_zero n) h0).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
    else
      if h1 : n + 1 = 1 then
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_B ⟨n + 1, hn⟩ (Nat.succ_ne_zero n) h0 h1).1) ((case2_B ⟨n + 1, hn⟩ (Nat.succ_ne_zero n) h0 h1).2.1) ((case2_B ⟨n + 1, hn⟩ (Nat.succ_ne_zero n) h0 h1).2.2.1) ((case2_B ⟨n + 1, hn⟩ (Nat.succ_ne_zero n) h0 h1).2.2.2.1) ((case2_B ⟨n + 1, hn⟩ (Nat.succ_ne_zero n) h0 h1).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
      else
        if h2 : (2 ≤ n + 1 ∧ n + 1 ≤ 17) then
          (idleOut2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_C ⟨n + 1, hn⟩ (Nat.succ_ne_zero n) h0 h1 h2).1) ((case2_C ⟨n + 1, hn⟩ (Nat.succ_ne_zero n) h0 h1 h2).2.1) ((case2_C ⟨n + 1, hn⟩ (Nat.succ_ne_zero n) h0 h1 h2).2.2.1) ((case2_C ⟨n + 1, hn⟩ (Nat.succ_ne_zero n) h0 h1 h2).2.2.2.1) ((case2_C ⟨n + 1, hn⟩ (Nat.succ_ne_zero n) h0 h1 h2).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
        else
          (idleOut2, sout2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_D ⟨n + 1, hn⟩ (Nat.succ_ne_zero n) h0 h1 h2).1) ((case2_D ⟨n + 1, hn⟩ (Nat.succ_ne_zero n) h0 h1 h2).2.1) ((case2_D ⟨n + 1, hn⟩ (Nat.succ_ne_zero n) h0 h1 h2).2.2.1) ((case2_D ⟨n + 1, hn⟩ (Nat.succ_ne_zero n) h0 h1 h2).2.2.2.1) ((case2_D ⟨n + 1, hn⟩ (Nat.succ_ne_zero n) h0 h1 h2).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)

theorem outsAt2_A (c : Dev nD) (t : Fin cfg2.N) (hz : t.val = 0) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_A t hz).1) ((case2_A t hz).2.1) ((case2_A t hz).2.2.1) ((case2_A t hz).2.2.2.1) ((case2_A t hz).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact absurd hz (Nat.succ_ne_zero n)

theorem outsAt2_Z (c : Dev nD) (t : Fin cfg2.N) (hz : t.val ≠ 0) (h0 : t.val = 31) :
    outsAt2 V c t.val t.isLt = (out2_Z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_Z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_pos h0).trans rfl

theorem outsAt2_B (c : Dev nD) (t : Fin cfg2.N) (hz : t.val ≠ 0) (h0 : ¬t.val = 31) (h1 : t.val = 1) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_B t hz h0 h1).1) ((case2_B t hz h0 h1).2.1) ((case2_B t hz h0 h1).2.2.1) ((case2_B t hz h0 h1).2.2.2.1) ((case2_B t hz h0 h1).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt2_C (c : Dev nD) (t : Fin cfg2.N) (hz : t.val ≠ 0) (h0 : ¬t.val = 31) (h1 : ¬t.val = 1) (h2 : (2 ≤ t.val ∧ t.val ≤ 17)) :
    outsAt2 V c t.val t.isLt = (idleOut2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_C t hz h0 h1 h2).1) ((case2_C t hz h0 h1 h2).2.1) ((case2_C t hz h0 h1 h2).2.2.1) ((case2_C t hz h0 h1 h2).2.2.2.1) ((case2_C t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt2_D (c : Dev nD) (t : Fin cfg2.N) (hz : t.val ≠ 0) (h0 : ¬t.val = 31) (h1 : ¬t.val = 1) (h2 : ¬(2 ≤ t.val ∧ t.val ≤ 17)) :
    outsAt2 V c t.val t.isLt = (idleOut2, sout2_D c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_D t hz h0 h1 h2).1) ((case2_D t hz h0 h1 h2).2.1) ((case2_D t hz h0 h1 h2).2.2.1) ((case2_D t hz h0 h1 h2).2.2.2.1) ((case2_D t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (live2_0_all) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (live2_1_all) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (live2_2_all) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (live2_3_all) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (live2_4_all) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (live2_5_all) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (live2_6_all) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (live2_7_all) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (live2_8_all) (fun _ _ _ => rfl) (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (live2_9_all) (fun _ _ _ => rfl) (fun t => by rw [after2_9]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (iblk2 V c 2 t) := by
  unfold Dat.leavesExact; rw [live2_2 t, after2_2]
theorem leaves2_3 (c : Dev nD) (t : Fin cfg2.N) : (dat2 V c).leavesExact 3 t = owns (c : Thread nD τ) (ms2_3 t) fullShare (iblk2 V c 3 t) := by
  unfold Dat.leavesExact; rw [live2_3 t, after2_3]
theorem leaves2_4 (c : Dev nD) (t : Fin cfg2.N) : (dat2 V c).leavesExact 4 t = owns (c : Thread nD τ) (ms2_4 t) fullShare (iblk2 V c 4 t) := by
  unfold Dat.leavesExact; rw [live2_4 t, after2_4]
theorem leaves2_5 (c : Dev nD) (t : Fin cfg2.N) : (dat2 V c).leavesExact 5 t = owns (c : Thread nD τ) (ms2_5 t) fullShare (iblk2 V c 5 t) := by
  unfold Dat.leavesExact; rw [live2_5 t, after2_5]
theorem leaves2_6 (c : Dev nD) (t : Fin cfg2.N) : (dat2 V c).leavesExact 6 t = owns (c : Thread nD τ) (ms2_6 t) fullShare (iblk2 V c 6 t) := by
  unfold Dat.leavesExact; rw [live2_6 t, after2_6]
theorem leaves2_7 (c : Dev nD) (t : Fin cfg2.N) : (dat2 V c).leavesExact 7 t = owns (c : Thread nD τ) (ms2_7 t) fullShare (iblk2 V c 7 t) := by
  unfold Dat.leavesExact; rw [live2_7 t, after2_7]
theorem leaves2_8 (c : Dev nD) (t : Fin cfg2.N) : (dat2 V c).leavesExact 8 t = owns (c : Thread nD τ) (ms2_8 t) fullShare (iblk2 V c 8 t) := by
  unfold Dat.leavesExact; rw [live2_8 t, after2_8]
theorem leaves2_9 (c : Dev nD) (t : Fin cfg2.N) : (dat2 V c).leavesExact 9 t = owns (c : Thread nD τ) (ms2_9 t) fullShare (iblk2 V c 9 t) := by
  unfold Dat.leavesExact; rw [live2_9 t, after2_9]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
/-- The body at any point: the case the point is in decides the branches; the invariant hands the body the accumulator at
    what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8, leaves2_9]
  have hN : t.val < 32 := lt_of_lt_of_eq t.isLt (show cfg2.N = 32 from N_2)
  by_cases hz : t.val = 0
  · have hne : t.val ≠ 31 := by omega
    rw [Dat.leavesExact_idle (dat2 V c) 10 t (idle2_10 t hne) (noFlush2_10 t hne)]
    rw [outsAt2_A V c t hz]
    unfold sout2_A; (try dsimp only)
    rw [PhiS2_castSucc V c t, PhiS2_zero V c _ _ hz, PhiA2_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun2_A c (grid2.coords t) _ _ _ _ _ _ _ _ _ _ _ _ _ _ _ _ _ _ _ _ _ _ _ _ ((case2_A t hz).1) ((case2_A t hz).2.1) ((case2_A t hz).2.2.1) ((case2_A t hz).2.2.2.1) ((case2_A t hz).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat2 V c).leavesExact 10 t = owns (c : Thread nD τ) (ms2_10 t) fullShare ((dat2 V c).after 10 t) from by
        unfold Dat.leavesExact; rw [live2_10 t hlast], after2_10]
      rw [outsAt2_Z V c t hz h0]
      unfold out2_Z sout2_Z; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_Z c (grid2.coords t) _ _ _ _ _ _ _ _ _ _ _ _ _ _ _ _ _ _ _ _ _ _ _ _ ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover2_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover2_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat2 V c) 10 t (idle2_10 t hne) (noFlush2_10 t hne)]
        rw [outsAt2_B V c t hz h0 h1]
        unfold sout2_B; (try dsimp only)
        rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ ((case2_B t hz h0 h1).1) ((case2_B t hz h0 h1).2.1) ((case2_B t hz h0 h1).2.2.1) ((case2_B t hz h0 h1).2.2.2.1) ((case2_B t hz h0 h1).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover2_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat2 V c) 10 t (idle2_10 t hne) (noFlush2_10 t hne)]
          rw [outsAt2_C V c t hz h0 h1 h2]
          unfold sout2_C; (try dsimp only)
          rw [PhiS2_castSucc V c t, PhiS2_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun2_C c (grid2.coords t) _ _ _ _ _ _ _ _ _ _ _ _ _ _ _ _ _ _ _ _ _ _ _ _ ((case2_C t hz h0 h1 h2).1) ((case2_C t hz h0 h1 h2).2.1) ((case2_C t hz h0 h1 h2).2.2.1) ((case2_C t hz h0 h1 h2).2.2.2.1) ((case2_C t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover2_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat2 V c) 10 t (idle2_10 t hne) (noFlush2_10 t hne)]
          rw [outsAt2_D V c t hz h0 h1 h2]
          unfold sout2_D; (try dsimp only)
          rw [PhiS2_castSucc V c t, PhiS2_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun2_D c (grid2.coords t) _ _ _ _ _ _ _ _ _ _ _ _ _ _ _ _ _ _ _ _ _ _ _ _ ((case2_D t hz h0 h1 h2).1) ((case2_D t hz h0 h1 h2).2.1) ((case2_D t hz h0 h1 h2).2.2.1) ((case2_D t hz h0 h1 h2).2.2.2.1) ((case2_D t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover2_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hrest⟩, Hg⟩
  isplitl [HS Hrest]
  · isplitl [HS]
    · iexists _; iexact HS
    iexact Hrest
  iexact Hg

end Cert.Kernel.Hand

end
-- ==== Proof.K.R3Runs.lean ====
/- Region 3 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the body's branch conditions as functions of the grid position -/

/-- "first point": the accumulator is reset. -/
abbrev cond3_1 (i : grid3.Coords) : Prop := (Scalar.cmpi .ne (Scalar.extui (Scalar.cmpi .eq (BitVec.ofNat 32 (i 0).val) 0#32)) 0#32) = 1#1
/-- term 0's K-tiles: points 0 to 1. -/
abbrev cond3_2 (i : grid3.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond3_3 (i : grid3.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond3_4 (i : grid3.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond3_5 (i : grid3.Coords) : Prop := k3_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.Kernel.Hand

end
-- ==== Proof.K.R3Frame.lean ====
/- Region 3: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: where each case sits on the grid -/
theorem case3_A : ∀ t : Fin cfg3.N, t.val = 0 → cond3_1 (grid3.coords t) ∧ cond3_2 (grid3.coords t) ∧ ¬cond3_3 (grid3.coords t) ∧ ¬cond3_4 (grid3.coords t) ∧ ¬cond3_5 (grid3.coords t) :=
  (by decide +kernel : ∀ t : Fin grid3.N, t.val = 0 → cond3_1 (grid3.coords t) ∧ cond3_2 (grid3.coords t) ∧ ¬cond3_3 (grid3.coords t) ∧ ¬cond3_4 (grid3.coords t) ∧ ¬cond3_5 (grid3.coords t))
theorem case3_Z : ∀ t : Fin cfg3.N, t.val ≠ 0 → t.val = 31 → ¬cond3_1 (grid3.coords t) ∧ ¬cond3_2 (grid3.coords t) ∧ ¬cond3_3 (grid3.coords t) ∧ cond3_4 (grid3.coords t) ∧ cond3_5 (grid3.coords t) :=
  (by decide +kernel : ∀ t : Fin grid3.N, t.val ≠ 0 → t.val = 31 → ¬cond3_1 (grid3.coords t) ∧ ¬cond3_2 (grid3.coords t) ∧ ¬cond3_3 (grid3.coords t) ∧ cond3_4 (grid3.coords t) ∧ cond3_5 (grid3.coords t))
theorem case3_B : ∀ t : Fin cfg3.N, t.val ≠ 0 → ¬t.val = 31 → t.val = 1 → ¬cond3_1 (grid3.coords t) ∧ cond3_2 (grid3.coords t) ∧ ¬cond3_3 (grid3.coords t) ∧ ¬cond3_4 (grid3.coords t) ∧ ¬cond3_5 (grid3.coords t) :=
  (by decide +kernel : ∀ t : Fin grid3.N, t.val ≠ 0 → ¬t.val = 31 → t.val = 1 → ¬cond3_1 (grid3.coords t) ∧ cond3_2 (grid3.coords t) ∧ ¬cond3_3 (grid3.coords t) ∧ ¬cond3_4 (grid3.coords t) ∧ ¬cond3_5 (grid3.coords t))
theorem case3_C : ∀ t : Fin cfg3.N, t.val ≠ 0 → ¬t.val = 31 → ¬t.val = 1 → (2 ≤ t.val ∧ t.val ≤ 17) → ¬cond3_1 (grid3.coords t) ∧ ¬cond3_2 (grid3.coords t) ∧ cond3_3 (grid3.coords t) ∧ ¬cond3_4 (grid3.coords t) ∧ ¬cond3_5 (grid3.coords t) :=
  (by decide +kernel : ∀ t : Fin grid3.N, t.val ≠ 0 → ¬t.val = 31 → ¬t.val = 1 → (2 ≤ t.val ∧ t.val ≤ 17) → ¬cond3_1 (grid3.coords t) ∧ ¬cond3_2 (grid3.coords t) ∧ cond3_3 (grid3.coords t) ∧ ¬cond3_4 (grid3.coords t) ∧ ¬cond3_5 (grid3.coords t))
theorem case3_D : ∀ t : Fin cfg3.N, t.val ≠ 0 → ¬t.val = 31 → ¬t.val = 1 → ¬(2 ≤ t.val ∧ t.val ≤ 17) → ¬cond3_1 (grid3.coords t) ∧ ¬cond3_2 (grid3.coords t) ∧ ¬cond3_3 (grid3.coords t) ∧ cond3_4 (grid3.coords t) ∧ ¬cond3_5 (grid3.coords t) :=
  (by decide +kernel : ∀ t : Fin grid3.N, t.val ≠ 0 → ¬t.val = 31 → ¬t.val = 1 → ¬(2 ≤ t.val ∧ t.val ≤ 17) → ¬cond3_1 (grid3.coords t) ∧ ¬cond3_2 (grid3.coords t) ∧ ¬cond3_3 (grid3.coords t) ∧ cond3_4 (grid3.coords t) ∧ ¬cond3_5 (grid3.coords t))

/-! ## The windows' blocks, the staging buffers and the accumulator -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3 : View sig .tc .vmem S64x1024 .f32 := (Memref.whole cc3_stg10_0 : Memref sig .tc .vmem S64x1024 .f32).view
abbrev ms3_0 (t : Fin cfg3.N) : Memref sig .tc .vmem S64x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x512 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1024x512 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1024x512 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1024 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S64x1024 .f32 := win3_10.stage (cfg3.slots t 10)
abbrev hs3_10 (t : Fin cfg3.N) : (ms3_10 t).IsWhole := hstage3_10 ((cfg3.slots t 10).cast nbuf3_10)
abbrev scM3 : Memref sig .tc .vmem S64x1024 .f32 := Memref.whole cc3_scratch0
abbrev VS3 : View sig .tc .vmem S64x1024 .f32 := scM3.view
/-- Every scoped buffer that is neither a staging buffer of this region nor its accumulator, at some contents. -/
abbrev restBut3 (c : Dev nD) : sProp 𝕄 := Pipeline.scopedRestBut (Ix := Unit) (Name := ℕ) (U := UR sig nD τ) (Lvl := ℕ) (Val := Elt F) spec3 c [cc3_scratch0]

/-- The class invariant with the accumulator taken out of the scoped rest. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA; rw [scopedRest3_split]; simp only [scM3, owns_whole]; try rfl

/-! ## Where the windows are idle -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
theorem live3_5 : ∀ t : Fin cfg3.N, cfg3.idle 5 (grid3.coords t) = false := by decide +kernel
theorem live3_6 : ∀ t : Fin cfg3.N, cfg3.idle 6 (grid3.coords t) = false := by decide +kernel
theorem live3_7 : ∀ t : Fin cfg3.N, cfg3.idle 7 (grid3.coords t) = false := by decide +kernel
theorem live3_8 : ∀ t : Fin cfg3.N, cfg3.idle 8 (grid3.coords t) = false := by decide +kernel
theorem live3_9 : ∀ t : Fin cfg3.N, cfg3.idle 9 (grid3.coords t) = false := by decide +kernel
theorem idle3_10 : ∀ t : Fin cfg3.N, t.val ≠ 31 → cfg3.idle 10 (grid3.coords t) = true := by decide +kernel
theorem noFlush3_10 : ∀ t : Fin cfg3.N, t.val ≠ 31 → (cfg3.win 10).flush t = false := by decide +kernel
theorem live3_10 : ∀ t : Fin cfg3.N, t.val = 31 → cfg3.idle 10 (grid3.coords t) = false := by decide +kernel

theorem live3_0_all : ∀ i, cfg3.idle 0 i = false := fun _ => rfl
theorem live3_1_all : ∀ i, cfg3.idle 1 i = false := fun _ => rfl
theorem live3_2_all : ∀ i, cfg3.idle 2 i = false := fun _ => rfl
theorem live3_3_all : ∀ i, cfg3.idle 3 i = false := fun _ => rfl
theorem live3_4_all : ∀ i, cfg3.idle 4 i = false := fun _ => rfl
theorem live3_5_all : ∀ i, cfg3.idle 5 i = false := fun _ => rfl
theorem live3_6_all : ∀ i, cfg3.idle 6 i = false := fun _ => rfl
theorem live3_7_all : ∀ i, cfg3.idle 7 i = false := fun _ => rfl
theorem live3_8_all : ∀ i, cfg3.idle 8 i = false := fun _ => rfl
theorem live3_9_all : ∀ i, cfg3.idle 9 i = false := fun _ => rfl

/-! ## What each case leaves in the accumulator (and, at the last point, in the output's buffer) -/

theorem scover3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS3.read (Elt F) (VS3.writes (Elt F) VS3.junk (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO3.read (Elt F) (VO3.writes (Elt F) VO3.junk (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut3 : Vec F S64x1024 .f32 := VO3.read (Elt F) (VO3.writes (Elt F) VO3.junk [])

/-! ## The accumulation, point by point -/

/-- After the body at position `n`: (the output's staging buffer, the accumulator). -/
def outsAt3 (c : Dev nD) : (n : ℕ) → n < cfg3.N → Vec F S64x1024 .f32 × Vec F S64x1024 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3 (Memref.isWhole_whole _) ((case3_A ⟨0, hn⟩ rfl).1) ((case3_A ⟨0, hn⟩ rfl).2.1) ((case3_A ⟨0, hn⟩ rfl).2.2.1) ((case3_A ⟨0, hn⟩ rfl).2.2.2.1) ((case3_A ⟨0, hn⟩ rfl).2.2.2.2) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩))
  | n + 1, hn =>
    if h0 : n + 1 = 31 then
      (out3_Z c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_Z ⟨n + 1, hn⟩ (Nat.succ_ne_zero n) h0).1) ((case3_Z ⟨n + 1, hn⟩ (Nat.succ_ne_zero n) h0).2.1) ((case3_Z ⟨n + 1, hn⟩ (Nat.succ_ne_zero n) h0).2.2.1) ((case3_Z ⟨n + 1, hn⟩ (Nat.succ_ne_zero n) h0).2.2.2.1) ((case3_Z ⟨n + 1, hn⟩ (Nat.succ_ne_zero n) h0).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2, sout3_Z c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_Z ⟨n + 1, hn⟩ (Nat.succ_ne_zero n) h0).1) ((case3_Z ⟨n + 1, hn⟩ (Nat.succ_ne_zero n) h0).2.1) ((case3_Z ⟨n + 1, hn⟩ (Nat.succ_ne_zero n) h0).2.2.1) ((case3_Z ⟨n + 1, hn⟩ (Nat.succ_ne_zero n) h0).2.2.2.1) ((case3_Z ⟨n + 1, hn⟩ (Nat.succ_ne_zero n) h0).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
    else
      if h1 : n + 1 = 1 then
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_B ⟨n + 1, hn⟩ (Nat.succ_ne_zero n) h0 h1).1) ((case3_B ⟨n + 1, hn⟩ (Nat.succ_ne_zero n) h0 h1).2.1) ((case3_B ⟨n + 1, hn⟩ (Nat.succ_ne_zero n) h0 h1).2.2.1) ((case3_B ⟨n + 1, hn⟩ (Nat.succ_ne_zero n) h0 h1).2.2.2.1) ((case3_B ⟨n + 1, hn⟩ (Nat.succ_ne_zero n) h0 h1).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
      else
        if h2 : (2 ≤ n + 1 ∧ n + 1 ≤ 17) then
          (idleOut3, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_C ⟨n + 1, hn⟩ (Nat.succ_ne_zero n) h0 h1 h2).1) ((case3_C ⟨n + 1, hn⟩ (Nat.succ_ne_zero n) h0 h1 h2).2.1) ((case3_C ⟨n + 1, hn⟩ (Nat.succ_ne_zero n) h0 h1 h2).2.2.1) ((case3_C ⟨n + 1, hn⟩ (Nat.succ_ne_zero n) h0 h1 h2).2.2.2.1) ((case3_C ⟨n + 1, hn⟩ (Nat.succ_ne_zero n) h0 h1 h2).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
        else
          (idleOut3, sout3_D c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_D ⟨n + 1, hn⟩ (Nat.succ_ne_zero n) h0 h1 h2).1) ((case3_D ⟨n + 1, hn⟩ (Nat.succ_ne_zero n) h0 h1 h2).2.1) ((case3_D ⟨n + 1, hn⟩ (Nat.succ_ne_zero n) h0 h1 h2).2.2.1) ((case3_D ⟨n + 1, hn⟩ (Nat.succ_ne_zero n) h0 h1 h2).2.2.2.1) ((case3_D ⟨n + 1, hn⟩ (Nat.succ_ne_zero n) h0 h1 h2).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)

theorem outsAt3_A (c : Dev nD) (t : Fin cfg3.N) (hz : t.val = 0) :
    outsAt3 V c t.val t.isLt = (idleOut3, sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_A t hz).1) ((case3_A t hz).2.1) ((case3_A t hz).2.2.1) ((case3_A t hz).2.2.2.1) ((case3_A t hz).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)) := by
  obtain ⟨n, hn⟩ := t
  cases n with
  | zero => exact rfl
  | succ n => exact absurd hz (Nat.succ_ne_zero n)

theorem outsAt3_Z (c : Dev nD) (t : Fin cfg3.N) (hz : t.val ≠ 0) (h0 : t.val = 31) :
    outsAt3 V c t.val t.isLt = (out3_Z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2, sout3_Z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_pos h0).trans rfl

theorem outsAt3_B (c : Dev nD) (t : Fin cfg3.N) (hz : t.val ≠ 0) (h0 : ¬t.val = 31) (h1 : t.val = 1) :
    outsAt3 V c t.val t.isLt = (idleOut3, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_B t hz h0 h1).1) ((case3_B t hz h0 h1).2.1) ((case3_B t hz h0 h1).2.2.1) ((case3_B t hz h0 h1).2.2.2.1) ((case3_B t hz h0 h1).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt3_C (c : Dev nD) (t : Fin cfg3.N) (hz : t.val ≠ 0) (h0 : ¬t.val = 31) (h1 : ¬t.val = 1) (h2 : (2 ≤ t.val ∧ t.val ≤ 17)) :
    outsAt3 V c t.val t.isLt = (idleOut3, sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_C t hz h0 h1 h2).1) ((case3_C t hz h0 h1 h2).2.1) ((case3_C t hz h0 h1 h2).2.2.1) ((case3_C t hz h0 h1 h2).2.2.2.1) ((case3_C t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt3_D (c : Dev nD) (t : Fin cfg3.N) (hz : t.val ≠ 0) (h0 : ¬t.val = 31) (h1 : ¬t.val = 1) (h2 : ¬(2 ≤ t.val ∧ t.val ≤ 17)) :
    outsAt3 V c t.val t.isLt = (idleOut3, sout3_D c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_D t hz h0 h1 h2).1) ((case3_D t hz h0 h1 h2).2.1) ((case3_D t hz h0 h1 h2).2.2.1) ((case3_D t hz h0 h1 h2).2.2.2.1) ((case3_D t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ restBut3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (live3_0_all) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (live3_1_all) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (live3_2_all) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (live3_3_all) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (live3_4_all) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (live3_5_all) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (live3_6_all) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (live3_7_all) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (live3_8_all) (fun _ _ _ => rfl) (fun t => by rw [after3_8]; unfold Dat.blockOf iblk3; rw [A_eq3]; try rfl) t d).trans
    (by unfold Dat.fetched Dat.blockOf iblk3; rw [A_eq3]; try rfl)
theorem before3_9 (c : Dev nD) (t : Fin cfg3.N) (d) : (dat3 V c).before 9 t d = iblk3 V c 9 t :=
  ((dat3 V c).before_in_eq_fetched 9 rfl (live3_9_all) (fun _ _ _ => rfl) (fun t => by rw [after3_9]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  unfold Dat.leavesExact; rw [live3_0 t, after3_0]
theorem leaves3_1 (c : Dev nD) (t : Fin cfg3.N) : (dat3 V c).leavesExact 1 t = owns (c : Thread nD τ) (ms3_1 t) fullShare (iblk3 V c 1 t) := by
  unfold Dat.leavesExact; rw [live3_1 t, after3_1]
theorem leaves3_2 (c : Dev nD) (t : Fin cfg3.N) : (dat3 V c).leavesExact 2 t = owns (c : Thread nD τ) (ms3_2 t) fullShare (iblk3 V c 2 t) := by
  unfold Dat.leavesExact; rw [live3_2 t, after3_2]
theorem leaves3_3 (c : Dev nD) (t : Fin cfg3.N) : (dat3 V c).leavesExact 3 t = owns (c : Thread nD τ) (ms3_3 t) fullShare (iblk3 V c 3 t) := by
  unfold Dat.leavesExact; rw [live3_3 t, after3_3]
theorem leaves3_4 (c : Dev nD) (t : Fin cfg3.N) : (dat3 V c).leavesExact 4 t = owns (c : Thread nD τ) (ms3_4 t) fullShare (iblk3 V c 4 t) := by
  unfold Dat.leavesExact; rw [live3_4 t, after3_4]
theorem leaves3_5 (c : Dev nD) (t : Fin cfg3.N) : (dat3 V c).leavesExact 5 t = owns (c : Thread nD τ) (ms3_5 t) fullShare (iblk3 V c 5 t) := by
  unfold Dat.leavesExact; rw [live3_5 t, after3_5]
theorem leaves3_6 (c : Dev nD) (t : Fin cfg3.N) : (dat3 V c).leavesExact 6 t = owns (c : Thread nD τ) (ms3_6 t) fullShare (iblk3 V c 6 t) := by
  unfold Dat.leavesExact; rw [live3_6 t, after3_6]
theorem leaves3_7 (c : Dev nD) (t : Fin cfg3.N) : (dat3 V c).leavesExact 7 t = owns (c : Thread nD τ) (ms3_7 t) fullShare (iblk3 V c 7 t) := by
  unfold Dat.leavesExact; rw [live3_7 t, after3_7]
theorem leaves3_8 (c : Dev nD) (t : Fin cfg3.N) : (dat3 V c).leavesExact 8 t = owns (c : Thread nD τ) (ms3_8 t) fullShare (iblk3 V c 8 t) := by
  unfold Dat.leavesExact; rw [live3_8 t, after3_8]
theorem leaves3_9 (c : Dev nD) (t : Fin cfg3.N) : (dat3 V c).leavesExact 9 t = owns (c : Thread nD τ) (ms3_9 t) fullShare (iblk3 V c 9 t) := by
  unfold Dat.leavesExact; rw [live3_9 t, after3_9]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 8000000 in
/-- The body at any point: the case the point is in decides the branches; the invariant hands the body the accumulator at
    what the point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8, leaves3_9]
  have hN : t.val < 32 := lt_of_lt_of_eq t.isLt (show cfg3.N = 32 from N_3)
  by_cases hz : t.val = 0
  · have hne : t.val ≠ 31 := by omega
    rw [Dat.leavesExact_idle (dat3 V c) 10 t (idle3_10 t hne) (noFlush3_10 t hne)]
    rw [outsAt3_A V c t hz]
    unfold sout3_A; (try dsimp only)
    rw [PhiS3_castSucc V c t, PhiS3_zero V c _ _ hz, PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ ((case3_A t hz).1) ((case3_A t hz).2.1) ((case3_A t hz).2.2.1) ((case3_A t hz).2.2.2.1) ((case3_A t hz).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover3_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat3 V c).leavesExact 10 t = owns (c : Thread nD τ) (ms3_10 t) fullShare ((dat3 V c).after 10 t) from by
        unfold Dat.leavesExact; rw [live3_10 t hlast], after3_10]
      rw [outsAt3_Z V c t hz h0]
      unfold out3_Z sout3_Z; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_Z c (grid3.coords t) _ _ _ _ _ _ _ _ _ _ _ _ _ _ _ _ _ _ _ _ _ _ _ _ ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover3_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat3 V c) 10 t (idle3_10 t hne) (noFlush3_10 t hne)]
        rw [outsAt3_B V c t hz h0 h1]
        unfold sout3_B; (try dsimp only)
        rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_B c (grid3.coords t) _ _ _ _ _ _ _ _ _ _ _ _ _ _ _ _ _ _ _ _ _ _ _ _ ((case3_B t hz h0 h1).1) ((case3_B t hz h0 h1).2.1) ((case3_B t hz h0 h1).2.2.1) ((case3_B t hz h0 h1).2.2.2.1) ((case3_B t hz h0 h1).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover3_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat3 V c) 10 t (idle3_10 t hne) (noFlush3_10 t hne)]
          rw [outsAt3_C V c t hz h0 h1 h2]
          unfold sout3_C; (try dsimp only)
          rw [PhiS3_castSucc V c t, PhiS3_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun3_C c (grid3.coords t) _ _ _ _ _ _ _ _ _ _ _ _ _ _ _ _ _ _ _ _ _ _ _ _ ((case3_C t hz h0 h1 h2).1) ((case3_C t hz h0 h1 h2).2.1) ((case3_C t hz h0 h1 h2).2.2.1) ((case3_C t hz h0 h1 h2).2.2.2.1) ((case3_C t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover3_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat3 V c) 10 t (idle3_10 t hne) (noFlush3_10 t hne)]
          rw [outsAt3_D V c t hz h0 h1 h2]
          unfold sout3_D; (try dsimp only)
          rw [PhiS3_castSucc V c t, PhiS3_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun3_D c (grid3.coords t) _ _ _ _ _ _ _ _ _ _ _ _ _ _ _ _ _ _ _ _ _ _ _ _ ((case3_D t hz h0 h1 h2).1) ((case3_D t hz h0 h1 h2).2.1) ((case3_D t hz h0 h1 h2).2.2.1) ((case3_D t hz h0 h1 h2).2.2.2.1) ((case3_D t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover3_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS, Hrest⟩, Hg⟩
  isplitl [HS Hrest]
  · isplitl [HS]
    · iexists _; iexact HS
    iexact Hrest
  iexact Hg

end Cert.Kernel.Hand

end
-- ==== Proof.K.R4Runs.lean ====
/- Region 4 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 4: the body's branch conditions as functions of the grid position -/

/-- "first point": the accumulator is reset. -/
abbrev cond4_1 (i : grid4.Coords) : Prop := (Scalar.cmpi .ne (Scalar.extui (Scalar.cmpi .eq (BitVec.ofNat 32 (i 0).val) 0#32)) 0#32) = 1#1
/-- term 0's K-tiles: points 0 to 1. -/
abbrev cond4_2 (i : grid4.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond4_3 (i : grid4.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond4_4 (i : grid4.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond4_5 (i : grid4.Coords) : Prop := k4_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.Kernel.Hand

end
-- ==== Proof.K.R4Frame.lean ====
/- Region 4: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: where each case sits on the grid -/
theorem case4_A : ∀ t : Fin cfg4.N, t.val = 0 → cond4_1 (grid4.coords t) ∧ cond4_2 (grid4.coords t) ∧ ¬cond4_3 (grid4.coords t) ∧ ¬cond4_4 (grid4.coords t) ∧ ¬cond4_5 (grid4.coords t) :=
  (by decide +kernel : ∀ t : Fin grid4.N, t.val = 0 → cond4_1 (grid4.coords t) ∧ cond4_2 (grid4.coords t) ∧ ¬cond4_3 (grid4.coords t) ∧ ¬cond4_4 (grid4.coords t) ∧ ¬cond4_5 (grid4.coords t))
theorem case4_Z : ∀ t : Fin cfg4.N, t.val ≠ 0 → t.val = 31 → ¬cond4_1 (grid4.coords t) ∧ ¬cond4_2 (grid4.coords t) ∧ ¬cond4_3 (grid4.coords t) ∧ cond4_4 (grid4.coords t) ∧ cond4_5 (grid4.coords t) :=
  (by decide +kernel : ∀ t : Fin grid4.N, t.val ≠ 0 → t.val = 31 → ¬cond4_1 (grid4.coords t) ∧ ¬cond4_2 (grid4.coords t) ∧ ¬cond4_3 (grid4.coords t) ∧ cond4_4 (grid4.coords t) ∧ cond4_5 (grid4.coords t))
theorem case4_B : ∀ t : Fin cfg4.N, t.val ≠ 0 → ¬t.val = 31 → t.val = 1 → ¬cond4_1 (grid4.coords t) ∧ cond4_2 (grid4.coords t) ∧ ¬cond4_3 (grid4.coords t) ∧ ¬cond4_4 (grid4.coords t) ∧ ¬cond4_5 (grid4.coords t) :=
  (by decide +kernel : ∀ t : Fin grid4.N, t.val ≠ 0 → ¬t.val = 31 → t.val = 1 → ¬cond4_1 (grid4.coords t) ∧ cond4_2 (grid4.coords t) ∧ ¬cond4_3 (grid4.coords t) ∧ ¬cond4_4 (grid4.coords t) ∧ ¬cond4_5 (grid4.coords t))
theorem case4_C : ∀ t : Fin cfg4.N, t.val ≠ 0 → ¬t.val = 31 → ¬t.val = 1 → (2 ≤ t.val ∧ t.val ≤ 17) → ¬cond4_1 (grid4.coords t) ∧ ¬cond4_2 (grid4.coords t) ∧ cond4_3 (grid4.coords t) ∧ ¬cond4_4 (grid4.coords t) ∧ ¬cond4_5 (grid4.coords t) :=
  (by decide +kernel : ∀ t : Fin grid4.N, t.val ≠ 0 → ¬t.val = 31 → ¬t.val = 1 → (2 ≤ t.val ∧ t.val ≤ 17) → ¬cond4_1 (grid4.coords t) ∧ ¬cond4_2 (grid4.coords t) ∧ cond4_3 (grid4.coords t) ∧ ¬cond4_4 (grid4.coords t) ∧ ¬cond4_5 (grid4.coords t))
theorem case4_D : ∀ t : Fin cfg4.N, t.val ≠ 0 → ¬t.val = 31 → ¬t.val = 1 → ¬(2 ≤ t.val ∧ t.val ≤ 17) → ¬cond4_1 (grid4.coords t) ∧ ¬cond4_2 (grid4.coords t) ∧ ¬cond4_3 (grid4.coords t) ∧ cond4_4 (grid4.coords t) ∧ ¬cond4_5 (grid4.coords t) :=
  (by decide +kernel : ∀ t : Fin grid4.N, t.val ≠ 0 → ¬t.val = 31 → ¬t.val = 1 → ¬(2 ≤ t.val ∧ t.val ≤ 17) → ¬cond4_1 (grid4.coords t) ∧ ¬cond4_2 (grid4.coords t) ∧ ¬cond4_3 (grid4.coords t) ∧ cond4_4 (grid4.coords t) ∧ ¬cond4_5 (grid4.coords t))

/-! ## The windows' blocks, the staging buffers and the accumulator -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev VO4 : View sig .tc .vmem S64x1024 .f32 := (Memref.whole cc4_stg10_0 : Memref sig .tc .vmem S64x1024 .f32).view
abbrev ms4_0 (t : Fin cfg4.N) : Memref sig .tc .vmem S64x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x512 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x512 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x512 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x512 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x1024 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S64x1024 .f32 := win4_10.stage (cfg4.slots t 10)
abbrev hs4_10 (t : Fin cfg4.N) : (ms4_10 t).IsWhole := hstage4_10 ((cfg4.slots t 10).cast nbuf4_10)
abbrev scM4 : Memref sig .tc .vmem S64x1024 .f32 := Memref.whole cc4_scratch0
abbrev VS4 : View sig .tc .vmem S64x1024 .f32 := scM4.view
/-- Every scoped buffer that is neither a staging buffer of this region nor its accumulator, at some contents. -/
abbrev restBut4 (c : Dev nD) : sProp 𝕄 := Pipeline.scopedRestBut (Ix := Unit) (Name := ℕ) (U := UR sig nD τ) (Lvl := ℕ) (Val := Elt F) spec4 c [cc4_scratch0]

/-- The class invariant with the accumulator taken out of the scoped rest. -/
theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-! ## Where the windows are idle -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
theorem live4_7 : ∀ t : Fin cfg4.N, cfg4.idle 7 (grid4.coords t) = false := by decide +kernel
theorem live4_8 : ∀ t : Fin cfg4.N, cfg4.idle 8 (grid4.coords t) = false := by decide +kernel
theorem live4_9 : ∀ t : Fin cfg4.N, cfg4.idle 9 (grid4.coords t) = false := by decide +kernel
theorem idle4_10 : ∀ t : Fin cfg4.N, t.val ≠ 31 → cfg4.idle 10 (grid4.coords t) = true := by decide +kernel
theorem noFlush4_10 : ∀ t : Fin cfg4.N, t.val ≠ 31 → (cfg4.win 10).flush t = false := by decide +kernel
theorem live4_10 : ∀ t : Fin cfg4.N, t.val = 31 → cfg4.idle 10 (grid4.coords t) = false := by decide +kernel

theorem live4_0_all : ∀ i, cfg4.idle 0 i = false := fun _ => rfl
theorem live4_1_all : ∀ i, cfg4.idle 1 i = false := fun _ => rfl
theorem live4_2_all : ∀ i, cfg4.idle 2 i = false := fun _ => rfl
theorem live4_3_all : ∀ i, cfg4.idle 3 i = false := fun _ => rfl
theorem live4_4_all : ∀ i, cfg4.idle 4 i = false := fun _ => rfl
theorem live4_5_all : ∀ i, cfg4.idle 5 i = false := fun _ => rfl
theorem live4_6_all : ∀ i, cfg4.idle 6 i = false := fun _ => rfl
theorem live4_7_all : ∀ i, cfg4.idle 7 i = false := fun _ => rfl
theorem live4_8_all : ∀ i, cfg4.idle 8 i = false := fun _ => rfl
theorem live4_9_all : ∀ i, cfg4.idle 9 i = false := fun _ => rfl

/-! ## What each case leaves in the accumulator (and, at the last point, in the output's buffer) -/

theorem scover4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS4.read (Elt F) (VS4.writes (Elt F) VS4.junk (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO4.read (Elt F) (VO4.writes (Elt F) VO4.junk (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut4 : Vec F S64x1024 .f32 := VO4.read (Elt F) (VO4.writes (Elt F) VO4.junk [])

/-! ## The accumulation, point by point -/

/-- After the body at position `n`: (the output's staging buffer, the accumulator). -/
def outsAt4 (c : Dev nD) : (n : ℕ) → n < cfg4.N → Vec F S64x1024 .f32 × Vec F S64x1024 .f32
  | 0, hn => (idleOut4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) scM4 (Memref.isWhole_whole _) ((case4_A ⟨0, hn⟩ rfl).1) ((case4_A ⟨0, hn⟩ rfl).2.1) ((case4_A ⟨0, hn⟩ rfl).2.2.1) ((case4_A ⟨0, hn⟩ rfl).2.2.2.1) ((case4_A ⟨0, hn⟩ rfl).2.2.2.2) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩) (iblk4 V c 9 ⟨0, hn⟩))
  | n + 1, hn =>
    if h0 : n + 1 = 31 then
      (out4_Z c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_Z ⟨n + 1, hn⟩ (Nat.succ_ne_zero n) h0).1) ((case4_Z ⟨n + 1, hn⟩ (Nat.succ_ne_zero n) h0).2.1) ((case4_Z ⟨n + 1, hn⟩ (Nat.succ_ne_zero n) h0).2.2.1) ((case4_Z ⟨n + 1, hn⟩ (Nat.succ_ne_zero n) h0).2.2.2.1) ((case4_Z ⟨n + 1, hn⟩ (Nat.succ_ne_zero n) h0).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2, sout4_Z c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_Z ⟨n + 1, hn⟩ (Nat.succ_ne_zero n) h0).1) ((case4_Z ⟨n + 1, hn⟩ (Nat.succ_ne_zero n) h0).2.1) ((case4_Z ⟨n + 1, hn⟩ (Nat.succ_ne_zero n) h0).2.2.1) ((case4_Z ⟨n + 1, hn⟩ (Nat.succ_ne_zero n) h0).2.2.2.1) ((case4_Z ⟨n + 1, hn⟩ (Nat.succ_ne_zero n) h0).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
    else
      if h1 : n + 1 = 1 then
        (idleOut4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_B ⟨n + 1, hn⟩ (Nat.succ_ne_zero n) h0 h1).1) ((case4_B ⟨n + 1, hn⟩ (Nat.succ_ne_zero n) h0 h1).2.1) ((case4_B ⟨n + 1, hn⟩ (Nat.succ_ne_zero n) h0 h1).2.2.1) ((case4_B ⟨n + 1, hn⟩ (Nat.succ_ne_zero n) h0 h1).2.2.2.1) ((case4_B ⟨n + 1, hn⟩ (Nat.succ_ne_zero n) h0 h1).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
      else
        if h2 : (2 ≤ n + 1 ∧ n + 1 ≤ 17) then
          (idleOut4, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_C ⟨n + 1, hn⟩ (Nat.succ_ne_zero n) h0 h1 h2).1) ((case4_C ⟨n + 1, hn⟩ (Nat.succ_ne_zero n) h0 h1 h2).2.1) ((case4_C ⟨n + 1, hn⟩ (Nat.succ_ne_zero n) h0 h1 h2).2.2.1) ((case4_C ⟨n + 1, hn⟩ (Nat.succ_ne_zero n) h0 h1 h2).2.2.2.1) ((case4_C ⟨n + 1, hn⟩ (Nat.succ_ne_zero n) h0 h1 h2).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
        else
          (idleOut4, sout4_D c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_D ⟨n + 1, hn⟩ (Nat.succ_ne_zero n) h0 h1 h2).1) ((case4_D ⟨n + 1, hn⟩ (Nat.succ_ne_zero n) h0 h1 h2).2.1) ((case4_D ⟨n + 1, hn⟩ (Nat.succ_ne_zero n) h0 h1 h2).2.2.1) ((case4_D ⟨n + 1, hn⟩ (Nat.succ_ne_zero n) h0 h1 h2).2.2.2.1) ((case4_D ⟨n + 1, hn⟩ (Nat.succ_ne_zero n) h0 h1 h2).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)

theorem outsAt4_A (c : Dev nD) (t : Fin cfg4.N) (hz : t.val = 0) :
    outsAt4 V c t.val t.isLt = (idleOut4, sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_A t hz).1) ((case4_A t hz).2.1) ((case4_A t hz).2.2.1) ((case4_A t hz).2.2.2.1) ((case4_A t hz).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)) := by
  obtain ⟨n, hn⟩ := t
  cases n with
  | zero => exact rfl
  | succ n => exact absurd hz (Nat.succ_ne_zero n)

theorem outsAt4_Z (c : Dev nD) (t : Fin cfg4.N) (hz : t.val ≠ 0) (h0 : t.val = 31) :
    outsAt4 V c t.val t.isLt = (out4_Z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2, sout4_Z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_pos h0).trans rfl

theorem outsAt4_B (c : Dev nD) (t : Fin cfg4.N) (hz : t.val ≠ 0) (h0 : ¬t.val = 31) (h1 : t.val = 1) :
    outsAt4 V c t.val t.isLt = (idleOut4, sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_B t hz h0 h1).1) ((case4_B t hz h0 h1).2.1) ((case4_B t hz h0 h1).2.2.1) ((case4_B t hz h0 h1).2.2.2.1) ((case4_B t hz h0 h1).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt4_C (c : Dev nD) (t : Fin cfg4.N) (hz : t.val ≠ 0) (h0 : ¬t.val = 31) (h1 : ¬t.val = 1) (h2 : (2 ≤ t.val ∧ t.val ≤ 17)) :
    outsAt4 V c t.val t.isLt = (idleOut4, sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_C t hz h0 h1 h2).1) ((case4_C t hz h0 h1 h2).2.1) ((case4_C t hz h0 h1 h2).2.2.1) ((case4_C t hz h0 h1 h2).2.2.2.1) ((case4_C t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt4_D (c : Dev nD) (t : Fin cfg4.N) (hz : t.val ≠ 0) (h0 : ¬t.val = 31) (h1 : ¬t.val = 1) (h2 : ¬(2 ≤ t.val ∧ t.val ≤ 17)) :
    outsAt4 V c t.val t.isLt = (idleOut4, sout4_D c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_D t hz h0 h1 h2).1) ((case4_D t hz h0 h1 h2).2.1) ((case4_D t hz h0 h1 h2).2.2.1) ((case4_D t hz h0 h1 h2).2.2.2.1) ((case4_D t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ restBut4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ restBut4 c) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (live4_0_all) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (live4_1_all) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (live4_2_all) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (live4_3_all) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (live4_4_all) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (live4_5_all) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (live4_6_all) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (live4_7_all) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (t : Fin cfg4.N) (d) : (dat4 V c).before 8 t d = iblk4 V c 8 t :=
  ((dat4 V c).before_in_eq_fetched 8 rfl (live4_8_all) (fun _ _ _ => rfl) (fun t => by rw [after4_8]; unfold Dat.blockOf iblk4; rw [A_eq4]; try rfl) t d).trans
    (by unfold Dat.fetched Dat.blockOf iblk4; rw [A_eq4]; try rfl)
theorem before4_9 (c : Dev nD) (t : Fin cfg4.N) (d) : (dat4 V c).before 9 t d = iblk4 V c 9 t :=
  ((dat4 V c).before_in_eq_fetched 9 rfl (live4_9_all) (fun _ _ _ => rfl) (fun t => by rw [after4_9]; unfold Dat.blockOf iblk4; rw [A_eq4]; try rfl) t d).trans
    (by unfold Dat.fetched Dat.blockOf iblk4; rw [A_eq4]; try rfl)

theorem leaves4_0 (c : Dev nD) (t : Fin cfg4.N) : (dat4 V c).leavesExact 0 t = owns (c : Thread nD τ) (ms4_0 t) fullShare (iblk4 V c 0 t) := by
  unfold Dat.leavesExact; rw [live4_0 t, after4_0]
theorem leaves4_1 (c : Dev nD) (t : Fin cfg4.N) : (dat4 V c).leavesExact 1 t = owns (c : Thread nD τ) (ms4_1 t) fullShare (iblk4 V c 1 t) := by
  unfold Dat.leavesExact; rw [live4_1 t, after4_1]
theorem leaves4_2 (c : Dev nD) (t : Fin cfg4.N) : (dat4 V c).leavesExact 2 t = owns (c : Thread nD τ) (ms4_2 t) fullShare (iblk4 V c 2 t) := by
  unfold Dat.leavesExact; rw [live4_2 t, after4_2]
theorem leaves4_3 (c : Dev nD) (t : Fin cfg4.N) : (dat4 V c).leavesExact 3 t = owns (c : Thread nD τ) (ms4_3 t) fullShare (iblk4 V c 3 t) := by
  unfold Dat.leavesExact; rw [live4_3 t, after4_3]
theorem leaves4_4 (c : Dev nD) (t : Fin cfg4.N) : (dat4 V c).leavesExact 4 t = owns (c : Thread nD τ) (ms4_4 t) fullShare (iblk4 V c 4 t) := by
  unfold Dat.leavesExact; rw [live4_4 t, after4_4]
theorem leaves4_5 (c : Dev nD) (t : Fin cfg4.N) : (dat4 V c).leavesExact 5 t = owns (c : Thread nD τ) (ms4_5 t) fullShare (iblk4 V c 5 t) := by
  unfold Dat.leavesExact; rw [live4_5 t, after4_5]
theorem leaves4_6 (c : Dev nD) (t : Fin cfg4.N) : (dat4 V c).leavesExact 6 t = owns (c : Thread nD τ) (ms4_6 t) fullShare (iblk4 V c 6 t) := by
  unfold Dat.leavesExact; rw [live4_6 t, after4_6]
theorem leaves4_7 (c : Dev nD) (t : Fin cfg4.N) : (dat4 V c).leavesExact 7 t = owns (c : Thread nD τ) (ms4_7 t) fullShare (iblk4 V c 7 t) := by
  unfold Dat.leavesExact; rw [live4_7 t, after4_7]
theorem leaves4_8 (c : Dev nD) (t : Fin cfg4.N) : (dat4 V c).leavesExact 8 t = owns (c : Thread nD τ) (ms4_8 t) fullShare (iblk4 V c 8 t) := by
  unfold Dat.leavesExact; rw [live4_8 t, after4_8]
theorem leaves4_9 (c : Dev nD) (t : Fin cfg4.N) : (dat4 V c).leavesExact 9 t = owns (c : Thread nD τ) (ms4_9 t) fullShare (iblk4 V c 9 t) := by
  unfold Dat.leavesExact; rw [live4_9 t, after4_9]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t)

set_option maxHeartbeats 8000000 in
/-- The body at any point: the case the point is in decides the branches; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6, leaves4_7, leaves4_8, leaves4_9]
  have hN : t.val < 32 := lt_of_lt_of_eq t.isLt (show cfg4.N = 32 from N_4)
  by_cases hz : t.val = 0
  · have hne : t.val ≠ 31 := by omega
    rw [Dat.leavesExact_idle (dat4 V c) 10 t (idle4_10 t hne) (noFlush4_10 t hne)]
    rw [outsAt4_A V c t hz]
    unfold sout4_A; (try dsimp only)
    rw [PhiS4_castSucc V c t, PhiS4_zero V c _ _ hz, PhiA4_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun4_A c (grid4.coords t) _ _ _ _ _ _ _ _ _ _ _ _ _ _ _ _ _ _ _ _ _ _ _ _ ((case4_A t hz).1) ((case4_A t hz).2.1) ((case4_A t hz).2.2.1) ((case4_A t hz).2.2.2.1) ((case4_A t hz).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover4_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat4 V c).leavesExact 10 t = owns (c : Thread nD τ) (ms4_10 t) fullShare ((dat4 V c).after 10 t) from by
        unfold Dat.leavesExact; rw [live4_10 t hlast], after4_10]
      rw [outsAt4_Z V c t hz h0]
      unfold out4_Z sout4_Z; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun4_Z c (grid4.coords t) _ _ _ _ _ _ _ _ _ _ _ _ _ _ _ _ _ _ _ _ _ _ _ _ ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover4_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover4_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat4 V c) 10 t (idle4_10 t hne) (noFlush4_10 t hne)]
        rw [outsAt4_B V c t hz h0 h1]
        unfold sout4_B; (try dsimp only)
        rw [PhiS4_castSucc V c t, PhiS4_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun4_B c (grid4.coords t) _ _ _ _ _ _ _ _ _ _ _ _ _ _ _ _ _ _ _ _ _ _ _ _ ((case4_B t hz h0 h1).1) ((case4_B t hz h0 h1).2.1) ((case4_B t hz h0 h1).2.2.1) ((case4_B t hz h0 h1).2.2.2.1) ((case4_B t hz h0 h1).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover4_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat4 V c) 10 t (idle4_10 t hne) (noFlush4_10 t hne)]
          rw [outsAt4_C V c t hz h0 h1 h2]
          unfold sout4_C; (try dsimp only)
          rw [PhiS4_castSucc V c t, PhiS4_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun4_C c (grid4.coords t) _ _ _ _ _ _ _ _ _ _ _ _ _ _ _ _ _ _ _ _ _ _ _ _ ((case4_C t hz h0 h1 h2).1) ((case4_C t hz h0 h1 h2).2.1) ((case4_C t hz h0 h1 h2).2.2.1) ((case4_C t hz h0 h1 h2).2.2.2.1) ((case4_C t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover4_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat4 V c) 10 t (idle4_10 t hne) (noFlush4_10 t hne)]
          rw [outsAt4_D V c t hz h0 h1 h2]
          unfold sout4_D; (try dsimp only)
          rw [PhiS4_castSucc V c t, PhiS4_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun4_D c (grid4.coords t) _ _ _ _ _ _ _ _ _ _ _ _ _ _ _ _ _ _ _ _ _ _ _ _ ((case4_D t hz h0 h1 h2).1) ((case4_D t hz h0 h1 h2).2.1) ((case4_D t hz h0 h1 h2).2.2.1) ((case4_D t hz h0 h1 h2).2.2.2.1) ((case4_D t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover4_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 32 := N_4; omega), PhiA4_eq]
  iintro ⟨⟨HS, Hrest⟩, Hg⟩
  isplitl [HS Hrest]
  · isplitl [HS]
    · iexists _; iexact HS
    iexact Hrest
  iexact Hg

end Cert.Kernel.Hand

end
-- ==== Proof.K.R5Runs.lean ====
/- Region 5 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 5: the body's branch conditions as functions of the grid position -/

/-- "first point": the accumulator is reset. -/
abbrev cond5_1 (i : grid5.Coords) : Prop := (Scalar.cmpi .ne (Scalar.extui (Scalar.cmpi .eq (BitVec.ofNat 32 (i 0).val) 0#32)) 0#32) = 1#1
/-- term 0's K-tiles: points 0 to 1. -/
abbrev cond5_2 (i : grid5.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond5_3 (i : grid5.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond5_4 (i : grid5.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond5_5 (i : grid5.Coords) : Prop := k5_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.Kernel.Hand

end
-- ==== Proof.K.R5Frame.lean ====
/- Region 5: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: where each case sits on the grid -/
theorem case5_A : ∀ t : Fin cfg5.N, t.val = 0 → cond5_1 (grid5.coords t) ∧ cond5_2 (grid5.coords t) ∧ ¬cond5_3 (grid5.coords t) ∧ ¬cond5_4 (grid5.coords t) ∧ ¬cond5_5 (grid5.coords t) :=
  (by decide +kernel : ∀ t : Fin grid5.N, t.val = 0 → cond5_1 (grid5.coords t) ∧ cond5_2 (grid5.coords t) ∧ ¬cond5_3 (grid5.coords t) ∧ ¬cond5_4 (grid5.coords t) ∧ ¬cond5_5 (grid5.coords t))
theorem case5_Z : ∀ t : Fin cfg5.N, t.val ≠ 0 → t.val = 31 → ¬cond5_1 (grid5.coords t) ∧ ¬cond5_2 (grid5.coords t) ∧ ¬cond5_3 (grid5.coords t) ∧ cond5_4 (grid5.coords t) ∧ cond5_5 (grid5.coords t) :=
  (by decide +kernel : ∀ t : Fin grid5.N, t.val ≠ 0 → t.val = 31 → ¬cond5_1 (grid5.coords t) ∧ ¬cond5_2 (grid5.coords t) ∧ ¬cond5_3 (grid5.coords t) ∧ cond5_4 (grid5.coords t) ∧ cond5_5 (grid5.coords t))
theorem case5_B : ∀ t : Fin cfg5.N, t.val ≠ 0 → ¬t.val = 31 → t.val = 1 → ¬cond5_1 (grid5.coords t) ∧ cond5_2 (grid5.coords t) ∧ ¬cond5_3 (grid5.coords t) ∧ ¬cond5_4 (grid5.coords t) ∧ ¬cond5_5 (grid5.coords t) :=
  (by decide +kernel : ∀ t : Fin grid5.N, t.val ≠ 0 → ¬t.val = 31 → t.val = 1 → ¬cond5_1 (grid5.coords t) ∧ cond5_2 (grid5.coords t) ∧ ¬cond5_3 (grid5.coords t) ∧ ¬cond5_4 (grid5.coords t) ∧ ¬cond5_5 (grid5.coords t))
theorem case5_C : ∀ t : Fin cfg5.N, t.val ≠ 0 → ¬t.val = 31 → ¬t.val = 1 → (2 ≤ t.val ∧ t.val ≤ 17) → ¬cond5_1 (grid5.coords t) ∧ ¬cond5_2 (grid5.coords t) ∧ cond5_3 (grid5.coords t) ∧ ¬cond5_4 (grid5.coords t) ∧ ¬cond5_5 (grid5.coords t) :=
  (by decide +kernel : ∀ t : Fin grid5.N, t.val ≠ 0 → ¬t.val = 31 → ¬t.val = 1 → (2 ≤ t.val ∧ t.val ≤ 17) → ¬cond5_1 (grid5.coords t) ∧ ¬cond5_2 (grid5.coords t) ∧ cond5_3 (grid5.coords t) ∧ ¬cond5_4 (grid5.coords t) ∧ ¬cond5_5 (grid5.coords t))
theorem case5_D : ∀ t : Fin cfg5.N, t.val ≠ 0 → ¬t.val = 31 → ¬t.val = 1 → ¬(2 ≤ t.val ∧ t.val ≤ 17) → ¬cond5_1 (grid5.coords t) ∧ ¬cond5_2 (grid5.coords t) ∧ ¬cond5_3 (grid5.coords t) ∧ cond5_4 (grid5.coords t) ∧ ¬cond5_5 (grid5.coords t) :=
  (by decide +kernel : ∀ t : Fin grid5.N, t.val ≠ 0 → ¬t.val = 31 → ¬t.val = 1 → ¬(2 ≤ t.val ∧ t.val ≤ 17) → ¬cond5_1 (grid5.coords t) ∧ ¬cond5_2 (grid5.coords t) ∧ ¬cond5_3 (grid5.coords t) ∧ cond5_4 (grid5.coords t) ∧ ¬cond5_5 (grid5.coords t))

/-! ## The windows' blocks, the staging buffers and the accumulator -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev VO5 : View sig .tc .vmem S64x1024 .f32 := (Memref.whole cc5_stg10_0 : Memref sig .tc .vmem S64x1024 .f32).view
abbrev ms5_0 (t : Fin cfg5.N) : Memref sig .tc .vmem S64x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x512 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x512 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S64x512 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1024x512 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1024x512 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x1024 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S64x1024 .f32 := win5_10.stage (cfg5.slots t 10)
abbrev hs5_10 (t : Fin cfg5.N) : (ms5_10 t).IsWhole := hstage5_10 ((cfg5.slots t 10).cast nbuf5_10)
abbrev scM5 : Memref sig .tc .vmem S64x1024 .f32 := Memref.whole cc5_scratch0
abbrev VS5 : View sig .tc .vmem S64x1024 .f32 := scM5.view
/-- Every scoped buffer that is neither a staging buffer of this region nor its accumulator, at some contents. -/
abbrev restBut5 (c : Dev nD) : sProp 𝕄 := Pipeline.scopedRestBut (Ix := Unit) (Name := ℕ) (U := UR sig nD τ) (Lvl := ℕ) (Val := Elt F) spec5 c [cc5_scratch0]

/-- The class invariant with the accumulator taken out of the scoped rest. -/
theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-! ## Where the windows are idle -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem live5_3 : ∀ t : Fin cfg5.N, cfg5.idle 3 (grid5.coords t) = false := by decide +kernel
theorem live5_4 : ∀ t : Fin cfg5.N, cfg5.idle 4 (grid5.coords t) = false := by decide +kernel
theorem live5_5 : ∀ t : Fin cfg5.N, cfg5.idle 5 (grid5.coords t) = false := by decide +kernel
theorem live5_6 : ∀ t : Fin cfg5.N, cfg5.idle 6 (grid5.coords t) = false := by decide +kernel
theorem live5_7 : ∀ t : Fin cfg5.N, cfg5.idle 7 (grid5.coords t) = false := by decide +kernel
theorem live5_8 : ∀ t : Fin cfg5.N, cfg5.idle 8 (grid5.coords t) = false := by decide +kernel
theorem live5_9 : ∀ t : Fin cfg5.N, cfg5.idle 9 (grid5.coords t) = false := by decide +kernel
theorem idle5_10 : ∀ t : Fin cfg5.N, t.val ≠ 31 → cfg5.idle 10 (grid5.coords t) = true := by decide +kernel
theorem noFlush5_10 : ∀ t : Fin cfg5.N, t.val ≠ 31 → (cfg5.win 10).flush t = false := by decide +kernel
theorem live5_10 : ∀ t : Fin cfg5.N, t.val = 31 → cfg5.idle 10 (grid5.coords t) = false := by decide +kernel

theorem live5_0_all : ∀ i, cfg5.idle 0 i = false := fun _ => rfl
theorem live5_1_all : ∀ i, cfg5.idle 1 i = false := fun _ => rfl
theorem live5_2_all : ∀ i, cfg5.idle 2 i = false := fun _ => rfl
theorem live5_3_all : ∀ i, cfg5.idle 3 i = false := fun _ => rfl
theorem live5_4_all : ∀ i, cfg5.idle 4 i = false := fun _ => rfl
theorem live5_5_all : ∀ i, cfg5.idle 5 i = false := fun _ => rfl
theorem live5_6_all : ∀ i, cfg5.idle 6 i = false := fun _ => rfl
theorem live5_7_all : ∀ i, cfg5.idle 7 i = false := fun _ => rfl
theorem live5_8_all : ∀ i, cfg5.idle 8 i = false := fun _ => rfl
theorem live5_9_all : ∀ i, cfg5.idle 9 i = false := fun _ => rfl

/-! ## What each case leaves in the accumulator (and, at the last point, in the output's buffer) -/

theorem scover5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS5.read (Elt F) (VS5.writes (Elt F) VS5.junk (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO5.read (Elt F) (VO5.writes (Elt F) VO5.junk (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut5 : Vec F S64x1024 .f32 := VO5.read (Elt F) (VO5.writes (Elt F) VO5.junk [])

/-! ## The accumulation, point by point -/

/-- After the body at position `n`: (the output's staging buffer, the accumulator). -/
def outsAt5 (c : Dev nD) : (n : ℕ) → n < cfg5.N → Vec F S64x1024 .f32 × Vec F S64x1024 .f32
  | 0, hn => (idleOut5, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) scM5 (Memref.isWhole_whole _) ((case5_A ⟨0, hn⟩ rfl).1) ((case5_A ⟨0, hn⟩ rfl).2.1) ((case5_A ⟨0, hn⟩ rfl).2.2.1) ((case5_A ⟨0, hn⟩ rfl).2.2.2.1) ((case5_A ⟨0, hn⟩ rfl).2.2.2.2) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩))
  | n + 1, hn =>
    if h0 : n + 1 = 31 then
      (out5_Z c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_Z ⟨n + 1, hn⟩ (Nat.succ_ne_zero n) h0).1) ((case5_Z ⟨n + 1, hn⟩ (Nat.succ_ne_zero n) h0).2.1) ((case5_Z ⟨n + 1, hn⟩ (Nat.succ_ne_zero n) h0).2.2.1) ((case5_Z ⟨n + 1, hn⟩ (Nat.succ_ne_zero n) h0).2.2.2.1) ((case5_Z ⟨n + 1, hn⟩ (Nat.succ_ne_zero n) h0).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2, sout5_Z c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_Z ⟨n + 1, hn⟩ (Nat.succ_ne_zero n) h0).1) ((case5_Z ⟨n + 1, hn⟩ (Nat.succ_ne_zero n) h0).2.1) ((case5_Z ⟨n + 1, hn⟩ (Nat.succ_ne_zero n) h0).2.2.1) ((case5_Z ⟨n + 1, hn⟩ (Nat.succ_ne_zero n) h0).2.2.2.1) ((case5_Z ⟨n + 1, hn⟩ (Nat.succ_ne_zero n) h0).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
    else
      if h1 : n + 1 = 1 then
        (idleOut5, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_B ⟨n + 1, hn⟩ (Nat.succ_ne_zero n) h0 h1).1) ((case5_B ⟨n + 1, hn⟩ (Nat.succ_ne_zero n) h0 h1).2.1) ((case5_B ⟨n + 1, hn⟩ (Nat.succ_ne_zero n) h0 h1).2.2.1) ((case5_B ⟨n + 1, hn⟩ (Nat.succ_ne_zero n) h0 h1).2.2.2.1) ((case5_B ⟨n + 1, hn⟩ (Nat.succ_ne_zero n) h0 h1).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
      else
        if h2 : (2 ≤ n + 1 ∧ n + 1 ≤ 17) then
          (idleOut5, sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_C ⟨n + 1, hn⟩ (Nat.succ_ne_zero n) h0 h1 h2).1) ((case5_C ⟨n + 1, hn⟩ (Nat.succ_ne_zero n) h0 h1 h2).2.1) ((case5_C ⟨n + 1, hn⟩ (Nat.succ_ne_zero n) h0 h1 h2).2.2.1) ((case5_C ⟨n + 1, hn⟩ (Nat.succ_ne_zero n) h0 h1 h2).2.2.2.1) ((case5_C ⟨n + 1, hn⟩ (Nat.succ_ne_zero n) h0 h1 h2).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
        else
          (idleOut5, sout5_D c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_D ⟨n + 1, hn⟩ (Nat.succ_ne_zero n) h0 h1 h2).1) ((case5_D ⟨n + 1, hn⟩ (Nat.succ_ne_zero n) h0 h1 h2).2.1) ((case5_D ⟨n + 1, hn⟩ (Nat.succ_ne_zero n) h0 h1 h2).2.2.1) ((case5_D ⟨n + 1, hn⟩ (Nat.succ_ne_zero n) h0 h1 h2).2.2.2.1) ((case5_D ⟨n + 1, hn⟩ (Nat.succ_ne_zero n) h0 h1 h2).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)

theorem outsAt5_A (c : Dev nD) (t : Fin cfg5.N) (hz : t.val = 0) :
    outsAt5 V c t.val t.isLt = (idleOut5, sout5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_A t hz).1) ((case5_A t hz).2.1) ((case5_A t hz).2.2.1) ((case5_A t hz).2.2.2.1) ((case5_A t hz).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)) := by
  obtain ⟨n, hn⟩ := t
  cases n with
  | zero => exact rfl
  | succ n => exact absurd hz (Nat.succ_ne_zero n)

theorem outsAt5_Z (c : Dev nD) (t : Fin cfg5.N) (hz : t.val ≠ 0) (h0 : t.val = 31) :
    outsAt5 V c t.val t.isLt = (out5_Z c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2, sout5_Z c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_pos h0).trans rfl

theorem outsAt5_B (c : Dev nD) (t : Fin cfg5.N) (hz : t.val ≠ 0) (h0 : ¬t.val = 31) (h1 : t.val = 1) :
    outsAt5 V c t.val t.isLt = (idleOut5, sout5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_B t hz h0 h1).1) ((case5_B t hz h0 h1).2.1) ((case5_B t hz h0 h1).2.2.1) ((case5_B t hz h0 h1).2.2.2.1) ((case5_B t hz h0 h1).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt5_C (c : Dev nD) (t : Fin cfg5.N) (hz : t.val ≠ 0) (h0 : ¬t.val = 31) (h1 : ¬t.val = 1) (h2 : (2 ≤ t.val ∧ t.val ≤ 17)) :
    outsAt5 V c t.val t.isLt = (idleOut5, sout5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_C t hz h0 h1 h2).1) ((case5_C t hz h0 h1 h2).2.1) ((case5_C t hz h0 h1 h2).2.2.1) ((case5_C t hz h0 h1 h2).2.2.2.1) ((case5_C t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt5_D (c : Dev nD) (t : Fin cfg5.N) (hz : t.val ≠ 0) (h0 : ¬t.val = 31) (h1 : ¬t.val = 1) (h2 : ¬(2 ≤ t.val ∧ t.val ≤ 17)) :
    outsAt5 V c t.val t.isLt = (idleOut5, sout5_D c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_D t hz h0 h1 h2).1) ((case5_D t hz h0 h1 h2).2.1) ((case5_D t hz h0 h1 h2).2.2.1) ((case5_D t hz h0 h1 h2).2.2.2.1) ((case5_D t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ restBut5 c) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ restBut5 c) ∗ (∃ r, prngReg c r)) := by
  cases n with
  | zero => exact absurd rfl hz
  | succ n => rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (live5_0_all) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (live5_1_all) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (live5_2_all) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (live5_3_all) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (live5_4_all) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (live5_5_all) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (live5_6_all) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (live5_7_all) (fun _ _ _ => rfl) (fun t => by rw [after5_7]; unfold Dat.blockOf iblk5; rw [A_eq5]; try rfl) t d).trans
    (by unfold Dat.fetched Dat.blockOf iblk5; rw [A_eq5]; try rfl)
theorem before5_8 (c : Dev nD) (t : Fin cfg5.N) (d) : (dat5 V c).before 8 t d = iblk5 V c 8 t :=
  ((dat5 V c).before_in_eq_fetched 8 rfl (live5_8_all) (fun _ _ _ => rfl) (fun t => by rw [after5_8]; unfold Dat.blockOf iblk5; rw [A_eq5]; try rfl) t d).trans
    (by unfold Dat.fetched Dat.blockOf iblk5; rw [A_eq5]; try rfl)
theorem before5_9 (c : Dev nD) (t : Fin cfg5.N) (d) : (dat5 V c).before 9 t d = iblk5 V c 9 t :=
  ((dat5 V c).before_in_eq_fetched 9 rfl (live5_9_all) (fun _ _ _ => rfl) (fun t => by rw [after5_9]; unfold Dat.blockOf iblk5; rw [A_eq5]; try rfl) t d).trans
    (by unfold Dat.fetched Dat.blockOf iblk5; rw [A_eq5]; try rfl)

theorem leaves5_0 (c : Dev nD) (t : Fin cfg5.N) : (dat5 V c).leavesExact 0 t = owns (c : Thread nD τ) (ms5_0 t) fullShare (iblk5 V c 0 t) := by
  unfold Dat.leavesExact; rw [live5_0 t, after5_0]
theorem leaves5_1 (c : Dev nD) (t : Fin cfg5.N) : (dat5 V c).leavesExact 1 t = owns (c : Thread nD τ) (ms5_1 t) fullShare (iblk5 V c 1 t) := by
  unfold Dat.leavesExact; rw [live5_1 t, after5_1]
theorem leaves5_2 (c : Dev nD) (t : Fin cfg5.N) : (dat5 V c).leavesExact 2 t = owns (c : Thread nD τ) (ms5_2 t) fullShare (iblk5 V c 2 t) := by
  unfold Dat.leavesExact; rw [live5_2 t, after5_2]
theorem leaves5_3 (c : Dev nD) (t : Fin cfg5.N) : (dat5 V c).leavesExact 3 t = owns (c : Thread nD τ) (ms5_3 t) fullShare (iblk5 V c 3 t) := by
  unfold Dat.leavesExact; rw [live5_3 t, after5_3]
theorem leaves5_4 (c : Dev nD) (t : Fin cfg5.N) : (dat5 V c).leavesExact 4 t = owns (c : Thread nD τ) (ms5_4 t) fullShare (iblk5 V c 4 t) := by
  unfold Dat.leavesExact; rw [live5_4 t, after5_4]
theorem leaves5_5 (c : Dev nD) (t : Fin cfg5.N) : (dat5 V c).leavesExact 5 t = owns (c : Thread nD τ) (ms5_5 t) fullShare (iblk5 V c 5 t) := by
  unfold Dat.leavesExact; rw [live5_5 t, after5_5]
theorem leaves5_6 (c : Dev nD) (t : Fin cfg5.N) : (dat5 V c).leavesExact 6 t = owns (c : Thread nD τ) (ms5_6 t) fullShare (iblk5 V c 6 t) := by
  unfold Dat.leavesExact; rw [live5_6 t, after5_6]
theorem leaves5_7 (c : Dev nD) (t : Fin cfg5.N) : (dat5 V c).leavesExact 7 t = owns (c : Thread nD τ) (ms5_7 t) fullShare (iblk5 V c 7 t) := by
  unfold Dat.leavesExact; rw [live5_7 t, after5_7]
theorem leaves5_8 (c : Dev nD) (t : Fin cfg5.N) : (dat5 V c).leavesExact 8 t = owns (c : Thread nD τ) (ms5_8 t) fullShare (iblk5 V c 8 t) := by
  unfold Dat.leavesExact; rw [live5_8 t, after5_8]
theorem leaves5_9 (c : Dev nD) (t : Fin cfg5.N) : (dat5 V c).leavesExact 9 t = owns (c : Thread nD τ) (ms5_9 t) fullShare (iblk5 V c 9 t) := by
  unfold Dat.leavesExact; rw [live5_9 t, after5_9]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t)

set_option maxHeartbeats 8000000 in
/-- The body at any point: the case the point is in decides the branches; the invariant hands the body the accumulator at
    what the point before left (at anything at the first point) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5, leaves5_6, leaves5_7, leaves5_8, leaves5_9]
  have hN : t.val < 32 := lt_of_lt_of_eq t.isLt (show cfg5.N = 32 from N_5)
  by_cases hz : t.val = 0
  · have hne : t.val ≠ 31 := by omega
    rw [Dat.leavesExact_idle (dat5 V c) 10 t (idle5_10 t hne) (noFlush5_10 t hne)]
    rw [outsAt5_A V c t hz]
    unfold sout5_A; (try dsimp only)
    rw [PhiS5_castSucc V c t, PhiS5_zero V c _ _ hz, PhiA5_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun5_A c (grid5.coords t) _ _ _ _ _ _ _ _ _ _ _ _ _ _ _ _ _ _ _ _ _ _ _ _ ((case5_A t hz).1) ((case5_A t hz).2.1) ((case5_A t hz).2.2.1) ((case5_A t hz).2.2.2.1) ((case5_A t hz).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover5_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat5 V c).leavesExact 10 t = owns (c : Thread nD τ) (ms5_10 t) fullShare ((dat5 V c).after 10 t) from by
        unfold Dat.leavesExact; rw [live5_10 t hlast], after5_10]
      rw [outsAt5_Z V c t hz h0]
      unfold out5_Z sout5_Z; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_Z c (grid5.coords t) _ _ _ _ _ _ _ _ _ _ _ _ _ _ _ _ _ _ _ _ _ _ _ _ ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover5_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat5 V c) 10 t (idle5_10 t hne) (noFlush5_10 t hne)]
        rw [outsAt5_B V c t hz h0 h1]
        unfold sout5_B; (try dsimp only)
        rw [PhiS5_castSucc V c t, PhiS5_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun5_B c (grid5.coords t) _ _ _ _ _ _ _ _ _ _ _ _ _ _ _ _ _ _ _ _ _ _ _ _ ((case5_B t hz h0 h1).1) ((case5_B t hz h0 h1).2.1) ((case5_B t hz h0 h1).2.2.1) ((case5_B t hz h0 h1).2.2.2.1) ((case5_B t hz h0 h1).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover5_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat5 V c) 10 t (idle5_10 t hne) (noFlush5_10 t hne)]
          rw [outsAt5_C V c t hz h0 h1 h2]
          unfold sout5_C; (try dsimp only)
          rw [PhiS5_castSucc V c t, PhiS5_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun5_C c (grid5.coords t) _ _ _ _ _ _ _ _ _ _ _ _ _ _ _ _ _ _ _ _ _ _ _ _ ((case5_C t hz h0 h1 h2).1) ((case5_C t hz h0 h1 h2).2.1) ((case5_C t hz h0 h1 h2).2.2.1) ((case5_C t hz h0 h1 h2).2.2.2.1) ((case5_C t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover5_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat5 V c) 10 t (idle5_10 t hne) (noFlush5_10 t hne)]
          rw [outsAt5_D V c t hz h0 h1 h2]
          unfold sout5_D; (try dsimp only)
          rw [PhiS5_castSucc V c t, PhiS5_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun5_D c (grid5.coords t) _ _ _ _ _ _ _ _ _ _ _ _ _ _ _ _ _ _ _ _ _ _ _ _ ((case5_D t hz h0 h1 h2).1) ((case5_D t hz h0 h1 h2).2.1) ((case5_D t hz h0 h1 h2).2.2.1) ((case5_D t hz h0 h1 h2).2.2.2.1) ((case5_D t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover5_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 32 := N_5; omega), PhiA5_eq]
  iintro ⟨⟨HS, Hrest⟩, Hg⟩
  isplitl [HS Hrest]
  · isplitl [HS]
    · iexists _; iexact HS
    iexact Hrest
  iexact Hg

end Cert.Kernel.Hand

end
-- ==== Proof.K.R6Runs.lean ====
/- Region 6 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 6: the body's branch conditions as functions of the grid position -/

/-- "first point": the accumulator is reset. -/
abbrev cond6_1 (i : grid6.Coords) : Prop := (Scalar.cmpi .ne (Scalar.extui (Scalar.cmpi .eq (BitVec.ofNat 32 (i 0).val) 0#32)) 0#32) = 1#1
/-- term 0's K-tiles: points 0 to 1. -/
abbrev cond6_2 (i : grid6.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond6_3 (i : grid6.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond6_4 (i : grid6.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond6_5 (i : grid6.Coords) : Prop := k6_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.Kernel.Hand

end
-- ==== Proof.K.R6Frame.lean ====
/- Region 6: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: where each case sits on the grid -/
theorem case6_A : ∀ t : Fin cfg6.N, t.val = 0 → cond6_1 (grid6.coords t) ∧ cond6_2 (grid6.coords t) ∧ ¬cond6_3 (grid6.coords t) ∧ ¬cond6_4 (grid6.coords t) ∧ ¬cond6_5 (grid6.coords t) :=
  (by decide +kernel : ∀ t : Fin grid6.N, t.val = 0 → cond6_1 (grid6.coords t) ∧ cond6_2 (grid6.coords t) ∧ ¬cond6_3 (grid6.coords t) ∧ ¬cond6_4 (grid6.coords t) ∧ ¬cond6_5 (grid6.coords t))
theorem case6_Z : ∀ t : Fin cfg6.N, t.val ≠ 0 → t.val = 31 → ¬cond6_1 (grid6.coords t) ∧ ¬cond6_2 (grid6.coords t) ∧ ¬cond6_3 (grid6.coords t) ∧ cond6_4 (grid6.coords t) ∧ cond6_5 (grid6.coords t) :=
  (by decide +kernel : ∀ t : Fin grid6.N, t.val ≠ 0 → t.val = 31 → ¬cond6_1 (grid6.coords t) ∧ ¬cond6_2 (grid6.coords t) ∧ ¬cond6_3 (grid6.coords t) ∧ cond6_4 (grid6.coords t) ∧ cond6_5 (grid6.coords t))
theorem case6_B : ∀ t : Fin cfg6.N, t.val ≠ 0 → ¬t.val = 31 → t.val = 1 → ¬cond6_1 (grid6.coords t) ∧ cond6_2 (grid6.coords t) ∧ ¬cond6_3 (grid6.coords t) ∧ ¬cond6_4 (grid6.coords t) ∧ ¬cond6_5 (grid6.coords t) :=
  (by decide +kernel : ∀ t : Fin grid6.N, t.val ≠ 0 → ¬t.val = 31 → t.val = 1 → ¬cond6_1 (grid6.coords t) ∧ cond6_2 (grid6.coords t) ∧ ¬cond6_3 (grid6.coords t) ∧ ¬cond6_4 (grid6.coords t) ∧ ¬cond6_5 (grid6.coords t))
theorem case6_C : ∀ t : Fin cfg6.N, t.val ≠ 0 → ¬t.val = 31 → ¬t.val = 1 → (2 ≤ t.val ∧ t.val ≤ 17) → ¬cond6_1 (grid6.coords t) ∧ ¬cond6_2 (grid6.coords t) ∧ cond6_3 (grid6.coords t) ∧ ¬cond6_4 (grid6.coords t) ∧ ¬cond6_5 (grid6.coords t) :=
  (by decide +kernel : ∀ t : Fin grid6.N, t.val ≠ 0 → ¬t.val = 31 → ¬t.val = 1 → (2 ≤ t.val ∧ t.val ≤ 17) → ¬cond6_1 (grid6.coords t) ∧ ¬cond6_2 (grid6.coords t) ∧ cond6_3 (grid6.coords t) ∧ ¬cond6_4 (grid6.coords t) ∧ ¬cond6_5 (grid6.coords t))
theorem case6_D : ∀ t : Fin cfg6.N, t.val ≠ 0 → ¬t.val = 31 → ¬t.val = 1 → ¬(2 ≤ t.val ∧ t.val ≤ 17) → ¬cond6_1 (grid6.coords t) ∧ ¬cond6_2 (grid6.coords t) ∧ ¬cond6_3 (grid6.coords t) ∧ cond6_4 (grid6.coords t) ∧ ¬cond6_5 (grid6.coords t) :=
  (by decide +kernel : ∀ t : Fin grid6.N, t.val ≠ 0 → ¬t.val = 31 → ¬t.val = 1 → ¬(2 ≤ t.val ∧ t.val ≤ 17) → ¬cond6_1 (grid6.coords t) ∧ ¬cond6_2 (grid6.coords t) ∧ ¬cond6_3 (grid6.coords t) ∧ cond6_4 (grid6.coords t) ∧ ¬cond6_5 (grid6.coords t))

/-! ## The windows' blocks, the staging buffers and the accumulator -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev VO6 : View sig .tc .vmem S64x1024 .f32 := (Memref.whole cc6_stg10_0 : Memref sig .tc .vmem S64x1024 .f32).view
abbrev ms6_0 (t : Fin cfg6.N) : Memref sig .tc .vmem S64x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S64x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x512 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1024x512 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1024x512 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1024x512 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1024 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S64x1024 .f32 := win6_10.stage (cfg6.slots t 10)
abbrev hs6_10 (t : Fin cfg6.N) : (ms6_10 t).IsWhole := hstage6_10 ((cfg6.slots t 10).cast nbuf6_10)
abbrev scM6 : Memref sig .tc .vmem S64x1024 .f32 := Memref.whole cc6_scratch0
abbrev VS6 : View sig .tc .vmem S64x1024 .f32 := scM6.view
/-- Every scoped buffer that is neither a staging buffer of this region nor its accumulator, at some contents. -/
abbrev restBut6 (c : Dev nD) : sProp 𝕄 := Pipeline.scopedRestBut (Ix := Unit) (Name := ℕ) (U := UR sig nD τ) (Lvl := ℕ) (Val := Elt F) spec6 c [cc6_scratch0]

/-- The class invariant with the accumulator taken out of the scoped rest. -/
theorem PhiA6_eq (c : Dev nD) :
    (Pipeline.ΦA spec6 c : sProp 𝕄)
      = iprop(iprop((∃ d, owns (c : Thread nD τ) scM6 fullShare d) ∗ restBut6 c) ∗ (∃ r, prngReg c r)) := by
  unfold Pipeline.ΦA; rw [scopedRest6_split]; simp only [scM6, owns_whole]; try rfl

/-! ## Where the windows are idle -/
theorem live6_0 : ∀ t : Fin cfg6.N, cfg6.idle 0 (grid6.coords t) = false := by decide +kernel
theorem live6_1 : ∀ t : Fin cfg6.N, cfg6.idle 1 (grid6.coords t) = false := by decide +kernel
theorem live6_2 : ∀ t : Fin cfg6.N, cfg6.idle 2 (grid6.coords t) = false := by decide +kernel
theorem live6_3 : ∀ t : Fin cfg6.N, cfg6.idle 3 (grid6.coords t) = false := by decide +kernel
theorem live6_4 : ∀ t : Fin cfg6.N, cfg6.idle 4 (grid6.coords t) = false := by decide +kernel
theorem live6_5 : ∀ t : Fin cfg6.N, cfg6.idle 5 (grid6.coords t) = false := by decide +kernel
theorem live6_6 : ∀ t : Fin cfg6.N, cfg6.idle 6 (grid6.coords t) = false := by decide +kernel
theorem live6_7 : ∀ t : Fin cfg6.N, cfg6.idle 7 (grid6.coords t) = false := by decide +kernel
theorem live6_8 : ∀ t : Fin cfg6.N, cfg6.idle 8 (grid6.coords t) = false := by decide +kernel
theorem live6_9 : ∀ t : Fin cfg6.N, cfg6.idle 9 (grid6.coords t) = false := by decide +kernel
theorem idle6_10 : ∀ t : Fin cfg6.N, t.val ≠ 31 → cfg6.idle 10 (grid6.coords t) = true := by decide +kernel
theorem noFlush6_10 : ∀ t : Fin cfg6.N, t.val ≠ 31 → (cfg6.win 10).flush t = false := by decide +kernel
theorem live6_10 : ∀ t : Fin cfg6.N, t.val = 31 → cfg6.idle 10 (grid6.coords t) = false := by decide +kernel

theorem live6_0_all : ∀ i, cfg6.idle 0 i = false := fun _ => rfl
theorem live6_1_all : ∀ i, cfg6.idle 1 i = false := fun _ => rfl
theorem live6_2_all : ∀ i, cfg6.idle 2 i = false := fun _ => rfl
theorem live6_3_all : ∀ i, cfg6.idle 3 i = false := fun _ => rfl
theorem live6_4_all : ∀ i, cfg6.idle 4 i = false := fun _ => rfl
theorem live6_5_all : ∀ i, cfg6.idle 5 i = false := fun _ => rfl
theorem live6_6_all : ∀ i, cfg6.idle 6 i = false := fun _ => rfl
theorem live6_7_all : ∀ i, cfg6.idle 7 i = false := fun _ => rfl
theorem live6_8_all : ∀ i, cfg6.idle 8 i = false := fun _ => rfl
theorem live6_9_all : ∀ i, cfg6.idle 9 i = false := fun _ => rfl

/-! ## What each case leaves in the accumulator (and, at the last point, in the output's buffer) -/

theorem scover6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS6.read (Elt F) (VS6.writes (Elt F) VS6.junk (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO6.read (Elt F) (VO6.writes (Elt F) VO6.junk (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut6 : Vec F S64x1024 .f32 := VO6.read (Elt F) (VO6.writes (Elt F) VO6.junk [])

/-! ## The accumulation, point by point -/

/-- After the body at position `n`: (the output's staging buffer, the accumulator). -/
def outsAt6 (c : Dev nD) : (n : ℕ) → n < cfg6.N → Vec F S64x1024 .f32 × Vec F S64x1024 .f32
  | 0, hn => (idleOut6, sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6 (Memref.isWhole_whole _) ((case6_A ⟨0, hn⟩ rfl).1) ((case6_A ⟨0, hn⟩ rfl).2.1) ((case6_A ⟨0, hn⟩ rfl).2.2.1) ((case6_A ⟨0, hn⟩ rfl).2.2.2.1) ((case6_A ⟨0, hn⟩ rfl).2.2.2.2) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩) (iblk6 V c 9 ⟨0, hn⟩))
  | n + 1, hn =>
    if h0 : n + 1 = 31 then
      (out6_Z c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_Z ⟨n + 1, hn⟩ (Nat.succ_ne_zero n) h0).1) ((case6_Z ⟨n + 1, hn⟩ (Nat.succ_ne_zero n) h0).2.1) ((case6_Z ⟨n + 1, hn⟩ (Nat.succ_ne_zero n) h0).2.2.1) ((case6_Z ⟨n + 1, hn⟩ (Nat.succ_ne_zero n) h0).2.2.2.1) ((case6_Z ⟨n + 1, hn⟩ (Nat.succ_ne_zero n) h0).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2, sout6_Z c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_Z ⟨n + 1, hn⟩ (Nat.succ_ne_zero n) h0).1) ((case6_Z ⟨n + 1, hn⟩ (Nat.succ_ne_zero n) h0).2.1) ((case6_Z ⟨n + 1, hn⟩ (Nat.succ_ne_zero n) h0).2.2.1) ((case6_Z ⟨n + 1, hn⟩ (Nat.succ_ne_zero n) h0).2.2.2.1) ((case6_Z ⟨n + 1, hn⟩ (Nat.succ_ne_zero n) h0).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
    else
      if h1 : n + 1 = 1 then
        (idleOut6, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_B ⟨n + 1, hn⟩ (Nat.succ_ne_zero n) h0 h1).1) ((case6_B ⟨n + 1, hn⟩ (Nat.succ_ne_zero n) h0 h1).2.1) ((case6_B ⟨n + 1, hn⟩ (Nat.succ_ne_zero n) h0 h1).2.2.1) ((case6_B ⟨n + 1, hn⟩ (Nat.succ_ne_zero n) h0 h1).2.2.2.1) ((case6_B ⟨n + 1, hn⟩ (Nat.succ_ne_zero n) h0 h1).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
      else
        if h2 : (2 ≤ n + 1 ∧ n + 1 ≤ 17) then
          (idleOut6, sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_C ⟨n + 1, hn⟩ (Nat.succ_ne_zero n) h0 h1 h2).1) ((case6_C ⟨n + 1, hn⟩ (Nat.succ_ne_zero n) h0 h1 h2).2.1) ((case6_C ⟨n + 1, hn⟩ (Nat.succ_ne_zero n) h0 h1 h2).2.2.1) ((case6_C ⟨n + 1, hn⟩ (Nat.succ_ne_zero n) h0 h1 h2).2.2.2.1) ((case6_C ⟨n + 1, hn⟩ (Nat.succ_ne_zero n) h0 h1 h2).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
        else
          (idleOut6, sout6_D c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_D ⟨n + 1, hn⟩ (Nat.succ_ne_zero n) h0 h1 h2).1) ((case6_D ⟨n + 1, hn⟩ (Nat.succ_ne_zero n) h0 h1 h2).2.1) ((case6_D ⟨n + 1, hn⟩ (Nat.succ_ne_zero n) h0 h1 h2).2.2.1) ((case6_D ⟨n + 1, hn⟩ (Nat.succ_ne_zero n) h0 h1 h2).2.2.2.1) ((case6_D ⟨n + 1, hn⟩ (Nat.succ_ne_zero n) h0 h1 h2).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)

theorem outsAt6_A (c : Dev nD) (t : Fin cfg6.N) (hz : t.val = 0) :
    outsAt6 V c t.val t.isLt = (idleOut6, sout6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_A t hz).1) ((case6_A t hz).2.1) ((case6_A t hz).2.2.1) ((case6_A t hz).2.2.2.1) ((case6_A t hz).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)) := by
  obtain ⟨n, hn⟩ := t
  cases n with
  | zero => exact rfl
  | succ n => exact absurd hz (Nat.succ_ne_zero n)

theorem outsAt6_Z (c : Dev nD) (t : Fin cfg6.N) (hz : t.val ≠ 0) (h0 : t.val = 31) :
    outsAt6 V c t.val t.isLt = (out6_Z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2, sout6_Z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_pos h0).trans rfl

theorem outsAt6_B (c : Dev nD) (t : Fin cfg6.N) (hz : t.val ≠ 0) (h0 : ¬t.val = 31) (h1 : t.val = 1) :
    outsAt6 V c t.val t.isLt = (idleOut6, sout6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_B t hz h0 h1).1) ((case6_B t hz h0 h1).2.1) ((case6_B t hz h0 h1).2.2.1) ((case6_B t hz h0 h1).2.2.2.1) ((case6_B t hz h0 h1).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt6_C (c : Dev nD) (t : Fin cfg6.N) (hz : t.val ≠ 0) (h0 : ¬t.val = 31) (h1 : ¬t.val = 1) (h2 : (2 ≤ t.val ∧ t.val ≤ 17)) :
    outsAt6 V c t.val t.isLt = (idleOut6, sout6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_C t hz h0 h1 h2).1) ((case6_C t hz h0 h1 h2).2.1) ((case6_C t hz h0 h1 h2).2.2.1) ((case6_C t hz h0 h1 h2).2.2.2.1) ((case6_C t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt6_D (c : Dev nD) (t : Fin cfg6.N) (hz : t.val ≠ 0) (h0 : ¬t.val = 31) (h1 : ¬t.val = 1) (h2 : ¬(2 ≤ t.val ∧ t.val ≤ 17)) :
    outsAt6 V c t.val t.isLt = (idleOut6, sout6_D c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_D t hz h0 h1 h2).1) ((case6_D t hz h0 h1 h2).2.1) ((case6_D t hz h0 h1 h2).2.2.1) ((case6_D t hz h0 h1 h2).2.2.2.1) ((case6_D t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ restBut6 c) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ restBut6 c) ∗ (∃ r, prngReg c r)) := by
  cases n with
  | zero => exact absurd rfl hz
  | succ n => rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (live6_0_all) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (live6_1_all) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (live6_2_all) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (live6_3_all) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (live6_4_all) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (live6_5_all) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (live6_6_all) (fun _ _ _ => rfl) (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (live6_7_all) (fun _ _ _ => rfl) (fun t => by rw [after6_7]; unfold Dat.blockOf iblk6; rw [A_eq6]; try rfl) t d).trans
    (by unfold Dat.fetched Dat.blockOf iblk6; rw [A_eq6]; try rfl)
theorem before6_8 (c : Dev nD) (t : Fin cfg6.N) (d) : (dat6 V c).before 8 t d = iblk6 V c 8 t :=
  ((dat6 V c).before_in_eq_fetched 8 rfl (live6_8_all) (fun _ _ _ => rfl) (fun t => by rw [after6_8]; unfold Dat.blockOf iblk6; rw [A_eq6]; try rfl) t d).trans
    (by unfold Dat.fetched Dat.blockOf iblk6; rw [A_eq6]; try rfl)
theorem before6_9 (c : Dev nD) (t : Fin cfg6.N) (d) : (dat6 V c).before 9 t d = iblk6 V c 9 t :=
  ((dat6 V c).before_in_eq_fetched 9 rfl (live6_9_all) (fun _ _ _ => rfl) (fun t => by rw [after6_9]; unfold Dat.blockOf iblk6; rw [A_eq6]; try rfl) t d).trans
    (by unfold Dat.fetched Dat.blockOf iblk6; rw [A_eq6]; try rfl)

theorem leaves6_0 (c : Dev nD) (t : Fin cfg6.N) : (dat6 V c).leavesExact 0 t = owns (c : Thread nD τ) (ms6_0 t) fullShare (iblk6 V c 0 t) := by
  unfold Dat.leavesExact; rw [live6_0 t, after6_0]
theorem leaves6_1 (c : Dev nD) (t : Fin cfg6.N) : (dat6 V c).leavesExact 1 t = owns (c : Thread nD τ) (ms6_1 t) fullShare (iblk6 V c 1 t) := by
  unfold Dat.leavesExact; rw [live6_1 t, after6_1]
theorem leaves6_2 (c : Dev nD) (t : Fin cfg6.N) : (dat6 V c).leavesExact 2 t = owns (c : Thread nD τ) (ms6_2 t) fullShare (iblk6 V c 2 t) := by
  unfold Dat.leavesExact; rw [live6_2 t, after6_2]
theorem leaves6_3 (c : Dev nD) (t : Fin cfg6.N) : (dat6 V c).leavesExact 3 t = owns (c : Thread nD τ) (ms6_3 t) fullShare (iblk6 V c 3 t) := by
  unfold Dat.leavesExact; rw [live6_3 t, after6_3]
theorem leaves6_4 (c : Dev nD) (t : Fin cfg6.N) : (dat6 V c).leavesExact 4 t = owns (c : Thread nD τ) (ms6_4 t) fullShare (iblk6 V c 4 t) := by
  unfold Dat.leavesExact; rw [live6_4 t, after6_4]
theorem leaves6_5 (c : Dev nD) (t : Fin cfg6.N) : (dat6 V c).leavesExact 5 t = owns (c : Thread nD τ) (ms6_5 t) fullShare (iblk6 V c 5 t) := by
  unfold Dat.leavesExact; rw [live6_5 t, after6_5]
theorem leaves6_6 (c : Dev nD) (t : Fin cfg6.N) : (dat6 V c).leavesExact 6 t = owns (c : Thread nD τ) (ms6_6 t) fullShare (iblk6 V c 6 t) := by
  unfold Dat.leavesExact; rw [live6_6 t, after6_6]
theorem leaves6_7 (c : Dev nD) (t : Fin cfg6.N) : (dat6 V c).leavesExact 7 t = owns (c : Thread nD τ) (ms6_7 t) fullShare (iblk6 V c 7 t) := by
  unfold Dat.leavesExact; rw [live6_7 t, after6_7]
theorem leaves6_8 (c : Dev nD) (t : Fin cfg6.N) : (dat6 V c).leavesExact 8 t = owns (c : Thread nD τ) (ms6_8 t) fullShare (iblk6 V c 8 t) := by
  unfold Dat.leavesExact; rw [live6_8 t, after6_8]
theorem leaves6_9 (c : Dev nD) (t : Fin cfg6.N) : (dat6 V c).leavesExact 9 t = owns (c : Thread nD τ) (ms6_9 t) fullShare (iblk6 V c 9 t) := by
  unfold Dat.leavesExact; rw [live6_9 t, after6_9]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 8000000 in
/-- The body at any point: the case the point is in decides the branches; the invariant hands the body the accumulator at
    what the point before left (at anything at the first point) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4, leaves6_5, leaves6_6, leaves6_7, leaves6_8, leaves6_9]
  have hN : t.val < 32 := lt_of_lt_of_eq t.isLt (show cfg6.N = 32 from N_6)
  by_cases hz : t.val = 0
  · have hne : t.val ≠ 31 := by omega
    rw [Dat.leavesExact_idle (dat6 V c) 10 t (idle6_10 t hne) (noFlush6_10 t hne)]
    rw [outsAt6_A V c t hz]
    unfold sout6_A; (try dsimp only)
    rw [PhiS6_castSucc V c t, PhiS6_zero V c _ _ hz, PhiA6_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun6_A c (grid6.coords t) _ _ _ _ _ _ _ _ _ _ _ _ _ _ _ _ _ _ _ _ _ _ _ _ ((case6_A t hz).1) ((case6_A t hz).2.1) ((case6_A t hz).2.2.1) ((case6_A t hz).2.2.2.1) ((case6_A t hz).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover6_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat6 V c).leavesExact 10 t = owns (c : Thread nD τ) (ms6_10 t) fullShare ((dat6 V c).after 10 t) from by
        unfold Dat.leavesExact; rw [live6_10 t hlast], after6_10]
      rw [outsAt6_Z V c t hz h0]
      unfold out6_Z sout6_Z; (try dsimp only)
      rw [PhiS6_castSucc V c t, PhiS6_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_Z c (grid6.coords t) _ _ _ _ _ _ _ _ _ _ _ _ _ _ _ _ _ _ _ _ _ _ _ _ ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover6_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover6_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat6 V c) 10 t (idle6_10 t hne) (noFlush6_10 t hne)]
        rw [outsAt6_B V c t hz h0 h1]
        unfold sout6_B; (try dsimp only)
        rw [PhiS6_castSucc V c t, PhiS6_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun6_B c (grid6.coords t) _ _ _ _ _ _ _ _ _ _ _ _ _ _ _ _ _ _ _ _ _ _ _ _ ((case6_B t hz h0 h1).1) ((case6_B t hz h0 h1).2.1) ((case6_B t hz h0 h1).2.2.1) ((case6_B t hz h0 h1).2.2.2.1) ((case6_B t hz h0 h1).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover6_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat6 V c) 10 t (idle6_10 t hne) (noFlush6_10 t hne)]
          rw [outsAt6_C V c t hz h0 h1 h2]
          unfold sout6_C; (try dsimp only)
          rw [PhiS6_castSucc V c t, PhiS6_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun6_C c (grid6.coords t) _ _ _ _ _ _ _ _ _ _ _ _ _ _ _ _ _ _ _ _ _ _ _ _ ((case6_C t hz h0 h1 h2).1) ((case6_C t hz h0 h1 h2).2.1) ((case6_C t hz h0 h1 h2).2.2.1) ((case6_C t hz h0 h1 h2).2.2.2.1) ((case6_C t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover6_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat6 V c) 10 t (idle6_10 t hne) (noFlush6_10 t hne)]
          rw [outsAt6_D V c t hz h0 h1 h2]
          unfold sout6_D; (try dsimp only)
          rw [PhiS6_castSucc V c t, PhiS6_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun6_D c (grid6.coords t) _ _ _ _ _ _ _ _ _ _ _ _ _ _ _ _ _ _ _ _ _ _ _ _ ((case6_D t hz h0 h1 h2).1) ((case6_D t hz h0 h1 h2).2.1) ((case6_D t hz h0 h1 h2).2.2.1) ((case6_D t hz h0 h1 h2).2.2.2.1) ((case6_D t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover6_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 32 := N_6; omega), PhiA6_eq]
  iintro ⟨⟨HS, Hrest⟩, Hg⟩
  isplitl [HS Hrest]
  · isplitl [HS]
    · iexists _; iexact HS
    iexact Hrest
  iexact Hg

end Cert.Kernel.Hand

end
-- ==== Proof.K.R7Runs.lean ====
/- Region 7 (2 masked-matmul term(s), K-tiles at points 0..1, 2..15; accumulated in a scratch buffer; bias and sigmoid at the last point):
   the body's branch conditions and its run in each control case the 16 grid points fall into. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 7: the body's branch conditions as functions of the grid position -/

/-- "first point": the accumulator is reset. -/
abbrev cond7_1 (i : grid7.Coords) : Prop := (Scalar.cmpi .ne (Scalar.extui (Scalar.cmpi .eq (BitVec.ofNat 32 (i 0).val) 0#32)) 0#32) = 1#1
/-- term 0's K-tiles: points 0 to 1. -/
abbrev cond7_2 (i : grid7.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 15. -/
abbrev cond7_3 (i : grid7.Coords) : Prop := (Scalar.cmpi .ne (Scalar.extui (Scalar.andi (Scalar.cmpi .sge (BitVec.ofNat 32 (i 0).val) 2#32) (Scalar.cmpi .slt (BitVec.ofNat 32 (i 0).val) 16#32))) 0#32) = 1#1
/-- "last point": bias, sigmoid, store. -/
abbrev cond7_4 (i : grid7.Coords) : Prop := k7_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, fun E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.Kernel.Hand

end
-- ==== Proof.K.R7Frame.lean ====
/- Region 7: what the accumulator holds after each grid point (by recursion on the point), the region's invariant carrying it,
   the proof data, and the body's obligation at every point. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points
import proofs.«164445_j37684043055467_1_alg».proof.Proof.K.R7Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: where each case sits on the grid -/
theorem case7_A : ∀ t : Fin cfg7.N, t.val = 0 → cond7_1 (grid7.coords t) ∧ cond7_2 (grid7.coords t) ∧ ¬cond7_3 (grid7.coords t) ∧ ¬cond7_4 (grid7.coords t) :=
  (by decide +kernel : ∀ t : Fin grid7.N, t.val = 0 → cond7_1 (grid7.coords t) ∧ cond7_2 (grid7.coords t) ∧ ¬cond7_3 (grid7.coords t) ∧ ¬cond7_4 (grid7.coords t))
theorem case7_Z : ∀ t : Fin cfg7.N, t.val ≠ 0 → t.val = 15 → ¬cond7_1 (grid7.coords t) ∧ ¬cond7_2 (grid7.coords t) ∧ cond7_3 (grid7.coords t) ∧ cond7_4 (grid7.coords t) :=
  (by decide +kernel : ∀ t : Fin grid7.N, t.val ≠ 0 → t.val = 15 → ¬cond7_1 (grid7.coords t) ∧ ¬cond7_2 (grid7.coords t) ∧ cond7_3 (grid7.coords t) ∧ cond7_4 (grid7.coords t))
theorem case7_B : ∀ t : Fin cfg7.N, t.val ≠ 0 → ¬t.val = 15 → t.val = 1 → ¬cond7_1 (grid7.coords t) ∧ cond7_2 (grid7.coords t) ∧ ¬cond7_3 (grid7.coords t) ∧ ¬cond7_4 (grid7.coords t) :=
  (by decide +kernel : ∀ t : Fin grid7.N, t.val ≠ 0 → ¬t.val = 15 → t.val = 1 → ¬cond7_1 (grid7.coords t) ∧ cond7_2 (grid7.coords t) ∧ ¬cond7_3 (grid7.coords t) ∧ ¬cond7_4 (grid7.coords t))
theorem case7_C : ∀ t : Fin cfg7.N, t.val ≠ 0 → ¬t.val = 15 → ¬t.val = 1 → ¬cond7_1 (grid7.coords t) ∧ ¬cond7_2 (grid7.coords t) ∧ cond7_3 (grid7.coords t) ∧ ¬cond7_4 (grid7.coords t) :=
  (by decide +kernel : ∀ t : Fin grid7.N, t.val ≠ 0 → ¬t.val = 15 → ¬t.val = 1 → ¬cond7_1 (grid7.coords t) ∧ ¬cond7_2 (grid7.coords t) ∧ cond7_3 (grid7.coords t) ∧ ¬cond7_4 (grid7.coords t))

/-! ## The windows' blocks, the staging buffers and the accumulator -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev VO7 : View sig .tc .vmem S64x1024 .f32 := (Memref.whole cc7_stg7_0 : Memref sig .tc .vmem S64x1024 .f32).view
abbrev ms7_0 (t : Fin cfg7.N) : Memref sig .tc .vmem S64x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S64x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1024x512 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x512 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x1024 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S64x1024 .f32 := win7_7.stage (cfg7.slots t 7)
abbrev hs7_7 (t : Fin cfg7.N) : (ms7_7 t).IsWhole := hstage7_7 ((cfg7.slots t 7).cast nbuf7_7)
abbrev scM7 : Memref sig .tc .vmem S64x1024 .f32 := Memref.whole cc7_scratch0
abbrev VS7 : View sig .tc .vmem S64x1024 .f32 := scM7.view
/-- Every scoped buffer that is neither a staging buffer of this region nor its accumulator, at some contents. -/
abbrev restBut7 (c : Dev nD) : sProp 𝕄 := Pipeline.scopedRestBut (Ix := Unit) (Name := ℕ) (U := UR sig nD τ) (Lvl := ℕ) (Val := Elt F) spec7 c [cc7_scratch0]

/-- The class invariant with the accumulator taken out of the scoped rest. -/
theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-! ## Where the windows are idle -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
theorem live7_5 : ∀ t : Fin cfg7.N, cfg7.idle 5 (grid7.coords t) = false := by decide +kernel
theorem live7_6 : ∀ t : Fin cfg7.N, cfg7.idle 6 (grid7.coords t) = false := by decide +kernel
theorem idle7_7 : ∀ t : Fin cfg7.N, t.val ≠ 15 → cfg7.idle 7 (grid7.coords t) = true := by decide +kernel
theorem noFlush7_7 : ∀ t : Fin cfg7.N, t.val ≠ 15 → (cfg7.win 7).flush t = false := by decide +kernel
theorem live7_7 : ∀ t : Fin cfg7.N, t.val = 15 → cfg7.idle 7 (grid7.coords t) = false := by decide +kernel

theorem live7_0_all : ∀ i, cfg7.idle 0 i = false := fun _ => rfl
theorem live7_1_all : ∀ i, cfg7.idle 1 i = false := fun _ => rfl
theorem live7_2_all : ∀ i, cfg7.idle 2 i = false := fun _ => rfl
theorem live7_3_all : ∀ i, cfg7.idle 3 i = false := fun _ => rfl
theorem live7_4_all : ∀ i, cfg7.idle 4 i = false := fun _ => rfl
theorem live7_5_all : ∀ i, cfg7.idle 5 i = false := fun _ => rfl
theorem live7_6_all : ∀ i, cfg7.idle 6 i = false := fun _ => rfl

/-! ## What each case leaves in the accumulator (and, at the last point, in the output's buffer) -/

theorem scover7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun7_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun7_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS7.read (Elt F) (VS7.writes (Elt F) VS7.junk (kernelRun7_A c i arg1 harg1 arg2 harg2 arg3 harg3 arg4 harg4 arg5 harg5 arg6 harg6 arg7 harg7 arg8 harg8 arg9 harg9 hc1 hc2 hc3 hc4 x1 x2 x3 x4 x5 x6 x7).2.1)

theorem scover7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO7.read (Elt F) (VO7.writes (Elt F) VO7.junk (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1)

theorem scover7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut7 : Vec F S64x1024 .f32 := VO7.read (Elt F) (VO7.writes (Elt F) VO7.junk [])

/-! ## The accumulation, point by point -/

/-- After the body at position `n`: (the output's staging buffer, the accumulator). -/
def outsAt7 (c : Dev nD) : (n : ℕ) → n < cfg7.N → Vec F S64x1024 .f32 × Vec F S64x1024 .f32
  | 0, hn => (idleOut7, sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7 (Memref.isWhole_whole _) ((case7_A ⟨0, hn⟩ rfl).1) ((case7_A ⟨0, hn⟩ rfl).2.1) ((case7_A ⟨0, hn⟩ rfl).2.2.1) ((case7_A ⟨0, hn⟩ rfl).2.2.2) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩))
  | n + 1, hn =>
    if h0 : n + 1 = 15 then
      (out7_Z c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_Z ⟨n + 1, hn⟩ (Nat.succ_ne_zero n) h0).1) ((case7_Z ⟨n + 1, hn⟩ (Nat.succ_ne_zero n) h0).2.1) ((case7_Z ⟨n + 1, hn⟩ (Nat.succ_ne_zero n) h0).2.2.1) ((case7_Z ⟨n + 1, hn⟩ (Nat.succ_ne_zero n) h0).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2, sout7_Z c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_Z ⟨n + 1, hn⟩ (Nat.succ_ne_zero n) h0).1) ((case7_Z ⟨n + 1, hn⟩ (Nat.succ_ne_zero n) h0).2.1) ((case7_Z ⟨n + 1, hn⟩ (Nat.succ_ne_zero n) h0).2.2.1) ((case7_Z ⟨n + 1, hn⟩ (Nat.succ_ne_zero n) h0).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)
    else
      if h1 : n + 1 = 1 then
        (idleOut7, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_B ⟨n + 1, hn⟩ (Nat.succ_ne_zero n) h0 h1).1) ((case7_B ⟨n + 1, hn⟩ (Nat.succ_ne_zero n) h0 h1).2.1) ((case7_B ⟨n + 1, hn⟩ (Nat.succ_ne_zero n) h0 h1).2.2.1) ((case7_B ⟨n + 1, hn⟩ (Nat.succ_ne_zero n) h0 h1).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)
      else
        (idleOut7, sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_C ⟨n + 1, hn⟩ (Nat.succ_ne_zero n) h0 h1).1) ((case7_C ⟨n + 1, hn⟩ (Nat.succ_ne_zero n) h0 h1).2.1) ((case7_C ⟨n + 1, hn⟩ (Nat.succ_ne_zero n) h0 h1).2.2.1) ((case7_C ⟨n + 1, hn⟩ (Nat.succ_ne_zero n) h0 h1).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)

theorem outsAt7_A (c : Dev nD) (t : Fin cfg7.N) (hz : t.val = 0) :
    outsAt7 V c t.val t.isLt = (idleOut7, sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_A t hz).1) ((case7_A t hz).2.1) ((case7_A t hz).2.2.1) ((case7_A t hz).2.2.2) (iblk7 V c 0 t) (iblk7 V c 1 t) (iblk7 V c 2 t) (iblk7 V c 3 t) (iblk7 V c 4 t) (iblk7 V c 5 t) (iblk7 V c 6 t)) := by
  obtain ⟨n, hn⟩ := t
  cases n with
  | zero => exact rfl
  | succ n => exact absurd hz (Nat.succ_ne_zero n)

theorem outsAt7_Z (c : Dev nD) (t : Fin cfg7.N) (hz : t.val ≠ 0) (h0 : t.val = 15) :
    outsAt7 V c t.val t.isLt = (out7_Z c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2, sout7_Z c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_pos h0).trans rfl

theorem outsAt7_B (c : Dev nD) (t : Fin cfg7.N) (hz : t.val ≠ 0) (h0 : ¬t.val = 15) (h1 : t.val = 1) :
    outsAt7 V c t.val t.isLt = (idleOut7, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_B t hz h0 h1).1) ((case7_B t hz h0 h1).2.1) ((case7_B t hz h0 h1).2.2.1) ((case7_B t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt7_C (c : Dev nD) (t : Fin cfg7.N) (hz : t.val ≠ 0) (h0 : ¬t.val = 15) (h1 : ¬t.val = 1) :
    outsAt7 V c t.val t.isLt = (idleOut7, sout7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_C t hz h0 h1).1) ((case7_C t hz h0 h1).2.1) ((case7_C t hz h0 h1).2.2.1) ((case7_C t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_neg h0).trans ((dif_neg h1).trans (rfl))

/-! ## The region's invariant: before the first point the class's; afterwards the accumulator at what the point before left -/

def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ restBut7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare ((outsAt7 V c n hn).2) ∗ restBut7 c) ∗ (∃ r, prngReg c r)) := rfl

theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ restBut7 c) ∗ (∃ r, prngReg c r)) := by
  cases n with
  | zero => exact absurd rfl hz
  | succ n => rfl

/-! ## The proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = (outsAt7 V c t.val t.isLt).1 := by dsimp only [dat7]

theorem before7_0 (c : Dev nD) (t : Fin cfg7.N) (d) : (dat7 V c).before 0 t d = iblk7 V c 0 t :=
  ((dat7 V c).before_in_eq_fetched 0 rfl (live7_0_all) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (live7_1_all) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (live7_2_all) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (live7_3_all) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (live7_4_all) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (live7_5_all) (fun _ _ _ => rfl) (fun t => by rw [after7_5]; unfold Dat.blockOf iblk7; rw [A_eq7]; try rfl) t d).trans
    (by unfold Dat.fetched Dat.blockOf iblk7; rw [A_eq7]; try rfl)
theorem before7_6 (c : Dev nD) (t : Fin cfg7.N) (d) : (dat7 V c).before 6 t d = iblk7 V c 6 t :=
  ((dat7 V c).before_in_eq_fetched 6 rfl (live7_6_all) (fun _ _ _ => rfl) (fun t => by rw [after7_6]; unfold Dat.blockOf iblk7; rw [A_eq7]; try rfl) t d).trans
    (by unfold Dat.fetched Dat.blockOf iblk7; rw [A_eq7]; try rfl)

theorem leaves7_0 (c : Dev nD) (t : Fin cfg7.N) : (dat7 V c).leavesExact 0 t = owns (c : Thread nD τ) (ms7_0 t) fullShare (iblk7 V c 0 t) := by
  unfold Dat.leavesExact; rw [live7_0 t, after7_0]
theorem leaves7_1 (c : Dev nD) (t : Fin cfg7.N) : (dat7 V c).leavesExact 1 t = owns (c : Thread nD τ) (ms7_1 t) fullShare (iblk7 V c 1 t) := by
  unfold Dat.leavesExact; rw [live7_1 t, after7_1]
theorem leaves7_2 (c : Dev nD) (t : Fin cfg7.N) : (dat7 V c).leavesExact 2 t = owns (c : Thread nD τ) (ms7_2 t) fullShare (iblk7 V c 2 t) := by
  unfold Dat.leavesExact; rw [live7_2 t, after7_2]
theorem leaves7_3 (c : Dev nD) (t : Fin cfg7.N) : (dat7 V c).leavesExact 3 t = owns (c : Thread nD τ) (ms7_3 t) fullShare (iblk7 V c 3 t) := by
  unfold Dat.leavesExact; rw [live7_3 t, after7_3]
theorem leaves7_4 (c : Dev nD) (t : Fin cfg7.N) : (dat7 V c).leavesExact 4 t = owns (c : Thread nD τ) (ms7_4 t) fullShare (iblk7 V c 4 t) := by
  unfold Dat.leavesExact; rw [live7_4 t, after7_4]
theorem leaves7_5 (c : Dev nD) (t : Fin cfg7.N) : (dat7 V c).leavesExact 5 t = owns (c : Thread nD τ) (ms7_5 t) fullShare (iblk7 V c 5 t) := by
  unfold Dat.leavesExact; rw [live7_5 t, after7_5]
theorem leaves7_6 (c : Dev nD) (t : Fin cfg7.N) : (dat7 V c).leavesExact 6 t = owns (c : Thread nD τ) (ms7_6 t) fullShare (iblk7 V c 6 t) := by
  unfold Dat.leavesExact; rw [live7_6 t, after7_6]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 8000000 in
/-- The body at any point: the case the point is in decides the branches; the invariant hands the body the accumulator at
    what the point before left (at anything at the first point) and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3, leaves7_4, leaves7_5, leaves7_6]
  have hN : t.val < 16 := lt_of_lt_of_eq t.isLt (show cfg7.N = 16 from N_7)
  by_cases hz : t.val = 0
  · have hne : t.val ≠ 15 := by omega
    rw [Dat.leavesExact_idle (dat7 V c) 7 t (idle7_7 t hne) (noFlush7_7 t hne)]
    rw [outsAt7_A V c t hz]
    unfold sout7_A; (try dsimp only)
    rw [PhiS7_castSucc V c t, PhiS7_zero V c _ _ hz, PhiA7_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ ((case7_A t hz).1) ((case7_A t hz).2.1) ((case7_A t hz).2.2.1) ((case7_A t hz).2.2.2) (iblk7 V c 0 t) (iblk7 V c 1 t) (iblk7 V c 2 t) (iblk7 V c 3 t) (iblk7 V c 4 t) (iblk7 V c 5 t) (iblk7 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover7_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 15
    · have hlast : t.val = 15 := by omega
      rw [show (dat7 V c).leavesExact 7 t = owns (c : Thread nD τ) (ms7_7 t) fullShare ((dat7 V c).after 7 t) from by
        unfold Dat.leavesExact; rw [live7_7 t hlast], after7_7]
      rw [outsAt7_Z V c t hz h0]
      unfold out7_Z sout7_Z; (try dsimp only)
      rw [PhiS7_castSucc V c t, PhiS7_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_Z c (grid7.coords t) _ _ _ _ _ _ _ _ _ _ _ _ _ _ _ _ _ _ ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover7_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover7_Z c _ _ _ _ _ _ _ _ _ _ _ _ _ _ _ _ _ _ _ _ _ _ _ _ _ _ _ _ _ _ _)
    · by_cases h1 : t.val = 1
      · have hne : t.val ≠ 15 := by omega
        rw [Dat.leavesExact_idle (dat7 V c) 7 t (idle7_7 t hne) (noFlush7_7 t hne)]
        rw [outsAt7_B V c t hz h0 h1]
        unfold sout7_B; (try dsimp only)
        rw [PhiS7_castSucc V c t, PhiS7_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun7_B c (grid7.coords t) _ _ _ _ _ _ _ _ _ _ _ _ _ _ _ _ _ _ ((case7_B t hz h0 h1).1) ((case7_B t hz h0 h1).2.1) ((case7_B t hz h0 h1).2.2.1) ((case7_B t hz h0 h1).2.2.2) (iblk7 V c 0 t) (iblk7 V c 1 t) (iblk7 V c 2 t) (iblk7 V c 3 t) (iblk7 V c 4 t) (iblk7 V c 5 t) (iblk7 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover7_B c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · have hne : t.val ≠ 15 := by omega
        rw [Dat.leavesExact_idle (dat7 V c) 7 t (idle7_7 t hne) (noFlush7_7 t hne)]
        rw [outsAt7_C V c t hz h0 h1]
        unfold sout7_C; (try dsimp only)
        rw [PhiS7_castSucc V c t, PhiS7_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun7_C c (grid7.coords t) _ _ _ _ _ _ _ _ _ _ _ _ _ _ _ _ _ _ ((case7_C t hz h0 h1).1) ((case7_C t hz h0 h1).2.1) ((case7_C t hz h0 h1).2.2.1) ((case7_C t hz h0 h1).2.2.2) (iblk7 V c 0 t) (iblk7 V c 1 t) (iblk7 V c 2 t) (iblk7 V c 3 t) (iblk7 V c 4 t) (iblk7 V c 5 t) (iblk7 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover7_C c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hrest⟩, Hg⟩
  isplitl [HS Hrest]
  · isplitl [HS]
    · iexists _; iexact HS
    iexact Hrest
  iexact Hg

end Cert.Kernel.Hand

end
-- ==== Proof.K.R8Frame.lean ====
/- Region 8 (the final linear map: cur · W_outᵀ + b_out, one grid point, no accumulator): what the body leaves in the output's
   buffer as one function of the three input blocks, the body's run, the proof data and the body's obligation. -/
import proofs.«164445_j37684043055467_1_alg».proof.Proof.Gen.Kernel.Launch
import proofs.«164445_j37684043055467_1_alg».proof.Proof.Gen.Kernel.Skeleton
import proofs.«164445_j37684043055467_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S64x512 := Rect.unit (s := S64x512) ![0, 0] S64x512.size inb_S64x512_S64x512_0_0
abbrev r8_a : Rect S64x1024 := Rect.unit (s := S64x1024) ![0, 0] S64x1024.size inb_S64x1024_S64x1024_0_0
abbrev r8_b : Rect S512x1024 := Rect.unit (s := S512x1024) ![0, 0] S512x1024.size inb_S512x1024_S512x1024_0_0
abbrev r8_c : Rect S1x512 := Rect.unit (s := S1x512) ![0, 0] S1x512.size inb_S1x512_S1x512_0_0

/-- The output's buffer after the body: its one whole-buffer store, the product plus the broadcast bias. -/
def out8_3 (x0 : Vec F S64x1024 .f32) (x1 : Vec F S512x1024 .f32) (x2 : Vec F S1x512 .f32) : Vec F S64x512 .f32 :=
  View.canon [⟨r8_0, k8_pay1 (View.ld x0 r8_a) (View.ld x1 r8_b) (View.ld x2 r8_c)⟩]

theorem cover8_3 (p0 : Vec F S64x512 .f32) (y : S64x512.Idx) :
    ∃ pc ∈ ([⟨r8_0, p0⟩] : List (View.Piece (Elt F) S64x512 .f32)), y ∈ pc.1.set :=
  View.cover_of_tiled [⟨r8_0, p0⟩] S64x512.size (by rfl) y

set_option maxHeartbeats 2000000 in
theorem sound_kernel8 (c : Dev nD) (i : grid8.Coords) (E : Set ℕ) (arg1 : Memref sig .tc .vmem S64x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x512 .f32) (harg4 : arg4.IsWhole)
    (x0 : Vec F S64x1024 .f32) (x1 : Vec F S512x1024 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__final_kernel i arg1 harg1 arg2 harg2 arg3 harg3 arg4 harg4) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 (F := F) _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c (grid8.coords t) Set.univ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Run.lean ====
/- The whole run: the contents of the unscoped buffers at every boundary between host stretches and kernel regions (each region's output
   array overwritten with what its pipeline leaves, everything else kept), one record per region over those boundaries, and the
   run of @main through all eighteen items ending with every unscoped buffer at the last boundary's contents. -/
import proofs.«164445_j37684043055467_1_alg».proof.Proof.Gen.Kernel.Regions
import proofs.«164445_j37684043055467_1_alg».proof.Proof.Gen.Kernel.Skeleton
import proofs.«164445_j37684043055467_1_alg».proof.Proof.Gen.Kernel.Points
import proofs.«164445_j37684043055467_1_alg».proof.Proof.K.R0Frame
import proofs.«164445_j37684043055467_1_alg».proof.Proof.K.R1Frame
import proofs.«164445_j37684043055467_1_alg».proof.Proof.K.R2Frame
import proofs.«164445_j37684043055467_1_alg».proof.Proof.K.R3Frame
import proofs.«164445_j37684043055467_1_alg».proof.Proof.K.R4Frame
import proofs.«164445_j37684043055467_1_alg».proof.Proof.K.R5Frame
import proofs.«164445_j37684043055467_1_alg».proof.Proof.K.R6Frame
import proofs.«164445_j37684043055467_1_alg».proof.Proof.K.R7Frame
import proofs.«164445_j37684043055467_1_alg».proof.Proof.K.R8Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The boundaries' contents -/

def U1 (c : Dev nD) : Valuation τ sig (Elt F) := StableHlo.after hostOps0 (fun b => m (c, b))
abbrev E1 : (c : Dev nD) → (b : Ref sig .tc) → Buf (Elt F) ((c : Thread nD τ).loc b) := fun c b => U1 m c b
/-- What region 0 leaves in its output array. -/
def o2 (c : Dev nD) : Buf (Elt F) ((c : Thread nD τ).loc main_v6) := (dat0 (E1 m) c).arrAt 7 cfg0.N
def U2 (c : Dev nD) : Valuation τ sig (Elt F) := Function.update (U1 m c) main_v6 (o2 m c)
abbrev E2 : (c : Dev nD) → (b : Ref sig .tc) → Buf (Elt F) ((c : Thread nD τ).loc b) := fun c b => U2 m c b
theorem U2_out (c : Dev nD) : U2 m c main_v6 = o2 m c := by unfold U2; exact Function.update_self _ _ _
theorem U2_ne (c : Dev nD) (b : Ref sig .tc) (h : b ≠ main_v6) : U2 m c b = U1 m c b := by
  unfold U2; exact Function.update_of_ne (StableHlo.devRef_ne_of_ne h) _ _
def U3 (c : Dev nD) : Valuation τ sig (Elt F) := StableHlo.after hostOps1 (U2 m c)
abbrev E3 : (c : Dev nD) → (b : Ref sig .tc) → Buf (Elt F) ((c : Thread nD τ).loc b) := fun c b => U3 m c b
/-- What region 1 leaves in its output array. -/
def o4 (c : Dev nD) : Buf (Elt F) ((c : Thread nD τ).loc main_v21) := (dat1 (E3 m) c).arrAt 7 cfg1.N
def U4 (c : Dev nD) : Valuation τ sig (Elt F) := Function.update (U3 m c) main_v21 (o4 m c)
abbrev E4 : (c : Dev nD) → (b : Ref sig .tc) → Buf (Elt F) ((c : Thread nD τ).loc b) := fun c b => U4 m c b
theorem U4_out (c : Dev nD) : U4 m c main_v21 = o4 m c := by unfold U4; exact Function.update_self _ _ _
theorem U4_ne (c : Dev nD) (b : Ref sig .tc) (h : b ≠ main_v21) : U4 m c b = U3 m c b := by
  unfold U4; exact Function.update_of_ne (StableHlo.devRef_ne_of_ne h) _ _
def U5 (c : Dev nD) : Valuation τ sig (Elt F) := StableHlo.after hostOps2 (U4 m c)
abbrev E5 : (c : Dev nD) → (b : Ref sig .tc) → Buf (Elt F) ((c : Thread nD τ).loc b) := fun c b => U5 m c b
/-- What region 2 leaves in its output array. -/
def o6 (c : Dev nD) : Buf (Elt F) ((c : Thread nD τ).loc main_v39) := (dat2 (E5 m) c).arrAt 10 cfg2.N
def U6 (c : Dev nD) : Valuation τ sig (Elt F) := Function.update (U5 m c) main_v39 (o6 m c)
abbrev E6 : (c : Dev nD) → (b : Ref sig .tc) → Buf (Elt F) ((c : Thread nD τ).loc b) := fun c b => U6 m c b
theorem U6_out (c : Dev nD) : U6 m c main_v39 = o6 m c := by unfold U6; exact Function.update_self _ _ _
theorem U6_ne (c : Dev nD) (b : Ref sig .tc) (h : b ≠ main_v39) : U6 m c b = U5 m c b := by
  unfold U6; exact Function.update_of_ne (StableHlo.devRef_ne_of_ne h) _ _
def U7 (c : Dev nD) : Valuation τ sig (Elt F) := StableHlo.after hostOps3 (U6 m c)
abbrev E7 : (c : Dev nD) → (b : Ref sig .tc) → Buf (Elt F) ((c : Thread nD τ).loc b) := fun c b => U7 m c b
/-- What region 3 leaves in its output array. -/
def o8 (c : Dev nD) : Buf (Elt F) ((c : Thread nD τ).loc main_v57) := (dat3 (E7 m) c).arrAt 10 cfg3.N
def U8 (c : Dev nD) : Valuation τ sig (Elt F) := Function.update (U7 m c) main_v57 (o8 m c)
abbrev E8 : (c : Dev nD) → (b : Ref sig .tc) → Buf (Elt F) ((c : Thread nD τ).loc b) := fun c b => U8 m c b
theorem U8_out (c : Dev nD) : U8 m c main_v57 = o8 m c := by unfold U8; exact Function.update_self _ _ _
theorem U8_ne (c : Dev nD) (b : Ref sig .tc) (h : b ≠ main_v57) : U8 m c b = U7 m c b := by
  unfold U8; exact Function.update_of_ne (StableHlo.devRef_ne_of_ne h) _ _
def U9 (c : Dev nD) : Valuation τ sig (Elt F) := StableHlo.after hostOps4 (U8 m c)
abbrev E9 : (c : Dev nD) → (b : Ref sig .tc) → Buf (Elt F) ((c : Thread nD τ).loc b) := fun c b => U9 m c b
/-- What region 4 leaves in its output array. -/
def o10 (c : Dev nD) : Buf (Elt F) ((c : Thread nD τ).loc main_v75) := (dat4 (E9 m) c).arrAt 10 cfg4.N
def U10 (c : Dev nD) : Valuation τ sig (Elt F) := Function.update (U9 m c) main_v75 (o10 m c)
abbrev E10 : (c : Dev nD) → (b : Ref sig .tc) → Buf (Elt F) ((c : Thread nD τ).loc b) := fun c b => U10 m c b
theorem U10_out (c : Dev nD) : U10 m c main_v75 = o10 m c := by unfold U10; exact Function.update_self _ _ _
theorem U10_ne (c : Dev nD) (b : Ref sig .tc) (h : b ≠ main_v75) : U10 m c b = U9 m c b := by
  unfold U10; exact Function.update_of_ne (StableHlo.devRef_ne_of_ne h) _ _
def U11 (c : Dev nD) : Valuation τ sig (Elt F) := StableHlo.after hostOps5 (U10 m c)
abbrev E11 : (c : Dev nD) → (b : Ref sig .tc) → Buf (Elt F) ((c : Thread nD τ).loc b) := fun c b => U11 m c b
/-- What region 5 leaves in its output array. -/
def o12 (c : Dev nD) : Buf (Elt F) ((c : Thread nD τ).loc main_v93) := (dat5 (E11 m) c).arrAt 10 cfg5.N
def U12 (c : Dev nD) : Valuation τ sig (Elt F) := Function.update (U11 m c) main_v93 (o12 m c)
abbrev E12 : (c : Dev nD) → (b : Ref sig .tc) → Buf (Elt F) ((c : Thread nD τ).loc b) := fun c b => U12 m c b
theorem U12_out (c : Dev nD) : U12 m c main_v93 = o12 m c := by unfold U12; exact Function.update_self _ _ _
theorem U12_ne (c : Dev nD) (b : Ref sig .tc) (h : b ≠ main_v93) : U12 m c b = U11 m c b := by
  unfold U12; exact Function.update_of_ne (StableHlo.devRef_ne_of_ne h) _ _
def U13 (c : Dev nD) : Valuation τ sig (Elt F) := StableHlo.after hostOps6 (U12 m c)
abbrev E13 : (c : Dev nD) → (b : Ref sig .tc) → Buf (Elt F) ((c : Thread nD τ).loc b) := fun c b => U13 m c b
/-- What region 6 leaves in its output array. -/
def o14 (c : Dev nD) : Buf (Elt F) ((c : Thread nD τ).loc main_v111) := (dat6 (E13 m) c).arrAt 10 cfg6.N
def U14 (c : Dev nD) : Valuation τ sig (Elt F) := Function.update (U13 m c) main_v111 (o14 m c)
abbrev E14 : (c : Dev nD) → (b : Ref sig .tc) → Buf (Elt F) ((c : Thread nD τ).loc b) := fun c b => U14 m c b
theorem U14_out (c : Dev nD) : U14 m c main_v111 = o14 m c := by unfold U14; exact Function.update_self _ _ _
theorem U14_ne (c : Dev nD) (b : Ref sig .tc) (h : b ≠ main_v111) : U14 m c b = U13 m c b := by
  unfold U14; exact Function.update_of_ne (StableHlo.devRef_ne_of_ne h) _ _
def U15 (c : Dev nD) : Valuation τ sig (Elt F) := StableHlo.after hostOps7 (U14 m c)
abbrev E15 : (c : Dev nD) → (b : Ref sig .tc) → Buf (Elt F) ((c : Thread nD τ).loc b) := fun c b => U15 m c b
/-- What region 7 leaves in its output array. -/
def o16 (c : Dev nD) : Buf (Elt F) ((c : Thread nD τ).loc main_v125) := (dat7 (E15 m) c).arrAt 7 cfg7.N
def U16 (c : Dev nD) : Valuation τ sig (Elt F) := Function.update (U15 m c) main_v125 (o16 m c)
abbrev E16 : (c : Dev nD) → (b : Ref sig .tc) → Buf (Elt F) ((c : Thread nD τ).loc b) := fun c b => U16 m c b
theorem U16_out (c : Dev nD) : U16 m c main_v125 = o16 m c := by unfold U16; exact Function.update_self _ _ _
theorem U16_ne (c : Dev nD) (b : Ref sig .tc) (h : b ≠ main_v125) : U16 m c b = U15 m c b := by
  unfold U16; exact Function.update_of_ne (StableHlo.devRef_ne_of_ne h) _ _
def U17 (c : Dev nD) : Valuation τ sig (Elt F) := StableHlo.after hostOps8 (U16 m c)
abbrev E17 : (c : Dev nD) → (b : Ref sig .tc) → Buf (Elt F) ((c : Thread nD τ).loc b) := fun c b => U17 m c b
/-- What region 8 leaves in its output array. -/
def o18 (c : Dev nD) : Buf (Elt F) ((c : Thread nD τ).loc main_v127) := (dat8 (E17 m) c).arrAt 3 cfg8.N
def U18 (c : Dev nD) : Valuation τ sig (Elt F) := Function.update (U17 m c) main_v127 (o18 m c)
abbrev E18 : (c : Dev nD) → (b : Ref sig .tc) → Buf (Elt F) ((c : Thread nD τ).loc b) := fun c b => U18 m c b
theorem U18_out (c : Dev nD) : U18 m c main_v127 = o18 m c := by unfold U18; exact Function.update_self _ _ _
theorem U18_ne (c : Dev nD) (b : Ref sig .tc) (h : b ≠ main_v127) : U18 m c b = U17 m c b := by
  unfold U18; exact Function.update_of_ne (StableHlo.devRef_ne_of_ne h) _ _

/-- What each region leaves in its output array, as the generated boundary valuations want it named. -/
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | _ => U1 m c r

theorem V1_eq (c : Dev nD) : V1 m c = U1 m c := rfl
theorem outs2 (c : Dev nD) : outs m 2 main_v6 c = o2 m c := U2_out m c
theorem V2_eq (c : Dev nD) : V2 m (outs m) c = U2 m c := by
  show Function.update (V1 m c) _ (outs m 2 main_v6 c) = _
  rw [outs2, V1_eq]; rfl
theorem V3_eq (c : Dev nD) : V3 m (outs m) c = U3 m c := by
  show StableHlo.after hostOps1 (V2 m (outs m) c) = _
  rw [V2_eq]; rfl
theorem outs4 (c : Dev nD) : outs m 4 main_v21 c = o4 m c := U4_out m c
theorem V4_eq (c : Dev nD) : V4 m (outs m) c = U4 m c := by
  show Function.update (V3 m (outs m) c) _ (outs m 4 main_v21 c) = _
  rw [outs4, V3_eq]; rfl
theorem V5_eq (c : Dev nD) : V5 m (outs m) c = U5 m c := by
  show StableHlo.after hostOps2 (V4 m (outs m) c) = _
  rw [V4_eq]; rfl
theorem outs6 (c : Dev nD) : outs m 6 main_v39 c = o6 m c := U6_out m c
theorem V6_eq (c : Dev nD) : V6 m (outs m) c = U6 m c := by
  show Function.update (V5 m (outs m) c) _ (outs m 6 main_v39 c) = _
  rw [outs6, V5_eq]; rfl
theorem V7_eq (c : Dev nD) : V7 m (outs m) c = U7 m c := by
  show StableHlo.after hostOps3 (V6 m (outs m) c) = _
  rw [V6_eq]; rfl
theorem outs8 (c : Dev nD) : outs m 8 main_v57 c = o8 m c := U8_out m c
theorem V8_eq (c : Dev nD) : V8 m (outs m) c = U8 m c := by
  show Function.update (V7 m (outs m) c) _ (outs m 8 main_v57 c) = _
  rw [outs8, V7_eq]; rfl
theorem V9_eq (c : Dev nD) : V9 m (outs m) c = U9 m c := by
  show StableHlo.after hostOps4 (V8 m (outs m) c) = _
  rw [V8_eq]; rfl
theorem outs10 (c : Dev nD) : outs m 10 main_v75 c = o10 m c := U10_out m c
theorem V10_eq (c : Dev nD) : V10 m (outs m) c = U10 m c := by
  show Function.update (V9 m (outs m) c) _ (outs m 10 main_v75 c) = _
  rw [outs10, V9_eq]; rfl
theorem V11_eq (c : Dev nD) : V11 m (outs m) c = U11 m c := by
  show StableHlo.after hostOps5 (V10 m (outs m) c) = _
  rw [V10_eq]; rfl
theorem outs12 (c : Dev nD) : outs m 12 main_v93 c = o12 m c := U12_out m c
theorem V12_eq (c : Dev nD) : V12 m (outs m) c = U12 m c := by
  show Function.update (V11 m (outs m) c) _ (outs m 12 main_v93 c) = _
  rw [outs12, V11_eq]; rfl
theorem V13_eq (c : Dev nD) : V13 m (outs m) c = U13 m c := by
  show StableHlo.after hostOps6 (V12 m (outs m) c) = _
  rw [V12_eq]; rfl
theorem outs14 (c : Dev nD) : outs m 14 main_v111 c = o14 m c := U14_out m c
theorem V14_eq (c : Dev nD) : V14 m (outs m) c = U14 m c := by
  show Function.update (V13 m (outs m) c) _ (outs m 14 main_v111 c) = _
  rw [outs14, V13_eq]; rfl
theorem V15_eq (c : Dev nD) : V15 m (outs m) c = U15 m c := by
  show StableHlo.after hostOps7 (V14 m (outs m) c) = _
  rw [V14_eq]; rfl
theorem outs16 (c : Dev nD) : outs m 16 main_v125 c = o16 m c := U16_out m c
theorem V16_eq (c : Dev nD) : V16 m (outs m) c = U16 m c := by
  show Function.update (V15 m (outs m) c) _ (outs m 16 main_v125 c) = _
  rw [outs16, V15_eq]; rfl
theorem V17_eq (c : Dev nD) : V17 m (outs m) c = U17 m c := by
  show StableHlo.after hostOps8 (V16 m (outs m) c) = _
  rw [V16_eq]; rfl
theorem outs18 (c : Dev nD) : outs m 18 main_v127 c = o18 m c := U18_out m c
theorem V18_eq (c : Dev nD) : V18 m (outs m) c = U18 m c := by
  show Function.update (V17 m (outs m) c) _ (outs m 18 main_v127 c) = _
  rw [outs18, V17_eq]; rfl

/-! ## Each region's arrays at its exit -/

theorem arrOut0 : Pipeline.arrRef spec0 7 = main_v6 := by decide
theorem arrIn0 : ∀ w : Fin cfg0.W, w ≠ 7 → Pipeline.arrRef spec0 w ≠ main_v6 :=
  (by decide +kernel : ∀ w : Fin 8, w ≠ 7 → Pipeline.arrRef spec0 w ≠ main_v6)
theorem isIn0 : ∀ w : Fin cfg0.W, w ≠ 7 → (cfg0.win w).isOut = false :=
  (by decide +kernel : ∀ w : Fin 8, w ≠ 7 → (cfg0.win w).isOut = false)

set_option maxHeartbeats 1000000 in
theorem hF0 (c : Dev nD) (w : Fin cfg0.W) : (dat0 (E1 m) c).arrAt w cfg0.N = E2 m c (Pipeline.arrRef spec0 w) := by
  by_cases hw : w = 7
  · subst hw
    exact (U2_out m c).symm
  · exact (((dat0 (E1 m) c).arrAt_in w (isIn0 w hw) _).trans (A_eq0 (E1 m) c w)).trans (U2_ne m c (Pipeline.arrRef spec0 w) (arrIn0 w hw)).symm

theorem hrest0 (c : Dev nD) : ∀ b, b ∉ Finset.univ.image (Pipeline.arrRef spec0) → E2 m c b = E1 m c b := fun b hb =>
  U2_ne m c b (fun e => hb (Finset.mem_image.mpr ⟨7, Finset.mem_univ _, arrOut0.trans e.symm⟩))

theorem arrOut1 : Pipeline.arrRef spec1 7 = main_v21 := by decide
theorem arrIn1 : ∀ w : Fin cfg1.W, w ≠ 7 → Pipeline.arrRef spec1 w ≠ main_v21 :=
  (by decide +kernel : ∀ w : Fin 8, w ≠ 7 → Pipeline.arrRef spec1 w ≠ main_v21)
theorem isIn1 : ∀ w : Fin cfg1.W, w ≠ 7 → (cfg1.win w).isOut = false :=
  (by decide +kernel : ∀ w : Fin 8, w ≠ 7 → (cfg1.win w).isOut = false)

set_option maxHeartbeats 1000000 in
theorem hF1 (c : Dev nD) (w : Fin cfg1.W) : (dat1 (E3 m) c).arrAt w cfg1.N = E4 m c (Pipeline.arrRef spec1 w) := by
  by_cases hw : w = 7
  · subst hw
    exact (U4_out m c).symm
  · exact (((dat1 (E3 m) c).arrAt_in w (isIn1 w hw) _).trans (A_eq1 (E3 m) c w)).trans (U4_ne m c (Pipeline.arrRef spec1 w) (arrIn1 w hw)).symm

theorem hrest1 (c : Dev nD) : ∀ b, b ∉ Finset.univ.image (Pipeline.arrRef spec1) → E4 m c b = E3 m c b := fun b hb =>
  U4_ne m c b (fun e => hb (Finset.mem_image.mpr ⟨7, Finset.mem_univ _, arrOut1.trans e.symm⟩))

theorem arrOut2 : Pipeline.arrRef spec2 10 = main_v39 := by decide
theorem arrIn2 : ∀ w : Fin cfg2.W, w ≠ 10 → Pipeline.arrRef spec2 w ≠ main_v39 :=
  (by decide +kernel : ∀ w : Fin 11, w ≠ 10 → Pipeline.arrRef spec2 w ≠ main_v39)
theorem isIn2 : ∀ w : Fin cfg2.W, w ≠ 10 → (cfg2.win w).isOut = false :=
  (by decide +kernel : ∀ w : Fin 11, w ≠ 10 → (cfg2.win w).isOut = false)

set_option maxHeartbeats 1000000 in
theorem hF2 (c : Dev nD) (w : Fin cfg2.W) : (dat2 (E5 m) c).arrAt w cfg2.N = E6 m c (Pipeline.arrRef spec2 w) := by
  by_cases hw : w = 10
  · subst hw
    exact (U6_out m c).symm
  · exact (((dat2 (E5 m) c).arrAt_in w (isIn2 w hw) _).trans (A_eq2 (E5 m) c w)).trans (U6_ne m c (Pipeline.arrRef spec2 w) (arrIn2 w hw)).symm

theorem hrest2 (c : Dev nD) : ∀ b, b ∉ Finset.univ.image (Pipeline.arrRef spec2) → E6 m c b = E5 m c b := fun b hb =>
  U6_ne m c b (fun e => hb (Finset.mem_image.mpr ⟨10, Finset.mem_univ _, arrOut2.trans e.symm⟩))

theorem arrOut3 : Pipeline.arrRef spec3 10 = main_v57 := by decide
theorem arrIn3 : ∀ w : Fin cfg3.W, w ≠ 10 → Pipeline.arrRef spec3 w ≠ main_v57 :=
  (by decide +kernel : ∀ w : Fin 11, w ≠ 10 → Pipeline.arrRef spec3 w ≠ main_v57)
theorem isIn3 : ∀ w : Fin cfg3.W, w ≠ 10 → (cfg3.win w).isOut = false :=
  (by decide +kernel : ∀ w : Fin 11, w ≠ 10 → (cfg3.win w).isOut = false)

set_option maxHeartbeats 1000000 in
theorem hF3 (c : Dev nD) (w : Fin cfg3.W) : (dat3 (E7 m) c).arrAt w cfg3.N = E8 m c (Pipeline.arrRef spec3 w) := by
  by_cases hw : w = 10
  · subst hw
    exact (U8_out m c).symm
  · exact (((dat3 (E7 m) c).arrAt_in w (isIn3 w hw) _).trans (A_eq3 (E7 m) c w)).trans (U8_ne m c (Pipeline.arrRef spec3 w) (arrIn3 w hw)).symm

theorem hrest3 (c : Dev nD) : ∀ b, b ∉ Finset.univ.image (Pipeline.arrRef spec3) → E8 m c b = E7 m c b := fun b hb =>
  U8_ne m c b (fun e => hb (Finset.mem_image.mpr ⟨10, Finset.mem_univ _, arrOut3.trans e.symm⟩))

theorem arrOut4 : Pipeline.arrRef spec4 10 = main_v75 := by decide
theorem arrIn4 : ∀ w : Fin cfg4.W, w ≠ 10 → Pipeline.arrRef spec4 w ≠ main_v75 :=
  (by decide +kernel : ∀ w : Fin 11, w ≠ 10 → Pipeline.arrRef spec4 w ≠ main_v75)
theorem isIn4 : ∀ w : Fin cfg4.W, w ≠ 10 → (cfg4.win w).isOut = false :=
  (by decide +kernel : ∀ w : Fin 11, w ≠ 10 → (cfg4.win w).isOut = false)

set_option maxHeartbeats 1000000 in
theorem hF4 (c : Dev nD) (w : Fin cfg4.W) : (dat4 (E9 m) c).arrAt w cfg4.N = E10 m c (Pipeline.arrRef spec4 w) := by
  by_cases hw : w = 10
  · subst hw
    exact (U10_out m c).symm
  · exact (((dat4 (E9 m) c).arrAt_in w (isIn4 w hw) _).trans (A_eq4 (E9 m) c w)).trans (U10_ne m c (Pipeline.arrRef spec4 w) (arrIn4 w hw)).symm

theorem hrest4 (c : Dev nD) : ∀ b, b ∉ Finset.univ.image (Pipeline.arrRef spec4) → E10 m c b = E9 m c b := fun b hb =>
  U10_ne m c b (fun e => hb (Finset.mem_image.mpr ⟨10, Finset.mem_univ _, arrOut4.trans e.symm⟩))

theorem arrOut5 : Pipeline.arrRef spec5 10 = main_v93 := by decide
theorem arrIn5 : ∀ w : Fin cfg5.W, w ≠ 10 → Pipeline.arrRef spec5 w ≠ main_v93 :=
  (by decide +kernel : ∀ w : Fin 11, w ≠ 10 → Pipeline.arrRef spec5 w ≠ main_v93)
theorem isIn5 : ∀ w : Fin cfg5.W, w ≠ 10 → (cfg5.win w).isOut = false :=
  (by decide +kernel : ∀ w : Fin 11, w ≠ 10 → (cfg5.win w).isOut = false)

set_option maxHeartbeats 1000000 in
theorem hF5 (c : Dev nD) (w : Fin cfg5.W) : (dat5 (E11 m) c).arrAt w cfg5.N = E12 m c (Pipeline.arrRef spec5 w) := by
  by_cases hw : w = 10
  · subst hw
    exact (U12_out m c).symm
  · exact (((dat5 (E11 m) c).arrAt_in w (isIn5 w hw) _).trans (A_eq5 (E11 m) c w)).trans (U12_ne m c (Pipeline.arrRef spec5 w) (arrIn5 w hw)).symm

theorem hrest5 (c : Dev nD) : ∀ b, b ∉ Finset.univ.image (Pipeline.arrRef spec5) → E12 m c b = E11 m c b := fun b hb =>
  U12_ne m c b (fun e => hb (Finset.mem_image.mpr ⟨10, Finset.mem_univ _, arrOut5.trans e.symm⟩))

theorem arrOut6 : Pipeline.arrRef spec6 10 = main_v111 := by decide
theorem arrIn6 : ∀ w : Fin cfg6.W, w ≠ 10 → Pipeline.arrRef spec6 w ≠ main_v111 :=
  (by decide +kernel : ∀ w : Fin 11, w ≠ 10 → Pipeline.arrRef spec6 w ≠ main_v111)
theorem isIn6 : ∀ w : Fin cfg6.W, w ≠ 10 → (cfg6.win w).isOut = false :=
  (by decide +kernel : ∀ w : Fin 11, w ≠ 10 → (cfg6.win w).isOut = false)

set_option maxHeartbeats 1000000 in
theorem hF6 (c : Dev nD) (w : Fin cfg6.W) : (dat6 (E13 m) c).arrAt w cfg6.N = E14 m c (Pipeline.arrRef spec6 w) := by
  by_cases hw : w = 10
  · subst hw
    exact (U14_out m c).symm
  · exact (((dat6 (E13 m) c).arrAt_in w (isIn6 w hw) _).trans (A_eq6 (E13 m) c w)).trans (U14_ne m c (Pipeline.arrRef spec6 w) (arrIn6 w hw)).symm

theorem hrest6 (c : Dev nD) : ∀ b, b ∉ Finset.univ.image (Pipeline.arrRef spec6) → E14 m c b = E13 m c b := fun b hb =>
  U14_ne m c b (fun e => hb (Finset.mem_image.mpr ⟨10, Finset.mem_univ _, arrOut6.trans e.symm⟩))

theorem arrOut7 : Pipeline.arrRef spec7 7 = main_v125 := by decide
theorem arrIn7 : ∀ w : Fin cfg7.W, w ≠ 7 → Pipeline.arrRef spec7 w ≠ main_v125 :=
  (by decide +kernel : ∀ w : Fin 8, w ≠ 7 → Pipeline.arrRef spec7 w ≠ main_v125)
theorem isIn7 : ∀ w : Fin cfg7.W, w ≠ 7 → (cfg7.win w).isOut = false :=
  (by decide +kernel : ∀ w : Fin 8, w ≠ 7 → (cfg7.win w).isOut = false)

set_option maxHeartbeats 1000000 in
theorem hF7 (c : Dev nD) (w : Fin cfg7.W) : (dat7 (E15 m) c).arrAt w cfg7.N = E16 m c (Pipeline.arrRef spec7 w) := by
  by_cases hw : w = 7
  · subst hw
    exact (U16_out m c).symm
  · exact (((dat7 (E15 m) c).arrAt_in w (isIn7 w hw) _).trans (A_eq7 (E15 m) c w)).trans (U16_ne m c (Pipeline.arrRef spec7 w) (arrIn7 w hw)).symm

theorem hrest7 (c : Dev nD) : ∀ b, b ∉ Finset.univ.image (Pipeline.arrRef spec7) → E16 m c b = E15 m c b := fun b hb =>
  U16_ne m c b (fun e => hb (Finset.mem_image.mpr ⟨7, Finset.mem_univ _, arrOut7.trans e.symm⟩))

theorem arrOut8 : Pipeline.arrRef spec8 3 = main_v127 := by decide
theorem arrIn8 : ∀ w : Fin cfg8.W, w ≠ 3 → Pipeline.arrRef spec8 w ≠ main_v127 :=
  (by decide +kernel : ∀ w : Fin 4, w ≠ 3 → Pipeline.arrRef spec8 w ≠ main_v127)
theorem isIn8 : ∀ w : Fin cfg8.W, w ≠ 3 → (cfg8.win w).isOut = false :=
  (by decide +kernel : ∀ w : Fin 4, w ≠ 3 → (cfg8.win w).isOut = false)

set_option maxHeartbeats 1000000 in
theorem hF8 (c : Dev nD) (w : Fin cfg8.W) : (dat8 (E17 m) c).arrAt w cfg8.N = E18 m c (Pipeline.arrRef spec8 w) := by
  by_cases hw : w = 3
  · subst hw
    exact (U18_out m c).symm
  · exact (((dat8 (E17 m) c).arrAt_in w (isIn8 w hw) _).trans (A_eq8 (E17 m) c w)).trans (U18_ne m c (Pipeline.arrRef spec8 w) (arrIn8 w hw)).symm

theorem hrest8 (c : Dev nD) : ∀ b, b ∉ Finset.univ.image (Pipeline.arrRef spec8) → E18 m c b = E17 m c b := fun b hb =>
  U18_ne m c b (fun e => hb (Finset.mem_image.mpr ⟨3, Finset.mem_univ _, arrOut8.trans e.symm⟩))

/-! ## The proof data family and what rides beside the buffers -/

def pdats : (p : Fin 9) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c

abbrev 𝒱h : Variants := Variants.none
abbrev Lh : GSem nD τ sig → Finset Unit := fun _ => ∅
abbrev lvh : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)
abbrev Eh : Fin 10 → Dev nD → sProp 𝕄 := fun _ c => Rr c

/-! ## The regions as segments -/

set_option backward.isDefEq.respectTransparency.types false in
set_option maxHeartbeats 1000000 in
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V1 m c) ∗ Eh 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ Eh 1 c) := by
  rw [V2_eq]; exact .rfl

set_option backward.isDefEq.respectTransparency.types false in
set_option maxHeartbeats 1000000 in
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lh lvh 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V3 m (outs m) c) ∗ Eh 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Eh 2 c) := by
  rw [V4_eq]; exact .rfl

set_option backward.isDefEq.respectTransparency.types false in
set_option maxHeartbeats 1000000 in
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lh lvh 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V5 m (outs m) c) ∗ Eh 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Eh 3 c) := by
  rw [V6_eq]; exact .rfl

set_option backward.isDefEq.respectTransparency.types false in
set_option maxHeartbeats 1000000 in
def reg3 : Pipeline.RegionSeg (pcfgs (F := F)) adm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lh lvh 3 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c)
    unfold Pipeline.ΦA
    iintro ⟨Hp, -, Hr⟩
    isplitl [Hr]; · iexact Hr
    iexact Hp
  hout c := by
    rw [Pipeline.ownSems0_none]
    refine BIBase.Entails.trans (hout3 (E7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V7 m (outs m) c) ∗ Eh 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ Eh 4 c) := by
  rw [V8_eq]; exact .rfl

set_option backward.isDefEq.respectTransparency.types false in
set_option maxHeartbeats 1000000 in
def reg4 : Pipeline.RegionSeg (pcfgs (F := F)) adm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lh lvh 4 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (E9 m) c)
    unfold Pipeline.ΦA
    iintro ⟨Hp, -, Hr⟩
    isplitl [Hr]; · iexact Hr
    iexact Hp
  hout c := by
    rw [Pipeline.ownSems0_none]
    refine BIBase.Entails.trans (hout4 (E9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V9 m (outs m) c) ∗ Eh 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ Eh 5 c) := by
  rw [V10_eq]; exact .rfl

set_option backward.isDefEq.respectTransparency.types false in
set_option maxHeartbeats 1000000 in
def reg5 : Pipeline.RegionSeg (pcfgs (F := F)) adm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lh lvh 5 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (E11 m) c)
    unfold Pipeline.ΦA
    iintro ⟨Hp, -, Hr⟩
    isplitl [Hr]; · iexact Hr
    iexact Hp
  hout c := by
    rw [Pipeline.ownSems0_none]
    refine BIBase.Entails.trans (hout5 (E11 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V11 m (outs m) c) ∗ Eh 5 c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ Eh 6 c) := by
  rw [V12_eq]; exact .rfl

set_option backward.isDefEq.respectTransparency.types false in
set_option maxHeartbeats 1000000 in
def reg6 : Pipeline.RegionSeg (pcfgs (F := F)) adm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lh lvh 6 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (E13 m) c)
    unfold Pipeline.ΦA
    iintro ⟨Hp, -, Hr⟩
    isplitl [Hr]; · iexact Hr
    iexact Hp
  hout c := by
    rw [Pipeline.ownSems0_none]
    refine BIBase.Entails.trans (hout6 (E13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre6 (c : Dev nD) : iprop(StableHlo.held (c : Thread nD τ) (Pipeline.ucRefs τ sig) (V13 m (outs m) c) ∗ Eh 6 c) ⊢ (reg6 m).pre c := by
  rw [V13_eq]; exact .rfl
theorem hpost6 (c : Dev nD) : (reg6 m).post c ⊢ iprop(StableHlo.held (c : Thread nD τ) (Pipeline.ucRefs τ sig) (V14 m (outs m) c) ∗ Eh 7 c) := by
  rw [V14_eq]; exact .rfl

set_option backward.isDefEq.respectTransparency.types false in
set_option maxHeartbeats 1000000 in
def reg7 : Pipeline.RegionSeg (pcfgs (F := F)) adm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ Lh lvh 7 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (E15 m) c)
    unfold Pipeline.ΦA
    iintro ⟨Hp, -, Hr⟩
    isplitl [Hr]; · iexact Hr
    iexact Hp
  hout c := by
    rw [Pipeline.ownSems0_none]
    refine BIBase.Entails.trans (hout7 (E15 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre7 (c : Dev nD) : iprop(StableHlo.held (c : Thread nD τ) (Pipeline.ucRefs τ sig) (V15 m (outs m) c) ∗ Eh 7 c) ⊢ (reg7 m).pre c := by
  rw [V15_eq]; exact .rfl
theorem hpost7 (c : Dev nD) : (reg7 m).post c ⊢ iprop(StableHlo.held (c : Thread nD τ) (Pipeline.ucRefs τ sig) (V16 m (outs m) c) ∗ Eh 8 c) := by
  rw [V16_eq]; exact .rfl

set_option backward.isDefEq.respectTransparency.types false in
set_option maxHeartbeats 1000000 in
def reg8 : Pipeline.RegionSeg (pcfgs (F := F)) adm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ Lh lvh 8 fun _ _ => rfl
  pre c := iprop(StableHlo.held (c : Thread nD τ) (Pipeline.ucRefs τ sig) (U17 m c) ∗ Rr c)
  post c := iprop(StableHlo.held (c : Thread nD τ) (Pipeline.ucRefs τ sig) (U18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre8 (c : Dev nD) : iprop(StableHlo.held (c : Thread nD τ) (Pipeline.ucRefs τ sig) (V17 m (outs m) c) ∗ Eh 8 c) ⊢ (reg8 m).pre c := by
  rw [V17_eq]; exact .rfl
theorem hpost8 (c : Dev nD) : (reg8 m).post c ⊢ iprop(StableHlo.held (c : Thread nD τ) (Pipeline.ucRefs τ sig) (V18 m (outs m) c) ∗ Eh 9 c) := by
  rw [V18_eq]; exact .rfl

/-! ## The run -/

/-- An unscoped TensorCore reference is among those the boundaries' states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary's state, regrouped: the buffers and the generator register, beside the core owing nothing. -/
theorem hlast (c : Dev nD) : iprop(StableHlo.held (c : Thread nD τ) (Pipeline.ucRefs τ sig) (V18 m (outs m) c) ∗ Eh 9 c)
    ⊢ (iprop(iprop(StableHlo.held (c : Thread nD τ) (Pipeline.ucRefs τ sig) (V18 m (outs m) c) ∗ ∃ r, prngReg c r) ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
set_option maxHeartbeats 4000000 in
/-- Every weakly fair execution of @main from `m` terminates, nothing faulting, and ends with every unscoped buffer of every core
    at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m) c b) := by
  refine Pipeline.θ_run_regions_kit_dev (pcfgs (F := F)) adm (pdats m) () cellOf_inj emb₁ defs₀ 𝒱h Lh lvh m ρ main
    (segs m (outs m) 𝒱h Lh lvh Eh () (pdats m) (reg0 m) (reg1 m) (reg2 m) (reg3 m) (reg4 m) (reg5 m) (reg6 m) (reg7 m) (reg8 m))
    (fun c Q => by
      rewrite [main_chain c, Seg.run_eq_chain,
        show (segs m (outs m) 𝒱h Lh lvh Eh () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Eh 0 c))
    (Tₙ := fun c => iprop(StableHlo.held (c : Thread nD τ) (Pipeline.ucRefs τ sig) (V18 m (outs m) c) ∗ ∃ r, prngReg c r))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, (hpost8 m c).trans (hlast m c)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V18 m (outs m) c) s')
      isplitl [Hh] <;> iassumption)
    (hQ := fun s h c => h c)

/-! ## The frame and the result -/

/-- Every argument array ends holding its launch contents: no host stretch and no region writes one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c),
     (h c _ (mem_uc main_arg12 (by decide))).trans (V18_main_arg12 m (outs m) c)⟩) (run_all m ρ)

/-- The result array ends at what the last region leaves in it, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v127) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v127 (by decide))).trans ((congrFun (V18_eq m c) _).trans (U18_out m c)),
     (h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c),
     (h c _ (mem_uc main_arg12 (by decide))).trans (V18_main_arg12 m (outs m) c)⟩) (run_all m ρ)

end Cert.Kernel.Hand

end
-- ==== Proof.KI.R0Runs.lean ====
/- Region 0 (2 masked-matmul term(s), K-tiles at points 0..0, 1..16; accumulated in a scratch buffer; bias and sigmoid at the last point):
   the body's branch conditions and its run in each control case the 17 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's branch conditions as functions of the grid position -/

/-- "first point": the accumulator is reset. -/
abbrev cond0_1 (i : grid0.Coords) : Prop := (Scalar.cmpi .ne (Scalar.extui (Scalar.cmpi .eq (BitVec.ofNat 32 (i 0).val) 0#32)) 0#32) = 1#1
/-- term 0's K-tiles: points 0 to 0. -/
abbrev cond0_2 (i : grid0.Coords) : Prop := (Scalar.cmpi .ne (Scalar.extui (Scalar.andi (Scalar.cmpi .sge (BitVec.ofNat 32 (i 0).val) 0#32) (Scalar.cmpi .slt (BitVec.ofNat 32 (i 0).val) 1#32))) 0#32) = 1#1
/-- term 1's K-tiles: points 1 to 16. -/
abbrev cond0_3 (i : grid0.Coords) : Prop := (Scalar.cmpi .ne (Scalar.extui (Scalar.andi (Scalar.cmpi .sge (BitVec.ofNat 32 (i 0).val) 1#32) (Scalar.cmpi .slt (BitVec.ofNat 32 (i 0).val) 17#32))) 0#32) = 1#1
/-- "last point": bias, sigmoid, store. -/
abbrev cond0_4 (i : grid0.Coords) : Prop := k0_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨[], ?_, fun xi E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨[], ?_, fun xi E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.KernelIdeal.Hand

end
-- ==== Proof.KI.R0Frame.lean ====
/- Region 0: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: where each case sits on the grid -/
theorem case0_A : ∀ t : Fin cfg0.N, t.val = 0 → cond0_1 (grid0.coords t) ∧ cond0_2 (grid0.coords t) ∧ ¬cond0_3 (grid0.coords t) ∧ ¬cond0_4 (grid0.coords t) :=
  (by decide +kernel : ∀ t : Fin grid0.N, t.val = 0 → cond0_1 (grid0.coords t) ∧ cond0_2 (grid0.coords t) ∧ ¬cond0_3 (grid0.coords t) ∧ ¬cond0_4 (grid0.coords t))
theorem case0_Z : ∀ t : Fin cfg0.N, t.val ≠ 0 → t.val = 16 → ¬cond0_1 (grid0.coords t) ∧ ¬cond0_2 (grid0.coords t) ∧ cond0_3 (grid0.coords t) ∧ cond0_4 (grid0.coords t) :=
  (by decide +kernel : ∀ t : Fin grid0.N, t.val ≠ 0 → t.val = 16 → ¬cond0_1 (grid0.coords t) ∧ ¬cond0_2 (grid0.coords t) ∧ cond0_3 (grid0.coords t) ∧ cond0_4 (grid0.coords t))
theorem case0_B : ∀ t : Fin cfg0.N, t.val ≠ 0 → ¬t.val = 16 → ¬cond0_1 (grid0.coords t) ∧ ¬cond0_2 (grid0.coords t) ∧ cond0_3 (grid0.coords t) ∧ ¬cond0_4 (grid0.coords t) :=
  (by decide +kernel : ∀ t : Fin grid0.N, t.val ≠ 0 → ¬t.val = 16 → ¬cond0_1 (grid0.coords t) ∧ ¬cond0_2 (grid0.coords t) ∧ cond0_3 (grid0.coords t) ∧ ¬cond0_4 (grid0.coords t))

/-! ## The windows' blocks, the staging buffers and the accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0 : View sig .tc .vmem S64x1024 .f32 := (Memref.whole cc0_stg7_0 : Memref sig .tc .vmem S64x1024 .f32).view
abbrev ms0_0 (t : Fin cfg0.N) : Memref sig .tc .vmem S64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1024 .f32 := win0_7.stage (cfg0.slots t 7)
abbrev hs0_7 (t : Fin cfg0.N) : (ms0_7 t).IsWhole := hstage0_7 ((cfg0.slots t 7).cast nbuf0_7)
abbrev scM0 : Memref sig .tc .vmem S64x1024 .f32 := Memref.whole cc0_scratch0
abbrev VS0 : View sig .tc .vmem S64x1024 .f32 := scM0.view
/-- Every scoped buffer that is neither a staging buffer of this region nor its accumulator, at some contents. -/
abbrev restBut0 (c : Dev nD) : sProp 𝕄 := Pipeline.scopedRestBut (Ix := Unit) (Name := ℕ) (U := UR sig nD τ) (Lvl := ℕ) (Val := Elt F) spec0 c [cc0_scratch0]

/-- The class invariant with the accumulator taken out of the scoped rest. -/
theorem PhiA0_eq (c : Dev nD) :
    (Pipeline.ΦA spec0 c : sProp 𝕄)
      = iprop(iprop((∃ d, owns (c : Thread nD τ) scM0 fullShare d) ∗ restBut0 c) ∗ (∃ r, prngReg c r)) := by
  unfold Pipeline.ΦA; rw [scopedRest0_split]; simp only [scM0, owns_whole]; try rfl

/-! ## Where the windows are idle -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem idle0_7 : ∀ t : Fin cfg0.N, t.val ≠ 16 → cfg0.idle 7 (grid0.coords t) = true := by decide +kernel
theorem noFlush0_7 : ∀ t : Fin cfg0.N, t.val ≠ 16 → (cfg0.win 7).flush t = false := by decide +kernel
theorem live0_7 : ∀ t : Fin cfg0.N, t.val = 16 → cfg0.idle 7 (grid0.coords t) = false := by decide +kernel

theorem live0_0_all : ∀ i, cfg0.idle 0 i = false := fun _ => rfl
theorem live0_1_all : ∀ i, cfg0.idle 1 i = false := fun _ => rfl
theorem live0_2_all : ∀ i, cfg0.idle 2 i = false := fun _ => rfl
theorem live0_3_all : ∀ i, cfg0.idle 3 i = false := fun _ => rfl
theorem live0_4_all : ∀ i, cfg0.idle 4 i = false := fun _ => rfl
theorem live0_5_all : ∀ i, cfg0.idle 5 i = false := fun _ => rfl
theorem live0_6_all : ∀ i, cfg0.idle 6 i = false := fun _ => rfl

/-! ## What each case leaves in the accumulator (and, at the last point, in the output's buffer) -/

theorem scover0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun0_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout0_A (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS0.read (Elt F) (VS0.writes (Elt F) VS0.junk (kernelRun0_A c i arg1 harg1 arg2 harg2 arg3 harg3 arg4 harg4 arg5 harg5 arg6 harg6 arg7 harg7 arg8 harg8 arg9 harg9 hc1 hc2 hc3 hc4 x1 x2 x3 x4 x5 x6 x7).2.1)

theorem scover0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS0.read (Elt F) (VS0.writes (Elt F) VS0.junk (kernelRun0_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out0_Z (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO0.read (Elt F) (VO0.writes (Elt F) VO0.junk (kernelRun0_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout0_B (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS0.read (Elt F) (VS0.writes (Elt F) VS0.junk (kernelRun0_B c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut0 : Vec F S64x1024 .f32 := VO0.read (Elt F) (VO0.writes (Elt F) VO0.junk [])

/-! ## The accumulation, point by point -/

/-- After the body at position `n`: (the output's staging buffer, the accumulator). -/
def outsAt0 (c : Dev nD) : (n : ℕ) → n < cfg0.N → Vec F S64x1024 .f32 × Vec F S64x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((case0_A ⟨0, hn⟩ rfl).1) ((case0_A ⟨0, hn⟩ rfl).2.1) ((case0_A ⟨0, hn⟩ rfl).2.2.1) ((case0_A ⟨0, hn⟩ rfl).2.2.2) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : n + 1 = 16 then
      (out0_Z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_Z ⟨n + 1, hn⟩ (Nat.succ_ne_zero n) h0).1) ((case0_Z ⟨n + 1, hn⟩ (Nat.succ_ne_zero n) h0).2.1) ((case0_Z ⟨n + 1, hn⟩ (Nat.succ_ne_zero n) h0).2.2.1) ((case0_Z ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_Z c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_Z ⟨n + 1, hn⟩ (Nat.succ_ne_zero n) h0).1) ((case0_Z ⟨n + 1, hn⟩ (Nat.succ_ne_zero n) h0).2.1) ((case0_Z ⟨n + 1, hn⟩ (Nat.succ_ne_zero n) h0).2.2.1) ((case0_Z ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((case0_B ⟨n + 1, hn⟩ (Nat.succ_ne_zero n) h0).1) ((case0_B ⟨n + 1, hn⟩ (Nat.succ_ne_zero n) h0).2.1) ((case0_B ⟨n + 1, hn⟩ (Nat.succ_ne_zero n) h0).2.2.1) ((case0_B ⟨n + 1, hn⟩ (Nat.succ_ne_zero n) h0).2.2.2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (hz : t.val = 0) :
    outsAt0 V c t.val t.isLt = (idleOut0, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_A t hz).1) ((case0_A t hz).2.1) ((case0_A t hz).2.2.1) ((case0_A t hz).2.2.2) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact absurd hz (Nat.succ_ne_zero n)

theorem outsAt0_Z (c : Dev nD) (t : Fin cfg0.N) (hz : t.val ≠ 0) (h0 : t.val = 16) :
    outsAt0 V c t.val t.isLt = (out0_Z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_Z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact absurd rfl hz
  | succ n => exact (dif_pos h0).trans rfl

theorem outsAt0_B (c : Dev nD) (t : Fin cfg0.N) (hz : t.val ≠ 0) (h0 : ¬t.val = 16) :
    outsAt0 V c t.val t.isLt = (idleOut0, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_B t hz h0).1) ((case0_B t hz h0).2.1) ((case0_B t hz h0).2.2.1) ((case0_B t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact absurd rfl hz
  | succ n => exact (dif_neg h0).trans (rfl)

/-! ## The region's invariant: before the first point the class's; afterwards the accumulator at what the point before left -/

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (live0_0_all) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (live0_1_all) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (live0_2_all) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (live0_3_all) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (live0_4_all) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (live0_5_all) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (live0_6_all) (fun _ _ _ => rfl) (fun t => by rw [after0_6]; unfold Dat.blockOf iblk0; rw [A_eq0]; try rfl) t d).trans
    (by unfold Dat.fetched Dat.blockOf iblk0; rw [A_eq0]; try rfl)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]
theorem leaves0_3 (c : Dev nD) (t : Fin cfg0.N) : (dat0 V c).leavesExact 3 t = owns (c : Thread nD τ) (ms0_3 t) fullShare (iblk0 V c 3 t) := by
  unfold Dat.leavesExact; rw [live0_3 t, after0_3]
theorem leaves0_4 (c : Dev nD) (t : Fin cfg0.N) : (dat0 V c).leavesExact 4 t = owns (c : Thread nD τ) (ms0_4 t) fullShare (iblk0 V c 4 t) := by
  unfold Dat.leavesExact; rw [live0_4 t, after0_4]
theorem leaves0_5 (c : Dev nD) (t : Fin cfg0.N) : (dat0 V c).leavesExact 5 t = owns (c : Thread nD τ) (ms0_5 t) fullShare (iblk0 V c 5 t) := by
  unfold Dat.leavesExact; rw [live0_5 t, after0_5]
theorem leaves0_6 (c : Dev nD) (t : Fin cfg0.N) : (dat0 V c).leavesExact 6 t = owns (c : Thread nD τ) (ms0_6 t) fullShare (iblk0 V c 6 t) := by
  unfold Dat.leavesExact; rw [live0_6 t, after0_6]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the case the point is in decides the branches; the invariant hands the body the accumulator at
    what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6]
  have hN : t.val < 17 := lt_of_lt_of_eq t.isLt (show cfg0.N = 17 from N_0)
  by_cases hz : t.val = 0
  · have hne : t.val ≠ 16 := by omega
    rw [Dat.leavesExact_idle (dat0 V c) 7 t (idle0_7 t hne) (noFlush0_7 t hne)]
    rw [outsAt0_A V c t hz]
    unfold sout0_A; (try dsimp only)
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((case0_A t hz).1) ((case0_A t hz).2.1) ((case0_A t hz).2.2.1) ((case0_A t hz).2.2.2) (iblk0 V c 0 t) (iblk0 V c 1 t) (iblk0 V c 2 t) (iblk0 V c 3 t) (iblk0 V c 4 t) (iblk0 V c 5 t) (iblk0 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 16
    · have hlast : t.val = 16 := by omega
      rw [show (dat0 V c).leavesExact 7 t = owns (c : Thread nD τ) (ms0_7 t) fullShare ((dat0 V c).after 7 t) from by
        unfold Dat.leavesExact; rw [live0_7 t hlast], after0_7]
      rw [outsAt0_Z V c t hz h0]
      unfold out0_Z sout0_Z; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_Z c (grid0.coords t) _ _ _ _ _ _ _ _ _ _ _ _ _ _ _ _ _ _ ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover0_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_Z c _ _ _ _ _ _ _ _ _ _ _ _ _ _ _ _ _ _ _ _ _ _ _ _ _ _ _ _ _ _ _)
    · have hne : t.val ≠ 16 := by omega
      rw [Dat.leavesExact_idle (dat0 V c) 7 t (idle0_7 t hne) (noFlush0_7 t hne)]
      rw [outsAt0_B V c t hz h0]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ ((case0_B t hz h0).1) ((case0_B t hz h0).2.1) ((case0_B t hz h0).2.2.1) ((case0_B t hz h0).2.2.2) (iblk0 V c 0 t) (iblk0 V c 1 t) (iblk0 V c 2 t) (iblk0 V c 3 t) (iblk0 V c 4 t) (iblk0 V c 5 t) (iblk0 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%eS, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 17 := N_0; omega), PhiA0_eq]
  iintro ⟨⟨HS, Hrest⟩, Hg⟩
  isplitl [HS Hrest]
  · isplitl [HS]
    · iexists _; iexact HS
    iexact Hrest
  iexact Hg

end Cert.KernelIdeal.Hand

end
-- ==== Proof.KI.R1Runs.lean ====
/- Region 1 (2 masked-matmul term(s), K-tiles at points 0..1, 2..17; accumulated in a scratch buffer; bias and sigmoid at the last point):
   the body's branch conditions and its run in each control case the 18 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the body's branch conditions as functions of the grid position -/

/-- "first point": the accumulator is reset. -/
abbrev cond1_1 (i : grid1.Coords) : Prop := (Scalar.cmpi .ne (Scalar.extui (Scalar.cmpi .eq (BitVec.ofNat 32 (i 0).val) 0#32)) 0#32) = 1#1
/-- term 0's K-tiles: points 0 to 1. -/
abbrev cond1_2 (i : grid1.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond1_3 (i : grid1.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- "last point": bias, sigmoid, store. -/
abbrev cond1_4 (i : grid1.Coords) : Prop := k1_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9) K } := by
  refine ⟨[], ?_, fun xi E K => ?run⟩
  case run =>
    simp only [cc1_kernel_eq_skeleton]; unfold cc1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.KernelIdeal.Hand

end
-- ==== Proof.KI.R1Frame.lean ====
/- Region 1: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: where each case sits on the grid -/
theorem case1_A : ∀ t : Fin cfg1.N, t.val = 0 → cond1_1 (grid1.coords t) ∧ cond1_2 (grid1.coords t) ∧ ¬cond1_3 (grid1.coords t) ∧ ¬cond1_4 (grid1.coords t) :=
  (by decide +kernel : ∀ t : Fin grid1.N, t.val = 0 → cond1_1 (grid1.coords t) ∧ cond1_2 (grid1.coords t) ∧ ¬cond1_3 (grid1.coords t) ∧ ¬cond1_4 (grid1.coords t))
theorem case1_Z : ∀ t : Fin cfg1.N, t.val ≠ 0 → t.val = 17 → ¬cond1_1 (grid1.coords t) ∧ ¬cond1_2 (grid1.coords t) ∧ cond1_3 (grid1.coords t) ∧ cond1_4 (grid1.coords t) :=
  (by decide +kernel : ∀ t : Fin grid1.N, t.val ≠ 0 → t.val = 17 → ¬cond1_1 (grid1.coords t) ∧ ¬cond1_2 (grid1.coords t) ∧ cond1_3 (grid1.coords t) ∧ cond1_4 (grid1.coords t))
theorem case1_B : ∀ t : Fin cfg1.N, t.val ≠ 0 → ¬t.val = 17 → t.val = 1 → ¬cond1_1 (grid1.coords t) ∧ cond1_2 (grid1.coords t) ∧ ¬cond1_3 (grid1.coords t) ∧ ¬cond1_4 (grid1.coords t) :=
  (by decide +kernel : ∀ t : Fin grid1.N, t.val ≠ 0 → ¬t.val = 17 → t.val = 1 → ¬cond1_1 (grid1.coords t) ∧ cond1_2 (grid1.coords t) ∧ ¬cond1_3 (grid1.coords t) ∧ ¬cond1_4 (grid1.coords t))
theorem case1_C : ∀ t : Fin cfg1.N, t.val ≠ 0 → ¬t.val = 17 → ¬t.val = 1 → ¬cond1_1 (grid1.coords t) ∧ ¬cond1_2 (grid1.coords t) ∧ cond1_3 (grid1.coords t) ∧ ¬cond1_4 (grid1.coords t) :=
  (by decide +kernel : ∀ t : Fin grid1.N, t.val ≠ 0 → ¬t.val = 17 → ¬t.val = 1 → ¬cond1_1 (grid1.coords t) ∧ ¬cond1_2 (grid1.coords t) ∧ cond1_3 (grid1.coords t) ∧ ¬cond1_4 (grid1.coords t))

/-! ## The windows' blocks, the staging buffers and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1 : View sig .tc .vmem S64x1024 .f32 := (Memref.whole cc1_stg7_0 : Memref sig .tc .vmem S64x1024 .f32).view
abbrev ms1_0 (t : Fin cfg1.N) : Memref sig .tc .vmem S64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1024 .f32 := win1_7.stage (cfg1.slots t 7)
abbrev hs1_7 (t : Fin cfg1.N) : (ms1_7 t).IsWhole := hstage1_7 ((cfg1.slots t 7).cast nbuf1_7)
abbrev scM1 : Memref sig .tc .vmem S64x1024 .f32 := Memref.whole cc1_scratch0
abbrev VS1 : View sig .tc .vmem S64x1024 .f32 := scM1.view
/-- Every scoped buffer that is neither a staging buffer of this region nor its accumulator, at some contents. -/
abbrev restBut1 (c : Dev nD) : sProp 𝕄 := Pipeline.scopedRestBut (Ix := Unit) (Name := ℕ) (U := UR sig nD τ) (Lvl := ℕ) (Val := Elt F) spec1 c [cc1_scratch0]

/-- The class invariant with the accumulator taken out of the scoped rest. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA; rw [scopedRest1_split]; simp only [scM1, owns_whole]; try rfl

/-! ## Where the windows are idle -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem idle1_7 : ∀ t : Fin cfg1.N, t.val ≠ 17 → cfg1.idle 7 (grid1.coords t) = true := by decide +kernel
theorem noFlush1_7 : ∀ t : Fin cfg1.N, t.val ≠ 17 → (cfg1.win 7).flush t = false := by decide +kernel
theorem live1_7 : ∀ t : Fin cfg1.N, t.val = 17 → cfg1.idle 7 (grid1.coords t) = false := by decide +kernel

theorem live1_0_all : ∀ i, cfg1.idle 0 i = false := fun _ => rfl
theorem live1_1_all : ∀ i, cfg1.idle 1 i = false := fun _ => rfl
theorem live1_2_all : ∀ i, cfg1.idle 2 i = false := fun _ => rfl
theorem live1_3_all : ∀ i, cfg1.idle 3 i = false := fun _ => rfl
theorem live1_4_all : ∀ i, cfg1.idle 4 i = false := fun _ => rfl
theorem live1_5_all : ∀ i, cfg1.idle 5 i = false := fun _ => rfl
theorem live1_6_all : ∀ i, cfg1.idle 6 i = false := fun _ => rfl

/-! ## What each case leaves in the accumulator (and, at the last point, in the output's buffer) -/

theorem scover1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun1_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout1_A (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS1.read (Elt F) (VS1.writes (Elt F) VS1.junk (kernelRun1_A c i arg1 harg1 arg2 harg2 arg3 harg3 arg4 harg4 arg5 harg5 arg6 harg6 arg7 harg7 arg8 harg8 arg9 harg9 hc1 hc2 hc3 hc4 x1 x2 x3 x4 x5 x6 x7).2.1)

theorem scover1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out1_Z (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO1.read (Elt F) (VO1.writes (Elt F) VO1.junk (kernelRun1_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_B (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_B c i arg1 harg1 arg2 harg2 arg3 harg3 arg4 harg4 arg5 harg5 arg6 harg6 arg7 harg7 arg8 harg8 arg9 harg9 hc1 hc2 hc3 hc4 x1 x2 x3 x4 x5 x6 x7 xs).2.1)

theorem scover1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout1_C (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS1.read (Elt F) (VS1.writes (Elt F) VS1.junk (kernelRun1_C c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut1 : Vec F S64x1024 .f32 := VO1.read (Elt F) (VO1.writes (Elt F) VO1.junk [])

/-! ## The accumulation, point by point -/

/-- After the body at position `n`: (the output's staging buffer, the accumulator). -/
def outsAt1 (c : Dev nD) : (n : ℕ) → n < cfg1.N → Vec F S64x1024 .f32 × Vec F S64x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((case1_A ⟨0, hn⟩ rfl).1) ((case1_A ⟨0, hn⟩ rfl).2.1) ((case1_A ⟨0, hn⟩ rfl).2.2.1) ((case1_A ⟨0, hn⟩ rfl).2.2.2) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : n + 1 = 17 then
      (out1_Z c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_Z ⟨n + 1, hn⟩ (Nat.succ_ne_zero n) h0).1) ((case1_Z ⟨n + 1, hn⟩ (Nat.succ_ne_zero n) h0).2.1) ((case1_Z ⟨n + 1, hn⟩ (Nat.succ_ne_zero n) h0).2.2.1) ((case1_Z ⟨n + 1, hn⟩ (Nat.succ_ne_zero n) h0).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_Z c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_Z ⟨n + 1, hn⟩ (Nat.succ_ne_zero n) h0).1) ((case1_Z ⟨n + 1, hn⟩ (Nat.succ_ne_zero n) h0).2.1) ((case1_Z ⟨n + 1, hn⟩ (Nat.succ_ne_zero n) h0).2.2.1) ((case1_Z ⟨n + 1, hn⟩ (Nat.succ_ne_zero n) h0).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
    else
      if h1 : n + 1 = 1 then
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_B ⟨n + 1, hn⟩ (Nat.succ_ne_zero n) h0 h1).1) ((case1_B ⟨n + 1, hn⟩ (Nat.succ_ne_zero n) h0 h1).2.1) ((case1_B ⟨n + 1, hn⟩ (Nat.succ_ne_zero n) h0 h1).2.2.1) ((case1_B ⟨n + 1, hn⟩ (Nat.succ_ne_zero n) h0 h1).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (idleOut1, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((case1_C ⟨n + 1, hn⟩ (Nat.succ_ne_zero n) h0 h1).1) ((case1_C ⟨n + 1, hn⟩ (Nat.succ_ne_zero n) h0 h1).2.1) ((case1_C ⟨n + 1, hn⟩ (Nat.succ_ne_zero n) h0 h1).2.2.1) ((case1_C ⟨n + 1, hn⟩ (Nat.succ_ne_zero n) h0 h1).2.2.2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

theorem outsAt1_A (c : Dev nD) (t : Fin cfg1.N) (hz : t.val = 0) :
    outsAt1 V c t.val t.isLt = (idleOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_A t hz).1) ((case1_A t hz).2.1) ((case1_A t hz).2.2.1) ((case1_A t hz).2.2.2) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact absurd hz (Nat.succ_ne_zero n)

theorem outsAt1_Z (c : Dev nD) (t : Fin cfg1.N) (hz : t.val ≠ 0) (h0 : t.val = 17) :
    outsAt1 V c t.val t.isLt = (out1_Z c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_Z c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_pos h0).trans rfl

theorem outsAt1_B (c : Dev nD) (t : Fin cfg1.N) (hz : t.val ≠ 0) (h0 : ¬t.val = 17) (h1 : t.val = 1) :
    outsAt1 V c t.val t.isLt = (idleOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_B t hz h0 h1).1) ((case1_B t hz h0 h1).2.1) ((case1_B t hz h0 h1).2.2.1) ((case1_B t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt1_C (c : Dev nD) (t : Fin cfg1.N) (hz : t.val ≠ 0) (h0 : ¬t.val = 17) (h1 : ¬t.val = 1) :
    outsAt1 V c t.val t.isLt = (idleOut1, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_C t hz h0 h1).1) ((case1_C t hz h0 h1).2.1) ((case1_C t hz h0 h1).2.2.1) ((case1_C t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact absurd rfl hz
  | succ n => exact (dif_neg h0).trans ((dif_neg h1).trans (rfl))

/-! ## The region's invariant: before the first point the class's; afterwards the accumulator at what the point before left -/

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (live1_0_all) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (live1_1_all) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (live1_2_all) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (live1_3_all) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (live1_4_all) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (live1_5_all) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (live1_6_all) (fun _ _ _ => rfl) (fun t => by rw [after1_6]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
theorem leaves1_3 (c : Dev nD) (t : Fin cfg1.N) : (dat1 V c).leavesExact 3 t = owns (c : Thread nD τ) (ms1_3 t) fullShare (iblk1 V c 3 t) := by
  unfold Dat.leavesExact; rw [live1_3 t, after1_3]
theorem leaves1_4 (c : Dev nD) (t : Fin cfg1.N) : (dat1 V c).leavesExact 4 t = owns (c : Thread nD τ) (ms1_4 t) fullShare (iblk1 V c 4 t) := by
  unfold Dat.leavesExact; rw [live1_4 t, after1_4]
theorem leaves1_5 (c : Dev nD) (t : Fin cfg1.N) : (dat1 V c).leavesExact 5 t = owns (c : Thread nD τ) (ms1_5 t) fullShare (iblk1 V c 5 t) := by
  unfold Dat.leavesExact; rw [live1_5 t, after1_5]
theorem leaves1_6 (c : Dev nD) (t : Fin cfg1.N) : (dat1 V c).leavesExact 6 t = owns (c : Thread nD τ) (ms1_6 t) fullShare (iblk1 V c 6 t) := by
  unfold Dat.leavesExact; rw [live1_6 t, after1_6]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the case the point is in decides the branches; the invariant hands the body the accumulator at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 18 := lt_of_lt_of_eq t.isLt (show cfg1.N = 18 from N_1)
  by_cases hz : t.val = 0
  · have hne : t.val ≠ 17 := by omega
    rw [Dat.leavesExact_idle (dat1 V c) 7 t (idle1_7 t hne) (noFlush1_7 t hne)]
    rw [outsAt1_A V c t hz]
    unfold sout1_A; (try dsimp only)
    rw [PhiS1_castSucc V c t, PhiS1_zero V c _ _ hz, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((case1_A t hz).1) ((case1_A t hz).2.1) ((case1_A t hz).2.2.1) ((case1_A t hz).2.2.2) (iblk1 V c 0 t) (iblk1 V c 1 t) (iblk1 V c 2 t) (iblk1 V c 3 t) (iblk1 V c 4 t) (iblk1 V c 5 t) (iblk1 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 17
    · have hlast : t.val = 17 := by omega
      rw [show (dat1 V c).leavesExact 7 t = owns (c : Thread nD τ) (ms1_7 t) fullShare ((dat1 V c).after 7 t) from by
        unfold Dat.leavesExact; rw [live1_7 t hlast], after1_7]
      rw [outsAt1_Z V c t hz h0]
      unfold out1_Z sout1_Z; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_Z c (grid1.coords t) _ _ _ _ _ _ _ _ _ _ _ _ _ _ _ _ _ _ ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover1_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_Z c _ _ _ _ _ _ _ _ _ _ _ _ _ _ _ _ _ _ _ _ _ _ _ _ _ _ _ _ _ _ _)
    · by_cases h1 : t.val = 1
      · have hne : t.val ≠ 17 := by omega
        rw [Dat.leavesExact_idle (dat1 V c) 7 t (idle1_7 t hne) (noFlush1_7 t hne)]
        rw [outsAt1_B V c t hz h0 h1]
        unfold sout1_B; (try dsimp only)
        rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ ((case1_B t hz h0 h1).1) ((case1_B t hz h0 h1).2.1) ((case1_B t hz h0 h1).2.2.1) ((case1_B t hz h0 h1).2.2.2) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover1_B c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · have hne : t.val ≠ 17 := by omega
        rw [Dat.leavesExact_idle (dat1 V c) 7 t (idle1_7 t hne) (noFlush1_7 t hne)]
        rw [outsAt1_C V c t hz h0 h1]
        unfold sout1_C; (try dsimp only)
        rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ ((case1_C t hz h0 h1).1) ((case1_C t hz h0 h1).2.1) ((case1_C t hz h0 h1).2.2.1) ((case1_C t hz h0 h1).2.2.2) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover1_C c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 18 := N_1; omega), PhiA1_eq]
  iintro ⟨⟨HS, Hrest⟩, Hg⟩
  isplitl [HS Hrest]
  · isplitl [HS]
    · iexists _; iexact HS
    iexact Hrest
  iexact Hg

end Cert.KernelIdeal.Hand

end
-- ==== Proof.KI.R2Runs.lean ====
/- Region 2 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the body's branch conditions as functions of the grid position -/

/-- "first point": the accumulator is reset. -/
abbrev cond2_1 (i : grid2.Coords) : Prop := (Scalar.cmpi .ne (Scalar.extui (Scalar.cmpi .eq (BitVec.ofNat 32 (i 0).val) 0#32)) 0#32) = 1#1
/-- term 0's K-tiles: points 0 to 1. -/
abbrev cond2_2 (i : grid2.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond2_3 (i : grid2.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond2_4 (i : grid2.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond2_5 (i : grid2.Coords) : Prop := k2_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc2_kernel_eq_skeleton]; unfold cc2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.KernelIdeal.Hand

end
-- ==== Proof.KI.R2Frame.lean ====
/- Region 2: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: where each case sits on the grid -/
theorem case2_A : ∀ t : Fin cfg2.N, t.val = 0 → cond2_1 (grid2.coords t) ∧ cond2_2 (grid2.coords t) ∧ ¬cond2_3 (grid2.coords t) ∧ ¬cond2_4 (grid2.coords t) ∧ ¬cond2_5 (grid2.coords t) :=
  (by decide +kernel : ∀ t : Fin grid2.N, t.val = 0 → cond2_1 (grid2.coords t) ∧ cond2_2 (grid2.coords t) ∧ ¬cond2_3 (grid2.coords t) ∧ ¬cond2_4 (grid2.coords t) ∧ ¬cond2_5 (grid2.coords t))
theorem case2_Z : ∀ t : Fin cfg2.N, t.val ≠ 0 → t.val = 31 → ¬cond2_1 (grid2.coords t) ∧ ¬cond2_2 (grid2.coords t) ∧ ¬cond2_3 (grid2.coords t) ∧ cond2_4 (grid2.coords t) ∧ cond2_5 (grid2.coords t) :=
  (by decide +kernel : ∀ t : Fin grid2.N, t.val ≠ 0 → t.val = 31 → ¬cond2_1 (grid2.coords t) ∧ ¬cond2_2 (grid2.coords t) ∧ ¬cond2_3 (grid2.coords t) ∧ cond2_4 (grid2.coords t) ∧ cond2_5 (grid2.coords t))
theorem case2_B : ∀ t : Fin cfg2.N, t.val ≠ 0 → ¬t.val = 31 → t.val = 1 → ¬cond2_1 (grid2.coords t) ∧ cond2_2 (grid2.coords t) ∧ ¬cond2_3 (grid2.coords t) ∧ ¬cond2_4 (grid2.coords t) ∧ ¬cond2_5 (grid2.coords t) :=
  (by decide +kernel : ∀ t : Fin grid2.N, t.val ≠ 0 → ¬t.val = 31 → t.val = 1 → ¬cond2_1 (grid2.coords t) ∧ cond2_2 (grid2.coords t) ∧ ¬cond2_3 (grid2.coords t) ∧ ¬cond2_4 (grid2.coords t) ∧ ¬cond2_5 (grid2.coords t))
theorem case2_C : ∀ t : Fin cfg2.N, t.val ≠ 0 → ¬t.val = 31 → ¬t.val = 1 → (2 ≤ t.val ∧ t.val ≤ 17) → ¬cond2_1 (grid2.coords t) ∧ ¬cond2_2 (grid2.coords t) ∧ cond2_3 (grid2.coords t) ∧ ¬cond2_4 (grid2.coords t) ∧ ¬cond2_5 (grid2.coords t) :=
  (by decide +kernel : ∀ t : Fin grid2.N, t.val ≠ 0 → ¬t.val = 31 → ¬t.val = 1 → (2 ≤ t.val ∧ t.val ≤ 17) → ¬cond2_1 (grid2.coords t) ∧ ¬cond2_2 (grid2.coords t) ∧ cond2_3 (grid2.coords t) ∧ ¬cond2_4 (grid2.coords t) ∧ ¬cond2_5 (grid2.coords t))
theorem case2_D : ∀ t : Fin cfg2.N, t.val ≠ 0 → ¬t.val = 31 → ¬t.val = 1 → ¬(2 ≤ t.val ∧ t.val ≤ 17) → ¬cond2_1 (grid2.coords t) ∧ ¬cond2_2 (grid2.coords t) ∧ ¬cond2_3 (grid2.coords t) ∧ cond2_4 (grid2.coords t) ∧ ¬cond2_5 (grid2.coords t) :=
  (by decide +kernel : ∀ t : Fin grid2.N, t.val ≠ 0 → ¬t.val = 31 → ¬t.val = 1 → ¬(2 ≤ t.val ∧ t.val ≤ 17) → ¬cond2_1 (grid2.coords t) ∧ ¬cond2_2 (grid2.coords t) ∧ ¬cond2_3 (grid2.coords t) ∧ cond2_4 (grid2.coords t) ∧ ¬cond2_5 (grid2.coords t))

/-! ## The windows' blocks, the staging buffers and the accumulator -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev VO2 : View sig .tc .vmem S64x1024 .f32 := (Memref.whole cc2_stg10_0 : Memref sig .tc .vmem S64x1024 .f32).view
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1024x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1024 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64x1024 .f32 := win2_10.stage (cfg2.slots t 10)
abbrev hs2_10 (t : Fin cfg2.N) : (ms2_10 t).IsWhole := hstage2_10 ((cfg2.slots t 10).cast nbuf2_10)
abbrev scM2 : Memref sig .tc .vmem S64x1024 .f32 := Memref.whole cc2_scratch0
abbrev VS2 : View sig .tc .vmem S64x1024 .f32 := scM2.view
/-- Every scoped buffer that is neither a staging buffer of this region nor its accumulator, at some contents. -/
abbrev restBut2 (c : Dev nD) : sProp 𝕄 := Pipeline.scopedRestBut (Ix := Unit) (Name := ℕ) (U := UR sig nD τ) (Lvl := ℕ) (Val := Elt F) spec2 c [cc2_scratch0]

/-- The class invariant with the accumulator taken out of the scoped rest. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA; rw [scopedRest2_split]; simp only [scM2, owns_whole]; try rfl

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel
theorem idle2_10 : ∀ t : Fin cfg2.N, t.val ≠ 31 → cfg2.idle 10 (grid2.coords t) = true := by decide +kernel
theorem noFlush2_10 : ∀ t : Fin cfg2.N, t.val ≠ 31 → (cfg2.win 10).flush t = false := by decide +kernel
theorem live2_10 : ∀ t : Fin cfg2.N, t.val = 31 → cfg2.idle 10 (grid2.coords t) = false := by decide +kernel

theorem live2_0_all : ∀ i, cfg2.idle 0 i = false := fun _ => rfl
theorem live2_1_all : ∀ i, cfg2.idle 1 i = false := fun _ => rfl
theorem live2_2_all : ∀ i, cfg2.idle 2 i = false := fun _ => rfl
theorem live2_3_all : ∀ i, cfg2.idle 3 i = false := fun _ => rfl
theorem live2_4_all : ∀ i, cfg2.idle 4 i = false := fun _ => rfl
theorem live2_5_all : ∀ i, cfg2.idle 5 i = false := fun _ => rfl
theorem live2_6_all : ∀ i, cfg2.idle 6 i = false := fun _ => rfl
theorem live2_7_all : ∀ i, cfg2.idle 7 i = false := fun _ => rfl
theorem live2_8_all : ∀ i, cfg2.idle 8 i = false := fun _ => rfl
theorem live2_9_all : ∀ i, cfg2.idle 9 i = false := fun _ => rfl

/-! ## What each case leaves in the accumulator (and, at the last point, in the output's buffer) -/

theorem scover2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout2_A (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS2.read (Elt F) (VS2.writes (Elt F) VS2.junk (kernelRun2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out2_Z (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO2.read (Elt F) (VO2.writes (Elt F) VO2.junk (kernelRun2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_B (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_C (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout2_D (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS2.read (Elt F) (VS2.writes (Elt F) VS2.junk (kernelRun2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut2 : Vec F S64x1024 .f32 := VO2.read (Elt F) (VO2.writes (Elt F) VO2.junk [])

/-! ## The accumulation, point by point -/

/-- After the body at position `n`: (the output's staging buffer, the accumulator). -/
def outsAt2 (c : Dev nD) : (n : ℕ) → n < cfg2.N → Vec F S64x1024 .f32 × Vec F S64x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) scM2 (Memref.isWhole_whole _) ((case2_A ⟨0, hn⟩ rfl).1) ((case2_A ⟨0, hn⟩ rfl).2.1) ((case2_A ⟨0, hn⟩ rfl).2.2.1) ((case2_A ⟨0, hn⟩ rfl).2.2.2.1) ((case2_A ⟨0, hn⟩ rfl).2.2.2.2) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩))
  | n + 1, hn =>
    if h0 : n + 1 = 31 then
      (out2_Z c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_Z ⟨n + 1, hn⟩ (Nat.succ_ne_zero n) h0).1) ((case2_Z ⟨n + 1, hn⟩ (Nat.succ_ne_zero n) h0).2.1) ((case2_Z ⟨n + 1, hn⟩ (Nat.succ_ne_zero n) h0).2.2.1) ((case2_Z ⟨n + 1, hn⟩ (Nat.succ_ne_zero n) h0).2.2.2.1) ((case2_Z ⟨n + 1, hn⟩ (Nat.succ_ne_zero n) h0).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2, sout2_Z c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_Z ⟨n + 1, hn⟩ (Nat.succ_ne_zero n) h0).1) ((case2_Z ⟨n + 1, hn⟩ (Nat.succ_ne_zero n) h0).2.1) ((case2_Z ⟨n + 1, hn⟩ (Nat.succ_ne_zero n) h0).2.2.1) ((case2_Z ⟨n + 1, hn⟩ (Nat.succ_ne_zero n) h0).2.2.2.1) ((case2_Z ⟨n + 1, hn⟩ (Nat.succ_ne_zero n) h0).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
    else
      if h1 : n + 1 = 1 then
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_B ⟨n + 1, hn⟩ (Nat.succ_ne_zero n) h0 h1).1) ((case2_B ⟨n + 1, hn⟩ (Nat.succ_ne_zero n) h0 h1).2.1) ((case2_B ⟨n + 1, hn⟩ (Nat.succ_ne_zero n) h0 h1).2.2.1) ((case2_B ⟨n + 1, hn⟩ (Nat.succ_ne_zero n) h0 h1).2.2.2.1) ((case2_B ⟨n + 1, hn⟩ (Nat.succ_ne_zero n) h0 h1).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
      else
        if h2 : (2 ≤ n + 1 ∧ n + 1 ≤ 17) then
          (idleOut2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_C ⟨n + 1, hn⟩ (Nat.succ_ne_zero n) h0 h1 h2).1) ((case2_C ⟨n + 1, hn⟩ (Nat.succ_ne_zero n) h0 h1 h2).2.1) ((case2_C ⟨n + 1, hn⟩ (Nat.succ_ne_zero n) h0 h1 h2).2.2.1) ((case2_C ⟨n + 1, hn⟩ (Nat.succ_ne_zero n) h0 h1 h2).2.2.2.1) ((case2_C ⟨n + 1, hn⟩ (Nat.succ_ne_zero n) h0 h1 h2).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)
        else
          (idleOut2, sout2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) scM2 (Memref.isWhole_whole _) ((case2_D ⟨n + 1, hn⟩ (Nat.succ_ne_zero n) h0 h1 h2).1) ((case2_D ⟨n + 1, hn⟩ (Nat.succ_ne_zero n) h0 h1 h2).2.1) ((case2_D ⟨n + 1, hn⟩ (Nat.succ_ne_zero n) h0 h1 h2).2.2.1) ((case2_D ⟨n + 1, hn⟩ (Nat.succ_ne_zero n) h0 h1 h2).2.2.2.1) ((case2_D ⟨n + 1, hn⟩ (Nat.succ_ne_zero n) h0 h1 h2).2.2.2.2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (outsAt2 c n (Nat.lt_of_succ_lt hn)).2)

theorem outsAt2_A (c : Dev nD) (t : Fin cfg2.N) (hz : t.val = 0) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_A t hz).1) ((case2_A t hz).2.1) ((case2_A t hz).2.2.1) ((case2_A t hz).2.2.2.1) ((case2_A t hz).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) := by
  obtain ⟨n, hn⟩ := t
  cases n with
  | zero => exact rfl
  | succ n => exact absurd hz (Nat.succ_ne_zero n)

theorem outsAt2_Z (c : Dev nD) (t : Fin cfg2.N) (hz : t.val ≠ 0) (h0 : t.val = 31) :
    outsAt2 V c t.val t.isLt = (out2_Z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2, sout2_Z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_pos h0).trans rfl

theorem outsAt2_B (c : Dev nD) (t : Fin cfg2.N) (hz : t.val ≠ 0) (h0 : ¬t.val = 31) (h1 : t.val = 1) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_B t hz h0 h1).1) ((case2_B t hz h0 h1).2.1) ((case2_B t hz h0 h1).2.2.1) ((case2_B t hz h0 h1).2.2.2.1) ((case2_B t hz h0 h1).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt2_C (c : Dev nD) (t : Fin cfg2.N) (hz : t.val ≠ 0) (h0 : ¬t.val = 31) (h1 : ¬t.val = 1) (h2 : (2 ≤ t.val ∧ t.val ≤ 17)) :
    outsAt2 V c t.val t.isLt = (idleOut2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_C t hz h0 h1 h2).1) ((case2_C t hz h0 h1 h2).2.1) ((case2_C t hz h0 h1 h2).2.2.1) ((case2_C t hz h0 h1 h2).2.2.2.1) ((case2_C t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt2_D (c : Dev nD) (t : Fin cfg2.N) (hz : t.val ≠ 0) (h0 : ¬t.val = 31) (h1 : ¬t.val = 1) (h2 : ¬(2 ≤ t.val ∧ t.val ≤ 17)) :
    outsAt2 V c t.val t.isLt = (idleOut2, sout2_D c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_D t hz h0 h1 h2).1) ((case2_D t hz h0 h1 h2).2.1) ((case2_D t hz h0 h1 h2).2.2.1) ((case2_D t hz h0 h1 h2).2.2.2.1) ((case2_D t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (live2_0_all) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (live2_1_all) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (live2_2_all) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (live2_3_all) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (live2_4_all) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (live2_5_all) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (live2_6_all) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (live2_7_all) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (live2_8_all) (fun _ _ _ => rfl) (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (live2_9_all) (fun _ _ _ => rfl) (fun t => by rw [after2_9]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (iblk2 V c 2 t) := by
  unfold Dat.leavesExact; rw [live2_2 t, after2_2]
theorem leaves2_3 (c : Dev nD) (t : Fin cfg2.N) : (dat2 V c).leavesExact 3 t = owns (c : Thread nD τ) (ms2_3 t) fullShare (iblk2 V c 3 t) := by
  unfold Dat.leavesExact; rw [live2_3 t, after2_3]
theorem leaves2_4 (c : Dev nD) (t : Fin cfg2.N) : (dat2 V c).leavesExact 4 t = owns (c : Thread nD τ) (ms2_4 t) fullShare (iblk2 V c 4 t) := by
  unfold Dat.leavesExact; rw [live2_4 t, after2_4]
theorem leaves2_5 (c : Dev nD) (t : Fin cfg2.N) : (dat2 V c).leavesExact 5 t = owns (c : Thread nD τ) (ms2_5 t) fullShare (iblk2 V c 5 t) := by
  unfold Dat.leavesExact; rw [live2_5 t, after2_5]
theorem leaves2_6 (c : Dev nD) (t : Fin cfg2.N) : (dat2 V c).leavesExact 6 t = owns (c : Thread nD τ) (ms2_6 t) fullShare (iblk2 V c 6 t) := by
  unfold Dat.leavesExact; rw [live2_6 t, after2_6]
theorem leaves2_7 (c : Dev nD) (t : Fin cfg2.N) : (dat2 V c).leavesExact 7 t = owns (c : Thread nD τ) (ms2_7 t) fullShare (iblk2 V c 7 t) := by
  unfold Dat.leavesExact; rw [live2_7 t, after2_7]
theorem leaves2_8 (c : Dev nD) (t : Fin cfg2.N) : (dat2 V c).leavesExact 8 t = owns (c : Thread nD τ) (ms2_8 t) fullShare (iblk2 V c 8 t) := by
  unfold Dat.leavesExact; rw [live2_8 t, after2_8]
theorem leaves2_9 (c : Dev nD) (t : Fin cfg2.N) : (dat2 V c).leavesExact 9 t = owns (c : Thread nD τ) (ms2_9 t) fullShare (iblk2 V c 9 t) := by
  unfold Dat.leavesExact; rw [live2_9 t, after2_9]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 8000000 in
/-- The body at any point: the case the point is in decides the branches; the invariant hands the body the accumulator at
    what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8, leaves2_9]
  have hN : t.val < 32 := lt_of_lt_of_eq t.isLt (show cfg2.N = 32 from N_2)
  by_cases hz : t.val = 0
  · have hne : t.val ≠ 31 := by omega
    rw [Dat.leavesExact_idle (dat2 V c) 10 t (idle2_10 t hne) (noFlush2_10 t hne)]
    rw [outsAt2_A V c t hz]
    unfold sout2_A; (try dsimp only)
    rw [PhiS2_castSucc V c t, PhiS2_zero V c _ _ hz, PhiA2_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun2_A c (grid2.coords t) _ _ _ _ _ _ _ _ _ _ _ _ _ _ _ _ _ _ _ _ _ _ _ _ ((case2_A t hz).1) ((case2_A t hz).2.1) ((case2_A t hz).2.2.1) ((case2_A t hz).2.2.2.1) ((case2_A t hz).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat2 V c).leavesExact 10 t = owns (c : Thread nD τ) (ms2_10 t) fullShare ((dat2 V c).after 10 t) from by
        unfold Dat.leavesExact; rw [live2_10 t hlast], after2_10]
      rw [outsAt2_Z V c t hz h0]
      unfold out2_Z sout2_Z; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_Z c (grid2.coords t) _ _ _ _ _ _ _ _ _ _ _ _ _ _ _ _ _ _ _ _ _ _ _ _ ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover2_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover2_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat2 V c) 10 t (idle2_10 t hne) (noFlush2_10 t hne)]
        rw [outsAt2_B V c t hz h0 h1]
        unfold sout2_B; (try dsimp only)
        rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_B c (grid2.coords t) _ _ _ _ _ _ _ _ _ _ _ _ _ _ _ _ _ _ _ _ _ _ _ _ ((case2_B t hz h0 h1).1) ((case2_B t hz h0 h1).2.1) ((case2_B t hz h0 h1).2.2.1) ((case2_B t hz h0 h1).2.2.2.1) ((case2_B t hz h0 h1).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover2_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat2 V c) 10 t (idle2_10 t hne) (noFlush2_10 t hne)]
          rw [outsAt2_C V c t hz h0 h1 h2]
          unfold sout2_C; (try dsimp only)
          rw [PhiS2_castSucc V c t, PhiS2_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun2_C c (grid2.coords t) _ _ _ _ _ _ _ _ _ _ _ _ _ _ _ _ _ _ _ _ _ _ _ _ ((case2_C t hz h0 h1 h2).1) ((case2_C t hz h0 h1 h2).2.1) ((case2_C t hz h0 h1 h2).2.2.1) ((case2_C t hz h0 h1 h2).2.2.2.1) ((case2_C t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover2_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat2 V c) 10 t (idle2_10 t hne) (noFlush2_10 t hne)]
          rw [outsAt2_D V c t hz h0 h1 h2]
          unfold sout2_D; (try dsimp only)
          rw [PhiS2_castSucc V c t, PhiS2_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun2_D c (grid2.coords t) _ _ _ _ _ _ _ _ _ _ _ _ _ _ _ _ _ _ _ _ _ _ _ _ ((case2_D t hz h0 h1 h2).1) ((case2_D t hz h0 h1 h2).2.1) ((case2_D t hz h0 h1 h2).2.2.1) ((case2_D t hz h0 h1 h2).2.2.2.1) ((case2_D t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover2_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hrest⟩, Hg⟩
  isplitl [HS Hrest]
  · isplitl [HS]
    · iexists _; iexact HS
    iexact Hrest
  iexact Hg

end Cert.KernelIdeal.Hand

end
-- ==== Proof.KI.R3Runs.lean ====
/- Region 3 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: the body's branch conditions as functions of the grid position -/

/-- "first point": the accumulator is reset. -/
abbrev cond3_1 (i : grid3.Coords) : Prop := (Scalar.cmpi .ne (Scalar.extui (Scalar.cmpi .eq (BitVec.ofNat 32 (i 0).val) 0#32)) 0#32) = 1#1
/-- term 0's K-tiles: points 0 to 1. -/
abbrev cond3_2 (i : grid3.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond3_3 (i : grid3.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond3_4 (i : grid3.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond3_5 (i : grid3.Coords) : Prop := k3_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc3_kernel_eq_skeleton]; unfold cc3_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.KernelIdeal.Hand

end
-- ==== Proof.KI.R3Frame.lean ====
/- Region 3: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: where each case sits on the grid -/
theorem case3_A : ∀ t : Fin cfg3.N, t.val = 0 → cond3_1 (grid3.coords t) ∧ cond3_2 (grid3.coords t) ∧ ¬cond3_3 (grid3.coords t) ∧ ¬cond3_4 (grid3.coords t) ∧ ¬cond3_5 (grid3.coords t) :=
  (by decide +kernel : ∀ t : Fin grid3.N, t.val = 0 → cond3_1 (grid3.coords t) ∧ cond3_2 (grid3.coords t) ∧ ¬cond3_3 (grid3.coords t) ∧ ¬cond3_4 (grid3.coords t) ∧ ¬cond3_5 (grid3.coords t))
theorem case3_Z : ∀ t : Fin cfg3.N, t.val ≠ 0 → t.val = 31 → ¬cond3_1 (grid3.coords t) ∧ ¬cond3_2 (grid3.coords t) ∧ ¬cond3_3 (grid3.coords t) ∧ cond3_4 (grid3.coords t) ∧ cond3_5 (grid3.coords t) :=
  (by decide +kernel : ∀ t : Fin grid3.N, t.val ≠ 0 → t.val = 31 → ¬cond3_1 (grid3.coords t) ∧ ¬cond3_2 (grid3.coords t) ∧ ¬cond3_3 (grid3.coords t) ∧ cond3_4 (grid3.coords t) ∧ cond3_5 (grid3.coords t))
theorem case3_B : ∀ t : Fin cfg3.N, t.val ≠ 0 → ¬t.val = 31 → t.val = 1 → ¬cond3_1 (grid3.coords t) ∧ cond3_2 (grid3.coords t) ∧ ¬cond3_3 (grid3.coords t) ∧ ¬cond3_4 (grid3.coords t) ∧ ¬cond3_5 (grid3.coords t) :=
  (by decide +kernel : ∀ t : Fin grid3.N, t.val ≠ 0 → ¬t.val = 31 → t.val = 1 → ¬cond3_1 (grid3.coords t) ∧ cond3_2 (grid3.coords t) ∧ ¬cond3_3 (grid3.coords t) ∧ ¬cond3_4 (grid3.coords t) ∧ ¬cond3_5 (grid3.coords t))
theorem case3_C : ∀ t : Fin cfg3.N, t.val ≠ 0 → ¬t.val = 31 → ¬t.val = 1 → (2 ≤ t.val ∧ t.val ≤ 17) → ¬cond3_1 (grid3.coords t) ∧ ¬cond3_2 (grid3.coords t) ∧ cond3_3 (grid3.coords t) ∧ ¬cond3_4 (grid3.coords t) ∧ ¬cond3_5 (grid3.coords t) :=
  (by decide +kernel : ∀ t : Fin grid3.N, t.val ≠ 0 → ¬t.val = 31 → ¬t.val = 1 → (2 ≤ t.val ∧ t.val ≤ 17) → ¬cond3_1 (grid3.coords t) ∧ ¬cond3_2 (grid3.coords t) ∧ cond3_3 (grid3.coords t) ∧ ¬cond3_4 (grid3.coords t) ∧ ¬cond3_5 (grid3.coords t))
theorem case3_D : ∀ t : Fin cfg3.N, t.val ≠ 0 → ¬t.val = 31 → ¬t.val = 1 → ¬(2 ≤ t.val ∧ t.val ≤ 17) → ¬cond3_1 (grid3.coords t) ∧ ¬cond3_2 (grid3.coords t) ∧ ¬cond3_3 (grid3.coords t) ∧ cond3_4 (grid3.coords t) ∧ ¬cond3_5 (grid3.coords t) :=
  (by decide +kernel : ∀ t : Fin grid3.N, t.val ≠ 0 → ¬t.val = 31 → ¬t.val = 1 → ¬(2 ≤ t.val ∧ t.val ≤ 17) → ¬cond3_1 (grid3.coords t) ∧ ¬cond3_2 (grid3.coords t) ∧ ¬cond3_3 (grid3.coords t) ∧ cond3_4 (grid3.coords t) ∧ ¬cond3_5 (grid3.coords t))

/-! ## The windows' blocks, the staging buffers and the accumulator -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3 : View sig .tc .vmem S64x1024 .f32 := (Memref.whole cc3_stg10_0 : Memref sig .tc .vmem S64x1024 .f32).view
abbrev ms3_0 (t : Fin cfg3.N) : Memref sig .tc .vmem S64x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x512 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1024x512 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1024x512 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1024 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S64x1024 .f32 := win3_10.stage (cfg3.slots t 10)
abbrev hs3_10 (t : Fin cfg3.N) : (ms3_10 t).IsWhole := hstage3_10 ((cfg3.slots t 10).cast nbuf3_10)
abbrev scM3 : Memref sig .tc .vmem S64x1024 .f32 := Memref.whole cc3_scratch0
abbrev VS3 : View sig .tc .vmem S64x1024 .f32 := scM3.view
/-- Every scoped buffer that is neither a staging buffer of this region nor its accumulator, at some contents. -/
abbrev restBut3 (c : Dev nD) : sProp 𝕄 := Pipeline.scopedRestBut (Ix := Unit) (Name := ℕ) (U := UR sig nD τ) (Lvl := ℕ) (Val := Elt F) spec3 c [cc3_scratch0]

/-- The class invariant with the accumulator taken out of the scoped rest. -/
theorem PhiA3_eq (c : Dev nD) :
    (Pipeline.ΦA spec3 c : sProp 𝕄)
      = iprop(iprop((∃ d, owns (c : Thread nD τ) scM3 fullShare d) ∗ restBut3 c) ∗ (∃ r, prngReg c r)) := by
  unfold Pipeline.ΦA; rw [scopedRest3_split]; simp only [scM3, owns_whole]; try rfl

/-! ## Where the windows are idle -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
theorem live3_5 : ∀ t : Fin cfg3.N, cfg3.idle 5 (grid3.coords t) = false := by decide +kernel
theorem live3_6 : ∀ t : Fin cfg3.N, cfg3.idle 6 (grid3.coords t) = false := by decide +kernel
theorem live3_7 : ∀ t : Fin cfg3.N, cfg3.idle 7 (grid3.coords t) = false := by decide +kernel
theorem live3_8 : ∀ t : Fin cfg3.N, cfg3.idle 8 (grid3.coords t) = false := by decide +kernel
theorem live3_9 : ∀ t : Fin cfg3.N, cfg3.idle 9 (grid3.coords t) = false := by decide +kernel
theorem idle3_10 : ∀ t : Fin cfg3.N, t.val ≠ 31 → cfg3.idle 10 (grid3.coords t) = true := by decide +kernel
theorem noFlush3_10 : ∀ t : Fin cfg3.N, t.val ≠ 31 → (cfg3.win 10).flush t = false := by decide +kernel
theorem live3_10 : ∀ t : Fin cfg3.N, t.val = 31 → cfg3.idle 10 (grid3.coords t) = false := by decide +kernel

theorem live3_0_all : ∀ i, cfg3.idle 0 i = false := fun _ => rfl
theorem live3_1_all : ∀ i, cfg3.idle 1 i = false := fun _ => rfl
theorem live3_2_all : ∀ i, cfg3.idle 2 i = false := fun _ => rfl
theorem live3_3_all : ∀ i, cfg3.idle 3 i = false := fun _ => rfl
theorem live3_4_all : ∀ i, cfg3.idle 4 i = false := fun _ => rfl
theorem live3_5_all : ∀ i, cfg3.idle 5 i = false := fun _ => rfl
theorem live3_6_all : ∀ i, cfg3.idle 6 i = false := fun _ => rfl
theorem live3_7_all : ∀ i, cfg3.idle 7 i = false := fun _ => rfl
theorem live3_8_all : ∀ i, cfg3.idle 8 i = false := fun _ => rfl
theorem live3_9_all : ∀ i, cfg3.idle 9 i = false := fun _ => rfl

/-! ## What each case leaves in the accumulator (and, at the last point, in the output's buffer) -/

theorem scover3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout3_A (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS3.read (Elt F) (VS3.writes (Elt F) VS3.junk (kernelRun3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out3_Z (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO3.read (Elt F) (VO3.writes (Elt F) VO3.junk (kernelRun3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_B (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_C (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout3_D (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS3.read (Elt F) (VS3.writes (Elt F) VS3.junk (kernelRun3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut3 : Vec F S64x1024 .f32 := VO3.read (Elt F) (VO3.writes (Elt F) VO3.junk [])

/-! ## The accumulation, point by point -/

/-- After the body at position `n`: (the output's staging buffer, the accumulator). -/
def outsAt3 (c : Dev nD) : (n : ℕ) → n < cfg3.N → Vec F S64x1024 .f32 × Vec F S64x1024 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) scM3 (Memref.isWhole_whole _) ((case3_A ⟨0, hn⟩ rfl).1) ((case3_A ⟨0, hn⟩ rfl).2.1) ((case3_A ⟨0, hn⟩ rfl).2.2.1) ((case3_A ⟨0, hn⟩ rfl).2.2.2.1) ((case3_A ⟨0, hn⟩ rfl).2.2.2.2) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩))
  | n + 1, hn =>
    if h0 : n + 1 = 31 then
      (out3_Z c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_Z ⟨n + 1, hn⟩ (Nat.succ_ne_zero n) h0).1) ((case3_Z ⟨n + 1, hn⟩ (Nat.succ_ne_zero n) h0).2.1) ((case3_Z ⟨n + 1, hn⟩ (Nat.succ_ne_zero n) h0).2.2.1) ((case3_Z ⟨n + 1, hn⟩ (Nat.succ_ne_zero n) h0).2.2.2.1) ((case3_Z ⟨n + 1, hn⟩ (Nat.succ_ne_zero n) h0).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2, sout3_Z c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_Z ⟨n + 1, hn⟩ (Nat.succ_ne_zero n) h0).1) ((case3_Z ⟨n + 1, hn⟩ (Nat.succ_ne_zero n) h0).2.1) ((case3_Z ⟨n + 1, hn⟩ (Nat.succ_ne_zero n) h0).2.2.1) ((case3_Z ⟨n + 1, hn⟩ (Nat.succ_ne_zero n) h0).2.2.2.1) ((case3_Z ⟨n + 1, hn⟩ (Nat.succ_ne_zero n) h0).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
    else
      if h1 : n + 1 = 1 then
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_B ⟨n + 1, hn⟩ (Nat.succ_ne_zero n) h0 h1).1) ((case3_B ⟨n + 1, hn⟩ (Nat.succ_ne_zero n) h0 h1).2.1) ((case3_B ⟨n + 1, hn⟩ (Nat.succ_ne_zero n) h0 h1).2.2.1) ((case3_B ⟨n + 1, hn⟩ (Nat.succ_ne_zero n) h0 h1).2.2.2.1) ((case3_B ⟨n + 1, hn⟩ (Nat.succ_ne_zero n) h0 h1).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
      else
        if h2 : (2 ≤ n + 1 ∧ n + 1 ≤ 17) then
          (idleOut3, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_C ⟨n + 1, hn⟩ (Nat.succ_ne_zero n) h0 h1 h2).1) ((case3_C ⟨n + 1, hn⟩ (Nat.succ_ne_zero n) h0 h1 h2).2.1) ((case3_C ⟨n + 1, hn⟩ (Nat.succ_ne_zero n) h0 h1 h2).2.2.1) ((case3_C ⟨n + 1, hn⟩ (Nat.succ_ne_zero n) h0 h1 h2).2.2.2.1) ((case3_C ⟨n + 1, hn⟩ (Nat.succ_ne_zero n) h0 h1 h2).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
        else
          (idleOut3, sout3_D c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) scM3 (Memref.isWhole_whole _) ((case3_D ⟨n + 1, hn⟩ (Nat.succ_ne_zero n) h0 h1 h2).1) ((case3_D ⟨n + 1, hn⟩ (Nat.succ_ne_zero n) h0 h1 h2).2.1) ((case3_D ⟨n + 1, hn⟩ (Nat.succ_ne_zero n) h0 h1 h2).2.2.1) ((case3_D ⟨n + 1, hn⟩ (Nat.succ_ne_zero n) h0 h1 h2).2.2.2.1) ((case3_D ⟨n + 1, hn⟩ (Nat.succ_ne_zero n) h0 h1 h2).2.2.2.2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)

theorem outsAt3_A (c : Dev nD) (t : Fin cfg3.N) (hz : t.val = 0) :
    outsAt3 V c t.val t.isLt = (idleOut3, sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_A t hz).1) ((case3_A t hz).2.1) ((case3_A t hz).2.2.1) ((case3_A t hz).2.2.2.1) ((case3_A t hz).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)) := by
  obtain ⟨n, hn⟩ := t
  cases n with
  | zero => exact rfl
  | succ n => exact absurd hz (Nat.succ_ne_zero n)

theorem outsAt3_Z (c : Dev nD) (t : Fin cfg3.N) (hz : t.val ≠ 0) (h0 : t.val = 31) :
    outsAt3 V c t.val t.isLt = (out3_Z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2, sout3_Z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_pos h0).trans rfl

theorem outsAt3_B (c : Dev nD) (t : Fin cfg3.N) (hz : t.val ≠ 0) (h0 : ¬t.val = 31) (h1 : t.val = 1) :
    outsAt3 V c t.val t.isLt = (idleOut3, sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_B t hz h0 h1).1) ((case3_B t hz h0 h1).2.1) ((case3_B t hz h0 h1).2.2.1) ((case3_B t hz h0 h1).2.2.2.1) ((case3_B t hz h0 h1).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt3_C (c : Dev nD) (t : Fin cfg3.N) (hz : t.val ≠ 0) (h0 : ¬t.val = 31) (h1 : ¬t.val = 1) (h2 : (2 ≤ t.val ∧ t.val ≤ 17)) :
    outsAt3 V c t.val t.isLt = (idleOut3, sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_C t hz h0 h1 h2).1) ((case3_C t hz h0 h1 h2).2.1) ((case3_C t hz h0 h1 h2).2.2.1) ((case3_C t hz h0 h1 h2).2.2.2.1) ((case3_C t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt3_D (c : Dev nD) (t : Fin cfg3.N) (hz : t.val ≠ 0) (h0 : ¬t.val = 31) (h1 : ¬t.val = 1) (h2 : ¬(2 ≤ t.val ∧ t.val ≤ 17)) :
    outsAt3 V c t.val t.isLt = (idleOut3, sout3_D c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_D t hz h0 h1 h2).1) ((case3_D t hz h0 h1 h2).2.1) ((case3_D t hz h0 h1 h2).2.2.1) ((case3_D t hz h0 h1 h2).2.2.2.1) ((case3_D t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ restBut3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (live3_0_all) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (live3_1_all) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (live3_2_all) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (live3_3_all) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (live3_4_all) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (live3_5_all) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (live3_6_all) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (live3_7_all) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (live3_8_all) (fun _ _ _ => rfl) (fun t => by rw [after3_8]; unfold Dat.blockOf iblk3; rw [A_eq3]; try rfl) t d).trans
    (by unfold Dat.fetched Dat.blockOf iblk3; rw [A_eq3]; try rfl)
theorem before3_9 (c : Dev nD) (t : Fin cfg3.N) (d) : (dat3 V c).before 9 t d = iblk3 V c 9 t :=
  ((dat3 V c).before_in_eq_fetched 9 rfl (live3_9_all) (fun _ _ _ => rfl) (fun t => by rw [after3_9]; unfold Dat.blockOf iblk3; rw [A_eq3]; try rfl) t d).trans
    (by unfold Dat.fetched Dat.blockOf iblk3; rw [A_eq3]; try rfl)

theorem leaves3_0 (c : Dev nD) (t : Fin cfg3.N) : (dat3 V c).leavesExact 0 t = owns (c : Thread nD τ) (ms3_0 t) fullShare (iblk3 V c 0 t) := by
  unfold Dat.leavesExact; rw [live3_0 t, after3_0]
theorem leaves3_1 (c : Dev nD) (t : Fin cfg3.N) : (dat3 V c).leavesExact 1 t = owns (c : Thread nD τ) (ms3_1 t) fullShare (iblk3 V c 1 t) := by
  unfold Dat.leavesExact; rw [live3_1 t, after3_1]
theorem leaves3_2 (c : Dev nD) (t : Fin cfg3.N) : (dat3 V c).leavesExact 2 t = owns (c : Thread nD τ) (ms3_2 t) fullShare (iblk3 V c 2 t) := by
  unfold Dat.leavesExact; rw [live3_2 t, after3_2]
theorem leaves3_3 (c : Dev nD) (t : Fin cfg3.N) : (dat3 V c).leavesExact 3 t = owns (c : Thread nD τ) (ms3_3 t) fullShare (iblk3 V c 3 t) := by
  unfold Dat.leavesExact; rw [live3_3 t, after3_3]
theorem leaves3_4 (c : Dev nD) (t : Fin cfg3.N) : (dat3 V c).leavesExact 4 t = owns (c : Thread nD τ) (ms3_4 t) fullShare (iblk3 V c 4 t) := by
  unfold Dat.leavesExact; rw [live3_4 t, after3_4]
theorem leaves3_5 (c : Dev nD) (t : Fin cfg3.N) : (dat3 V c).leavesExact 5 t = owns (c : Thread nD τ) (ms3_5 t) fullShare (iblk3 V c 5 t) := by
  unfold Dat.leavesExact; rw [live3_5 t, after3_5]
theorem leaves3_6 (c : Dev nD) (t : Fin cfg3.N) : (dat3 V c).leavesExact 6 t = owns (c : Thread nD τ) (ms3_6 t) fullShare (iblk3 V c 6 t) := by
  unfold Dat.leavesExact; rw [live3_6 t, after3_6]
theorem leaves3_7 (c : Dev nD) (t : Fin cfg3.N) : (dat3 V c).leavesExact 7 t = owns (c : Thread nD τ) (ms3_7 t) fullShare (iblk3 V c 7 t) := by
  unfold Dat.leavesExact; rw [live3_7 t, after3_7]
theorem leaves3_8 (c : Dev nD) (t : Fin cfg3.N) : (dat3 V c).leavesExact 8 t = owns (c : Thread nD τ) (ms3_8 t) fullShare (iblk3 V c 8 t) := by
  unfold Dat.leavesExact; rw [live3_8 t, after3_8]
theorem leaves3_9 (c : Dev nD) (t : Fin cfg3.N) : (dat3 V c).leavesExact 9 t = owns (c : Thread nD τ) (ms3_9 t) fullShare (iblk3 V c 9 t) := by
  unfold Dat.leavesExact; rw [live3_9 t, after3_9]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 8000000 in
/-- The body at any point: the case the point is in decides the branches; the invariant hands the body the accumulator at
    what the point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5, leaves3_6, leaves3_7, leaves3_8, leaves3_9]
  have hN : t.val < 32 := lt_of_lt_of_eq t.isLt (show cfg3.N = 32 from N_3)
  by_cases hz : t.val = 0
  · have hne : t.val ≠ 31 := by omega
    rw [Dat.leavesExact_idle (dat3 V c) 10 t (idle3_10 t hne) (noFlush3_10 t hne)]
    rw [outsAt3_A V c t hz]
    unfold sout3_A; (try dsimp only)
    rw [PhiS3_castSucc V c t, PhiS3_zero V c _ _ hz, PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A c (grid3.coords t) _ _ _ _ _ _ _ _ _ _ _ _ _ _ _ _ _ _ _ _ _ _ _ _ ((case3_A t hz).1) ((case3_A t hz).2.1) ((case3_A t hz).2.2.1) ((case3_A t hz).2.2.2.1) ((case3_A t hz).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover3_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat3 V c).leavesExact 10 t = owns (c : Thread nD τ) (ms3_10 t) fullShare ((dat3 V c).after 10 t) from by
        unfold Dat.leavesExact; rw [live3_10 t hlast], after3_10]
      rw [outsAt3_Z V c t hz h0]
      unfold out3_Z sout3_Z; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_Z c (grid3.coords t) _ _ _ _ _ _ _ _ _ _ _ _ _ _ _ _ _ _ _ _ _ _ _ _ ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover3_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat3 V c) 10 t (idle3_10 t hne) (noFlush3_10 t hne)]
        rw [outsAt3_B V c t hz h0 h1]
        unfold sout3_B; (try dsimp only)
        rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun3_B c (grid3.coords t) _ _ _ _ _ _ _ _ _ _ _ _ _ _ _ _ _ _ _ _ _ _ _ _ ((case3_B t hz h0 h1).1) ((case3_B t hz h0 h1).2.1) ((case3_B t hz h0 h1).2.2.1) ((case3_B t hz h0 h1).2.2.2.1) ((case3_B t hz h0 h1).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover3_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat3 V c) 10 t (idle3_10 t hne) (noFlush3_10 t hne)]
          rw [outsAt3_C V c t hz h0 h1 h2]
          unfold sout3_C; (try dsimp only)
          rw [PhiS3_castSucc V c t, PhiS3_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun3_C c (grid3.coords t) _ _ _ _ _ _ _ _ _ _ _ _ _ _ _ _ _ _ _ _ _ _ _ _ ((case3_C t hz h0 h1 h2).1) ((case3_C t hz h0 h1 h2).2.1) ((case3_C t hz h0 h1 h2).2.2.1) ((case3_C t hz h0 h1 h2).2.2.2.1) ((case3_C t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover3_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat3 V c) 10 t (idle3_10 t hne) (noFlush3_10 t hne)]
          rw [outsAt3_D V c t hz h0 h1 h2]
          unfold sout3_D; (try dsimp only)
          rw [PhiS3_castSucc V c t, PhiS3_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun3_D c (grid3.coords t) _ _ _ _ _ _ _ _ _ _ _ _ _ _ _ _ _ _ _ _ _ _ _ _ ((case3_D t hz h0 h1 h2).1) ((case3_D t hz h0 h1 h2).2.1) ((case3_D t hz h0 h1 h2).2.2.1) ((case3_D t hz h0 h1 h2).2.2.2.1) ((case3_D t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover3_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS, Hrest⟩, Hg⟩
  isplitl [HS Hrest]
  · isplitl [HS]
    · iexists _; iexact HS
    iexact Hrest
  iexact Hg

end Cert.KernelIdeal.Hand

end
-- ==== Proof.KI.R4Runs.lean ====
/- Region 4 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 4: the body's branch conditions as functions of the grid position -/

/-- "first point": the accumulator is reset. -/
abbrev cond4_1 (i : grid4.Coords) : Prop := (Scalar.cmpi .ne (Scalar.extui (Scalar.cmpi .eq (BitVec.ofNat 32 (i 0).val) 0#32)) 0#32) = 1#1
/-- term 0's K-tiles: points 0 to 1. -/
abbrev cond4_2 (i : grid4.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond4_3 (i : grid4.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond4_4 (i : grid4.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond4_5 (i : grid4.Coords) : Prop := k4_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc4_kernel_eq_skeleton]; unfold cc4_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.KernelIdeal.Hand

end
-- ==== Proof.KI.R4Frame.lean ====
/- Region 4: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: where each case sits on the grid -/
theorem case4_A : ∀ t : Fin cfg4.N, t.val = 0 → cond4_1 (grid4.coords t) ∧ cond4_2 (grid4.coords t) ∧ ¬cond4_3 (grid4.coords t) ∧ ¬cond4_4 (grid4.coords t) ∧ ¬cond4_5 (grid4.coords t) :=
  (by decide +kernel : ∀ t : Fin grid4.N, t.val = 0 → cond4_1 (grid4.coords t) ∧ cond4_2 (grid4.coords t) ∧ ¬cond4_3 (grid4.coords t) ∧ ¬cond4_4 (grid4.coords t) ∧ ¬cond4_5 (grid4.coords t))
theorem case4_Z : ∀ t : Fin cfg4.N, t.val ≠ 0 → t.val = 31 → ¬cond4_1 (grid4.coords t) ∧ ¬cond4_2 (grid4.coords t) ∧ ¬cond4_3 (grid4.coords t) ∧ cond4_4 (grid4.coords t) ∧ cond4_5 (grid4.coords t) :=
  (by decide +kernel : ∀ t : Fin grid4.N, t.val ≠ 0 → t.val = 31 → ¬cond4_1 (grid4.coords t) ∧ ¬cond4_2 (grid4.coords t) ∧ ¬cond4_3 (grid4.coords t) ∧ cond4_4 (grid4.coords t) ∧ cond4_5 (grid4.coords t))
theorem case4_B : ∀ t : Fin cfg4.N, t.val ≠ 0 → ¬t.val = 31 → t.val = 1 → ¬cond4_1 (grid4.coords t) ∧ cond4_2 (grid4.coords t) ∧ ¬cond4_3 (grid4.coords t) ∧ ¬cond4_4 (grid4.coords t) ∧ ¬cond4_5 (grid4.coords t) :=
  (by decide +kernel : ∀ t : Fin grid4.N, t.val ≠ 0 → ¬t.val = 31 → t.val = 1 → ¬cond4_1 (grid4.coords t) ∧ cond4_2 (grid4.coords t) ∧ ¬cond4_3 (grid4.coords t) ∧ ¬cond4_4 (grid4.coords t) ∧ ¬cond4_5 (grid4.coords t))
theorem case4_C : ∀ t : Fin cfg4.N, t.val ≠ 0 → ¬t.val = 31 → ¬t.val = 1 → (2 ≤ t.val ∧ t.val ≤ 17) → ¬cond4_1 (grid4.coords t) ∧ ¬cond4_2 (grid4.coords t) ∧ cond4_3 (grid4.coords t) ∧ ¬cond4_4 (grid4.coords t) ∧ ¬cond4_5 (grid4.coords t) :=
  (by decide +kernel : ∀ t : Fin grid4.N, t.val ≠ 0 → ¬t.val = 31 → ¬t.val = 1 → (2 ≤ t.val ∧ t.val ≤ 17) → ¬cond4_1 (grid4.coords t) ∧ ¬cond4_2 (grid4.coords t) ∧ cond4_3 (grid4.coords t) ∧ ¬cond4_4 (grid4.coords t) ∧ ¬cond4_5 (grid4.coords t))
theorem case4_D : ∀ t : Fin cfg4.N, t.val ≠ 0 → ¬t.val = 31 → ¬t.val = 1 → ¬(2 ≤ t.val ∧ t.val ≤ 17) → ¬cond4_1 (grid4.coords t) ∧ ¬cond4_2 (grid4.coords t) ∧ ¬cond4_3 (grid4.coords t) ∧ cond4_4 (grid4.coords t) ∧ ¬cond4_5 (grid4.coords t) :=
  (by decide +kernel : ∀ t : Fin grid4.N, t.val ≠ 0 → ¬t.val = 31 → ¬t.val = 1 → ¬(2 ≤ t.val ∧ t.val ≤ 17) → ¬cond4_1 (grid4.coords t) ∧ ¬cond4_2 (grid4.coords t) ∧ ¬cond4_3 (grid4.coords t) ∧ cond4_4 (grid4.coords t) ∧ ¬cond4_5 (grid4.coords t))

/-! ## The windows' blocks, the staging buffers and the accumulator -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev VO4 : View sig .tc .vmem S64x1024 .f32 := (Memref.whole cc4_stg10_0 : Memref sig .tc .vmem S64x1024 .f32).view
abbrev ms4_0 (t : Fin cfg4.N) : Memref sig .tc .vmem S64x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x512 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x512 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x512 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x512 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x1024 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S64x1024 .f32 := win4_10.stage (cfg4.slots t 10)
abbrev hs4_10 (t : Fin cfg4.N) : (ms4_10 t).IsWhole := hstage4_10 ((cfg4.slots t 10).cast nbuf4_10)
abbrev scM4 : Memref sig .tc .vmem S64x1024 .f32 := Memref.whole cc4_scratch0
abbrev VS4 : View sig .tc .vmem S64x1024 .f32 := scM4.view
/-- Every scoped buffer that is neither a staging buffer of this region nor its accumulator, at some contents. -/
abbrev restBut4 (c : Dev nD) : sProp 𝕄 := Pipeline.scopedRestBut (Ix := Unit) (Name := ℕ) (U := UR sig nD τ) (Lvl := ℕ) (Val := Elt F) spec4 c [cc4_scratch0]

/-- The class invariant with the accumulator taken out of the scoped rest. -/
theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-! ## Where the windows are idle -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel
theorem live4_5 : ∀ t : Fin cfg4.N, cfg4.idle 5 (grid4.coords t) = false := by decide +kernel
theorem live4_6 : ∀ t : Fin cfg4.N, cfg4.idle 6 (grid4.coords t) = false := by decide +kernel
theorem live4_7 : ∀ t : Fin cfg4.N, cfg4.idle 7 (grid4.coords t) = false := by decide +kernel
theorem live4_8 : ∀ t : Fin cfg4.N, cfg4.idle 8 (grid4.coords t) = false := by decide +kernel
theorem live4_9 : ∀ t : Fin cfg4.N, cfg4.idle 9 (grid4.coords t) = false := by decide +kernel
theorem idle4_10 : ∀ t : Fin cfg4.N, t.val ≠ 31 → cfg4.idle 10 (grid4.coords t) = true := by decide +kernel
theorem noFlush4_10 : ∀ t : Fin cfg4.N, t.val ≠ 31 → (cfg4.win 10).flush t = false := by decide +kernel
theorem live4_10 : ∀ t : Fin cfg4.N, t.val = 31 → cfg4.idle 10 (grid4.coords t) = false := by decide +kernel

theorem live4_0_all : ∀ i, cfg4.idle 0 i = false := fun _ => rfl
theorem live4_1_all : ∀ i, cfg4.idle 1 i = false := fun _ => rfl
theorem live4_2_all : ∀ i, cfg4.idle 2 i = false := fun _ => rfl
theorem live4_3_all : ∀ i, cfg4.idle 3 i = false := fun _ => rfl
theorem live4_4_all : ∀ i, cfg4.idle 4 i = false := fun _ => rfl
theorem live4_5_all : ∀ i, cfg4.idle 5 i = false := fun _ => rfl
theorem live4_6_all : ∀ i, cfg4.idle 6 i = false := fun _ => rfl
theorem live4_7_all : ∀ i, cfg4.idle 7 i = false := fun _ => rfl
theorem live4_8_all : ∀ i, cfg4.idle 8 i = false := fun _ => rfl
theorem live4_9_all : ∀ i, cfg4.idle 9 i = false := fun _ => rfl

/-! ## What each case leaves in the accumulator (and, at the last point, in the output's buffer) -/

theorem scover4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout4_A (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS4.read (Elt F) (VS4.writes (Elt F) VS4.junk (kernelRun4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out4_Z (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO4.read (Elt F) (VO4.writes (Elt F) VO4.junk (kernelRun4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_B (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_C (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout4_D (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS4.read (Elt F) (VS4.writes (Elt F) VS4.junk (kernelRun4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut4 : Vec F S64x1024 .f32 := VO4.read (Elt F) (VO4.writes (Elt F) VO4.junk [])

/-! ## The accumulation, point by point -/

/-- After the body at position `n`: (the output's staging buffer, the accumulator). -/
def outsAt4 (c : Dev nD) : (n : ℕ) → n < cfg4.N → Vec F S64x1024 .f32 × Vec F S64x1024 .f32
  | 0, hn => (idleOut4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) scM4 (Memref.isWhole_whole _) ((case4_A ⟨0, hn⟩ rfl).1) ((case4_A ⟨0, hn⟩ rfl).2.1) ((case4_A ⟨0, hn⟩ rfl).2.2.1) ((case4_A ⟨0, hn⟩ rfl).2.2.2.1) ((case4_A ⟨0, hn⟩ rfl).2.2.2.2) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩) (iblk4 V c 9 ⟨0, hn⟩))
  | n + 1, hn =>
    if h0 : n + 1 = 31 then
      (out4_Z c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_Z ⟨n + 1, hn⟩ (Nat.succ_ne_zero n) h0).1) ((case4_Z ⟨n + 1, hn⟩ (Nat.succ_ne_zero n) h0).2.1) ((case4_Z ⟨n + 1, hn⟩ (Nat.succ_ne_zero n) h0).2.2.1) ((case4_Z ⟨n + 1, hn⟩ (Nat.succ_ne_zero n) h0).2.2.2.1) ((case4_Z ⟨n + 1, hn⟩ (Nat.succ_ne_zero n) h0).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2, sout4_Z c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_Z ⟨n + 1, hn⟩ (Nat.succ_ne_zero n) h0).1) ((case4_Z ⟨n + 1, hn⟩ (Nat.succ_ne_zero n) h0).2.1) ((case4_Z ⟨n + 1, hn⟩ (Nat.succ_ne_zero n) h0).2.2.1) ((case4_Z ⟨n + 1, hn⟩ (Nat.succ_ne_zero n) h0).2.2.2.1) ((case4_Z ⟨n + 1, hn⟩ (Nat.succ_ne_zero n) h0).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
    else
      if h1 : n + 1 = 1 then
        (idleOut4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_B ⟨n + 1, hn⟩ (Nat.succ_ne_zero n) h0 h1).1) ((case4_B ⟨n + 1, hn⟩ (Nat.succ_ne_zero n) h0 h1).2.1) ((case4_B ⟨n + 1, hn⟩ (Nat.succ_ne_zero n) h0 h1).2.2.1) ((case4_B ⟨n + 1, hn⟩ (Nat.succ_ne_zero n) h0 h1).2.2.2.1) ((case4_B ⟨n + 1, hn⟩ (Nat.succ_ne_zero n) h0 h1).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
      else
        if h2 : (2 ≤ n + 1 ∧ n + 1 ≤ 17) then
          (idleOut4, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_C ⟨n + 1, hn⟩ (Nat.succ_ne_zero n) h0 h1 h2).1) ((case4_C ⟨n + 1, hn⟩ (Nat.succ_ne_zero n) h0 h1 h2).2.1) ((case4_C ⟨n + 1, hn⟩ (Nat.succ_ne_zero n) h0 h1 h2).2.2.1) ((case4_C ⟨n + 1, hn⟩ (Nat.succ_ne_zero n) h0 h1 h2).2.2.2.1) ((case4_C ⟨n + 1, hn⟩ (Nat.succ_ne_zero n) h0 h1 h2).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)
        else
          (idleOut4, sout4_D c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) scM4 (Memref.isWhole_whole _) ((case4_D ⟨n + 1, hn⟩ (Nat.succ_ne_zero n) h0 h1 h2).1) ((case4_D ⟨n + 1, hn⟩ (Nat.succ_ne_zero n) h0 h1 h2).2.1) ((case4_D ⟨n + 1, hn⟩ (Nat.succ_ne_zero n) h0 h1 h2).2.2.1) ((case4_D ⟨n + 1, hn⟩ (Nat.succ_ne_zero n) h0 h1 h2).2.2.2.1) ((case4_D ⟨n + 1, hn⟩ (Nat.succ_ne_zero n) h0 h1 h2).2.2.2.2) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (iblk4 V c 9 ⟨n + 1, hn⟩) (outsAt4 c n (Nat.lt_of_succ_lt hn)).2)

theorem outsAt4_A (c : Dev nD) (t : Fin cfg4.N) (hz : t.val = 0) :
    outsAt4 V c t.val t.isLt = (idleOut4, sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_A t hz).1) ((case4_A t hz).2.1) ((case4_A t hz).2.2.1) ((case4_A t hz).2.2.2.1) ((case4_A t hz).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)) := by
  obtain ⟨n, hn⟩ := t
  cases n with
  | zero => exact rfl
  | succ n => exact absurd hz (Nat.succ_ne_zero n)

theorem outsAt4_Z (c : Dev nD) (t : Fin cfg4.N) (hz : t.val ≠ 0) (h0 : t.val = 31) :
    outsAt4 V c t.val t.isLt = (out4_Z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2, sout4_Z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_pos h0).trans rfl

theorem outsAt4_B (c : Dev nD) (t : Fin cfg4.N) (hz : t.val ≠ 0) (h0 : ¬t.val = 31) (h1 : t.val = 1) :
    outsAt4 V c t.val t.isLt = (idleOut4, sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_B t hz h0 h1).1) ((case4_B t hz h0 h1).2.1) ((case4_B t hz h0 h1).2.2.1) ((case4_B t hz h0 h1).2.2.2.1) ((case4_B t hz h0 h1).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt4_C (c : Dev nD) (t : Fin cfg4.N) (hz : t.val ≠ 0) (h0 : ¬t.val = 31) (h1 : ¬t.val = 1) (h2 : (2 ≤ t.val ∧ t.val ≤ 17)) :
    outsAt4 V c t.val t.isLt = (idleOut4, sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_C t hz h0 h1 h2).1) ((case4_C t hz h0 h1 h2).2.1) ((case4_C t hz h0 h1 h2).2.2.1) ((case4_C t hz h0 h1 h2).2.2.2.1) ((case4_C t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt4_D (c : Dev nD) (t : Fin cfg4.N) (hz : t.val ≠ 0) (h0 : ¬t.val = 31) (h1 : ¬t.val = 1) (h2 : ¬(2 ≤ t.val ∧ t.val ≤ 17)) :
    outsAt4 V c t.val t.isLt = (idleOut4, sout4_D c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_D t hz h0 h1 h2).1) ((case4_D t hz h0 h1 h2).2.1) ((case4_D t hz h0 h1 h2).2.2.1) ((case4_D t hz h0 h1 h2).2.2.2.1) ((case4_D t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ restBut4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ restBut4 c) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (live4_0_all) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (live4_1_all) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (live4_2_all) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (live4_3_all) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (live4_4_all) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (live4_5_all) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (live4_6_all) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (live4_7_all) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (t : Fin cfg4.N) (d) : (dat4 V c).before 8 t d = iblk4 V c 8 t :=
  ((dat4 V c).before_in_eq_fetched 8 rfl (live4_8_all) (fun _ _ _ => rfl) (fun t => by rw [after4_8]; unfold Dat.blockOf iblk4; rw [A_eq4]; try rfl) t d).trans
    (by unfold Dat.fetched Dat.blockOf iblk4; rw [A_eq4]; try rfl)
theorem before4_9 (c : Dev nD) (t : Fin cfg4.N) (d) : (dat4 V c).before 9 t d = iblk4 V c 9 t :=
  ((dat4 V c).before_in_eq_fetched 9 rfl (live4_9_all) (fun _ _ _ => rfl) (fun t => by rw [after4_9]; unfold Dat.blockOf iblk4; rw [A_eq4]; try rfl) t d).trans
    (by unfold Dat.fetched Dat.blockOf iblk4; rw [A_eq4]; try rfl)

theorem leaves4_0 (c : Dev nD) (t : Fin cfg4.N) : (dat4 V c).leavesExact 0 t = owns (c : Thread nD τ) (ms4_0 t) fullShare (iblk4 V c 0 t) := by
  unfold Dat.leavesExact; rw [live4_0 t, after4_0]
theorem leaves4_1 (c : Dev nD) (t : Fin cfg4.N) : (dat4 V c).leavesExact 1 t = owns (c : Thread nD τ) (ms4_1 t) fullShare (iblk4 V c 1 t) := by
  unfold Dat.leavesExact; rw [live4_1 t, after4_1]
theorem leaves4_2 (c : Dev nD) (t : Fin cfg4.N) : (dat4 V c).leavesExact 2 t = owns (c : Thread nD τ) (ms4_2 t) fullShare (iblk4 V c 2 t) := by
  unfold Dat.leavesExact; rw [live4_2 t, after4_2]
theorem leaves4_3 (c : Dev nD) (t : Fin cfg4.N) : (dat4 V c).leavesExact 3 t = owns (c : Thread nD τ) (ms4_3 t) fullShare (iblk4 V c 3 t) := by
  unfold Dat.leavesExact; rw [live4_3 t, after4_3]
theorem leaves4_4 (c : Dev nD) (t : Fin cfg4.N) : (dat4 V c).leavesExact 4 t = owns (c : Thread nD τ) (ms4_4 t) fullShare (iblk4 V c 4 t) := by
  unfold Dat.leavesExact; rw [live4_4 t, after4_4]
theorem leaves4_5 (c : Dev nD) (t : Fin cfg4.N) : (dat4 V c).leavesExact 5 t = owns (c : Thread nD τ) (ms4_5 t) fullShare (iblk4 V c 5 t) := by
  unfold Dat.leavesExact; rw [live4_5 t, after4_5]
theorem leaves4_6 (c : Dev nD) (t : Fin cfg4.N) : (dat4 V c).leavesExact 6 t = owns (c : Thread nD τ) (ms4_6 t) fullShare (iblk4 V c 6 t) := by
  unfold Dat.leavesExact; rw [live4_6 t, after4_6]
theorem leaves4_7 (c : Dev nD) (t : Fin cfg4.N) : (dat4 V c).leavesExact 7 t = owns (c : Thread nD τ) (ms4_7 t) fullShare (iblk4 V c 7 t) := by
  unfold Dat.leavesExact; rw [live4_7 t, after4_7]
theorem leaves4_8 (c : Dev nD) (t : Fin cfg4.N) : (dat4 V c).leavesExact 8 t = owns (c : Thread nD τ) (ms4_8 t) fullShare (iblk4 V c 8 t) := by
  unfold Dat.leavesExact; rw [live4_8 t, after4_8]
theorem leaves4_9 (c : Dev nD) (t : Fin cfg4.N) : (dat4 V c).leavesExact 9 t = owns (c : Thread nD τ) (ms4_9 t) fullShare (iblk4 V c 9 t) := by
  unfold Dat.leavesExact; rw [live4_9 t, after4_9]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t)

set_option maxHeartbeats 8000000 in
/-- The body at any point: the case the point is in decides the branches; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6, leaves4_7, leaves4_8, leaves4_9]
  have hN : t.val < 32 := lt_of_lt_of_eq t.isLt (show cfg4.N = 32 from N_4)
  by_cases hz : t.val = 0
  · have hne : t.val ≠ 31 := by omega
    rw [Dat.leavesExact_idle (dat4 V c) 10 t (idle4_10 t hne) (noFlush4_10 t hne)]
    rw [outsAt4_A V c t hz]
    unfold sout4_A; (try dsimp only)
    rw [PhiS4_castSucc V c t, PhiS4_zero V c _ _ hz, PhiA4_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun4_A c (grid4.coords t) _ _ _ _ _ _ _ _ _ _ _ _ _ _ _ _ _ _ _ _ _ _ _ _ ((case4_A t hz).1) ((case4_A t hz).2.1) ((case4_A t hz).2.2.1) ((case4_A t hz).2.2.2.1) ((case4_A t hz).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover4_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat4 V c).leavesExact 10 t = owns (c : Thread nD τ) (ms4_10 t) fullShare ((dat4 V c).after 10 t) from by
        unfold Dat.leavesExact; rw [live4_10 t hlast], after4_10]
      rw [outsAt4_Z V c t hz h0]
      unfold out4_Z sout4_Z; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun4_Z c (grid4.coords t) _ _ _ _ _ _ _ _ _ _ _ _ _ _ _ _ _ _ _ _ _ _ _ _ ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover4_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover4_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat4 V c) 10 t (idle4_10 t hne) (noFlush4_10 t hne)]
        rw [outsAt4_B V c t hz h0 h1]
        unfold sout4_B; (try dsimp only)
        rw [PhiS4_castSucc V c t, PhiS4_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun4_B c (grid4.coords t) _ _ _ _ _ _ _ _ _ _ _ _ _ _ _ _ _ _ _ _ _ _ _ _ ((case4_B t hz h0 h1).1) ((case4_B t hz h0 h1).2.1) ((case4_B t hz h0 h1).2.2.1) ((case4_B t hz h0 h1).2.2.2.1) ((case4_B t hz h0 h1).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover4_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat4 V c) 10 t (idle4_10 t hne) (noFlush4_10 t hne)]
          rw [outsAt4_C V c t hz h0 h1 h2]
          unfold sout4_C; (try dsimp only)
          rw [PhiS4_castSucc V c t, PhiS4_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun4_C c (grid4.coords t) _ _ _ _ _ _ _ _ _ _ _ _ _ _ _ _ _ _ _ _ _ _ _ _ ((case4_C t hz h0 h1 h2).1) ((case4_C t hz h0 h1 h2).2.1) ((case4_C t hz h0 h1 h2).2.2.1) ((case4_C t hz h0 h1 h2).2.2.2.1) ((case4_C t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover4_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat4 V c) 10 t (idle4_10 t hne) (noFlush4_10 t hne)]
          rw [outsAt4_D V c t hz h0 h1 h2]
          unfold sout4_D; (try dsimp only)
          rw [PhiS4_castSucc V c t, PhiS4_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun4_D c (grid4.coords t) _ _ _ _ _ _ _ _ _ _ _ _ _ _ _ _ _ _ _ _ _ _ _ _ ((case4_D t hz h0 h1 h2).1) ((case4_D t hz h0 h1 h2).2.1) ((case4_D t hz h0 h1 h2).2.2.1) ((case4_D t hz h0 h1 h2).2.2.2.1) ((case4_D t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover4_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 32 := N_4; omega), PhiA4_eq]
  iintro ⟨⟨HS, Hrest⟩, Hg⟩
  isplitl [HS Hrest]
  · isplitl [HS]
    · iexists _; iexact HS
    iexact Hrest
  iexact Hg

end Cert.KernelIdeal.Hand

end
-- ==== Proof.KI.R5Runs.lean ====
/- Region 5 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 5: the body's branch conditions as functions of the grid position -/

/-- "first point": the accumulator is reset. -/
abbrev cond5_1 (i : grid5.Coords) : Prop := (Scalar.cmpi .ne (Scalar.extui (Scalar.cmpi .eq (BitVec.ofNat 32 (i 0).val) 0#32)) 0#32) = 1#1
/-- term 0's K-tiles: points 0 to 1. -/
abbrev cond5_2 (i : grid5.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond5_3 (i : grid5.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond5_4 (i : grid5.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond5_5 (i : grid5.Coords) : Prop := k5_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc5_kernel_eq_skeleton]; unfold cc5_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.KernelIdeal.Hand

end
-- ==== Proof.KI.R5Frame.lean ====
/- Region 5: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: where each case sits on the grid -/
theorem case5_A : ∀ t : Fin cfg5.N, t.val = 0 → cond5_1 (grid5.coords t) ∧ cond5_2 (grid5.coords t) ∧ ¬cond5_3 (grid5.coords t) ∧ ¬cond5_4 (grid5.coords t) ∧ ¬cond5_5 (grid5.coords t) :=
  (by decide +kernel : ∀ t : Fin grid5.N, t.val = 0 → cond5_1 (grid5.coords t) ∧ cond5_2 (grid5.coords t) ∧ ¬cond5_3 (grid5.coords t) ∧ ¬cond5_4 (grid5.coords t) ∧ ¬cond5_5 (grid5.coords t))
theorem case5_Z : ∀ t : Fin cfg5.N, t.val ≠ 0 → t.val = 31 → ¬cond5_1 (grid5.coords t) ∧ ¬cond5_2 (grid5.coords t) ∧ ¬cond5_3 (grid5.coords t) ∧ cond5_4 (grid5.coords t) ∧ cond5_5 (grid5.coords t) :=
  (by decide +kernel : ∀ t : Fin grid5.N, t.val ≠ 0 → t.val = 31 → ¬cond5_1 (grid5.coords t) ∧ ¬cond5_2 (grid5.coords t) ∧ ¬cond5_3 (grid5.coords t) ∧ cond5_4 (grid5.coords t) ∧ cond5_5 (grid5.coords t))
theorem case5_B : ∀ t : Fin cfg5.N, t.val ≠ 0 → ¬t.val = 31 → t.val = 1 → ¬cond5_1 (grid5.coords t) ∧ cond5_2 (grid5.coords t) ∧ ¬cond5_3 (grid5.coords t) ∧ ¬cond5_4 (grid5.coords t) ∧ ¬cond5_5 (grid5.coords t) :=
  (by decide +kernel : ∀ t : Fin grid5.N, t.val ≠ 0 → ¬t.val = 31 → t.val = 1 → ¬cond5_1 (grid5.coords t) ∧ cond5_2 (grid5.coords t) ∧ ¬cond5_3 (grid5.coords t) ∧ ¬cond5_4 (grid5.coords t) ∧ ¬cond5_5 (grid5.coords t))
theorem case5_C : ∀ t : Fin cfg5.N, t.val ≠ 0 → ¬t.val = 31 → ¬t.val = 1 → (2 ≤ t.val ∧ t.val ≤ 17) → ¬cond5_1 (grid5.coords t) ∧ ¬cond5_2 (grid5.coords t) ∧ cond5_3 (grid5.coords t) ∧ ¬cond5_4 (grid5.coords t) ∧ ¬cond5_5 (grid5.coords t) :=
  (by decide +kernel : ∀ t : Fin grid5.N, t.val ≠ 0 → ¬t.val = 31 → ¬t.val = 1 → (2 ≤ t.val ∧ t.val ≤ 17) → ¬cond5_1 (grid5.coords t) ∧ ¬cond5_2 (grid5.coords t) ∧ cond5_3 (grid5.coords t) ∧ ¬cond5_4 (grid5.coords t) ∧ ¬cond5_5 (grid5.coords t))
theorem case5_D : ∀ t : Fin cfg5.N, t.val ≠ 0 → ¬t.val = 31 → ¬t.val = 1 → ¬(2 ≤ t.val ∧ t.val ≤ 17) → ¬cond5_1 (grid5.coords t) ∧ ¬cond5_2 (grid5.coords t) ∧ ¬cond5_3 (grid5.coords t) ∧ cond5_4 (grid5.coords t) ∧ ¬cond5_5 (grid5.coords t) :=
  (by decide +kernel : ∀ t : Fin grid5.N, t.val ≠ 0 → ¬t.val = 31 → ¬t.val = 1 → ¬(2 ≤ t.val ∧ t.val ≤ 17) → ¬cond5_1 (grid5.coords t) ∧ ¬cond5_2 (grid5.coords t) ∧ ¬cond5_3 (grid5.coords t) ∧ cond5_4 (grid5.coords t) ∧ ¬cond5_5 (grid5.coords t))

/-! ## The windows' blocks, the staging buffers and the accumulator -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev VO5 : View sig .tc .vmem S64x1024 .f32 := (Memref.whole cc5_stg10_0 : Memref sig .tc .vmem S64x1024 .f32).view
abbrev ms5_0 (t : Fin cfg5.N) : Memref sig .tc .vmem S64x512 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x512 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x512 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S64x512 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1024x512 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1024x512 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x1024 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S64x1024 .f32 := win5_10.stage (cfg5.slots t 10)
abbrev hs5_10 (t : Fin cfg5.N) : (ms5_10 t).IsWhole := hstage5_10 ((cfg5.slots t 10).cast nbuf5_10)
abbrev scM5 : Memref sig .tc .vmem S64x1024 .f32 := Memref.whole cc5_scratch0
abbrev VS5 : View sig .tc .vmem S64x1024 .f32 := scM5.view
/-- Every scoped buffer that is neither a staging buffer of this region nor its accumulator, at some contents. -/
abbrev restBut5 (c : Dev nD) : sProp 𝕄 := Pipeline.scopedRestBut (Ix := Unit) (Name := ℕ) (U := UR sig nD τ) (Lvl := ℕ) (Val := Elt F) spec5 c [cc5_scratch0]

/-- The class invariant with the accumulator taken out of the scoped rest. -/
theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-! ## Where the windows are idle -/
theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem live5_3 : ∀ t : Fin cfg5.N, cfg5.idle 3 (grid5.coords t) = false := by decide +kernel
theorem live5_4 : ∀ t : Fin cfg5.N, cfg5.idle 4 (grid5.coords t) = false := by decide +kernel
theorem live5_5 : ∀ t : Fin cfg5.N, cfg5.idle 5 (grid5.coords t) = false := by decide +kernel
theorem live5_6 : ∀ t : Fin cfg5.N, cfg5.idle 6 (grid5.coords t) = false := by decide +kernel
theorem live5_7 : ∀ t : Fin cfg5.N, cfg5.idle 7 (grid5.coords t) = false := by decide +kernel
theorem live5_8 : ∀ t : Fin cfg5.N, cfg5.idle 8 (grid5.coords t) = false := by decide +kernel
theorem live5_9 : ∀ t : Fin cfg5.N, cfg5.idle 9 (grid5.coords t) = false := by decide +kernel
theorem idle5_10 : ∀ t : Fin cfg5.N, t.val ≠ 31 → cfg5.idle 10 (grid5.coords t) = true := by decide +kernel
theorem noFlush5_10 : ∀ t : Fin cfg5.N, t.val ≠ 31 → (cfg5.win 10).flush t = false := by decide +kernel
theorem live5_10 : ∀ t : Fin cfg5.N, t.val = 31 → cfg5.idle 10 (grid5.coords t) = false := by decide +kernel

theorem live5_0_all : ∀ i, cfg5.idle 0 i = false := fun _ => rfl
theorem live5_1_all : ∀ i, cfg5.idle 1 i = false := fun _ => rfl
theorem live5_2_all : ∀ i, cfg5.idle 2 i = false := fun _ => rfl
theorem live5_3_all : ∀ i, cfg5.idle 3 i = false := fun _ => rfl
theorem live5_4_all : ∀ i, cfg5.idle 4 i = false := fun _ => rfl
theorem live5_5_all : ∀ i, cfg5.idle 5 i = false := fun _ => rfl
theorem live5_6_all : ∀ i, cfg5.idle 6 i = false := fun _ => rfl
theorem live5_7_all : ∀ i, cfg5.idle 7 i = false := fun _ => rfl
theorem live5_8_all : ∀ i, cfg5.idle 8 i = false := fun _ => rfl
theorem live5_9_all : ∀ i, cfg5.idle 9 i = false := fun _ => rfl

/-! ## What each case leaves in the accumulator (and, at the last point, in the output's buffer) -/

theorem scover5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout5_A (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS5.read (Elt F) (VS5.writes (Elt F) VS5.junk (kernelRun5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out5_Z (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO5.read (Elt F) (VO5.writes (Elt F) VO5.junk (kernelRun5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_B (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_C (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout5_D (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS5.read (Elt F) (VS5.writes (Elt F) VS5.junk (kernelRun5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut5 : Vec F S64x1024 .f32 := VO5.read (Elt F) (VO5.writes (Elt F) VO5.junk [])

/-! ## The accumulation, point by point -/

/-- After the body at position `n`: (the output's staging buffer, the accumulator). -/
def outsAt5 (c : Dev nD) : (n : ℕ) → n < cfg5.N → Vec F S64x1024 .f32 × Vec F S64x1024 .f32
  | 0, hn => (idleOut5, sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) scM5 (Memref.isWhole_whole _) ((case5_A ⟨0, hn⟩ rfl).1) ((case5_A ⟨0, hn⟩ rfl).2.1) ((case5_A ⟨0, hn⟩ rfl).2.2.1) ((case5_A ⟨0, hn⟩ rfl).2.2.2.1) ((case5_A ⟨0, hn⟩ rfl).2.2.2.2) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩))
  | n + 1, hn =>
    if h0 : n + 1 = 31 then
      (out5_Z c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_Z ⟨n + 1, hn⟩ (Nat.succ_ne_zero n) h0).1) ((case5_Z ⟨n + 1, hn⟩ (Nat.succ_ne_zero n) h0).2.1) ((case5_Z ⟨n + 1, hn⟩ (Nat.succ_ne_zero n) h0).2.2.1) ((case5_Z ⟨n + 1, hn⟩ (Nat.succ_ne_zero n) h0).2.2.2.1) ((case5_Z ⟨n + 1, hn⟩ (Nat.succ_ne_zero n) h0).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2, sout5_Z c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_Z ⟨n + 1, hn⟩ (Nat.succ_ne_zero n) h0).1) ((case5_Z ⟨n + 1, hn⟩ (Nat.succ_ne_zero n) h0).2.1) ((case5_Z ⟨n + 1, hn⟩ (Nat.succ_ne_zero n) h0).2.2.1) ((case5_Z ⟨n + 1, hn⟩ (Nat.succ_ne_zero n) h0).2.2.2.1) ((case5_Z ⟨n + 1, hn⟩ (Nat.succ_ne_zero n) h0).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
    else
      if h1 : n + 1 = 1 then
        (idleOut5, sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_B ⟨n + 1, hn⟩ (Nat.succ_ne_zero n) h0 h1).1) ((case5_B ⟨n + 1, hn⟩ (Nat.succ_ne_zero n) h0 h1).2.1) ((case5_B ⟨n + 1, hn⟩ (Nat.succ_ne_zero n) h0 h1).2.2.1) ((case5_B ⟨n + 1, hn⟩ (Nat.succ_ne_zero n) h0 h1).2.2.2.1) ((case5_B ⟨n + 1, hn⟩ (Nat.succ_ne_zero n) h0 h1).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
      else
        if h2 : (2 ≤ n + 1 ∧ n + 1 ≤ 17) then
          (idleOut5, sout5_C c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_C ⟨n + 1, hn⟩ (Nat.succ_ne_zero n) h0 h1 h2).1) ((case5_C ⟨n + 1, hn⟩ (Nat.succ_ne_zero n) h0 h1 h2).2.1) ((case5_C ⟨n + 1, hn⟩ (Nat.succ_ne_zero n) h0 h1 h2).2.2.1) ((case5_C ⟨n + 1, hn⟩ (Nat.succ_ne_zero n) h0 h1 h2).2.2.2.1) ((case5_C ⟨n + 1, hn⟩ (Nat.succ_ne_zero n) h0 h1 h2).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)
        else
          (idleOut5, sout5_D c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) scM5 (Memref.isWhole_whole _) ((case5_D ⟨n + 1, hn⟩ (Nat.succ_ne_zero n) h0 h1 h2).1) ((case5_D ⟨n + 1, hn⟩ (Nat.succ_ne_zero n) h0 h1 h2).2.1) ((case5_D ⟨n + 1, hn⟩ (Nat.succ_ne_zero n) h0 h1 h2).2.2.1) ((case5_D ⟨n + 1, hn⟩ (Nat.succ_ne_zero n) h0 h1 h2).2.2.2.1) ((case5_D ⟨n + 1, hn⟩ (Nat.succ_ne_zero n) h0 h1 h2).2.2.2.2) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (outsAt5 c n (Nat.lt_of_succ_lt hn)).2)

theorem outsAt5_A (c : Dev nD) (t : Fin cfg5.N) (hz : t.val = 0) :
    outsAt5 V c t.val t.isLt = (idleOut5, sout5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_A t hz).1) ((case5_A t hz).2.1) ((case5_A t hz).2.2.1) ((case5_A t hz).2.2.2.1) ((case5_A t hz).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)) := by
  obtain ⟨n, hn⟩ := t
  cases n with
  | zero => exact rfl
  | succ n => exact absurd hz (Nat.succ_ne_zero n)

theorem outsAt5_Z (c : Dev nD) (t : Fin cfg5.N) (hz : t.val ≠ 0) (h0 : t.val = 31) :
    outsAt5 V c t.val t.isLt = (out5_Z c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2, sout5_Z c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_pos h0).trans rfl

theorem outsAt5_B (c : Dev nD) (t : Fin cfg5.N) (hz : t.val ≠ 0) (h0 : ¬t.val = 31) (h1 : t.val = 1) :
    outsAt5 V c t.val t.isLt = (idleOut5, sout5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_B t hz h0 h1).1) ((case5_B t hz h0 h1).2.1) ((case5_B t hz h0 h1).2.2.1) ((case5_B t hz h0 h1).2.2.2.1) ((case5_B t hz h0 h1).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt5_C (c : Dev nD) (t : Fin cfg5.N) (hz : t.val ≠ 0) (h0 : ¬t.val = 31) (h1 : ¬t.val = 1) (h2 : (2 ≤ t.val ∧ t.val ≤ 17)) :
    outsAt5 V c t.val t.isLt = (idleOut5, sout5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_C t hz h0 h1 h2).1) ((case5_C t hz h0 h1 h2).2.1) ((case5_C t hz h0 h1 h2).2.2.1) ((case5_C t hz h0 h1 h2).2.2.2.1) ((case5_C t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt5_D (c : Dev nD) (t : Fin cfg5.N) (hz : t.val ≠ 0) (h0 : ¬t.val = 31) (h1 : ¬t.val = 1) (h2 : ¬(2 ≤ t.val ∧ t.val ≤ 17)) :
    outsAt5 V c t.val t.isLt = (idleOut5, sout5_D c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_D t hz h0 h1 h2).1) ((case5_D t hz h0 h1 h2).2.1) ((case5_D t hz h0 h1 h2).2.2.1) ((case5_D t hz h0 h1 h2).2.2.2.1) ((case5_D t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ restBut5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ restBut5 c) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ restBut5 c) ∗ (∃ r, prngReg c r)) := by
  cases n with
  | zero => exact absurd rfl hz
  | succ n => rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (live5_0_all) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (live5_1_all) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (live5_2_all) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (live5_3_all) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (live5_4_all) (fun _ _ _ => rfl) (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (live5_5_all) (fun _ _ _ => rfl) (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (live5_6_all) (fun _ _ _ => rfl) (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (live5_7_all) (fun _ _ _ => rfl) (fun t => by rw [after5_7]; unfold Dat.blockOf iblk5; rw [A_eq5]; try rfl) t d).trans
    (by unfold Dat.fetched Dat.blockOf iblk5; rw [A_eq5]; try rfl)
theorem before5_8 (c : Dev nD) (t : Fin cfg5.N) (d) : (dat5 V c).before 8 t d = iblk5 V c 8 t :=
  ((dat5 V c).before_in_eq_fetched 8 rfl (live5_8_all) (fun _ _ _ => rfl) (fun t => by rw [after5_8]; unfold Dat.blockOf iblk5; rw [A_eq5]; try rfl) t d).trans
    (by unfold Dat.fetched Dat.blockOf iblk5; rw [A_eq5]; try rfl)
theorem before5_9 (c : Dev nD) (t : Fin cfg5.N) (d) : (dat5 V c).before 9 t d = iblk5 V c 9 t :=
  ((dat5 V c).before_in_eq_fetched 9 rfl (live5_9_all) (fun _ _ _ => rfl) (fun t => by rw [after5_9]; unfold Dat.blockOf iblk5; rw [A_eq5]; try rfl) t d).trans
    (by unfold Dat.fetched Dat.blockOf iblk5; rw [A_eq5]; try rfl)

theorem leaves5_0 (c : Dev nD) (t : Fin cfg5.N) : (dat5 V c).leavesExact 0 t = owns (c : Thread nD τ) (ms5_0 t) fullShare (iblk5 V c 0 t) := by
  unfold Dat.leavesExact; rw [live5_0 t, after5_0]
theorem leaves5_1 (c : Dev nD) (t : Fin cfg5.N) : (dat5 V c).leavesExact 1 t = owns (c : Thread nD τ) (ms5_1 t) fullShare (iblk5 V c 1 t) := by
  unfold Dat.leavesExact; rw [live5_1 t, after5_1]
theorem leaves5_2 (c : Dev nD) (t : Fin cfg5.N) : (dat5 V c).leavesExact 2 t = owns (c : Thread nD τ) (ms5_2 t) fullShare (iblk5 V c 2 t) := by
  unfold Dat.leavesExact; rw [live5_2 t, after5_2]
theorem leaves5_3 (c : Dev nD) (t : Fin cfg5.N) : (dat5 V c).leavesExact 3 t = owns (c : Thread nD τ) (ms5_3 t) fullShare (iblk5 V c 3 t) := by
  unfold Dat.leavesExact; rw [live5_3 t, after5_3]
theorem leaves5_4 (c : Dev nD) (t : Fin cfg5.N) : (dat5 V c).leavesExact 4 t = owns (c : Thread nD τ) (ms5_4 t) fullShare (iblk5 V c 4 t) := by
  unfold Dat.leavesExact; rw [live5_4 t, after5_4]
theorem leaves5_5 (c : Dev nD) (t : Fin cfg5.N) : (dat5 V c).leavesExact 5 t = owns (c : Thread nD τ) (ms5_5 t) fullShare (iblk5 V c 5 t) := by
  unfold Dat.leavesExact; rw [live5_5 t, after5_5]
theorem leaves5_6 (c : Dev nD) (t : Fin cfg5.N) : (dat5 V c).leavesExact 6 t = owns (c : Thread nD τ) (ms5_6 t) fullShare (iblk5 V c 6 t) := by
  unfold Dat.leavesExact; rw [live5_6 t, after5_6]
theorem leaves5_7 (c : Dev nD) (t : Fin cfg5.N) : (dat5 V c).leavesExact 7 t = owns (c : Thread nD τ) (ms5_7 t) fullShare (iblk5 V c 7 t) := by
  unfold Dat.leavesExact; rw [live5_7 t, after5_7]
theorem leaves5_8 (c : Dev nD) (t : Fin cfg5.N) : (dat5 V c).leavesExact 8 t = owns (c : Thread nD τ) (ms5_8 t) fullShare (iblk5 V c 8 t) := by
  unfold Dat.leavesExact; rw [live5_8 t, after5_8]
theorem leaves5_9 (c : Dev nD) (t : Fin cfg5.N) : (dat5 V c).leavesExact 9 t = owns (c : Thread nD τ) (ms5_9 t) fullShare (iblk5 V c 9 t) := by
  unfold Dat.leavesExact; rw [live5_9 t, after5_9]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t)

set_option maxHeartbeats 8000000 in
/-- The body at any point: the case the point is in decides the branches; the invariant hands the body the accumulator at
    what the point before left (at anything at the first point) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5, leaves5_6, leaves5_7, leaves5_8, leaves5_9]
  have hN : t.val < 32 := lt_of_lt_of_eq t.isLt (show cfg5.N = 32 from N_5)
  by_cases hz : t.val = 0
  · have hne : t.val ≠ 31 := by omega
    rw [Dat.leavesExact_idle (dat5 V c) 10 t (idle5_10 t hne) (noFlush5_10 t hne)]
    rw [outsAt5_A V c t hz]
    unfold sout5_A; (try dsimp only)
    rw [PhiS5_castSucc V c t, PhiS5_zero V c _ _ hz, PhiA5_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun5_A c (grid5.coords t) _ _ _ _ _ _ _ _ _ _ _ _ _ _ _ _ _ _ _ _ _ _ _ _ ((case5_A t hz).1) ((case5_A t hz).2.1) ((case5_A t hz).2.2.1) ((case5_A t hz).2.2.2.1) ((case5_A t hz).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover5_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat5 V c).leavesExact 10 t = owns (c : Thread nD τ) (ms5_10 t) fullShare ((dat5 V c).after 10 t) from by
        unfold Dat.leavesExact; rw [live5_10 t hlast], after5_10]
      rw [outsAt5_Z V c t hz h0]
      unfold out5_Z sout5_Z; (try dsimp only)
      rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_Z c (grid5.coords t) _ _ _ _ _ _ _ _ _ _ _ _ _ _ _ _ _ _ _ _ _ _ _ _ ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover5_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat5 V c) 10 t (idle5_10 t hne) (noFlush5_10 t hne)]
        rw [outsAt5_B V c t hz h0 h1]
        unfold sout5_B; (try dsimp only)
        rw [PhiS5_castSucc V c t, PhiS5_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun5_B c (grid5.coords t) _ _ _ _ _ _ _ _ _ _ _ _ _ _ _ _ _ _ _ _ _ _ _ _ ((case5_B t hz h0 h1).1) ((case5_B t hz h0 h1).2.1) ((case5_B t hz h0 h1).2.2.1) ((case5_B t hz h0 h1).2.2.2.1) ((case5_B t hz h0 h1).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover5_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat5 V c) 10 t (idle5_10 t hne) (noFlush5_10 t hne)]
          rw [outsAt5_C V c t hz h0 h1 h2]
          unfold sout5_C; (try dsimp only)
          rw [PhiS5_castSucc V c t, PhiS5_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun5_C c (grid5.coords t) _ _ _ _ _ _ _ _ _ _ _ _ _ _ _ _ _ _ _ _ _ _ _ _ ((case5_C t hz h0 h1 h2).1) ((case5_C t hz h0 h1 h2).2.1) ((case5_C t hz h0 h1 h2).2.2.1) ((case5_C t hz h0 h1 h2).2.2.2.1) ((case5_C t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover5_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat5 V c) 10 t (idle5_10 t hne) (noFlush5_10 t hne)]
          rw [outsAt5_D V c t hz h0 h1 h2]
          unfold sout5_D; (try dsimp only)
          rw [PhiS5_castSucc V c t, PhiS5_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun5_D c (grid5.coords t) _ _ _ _ _ _ _ _ _ _ _ _ _ _ _ _ _ _ _ _ _ _ _ _ ((case5_D t hz h0 h1 h2).1) ((case5_D t hz h0 h1 h2).2.1) ((case5_D t hz h0 h1 h2).2.2.1) ((case5_D t hz h0 h1 h2).2.2.2.1) ((case5_D t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover5_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 32 := N_5; omega), PhiA5_eq]
  iintro ⟨⟨HS, Hrest⟩, Hg⟩
  isplitl [HS Hrest]
  · isplitl [HS]
    · iexists _; iexact HS
    iexact Hrest
  iexact Hg

end Cert.KernelIdeal.Hand

end
-- ==== Proof.KI.R6Runs.lean ====
/- Region 6 (3 masked-matmul term(s), K-tiles at points 0..1, 2..17, 18..31; accumulated in a scratch buffer; bias and sigmoid at the last point):
   the body's branch conditions and its run in each control case the 32 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 6: the body's branch conditions as functions of the grid position -/

/-- "first point": the accumulator is reset. -/
abbrev cond6_1 (i : grid6.Coords) : Prop := (Scalar.cmpi .ne (Scalar.extui (Scalar.cmpi .eq (BitVec.ofNat 32 (i 0).val) 0#32)) 0#32) = 1#1
/-- term 0's K-tiles: points 0 to 1. -/
abbrev cond6_2 (i : grid6.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 17. -/
abbrev cond6_3 (i : grid6.Coords) : Prop := (Scalar.cmpi .ne (Scalar.extui (Scalar.andi (Scalar.cmpi .sge (BitVec.ofNat 32 (i 0).val) 2#32) (Scalar.cmpi .slt (BitVec.ofNat 32 (i 0).val) 18#32))) 0#32) = 1#1
/-- term 2's K-tiles: points 18 to 31. -/
abbrev cond6_4 (i : grid6.Coords) : Prop := (Scalar.cmpi .ne (Scalar.extui (Scalar.andi (Scalar.cmpi .sge (BitVec.ofNat 32 (i 0).val) 18#32) (Scalar.cmpi .slt (BitVec.ofNat 32 (i 0).val) 32#32))) 0#32) = 1#1
/-- "last point": bias, sigmoid, store. -/
abbrev cond6_5 (i : grid6.Coords) : Prop := k6_cond5 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f LO) ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

set_option maxHeartbeats 4000000 in
/-- The body at a point of case D: on whole staging buffers holding the input blocks, the output's buffer (not stored at these points) handed back as it came, and the
    accumulator at what the point before left, it runs to the end leaving the inputs as they were and the accumulator (and a stored
    output) with the listed pieces written. -/
noncomputable def kernelRun6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ owns (c : Thread nD τ) arg12 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare xi ∗ (∃ f, arg12.view.loc (c : Thread nD τ) ↦[arg12.view.set]{fullShare} arg12.view.writes (Elt F) f LS)) -∗ K ⟨⟩))
          ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12) K } := by
  refine ⟨[], ?_, fun xi E K => ?run⟩
  case run =>
    simp only [cc6_kernel_eq_skeleton]; unfold cc6_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hfO; obtain rfl := harg12.eq_unread hfS
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HO]
    · iexists _; isplitr; · ipureintro; exact harg11.read_unread _
      iexact HO
    iexists _; iexact HS

end Cert.KernelIdeal.Hand

end
-- ==== Proof.KI.R6Frame.lean ====
/- Region 6: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 6: where each case sits on the grid -/
theorem case6_A : ∀ t : Fin cfg6.N, t.val = 0 → cond6_1 (grid6.coords t) ∧ cond6_2 (grid6.coords t) ∧ ¬cond6_3 (grid6.coords t) ∧ ¬cond6_4 (grid6.coords t) ∧ ¬cond6_5 (grid6.coords t) :=
  (by decide +kernel : ∀ t : Fin grid6.N, t.val = 0 → cond6_1 (grid6.coords t) ∧ cond6_2 (grid6.coords t) ∧ ¬cond6_3 (grid6.coords t) ∧ ¬cond6_4 (grid6.coords t) ∧ ¬cond6_5 (grid6.coords t))
theorem case6_Z : ∀ t : Fin cfg6.N, t.val ≠ 0 → t.val = 31 → ¬cond6_1 (grid6.coords t) ∧ ¬cond6_2 (grid6.coords t) ∧ ¬cond6_3 (grid6.coords t) ∧ cond6_4 (grid6.coords t) ∧ cond6_5 (grid6.coords t) :=
  (by decide +kernel : ∀ t : Fin grid6.N, t.val ≠ 0 → t.val = 31 → ¬cond6_1 (grid6.coords t) ∧ ¬cond6_2 (grid6.coords t) ∧ ¬cond6_3 (grid6.coords t) ∧ cond6_4 (grid6.coords t) ∧ cond6_5 (grid6.coords t))
theorem case6_B : ∀ t : Fin cfg6.N, t.val ≠ 0 → ¬t.val = 31 → t.val = 1 → ¬cond6_1 (grid6.coords t) ∧ cond6_2 (grid6.coords t) ∧ ¬cond6_3 (grid6.coords t) ∧ ¬cond6_4 (grid6.coords t) ∧ ¬cond6_5 (grid6.coords t) :=
  (by decide +kernel : ∀ t : Fin grid6.N, t.val ≠ 0 → ¬t.val = 31 → t.val = 1 → ¬cond6_1 (grid6.coords t) ∧ cond6_2 (grid6.coords t) ∧ ¬cond6_3 (grid6.coords t) ∧ ¬cond6_4 (grid6.coords t) ∧ ¬cond6_5 (grid6.coords t))
theorem case6_C : ∀ t : Fin cfg6.N, t.val ≠ 0 → ¬t.val = 31 → ¬t.val = 1 → (2 ≤ t.val ∧ t.val ≤ 17) → ¬cond6_1 (grid6.coords t) ∧ ¬cond6_2 (grid6.coords t) ∧ cond6_3 (grid6.coords t) ∧ ¬cond6_4 (grid6.coords t) ∧ ¬cond6_5 (grid6.coords t) :=
  (by decide +kernel : ∀ t : Fin grid6.N, t.val ≠ 0 → ¬t.val = 31 → ¬t.val = 1 → (2 ≤ t.val ∧ t.val ≤ 17) → ¬cond6_1 (grid6.coords t) ∧ ¬cond6_2 (grid6.coords t) ∧ cond6_3 (grid6.coords t) ∧ ¬cond6_4 (grid6.coords t) ∧ ¬cond6_5 (grid6.coords t))
theorem case6_D : ∀ t : Fin cfg6.N, t.val ≠ 0 → ¬t.val = 31 → ¬t.val = 1 → ¬(2 ≤ t.val ∧ t.val ≤ 17) → ¬cond6_1 (grid6.coords t) ∧ ¬cond6_2 (grid6.coords t) ∧ ¬cond6_3 (grid6.coords t) ∧ cond6_4 (grid6.coords t) ∧ ¬cond6_5 (grid6.coords t) :=
  (by decide +kernel : ∀ t : Fin grid6.N, t.val ≠ 0 → ¬t.val = 31 → ¬t.val = 1 → ¬(2 ≤ t.val ∧ t.val ≤ 17) → ¬cond6_1 (grid6.coords t) ∧ ¬cond6_2 (grid6.coords t) ∧ ¬cond6_3 (grid6.coords t) ∧ cond6_4 (grid6.coords t) ∧ ¬cond6_5 (grid6.coords t))

/-! ## The windows' blocks, the staging buffers and the accumulator -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev VO6 : View sig .tc .vmem S64x1024 .f32 := (Memref.whole cc6_stg10_0 : Memref sig .tc .vmem S64x1024 .f32).view
abbrev ms6_0 (t : Fin cfg6.N) : Memref sig .tc .vmem S64x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S64x512 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1024x512 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1024x512 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x512 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1024x512 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1024x512 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1024 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S64x1024 .f32 := win6_10.stage (cfg6.slots t 10)
abbrev hs6_10 (t : Fin cfg6.N) : (ms6_10 t).IsWhole := hstage6_10 ((cfg6.slots t 10).cast nbuf6_10)
abbrev scM6 : Memref sig .tc .vmem S64x1024 .f32 := Memref.whole cc6_scratch0
abbrev VS6 : View sig .tc .vmem S64x1024 .f32 := scM6.view
/-- Every scoped buffer that is neither a staging buffer of this region nor its accumulator, at some contents. -/
abbrev restBut6 (c : Dev nD) : sProp 𝕄 := Pipeline.scopedRestBut (Ix := Unit) (Name := ℕ) (U := UR sig nD τ) (Lvl := ℕ) (Val := Elt F) spec6 c [cc6_scratch0]

/-- The class invariant with the accumulator taken out of the scoped rest. -/
theorem PhiA6_eq (c : Dev nD) :
    (Pipeline.ΦA spec6 c : sProp 𝕄)
      = iprop(iprop((∃ d, owns (c : Thread nD τ) scM6 fullShare d) ∗ restBut6 c) ∗ (∃ r, prngReg c r)) := by
  unfold Pipeline.ΦA; rw [scopedRest6_split]; simp only [scM6, owns_whole]; try rfl

/-! ## Where the windows are idle -/
theorem live6_0 : ∀ t : Fin cfg6.N, cfg6.idle 0 (grid6.coords t) = false := by decide +kernel
theorem live6_1 : ∀ t : Fin cfg6.N, cfg6.idle 1 (grid6.coords t) = false := by decide +kernel
theorem live6_2 : ∀ t : Fin cfg6.N, cfg6.idle 2 (grid6.coords t) = false := by decide +kernel
theorem live6_3 : ∀ t : Fin cfg6.N, cfg6.idle 3 (grid6.coords t) = false := by decide +kernel
theorem live6_4 : ∀ t : Fin cfg6.N, cfg6.idle 4 (grid6.coords t) = false := by decide +kernel
theorem live6_5 : ∀ t : Fin cfg6.N, cfg6.idle 5 (grid6.coords t) = false := by decide +kernel
theorem live6_6 : ∀ t : Fin cfg6.N, cfg6.idle 6 (grid6.coords t) = false := by decide +kernel
theorem live6_7 : ∀ t : Fin cfg6.N, cfg6.idle 7 (grid6.coords t) = false := by decide +kernel
theorem live6_8 : ∀ t : Fin cfg6.N, cfg6.idle 8 (grid6.coords t) = false := by decide +kernel
theorem live6_9 : ∀ t : Fin cfg6.N, cfg6.idle 9 (grid6.coords t) = false := by decide +kernel
theorem idle6_10 : ∀ t : Fin cfg6.N, t.val ≠ 31 → cfg6.idle 10 (grid6.coords t) = true := by decide +kernel
theorem noFlush6_10 : ∀ t : Fin cfg6.N, t.val ≠ 31 → (cfg6.win 10).flush t = false := by decide +kernel
theorem live6_10 : ∀ t : Fin cfg6.N, t.val = 31 → cfg6.idle 10 (grid6.coords t) = false := by decide +kernel

theorem live6_0_all : ∀ i, cfg6.idle 0 i = false := fun _ => rfl
theorem live6_1_all : ∀ i, cfg6.idle 1 i = false := fun _ => rfl
theorem live6_2_all : ∀ i, cfg6.idle 2 i = false := fun _ => rfl
theorem live6_3_all : ∀ i, cfg6.idle 3 i = false := fun _ => rfl
theorem live6_4_all : ∀ i, cfg6.idle 4 i = false := fun _ => rfl
theorem live6_5_all : ∀ i, cfg6.idle 5 i = false := fun _ => rfl
theorem live6_6_all : ∀ i, cfg6.idle 6 i = false := fun _ => rfl
theorem live6_7_all : ∀ i, cfg6.idle 7 i = false := fun _ => rfl
theorem live6_8_all : ∀ i, cfg6.idle 8 i = false := fun _ => rfl
theorem live6_9_all : ∀ i, cfg6.idle 9 i = false := fun _ => rfl

/-! ## What each case leaves in the accumulator (and, at the last point, in the output's buffer) -/

theorem scover6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (y : S64x1024.Idx) :
    ∃ pc ∈ (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1 S64x1024.size (by sl_kernel_rfl) y

def sout6_A (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) : Vec F S64x1024 .f32 :=
  VS6.read (Elt F) (VS6.writes (Elt F) VS6.junk (kernelRun6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10).2.1)

theorem scover6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem cover6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1, y ∈ pc.1.set :=
  View.cover_of_tiledL (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1 S64x1024.size (by sl_kernel_rfl) y

def out6_Z (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VO6.read (Elt F) (VO6.writes (Elt F) VO6.junk (kernelRun6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).1)

theorem scover6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_B (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_C (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

theorem scover6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) (y : S64x1024.Idx) :
    ∃ pc ∈ (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1, y ∈ pc.1.set :=
  View.cover_of_tiledL (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1 S64x1024.size (by sl_kernel_rfl) y

def sout6_D (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) : Vec F S64x1024 .f32 :=
  VS6.read (Elt F) (VS6.writes (Elt F) VS6.junk (kernelRun6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs).2.1)

/-- What the output's buffer is said to hold at a point that stores nothing into it: nothing consults it (the window is idle
    there and not written back). -/
def idleOut6 : Vec F S64x1024 .f32 := VO6.read (Elt F) (VO6.writes (Elt F) VO6.junk [])

/-! ## The accumulation, point by point -/

/-- After the body at position `n`: (the output's staging buffer, the accumulator). -/
def outsAt6 (c : Dev nD) : (n : ℕ) → n < cfg6.N → Vec F S64x1024 .f32 × Vec F S64x1024 .f32
  | 0, hn => (idleOut6, sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) (ms6_9 ⟨0, hn⟩) (hs6_9 ⟨0, hn⟩) (ms6_10 ⟨0, hn⟩) (hs6_10 ⟨0, hn⟩) scM6 (Memref.isWhole_whole _) ((case6_A ⟨0, hn⟩ rfl).1) ((case6_A ⟨0, hn⟩ rfl).2.1) ((case6_A ⟨0, hn⟩ rfl).2.2.1) ((case6_A ⟨0, hn⟩ rfl).2.2.2.1) ((case6_A ⟨0, hn⟩ rfl).2.2.2.2) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (iblk6 V c 6 ⟨0, hn⟩) (iblk6 V c 7 ⟨0, hn⟩) (iblk6 V c 8 ⟨0, hn⟩) (iblk6 V c 9 ⟨0, hn⟩))
  | n + 1, hn =>
    if h0 : n + 1 = 31 then
      (out6_Z c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_Z ⟨n + 1, hn⟩ (Nat.succ_ne_zero n) h0).1) ((case6_Z ⟨n + 1, hn⟩ (Nat.succ_ne_zero n) h0).2.1) ((case6_Z ⟨n + 1, hn⟩ (Nat.succ_ne_zero n) h0).2.2.1) ((case6_Z ⟨n + 1, hn⟩ (Nat.succ_ne_zero n) h0).2.2.2.1) ((case6_Z ⟨n + 1, hn⟩ (Nat.succ_ne_zero n) h0).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2, sout6_Z c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_Z ⟨n + 1, hn⟩ (Nat.succ_ne_zero n) h0).1) ((case6_Z ⟨n + 1, hn⟩ (Nat.succ_ne_zero n) h0).2.1) ((case6_Z ⟨n + 1, hn⟩ (Nat.succ_ne_zero n) h0).2.2.1) ((case6_Z ⟨n + 1, hn⟩ (Nat.succ_ne_zero n) h0).2.2.2.1) ((case6_Z ⟨n + 1, hn⟩ (Nat.succ_ne_zero n) h0).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
    else
      if h1 : n + 1 = 1 then
        (idleOut6, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_B ⟨n + 1, hn⟩ (Nat.succ_ne_zero n) h0 h1).1) ((case6_B ⟨n + 1, hn⟩ (Nat.succ_ne_zero n) h0 h1).2.1) ((case6_B ⟨n + 1, hn⟩ (Nat.succ_ne_zero n) h0 h1).2.2.1) ((case6_B ⟨n + 1, hn⟩ (Nat.succ_ne_zero n) h0 h1).2.2.2.1) ((case6_B ⟨n + 1, hn⟩ (Nat.succ_ne_zero n) h0 h1).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
      else
        if h2 : (2 ≤ n + 1 ∧ n + 1 ≤ 17) then
          (idleOut6, sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_C ⟨n + 1, hn⟩ (Nat.succ_ne_zero n) h0 h1 h2).1) ((case6_C ⟨n + 1, hn⟩ (Nat.succ_ne_zero n) h0 h1 h2).2.1) ((case6_C ⟨n + 1, hn⟩ (Nat.succ_ne_zero n) h0 h1 h2).2.2.1) ((case6_C ⟨n + 1, hn⟩ (Nat.succ_ne_zero n) h0 h1 h2).2.2.2.1) ((case6_C ⟨n + 1, hn⟩ (Nat.succ_ne_zero n) h0 h1 h2).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)
        else
          (idleOut6, sout6_D c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (ms6_9 ⟨n + 1, hn⟩) (hs6_9 ⟨n + 1, hn⟩) (ms6_10 ⟨n + 1, hn⟩) (hs6_10 ⟨n + 1, hn⟩) scM6 (Memref.isWhole_whole _) ((case6_D ⟨n + 1, hn⟩ (Nat.succ_ne_zero n) h0 h1 h2).1) ((case6_D ⟨n + 1, hn⟩ (Nat.succ_ne_zero n) h0 h1 h2).2.1) ((case6_D ⟨n + 1, hn⟩ (Nat.succ_ne_zero n) h0 h1 h2).2.2.1) ((case6_D ⟨n + 1, hn⟩ (Nat.succ_ne_zero n) h0 h1 h2).2.2.2.1) ((case6_D ⟨n + 1, hn⟩ (Nat.succ_ne_zero n) h0 h1 h2).2.2.2.2) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (iblk6 V c 6 ⟨n + 1, hn⟩) (iblk6 V c 7 ⟨n + 1, hn⟩) (iblk6 V c 8 ⟨n + 1, hn⟩) (iblk6 V c 9 ⟨n + 1, hn⟩) (outsAt6 c n (Nat.lt_of_succ_lt hn)).2)

theorem outsAt6_A (c : Dev nD) (t : Fin cfg6.N) (hz : t.val = 0) :
    outsAt6 V c t.val t.isLt = (idleOut6, sout6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_A t hz).1) ((case6_A t hz).2.1) ((case6_A t hz).2.2.1) ((case6_A t hz).2.2.2.1) ((case6_A t hz).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)) := by
  obtain ⟨n, hn⟩ := t
  cases n with
  | zero => exact rfl
  | succ n => exact absurd hz (Nat.succ_ne_zero n)

theorem outsAt6_Z (c : Dev nD) (t : Fin cfg6.N) (hz : t.val ≠ 0) (h0 : t.val = 31) :
    outsAt6 V c t.val t.isLt = (out6_Z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2, sout6_Z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_pos h0).trans rfl

theorem outsAt6_B (c : Dev nD) (t : Fin cfg6.N) (hz : t.val ≠ 0) (h0 : ¬t.val = 31) (h1 : t.val = 1) :
    outsAt6 V c t.val t.isLt = (idleOut6, sout6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_B t hz h0 h1).1) ((case6_B t hz h0 h1).2.1) ((case6_B t hz h0 h1).2.2.1) ((case6_B t hz h0 h1).2.2.2.1) ((case6_B t hz h0 h1).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt6_C (c : Dev nD) (t : Fin cfg6.N) (hz : t.val ≠ 0) (h0 : ¬t.val = 31) (h1 : ¬t.val = 1) (h2 : (2 ≤ t.val ∧ t.val ≤ 17)) :
    outsAt6 V c t.val t.isLt = (idleOut6, sout6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_C t hz h0 h1 h2).1) ((case6_C t hz h0 h1 h2).2.1) ((case6_C t hz h0 h1 h2).2.2.1) ((case6_C t hz h0 h1 h2).2.2.2.1) ((case6_C t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_pos h2).trans rfl))

theorem outsAt6_D (c : Dev nD) (t : Fin cfg6.N) (hz : t.val ≠ 0) (h0 : ¬t.val = 31) (h1 : ¬t.val = 1) (h2 : ¬(2 ≤ t.val ∧ t.val ≤ 17)) :
    outsAt6 V c t.val t.isLt = (idleOut6, sout6_D c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_D t hz h0 h1 h2).1) ((case6_D t hz h0 h1 h2).2.1) ((case6_D t hz h0 h1 h2).2.2.1) ((case6_D t hz h0 h1 h2).2.2.2.1) ((case6_D t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2) := by
  obtain ⟨n, hn⟩ := t
  cases n with
  | zero => exact absurd rfl hz
  | succ n => exact (dif_neg h0).trans ((dif_neg h1).trans ((dif_neg h2).trans (rfl)))

/-! ## The region's invariant: before the first point the class's; afterwards the accumulator at what the point before left -/

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ restBut6 c) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ restBut6 c) ∗ (∃ r, prngReg c r)) := by
  cases n with
  | zero => exact absurd rfl hz
  | succ n => rfl

/-! ## The proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (live6_0_all) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (live6_1_all) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (live6_2_all) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (live6_3_all) (fun _ _ _ => rfl) (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (live6_4_all) (fun _ _ _ => rfl) (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (live6_5_all) (fun _ _ _ => rfl) (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (live6_6_all) (fun _ _ _ => rfl) (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (live6_7_all) (fun _ _ _ => rfl) (fun t => by rw [after6_7]; unfold Dat.blockOf iblk6; rw [A_eq6]; try rfl) t d).trans
    (by unfold Dat.fetched Dat.blockOf iblk6; rw [A_eq6]; try rfl)
theorem before6_8 (c : Dev nD) (t : Fin cfg6.N) (d) : (dat6 V c).before 8 t d = iblk6 V c 8 t :=
  ((dat6 V c).before_in_eq_fetched 8 rfl (live6_8_all) (fun _ _ _ => rfl) (fun t => by rw [after6_8]; unfold Dat.blockOf iblk6; rw [A_eq6]; try rfl) t d).trans
    (by unfold Dat.fetched Dat.blockOf iblk6; rw [A_eq6]; try rfl)
theorem before6_9 (c : Dev nD) (t : Fin cfg6.N) (d) : (dat6 V c).before 9 t d = iblk6 V c 9 t :=
  ((dat6 V c).before_in_eq_fetched 9 rfl (live6_9_all) (fun _ _ _ => rfl) (fun t => by rw [after6_9]; unfold Dat.blockOf iblk6; rw [A_eq6]; try rfl) t d).trans
    (by unfold Dat.fetched Dat.blockOf iblk6; rw [A_eq6]; try rfl)

theorem leaves6_0 (c : Dev nD) (t : Fin cfg6.N) : (dat6 V c).leavesExact 0 t = owns (c : Thread nD τ) (ms6_0 t) fullShare (iblk6 V c 0 t) := by
  unfold Dat.leavesExact; rw [live6_0 t, after6_0]
theorem leaves6_1 (c : Dev nD) (t : Fin cfg6.N) : (dat6 V c).leavesExact 1 t = owns (c : Thread nD τ) (ms6_1 t) fullShare (iblk6 V c 1 t) := by
  unfold Dat.leavesExact; rw [live6_1 t, after6_1]
theorem leaves6_2 (c : Dev nD) (t : Fin cfg6.N) : (dat6 V c).leavesExact 2 t = owns (c : Thread nD τ) (ms6_2 t) fullShare (iblk6 V c 2 t) := by
  unfold Dat.leavesExact; rw [live6_2 t, after6_2]
theorem leaves6_3 (c : Dev nD) (t : Fin cfg6.N) : (dat6 V c).leavesExact 3 t = owns (c : Thread nD τ) (ms6_3 t) fullShare (iblk6 V c 3 t) := by
  unfold Dat.leavesExact; rw [live6_3 t, after6_3]
theorem leaves6_4 (c : Dev nD) (t : Fin cfg6.N) : (dat6 V c).leavesExact 4 t = owns (c : Thread nD τ) (ms6_4 t) fullShare (iblk6 V c 4 t) := by
  unfold Dat.leavesExact; rw [live6_4 t, after6_4]
theorem leaves6_5 (c : Dev nD) (t : Fin cfg6.N) : (dat6 V c).leavesExact 5 t = owns (c : Thread nD τ) (ms6_5 t) fullShare (iblk6 V c 5 t) := by
  unfold Dat.leavesExact; rw [live6_5 t, after6_5]
theorem leaves6_6 (c : Dev nD) (t : Fin cfg6.N) : (dat6 V c).leavesExact 6 t = owns (c : Thread nD τ) (ms6_6 t) fullShare (iblk6 V c 6 t) := by
  unfold Dat.leavesExact; rw [live6_6 t, after6_6]
theorem leaves6_7 (c : Dev nD) (t : Fin cfg6.N) : (dat6 V c).leavesExact 7 t = owns (c : Thread nD τ) (ms6_7 t) fullShare (iblk6 V c 7 t) := by
  unfold Dat.leavesExact; rw [live6_7 t, after6_7]
theorem leaves6_8 (c : Dev nD) (t : Fin cfg6.N) : (dat6 V c).leavesExact 8 t = owns (c : Thread nD τ) (ms6_8 t) fullShare (iblk6 V c 8 t) := by
  unfold Dat.leavesExact; rw [live6_8 t, after6_8]
theorem leaves6_9 (c : Dev nD) (t : Fin cfg6.N) : (dat6 V c).leavesExact 9 t = owns (c : Thread nD τ) (ms6_9 t) fullShare (iblk6 V c 9 t) := by
  unfold Dat.leavesExact; rw [live6_9 t, after6_9]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 8000000 in
/-- The body at any point: the case the point is in decides the branches; the invariant hands the body the accumulator at
    what the point before left (at anything at the first point) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4, leaves6_5, leaves6_6, leaves6_7, leaves6_8, leaves6_9]
  have hN : t.val < 32 := lt_of_lt_of_eq t.isLt (show cfg6.N = 32 from N_6)
  by_cases hz : t.val = 0
  · have hne : t.val ≠ 31 := by omega
    rw [Dat.leavesExact_idle (dat6 V c) 10 t (idle6_10 t hne) (noFlush6_10 t hne)]
    rw [outsAt6_A V c t hz]
    unfold sout6_A; (try dsimp only)
    rw [PhiS6_castSucc V c t, PhiS6_zero V c _ _ hz, PhiA6_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun6_A c (grid6.coords t) _ _ _ _ _ _ _ _ _ _ _ _ _ _ _ _ _ _ _ _ _ _ _ _ ((case6_A t hz).1) ((case6_A t hz).2.1) ((case6_A t hz).2.2.1) ((case6_A t hz).2.2.2.1) ((case6_A t hz).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, ⟨%eS, HS⟩⟩
    isplitl [HS Hrest Hg]
    · isplitl [HS Hrest]
      · isplitl [HS]
        · unfold owns; iexists _; isplitr
          swap; · iexact HS
          ipureintro; exact View.read_writes_of_cover _ _ _ _ _ (scover6_A c _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h0 : t.val = 31
    · have hlast : t.val = 31 := by omega
      rw [show (dat6 V c).leavesExact 10 t = owns (c : Thread nD τ) (ms6_10 t) fullShare ((dat6 V c).after 10 t) from by
        unfold Dat.leavesExact; rw [live6_10 t hlast], after6_10]
      rw [outsAt6_Z V c t hz h0]
      unfold out6_Z sout6_Z; (try dsimp only)
      rw [PhiS6_castSucc V c t, PhiS6_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun6_Z c (grid6.coords t) _ _ _ _ _ _ _ _ _ _ _ _ _ _ _ _ _ _ _ _ _ _ _ _ ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%eO, H10⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover6_Z c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover6_Z c _ _ _ _ _ _ _ _ _ _ _ _ _ _ _ _ _ _ _ _ _ _ _ _ _ _ _ _ _ _ _ _ _ _ _ _ _ _ _ _ _)
    · by_cases h1 : t.val = 1
      · have hne : t.val ≠ 31 := by omega
        rw [Dat.leavesExact_idle (dat6 V c) 10 t (idle6_10 t hne) (noFlush6_10 t hne)]
        rw [outsAt6_B V c t hz h0 h1]
        unfold sout6_B; (try dsimp only)
        rw [PhiS6_castSucc V c t, PhiS6_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun6_B c (grid6.coords t) _ _ _ _ _ _ _ _ _ _ _ _ _ _ _ _ _ _ _ _ _ _ _ _ ((case6_B t hz h0 h1).1) ((case6_B t hz h0 h1).2.1) ((case6_B t hz h0 h1).2.2.1) ((case6_B t hz h0 h1).2.2.2.1) ((case6_B t hz h0 h1).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS]; · iexact HS
        iintro ⟨H0, H1, H2, H3, H4, H5, H6, H7, H8, H9, H10, ⟨%eS, HS⟩⟩
        isplitl [HS Hrest Hg]
        · isplitl [HS Hrest]
          · isplitl [HS]
            · unfold owns; iexists _; isplitr
              swap; · iexact HS
              ipureintro; exact View.read_writes_of_cover _ _ _ _ _ (scover6_B c _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · by_cases h2 : (2 ≤ t.val ∧ t.val ≤ 17)
        · have hne : t.val ≠ 31 := by omega
          rw [Dat.leavesExact_idle (dat6 V c) 10 t (idle6_10 t hne) (noFlush6_10 t hne)]
          rw [outsAt6_C V c t hz h0 h1 h2]
          unfold sout6_C; (try dsimp only)
          rw [PhiS6_castSucc V c t, PhiS6_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun6_C c (grid6.coords t) _ _ _ _ _ _ _ _ _ _ _ _ _ _ _ _ _ _ _ _ _ _ _ _ ((case6_C t hz h0 h1 h2).1) ((case6_C t hz h0 h1 h2).2.1) ((case6_C t hz h0 h1 h2).2.2.1) ((case6_C t hz h0 h1 h2).2.2.2.1) ((case6_C t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover6_C c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10
        · have hne : t.val ≠ 31 := by omega
          rw [Dat.leavesExact_idle (dat6 V c) 10 t (idle6_10 t hne) (noFlush6_10 t hne)]
          rw [outsAt6_D V c t hz h0 h1 h2]
          unfold sout6_D; (try dsimp only)
          rw [PhiS6_castSucc V c t, PhiS6_pos V c _ _ hz]
          iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun6_D c (grid6.coords t) _ _ _ _ _ _ _ _ _ _ _ _ _ _ _ _ _ _ _ _ _ _ _ _ ((case6_D t hz h0 h1 h2).1) ((case6_D t hz h0 h1 h2).2.1) ((case6_D t hz h0 h1 h2).2.2.1) ((case6_D t hz h0 h1 h2).2.2.2.1) ((case6_D t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [HS]; · iexact HS
          iintro ⟨H0, H1, H2, H3, H4, H5, H6, H7, H8, H9, H10, ⟨%eS, HS⟩⟩
          isplitl [HS Hrest Hg]
          · isplitl [HS Hrest]
            · isplitl [HS]
              · unfold owns; iexists _; isplitr
                swap; · iexact HS
                ipureintro; exact View.read_writes_of_cover _ _ _ _ _ (scover6_D c _ _ _ _ _ _ _ _ _ _ _ _ _ _ _ _ _ _ _ _ _ _ _ _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexists _; iexact H10

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 32 := N_6; omega), PhiA6_eq]
  iintro ⟨⟨HS, Hrest⟩, Hg⟩
  isplitl [HS Hrest]
  · isplitl [HS]
    · iexists _; iexact HS
    iexact Hrest
  iexact Hg

end Cert.KernelIdeal.Hand

end
-- ==== Proof.KI.R7Runs.lean ====
/- Region 7 (2 masked-matmul term(s), K-tiles at points 0..1, 2..15; accumulated in a scratch buffer; bias and sigmoid at the last point):
   the body's branch conditions and its run in each control case the 16 grid points fall into. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 7: the body's branch conditions as functions of the grid position -/

/-- "first point": the accumulator is reset. -/
abbrev cond7_1 (i : grid7.Coords) : Prop := (Scalar.cmpi .ne (Scalar.extui (Scalar.cmpi .eq (BitVec.ofNat 32 (i 0).val) 0#32)) 0#32) = 1#1
/-- term 0's K-tiles: points 0 to 1. -/
abbrev cond7_2 (i : grid7.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1
/-- term 1's K-tiles: points 2 to 15. -/
abbrev cond7_3 (i : grid7.Coords) : Prop := (Scalar.cmpi .ne (Scalar.extui (Scalar.andi (Scalar.cmpi .sge (BitVec.ofNat 32 (i 0).val) 2#32) (Scalar.cmpi .slt (BitVec.ofNat 32 (i 0).val) 16#32))) 0#32) = 1#1
/-- "last point": bias, sigmoid, store. -/
abbrev cond7_4 (i : grid7.Coords) : Prop := k7_cond4 i = 1#1

set_option maxHeartbeats 4000000 in
/-- The body at a point of case A: on whole staging buffers holding the input blocks, the output's buffer (not stored at these points) handed back as it came, and the
    accumulator at anything, it runs to the end leaving the inputs as they were and the accumulator (and a stored
    output) with the listed pieces written. -/
noncomputable def kernelRun7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%dS, %fS, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case Z: on whole staging buffers holding the input blocks, the output's buffer at anything, and the
    accumulator at what the point before left, it runs to the end leaving the inputs as they were and the accumulator (and a stored
    output) with the listed pieces written. -/
noncomputable def kernelRun7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨?_, ?_, fun E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]; · iexists _; iexact HO
    iexists _; iexact HS

set_option maxHeartbeats 4000000 in
/-- The body at a point of case B: on whole staging buffers holding the input blocks, the output's buffer (not stored at these points) handed back as it came, and the
    accumulator at what the point before left, it runs to the end leaving the inputs as they were and the accumulator (and a stored
    output) with the listed pieces written. -/
noncomputable def kernelRun7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

set_option maxHeartbeats 4000000 in
/-- The body at a point of case C: on whole staging buffers holding the input blocks, the output's buffer (not stored at these points) handed back as it came, and the
    accumulator at what the point before left, it runs to the end leaving the inputs as they were and the accumulator (and a stored
    output) with the listed pieces written. -/
noncomputable def kernelRun7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    Σ' (LO : List (View.Piece (Elt F) S64x1024 .f32)), { LS : List (View.Piece (Elt F) S64x1024 .f32) //
      ∀ (xi : Vec F S64x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc7_kernel i arg1 harg1 arg2 harg2 arg3 harg3 arg4 harg4 arg5 harg5 arg6 harg6 arg7 harg7 arg8 harg8 arg9 harg9) K } := by
  refine ⟨[], ?_, fun xi E K => ?run⟩
  case run =>
    simp only [cc7_kernel_eq_skeleton]; unfold cc7_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fO, %hfO, HO⟩, ⟨%fS, %hfS, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hfO; obtain rfl := harg9.eq_unread hfS
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; isplitr; · ipureintro; exact harg8.read_unread _
      iexact HO
    iexists _; iexact HS

end Cert.KernelIdeal.Hand

end
-- ==== Proof.KI.R7Frame.lean ====
/- Region 7: what the accumulator holds after each grid point (by recursion on the point), the region's invariant carrying it,
   the proof data, and the body's obligation at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R7Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 7: where each case sits on the grid -/
theorem case7_A : ∀ t : Fin cfg7.N, t.val = 0 → cond7_1 (grid7.coords t) ∧ cond7_2 (grid7.coords t) ∧ ¬cond7_3 (grid7.coords t) ∧ ¬cond7_4 (grid7.coords t) :=
  (by decide +kernel : ∀ t : Fin grid7.N, t.val = 0 → cond7_1 (grid7.coords t) ∧ cond7_2 (grid7.coords t) ∧ ¬cond7_3 (grid7.coords t) ∧ ¬cond7_4 (grid7.coords t))
theorem case7_Z : ∀ t : Fin cfg7.N, t.val ≠ 0 → t.val = 15 → ¬cond7_1 (grid7.coords t) ∧ ¬cond7_2 (grid7.coords t) ∧ cond7_3 (grid7.coords t) ∧ cond7_4 (grid7.coords t) :=
  (by decide +kernel : ∀ t : Fin grid7.N, t.val ≠ 0 → t.val = 15 → ¬cond7_1 (grid7.coords t) ∧ ¬cond7_2 (grid7.coords t) ∧ cond7_3 (grid7.coords t) ∧ cond7_4 (grid7.coords t))
theorem case7_B : ∀ t : Fin cfg7.N, t.val ≠ 0 → ¬t.val = 15 → t.val = 1 → ¬cond7_1 (grid7.coords t) ∧ cond7_2 (grid7.coords t) ∧ ¬cond7_3 (grid7.coords t) ∧ ¬cond7_4 (grid7.coords t) :=
  (by decide +kernel : ∀ t : Fin grid7.N, t.val ≠ 0 → ¬t.val = 15 → t.val = 1 → ¬cond7_1 (grid7.coords t) ∧ cond7_2 (grid7.coords t) ∧ ¬cond7_3 (grid7.coords t) ∧ ¬cond7_4 (grid7.coords t))
theorem case7_C : ∀ t : Fin cfg7.N, t.val ≠ 0 → ¬t.val = 15 → ¬t.val = 1 → ¬cond7_1 (grid7.coords t) ∧ ¬cond7_2 (grid7.coords t) ∧ cond7_3 (grid7.coords t) ∧ ¬cond7_4 (grid7.coords t) :=
  (by decide +kernel : ∀ t : Fin grid7.N, t.val ≠ 0 → ¬t.val = 15 → ¬t.val = 1 → ¬cond7_1 (grid7.coords t) ∧ ¬cond7_2 (grid7.coords t) ∧ cond7_3 (grid7.coords t) ∧ ¬cond7_4 (grid7.coords t))

/-! ## The windows' blocks, the staging buffers and the accumulator -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev VO7 : View sig .tc .vmem S64x1024 .f32 := (Memref.whole cc7_stg7_0 : Memref sig .tc .vmem S64x1024 .f32).view
abbrev ms7_0 (t : Fin cfg7.N) : Memref sig .tc .vmem S64x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S64x512 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1024x512 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x512 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x1024 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S64x1024 .f32 := win7_7.stage (cfg7.slots t 7)
abbrev hs7_7 (t : Fin cfg7.N) : (ms7_7 t).IsWhole := hstage7_7 ((cfg7.slots t 7).cast nbuf7_7)
abbrev scM7 : Memref sig .tc .vmem S64x1024 .f32 := Memref.whole cc7_scratch0
abbrev VS7 : View sig .tc .vmem S64x1024 .f32 := scM7.view
/-- Every scoped buffer that is neither a staging buffer of this region nor its accumulator, at some contents. -/
abbrev restBut7 (c : Dev nD) : sProp 𝕄 := Pipeline.scopedRestBut (Ix := Unit) (Name := ℕ) (U := UR sig nD τ) (Lvl := ℕ) (Val := Elt F) spec7 c [cc7_scratch0]

/-- The class invariant with the accumulator taken out of the scoped rest. -/
theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-! ## Where the windows are idle -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem live7_3 : ∀ t : Fin cfg7.N, cfg7.idle 3 (grid7.coords t) = false := by decide +kernel
theorem live7_4 : ∀ t : Fin cfg7.N, cfg7.idle 4 (grid7.coords t) = false := by decide +kernel
theorem live7_5 : ∀ t : Fin cfg7.N, cfg7.idle 5 (grid7.coords t) = false := by decide +kernel
theorem live7_6 : ∀ t : Fin cfg7.N, cfg7.idle 6 (grid7.coords t) = false := by decide +kernel
theorem idle7_7 : ∀ t : Fin cfg7.N, t.val ≠ 15 → cfg7.idle 7 (grid7.coords t) = true := by decide +kernel
theorem noFlush7_7 : ∀ t : Fin cfg7.N, t.val ≠ 15 → (cfg7.win 7).flush t = false := by decide +kernel
theorem live7_7 : ∀ t : Fin cfg7.N, t.val = 15 → cfg7.idle 7 (grid7.coords t) = false := by decide +kernel

theorem live7_0_all : ∀ i, cfg7.idle 0 i = false := fun _ => rfl
theorem live7_1_all : ∀ i, cfg7.idle 1 i = false := fun _ => rfl
theorem live7_2_all : ∀ i, cfg7.idle 2 i = false := fun _ => rfl
theorem live7_3_all : ∀ i, cfg7.idle 3 i = false := fun _ => rfl
theorem live7_4_all : ∀ i, cfg7.idle 4 i = false := fun _ => rfl
theorem live7_5_all : ∀ i, cfg7.idle 5 i = false := fun _ => rfl
theorem live7_6_all : ∀ i, cfg7.idle 6 i = false := fun _ => rfl

/-! ## What each case leaves in the accumulator (and, at the last point, in the output's buffer) -/

theorem scover7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (y : S64x1024.Idx) :
    ∃ pc ∈ (kernelRun7_A c i arg1 harg1 arg2 harg2 arg3 harg3 arg4 harg4 arg5 harg5 arg6 harg6 arg7 harg7 arg8 harg8 arg9 harg9 hc1 hc2 hc3 hc4 x1 x2 x3 x4 x5 x6 x7).2.1, y ∈ pc.1.set :=
  View.cover_of_tiledL (kernelRun7_A c i arg1 harg1 arg2 harg2 arg3 harg3 arg4 harg4 arg5 harg5 arg6 harg6 arg7 harg7 arg8 harg8 arg9 harg9 hc1 hc2 hc3 hc4 x1 x2 x3 x4 x5 x6 x7).2.1 S64x1024.size (by sl_kernel_rfl) y

def sout7_A (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) : Vec F S64x1024 .f32 :=
  VS7.read (Elt F) (VS7.writes (Elt F) VS7.junk (kernelRun7_A c i arg1 harg1 arg2 harg2 arg3 harg3 arg4 harg4 arg5 harg5 arg6 harg6 arg7 harg7 arg8 harg8 arg9 harg9 hc1 hc2 hc3 hc4 x1 x2 x3 x4 x5 x6 x7).2.1)

theorem scover7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_Z c i arg1 harg1 arg2 harg2 arg3 harg3 arg4 harg4 arg5 harg5 arg6 harg6 arg7 harg7 arg8 harg8 arg9 harg9 hc1 hc2 hc3 hc4 x1 x2 x3 x4 x5 x6 x7 xs).2.1)

theorem cover7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1, y ∈ pc.1.set :=
  View.cover_of_tiledL (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1 S64x1024.size (by sl_kernel_rfl) y

def out7_Z (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VO7.read (Elt F) (VO7.writes (Elt F) VO7.junk (kernelRun7_Z c i arg1 harg1 arg2 harg2 arg3 harg3 arg4 harg4 arg5 harg5 arg6 harg6 arg7 harg7 arg8 harg8 arg9 harg9 hc1 hc2 hc3 hc4 x1 x2 x3 x4 x5 x6 x7 xs).1)

theorem scover7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_B (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_B c i arg1 harg1 arg2 harg2 arg3 harg3 arg4 harg4 arg5 harg5 arg6 harg6 arg7 harg7 arg8 harg8 arg9 harg9 hc1 hc2 hc3 hc4 x1 x2 x3 x4 x5 x6 x7 xs).2.1)

theorem scover7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) (y : S64x1024.Idx) :
    ∃ pc ∈ (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1, y ∈ pc.1.set :=
  View.cover_of_tiledL (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1 S64x1024.size (by sl_kernel_rfl) y

def sout7_C (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i)
    (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) : Vec F S64x1024 .f32 :=
  VS7.read (Elt F) (VS7.writes (Elt F) VS7.junk (kernelRun7_C c i arg1 harg1 arg2 harg2 arg3 harg3 arg4 harg4 arg5 harg5 arg6 harg6 arg7 harg7 arg8 harg8 arg9 harg9 hc1 hc2 hc3 hc4 x1 x2 x3 x4 x5 x6 x7 xs).2.1)

/-- What the output's buffer is said to hold at a point that stores nothing into it: nothing consults it (the window is idle
    there and not written back). -/
def idleOut7 : Vec F S64x1024 .f32 := VO7.read (Elt F) (VO7.writes (Elt F) VO7.junk [])

/-! ## The accumulation, point by point -/

/-- After the body at position `n`: (the output's staging buffer, the accumulator). -/
def outsAt7 (c : Dev nD) : (n : ℕ) → n < cfg7.N → Vec F S64x1024 .f32 × Vec F S64x1024 .f32
  | 0, hn => (idleOut7, sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) scM7 (Memref.isWhole_whole _) ((case7_A ⟨0, hn⟩ rfl).1) ((case7_A ⟨0, hn⟩ rfl).2.1) ((case7_A ⟨0, hn⟩ rfl).2.2.1) ((case7_A ⟨0, hn⟩ rfl).2.2.2) (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (iblk7 V c 6 ⟨0, hn⟩))
  | n + 1, hn =>
    if h0 : n + 1 = 15 then
      (out7_Z c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_Z ⟨n + 1, hn⟩ (Nat.succ_ne_zero n) h0).1) ((case7_Z ⟨n + 1, hn⟩ (Nat.succ_ne_zero n) h0).2.1) ((case7_Z ⟨n + 1, hn⟩ (Nat.succ_ne_zero n) h0).2.2.1) ((case7_Z ⟨n + 1, hn⟩ (Nat.succ_ne_zero n) h0).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2, sout7_Z c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_Z ⟨n + 1, hn⟩ (Nat.succ_ne_zero n) h0).1) ((case7_Z ⟨n + 1, hn⟩ (Nat.succ_ne_zero n) h0).2.1) ((case7_Z ⟨n + 1, hn⟩ (Nat.succ_ne_zero n) h0).2.2.1) ((case7_Z ⟨n + 1, hn⟩ (Nat.succ_ne_zero n) h0).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)
    else
      if h1 : n + 1 = 1 then
        (idleOut7, sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_B ⟨n + 1, hn⟩ (Nat.succ_ne_zero n) h0 h1).1) ((case7_B ⟨n + 1, hn⟩ (Nat.succ_ne_zero n) h0 h1).2.1) ((case7_B ⟨n + 1, hn⟩ (Nat.succ_ne_zero n) h0 h1).2.2.1) ((case7_B ⟨n + 1, hn⟩ (Nat.succ_ne_zero n) h0 h1).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)
      else
        (idleOut7, sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) scM7 (Memref.isWhole_whole _) ((case7_C ⟨n + 1, hn⟩ (Nat.succ_ne_zero n) h0 h1).1) ((case7_C ⟨n + 1, hn⟩ (Nat.succ_ne_zero n) h0 h1).2.1) ((case7_C ⟨n + 1, hn⟩ (Nat.succ_ne_zero n) h0 h1).2.2.1) ((case7_C ⟨n + 1, hn⟩ (Nat.succ_ne_zero n) h0 h1).2.2.2) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (iblk7 V c 6 ⟨n + 1, hn⟩) (outsAt7 c n (Nat.lt_of_succ_lt hn)).2)

theorem outsAt7_A (c : Dev nD) (t : Fin cfg7.N) (hz : t.val = 0) :
    outsAt7 V c t.val t.isLt = (idleOut7, sout7_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_A t hz).1) ((case7_A t hz).2.1) ((case7_A t hz).2.2.1) ((case7_A t hz).2.2.2) (iblk7 V c 0 t) (iblk7 V c 1 t) (iblk7 V c 2 t) (iblk7 V c 3 t) (iblk7 V c 4 t) (iblk7 V c 5 t) (iblk7 V c 6 t)) := by
  obtain ⟨n, hn⟩ := t
  cases n with
  | zero => exact rfl
  | succ n => exact absurd hz (Nat.succ_ne_zero n)

theorem outsAt7_Z (c : Dev nD) (t : Fin cfg7.N) (hz : t.val ≠ 0) (h0 : t.val = 15) :
    outsAt7 V c t.val t.isLt = (out7_Z c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2, sout7_Z c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_pos h0).trans rfl

theorem outsAt7_B (c : Dev nD) (t : Fin cfg7.N) (hz : t.val ≠ 0) (h0 : ¬t.val = 15) (h1 : t.val = 1) :
    outsAt7 V c t.val t.isLt = (idleOut7, sout7_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_B t hz h0 h1).1) ((case7_B t hz h0 h1).2.1) ((case7_B t hz h0 h1).2.2.1) ((case7_B t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_neg h0).trans ((dif_pos h1).trans rfl)

theorem outsAt7_C (c : Dev nD) (t : Fin cfg7.N) (hz : t.val ≠ 0) (h0 : ¬t.val = 15) (h1 : ¬t.val = 1) :
    outsAt7 V c t.val t.isLt = (idleOut7, sout7_C c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_C t hz h0 h1).1) ((case7_C t hz h0 h1).2.1) ((case7_C t hz h0 h1).2.2.1) ((case7_C t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2) := by
  obtain ⟨n, hn⟩ := t
  cases n with
  | zero => exact absurd rfl hz
  | succ n => exact (dif_neg h0).trans ((dif_neg h1).trans (rfl))

/-! ## The region's invariant: before the first point the class's; afterwards the accumulator at what the point before left -/

def PhiS7 (c : Dev nD) : (n : ℕ) → n ≤ cfg7.N → sProp 𝕄
  | 0, _ => Pipeline.ΦA spec7 c
  | n + 1, hn => iprop(iprop(owns (c : Thread nD τ) scM7 fullShare ((outsAt7 V c n hn).2) ∗ restBut7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7 fullShare ((outsAt7 V c n hn).2) ∗ restBut7 c) ∗ (∃ r, prngReg c r)) := rfl

theorem PhiS7_pos (c : Dev nD) (n : ℕ) (h : n ≤ cfg7.N) (hz : n ≠ 0) :
    PhiS7 V c n h = iprop(iprop(owns (c : Thread nD τ) scM7 fullShare ((outsAt7 V c (n - 1) (by omega)).2) ∗ restBut7 c) ∗ (∃ r, prngReg c r)) := by
  cases n with
  | zero => exact absurd rfl hz
  | succ n => rfl

/-! ## The proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = (outsAt7 V c t.val t.isLt).1 := by dsimp only [dat7]

theorem before7_0 (c : Dev nD) (t : Fin cfg7.N) (d) : (dat7 V c).before 0 t d = iblk7 V c 0 t :=
  ((dat7 V c).before_in_eq_fetched 0 rfl (live7_0_all) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (live7_1_all) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (live7_2_all) (fun _ _ _ => rfl) (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (live7_3_all) (fun _ _ _ => rfl) (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (live7_4_all) (fun _ _ _ => rfl) (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (live7_5_all) (fun _ _ _ => rfl) (fun t => by rw [after7_5]; unfold Dat.blockOf iblk7; rw [A_eq7]; try rfl) t d).trans
    (by unfold Dat.fetched Dat.blockOf iblk7; rw [A_eq7]; try rfl)
theorem before7_6 (c : Dev nD) (t : Fin cfg7.N) (d) : (dat7 V c).before 6 t d = iblk7 V c 6 t :=
  ((dat7 V c).before_in_eq_fetched 6 rfl (live7_6_all) (fun _ _ _ => rfl) (fun t => by rw [after7_6]; unfold Dat.blockOf iblk7; rw [A_eq7]; try rfl) t d).trans
    (by unfold Dat.fetched Dat.blockOf iblk7; rw [A_eq7]; try rfl)

theorem leaves7_0 (c : Dev nD) (t : Fin cfg7.N) : (dat7 V c).leavesExact 0 t = owns (c : Thread nD τ) (ms7_0 t) fullShare (iblk7 V c 0 t) := by
  unfold Dat.leavesExact; rw [live7_0 t, after7_0]
theorem leaves7_1 (c : Dev nD) (t : Fin cfg7.N) : (dat7 V c).leavesExact 1 t = owns (c : Thread nD τ) (ms7_1 t) fullShare (iblk7 V c 1 t) := by
  unfold Dat.leavesExact; rw [live7_1 t, after7_1]
theorem leaves7_2 (c : Dev nD) (t : Fin cfg7.N) : (dat7 V c).leavesExact 2 t = owns (c : Thread nD τ) (ms7_2 t) fullShare (iblk7 V c 2 t) := by
  unfold Dat.leavesExact; rw [live7_2 t, after7_2]
theorem leaves7_3 (c : Dev nD) (t : Fin cfg7.N) : (dat7 V c).leavesExact 3 t = owns (c : Thread nD τ) (ms7_3 t) fullShare (iblk7 V c 3 t) := by
  unfold Dat.leavesExact; rw [live7_3 t, after7_3]
theorem leaves7_4 (c : Dev nD) (t : Fin cfg7.N) : (dat7 V c).leavesExact 4 t = owns (c : Thread nD τ) (ms7_4 t) fullShare (iblk7 V c 4 t) := by
  unfold Dat.leavesExact; rw [live7_4 t, after7_4]
theorem leaves7_5 (c : Dev nD) (t : Fin cfg7.N) : (dat7 V c).leavesExact 5 t = owns (c : Thread nD τ) (ms7_5 t) fullShare (iblk7 V c 5 t) := by
  unfold Dat.leavesExact; rw [live7_5 t, after7_5]
theorem leaves7_6 (c : Dev nD) (t : Fin cfg7.N) : (dat7 V c).leavesExact 6 t = owns (c : Thread nD τ) (ms7_6 t) fullShare (iblk7 V c 6 t) := by
  unfold Dat.leavesExact; rw [live7_6 t, after7_6]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 8000000 in
/-- The body at any point: the case the point is in decides the branches; the invariant hands the body the accumulator at
    what the point before left (at anything at the first point) and takes it back at this point's contents. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3, leaves7_4, leaves7_5, leaves7_6]
  have hN : t.val < 16 := lt_of_lt_of_eq t.isLt (show cfg7.N = 16 from N_7)
  by_cases hz : t.val = 0
  · have hne : t.val ≠ 15 := by omega
    rw [Dat.leavesExact_idle (dat7 V c) 7 t (idle7_7 t hne) (noFlush7_7 t hne)]
    rw [outsAt7_A V c t hz]
    unfold sout7_A; (try dsimp only)
    rw [PhiS7_castSucc V c t, PhiS7_zero V c _ _ hz, PhiA7_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ _ _ ((case7_A t hz).1) ((case7_A t hz).2.1) ((case7_A t hz).2.2.1) ((case7_A t hz).2.2.2) (iblk7 V c 0 t) (iblk7 V c 1 t) (iblk7 V c 2 t) (iblk7 V c 3 t) (iblk7 V c 4 t) (iblk7 V c 5 t) (iblk7 V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%eS, HS⟩⟩
    isplitl [HS Hrest Hg]
    · isplitl [HS Hrest]
      · isplitl [HS]
        · unfold owns; iexists _; isplitr
          swap; · iexact HS
          ipureintro; exact View.read_writes_of_cover _ _ _ _ _ (scover7_A c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h0 : t.val = 15
    · have hlast : t.val = 15 := by omega
      rw [show (dat7 V c).leavesExact 7 t = owns (c : Thread nD τ) (ms7_7 t) fullShare ((dat7 V c).after 7 t) from by
        unfold Dat.leavesExact; rw [live7_7 t hlast], after7_7]
      rw [outsAt7_Z V c t hz h0]
      unfold out7_Z sout7_Z; (try dsimp only)
      rw [PhiS7_castSucc V c t, PhiS7_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_Z c (grid7.coords t) _ _ _ _ _ _ _ _ _ _ _ _ _ _ _ _ _ _ ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%eO, H7⟩, ⟨%eS, HS⟩⟩
      isplitl [HS Hrest Hg]
      · isplitl [HS Hrest]
        · isplitl [HS]
          · unfold owns; iexists _; isplitr
            swap; · iexact HS
            ipureintro; exact View.read_writes_of_cover _ _ _ _ _ (scover7_Z c _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover7_Z c _ _ _ _ _ _ _ _ _ _ _ _ _ _ _ _ _ _ _ _ _ _ _ _ _ _ _ _ _ _ _)
    · by_cases h1 : t.val = 1
      · have hne : t.val ≠ 15 := by omega
        rw [Dat.leavesExact_idle (dat7 V c) 7 t (idle7_7 t hne) (noFlush7_7 t hne)]
        rw [outsAt7_B V c t hz h0 h1]
        unfold sout7_B; (try dsimp only)
        rw [PhiS7_castSucc V c t, PhiS7_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun7_B c (grid7.coords t) _ _ _ _ _ _ _ _ _ _ _ _ _ _ _ _ _ _ ((case7_B t hz h0 h1).1) ((case7_B t hz h0 h1).2.1) ((case7_B t hz h0 h1).2.2.1) ((case7_B t hz h0 h1).2.2.2) (iblk7 V c 0 t) (iblk7 V c 1 t) (iblk7 V c 2 t) (iblk7 V c 3 t) (iblk7 V c 4 t) (iblk7 V c 5 t) (iblk7 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover7_B c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · have hne : t.val ≠ 15 := by omega
        rw [Dat.leavesExact_idle (dat7 V c) 7 t (idle7_7 t hne) (noFlush7_7 t hne)]
        rw [outsAt7_C V c t hz h0 h1]
        unfold sout7_C; (try dsimp only)
        rw [PhiS7_castSucc V c t, PhiS7_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun7_C c (grid7.coords t) _ _ _ _ _ _ _ _ _ _ _ _ _ _ _ _ _ _ ((case7_C t hz h0 h1).1) ((case7_C t hz h0 h1).2.1) ((case7_C t hz h0 h1).2.2.1) ((case7_C t hz h0 h1).2.2.2) (iblk7 V c 0 t) (iblk7 V c 1 t) (iblk7 V c 2 t) (iblk7 V c 3 t) (iblk7 V c 4 t) (iblk7 V c 5 t) (iblk7 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%eS, HS⟩⟩
        isplitl [HS Hrest Hg]
        · isplitl [HS Hrest]
          · isplitl [HS]
            · unfold owns; iexists _; isplitr
              swap; · iexact HS
              ipureintro; exact View.read_writes_of_cover _ _ _ _ _ (scover7_C c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hrest⟩, Hg⟩
  isplitl [HS Hrest]
  · isplitl [HS]
    · iexists _; iexact HS
    iexact Hrest
  iexact Hg

end Cert.KernelIdeal.Hand

end
-- ==== Proof.KI.R8Frame.lean ====
/- Region 8 (the final linear map: cur · W_outᵀ + b_out, one grid point, no accumulator): what the body leaves in the output's
   buffer as one function of the three input blocks, the body's run, the proof data and the body's obligation. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S64x512 := Rect.unit (s := S64x512) ![0, 0] S64x512.size inb_S64x512_S64x512_0_0
abbrev r8_a : Rect S64x1024 := Rect.unit (s := S64x1024) ![0, 0] S64x1024.size inb_S64x1024_S64x1024_0_0
abbrev r8_b : Rect S512x1024 := Rect.unit (s := S512x1024) ![0, 0] S512x1024.size inb_S512x1024_S512x1024_0_0
abbrev r8_c : Rect S1x512 := Rect.unit (s := S1x512) ![0, 0] S1x512.size inb_S1x512_S1x512_0_0

/-- The output's buffer after the body: its one whole-buffer store, the product plus the broadcast bias. -/
def out8_3 (x0 : Vec F S64x1024 .f32) (x1 : Vec F S512x1024 .f32) (x2 : Vec F S1x512 .f32) : Vec F S64x512 .f32 :=
  View.canon [⟨r8_0, k8_pay1 (View.ld x0 r8_a) (View.ld x1 r8_b) (View.ld x2 r8_c)⟩]

theorem cover8_3 (p0 : Vec F S64x512 .f32) (y : S64x512.Idx) :
    ∃ pc ∈ ([⟨r8_0, p0⟩] : List (View.Piece (Elt F) S64x512 .f32)), y ∈ pc.1.set :=
  View.cover_of_tiled [⟨r8_0, p0⟩] S64x512.size (by rfl) y

set_option maxHeartbeats 2000000 in
theorem sound_kernel8 (c : Dev nD) (i : grid8.Coords) (E : Set ℕ) (arg1 : Memref sig .tc .vmem S64x1024 .f32) (harg1 : arg1.IsWhole) (arg2 : Memref sig .tc .vmem S512x1024 .f32) (harg2 : arg2.IsWhole) (arg3 : Memref sig .tc .vmem S1x512 .f32) (harg3 : arg3.IsWhole) (arg4 : Memref sig .tc .vmem S64x512 .f32) (harg4 : arg4.IsWhole)
    (x0 : Vec F S64x1024 .f32) (x1 : Vec F S512x1024 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__final_kernel i arg1 harg1 arg2 harg2 arg3 harg3 arg4 harg4) K := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 (F := F) _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c (grid8.coords t) Set.univ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Run.lean ====
/- The whole run: the contents of the unscoped buffers at every boundary between host stretches and kernel regions (each region's output
   array overwritten with what its pipeline leaves, everything else kept), one record per region over those boundaries, and the
   run of @main through all eighteen items ending with every unscoped buffer at the last boundary's contents. -/
import proofs.«164445_j37684043055467_1_alg».proof.Proof.Gen.KernelIdeal.Regions
import proofs.«164445_j37684043055467_1_alg».proof.Proof.Gen.KernelIdeal.Skeleton
import proofs.«164445_j37684043055467_1_alg».proof.Proof.Gen.KernelIdeal.Points
import proofs.«164445_j37684043055467_1_alg».proof.Proof.KI.R0Frame
import proofs.«164445_j37684043055467_1_alg».proof.Proof.KI.R1Frame
import proofs.«164445_j37684043055467_1_alg».proof.Proof.KI.R2Frame
import proofs.«164445_j37684043055467_1_alg».proof.Proof.KI.R3Frame
import proofs.«164445_j37684043055467_1_alg».proof.Proof.KI.R4Frame
import proofs.«164445_j37684043055467_1_alg».proof.Proof.KI.R5Frame
import proofs.«164445_j37684043055467_1_alg».proof.Proof.KI.R6Frame
import proofs.«164445_j37684043055467_1_alg».proof.Proof.KI.R7Frame
import proofs.«164445_j37684043055467_1_alg».proof.Proof.KI.R8Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The boundaries' contents -/

def U1 (c : Dev nD) : Valuation τ sig (Elt F) := StableHlo.after hostOps0 (fun b => m (c, b))
abbrev E1 : (c : Dev nD) → (b : Ref sig .tc) → Buf (Elt F) ((c : Thread nD τ).loc b) := fun c b => U1 m c b
/-- What region 0 leaves in its output array. -/
def o2 (c : Dev nD) : Buf (Elt F) ((c : Thread nD τ).loc main_v6) := (dat0 (E1 m) c).arrAt 7 cfg0.N
def U2 (c : Dev nD) : Valuation τ sig (Elt F) := Function.update (U1 m c) main_v6 (o2 m c)
abbrev E2 : (c : Dev nD) → (b : Ref sig .tc) → Buf (Elt F) ((c : Thread nD τ).loc b) := fun c b => U2 m c b
theorem U2_out (c : Dev nD) : U2 m c main_v6 = o2 m c := by unfold U2; exact Function.update_self _ _ _
theorem U2_ne (c : Dev nD) (b : Ref sig .tc) (h : b ≠ main_v6) : U2 m c b = U1 m c b := by
  unfold U2; exact Function.update_of_ne (StableHlo.devRef_ne_of_ne h) _ _
def U3 (c : Dev nD) : Valuation τ sig (Elt F) := StableHlo.after hostOps1 (U2 m c)
abbrev E3 : (c : Dev nD) → (b : Ref sig .tc) → Buf (Elt F) ((c : Thread nD τ).loc b) := fun c b => U3 m c b
/-- What region 1 leaves in its output array. -/
def o4 (c : Dev nD) : Buf (Elt F) ((c : Thread nD τ).loc main_v21) := (dat1 (E3 m) c).arrAt 7 cfg1.N
def U4 (c : Dev nD) : Valuation τ sig (Elt F) := Function.update (U3 m c) main_v21 (o4 m c)
abbrev E4 : (c : Dev nD) → (b : Ref sig .tc) → Buf (Elt F) ((c : Thread nD τ).loc b) := fun c b => U4 m c b
theorem U4_out (c : Dev nD) : U4 m c main_v21 = o4 m c := by unfold U4; exact Function.update_self _ _ _
theorem U4_ne (c : Dev nD) (b : Ref sig .tc) (h : b ≠ main_v21) : U4 m c b = U3 m c b := by
  unfold U4; exact Function.update_of_ne (StableHlo.devRef_ne_of_ne h) _ _
def U5 (c : Dev nD) : Valuation τ sig (Elt F) := StableHlo.after hostOps2 (U4 m c)
abbrev E5 : (c : Dev nD) → (b : Ref sig .tc) → Buf (Elt F) ((c : Thread nD τ).loc b) := fun c b => U5 m c b
/-- What region 2 leaves in its output array. -/
def o6 (c : Dev nD) : Buf (Elt F) ((c : Thread nD τ).loc main_v39) := (dat2 (E5 m) c).arrAt 10 cfg2.N
def U6 (c : Dev nD) : Valuation τ sig (Elt F) := Function.update (U5 m c) main_v39 (o6 m c)
abbrev E6 : (c : Dev nD) → (b : Ref sig .tc) → Buf (Elt F) ((c : Thread nD τ).loc b) := fun c b => U6 m c b
theorem U6_out (c : Dev nD) : U6 m c main_v39 = o6 m c := by unfold U6; exact Function.update_self _ _ _
theorem U6_ne (c : Dev nD) (b : Ref sig .tc) (h : b ≠ main_v39) : U6 m c b = U5 m c b := by
  unfold U6; exact Function.update_of_ne (StableHlo.devRef_ne_of_ne h) _ _
def U7 (c : Dev nD) : Valuation τ sig (Elt F) := StableHlo.after hostOps3 (U6 m c)
abbrev E7 : (c : Dev nD) → (b : Ref sig .tc) → Buf (Elt F) ((c : Thread nD τ).loc b) := fun c b => U7 m c b
/-- What region 3 leaves in its output array. -/
def o8 (c : Dev nD) : Buf (Elt F) ((c : Thread nD τ).loc main_v57) := (dat3 (E7 m) c).arrAt 10 cfg3.N
def U8 (c : Dev nD) : Valuation τ sig (Elt F) := Function.update (U7 m c) main_v57 (o8 m c)
abbrev E8 : (c : Dev nD) → (b : Ref sig .tc) → Buf (Elt F) ((c : Thread nD τ).loc b) := fun c b => U8 m c b
theorem U8_out (c : Dev nD) : U8 m c main_v57 = o8 m c := by unfold U8; exact Function.update_self _ _ _
theorem U8_ne (c : Dev nD) (b : Ref sig .tc) (h : b ≠ main_v57) : U8 m c b = U7 m c b := by
  unfold U8; exact Function.update_of_ne (StableHlo.devRef_ne_of_ne h) _ _
def U9 (c : Dev nD) : Valuation τ sig (Elt F) := StableHlo.after hostOps4 (U8 m c)
abbrev E9 : (c : Dev nD) → (b : Ref sig .tc) → Buf (Elt F) ((c : Thread nD τ).loc b) := fun c b => U9 m c b
/-- What region 4 leaves in its output array. -/
def o10 (c : Dev nD) : Buf (Elt F) ((c : Thread nD τ).loc main_v75) := (dat4 (E9 m) c).arrAt 10 cfg4.N
def U10 (c : Dev nD) : Valuation τ sig (Elt F) := Function.update (U9 m c) main_v75 (o10 m c)
abbrev E10 : (c : Dev nD) → (b : Ref sig .tc) → Buf (Elt F) ((c : Thread nD τ).loc b) := fun c b => U10 m c b
theorem U10_out (c : Dev nD) : U10 m c main_v75 = o10 m c := by unfold U10; exact Function.update_self _ _ _
theorem U10_ne (c : Dev nD) (b : Ref sig .tc) (h : b ≠ main_v75) : U10 m c b = U9 m c b := by
  unfold U10; exact Function.update_of_ne (StableHlo.devRef_ne_of_ne h) _ _
def U11 (c : Dev nD) : Valuation τ sig (Elt F) := StableHlo.after hostOps5 (U10 m c)
abbrev E11 : (c : Dev nD) → (b : Ref sig .tc) → Buf (Elt F) ((c : Thread nD τ).loc b) := fun c b => U11 m c b
/-- What region 5 leaves in its output array. -/
def o12 (c : Dev nD) : Buf (Elt F) ((c : Thread nD τ).loc main_v93) := (dat5 (E11 m) c).arrAt 10 cfg5.N
def U12 (c : Dev nD) : Valuation τ sig (Elt F) := Function.update (U11 m c) main_v93 (o12 m c)
abbrev E12 : (c : Dev nD) → (b : Ref sig .tc) → Buf (Elt F) ((c : Thread nD τ).loc b) := fun c b => U12 m c b
theorem U12_out (c : Dev nD) : U12 m c main_v93 = o12 m c := by unfold U12; exact Function.update_self _ _ _
theorem U12_ne (c : Dev nD) (b : Ref sig .tc) (h : b ≠ main_v93) : U12 m c b = U11 m c b := by
  unfold U12; exact Function.update_of_ne (StableHlo.devRef_ne_of_ne h) _ _
def U13 (c : Dev nD) : Valuation τ sig (Elt F) := StableHlo.after hostOps6 (U12 m c)
abbrev E13 : (c : Dev nD) → (b : Ref sig .tc) → Buf (Elt F) ((c : Thread nD τ).loc b) := fun c b => U13 m c b
/-- What region 6 leaves in its output array. -/
def o14 (c : Dev nD) : Buf (Elt F) ((c : Thread nD τ).loc main_v111) := (dat6 (E13 m) c).arrAt 10 cfg6.N
def U14 (c : Dev nD) : Valuation τ sig (Elt F) := Function.update (U13 m c) main_v111 (o14 m c)
abbrev E14 : (c : Dev nD) → (b : Ref sig .tc) → Buf (Elt F) ((c : Thread nD τ).loc b) := fun c b => U14 m c b
theorem U14_out (c : Dev nD) : U14 m c main_v111 = o14 m c := by unfold U14; exact Function.update_self _ _ _
theorem U14_ne (c : Dev nD) (b : Ref sig .tc) (h : b ≠ main_v111) : U14 m c b = U13 m c b := by
  unfold U14; exact Function.update_of_ne (StableHlo.devRef_ne_of_ne h) _ _
def U15 (c : Dev nD) : Valuation τ sig (Elt F) := StableHlo.after hostOps7 (U14 m c)
abbrev E15 : (c : Dev nD) → (b : Ref sig .tc) → Buf (Elt F) ((c : Thread nD τ).loc b) := fun c b => U15 m c b
/-- What region 7 leaves in its output array. -/
def o16 (c : Dev nD) : Buf (Elt F) ((c : Thread nD τ).loc main_v125) := (dat7 (E15 m) c).arrAt 7 cfg7.N
def U16 (c : Dev nD) : Valuation τ sig (Elt F) := Function.update (U15 m c) main_v125 (o16 m c)
abbrev E16 : (c : Dev nD) → (b : Ref sig .tc) → Buf (Elt F) ((c : Thread nD τ).loc b) := fun c b => U16 m c b
theorem U16_out (c : Dev nD) : U16 m c main_v125 = o16 m c := by unfold U16; exact Function.update_self _ _ _
theorem U16_ne (c : Dev nD) (b : Ref sig .tc) (h : b ≠ main_v125) : U16 m c b = U15 m c b := by
  unfold U16; exact Function.update_of_ne (StableHlo.devRef_ne_of_ne h) _ _
def U17 (c : Dev nD) : Valuation τ sig (Elt F) := StableHlo.after hostOps8 (U16 m c)
abbrev E17 : (c : Dev nD) → (b : Ref sig .tc) → Buf (Elt F) ((c : Thread nD τ).loc b) := fun c b => U17 m c b
/-- What region 8 leaves in its output array. -/
def o18 (c : Dev nD) : Buf (Elt F) ((c : Thread nD τ).loc main_v127) := (dat8 (E17 m) c).arrAt 3 cfg8.N
def U18 (c : Dev nD) : Valuation τ sig (Elt F) := Function.update (U17 m c) main_v127 (o18 m c)
abbrev E18 : (c : Dev nD) → (b : Ref sig .tc) → Buf (Elt F) ((c : Thread nD τ).loc b) := fun c b => U18 m c b
theorem U18_out (c : Dev nD) : U18 m c main_v127 = o18 m c := by unfold U18; exact Function.update_self _ _ _
theorem U18_ne (c : Dev nD) (b : Ref sig .tc) (h : b ≠ main_v127) : U18 m c b = U17 m c b := by
  unfold U18; exact Function.update_of_ne (StableHlo.devRef_ne_of_ne h) _ _

/-- What each region leaves in its output array, as the generated boundary valuations want it named. -/
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | _ => U1 m c r

theorem V1_eq (c : Dev nD) : V1 m c = U1 m c := rfl
theorem outs2 (c : Dev nD) : outs m 2 main_v6 c = o2 m c := U2_out m c
theorem V2_eq (c : Dev nD) : V2 m (outs m) c = U2 m c := by
  show Function.update (V1 m c) _ (outs m 2 main_v6 c) = _
  rw [outs2, V1_eq]; rfl
theorem V3_eq (c : Dev nD) : V3 m (outs m) c = U3 m c := by
  show StableHlo.after hostOps1 (V2 m (outs m) c) = _
  rw [V2_eq]; rfl
theorem outs4 (c : Dev nD) : outs m 4 main_v21 c = o4 m c := U4_out m c
theorem V4_eq (c : Dev nD) : V4 m (outs m) c = U4 m c := by
  show Function.update (V3 m (outs m) c) _ (outs m 4 main_v21 c) = _
  rw [outs4, V3_eq]; rfl
theorem V5_eq (c : Dev nD) : V5 m (outs m) c = U5 m c := by
  show StableHlo.after hostOps2 (V4 m (outs m) c) = _
  rw [V4_eq]; rfl
theorem outs6 (c : Dev nD) : outs m 6 main_v39 c = o6 m c := U6_out m c
theorem V6_eq (c : Dev nD) : V6 m (outs m) c = U6 m c := by
  show Function.update (V5 m (outs m) c) _ (outs m 6 main_v39 c) = _
  rw [outs6, V5_eq]; rfl
theorem V7_eq (c : Dev nD) : V7 m (outs m) c = U7 m c := by
  show StableHlo.after hostOps3 (V6 m (outs m) c) = _
  rw [V6_eq]; rfl
theorem outs8 (c : Dev nD) : outs m 8 main_v57 c = o8 m c := U8_out m c
theorem V8_eq (c : Dev nD) : V8 m (outs m) c = U8 m c := by
  show Function.update (V7 m (outs m) c) _ (outs m 8 main_v57 c) = _
  rw [outs8, V7_eq]; rfl
theorem V9_eq (c : Dev nD) : V9 m (outs m) c = U9 m c := by
  show StableHlo.after hostOps4 (V8 m (outs m) c) = _
  rw [V8_eq]; rfl
theorem outs10 (c : Dev nD) : outs m 10 main_v75 c = o10 m c := U10_out m c
theorem V10_eq (c : Dev nD) : V10 m (outs m) c = U10 m c := by
  show Function.update (V9 m (outs m) c) _ (outs m 10 main_v75 c) = _
  rw [outs10, V9_eq]; rfl
theorem V11_eq (c : Dev nD) : V11 m (outs m) c = U11 m c := by
  show StableHlo.after hostOps5 (V10 m (outs m) c) = _
  rw [V10_eq]; rfl
theorem outs12 (c : Dev nD) : outs m 12 main_v93 c = o12 m c := U12_out m c
theorem V12_eq (c : Dev nD) : V12 m (outs m) c = U12 m c := by
  show Function.update (V11 m (outs m) c) _ (outs m 12 main_v93 c) = _
  rw [outs12, V11_eq]; rfl
theorem V13_eq (c : Dev nD) : V13 m (outs m) c = U13 m c := by
  show StableHlo.after hostOps6 (V12 m (outs m) c) = _
  rw [V12_eq]; rfl
theorem outs14 (c : Dev nD) : outs m 14 main_v111 c = o14 m c := U14_out m c
theorem V14_eq (c : Dev nD) : V14 m (outs m) c = U14 m c := by
  show Function.update (V13 m (outs m) c) _ (outs m 14 main_v111 c) = _
  rw [outs14, V13_eq]; rfl
theorem V15_eq (c : Dev nD) : V15 m (outs m) c = U15 m c := by
  show StableHlo.after hostOps7 (V14 m (outs m) c) = _
  rw [V14_eq]; rfl
theorem outs16 (c : Dev nD) : outs m 16 main_v125 c = o16 m c := U16_out m c
theorem V16_eq (c : Dev nD) : V16 m (outs m) c = U16 m c := by
  show Function.update (V15 m (outs m) c) _ (outs m 16 main_v125 c) = _
  rw [outs16, V15_eq]; rfl
theorem V17_eq (c : Dev nD) : V17 m (outs m) c = U17 m c := by
  show StableHlo.after hostOps8 (V16 m (outs m) c) = _
  rw [V16_eq]; rfl
theorem outs18 (c : Dev nD) : outs m 18 main_v127 c = o18 m c := U18_out m c
theorem V18_eq (c : Dev nD) : V18 m (outs m) c = U18 m c := by
  show Function.update (V17 m (outs m) c) _ (outs m 18 main_v127 c) = _
  rw [outs18, V17_eq]; rfl

/-! ## Each region's arrays at its exit -/

theorem arrOut0 : Pipeline.arrRef spec0 7 = main_v6 := by decide
theorem arrIn0 : ∀ w : Fin cfg0.W, w ≠ 7 → Pipeline.arrRef spec0 w ≠ main_v6 :=
  (by decide +kernel : ∀ w : Fin 8, w ≠ 7 → Pipeline.arrRef spec0 w ≠ main_v6)
theorem isIn0 : ∀ w : Fin cfg0.W, w ≠ 7 → (cfg0.win w).isOut = false :=
  (by decide +kernel : ∀ w : Fin 8, w ≠ 7 → (cfg0.win w).isOut = false)

set_option maxHeartbeats 1000000 in
theorem hF0 (c : Dev nD) (w : Fin cfg0.W) : (dat0 (E1 m) c).arrAt w cfg0.N = E2 m c (Pipeline.arrRef spec0 w) := by
  by_cases hw : w = 7
  · subst hw
    exact (U2_out m c).symm
  · exact (((dat0 (E1 m) c).arrAt_in w (isIn0 w hw) _).trans (A_eq0 (E1 m) c w)).trans (U2_ne m c (Pipeline.arrRef spec0 w) (arrIn0 w hw)).symm

theorem hrest0 (c : Dev nD) : ∀ b, b ∉ Finset.univ.image (Pipeline.arrRef spec0) → E2 m c b = E1 m c b := fun b hb =>
  U2_ne m c b (fun e => hb (Finset.mem_image.mpr ⟨7, Finset.mem_univ _, arrOut0.trans e.symm⟩))

theorem arrOut1 : Pipeline.arrRef spec1 7 = main_v21 := by decide
theorem arrIn1 : ∀ w : Fin cfg1.W, w ≠ 7 → Pipeline.arrRef spec1 w ≠ main_v21 :=
  (by decide +kernel : ∀ w : Fin 8, w ≠ 7 → Pipeline.arrRef spec1 w ≠ main_v21)
theorem isIn1 : ∀ w : Fin cfg1.W, w ≠ 7 → (cfg1.win w).isOut = false :=
  (by decide +kernel : ∀ w : Fin 8, w ≠ 7 → (cfg1.win w).isOut = false)

set_option maxHeartbeats 1000000 in
theorem hF1 (c : Dev nD) (w : Fin cfg1.W) : (dat1 (E3 m) c).arrAt w cfg1.N = E4 m c (Pipeline.arrRef spec1 w) := by
  by_cases hw : w = 7
  · subst hw
    exact (U4_out m c).symm
  · exact (((dat1 (E3 m) c).arrAt_in w (isIn1 w hw) _).trans (A_eq1 (E3 m) c w)).trans (U4_ne m c (Pipeline.arrRef spec1 w) (arrIn1 w hw)).symm

theorem hrest1 (c : Dev nD) : ∀ b, b ∉ Finset.univ.image (Pipeline.arrRef spec1) → E4 m c b = E3 m c b := fun b hb =>
  U4_ne m c b (fun e => hb (Finset.mem_image.mpr ⟨7, Finset.mem_univ _, arrOut1.trans e.symm⟩))

theorem arrOut2 : Pipeline.arrRef spec2 10 = main_v39 := by decide
theorem arrIn2 : ∀ w : Fin cfg2.W, w ≠ 10 → Pipeline.arrRef spec2 w ≠ main_v39 :=
  (by decide +kernel : ∀ w : Fin 11, w ≠ 10 → Pipeline.arrRef spec2 w ≠ main_v39)
theorem isIn2 : ∀ w : Fin cfg2.W, w ≠ 10 → (cfg2.win w).isOut = false :=
  (by decide +kernel : ∀ w : Fin 11, w ≠ 10 → (cfg2.win w).isOut = false)

set_option maxHeartbeats 1000000 in
theorem hF2 (c : Dev nD) (w : Fin cfg2.W) : (dat2 (E5 m) c).arrAt w cfg2.N = E6 m c (Pipeline.arrRef spec2 w) := by
  by_cases hw : w = 10
  · subst hw
    exact (U6_out m c).symm
  · exact (((dat2 (E5 m) c).arrAt_in w (isIn2 w hw) _).trans (A_eq2 (E5 m) c w)).trans (U6_ne m c (Pipeline.arrRef spec2 w) (arrIn2 w hw)).symm

theorem hrest2 (c : Dev nD) : ∀ b, b ∉ Finset.univ.image (Pipeline.arrRef spec2) → E6 m c b = E5 m c b := fun b hb =>
  U6_ne m c b (fun e => hb (Finset.mem_image.mpr ⟨10, Finset.mem_univ _, arrOut2.trans e.symm⟩))

theorem arrOut3 : Pipeline.arrRef spec3 10 = main_v57 := by decide
theorem arrIn3 : ∀ w : Fin cfg3.W, w ≠ 10 → Pipeline.arrRef spec3 w ≠ main_v57 :=
  (by decide +kernel : ∀ w : Fin 11, w ≠ 10 → Pipeline.arrRef spec3 w ≠ main_v57)
theorem isIn3 : ∀ w : Fin cfg3.W, w ≠ 10 → (cfg3.win w).isOut = false :=
  (by decide +kernel : ∀ w : Fin 11, w ≠ 10 → (cfg3.win w).isOut = false)

set_option maxHeartbeats 1000000 in
theorem hF3 (c : Dev nD) (w : Fin cfg3.W) : (dat3 (E7 m) c).arrAt w cfg3.N = E8 m c (Pipeline.arrRef spec3 w) := by
  by_cases hw : w = 10
  · subst hw
    exact (U8_out m c).symm
  · exact (((dat3 (E7 m) c).arrAt_in w (isIn3 w hw) _).trans (A_eq3 (E7 m) c w)).trans (U8_ne m c (Pipeline.arrRef spec3 w) (arrIn3 w hw)).symm

theorem hrest3 (c : Dev nD) : ∀ b, b ∉ Finset.univ.image (Pipeline.arrRef spec3) → E8 m c b = E7 m c b := fun b hb =>
  U8_ne m c b (fun e => hb (Finset.mem_image.mpr ⟨10, Finset.mem_univ _, arrOut3.trans e.symm⟩))

theorem arrOut4 : Pipeline.arrRef spec4 10 = main_v75 := by decide
theorem arrIn4 : ∀ w : Fin cfg4.W, w ≠ 10 → Pipeline.arrRef spec4 w ≠ main_v75 :=
  (by decide +kernel : ∀ w : Fin 11, w ≠ 10 → Pipeline.arrRef spec4 w ≠ main_v75)
theorem isIn4 : ∀ w : Fin cfg4.W, w ≠ 10 → (cfg4.win w).isOut = false :=
  (by decide +kernel : ∀ w : Fin 11, w ≠ 10 → (cfg4.win w).isOut = false)

set_option maxHeartbeats 1000000 in
theorem hF4 (c : Dev nD) (w : Fin cfg4.W) : (dat4 (E9 m) c).arrAt w cfg4.N = E10 m c (Pipeline.arrRef spec4 w) := by
  by_cases hw : w = 10
  · subst hw
    exact (U10_out m c).symm
  · exact (((dat4 (E9 m) c).arrAt_in w (isIn4 w hw) _).trans (A_eq4 (E9 m) c w)).trans (U10_ne m c (Pipeline.arrRef spec4 w) (arrIn4 w hw)).symm

theorem hrest4 (c : Dev nD) : ∀ b, b ∉ Finset.univ.image (Pipeline.arrRef spec4) → E10 m c b = E9 m c b := fun b hb =>
  U10_ne m c b (fun e => hb (Finset.mem_image.mpr ⟨10, Finset.mem_univ _, arrOut4.trans e.symm⟩))

theorem arrOut5 : Pipeline.arrRef spec5 10 = main_v93 := by decide
theorem arrIn5 : ∀ w : Fin cfg5.W, w ≠ 10 → Pipeline.arrRef spec5 w ≠ main_v93 :=
  (by decide +kernel : ∀ w : Fin 11, w ≠ 10 → Pipeline.arrRef spec5 w ≠ main_v93)
theorem isIn5 : ∀ w : Fin cfg5.W, w ≠ 10 → (cfg5.win w).isOut = false :=
  (by decide +kernel : ∀ w : Fin 11, w ≠ 10 → (cfg5.win w).isOut = false)

set_option maxHeartbeats 1000000 in
theorem hF5 (c : Dev nD) (w : Fin cfg5.W) : (dat5 (E11 m) c).arrAt w cfg5.N = E12 m c (Pipeline.arrRef spec5 w) := by
  by_cases hw : w = 10
  · subst hw
    exact (U12_out m c).symm
  · exact (((dat5 (E11 m) c).arrAt_in w (isIn5 w hw) _).trans (A_eq5 (E11 m) c w)).trans (U12_ne m c (Pipeline.arrRef spec5 w) (arrIn5 w hw)).symm

theorem hrest5 (c : Dev nD) : ∀ b, b ∉ Finset.univ.image (Pipeline.arrRef spec5) → E12 m c b = E11 m c b := fun b hb =>
  U12_ne m c b (fun e => hb (Finset.mem_image.mpr ⟨10, Finset.mem_univ _, arrOut5.trans e.symm⟩))

theorem arrOut6 : Pipeline.arrRef spec6 10 = main_v111 := by decide
theorem arrIn6 : ∀ w : Fin cfg6.W, w ≠ 10 → Pipeline.arrRef spec6 w ≠ main_v111 :=
  (by decide +kernel : ∀ w : Fin 11, w ≠ 10 → Pipeline.arrRef spec6 w ≠ main_v111)
theorem isIn6 : ∀ w : Fin cfg6.W, w ≠ 10 → (cfg6.win w).isOut = false :=
  (by decide +kernel : ∀ w : Fin 11, w ≠ 10 → (cfg6.win w).isOut = false)

set_option maxHeartbeats 1000000 in
theorem hF6 (c : Dev nD) (w : Fin cfg6.W) : (dat6 (E13 m) c).arrAt w cfg6.N = E14 m c (Pipeline.arrRef spec6 w) := by
  by_cases hw : w = 10
  · subst hw
    exact (U14_out m c).symm
  · exact (((dat6 (E13 m) c).arrAt_in w (isIn6 w hw) _).trans (A_eq6 (E13 m) c w)).trans (U14_ne m c (Pipeline.arrRef spec6 w) (arrIn6 w hw)).symm

theorem hrest6 (c : Dev nD) : ∀ b, b ∉ Finset.univ.image (Pipeline.arrRef spec6) → E14 m c b = E13 m c b := fun b hb =>
  U14_ne m c b (fun e => hb (Finset.mem_image.mpr ⟨10, Finset.mem_univ _, arrOut6.trans e.symm⟩))

theorem arrOut7 : Pipeline.arrRef spec7 7 = main_v125 := by decide
theorem arrIn7 : ∀ w : Fin cfg7.W, w ≠ 7 → Pipeline.arrRef spec7 w ≠ main_v125 :=
  (by decide +kernel : ∀ w : Fin 8, w ≠ 7 → Pipeline.arrRef spec7 w ≠ main_v125)
theorem isIn7 : ∀ w : Fin cfg7.W, w ≠ 7 → (cfg7.win w).isOut = false :=
  (by decide +kernel : ∀ w : Fin 8, w ≠ 7 → (cfg7.win w).isOut = false)

set_option maxHeartbeats 1000000 in
theorem hF7 (c : Dev nD) (w : Fin cfg7.W) : (dat7 (E15 m) c).arrAt w cfg7.N = E16 m c (Pipeline.arrRef spec7 w) := by
  by_cases hw : w = 7
  · subst hw
    exact (U16_out m c).symm
  · exact (((dat7 (E15 m) c).arrAt_in w (isIn7 w hw) _).trans (A_eq7 (E15 m) c w)).trans (U16_ne m c (Pipeline.arrRef spec7 w) (arrIn7 w hw)).symm

theorem hrest7 (c : Dev nD) : ∀ b, b ∉ Finset.univ.image (Pipeline.arrRef spec7) → E16 m c b = E15 m c b := fun b hb =>
  U16_ne m c b (fun e => hb (Finset.mem_image.mpr ⟨7, Finset.mem_univ _, arrOut7.trans e.symm⟩))

theorem arrOut8 : Pipeline.arrRef spec8 3 = main_v127 := by decide
theorem arrIn8 : ∀ w : Fin cfg8.W, w ≠ 3 → Pipeline.arrRef spec8 w ≠ main_v127 :=
  (by decide +kernel : ∀ w : Fin 4, w ≠ 3 → Pipeline.arrRef spec8 w ≠ main_v127)
theorem isIn8 : ∀ w : Fin cfg8.W, w ≠ 3 → (cfg8.win w).isOut = false :=
  (by decide +kernel : ∀ w : Fin 4, w ≠ 3 → (cfg8.win w).isOut = false)

set_option maxHeartbeats 1000000 in
theorem hF8 (c : Dev nD) (w : Fin cfg8.W) : (dat8 (E17 m) c).arrAt w cfg8.N = E18 m c (Pipeline.arrRef spec8 w) := by
  by_cases hw : w = 3
  · subst hw
    exact (U18_out m c).symm
  · exact (((dat8 (E17 m) c).arrAt_in w (isIn8 w hw) _).trans (A_eq8 (E17 m) c w)).trans (U18_ne m c (Pipeline.arrRef spec8 w) (arrIn8 w hw)).symm

theorem hrest8 (c : Dev nD) : ∀ b, b ∉ Finset.univ.image (Pipeline.arrRef spec8) → E18 m c b = E17 m c b := fun b hb =>
  U18_ne m c b (fun e => hb (Finset.mem_image.mpr ⟨3, Finset.mem_univ _, arrOut8.trans e.symm⟩))

/-! ## The proof data family and what rides beside the buffers -/

def pdats : (p : Fin 9) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c

abbrev 𝒱h : Variants := Variants.none
abbrev Lh : GSem nD τ sig → Finset Unit := fun _ => ∅
abbrev lvh : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)
abbrev Eh : Fin 10 → Dev nD → sProp 𝕄 := fun _ c => Rr c

/-! ## The regions as segments -/

set_option backward.isDefEq.respectTransparency.types false in
set_option maxHeartbeats 1000000 in
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) : iprop(StableHlo.held (c : Thread nD τ) (Pipeline.ucRefs τ sig) (V1 m c) ∗ Eh 0 c) ⊢ (reg0 m).pre c := by
  rw [V1_eq]; exact .rfl
theorem hpost0 (c : Dev nD) : (reg0 m).post c ⊢ iprop(StableHlo.held (c : Thread nD τ) (Pipeline.ucRefs τ sig) (V2 m (outs m) c) ∗ Eh 1 c) := by
  rw [V2_eq]; exact .rfl

set_option backward.isDefEq.respectTransparency.types false in
set_option maxHeartbeats 1000000 in
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lh lvh 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre1 (c : Dev nD) : iprop(StableHlo.held (c : Thread nD τ) (Pipeline.ucRefs τ sig) (V3 m (outs m) c) ∗ Eh 1 c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ Eh 2 c) := by
  rw [V4_eq]; exact .rfl

set_option backward.isDefEq.respectTransparency.types false in
set_option maxHeartbeats 1000000 in
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ Lh lvh 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre2 (c : Dev nD) : iprop(StableHlo.held (c : Thread nD τ) (Pipeline.ucRefs τ sig) (V5 m (outs m) c) ∗ Eh 2 c) ⊢ (reg2 m).pre c := by
  rw [V5_eq]; exact .rfl
theorem hpost2 (c : Dev nD) : (reg2 m).post c ⊢ iprop(StableHlo.held (c : Thread nD τ) (Pipeline.ucRefs τ sig) (V6 m (outs m) c) ∗ Eh 3 c) := by
  rw [V6_eq]; exact .rfl

set_option backward.isDefEq.respectTransparency.types false in
set_option maxHeartbeats 1000000 in
def reg3 : Pipeline.RegionSeg (pcfgs (F := F)) adm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ Lh lvh 3 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c)
    unfold Pipeline.ΦA
    iintro ⟨Hp, -, Hr⟩
    isplitl [Hr]; · iexact Hr
    iexact Hp
  hout c := by
    rw [Pipeline.ownSems0_none]
    refine BIBase.Entails.trans (hout3 (E7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre3 (c : Dev nD) : iprop(StableHlo.held (c : Thread nD τ) (Pipeline.ucRefs τ sig) (V7 m (outs m) c) ∗ Eh 3 c) ⊢ (reg3 m).pre c := by
  rw [V7_eq]; exact .rfl
theorem hpost3 (c : Dev nD) : (reg3 m).post c ⊢ iprop(StableHlo.held (c : Thread nD τ) (Pipeline.ucRefs τ sig) (V8 m (outs m) c) ∗ Eh 4 c) := by
  rw [V8_eq]; exact .rfl

set_option backward.isDefEq.respectTransparency.types false in
set_option maxHeartbeats 1000000 in
def reg4 : Pipeline.RegionSeg (pcfgs (F := F)) adm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ Lh lvh 4 fun _ _ => rfl
  pre c := iprop(StableHlo.held (c : Thread nD τ) (Pipeline.ucRefs τ sig) (U9 m c) ∗ Rr c)
  post c := iprop(StableHlo.held (c : Thread nD τ) (Pipeline.ucRefs τ sig) (U10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (E9 m) c)
    unfold Pipeline.ΦA
    iintro ⟨Hp, -, Hr⟩
    isplitl [Hr]; · iexact Hr
    iexact Hp
  hout c := by
    rw [Pipeline.ownSems0_none]
    refine BIBase.Entails.trans (hout4 (E9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre4 (c : Dev nD) : iprop(StableHlo.held (c : Thread nD τ) (Pipeline.ucRefs τ sig) (V9 m (outs m) c) ∗ Eh 4 c) ⊢ (reg4 m).pre c := by
  rw [V9_eq]; exact .rfl
theorem hpost4 (c : Dev nD) : (reg4 m).post c ⊢ iprop(StableHlo.held (c : Thread nD τ) (Pipeline.ucRefs τ sig) (V10 m (outs m) c) ∗ Eh 5 c) := by
  rw [V10_eq]; exact .rfl

set_option backward.isDefEq.respectTransparency.types false in
set_option maxHeartbeats 1000000 in
def reg5 : Pipeline.RegionSeg (pcfgs (F := F)) adm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ Lh lvh 5 fun _ _ => rfl
  pre c := iprop(StableHlo.held (c : Thread nD τ) (Pipeline.ucRefs τ sig) (U11 m c) ∗ Rr c)
  post c := iprop(StableHlo.held (c : Thread nD τ) (Pipeline.ucRefs τ sig) (U12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (E11 m) c)
    unfold Pipeline.ΦA
    iintro ⟨Hp, -, Hr⟩
    isplitl [Hr]; · iexact Hr
    iexact Hp
  hout c := by
    rw [Pipeline.ownSems0_none]
    refine BIBase.Entails.trans (hout5 (E11 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre5 (c : Dev nD) : iprop(StableHlo.held (c : Thread nD τ) (Pipeline.ucRefs τ sig) (V11 m (outs m) c) ∗ Eh 5 c) ⊢ (reg5 m).pre c := by
  rw [V11_eq]; exact .rfl
theorem hpost5 (c : Dev nD) : (reg5 m).post c ⊢ iprop(StableHlo.held (c : Thread nD τ) (Pipeline.ucRefs τ sig) (V12 m (outs m) c) ∗ Eh 6 c) := by
  rw [V12_eq]; exact .rfl

set_option backward.isDefEq.respectTransparency.types false in
set_option maxHeartbeats 1000000 in
def reg6 : Pipeline.RegionSeg (pcfgs (F := F)) adm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ Lh lvh 6 fun _ _ => rfl
  pre c := iprop(StableHlo.held (c : Thread nD τ) (Pipeline.ucRefs τ sig) (U13 m c) ∗ Rr c)
  post c := iprop(StableHlo.held (c : Thread nD τ) (Pipeline.ucRefs τ sig) (U14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (E13 m) c)
    unfold Pipeline.ΦA
    iintro ⟨Hp, -, Hr⟩
    isplitl [Hr]; · iexact Hr
    iexact Hp
  hout c := by
    rw [Pipeline.ownSems0_none]
    refine BIBase.Entails.trans (hout6 (E13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre6 (c : Dev nD) : iprop(StableHlo.held (c : Thread nD τ) (Pipeline.ucRefs τ sig) (V13 m (outs m) c) ∗ Eh 6 c) ⊢ (reg6 m).pre c := by
  rw [V13_eq]; exact .rfl
theorem hpost6 (c : Dev nD) : (reg6 m).post c ⊢ iprop(StableHlo.held (c : Thread nD τ) (Pipeline.ucRefs τ sig) (V14 m (outs m) c) ∗ Eh 7 c) := by
  rw [V14_eq]; exact .rfl

set_option backward.isDefEq.respectTransparency.types false in
set_option maxHeartbeats 1000000 in
def reg7 : Pipeline.RegionSeg (pcfgs (F := F)) adm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ Lh lvh 7 fun _ _ => rfl
  pre c := iprop(StableHlo.held (c : Thread nD τ) (Pipeline.ucRefs τ sig) (U15 m c) ∗ Rr c)
  post c := iprop(StableHlo.held (c : Thread nD τ) (Pipeline.ucRefs τ sig) (U16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (E15 m) c)
    unfold Pipeline.ΦA
    iintro ⟨Hp, -, Hr⟩
    isplitl [Hr]; · iexact Hr
    iexact Hp
  hout c := by
    rw [Pipeline.ownSems0_none]
    refine BIBase.Entails.trans (hout7 (E15 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre7 (c : Dev nD) : iprop(StableHlo.held (c : Thread nD τ) (Pipeline.ucRefs τ sig) (V15 m (outs m) c) ∗ Eh 7 c) ⊢ (reg7 m).pre c := by
  rw [V15_eq]; exact .rfl
theorem hpost7 (c : Dev nD) : (reg7 m).post c ⊢ iprop(StableHlo.held (c : Thread nD τ) (Pipeline.ucRefs τ sig) (V16 m (outs m) c) ∗ Eh 8 c) := by
  rw [V16_eq]; exact .rfl

set_option backward.isDefEq.respectTransparency.types false in
set_option maxHeartbeats 1000000 in
def reg8 : Pipeline.RegionSeg (pcfgs (F := F)) adm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ Lh lvh 8 fun _ _ => rfl
  pre c := iprop(StableHlo.held (c : Thread nD τ) (Pipeline.ucRefs τ sig) (U17 m c) ∗ Rr c)
  post c := iprop(StableHlo.held (c : Thread nD τ) (Pipeline.ucRefs τ sig) (U18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre8 (c : Dev nD) : iprop(StableHlo.held (c : Thread nD τ) (Pipeline.ucRefs τ sig) (V17 m (outs m) c) ∗ Eh 8 c) ⊢ (reg8 m).pre c := by
  rw [V17_eq]; exact .rfl
theorem hpost8 (c : Dev nD) : (reg8 m).post c ⊢ iprop(StableHlo.held (c : Thread nD τ) (Pipeline.ucRefs τ sig) (V18 m (outs m) c) ∗ Eh 9 c) := by
  rw [V18_eq]; exact .rfl

/-! ## The run -/

/-- An unscoped TensorCore reference is among those the boundaries' states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary's state, regrouped: the buffers and the generator register, beside the core owing nothing. -/
theorem hlast (c : Dev nD) : iprop(StableHlo.held (c : Thread nD τ) (Pipeline.ucRefs τ sig) (V18 m (outs m) c) ∗ Eh 9 c)
    ⊢ (iprop(iprop(StableHlo.held (c : Thread nD τ) (Pipeline.ucRefs τ sig) (V18 m (outs m) c) ∗ ∃ r, prngReg c r) ∗ ∃ W, owes (c : Thread nD τ) (0 : CellTallies nD τ sig Unit) W) : sProp 𝕄) := by
  iintro ⟨Hh, Hp, HO⟩
  isplitl [Hh Hp]
  · isplitl [Hh] <;> iassumption
  iexact HO

set_option backward.isDefEq.respectTransparency.types false in
set_option maxHeartbeats 4000000 in
/-- Every weakly fair execution of @main from `m` terminates, nothing faulting, and ends with every unscoped buffer of every core
    at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V18 m (outs m) c b) := by
  refine Pipeline.θ_run_regions_kit_dev (pcfgs (F := F)) adm (pdats m) () cellOf_inj emb₁ defs₀ 𝒱h Lh lvh m ρ main
    (segs m (outs m) 𝒱h Lh lvh Eh () (pdats m) (reg0 m) (reg1 m) (reg2 m) (reg3 m) (reg4 m) (reg5 m) (reg6 m) (reg7 m) (reg8 m))
    (fun c Q => by
      rewrite [main_chain c, Seg.run_eq_chain,
        show (segs m (outs m) 𝒱h Lh lvh Eh () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Eh 0 c))
    (Tₙ := fun c => iprop(StableHlo.held (c : Thread nD τ) (Pipeline.ucRefs τ sig) (V18 m (outs m) c) ∗ ∃ r, prngReg c r))
    (hch := fun c => ⟨.rfl, hpre0 m c, hpost0 m c, hpre1 m c, hpost1 m c, hpre2 m c, hpost2 m c, hpre3 m c, hpost3 m c, hpre4 m c, hpost4 m c, hpre5 m c, hpost5 m c, hpre6 m c, hpost6 m c, hpre7 m c, hpost7 m c, hpre8 m c, (hpost8 m c).trans (hlast m c)⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V18 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V18 m (outs m) c) s')
      isplitl [Hh] <;> iassumption)
    (hQ := fun s h c => h c)

/-! ## The frame and the result -/

/-- Every argument array ends holding its launch contents: no host stretch and no region writes one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c),
     (h c _ (mem_uc main_arg12 (by decide))).trans (V18_main_arg12 m (outs m) c)⟩) (run_all m ρ)

/-- The result array ends at what the last region leaves in it, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v127) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v127 (by decide))).trans ((congrFun (V18_eq m c) _).trans (U18_out m c)),
     (h c _ (mem_uc main_arg0 (by decide))).trans (V18_main_arg0 m (outs m) c),
     (h c _ (mem_uc main_arg1 (by decide))).trans (V18_main_arg1 m (outs m) c),
     (h c _ (mem_uc main_arg2 (by decide))).trans (V18_main_arg2 m (outs m) c),
     (h c _ (mem_uc main_arg3 (by decide))).trans (V18_main_arg3 m (outs m) c),
     (h c _ (mem_uc main_arg4 (by decide))).trans (V18_main_arg4 m (outs m) c),
     (h c _ (mem_uc main_arg5 (by decide))).trans (V18_main_arg5 m (outs m) c),
     (h c _ (mem_uc main_arg6 (by decide))).trans (V18_main_arg6 m (outs m) c),
     (h c _ (mem_uc main_arg7 (by decide))).trans (V18_main_arg7 m (outs m) c),
     (h c _ (mem_uc main_arg8 (by decide))).trans (V18_main_arg8 m (outs m) c),
     (h c _ (mem_uc main_arg9 (by decide))).trans (V18_main_arg9 m (outs m) c),
     (h c _ (mem_uc main_arg10 (by decide))).trans (V18_main_arg10 m (outs m) c),
     (h c _ (mem_uc main_arg11 (by decide))).trans (V18_main_arg11 m (outs m) c),
     (h c _ (mem_uc main_arg12 (by decide))).trans (V18_main_arg12 m (outs m) c)⟩) (run_all m ρ)

end Cert.KernelIdeal.Hand

end
-- ==== Proof.KI.V8.lean ====
/- Region 8 at the ideal instance: the final linear map read at an index, cur · W_outᵀ + b_out, and the region's output array. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R8Frame
import Idealize.ShloMosaic.Lib.ValueIdx
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2_8 : (![0, 0] : Fin 2 → Nat) = fun _ => 0 := funext fun a => by fin_cases a <;> rfl

/-- The final product's dimension numbers: both operands contract their second axis, 1024 deep. -/
abbrev D8 : DotDims S64x1024 S512x1024 S64x512 := dot_S64x1024_S512x1024_S64x512_1_1_0_0_n_n

theorem D8_lhs0 (j : S64x512.Idx) (k : D8.contr.Idx) : (D8.lhsIdx j k 0 : ℕ) = j 0 := by
  simp [DotDims.lhsIdx, D8, dot_S64x1024_S512x1024_S64x512_1_1_0_0_n_n]; rfl
theorem D8_lhs1 (j : S64x512.Idx) (k : D8.contr.Idx) : (D8.lhsIdx j k 1 : ℕ) = k ⟨0, by decide⟩ := by
  simp [DotDims.lhsIdx, D8, dot_S64x1024_S512x1024_S64x512_1_1_0_0_n_n]; rfl
theorem D8_rhs0 (j : S64x512.Idx) (k : D8.contr.Idx) : (D8.rhsIdx j k 0 : ℕ) = j 1 := by
  simp [DotDims.rhsIdx, D8, dot_S64x1024_S512x1024_S64x512_1_1_0_0_n_n]; rfl
theorem D8_rhs1 (j : S64x512.Idx) (k : D8.contr.Idx) : (D8.rhsIdx j k 1 : ℕ) = k ⟨0, by decide⟩ := by
  simp [DotDims.rhsIdx, D8, dot_S64x1024_S512x1024_S64x512_1_1_0_0_n_n]; rfl

abbrev ce8 : D8.contr.Idx ≃ Fin 1024 := contrEquiv1 D8 1024 rfl rfl

theorem D8_lhsIdx (b : Fin 64) (o : Fin 512) (n : Fin 1024) : D8.lhsIdx (ix2 b o) (ce8.symm n) = ix2 b n := by
  funext a; apply Fin.ext
  match a with
  | ⟨0, _⟩ => exact D8_lhs0 (ix2 b o) (ce8.symm n)
  | ⟨1, _⟩ => exact (D8_lhs1 (ix2 b o) (ce8.symm n)).trans (contrEquiv1_symm_val D8 1024 rfl rfl n)

theorem D8_rhsIdx (b : Fin 64) (o : Fin 512) (n : Fin 1024) : D8.rhsIdx (ix2 b o) (ce8.symm n) = ix2 o n := by
  funext a; apply Fin.ext
  match a with
  | ⟨0, _⟩ => exact D8_rhs0 (ix2 b o) (ce8.symm n)
  | ⟨1, _⟩ => exact (D8_rhs1 (ix2 b o) (ce8.symm n)).trans (contrEquiv1_symm_val D8 1024 rfl rfl n)

theorem pay8_apply (x : Vec Ideal S64x1024 .f32) (w : Vec Ideal S512x1024 .f32) (bias : Vec Ideal S1x512 .f32) (b : Fin 64) (o : Fin 512) :
    k8_pay1 x w bias (ix2 b o) = (∑ n : Fin 1024, x (ix2 b n) * w (ix2 o n)) + bias (ix2 (0 : Fin 1) o) := by
  unfold k8_pay1
  simp only [shapeCast_self]
  show FloatOps.matmul (F := Ideal) D8 none (truncf .bf16 x bitsLt_bf16_f32) (truncf .bf16 w bitsLt_bf16_f32) (constant S64x512 .f32 0x00000000#32) (ix2 b o)
      + broadcastTo S64x512 bias broadcasts_S1x512_S64x512 (ix2 b o) = _
  rw [Ideal.matmul_constant_zero_apply, broadcastTo_apply bias broadcasts_S1x512_S64x512 (ix2 b o) (ix2 (0 : Fin 1) o) (by
    intro a
    match a with
    | ⟨0, _⟩ => rfl
    | ⟨1, _⟩ => rfl)]
  refine congrArg (· + bias (ix2 (0 : Fin 1) o)) ?_
  rw [← Equiv.sum_comp ce8.symm]
  refine Finset.sum_congr rfl fun n _ => ?_
  rw [D8_lhsIdx, D8_rhsIdx]
  rfl

variable (V : (c : Dev nD) → (b : Ref sig .tc) → Buf (Elt Ideal) ((c : Thread nD τ).loc b))

theorem idx8_all : ∀ t : Fin cfg8.N, win8_0.index t (0 : Fin 2) = 0 ∧ win8_0.index t (1 : Fin 2) = 0 ∧ win8_1.index t (0 : Fin 2) = 0 ∧ win8_1.index t (1 : Fin 2) = 0
    ∧ win8_2.index t (0 : Fin 2) = 0 ∧ win8_2.index t (1 : Fin 2) = 0 ∧ win8_3.index t (0 : Fin 2) = 0 ∧ win8_3.index t (1 : Fin 2) = 0 :=
  (by decide +kernel : ∀ t : Fin grid8.N, _)

abbrev a8_0 (c : Dev nD) : S64x1024.Idx → EReal := V c main_v125
abbrev a8_1 (c : Dev nD) : S512x1024.Idx → EReal := V c main_arg8
abbrev a8_2 (c : Dev nD) : S1x512.Idx → EReal := V c main_v126

theorem blk8_0 (c : Dev nD) (t : Fin cfg8.N) (y : S64x1024.Idx) : iblk8 V c 0 t y = a8_0 V c y := by
  unfold iblk8
  show V c main_v125 (((cfg8.win 0).blk t).view.emb y) = _
  refine congrArg (V c main_v125) ?_
  obtain ⟨e0, e1, -⟩ := idx8_all t
  funext a; apply Fin.ext
  match a with
  | ⟨0, _⟩ => show win8_0.index t (0 : Fin 2) * 64 + 1 * (y 0).val = (y 0).val; omega
  | ⟨1, _⟩ => show win8_0.index t (1 : Fin 2) * 1024 + 1 * (y 1).val = (y 1).val; omega

theorem blk8_1 (c : Dev nD) (t : Fin cfg8.N) (y : S512x1024.Idx) : iblk8 V c 1 t y = a8_1 V c y := by
  unfold iblk8
  show V c main_arg8 (((cfg8.win 1).blk t).view.emb y) = _
  refine congrArg (V c main_arg8) ?_
  obtain ⟨-, -, e0, e1, -⟩ := idx8_all t
  funext a; apply Fin.ext
  match a with
  | ⟨0, _⟩ => show win8_1.index t (0 : Fin 2) * 512 + 1 * (y 0).val = (y 0).val; omega
  | ⟨1, _⟩ => show win8_1.index t (1 : Fin 2) * 1024 + 1 * (y 1).val = (y 1).val; omega

theorem blk8_2 (c : Dev nD) (t : Fin cfg8.N) (y : S1x512.Idx) : iblk8 V c 2 t y = a8_2 V c y := by
  unfold iblk8
  show V c main_v126 (((cfg8.win 2).blk t).view.emb y) = _
  refine congrArg (V c main_v126) ?_
  obtain ⟨-, -, -, -, e0, e1, -⟩ := idx8_all t
  funext a; apply Fin.ext
  match a with
  | ⟨0, _⟩ => show win8_2.index t (0 : Fin 2) * 1 + 1 * (y 0).val = (y 0).val; omega
  | ⟨1, _⟩ => show win8_2.index t (1 : Fin 2) * 512 + 1 * (y 1).val = (y 1).val; omega

/-- What the body leaves in the output's buffer is the payload of the three blocks. -/
theorem out8_3_eq (x0 : Vec Ideal S64x1024 .f32) (x1 : Vec Ideal S512x1024 .f32) (x2 : Vec Ideal S1x512 .f32) :
    out8_3 x0 x1 x2 = k8_pay1 x0 x1 x2 := by
  unfold out8_3
  rw [View.canon_unit_zero hz2_8]
  simp only [View.ld_unit_zero (S := S64x1024) hz2_8, View.ld_unit_zero (S := S512x1024) hz2_8, View.ld_unit_zero (S := S1x512) hz2_8]

/-- What region 8 leaves in the result array. -/
def G8 (c : Dev nD) : S64x512.Idx → EReal := k8_pay1 (F := Ideal) (a8_0 V c) (a8_1 V c) (a8_2 V c)

theorem emb8_out (t : Fin cfg8.N) (y : S64x512.Idx) : ((cfg8.win 3).blk t).view.emb y = y := by
  obtain ⟨-, -, -, -, -, -, e0, e1⟩ := idx8_all t
  funext a; apply Fin.ext
  match a with
  | ⟨0, _⟩ => show win8_3.index t (0 : Fin 2) * 64 + 1 * (y 0).val = (y 0).val; omega
  | ⟨1, _⟩ => show win8_3.index t (1 : Fin 2) * 512 + 1 * (y 1).val = (y 1).val; omega

theorem flushed8_eq (c : Dev nD) (t : Fin cfg8.N) :
    (dat8 V c).flushed 3 t = ((cfg8.win 3).blk t).view.read (Elt Ideal) (G8 V c) := by
  show (cfg8.win 3).cut (grid8.coords t) ((dat8 V c).after 3 t) = _
  rw [after8_3, out8_3_eq]
  funext y
  show k8_pay1 (iblk8 V c 0 t) (iblk8 V c 1 t) (iblk8 V c 2 t) y = G8 V c (((cfg8.win 3).blk t).view.emb y)
  rw [emb8_out, show iblk8 V c 0 t = a8_0 V c from funext (blk8_0 V c t), show iblk8 V c 1 t = a8_1 V c from funext (blk8_1 V c t),
    show iblk8 V c 2 t = a8_2 V c from funext (blk8_2 V c t)]
  rfl

theorem mem_blk8_out (t : Fin cfg8.N) (i : S64x512.Idx) :
    i ∈ ((cfg8.win 3).blk t).view.set ↔ ∀ a : Fin 2, win8_3.index t a * S64x512.size a ≤ (i a).val ∧ (i a).val < win8_3.index t a * S64x512.size a + S64x512.size a := by
  show i ∈ ((View.whole main_v127).slice (win8_3.rect t)).set ↔ _
  rw [View.set_slice_whole, Rect.mem_set_unit]
  exact Iff.rfl

theorem final8 (c : Dev nD) : (dat8 V c).arrAt 3 cfg8.N = G8 V c :=
  (dat8 V c).arrAt_eq_of_cover 3 (G8 V c) (fun t _ => flushed8_eq V c t) (fun i =>
    ⟨t8_0, flush8_3 t8_0, by
      rw [mem_blk8_out]
      obtain ⟨-, -, -, -, -, -, e0, e1⟩ := idx8_all t8_0
      intro a
      match a with
      | ⟨0, _⟩ => show win8_3.index t8_0 (0 : Fin 2) * 64 ≤ (i 0).val ∧ (i 0).val < win8_3.index t8_0 (0 : Fin 2) * 64 + 64; have hi : (i 0).val < 64 := (i 0).isLt; omega
      | ⟨1, _⟩ => show win8_3.index t8_0 (1 : Fin 2) * 512 ≤ (i 1).val ∧ (i 1).val < win8_3.index t8_0 (1 : Fin 2) * 512 + 512; have hi : (i 1).val < 512 := (i 1).isLt; omega⟩)

/-- The result array at an index: the product with W_out plus the bias. -/
theorem final8_apply (c : Dev nD) (b : Fin 64) (o : Fin 512) :
    (dat8 V c).arrAt 3 cfg8.N (ix2 b o) = (∑ n : Fin 1024, a8_0 V c (ix2 b n) * a8_1 V c (ix2 o n)) + a8_2 V c (ix2 (0 : Fin 1) o) :=
  (congrFun (final8 V c) (ix2 b o)).trans (pay8_apply _ _ _ b o)

end Cert.KernelIdeal.Hand

end
-- ==== Proof.KI.Bnd.lean ====
/- The boundaries between host stretches and kernel regions, read: every argument array holds its launch contents at every boundary; a host
   stretch keeps every array it does not write; and what each stretch leaves in the arrays the next region stages — slices of the stacked
   weights, masks and biases reshaped, and the buffer of earlier layers' outputs with the newest output put in place. -/
import proofs.«164445_j37684043055467_1_alg».proof.Proof.Gen.KernelIdeal.Regions
import proofs.«164445_j37684043055467_1_alg».proof.Proof.Gen.KernelIdeal.Skeleton
import proofs.«164445_j37684043055467_1_alg».proof.Proof.Gen.KernelIdeal.Points
import proofs.«164445_j37684043055467_1_alg».proof.Proof.KI.Run
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt Ideal) ℓ)

/-- The argument arrays. -/
abbrev ARGS : List (Ref sig .tc) := [main_arg0, main_arg1, main_arg2, main_arg3, main_arg4, main_arg5, main_arg6, main_arg7, main_arg8, main_arg9, main_arg10, main_arg11, main_arg12]

theorem argsNotW0 : ∀ r ∈ ARGS, r ∉ hostOps0_W := by decide
theorem U1_arg (c : Dev nD) (r : Ref sig .tc) (hr : r ∈ ARGS) : E1 m c r = m ((c : Thread nD τ).loc r) :=
  V1_of m c r (argsNotW0 r hr)

theorem argsNeOut0 : ∀ r ∈ ARGS, r ≠ main_v6 := by decide
theorem U2_arg (c : Dev nD) (r : Ref sig .tc) (hr : r ∈ ARGS) : E2 m c r = m ((c : Thread nD τ).loc r) :=
  (U2_ne m c r (argsNeOut0 r hr)).trans (U1_arg m c r hr)

/-- The host stretch after region 0 keeps what it does not write. -/
theorem keep3 (c : Dev nD) (r : Ref sig .tc) (h : r ∉ hostOps1_W) : E3 m c r = E2 m c r := by
  have e := V3_of m (outs m) c r h
  rwa [V3_eq, V2_eq] at e
theorem argsNotW1 : ∀ r ∈ ARGS, r ∉ hostOps1_W := by decide
theorem U3_arg (c : Dev nD) (r : Ref sig .tc) (hr : r ∈ ARGS) : E3 m c r = m ((c : Thread nD τ).loc r) :=
  (keep3 m c r (argsNotW1 r hr)).trans (U2_arg m c r hr)

theorem argsNeOut1 : ∀ r ∈ ARGS, r ≠ main_v21 := by decide
theorem U4_arg (c : Dev nD) (r : Ref sig .tc) (hr : r ∈ ARGS) : E4 m c r = m ((c : Thread nD τ).loc r) :=
  (U4_ne m c r (argsNeOut1 r hr)).trans (U3_arg m c r hr)

/-- The host stretch after region 1 keeps what it does not write. -/
theorem keep5 (c : Dev nD) (r : Ref sig .tc) (h : r ∉ hostOps2_W) : E5 m c r = E4 m c r := by
  have e := V5_of m (outs m) c r h
  rwa [V5_eq, V4_eq] at e
theorem argsNotW2 : ∀ r ∈ ARGS, r ∉ hostOps2_W := by decide
theorem U5_arg (c : Dev nD) (r : Ref sig .tc) (hr : r ∈ ARGS) : E5 m c r = m ((c : Thread nD τ).loc r) :=
  (keep5 m c r (argsNotW2 r hr)).trans (U4_arg m c r hr)

theorem argsNeOut2 : ∀ r ∈ ARGS, r ≠ main_v39 := by decide
theorem U6_arg (c : Dev nD) (r : Ref sig .tc) (hr : r ∈ ARGS) : E6 m c r = m ((c : Thread nD τ).loc r) :=
  (U6_ne m c r (argsNeOut2 r hr)).trans (U5_arg m c r hr)

/-- The host stretch after region 2 keeps what it does not write. -/
theorem keep7 (c : Dev nD) (r : Ref sig .tc) (h : r ∉ hostOps3_W) : E7 m c r = E6 m c r := by
  have e := V7_of m (outs m) c r h
  rwa [V7_eq, V6_eq] at e
theorem argsNotW3 : ∀ r ∈ ARGS, r ∉ hostOps3_W := by decide
theorem U7_arg (c : Dev nD) (r : Ref sig .tc) (hr : r ∈ ARGS) : E7 m c r = m ((c : Thread nD τ).loc r) :=
  (keep7 m c r (argsNotW3 r hr)).trans (U6_arg m c r hr)

theorem argsNeOut3 : ∀ r ∈ ARGS, r ≠ main_v57 := by decide
theorem U8_arg (c : Dev nD) (r : Ref sig .tc) (hr : r ∈ ARGS) : E8 m c r = m ((c : Thread nD τ).loc r) :=
  (U8_ne m c r (argsNeOut3 r hr)).trans (U7_arg m c r hr)

/-- The host stretch after region 3 keeps what it does not write. -/
theorem keep9 (c : Dev nD) (r : Ref sig .tc) (h : r ∉ hostOps4_W) : E9 m c r = E8 m c r := by
  have e := V9_of m (outs m) c r h
  rwa [V9_eq, V8_eq] at e
theorem argsNotW4 : ∀ r ∈ ARGS, r ∉ hostOps4_W := by decide
theorem U9_arg (c : Dev nD) (r : Ref sig .tc) (hr : r ∈ ARGS) : E9 m c r = m ((c : Thread nD τ).loc r) :=
  (keep9 m c r (argsNotW4 r hr)).trans (U8_arg m c r hr)

theorem argsNeOut4 : ∀ r ∈ ARGS, r ≠ main_v75 := by decide
theorem U10_arg (c : Dev nD) (r : Ref sig .tc) (hr : r ∈ ARGS) : E10 m c r = m ((c : Thread nD τ).loc r) :=
  (U10_ne m c r (argsNeOut4 r hr)).trans (U9_arg m c r hr)

/-- The host stretch after region 4 keeps what it does not write. -/
theorem keep11 (c : Dev nD) (r : Ref sig .tc) (h : r ∉ hostOps5_W) : E11 m c r = E10 m c r := by
  have e := V11_of m (outs m) c r h
  rwa [V11_eq, V10_eq] at e
theorem argsNotW5 : ∀ r ∈ ARGS, r ∉ hostOps5_W := by decide
theorem U11_arg (c : Dev nD) (r : Ref sig .tc) (hr : r ∈ ARGS) : E11 m c r = m ((c : Thread nD τ).loc r) :=
  (keep11 m c r (argsNotW5 r hr)).trans (U10_arg m c r hr)

theorem argsNeOut5 : ∀ r ∈ ARGS, r ≠ main_v93 := by decide
theorem U12_arg (c : Dev nD) (r : Ref sig .tc) (hr : r ∈ ARGS) : E12 m c r = m ((c : Thread nD τ).loc r) :=
  (U12_ne m c r (argsNeOut5 r hr)).trans (U11_arg m c r hr)

/-- The host stretch after region 5 keeps what it does not write. -/
theorem keep13 (c : Dev nD) (r : Ref sig .tc) (h : r ∉ hostOps6_W) : E13 m c r = E12 m c r := by
  have e := V13_of m (outs m) c r h
  rwa [V13_eq, V12_eq] at e
theorem argsNotW6 : ∀ r ∈ ARGS, r ∉ hostOps6_W := by decide
theorem U13_arg (c : Dev nD) (r : Ref sig .tc) (hr : r ∈ ARGS) : E13 m c r = m ((c : Thread nD τ).loc r) :=
  (keep13 m c r (argsNotW6 r hr)).trans (U12_arg m c r hr)

theorem argsNeOut6 : ∀ r ∈ ARGS, r ≠ main_v111 := by decide
theorem U14_arg (c : Dev nD) (r : Ref sig .tc) (hr : r ∈ ARGS) : E14 m c r = m ((c : Thread nD τ).loc r) :=
  (U14_ne m c r (argsNeOut6 r hr)).trans (U13_arg m c r hr)

/-- The host stretch after region 6 keeps what it does not write. -/
theorem keep15 (c : Dev nD) (r : Ref sig .tc) (h : r ∉ hostOps7_W) : E15 m c r = E14 m c r := by
  have e := V15_of m (outs m) c r h
  rwa [V15_eq, V14_eq] at e
theorem argsNotW7 : ∀ r ∈ ARGS, r ∉ hostOps7_W := by decide
theorem U15_arg (c : Dev nD) (r : Ref sig .tc) (hr : r ∈ ARGS) : E15 m c r = m ((c : Thread nD τ).loc r) :=
  (keep15 m c r (argsNotW7 r hr)).trans (U14_arg m c r hr)

theorem argsNeOut7 : ∀ r ∈ ARGS, r ≠ main_v125 := by decide
theorem U16_arg (c : Dev nD) (r : Ref sig .tc) (hr : r ∈ ARGS) : E16 m c r = m ((c : Thread nD τ).loc r) :=
  (U16_ne m c r (argsNeOut7 r hr)).trans (U15_arg m c r hr)

/-- The host stretch after region 7 keeps what it does not write. -/
theorem keep17 (c : Dev nD) (r : Ref sig .tc) (h : r ∉ hostOps8_W) : E17 m c r = E16 m c r := by
  have e := V17_of m (outs m) c r h
  rwa [V17_eq, V16_eq] at e
theorem argsNotW8 : ∀ r ∈ ARGS, r ∉ hostOps8_W := by decide
theorem U17_arg (c : Dev nD) (r : Ref sig .tc) (hr : r ∈ ARGS) : E17 m c r = m ((c : Thread nD τ).loc r) :=
  (keep17 m c r (argsNotW8 r hr)).trans (U16_arg m c r hr)

theorem argsNeOut8 : ∀ r ∈ ARGS, r ≠ main_v127 := by decide
theorem U18_arg (c : Dev nD) (r : Ref sig .tc) (hr : r ∈ ARGS) : E18 m c r = m ((c : Thread nD τ).loc r) :=
  (U18_ne m c r (argsNeOut8 r hr)).trans (U17_arg m c r hr)

/-! ## What each host stretch leaves in the arrays the next region stages -/

theorem B1_main_v11 (c : Dev nD) : (E3 m c main_v11 : S1024x1024.Idx → EReal)
    = (shapeCast S1024x1024 (extractStridedSlice S1x1024x1024 ![0, 0, 0] (E2 m c main_arg4) slices_S7x1024x1024_S1x1024x1024_0_0_0) shapeCasts_S1x1024x1024_S1024x1024) := by
  show StableHlo.after hostOps1 (U2 m c) (Proc.devRef .tc main_v11) = _
  after_results <;> rfl

theorem B1_main_v13 (c : Dev nD) : (E3 m c main_v13 : S1024x1024.Idx → EReal)
    = (shapeCast S1024x1024 (extractStridedSlice S1x1024x1024 ![0, 0, 0] (E2 m c main_arg10) slices_S7x1024x1024_S1x1024x1024_0_0_0) shapeCasts_S1x1024x1024_S1024x1024) := by
  show StableHlo.after hostOps1 (U2 m c) (Proc.devRef .tc main_v13) = _
  after_results <;> rfl

theorem B1_main_v15 (c : Dev nD) : (E3 m c main_v15 : S1024x8192.Idx → EReal)
    = (shapeCast S1024x8192 (extractStridedSlice S1x1024x8192 ![1, 0, 0] (E2 m c main_arg6) slices_S7x1024x8192_S1x1024x8192_1_0_0) shapeCasts_S1x1024x8192_S1024x8192) := by
  show StableHlo.after hostOps1 (U2 m c) (Proc.devRef .tc main_v15) = _
  after_results <;> rfl

theorem B1_main_v17 (c : Dev nD) : (E3 m c main_v17 : S1024x8192.Idx → EReal)
    = (shapeCast S1024x8192 (extractStridedSlice S1x1024x8192 ![1, 0, 0] (E2 m c main_arg11) slices_S7x1024x8192_S1x1024x8192_1_0_0) shapeCasts_S1x1024x8192_S1024x8192) := by
  show StableHlo.after hostOps1 (U2 m c) (Proc.devRef .tc main_v17) = _
  after_results <;> rfl

theorem B1_main_v20 (c : Dev nD) : (E3 m c main_v20 : S1x1024.Idx → EReal)
    = (shapeCast S1x1024 (shapeCast S1024 (extractStridedSlice S1x1024 ![0, 0] (E2 m c main_arg5) slices_S7x1024_S1x1024_0_0) shapeCasts_S1x1024_S1024) shapeCasts_S1024_S1x1024) := by
  show StableHlo.after hostOps1 (U2 m c) (Proc.devRef .tc main_v20) = _
  after_results <;> rfl

theorem B2_main_v25 (c : Dev nD) : (E5 m c main_v25 : S1024x1024.Idx → EReal)
    = (shapeCast S1024x1024 (extractStridedSlice S1x1024x1024 ![1, 0, 0] (E4 m c main_arg4) slices_S7x1024x1024_S1x1024x1024_1_0_0) shapeCasts_S1x1024x1024_S1024x1024) := by
  show StableHlo.after hostOps2 (U4 m c) (Proc.devRef .tc main_v25) = _
  after_results <;> rfl

theorem B2_main_v27 (c : Dev nD) : (E5 m c main_v27 : S1024x1024.Idx → EReal)
    = (shapeCast S1024x1024 (extractStridedSlice S1x1024x1024 ![1, 0, 0] (E4 m c main_arg10) slices_S7x1024x1024_S1x1024x1024_1_0_0) shapeCasts_S1x1024x1024_S1024x1024) := by
  show StableHlo.after hostOps2 (U4 m c) (Proc.devRef .tc main_v27) = _
  after_results <;> rfl

theorem B2_main_v29 (c : Dev nD) : (E5 m c main_v29 : S1024x8192.Idx → EReal)
    = (shapeCast S1024x8192 (extractStridedSlice S1x1024x8192 ![2, 0, 0] (E4 m c main_arg6) slices_S7x1024x8192_S1x1024x8192_2_0_0) shapeCasts_S1x1024x8192_S1024x8192) := by
  show StableHlo.after hostOps2 (U4 m c) (Proc.devRef .tc main_v29) = _
  after_results <;> rfl

theorem B2_main_v31 (c : Dev nD) : (E5 m c main_v31 : S1024x8192.Idx → EReal)
    = (shapeCast S1024x8192 (extractStridedSlice S1x1024x8192 ![2, 0, 0] (E4 m c main_arg11) slices_S7x1024x8192_S1x1024x8192_2_0_0) shapeCasts_S1x1024x8192_S1024x8192) := by
  show StableHlo.after hostOps2 (U4 m c) (Proc.devRef .tc main_v31) = _
  after_results <;> rfl

theorem B2_main_v23 (c : Dev nD) : (E5 m c main_v23 : S64x7168.Idx → EReal)
    = (Host.scatter scatter_S64x7168_S1_S64x1024_01_n_1_0 (fun _ b => b) (E4 m c main_v9) (broadcastInDim S1 ![] bcast_S_S1 (constantI S_ 32 1024#32)) (E4 m c main_v21)) := by
  show StableHlo.after hostOps2 (U4 m c) (Proc.devRef .tc main_v23) = _
  after_results <;> rfl

theorem B2_main_v33 (c : Dev nD) : (E5 m c main_v33 : S1024x7168.Idx → EReal)
    = (shapeCast S1024x7168 (extractStridedSlice S1x1024x7168 ![0, 0, 0] (E4 m c main_arg7) slices_S6x1024x7168_S1x1024x7168_0_0_0) shapeCasts_S1x1024x7168_S1024x7168) := by
  show StableHlo.after hostOps2 (U4 m c) (Proc.devRef .tc main_v33) = _
  after_results <;> rfl

theorem B2_main_v35 (c : Dev nD) : (E5 m c main_v35 : S1024x7168.Idx → EReal)
    = (shapeCast S1024x7168 (extractStridedSlice S1x1024x7168 ![0, 0, 0] (E4 m c main_arg12) slices_S6x1024x7168_S1x1024x7168_0_0_0) shapeCasts_S1x1024x7168_S1024x7168) := by
  show StableHlo.after hostOps2 (U4 m c) (Proc.devRef .tc main_v35) = _
  after_results <;> rfl

theorem B2_main_v38 (c : Dev nD) : (E5 m c main_v38 : S1x1024.Idx → EReal)
    = (shapeCast S1x1024 (shapeCast S1024 (extractStridedSlice S1x1024 ![1, 0] (E4 m c main_arg5) slices_S7x1024_S1x1024_1_0) shapeCasts_S1x1024_S1024) shapeCasts_S1024_S1x1024) := by
  show StableHlo.after hostOps2 (U4 m c) (Proc.devRef .tc main_v38) = _
  after_results <;> rfl

theorem B3_main_v43 (c : Dev nD) : (E7 m c main_v43 : S1024x1024.Idx → EReal)
    = (shapeCast S1024x1024 (extractStridedSlice S1x1024x1024 ![2, 0, 0] (E6 m c main_arg4) slices_S7x1024x1024_S1x1024x1024_2_0_0) shapeCasts_S1x1024x1024_S1024x1024) := by
  show StableHlo.after hostOps3 (U6 m c) (Proc.devRef .tc main_v43) = _
  after_results <;> rfl

theorem B3_main_v45 (c : Dev nD) : (E7 m c main_v45 : S1024x1024.Idx → EReal)
    = (shapeCast S1024x1024 (extractStridedSlice S1x1024x1024 ![2, 0, 0] (E6 m c main_arg10) slices_S7x1024x1024_S1x1024x1024_2_0_0) shapeCasts_S1x1024x1024_S1024x1024) := by
  show StableHlo.after hostOps3 (U6 m c) (Proc.devRef .tc main_v45) = _
  after_results <;> rfl

theorem B3_main_v47 (c : Dev nD) : (E7 m c main_v47 : S1024x8192.Idx → EReal)
    = (shapeCast S1024x8192 (extractStridedSlice S1x1024x8192 ![3, 0, 0] (E6 m c main_arg6) slices_S7x1024x8192_S1x1024x8192_3_0_0) shapeCasts_S1x1024x8192_S1024x8192) := by
  show StableHlo.after hostOps3 (U6 m c) (Proc.devRef .tc main_v47) = _
  after_results <;> rfl

theorem B3_main_v49 (c : Dev nD) : (E7 m c main_v49 : S1024x8192.Idx → EReal)
    = (shapeCast S1024x8192 (extractStridedSlice S1x1024x8192 ![3, 0, 0] (E6 m c main_arg11) slices_S7x1024x8192_S1x1024x8192_3_0_0) shapeCasts_S1x1024x8192_S1024x8192) := by
  show StableHlo.after hostOps3 (U6 m c) (Proc.devRef .tc main_v49) = _
  after_results <;> rfl

theorem B3_main_v41 (c : Dev nD) : (E7 m c main_v41 : S64x7168.Idx → EReal)
    = (Host.scatter scatter_S64x7168_S1_S64x1024_01_n_1_0 (fun _ b => b) (E6 m c main_v23) (broadcastInDim S1 ![] bcast_S_S1 (constantI S_ 32 2048#32)) (E6 m c main_v39)) := by
  show StableHlo.after hostOps3 (U6 m c) (Proc.devRef .tc main_v41) = _
  after_results <;> rfl

theorem B3_main_v51 (c : Dev nD) : (E7 m c main_v51 : S1024x7168.Idx → EReal)
    = (shapeCast S1024x7168 (extractStridedSlice S1x1024x7168 ![1, 0, 0] (E6 m c main_arg7) slices_S6x1024x7168_S1x1024x7168_1_0_0) shapeCasts_S1x1024x7168_S1024x7168) := by
  show StableHlo.after hostOps3 (U6 m c) (Proc.devRef .tc main_v51) = _
  after_results <;> rfl

theorem B3_main_v53 (c : Dev nD) : (E7 m c main_v53 : S1024x7168.Idx → EReal)
    = (shapeCast S1024x7168 (extractStridedSlice S1x1024x7168 ![1, 0, 0] (E6 m c main_arg12) slices_S6x1024x7168_S1x1024x7168_1_0_0) shapeCasts_S1x1024x7168_S1024x7168) := by
  show StableHlo.after hostOps3 (U6 m c) (Proc.devRef .tc main_v53) = _
  after_results <;> rfl

theorem B3_main_v56 (c : Dev nD) : (E7 m c main_v56 : S1x1024.Idx → EReal)
    = (shapeCast S1x1024 (shapeCast S1024 (extractStridedSlice S1x1024 ![2, 0] (E6 m c main_arg5) slices_S7x1024_S1x1024_2_0) shapeCasts_S1x1024_S1024) shapeCasts_S1024_S1x1024) := by
  show StableHlo.after hostOps3 (U6 m c) (Proc.devRef .tc main_v56) = _
  after_results <;> rfl

theorem B4_main_v61 (c : Dev nD) : (E9 m c main_v61 : S1024x1024.Idx → EReal)
    = (shapeCast S1024x1024 (extractStridedSlice S1x1024x1024 ![3, 0, 0] (E8 m c main_arg4) slices_S7x1024x1024_S1x1024x1024_3_0_0) shapeCasts_S1x1024x1024_S1024x1024) := by
  show StableHlo.after hostOps4 (U8 m c) (Proc.devRef .tc main_v61) = _
  after_results <;> rfl

theorem B4_main_v63 (c : Dev nD) : (E9 m c main_v63 : S1024x1024.Idx → EReal)
    = (shapeCast S1024x1024 (extractStridedSlice S1x1024x1024 ![3, 0, 0] (E8 m c main_arg10) slices_S7x1024x1024_S1x1024x1024_3_0_0) shapeCasts_S1x1024x1024_S1024x1024) := by
  show StableHlo.after hostOps4 (U8 m c) (Proc.devRef .tc main_v63) = _
  after_results <;> rfl

theorem B4_main_v65 (c : Dev nD) : (E9 m c main_v65 : S1024x8192.Idx → EReal)
    = (shapeCast S1024x8192 (extractStridedSlice S1x1024x8192 ![4, 0, 0] (E8 m c main_arg6) slices_S7x1024x8192_S1x1024x8192_4_0_0) shapeCasts_S1x1024x8192_S1024x8192) := by
  show StableHlo.after hostOps4 (U8 m c) (Proc.devRef .tc main_v65) = _
  after_results <;> rfl

theorem B4_main_v67 (c : Dev nD) : (E9 m c main_v67 : S1024x8192.Idx → EReal)
    = (shapeCast S1024x8192 (extractStridedSlice S1x1024x8192 ![4, 0, 0] (E8 m c main_arg11) slices_S7x1024x8192_S1x1024x8192_4_0_0) shapeCasts_S1x1024x8192_S1024x8192) := by
  show StableHlo.after hostOps4 (U8 m c) (Proc.devRef .tc main_v67) = _
  after_results <;> rfl

theorem B4_main_v59 (c : Dev nD) : (E9 m c main_v59 : S64x7168.Idx → EReal)
    = (Host.scatter scatter_S64x7168_S1_S64x1024_01_n_1_0 (fun _ b => b) (E8 m c main_v41) (broadcastInDim S1 ![] bcast_S_S1 (constantI S_ 32 3072#32)) (E8 m c main_v57)) := by
  show StableHlo.after hostOps4 (U8 m c) (Proc.devRef .tc main_v59) = _
  after_results <;> rfl

theorem B4_main_v69 (c : Dev nD) : (E9 m c main_v69 : S1024x7168.Idx → EReal)
    = (shapeCast S1024x7168 (extractStridedSlice S1x1024x7168 ![2, 0, 0] (E8 m c main_arg7) slices_S6x1024x7168_S1x1024x7168_2_0_0) shapeCasts_S1x1024x7168_S1024x7168) := by
  show StableHlo.after hostOps4 (U8 m c) (Proc.devRef .tc main_v69) = _
  after_results <;> rfl

theorem B4_main_v71 (c : Dev nD) : (E9 m c main_v71 : S1024x7168.Idx → EReal)
    = (shapeCast S1024x7168 (extractStridedSlice S1x1024x7168 ![2, 0, 0] (E8 m c main_arg12) slices_S6x1024x7168_S1x1024x7168_2_0_0) shapeCasts_S1x1024x7168_S1024x7168) := by
  show StableHlo.after hostOps4 (U8 m c) (Proc.devRef .tc main_v71) = _
  after_results <;> rfl

theorem B4_main_v74 (c : Dev nD) : (E9 m c main_v74 : S1x1024.Idx → EReal)
    = (shapeCast S1x1024 (shapeCast S1024 (extractStridedSlice S1x1024 ![3, 0] (E8 m c main_arg5) slices_S7x1024_S1x1024_3_0) shapeCasts_S1x1024_S1024) shapeCasts_S1024_S1x1024) := by
  show StableHlo.after hostOps4 (U8 m c) (Proc.devRef .tc main_v74) = _
  after_results <;> rfl

theorem B5_main_v79 (c : Dev nD) : (E11 m c main_v79 : S1024x1024.Idx → EReal)
    = (shapeCast S1024x1024 (extractStridedSlice S1x1024x1024 ![4, 0, 0] (E10 m c main_arg4) slices_S7x1024x1024_S1x1024x1024_4_0_0) shapeCasts_S1x1024x1024_S1024x1024) := by
  show StableHlo.after hostOps5 (U10 m c) (Proc.devRef .tc main_v79) = _
  after_results <;> rfl

theorem B5_main_v81 (c : Dev nD) : (E11 m c main_v81 : S1024x1024.Idx → EReal)
    = (shapeCast S1024x1024 (extractStridedSlice S1x1024x1024 ![4, 0, 0] (E10 m c main_arg10) slices_S7x1024x1024_S1x1024x1024_4_0_0) shapeCasts_S1x1024x1024_S1024x1024) := by
  show StableHlo.after hostOps5 (U10 m c) (Proc.devRef .tc main_v81) = _
  after_results <;> rfl

theorem B5_main_v83 (c : Dev nD) : (E11 m c main_v83 : S1024x8192.Idx → EReal)
    = (shapeCast S1024x8192 (extractStridedSlice S1x1024x8192 ![5, 0, 0] (E10 m c main_arg6) slices_S7x1024x8192_S1x1024x8192_5_0_0) shapeCasts_S1x1024x8192_S1024x8192) := by
  show StableHlo.after hostOps5 (U10 m c) (Proc.devRef .tc main_v83) = _
  after_results <;> rfl

theorem B5_main_v85 (c : Dev nD) : (E11 m c main_v85 : S1024x8192.Idx → EReal)
    = (shapeCast S1024x8192 (extractStridedSlice S1x1024x8192 ![5, 0, 0] (E10 m c main_arg11) slices_S7x1024x8192_S1x1024x8192_5_0_0) shapeCasts_S1x1024x8192_S1024x8192) := by
  show StableHlo.after hostOps5 (U10 m c) (Proc.devRef .tc main_v85) = _
  after_results <;> rfl

theorem B5_main_v77 (c : Dev nD) : (E11 m c main_v77 : S64x7168.Idx → EReal)
    = (Host.scatter scatter_S64x7168_S1_S64x1024_01_n_1_0 (fun _ b => b) (E10 m c main_v59) (broadcastInDim S1 ![] bcast_S_S1 (constantI S_ 32 4096#32)) (E10 m c main_v75)) := by
  show StableHlo.after hostOps5 (U10 m c) (Proc.devRef .tc main_v77) = _
  after_results <;> rfl

theorem B5_main_v87 (c : Dev nD) : (E11 m c main_v87 : S1024x7168.Idx → EReal)
    = (shapeCast S1024x7168 (extractStridedSlice S1x1024x7168 ![3, 0, 0] (E10 m c main_arg7) slices_S6x1024x7168_S1x1024x7168_3_0_0) shapeCasts_S1x1024x7168_S1024x7168) := by
  show StableHlo.after hostOps5 (U10 m c) (Proc.devRef .tc main_v87) = _
  after_results <;> rfl

theorem B5_main_v89 (c : Dev nD) : (E11 m c main_v89 : S1024x7168.Idx → EReal)
    = (shapeCast S1024x7168 (extractStridedSlice S1x1024x7168 ![3, 0, 0] (E10 m c main_arg12) slices_S6x1024x7168_S1x1024x7168_3_0_0) shapeCasts_S1x1024x7168_S1024x7168) := by
  show StableHlo.after hostOps5 (U10 m c) (Proc.devRef .tc main_v89) = _
  after_results <;> rfl

theorem B5_main_v92 (c : Dev nD) : (E11 m c main_v92 : S1x1024.Idx → EReal)
    = (shapeCast S1x1024 (shapeCast S1024 (extractStridedSlice S1x1024 ![4, 0] (E10 m c main_arg5) slices_S7x1024_S1x1024_4_0) shapeCasts_S1x1024_S1024) shapeCasts_S1024_S1x1024) := by
  show StableHlo.after hostOps5 (U10 m c) (Proc.devRef .tc main_v92) = _
  after_results <;> rfl

theorem B6_main_v97 (c : Dev nD) : (E13 m c main_v97 : S1024x1024.Idx → EReal)
    = (shapeCast S1024x1024 (extractStridedSlice S1x1024x1024 ![5, 0, 0] (E12 m c main_arg4) slices_S7x1024x1024_S1x1024x1024_5_0_0) shapeCasts_S1x1024x1024_S1024x1024) := by
  show StableHlo.after hostOps6 (U12 m c) (Proc.devRef .tc main_v97) = _
  after_results <;> rfl

theorem B6_main_v99 (c : Dev nD) : (E13 m c main_v99 : S1024x1024.Idx → EReal)
    = (shapeCast S1024x1024 (extractStridedSlice S1x1024x1024 ![5, 0, 0] (E12 m c main_arg10) slices_S7x1024x1024_S1x1024x1024_5_0_0) shapeCasts_S1x1024x1024_S1024x1024) := by
  show StableHlo.after hostOps6 (U12 m c) (Proc.devRef .tc main_v99) = _
  after_results <;> rfl

theorem B6_main_v101 (c : Dev nD) : (E13 m c main_v101 : S1024x8192.Idx → EReal)
    = (shapeCast S1024x8192 (extractStridedSlice S1x1024x8192 ![6, 0, 0] (E12 m c main_arg6) slices_S7x1024x8192_S1x1024x8192_6_0_0) shapeCasts_S1x1024x8192_S1024x8192) := by
  show StableHlo.after hostOps6 (U12 m c) (Proc.devRef .tc main_v101) = _
  after_results <;> rfl

theorem B6_main_v103 (c : Dev nD) : (E13 m c main_v103 : S1024x8192.Idx → EReal)
    = (shapeCast S1024x8192 (extractStridedSlice S1x1024x8192 ![6, 0, 0] (E12 m c main_arg11) slices_S7x1024x8192_S1x1024x8192_6_0_0) shapeCasts_S1x1024x8192_S1024x8192) := by
  show StableHlo.after hostOps6 (U12 m c) (Proc.devRef .tc main_v103) = _
  after_results <;> rfl

theorem B6_main_v95 (c : Dev nD) : (E13 m c main_v95 : S64x7168.Idx → EReal)
    = (Host.scatter scatter_S64x7168_S1_S64x1024_01_n_1_0 (fun _ b => b) (E12 m c main_v77) (broadcastInDim S1 ![] bcast_S_S1 (constantI S_ 32 5120#32)) (E12 m c main_v93)) := by
  show StableHlo.after hostOps6 (U12 m c) (Proc.devRef .tc main_v95) = _
  after_results <;> rfl

theorem B6_main_v105 (c : Dev nD) : (E13 m c main_v105 : S1024x7168.Idx → EReal)
    = (shapeCast S1024x7168 (extractStridedSlice S1x1024x7168 ![4, 0, 0] (E12 m c main_arg7) slices_S6x1024x7168_S1x1024x7168_4_0_0) shapeCasts_S1x1024x7168_S1024x7168) := by
  show StableHlo.after hostOps6 (U12 m c) (Proc.devRef .tc main_v105) = _
  after_results <;> rfl

theorem B6_main_v107 (c : Dev nD) : (E13 m c main_v107 : S1024x7168.Idx → EReal)
    = (shapeCast S1024x7168 (extractStridedSlice S1x1024x7168 ![4, 0, 0] (E12 m c main_arg12) slices_S6x1024x7168_S1x1024x7168_4_0_0) shapeCasts_S1x1024x7168_S1024x7168) := by
  show StableHlo.after hostOps6 (U12 m c) (Proc.devRef .tc main_v107) = _
  after_results <;> rfl

theorem B6_main_v110 (c : Dev nD) : (E13 m c main_v110 : S1x1024.Idx → EReal)
    = (shapeCast S1x1024 (shapeCast S1024 (extractStridedSlice S1x1024 ![5, 0] (E12 m c main_arg5) slices_S7x1024_S1x1024_5_0) shapeCasts_S1x1024_S1024) shapeCasts_S1024_S1x1024) := by
  show StableHlo.after hostOps6 (U12 m c) (Proc.devRef .tc main_v110) = _
  after_results <;> rfl

theorem B7_main_v115 (c : Dev nD) : (E15 m c main_v115 : S1024x1024.Idx → EReal)
    = (shapeCast S1024x1024 (extractStridedSlice S1x1024x1024 ![6, 0, 0] (E14 m c main_arg4) slices_S7x1024x1024_S1x1024x1024_6_0_0) shapeCasts_S1x1024x1024_S1024x1024) := by
  show StableHlo.after hostOps7 (U14 m c) (Proc.devRef .tc main_v115) = _
  after_results <;> rfl

theorem B7_main_v117 (c : Dev nD) : (E15 m c main_v117 : S1024x1024.Idx → EReal)
    = (shapeCast S1024x1024 (extractStridedSlice S1x1024x1024 ![6, 0, 0] (E14 m c main_arg10) slices_S7x1024x1024_S1x1024x1024_6_0_0) shapeCasts_S1x1024x1024_S1024x1024) := by
  show StableHlo.after hostOps7 (U14 m c) (Proc.devRef .tc main_v117) = _
  after_results <;> rfl

theorem B7_main_v113 (c : Dev nD) : (E15 m c main_v113 : S64x7168.Idx → EReal)
    = (Host.scatter scatter_S64x7168_S1_S64x1024_01_n_1_0 (fun _ b => b) (E14 m c main_v95) (broadcastInDim S1 ![] bcast_S_S1 (constantI S_ 32 6144#32)) (E14 m c main_v111)) := by
  show StableHlo.after hostOps7 (U14 m c) (Proc.devRef .tc main_v113) = _
  after_results <;> rfl

theorem B7_main_v119 (c : Dev nD) : (E15 m c main_v119 : S1024x7168.Idx → EReal)
    = (shapeCast S1024x7168 (extractStridedSlice S1x1024x7168 ![5, 0, 0] (E14 m c main_arg7) slices_S6x1024x7168_S1x1024x7168_5_0_0) shapeCasts_S1x1024x7168_S1024x7168) := by
  show StableHlo.after hostOps7 (U14 m c) (Proc.devRef .tc main_v119) = _
  after_results <;> rfl

theorem B7_main_v121 (c : Dev nD) : (E15 m c main_v121 : S1024x7168.Idx → EReal)
    = (shapeCast S1024x7168 (extractStridedSlice S1x1024x7168 ![5, 0, 0] (E14 m c main_arg12) slices_S6x1024x7168_S1x1024x7168_5_0_0) shapeCasts_S1x1024x7168_S1024x7168) := by
  show StableHlo.after hostOps7 (U14 m c) (Proc.devRef .tc main_v121) = _
  after_results <;> rfl

theorem B7_main_v124 (c : Dev nD) : (E15 m c main_v124 : S1x1024.Idx → EReal)
    = (shapeCast S1x1024 (shapeCast S1024 (extractStridedSlice S1x1024 ![6, 0] (E14 m c main_arg5) slices_S7x1024_S1x1024_6_0) shapeCasts_S1x1024_S1024) shapeCasts_S1024_S1x1024) := by
  show StableHlo.after hostOps7 (U14 m c) (Proc.devRef .tc main_v124) = _
  after_results <;> rfl

theorem B8_main_v126 (c : Dev nD) : (E17 m c main_v126 : S1x512.Idx → EReal)
    = (shapeCast S1x512 (E16 m c main_arg9) shapeCasts_S512_S1x512) := by
  show StableHlo.after hostOps8 (U16 m c) (Proc.devRef .tc main_v126) = _
  after_results <;> rfl

theorem B1_main_v9 (c : Dev nD) : (E3 m c main_v9 : S64x7168.Idx → EReal)
    = (Host.scatter scatter_S64x7168_S1_S64x1024_01_n_1_0 (fun _ b => b) (broadcastInDim S64x7168 ![] bcast_S_S64x7168 (constant (F := Ideal) S_ .f32 0x00000000#32)) (broadcastInDim S1 ![] bcast_S_S1 (constantI S_ 32 0#32)) (E2 m c main_v6)) := by
  show StableHlo.after hostOps1 (U2 m c) (Proc.devRef .tc main_v9) = _
  after_results <;> rfl

end Cert.KernelIdeal.Hand

end
-- ==== Proof.LibHostApply.lean ====
import Idealize.ShloMosaic.Lib.ValueIdx
import Idealize.ShloMosaic.Lib.IdealHost
import Idealize.ShloMosaic.Lib.StackMember
import Idealize.ShloMosaic.PureOps.Ideal.Laws
import Idealize.ShloMosaic.Lib.Pipeline.Value

/-!
Host operations over rank-2 arrays read at an index: the column sums of an `N × C` array, the product of an
`N × K` by a `K × C` matrix, and the reshapes and broadcasts that add or repeat an axis of extent one. Each
is stated over the literal shape `⟨2, ![_, _]⟩` with its side condition a parameter, so that a program's own
shape facts and dimension records apply as they stand.
-/

namespace Cert.LibHostApply

open Idealize.ShloMosaic Idealize.ShloMosaic.ValueIdx

/-! ### Column sums -/

/-- The host's sum over axis 0 of an `N × C` array, read at column `f`: the initial value plus the sum over
    the rows of the entries of that column. -/
theorem reduceAdd_cols_apply {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (f : Fin C) :
    Host.reduceAdd x init h' hu (ix1 f) = init (Shape.Idx.first hu) + ∑ n : Fin N, x (ix2 n f) := by
  have h : (⟨2, ![N, C]⟩ : Shape).Reduces [0] ⟨1, ![C]⟩ := ⟨h'.1, Nat.one_pos, h'.2⟩
  show Ideal.hostReduceAdd h' x _ (ix1 f) = _
  rw [Ideal.hostReduceAdd_single h' h]
  refine congrArg (_ + ·) (Finset.sum_congr rfl fun n _ => ?_)
  refine congrArg x (funext fun a => Fin.ext ?_)
  match a with
  | ⟨0, _⟩ => rfl
  | ⟨1, _⟩ => rfl

/-- The same from an initial value that is zero: the column's sum alone. -/
theorem reduceAdd_cols_apply_zero {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (h0 : init (Shape.Idx.first hu) = 0)
    (f : Fin C) :
    Host.reduceAdd x init h' hu (ix1 f) = ∑ n : Fin N, x (ix2 n f) := by
  rw [reduceAdd_cols_apply, h0, zero_add]

/-! ### A matrix product -/

/-- The dimension numbers of `N × K` by `K × C`: contract the left operand's axis 1 with the right operand's
    axis 0, no batch axes. -/
abbrev mmDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The product read at `(n, f)`: the sum over the contracted coordinate of the products of the entries. -/
theorem dotGeneral_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    Host.dotGeneral (mmDims N K C wf) prec l r (ix2 n f) = ∑ k : Fin K, l (ix2 n k) * r (ix2 k f) :=
  StackMember.dotGeneral_plain_apply prec l r n f

/-! ### Reshapes and broadcasts that add or repeat a unit axis -/

section Moves
variable {α : Type}

/-- A vector reshaped to a column, at row `n`. -/
theorem shapeCast_col_apply {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector reshaped to a row, at column `f`. -/
theorem shapeCast_row_apply {C : Nat} (v : (⟨1, ![C]⟩ : Shape).Idx → α)
    (h : (⟨1, ![C]⟩ : Shape).ShapeCasts ⟨2, ![1, C]⟩) (f : Fin C) :
    shapeCast ⟨2, ![1, C]⟩ v h (ix2 (0 : Fin 1) f) = v (ix1 f) :=
  shapeCast_apply v h (ix2 (0 : Fin 1) f) (ix1 f) (by
    rw [Shape.rowMajor_val_one, Shape.rowMajor_val_two]
    show f.val = 0 * C + f.val
    omega)

/-- A row repeated down `N` rows, at `(n, f)`: the row's entry `f`. -/
theorem broadcastInDim_rows_apply {N C : Nat} (v : (⟨2, ![1, C]⟩ : Shape).Idx → α)
    (h : (⟨2, ![1, C]⟩ : Shape).BroadcastsInDim ⟨2, ![N, C]⟩ (![0, 1] : Fin 2 → Fin 2)) (n : Fin N) (f : Fin C) :
    broadcastInDim ⟨2, ![N, C]⟩ ![0, 1] h v (ix2 n f) = v (ix2 (0 : Fin 1) f) :=
  broadcastInDim_apply _ h v (ix2 n f) (ix2 (0 : Fin 1) f) (fun a => by
    match a with
    | ⟨0, _⟩ => exact (if_pos rfl).symm
    | ⟨1, _⟩ =>
      show f.val = if C = 1 then 0 else f.val
      split_ifs with hC
      · have := f.isLt; omega
      · rfl)

/-- A vector placed as the one row of a `1 × C` array, at column `f`. -/
theorem broadcastInDim_row_apply {C : Nat} (v : (⟨1, ![C]⟩ : Shape).Idx → α)
    (h : (⟨1, ![C]⟩ : Shape).BroadcastsInDim ⟨2, ![1, C]⟩ (![1] : Fin 1 → Fin 2)) (f : Fin C) :
    broadcastInDim ⟨2, ![1, C]⟩ ![1] h v (ix2 (0 : Fin 1) f) = v (ix1 f) :=
  broadcastInDim_apply _ h v (ix2 (0 : Fin 1) f) (ix1 f) (fun a => by
    match a with
    | ⟨0, _⟩ =>
      show f.val = if C = 1 then 0 else f.val
      split_ifs with hC
      · have := f.isLt; omega
      · rfl)

/-- A vector placed as the one column of an `E × 1` array, at row `e`. -/
theorem broadcastInDim_col_apply {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) (fun a => by
    match a with
    | ⟨0, _⟩ =>
      show e.val = if E = 1 then 0 else e.val
      split_ifs with hE
      · have := e.isLt; omega
      · rfl)

/-- A column repeated across `C` columns, at `(e, f)`: the column's entry `e`. -/
theorem broadcastInDim_cols_apply {E C : Nat} (v : (⟨2, ![E, 1]⟩ : Shape).Idx → α)
    (h : (⟨2, ![E, 1]⟩ : Shape).BroadcastsInDim ⟨2, ![E, C]⟩ (![0, 1] : Fin 2 → Fin 2)) (e : Fin E) (f : Fin C) :
    broadcastInDim ⟨2, ![E, C]⟩ ![0, 1] h v (ix2 e f) = v (ix2 e (0 : Fin 1)) :=
  broadcastInDim_apply _ h v (ix2 e f) (ix2 e (0 : Fin 1)) (fun a => by
    match a with
    | ⟨0, _⟩ =>
      show e.val = if E = 1 then 0 else e.val
      split_ifs with hE
      · have := e.isLt; omega
      · rfl
    | ⟨1, _⟩ => exact (if_pos rfl).symm)

/-- A scalar repeated over any shape reads the scalar everywhere. -/
theorem broadcastInDim_scalar_apply {T : Shape} (h : (⟨0, ![]⟩ : Shape).BroadcastsInDim T ![])
    (x : (⟨0, ![]⟩ : Shape).Idx → α) (j : T.Idx) : broadcastInDim T ![] h x j = x ix0 :=
  ValueIdx.broadcastInDim_scalar_apply h x j

end Moves

end Cert.LibHostApply
-- ==== Proof.RI.L0.lean ====
/- The reference's first layer at the ideal instance, read at an index:
   1 / (1 + exp(-((x·W_inᵀ + b_in) + h·(W_rec₀ ∘ mask_rec₀)ᵀ))), the slices of the stacked weights kept as whole arrays. -/
import proofs.«164445_j37684043055467_1_alg».proof.Proof.Gen.ReferenceIdeal.Run
import proofs.«164445_j37684043055467_1_alg».proof.Proof.LibHostApply
import Idealize.ShloMosaic.Lib.ValueIdx
import Idealize.ShloMosaic.Lib.Pipeline.Value
import Idealize.ShloMosaic.PureOps.Ideal.Laws

noncomputable section

namespace Cert.ReferenceIdeal.HandV

open Cert.ReferenceIdeal Cert.ReferenceIdeal.Gen Cert.ReferenceIdeal.Value
open Idealize.ShloMosaic Idealize.ShloMosaic.ValueIdx Cert.LibHostApply
open scoped BigOperators

set_option pp.maxSteps 8000
set_option pp.deepTerms false
set_option pp.proofs false

theorem one_f32 : Ideal.ofBits .f32 0x3F800000#32 = 1 := by
  simp [Ideal.ofBits, Ideal.ieee, -EReal.coe_mul]; norm_num

/-- A host product against a transposed [C, K] array: Σ_k l(b,k) · w(o,k). -/
theorem dotT_apply {N K C : Nat} (wf : DotDims.WF ⟨2, ![N, K]⟩ ⟨2, ![K, C]⟩ ⟨2, ![N, C]⟩ [1] [0] [0] [1] [] [])
    (l : FVec Ideal ⟨2, ![N, K]⟩ .f32) (w : FVec Ideal ⟨2, ![C, K]⟩ .f32)
    (ht : (⟨2, ![C, K]⟩ : Shape).Transposes [1, 0] ⟨2, ![K, C]⟩) (b : Fin N) (o : Fin C) :
    Host.dotGeneral (mmDims N K C wf) none l (transpose ⟨2, ![K, C]⟩ [1, 0] w ht) (ix2 b o) = ∑ k : Fin K, l (ix2 b k) * w (ix2 o k) := by
  rw [dotGeneral_mm_apply]
  refine Finset.sum_congr rfl fun k _ => congrArg (l (ix2 b k) * ·) ?_
  exact transpose_apply [1, 0] w ht (ix2 k o) (ix2 o k) (fun a => by
    match a with
    | ⟨0, _⟩ => rfl
    | ⟨1, _⟩ => rfl)

variable (V0 : Valuation τ sig (Elt Ideal))

/-- The arrays of the first layer, at their literal shapes; the two weight slices as whole arrays. -/
abbrev r_x : S64x512.Idx → EReal := V0 (Proc.devRef .tc main_arg0)
abbrev r_h : S64x8192.Idx → EReal := V0 (Proc.devRef .tc main_arg1)
abbrev r_win : S1024x512.Idx → EReal := V0 (Proc.devRef .tc main_arg2)
abbrev r_bin : S1024.Idx → EReal := V0 (Proc.devRef .tc main_arg3)
abbrev r_wr0 : S1024x8192.Idx → EReal :=
  shapeCast S1024x8192 (extractStridedSlice S1x1024x8192 ![0, 0, 0] (V0 (Proc.devRef .tc main_arg6)) slices_S7x1024x8192_S1x1024x8192_0_0_0) shapeCasts_S1x1024x8192_S1024x8192
abbrev r_mr0 : S1024x8192.Idx → EReal :=
  shapeCast S1024x8192 (extractStridedSlice S1x1024x8192 ![0, 0, 0] (V0 (Proc.devRef .tc main_arg11)) slices_S7x1024x8192_S1x1024x8192_0_0_0) shapeCasts_S1x1024x8192_S1024x8192

theorem res18_apply (b : Fin 64) (o : Fin 1024) :
    (res_main_v18 V0 (ix2 b o) : EReal)
      = Ideal.logistic (((∑ q : Fin 512, r_x V0 (ix2 b q) * r_win V0 (ix2 o q)) + r_bin V0 (ix1 o))
          + ∑ n : Fin 8192, r_h V0 (ix2 b n) * (r_wr0 V0 (ix2 o n) * r_mr0 V0 (ix2 o n))) := by
  unfold res_main_v18
  simp only [Host.divf, Host.exp, Host.negf, addf]
  have hD1 : Host.dotGeneral (F := Ideal) dot_S64x512_S512x1024_S64x1024_1_0_0_1_n_n none (V0 (Proc.devRef .tc main_arg0))
        (transpose S512x1024 [1, 0] (V0 (Proc.devRef .tc main_arg2)) transposes_S1024x512_S512x1024_1_0) (ix2 b o)
      = ∑ q : Fin 512, r_x V0 (ix2 b q) * r_win V0 (ix2 o q) :=
    dotT_apply dot_S64x512_S512x1024_S64x1024_1_0_0_1_n_n.wf _ _ _ b o
  have hD2 : Host.dotGeneral (F := Ideal) dot_S64x8192_S8192x1024_S64x1024_1_0_0_1_n_n none (V0 (Proc.devRef .tc main_arg1))
        (transpose S8192x1024 [1, 0] (mulf (r_wr0 V0) (r_mr0 V0)) transposes_S1024x8192_S8192x1024_1_0) (ix2 b o)
      = ∑ n : Fin 8192, r_h V0 (ix2 b n) * (r_wr0 V0 (ix2 o n) * r_mr0 V0 (ix2 o n)) :=
    dotT_apply dot_S64x8192_S8192x1024_S64x1024_1_0_0_1_n_n.wf _ _ _ b o
  have hB : broadcastInDim S64x1024 ![0, 1] bcast_S1x1024_S64x1024_0_1
        (broadcastInDim S1x1024 ![1] bcast_S1024_S1x1024_1 (V0 (Proc.devRef .tc main_arg3))) (ix2 b o) = r_bin V0 (ix1 o) :=
    (broadcastInDim_rows_apply _ bcast_S1x1024_S64x1024_0_1 b o).trans (broadcastInDim_row_apply _ bcast_S1024_S1x1024_1 o)
  have h1 : broadcastInDim S64x1024 ![] bcast_S_S64x1024 (constant (F := Ideal) S_ .f32 0x3F800000#32) (ix2 b o) = (1 : EReal) :=
    (ValueIdx.broadcastInDim_scalar_apply bcast_S_S64x1024 _ (ix2 b o)).trans one_f32
  rw [hD1, hD2, hB, h1]
  rfl

end Cert.ReferenceIdeal.HandV

end
-- ==== Proof.RI.Layers.lean ====
/- A reference layer at the ideal instance, read at an index, over any arrays: 1 / (1 + exp(-y)) with y the hidden product plus the bias, plus the
   recurrent product, plus (from the third layer on) the product with the buffer of earlier layers' outputs — each product a whole contraction of
   the left array with weight · mask. -/
import proofs.«164445_j37684043055467_1_alg».proof.Proof.RI.L0

noncomputable section

namespace Cert.ReferenceIdeal.HandV

open Cert.ReferenceIdeal Cert.ReferenceIdeal.Gen Cert.ReferenceIdeal.Value
open Idealize.ShloMosaic Idealize.ShloMosaic.ValueIdx Cert.LibHostApply
open scoped BigOperators

theorem bc1_apply (j : S64x1024.Idx) :
    broadcastInDim S64x1024 ![] bcast_S_S64x1024 (constant (F := Ideal) S_ .f32 0x3F800000#32) j = (1 : EReal) :=
  (ValueIdx.broadcastInDim_scalar_apply bcast_S_S64x1024 _ j).trans one_f32

theorem biasB_apply (bias : FVec Ideal S1024 .f32) (b : Fin 64) (o : Fin 1024) :
    broadcastInDim S64x1024 ![0, 1] bcast_S1x1024_S64x1024_0_1 (broadcastInDim S1x1024 ![1] bcast_S1024_S1x1024_1 bias) (ix2 b o) = bias (ix1 o) :=
  (broadcastInDim_rows_apply _ bcast_S1x1024_S64x1024_0_1 b o).trans (broadcastInDim_row_apply _ bcast_S1024_S1x1024_1 o)

theorem dotH_apply (cur : FVec Ideal S64x1024 .f32) (w m : FVec Ideal S1024x1024 .f32) (b : Fin 64) (o : Fin 1024) :
    Host.dotGeneral (F := Ideal) dot_S64x1024_S1024x1024_S64x1024_1_0_0_1_n_n none cur
        (transpose S1024x1024 [1, 0] (mulf w m) transposes_S1024x1024_S1024x1024_1_0) (ix2 b o)
      = ∑ n : Fin 1024, cur (ix2 b n) * (w (ix2 o n) * m (ix2 o n)) :=
  dotT_apply dot_S64x1024_S1024x1024_S64x1024_1_0_0_1_n_n.wf _ _ _ b o

theorem dotR_apply (h : FVec Ideal S64x8192 .f32) (w m : FVec Ideal S1024x8192 .f32) (b : Fin 64) (o : Fin 1024) :
    Host.dotGeneral (F := Ideal) dot_S64x8192_S8192x1024_S64x1024_1_0_0_1_n_n none h
        (transpose S8192x1024 [1, 0] (mulf w m) transposes_S1024x8192_S8192x1024_1_0) (ix2 b o)
      = ∑ n : Fin 8192, h (ix2 b n) * (w (ix2 o n) * m (ix2 o n)) :=
  dotT_apply dot_S64x8192_S8192x1024_S64x1024_1_0_0_1_n_n.wf _ _ _ b o

theorem dotS_apply (sk : FVec Ideal S64x7168 .f32) (w m : FVec Ideal S1024x7168 .f32) (b : Fin 64) (o : Fin 1024) :
    Host.dotGeneral (F := Ideal) dot_S64x7168_S7168x1024_S64x1024_1_0_0_1_n_n none sk
        (transpose S7168x1024 [1, 0] (mulf w m) transposes_S1024x7168_S7168x1024_1_0) (ix2 b o)
      = ∑ n : Fin 7168, sk (ix2 b n) * (w (ix2 o n) * m (ix2 o n)) :=
  dotT_apply dot_S64x7168_S7168x1024_S64x1024_1_0_0_1_n_n.wf _ _ _ b o

/-- The hidden product of a layer, the recurrent one, the one with the buffer of earlier outputs. -/
abbrev sumH (cur : S64x1024.Idx → EReal) (w m : S1024x1024.Idx → EReal) (b : Fin 64) (o : Fin 1024) : EReal :=
  ∑ n : Fin 1024, cur (ix2 b n) * (w (ix2 o n) * m (ix2 o n))
abbrev sumR (h : S64x8192.Idx → EReal) (w m : S1024x8192.Idx → EReal) (b : Fin 64) (o : Fin 1024) : EReal :=
  ∑ n : Fin 8192, h (ix2 b n) * (w (ix2 o n) * m (ix2 o n))
abbrev sumS (sk : S64x7168.Idx → EReal) (w m : S1024x7168.Idx → EReal) (b : Fin 64) (o : Fin 1024) : EReal :=
  ∑ n : Fin 7168, sk (ix2 b n) * (w (ix2 o n) * m (ix2 o n))

/-- A layer with a hidden and a recurrent term. -/
theorem layerHR_apply (cur : FVec Ideal S64x1024 .f32) (wh mh : FVec Ideal S1024x1024 .f32) (bias : FVec Ideal S1024 .f32)
    (h : FVec Ideal S64x8192 .f32) (wr mr : FVec Ideal S1024x8192 .f32) (b : Fin 64) (o : Fin 1024) :
    (Host.divf (broadcastInDim S64x1024 ![] bcast_S_S64x1024 (constant (F := Ideal) S_ .f32 0x3F800000#32))
      (addf (broadcastInDim S64x1024 ![] bcast_S_S64x1024 (constant (F := Ideal) S_ .f32 0x3F800000#32))
        (Host.exp (Host.negf (addf (addf
          (Host.dotGeneral (F := Ideal) dot_S64x1024_S1024x1024_S64x1024_1_0_0_1_n_n none cur (transpose S1024x1024 [1, 0] (mulf wh mh) transposes_S1024x1024_S1024x1024_1_0))
          (broadcastInDim S64x1024 ![0, 1] bcast_S1x1024_S64x1024_0_1 (broadcastInDim S1x1024 ![1] bcast_S1024_S1x1024_1 bias)))
          (Host.dotGeneral (F := Ideal) dot_S64x8192_S8192x1024_S64x1024_1_0_0_1_n_n none h (transpose S8192x1024 [1, 0] (mulf wr mr) transposes_S1024x8192_S8192x1024_1_0)))))) (ix2 b o) : EReal)
      = Ideal.logistic ((sumH cur wh mh b o + bias (ix1 o)) + sumR h wr mr b o) := by
  simp only [Host.divf, Host.exp, Host.negf, addf]
  rw [dotH_apply, dotR_apply, biasB_apply, bc1_apply]
  rfl

/-- A layer with a hidden, a recurrent and a skip term. -/
theorem layerHRS_apply (cur : FVec Ideal S64x1024 .f32) (wh mh : FVec Ideal S1024x1024 .f32) (bias : FVec Ideal S1024 .f32)
    (h : FVec Ideal S64x8192 .f32) (wr mr : FVec Ideal S1024x8192 .f32) (sk : FVec Ideal S64x7168 .f32) (ws ms : FVec Ideal S1024x7168 .f32) (b : Fin 64) (o : Fin 1024) :
    (Host.divf (broadcastInDim S64x1024 ![] bcast_S_S64x1024 (constant (F := Ideal) S_ .f32 0x3F800000#32))
      (addf (broadcastInDim S64x1024 ![] bcast_S_S64x1024 (constant (F := Ideal) S_ .f32 0x3F800000#32))
        (Host.exp (Host.negf (addf (addf (addf
          (Host.dotGeneral (F := Ideal) dot_S64x1024_S1024x1024_S64x1024_1_0_0_1_n_n none cur (transpose S1024x1024 [1, 0] (mulf wh mh) transposes_S1024x1024_S1024x1024_1_0))
          (broadcastInDim S64x1024 ![0, 1] bcast_S1x1024_S64x1024_0_1 (broadcastInDim S1x1024 ![1] bcast_S1024_S1x1024_1 bias)))
          (Host.dotGeneral (F := Ideal) dot_S64x8192_S8192x1024_S64x1024_1_0_0_1_n_n none h (transpose S8192x1024 [1, 0] (mulf wr mr) transposes_S1024x8192_S8192x1024_1_0)))
          (Host.dotGeneral (F := Ideal) dot_S64x7168_S7168x1024_S64x1024_1_0_0_1_n_n none sk (transpose S7168x1024 [1, 0] (mulf ws ms) transposes_S1024x7168_S7168x1024_1_0)))))) (ix2 b o) : EReal)
      = Ideal.logistic (((sumH cur wh mh b o + bias (ix1 o)) + sumR h wr mr b o) + sumS sk ws ms b o) := by
  simp only [Host.divf, Host.exp, Host.negf, addf]
  rw [dotH_apply, dotR_apply, dotS_apply, biasB_apply, bc1_apply]
  rfl

/-- The last hidden layer: a hidden and a skip term. -/
theorem layerHS_apply (cur : FVec Ideal S64x1024 .f32) (wh mh : FVec Ideal S1024x1024 .f32) (bias : FVec Ideal S1024 .f32)
    (sk : FVec Ideal S64x7168 .f32) (ws ms : FVec Ideal S1024x7168 .f32) (b : Fin 64) (o : Fin 1024) :
    (Host.divf (broadcastInDim S64x1024 ![] bcast_S_S64x1024 (constant (F := Ideal) S_ .f32 0x3F800000#32))
      (addf (broadcastInDim S64x1024 ![] bcast_S_S64x1024 (constant (F := Ideal) S_ .f32 0x3F800000#32))
        (Host.exp (Host.negf (addf (addf
          (Host.dotGeneral (F := Ideal) dot_S64x1024_S1024x1024_S64x1024_1_0_0_1_n_n none cur (transpose S1024x1024 [1, 0] (mulf wh mh) transposes_S1024x1024_S1024x1024_1_0))
          (broadcastInDim S64x1024 ![0, 1] bcast_S1x1024_S64x1024_0_1 (broadcastInDim S1x1024 ![1] bcast_S1024_S1x1024_1 bias)))
          (Host.dotGeneral (F := Ideal) dot_S64x7168_S7168x1024_S64x1024_1_0_0_1_n_n none sk (transpose S7168x1024 [1, 0] (mulf ws ms) transposes_S1024x7168_S7168x1024_1_0)))))) (ix2 b o) : EReal)
      = Ideal.logistic ((sumH cur wh mh b o + bias (ix1 o)) + sumS sk ws ms b o) := by
  simp only [Host.divf, Host.exp, Host.negf, addf]
  rw [dotH_apply, dotS_apply, biasB_apply, bc1_apply]
  rfl

end Cert.ReferenceIdeal.HandV

end
-- ==== Proof.RI.Arrays.lean ====
/- The reference's arrays, named once: slice i of each stacked weight, mask and bias as a whole array; the first buffer of earlier outputs
   and the last hidden layer, which the run's term spells inline; and every named layer read at an index. -/
import proofs.«164445_j37684043055467_1_alg».proof.Proof.RI.Layers

noncomputable section

namespace Cert.ReferenceIdeal.HandV

open Cert.ReferenceIdeal Cert.ReferenceIdeal.Gen Cert.ReferenceIdeal.Value
open Idealize.ShloMosaic Idealize.ShloMosaic.ValueIdx Cert.LibHostApply
open scoped BigOperators

variable (V0 : Valuation τ sig (Elt Ideal))

abbrev r_wh0 : FVec Ideal S1024x1024 .f32 := shapeCast S1024x1024 (extractStridedSlice S1x1024x1024 ![0, 0, 0] (V0 (Proc.devRef .tc main_arg4)) slices_S7x1024x1024_S1x1024x1024_0_0_0) shapeCasts_S1x1024x1024_S1024x1024
abbrev r_mh0 : FVec Ideal S1024x1024 .f32 := shapeCast S1024x1024 (extractStridedSlice S1x1024x1024 ![0, 0, 0] (V0 (Proc.devRef .tc main_arg10)) slices_S7x1024x1024_S1x1024x1024_0_0_0) shapeCasts_S1x1024x1024_S1024x1024
abbrev r_bh0 : FVec Ideal S1024 .f32 := shapeCast S1024 (extractStridedSlice S1x1024 ![0, 0] (V0 (Proc.devRef .tc main_arg5)) slices_S7x1024_S1x1024_0_0) shapeCasts_S1x1024_S1024
abbrev r_ws0 : FVec Ideal S1024x7168 .f32 := shapeCast S1024x7168 (extractStridedSlice S1x1024x7168 ![0, 0, 0] (V0 (Proc.devRef .tc main_arg7)) slices_S6x1024x7168_S1x1024x7168_0_0_0) shapeCasts_S1x1024x7168_S1024x7168
abbrev r_ms0 : FVec Ideal S1024x7168 .f32 := shapeCast S1024x7168 (extractStridedSlice S1x1024x7168 ![0, 0, 0] (V0 (Proc.devRef .tc main_arg12)) slices_S6x1024x7168_S1x1024x7168_0_0_0) shapeCasts_S1x1024x7168_S1024x7168
abbrev r_wh1 : FVec Ideal S1024x1024 .f32 := shapeCast S1024x1024 (extractStridedSlice S1x1024x1024 ![1, 0, 0] (V0 (Proc.devRef .tc main_arg4)) slices_S7x1024x1024_S1x1024x1024_1_0_0) shapeCasts_S1x1024x1024_S1024x1024
abbrev r_mh1 : FVec Ideal S1024x1024 .f32 := shapeCast S1024x1024 (extractStridedSlice S1x1024x1024 ![1, 0, 0] (V0 (Proc.devRef .tc main_arg10)) slices_S7x1024x1024_S1x1024x1024_1_0_0) shapeCasts_S1x1024x1024_S1024x1024
abbrev r_bh1 : FVec Ideal S1024 .f32 := shapeCast S1024 (extractStridedSlice S1x1024 ![1, 0] (V0 (Proc.devRef .tc main_arg5)) slices_S7x1024_S1x1024_1_0) shapeCasts_S1x1024_S1024
abbrev r_wr1 : FVec Ideal S1024x8192 .f32 := shapeCast S1024x8192 (extractStridedSlice S1x1024x8192 ![1, 0, 0] (V0 (Proc.devRef .tc main_arg6)) slices_S7x1024x8192_S1x1024x8192_1_0_0) shapeCasts_S1x1024x8192_S1024x8192
abbrev r_mr1 : FVec Ideal S1024x8192 .f32 := shapeCast S1024x8192 (extractStridedSlice S1x1024x8192 ![1, 0, 0] (V0 (Proc.devRef .tc main_arg11)) slices_S7x1024x8192_S1x1024x8192_1_0_0) shapeCasts_S1x1024x8192_S1024x8192
abbrev r_ws1 : FVec Ideal S1024x7168 .f32 := shapeCast S1024x7168 (extractStridedSlice S1x1024x7168 ![1, 0, 0] (V0 (Proc.devRef .tc main_arg7)) slices_S6x1024x7168_S1x1024x7168_1_0_0) shapeCasts_S1x1024x7168_S1024x7168
abbrev r_ms1 : FVec Ideal S1024x7168 .f32 := shapeCast S1024x7168 (extractStridedSlice S1x1024x7168 ![1, 0, 0] (V0 (Proc.devRef .tc main_arg12)) slices_S6x1024x7168_S1x1024x7168_1_0_0) shapeCasts_S1x1024x7168_S1024x7168
abbrev r_wh2 : FVec Ideal S1024x1024 .f32 := shapeCast S1024x1024 (extractStridedSlice S1x1024x1024 ![2, 0, 0] (V0 (Proc.devRef .tc main_arg4)) slices_S7x1024x1024_S1x1024x1024_2_0_0) shapeCasts_S1x1024x1024_S1024x1024
abbrev r_mh2 : FVec Ideal S1024x1024 .f32 := shapeCast S1024x1024 (extractStridedSlice S1x1024x1024 ![2, 0, 0] (V0 (Proc.devRef .tc main_arg10)) slices_S7x1024x1024_S1x1024x1024_2_0_0) shapeCasts_S1x1024x1024_S1024x1024
abbrev r_bh2 : FVec Ideal S1024 .f32 := shapeCast S1024 (extractStridedSlice S1x1024 ![2, 0] (V0 (Proc.devRef .tc main_arg5)) slices_S7x1024_S1x1024_2_0) shapeCasts_S1x1024_S1024
abbrev r_wr2 : FVec Ideal S1024x8192 .f32 := shapeCast S1024x8192 (extractStridedSlice S1x1024x8192 ![2, 0, 0] (V0 (Proc.devRef .tc main_arg6)) slices_S7x1024x8192_S1x1024x8192_2_0_0) shapeCasts_S1x1024x8192_S1024x8192
abbrev r_mr2 : FVec Ideal S1024x8192 .f32 := shapeCast S1024x8192 (extractStridedSlice S1x1024x8192 ![2, 0, 0] (V0 (Proc.devRef .tc main_arg11)) slices_S7x1024x8192_S1x1024x8192_2_0_0) shapeCasts_S1x1024x8192_S1024x8192
abbrev r_ws2 : FVec Ideal S1024x7168 .f32 := shapeCast S1024x7168 (extractStridedSlice S1x1024x7168 ![2, 0, 0] (V0 (Proc.devRef .tc main_arg7)) slices_S6x1024x7168_S1x1024x7168_2_0_0) shapeCasts_S1x1024x7168_S1024x7168
abbrev r_ms2 : FVec Ideal S1024x7168 .f32 := shapeCast S1024x7168 (extractStridedSlice S1x1024x7168 ![2, 0, 0] (V0 (Proc.devRef .tc main_arg12)) slices_S6x1024x7168_S1x1024x7168_2_0_0) shapeCasts_S1x1024x7168_S1024x7168
abbrev r_wh3 : FVec Ideal S1024x1024 .f32 := shapeCast S1024x1024 (extractStridedSlice S1x1024x1024 ![3, 0, 0] (V0 (Proc.devRef .tc main_arg4)) slices_S7x1024x1024_S1x1024x1024_3_0_0) shapeCasts_S1x1024x1024_S1024x1024
abbrev r_mh3 : FVec Ideal S1024x1024 .f32 := shapeCast S1024x1024 (extractStridedSlice S1x1024x1024 ![3, 0, 0] (V0 (Proc.devRef .tc main_arg10)) slices_S7x1024x1024_S1x1024x1024_3_0_0) shapeCasts_S1x1024x1024_S1024x1024
abbrev r_bh3 : FVec Ideal S1024 .f32 := shapeCast S1024 (extractStridedSlice S1x1024 ![3, 0] (V0 (Proc.devRef .tc main_arg5)) slices_S7x1024_S1x1024_3_0) shapeCasts_S1x1024_S1024
abbrev r_wr3 : FVec Ideal S1024x8192 .f32 := shapeCast S1024x8192 (extractStridedSlice S1x1024x8192 ![3, 0, 0] (V0 (Proc.devRef .tc main_arg6)) slices_S7x1024x8192_S1x1024x8192_3_0_0) shapeCasts_S1x1024x8192_S1024x8192
abbrev r_mr3 : FVec Ideal S1024x8192 .f32 := shapeCast S1024x8192 (extractStridedSlice S1x1024x8192 ![3, 0, 0] (V0 (Proc.devRef .tc main_arg11)) slices_S7x1024x8192_S1x1024x8192_3_0_0) shapeCasts_S1x1024x8192_S1024x8192
abbrev r_ws3 : FVec Ideal S1024x7168 .f32 := shapeCast S1024x7168 (extractStridedSlice S1x1024x7168 ![3, 0, 0] (V0 (Proc.devRef .tc main_arg7)) slices_S6x1024x7168_S1x1024x7168_3_0_0) shapeCasts_S1x1024x7168_S1024x7168
abbrev r_ms3 : FVec Ideal S1024x7168 .f32 := shapeCast S1024x7168 (extractStridedSlice S1x1024x7168 ![3, 0, 0] (V0 (Proc.devRef .tc main_arg12)) slices_S6x1024x7168_S1x1024x7168_3_0_0) shapeCasts_S1x1024x7168_S1024x7168
abbrev r_wh4 : FVec Ideal S1024x1024 .f32 := shapeCast S1024x1024 (extractStridedSlice S1x1024x1024 ![4, 0, 0] (V0 (Proc.devRef .tc main_arg4)) slices_S7x1024x1024_S1x1024x1024_4_0_0) shapeCasts_S1x1024x1024_S1024x1024
abbrev r_mh4 : FVec Ideal S1024x1024 .f32 := shapeCast S1024x1024 (extractStridedSlice S1x1024x1024 ![4, 0, 0] (V0 (Proc.devRef .tc main_arg10)) slices_S7x1024x1024_S1x1024x1024_4_0_0) shapeCasts_S1x1024x1024_S1024x1024
abbrev r_bh4 : FVec Ideal S1024 .f32 := shapeCast S1024 (extractStridedSlice S1x1024 ![4, 0] (V0 (Proc.devRef .tc main_arg5)) slices_S7x1024_S1x1024_4_0) shapeCasts_S1x1024_S1024
abbrev r_wr4 : FVec Ideal S1024x8192 .f32 := shapeCast S1024x8192 (extractStridedSlice S1x1024x8192 ![4, 0, 0] (V0 (Proc.devRef .tc main_arg6)) slices_S7x1024x8192_S1x1024x8192_4_0_0) shapeCasts_S1x1024x8192_S1024x8192
abbrev r_mr4 : FVec Ideal S1024x8192 .f32 := shapeCast S1024x8192 (extractStridedSlice S1x1024x8192 ![4, 0, 0] (V0 (Proc.devRef .tc main_arg11)) slices_S7x1024x8192_S1x1024x8192_4_0_0) shapeCasts_S1x1024x8192_S1024x8192
abbrev r_ws4 : FVec Ideal S1024x7168 .f32 := shapeCast S1024x7168 (extractStridedSlice S1x1024x7168 ![4, 0, 0] (V0 (Proc.devRef .tc main_arg7)) slices_S6x1024x7168_S1x1024x7168_4_0_0) shapeCasts_S1x1024x7168_S1024x7168
abbrev r_ms4 : FVec Ideal S1024x7168 .f32 := shapeCast S1024x7168 (extractStridedSlice S1x1024x7168 ![4, 0, 0] (V0 (Proc.devRef .tc main_arg12)) slices_S6x1024x7168_S1x1024x7168_4_0_0) shapeCasts_S1x1024x7168_S1024x7168
abbrev r_wh5 : FVec Ideal S1024x1024 .f32 := shapeCast S1024x1024 (extractStridedSlice S1x1024x1024 ![5, 0, 0] (V0 (Proc.devRef .tc main_arg4)) slices_S7x1024x1024_S1x1024x1024_5_0_0) shapeCasts_S1x1024x1024_S1024x1024
abbrev r_mh5 : FVec Ideal S1024x1024 .f32 := shapeCast S1024x1024 (extractStridedSlice S1x1024x1024 ![5, 0, 0] (V0 (Proc.devRef .tc main_arg10)) slices_S7x1024x1024_S1x1024x1024_5_0_0) shapeCasts_S1x1024x1024_S1024x1024
abbrev r_bh5 : FVec Ideal S1024 .f32 := shapeCast S1024 (extractStridedSlice S1x1024 ![5, 0] (V0 (Proc.devRef .tc main_arg5)) slices_S7x1024_S1x1024_5_0) shapeCasts_S1x1024_S1024
abbrev r_wr5 : FVec Ideal S1024x8192 .f32 := shapeCast S1024x8192 (extractStridedSlice S1x1024x8192 ![5, 0, 0] (V0 (Proc.devRef .tc main_arg6)) slices_S7x1024x8192_S1x1024x8192_5_0_0) shapeCasts_S1x1024x8192_S1024x8192
abbrev r_mr5 : FVec Ideal S1024x8192 .f32 := shapeCast S1024x8192 (extractStridedSlice S1x1024x8192 ![5, 0, 0] (V0 (Proc.devRef .tc main_arg11)) slices_S7x1024x8192_S1x1024x8192_5_0_0) shapeCasts_S1x1024x8192_S1024x8192
abbrev r_ws5 : FVec Ideal S1024x7168 .f32 := shapeCast S1024x7168 (extractStridedSlice S1x1024x7168 ![5, 0, 0] (V0 (Proc.devRef .tc main_arg7)) slices_S6x1024x7168_S1x1024x7168_5_0_0) shapeCasts_S1x1024x7168_S1024x7168
abbrev r_ms5 : FVec Ideal S1024x7168 .f32 := shapeCast S1024x7168 (extractStridedSlice S1x1024x7168 ![5, 0, 0] (V0 (Proc.devRef .tc main_arg12)) slices_S6x1024x7168_S1x1024x7168_5_0_0) shapeCasts_S1x1024x7168_S1024x7168
abbrev r_wh6 : FVec Ideal S1024x1024 .f32 := shapeCast S1024x1024 (extractStridedSlice S1x1024x1024 ![6, 0, 0] (V0 (Proc.devRef .tc main_arg4)) slices_S7x1024x1024_S1x1024x1024_6_0_0) shapeCasts_S1x1024x1024_S1024x1024
abbrev r_mh6 : FVec Ideal S1024x1024 .f32 := shapeCast S1024x1024 (extractStridedSlice S1x1024x1024 ![6, 0, 0] (V0 (Proc.devRef .tc main_arg10)) slices_S7x1024x1024_S1x1024x1024_6_0_0) shapeCasts_S1x1024x1024_S1024x1024
abbrev r_bh6 : FVec Ideal S1024 .f32 := shapeCast S1024 (extractStridedSlice S1x1024 ![6, 0] (V0 (Proc.devRef .tc main_arg5)) slices_S7x1024_S1x1024_6_0) shapeCasts_S1x1024_S1024
abbrev r_wr6 : FVec Ideal S1024x8192 .f32 := shapeCast S1024x8192 (extractStridedSlice S1x1024x8192 ![6, 0, 0] (V0 (Proc.devRef .tc main_arg6)) slices_S7x1024x8192_S1x1024x8192_6_0_0) shapeCasts_S1x1024x8192_S1024x8192
abbrev r_mr6 : FVec Ideal S1024x8192 .f32 := shapeCast S1024x8192 (extractStridedSlice S1x1024x8192 ![6, 0, 0] (V0 (Proc.devRef .tc main_arg11)) slices_S7x1024x8192_S1x1024x8192_6_0_0) shapeCasts_S1x1024x8192_S1024x8192

/-- The buffer of earlier outputs after the first layer: zeros with the first layer's output in columns 0 … 1023. -/
abbrev r_sk1 : FVec Ideal S64x7168 .f32 :=
  Host.scatter scatter_S64x7168_S1_S64x1024_01_n_1_0 (fun _ b => b) (broadcastInDim S64x7168 ![] bcast_S_S64x7168 (constant (F := Ideal) S_ .f32 0x00000000#32))
    (broadcastInDim S1 ![] bcast_S_S1 (constantI S_ 32 0#32)) (res_main_v18 V0)
/-- The same before the last hidden layer: the sixth layer's output put in columns 6144 …. -/
abbrev r_sk7 : FVec Ideal S64x7168 .f32 :=
  Host.scatter scatter_S64x7168_S1_S64x1024_01_n_1_0 (fun _ b => b) (res_main_v193 V0)
    (broadcastInDim S1 ![] bcast_S_S1 (constantI S_ 32 6144#32)) (res_main_v227 V0)
abbrev r_c6 : FVec Ideal S64x1024 .f32 := res_main_v227 V0
/-- The last hidden layer. -/
abbrev r_cur7 : FVec Ideal S64x1024 .f32 :=
  Host.divf (broadcastInDim S64x1024 ![] bcast_S_S64x1024 (constant (F := Ideal) S_ .f32 0x3F800000#32))
    (addf (broadcastInDim S64x1024 ![] bcast_S_S64x1024 (constant (F := Ideal) S_ .f32 0x3F800000#32))
      (Host.exp (Host.negf (addf (addf
        (Host.dotGeneral (F := Ideal) (φ₁ := .f32) (φ₂ := .f32) dot_S64x1024_S1024x1024_S64x1024_1_0_0_1_n_n none (r_c6 V0) (transpose S1024x1024 [1, 0] (mulf (r_wh6 V0) (r_mh6 V0)) transposes_S1024x1024_S1024x1024_1_0))
        (broadcastInDim S64x1024 ![0, 1] bcast_S1x1024_S64x1024_0_1 (broadcastInDim S1x1024 ![1] bcast_S1024_S1x1024_1 (r_bh6 V0))))
        (Host.dotGeneral (F := Ideal) (φ₁ := .f32) (φ₂ := .f32) dot_S64x7168_S7168x1024_S64x1024_1_0_0_1_n_n none (r_sk7 V0) (transpose S7168x1024 [1, 0] (mulf (r_ws5 V0) (r_ms5 V0)) transposes_S1024x7168_S7168x1024_1_0))))))

theorem res47_apply (b : Fin 64) (o : Fin 1024) : (res_main_v47 V0 (ix2 b o) : EReal)
    = Ideal.logistic ((sumH (res_main_v18 V0) (r_wh0 V0) (r_mh0 V0) b o + r_bh0 V0 (ix1 o)) + sumR (r_h V0) (r_wr1 V0) (r_mr1 V0) b o) := by
  unfold res_main_v47
  exact layerHR_apply _ _ _ _ _ _ _ b o

theorem res83_apply (b : Fin 64) (o : Fin 1024) : (res_main_v83 V0 (ix2 b o) : EReal)
    = Ideal.logistic (((sumH (res_main_v47 V0) (r_wh1 V0) (r_mh1 V0) b o + r_bh1 V0 (ix1 o)) + sumR (r_h V0) (r_wr2 V0) (r_mr2 V0) b o)
        + sumS (res_main_v49 V0) (r_ws0 V0) (r_ms0 V0) b o) := by
  unfold res_main_v83
  exact layerHRS_apply _ _ _ _ _ _ _ _ _ _ b o

theorem res119_apply (b : Fin 64) (o : Fin 1024) : (res_main_v119 V0 (ix2 b o) : EReal)
    = Ideal.logistic (((sumH (res_main_v83 V0) (r_wh2 V0) (r_mh2 V0) b o + r_bh2 V0 (ix1 o)) + sumR (r_h V0) (r_wr3 V0) (r_mr3 V0) b o)
        + sumS (res_main_v85 V0) (r_ws1 V0) (r_ms1 V0) b o) := by
  unfold res_main_v119
  exact layerHRS_apply _ _ _ _ _ _ _ _ _ _ b o

theorem res155_apply (b : Fin 64) (o : Fin 1024) : (res_main_v155 V0 (ix2 b o) : EReal)
    = Ideal.logistic (((sumH (res_main_v119 V0) (r_wh3 V0) (r_mh3 V0) b o + r_bh3 V0 (ix1 o)) + sumR (r_h V0) (r_wr4 V0) (r_mr4 V0) b o)
        + sumS (res_main_v121 V0) (r_ws2 V0) (r_ms2 V0) b o) := by
  unfold res_main_v155
  exact layerHRS_apply _ _ _ _ _ _ _ _ _ _ b o

theorem res191_apply (b : Fin 64) (o : Fin 1024) : (res_main_v191 V0 (ix2 b o) : EReal)
    = Ideal.logistic (((sumH (res_main_v155 V0) (r_wh4 V0) (r_mh4 V0) b o + r_bh4 V0 (ix1 o)) + sumR (r_h V0) (r_wr5 V0) (r_mr5 V0) b o)
        + sumS (res_main_v157 V0) (r_ws3 V0) (r_ms3 V0) b o) := by
  unfold res_main_v191
  exact layerHRS_apply _ _ _ _ _ _ _ _ _ _ b o

theorem res227_apply (b : Fin 64) (o : Fin 1024) : (res_main_v227 V0 (ix2 b o) : EReal)
    = Ideal.logistic (((sumH (res_main_v191 V0) (r_wh5 V0) (r_mh5 V0) b o + r_bh5 V0 (ix1 o)) + sumR (r_h V0) (r_wr6 V0) (r_mr6 V0) b o)
        + sumS (res_main_v193 V0) (r_ws4 V0) (r_ms4 V0) b o) := by
  unfold res_main_v227
  exact layerHRS_apply _ _ _ _ _ _ _ _ _ _ b o

set_option maxHeartbeats 2000000 in
theorem cur7_apply (b : Fin 64) (o : Fin 1024) : (r_cur7 V0 (ix2 b o) : EReal)
    = Ideal.logistic ((sumH (res_main_v227 V0) (r_wh6 V0) (r_mh6 V0) b o + r_bh6 V0 (ix1 o)) + sumS (r_sk7 V0) (r_ws5 V0) (r_ms5 V0) b o) :=
  layerHS_apply _ _ _ _ _ _ _ b o

theorem res49_eq : res_main_v49 V0 = Host.scatter scatter_S64x7168_S1_S64x1024_01_n_1_0 (fun _ b => b) (r_sk1 V0)
    (broadcastInDim S1 ![] bcast_S_S1 (constantI S_ 32 1024#32)) (res_main_v47 V0) := rfl
theorem res85_eq : res_main_v85 V0 = Host.scatter scatter_S64x7168_S1_S64x1024_01_n_1_0 (fun _ b => b) (res_main_v49 V0)
    (broadcastInDim S1 ![] bcast_S_S1 (constantI S_ 32 2048#32)) (res_main_v83 V0) := rfl
theorem res121_eq : res_main_v121 V0 = Host.scatter scatter_S64x7168_S1_S64x1024_01_n_1_0 (fun _ b => b) (res_main_v85 V0)
    (broadcastInDim S1 ![] bcast_S_S1 (constantI S_ 32 3072#32)) (res_main_v119 V0) := rfl
theorem res157_eq : res_main_v157 V0 = Host.scatter scatter_S64x7168_S1_S64x1024_01_n_1_0 (fun _ b => b) (res_main_v121 V0)
    (broadcastInDim S1 ![] bcast_S_S1 (constantI S_ 32 4096#32)) (res_main_v155 V0) := rfl
theorem res193_eq : res_main_v193 V0 = Host.scatter scatter_S64x7168_S1_S64x1024_01_n_1_0 (fun _ b => b) (res_main_v157 V0)
    (broadcastInDim S1 ![] bcast_S_S1 (constantI S_ 32 5120#32)) (res_main_v191 V0) := rfl

abbrev r_wout : FVec Ideal S512x1024 .f32 := V0 (Proc.devRef .tc main_arg8)
abbrev r_bout : FVec Ideal S512 .f32 := V0 (Proc.devRef .tc main_arg9)

/-- The result: the last hidden layer times W_outᵀ plus b_out. -/
abbrev r_out : FVec Ideal S64x512 .f32 :=
  addf (Host.dotGeneral (F := Ideal) (φ₁ := .f32) (φ₂ := .f32) dot_S64x1024_S1024x512_S64x512_1_0_0_1_n_n none (r_cur7 V0)
      (transpose S1024x512 [1, 0] (r_wout V0) transposes_S512x1024_S1024x512_1_0))
    (broadcastInDim S64x512 ![0, 1] bcast_S1x512_S64x512_0_1 (broadcastInDim S1x512 ![1] bcast_S512_S1x512_1 (r_bout V0)))

theorem out_apply (b : Fin 64) (o : Fin 512) : (r_out V0 (ix2 b o) : EReal)
    = (∑ n : Fin 1024, r_cur7 V0 (ix2 b n) * r_wout V0 (ix2 o n)) + r_bout V0 (ix1 o) := by
  show (Host.dotGeneral (F := Ideal) dot_S64x1024_S1024x512_S64x512_1_0_0_1_n_n none (r_cur7 V0)
      (transpose S1024x512 [1, 0] (r_wout V0) transposes_S512x1024_S1024x512_1_0)) (ix2 b o)
    + (broadcastInDim S64x512 ![0, 1] bcast_S1x512_S64x512_0_1 (broadcastInDim S1x512 ![1] bcast_S512_S1x512_1 (r_bout V0))) (ix2 b o) = _
  have hD : Host.dotGeneral (F := Ideal) dot_S64x1024_S1024x512_S64x512_1_0_0_1_n_n none (r_cur7 V0)
        (transpose S1024x512 [1, 0] (r_wout V0) transposes_S512x1024_S1024x512_1_0) (ix2 b o)
      = ∑ n : Fin 1024, r_cur7 V0 (ix2 b n) * r_wout V0 (ix2 o n) :=
    dotT_apply dot_S64x1024_S1024x512_S64x512_1_0_0_1_n_n.wf _ _ _ b o
  rw [hD, broadcastInDim_rows_apply, broadcastInDim_row_apply]

end Cert.ReferenceIdeal.HandV

end
-- ==== Proof.Bridge.Agree.lean ====
/- The two programs are launched on memories that agree on the thirteen argument arrays. -/
import proofs.«164445_j37684043055467_1_alg».proof.Defs

noncomputable section

namespace Cert.Proof.Bridge

open Idealize.ShloMosaic Idealize.ShloMosaic.TcCoe Idealize.SL.Sem

/-- The reference's memory holds the kernel's argument arrays, on every device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

theorem Agree.arg0 (h : Agree m m') (c : Dev Cert.KernelIdeal.nD) :
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) := (h c).1
theorem Agree.arg1 (h : Agree m m') (c : Dev Cert.KernelIdeal.nD) :
    m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (h c).2.1
theorem Agree.arg2 (h : Agree m m') (c : Dev Cert.KernelIdeal.nD) :
    m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) := (h c).2.2.1
theorem Agree.arg3 (h : Agree m m') (c : Dev Cert.KernelIdeal.nD) :
    m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := (h c).2.2.2.1
theorem Agree.arg4 (h : Agree m m') (c : Dev Cert.KernelIdeal.nD) :
    m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := (h c).2.2.2.2.1
theorem Agree.arg5 (h : Agree m m') (c : Dev Cert.KernelIdeal.nD) :
    m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) := (h c).2.2.2.2.2.1
theorem Agree.arg6 (h : Agree m m') (c : Dev Cert.KernelIdeal.nD) :
    m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) := (h c).2.2.2.2.2.2.1
theorem Agree.arg7 (h : Agree m m') (c : Dev Cert.KernelIdeal.nD) :
    m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) := (h c).2.2.2.2.2.2.2.1
theorem Agree.arg8 (h : Agree m m') (c : Dev Cert.KernelIdeal.nD) :
    m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) := (h c).2.2.2.2.2.2.2.2.1
theorem Agree.arg9 (h : Agree m m') (c : Dev Cert.KernelIdeal.nD) :
    m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) := (h c).2.2.2.2.2.2.2.2.2.1
theorem Agree.arg10 (h : Agree m m') (c : Dev Cert.KernelIdeal.nD) :
    m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) := (h c).2.2.2.2.2.2.2.2.2.2.1
theorem Agree.arg11 (h : Agree m m') (c : Dev Cert.KernelIdeal.nD) :
    m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) := (h c).2.2.2.2.2.2.2.2.2.2.2.1
theorem Agree.arg12 (h : Agree m m') (c : Dev Cert.KernelIdeal.nD) :
    m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) := (h c).2.2.2.2.2.2.2.2.2.2.2.2

end Cert.Proof.Bridge

end
-- ==== Proof.KI.R0Acc.lean ====
/- Region 0: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R0Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl
local notation "hz2" => hz2_0

theorem sout0_A_eq (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond0_1 i) (hc2 : cond0_2 i) (hc3 : ¬cond0_3 i) (hc4 : ¬cond0_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    sout0_A c i arg1 harg1 arg2 harg2 arg3 harg3 arg4 harg4 arg5 harg5 arg6 harg6 arg7 harg7 arg8 harg8 arg9 harg9 hc1 hc2 hc3 hc4 x1 x2 x3 x4 x5 x6 x7 = k0_pay2 x1 x2 x3 (k0_pay1 (F := F)) := by
  unfold sout0_A
  rw [View.read_writes_eq_canon _ _ _ (scover0_A c i arg1 harg1 arg2 harg2 arg3 harg3 arg4 harg4 arg5 harg5 arg6 harg6 arg7 harg7 arg8 harg8 arg9 harg9 hc1 hc2 hc3 hc4 x1 x2 x3 x4 x5 x6 x7)]
  unfold kernelRun0_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout0_Z_eq (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout0_Z c i arg1 harg1 arg2 harg2 arg3 harg3 arg4 harg4 arg5 harg5 arg6 harg6 arg7 harg7 arg8 harg8 arg9 harg9 hc1 hc2 hc3 hc4 x1 x2 x3 x4 x5 x6 x7 xs = k0_pay3 x4 x5 x6 xs := by
  unfold sout0_Z
  rw [View.read_writes_eq_canon _ _ _ (scover0_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun0_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out0_Z_eq (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : cond0_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    out0_Z c i arg1 harg1 arg2 harg2 arg3 harg3 arg4 harg4 arg5 harg5 arg6 harg6 arg7 harg7 arg8 harg8 arg9 harg9 hc1 hc2 hc3 hc4 x1 x2 x3 x4 x5 x6 x7 xs = k0_pay4 (k0_pay3 x4 x5 x6 xs) x7 := by
  unfold out0_Z
  rw [View.read_writes_eq_canon _ _ _ (cover0_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun0_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout0_B_eq (c : Dev nD) (i : grid0.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond0_1 i) (hc2 : ¬cond0_2 i) (hc3 : cond0_3 i) (hc4 : ¬cond0_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout0_B c i arg1 harg1 arg2 harg2 arg3 harg3 arg4 harg4 arg5 harg5 arg6 harg6 arg7 harg7 arg8 harg8 arg9 harg9 hc1 hc2 hc3 hc4 x1 x2 x3 x4 x5 x6 x7 xs = k0_pay3 x4 x5 x6 xs := by
  unfold sout0_B
  rw [View.read_writes_eq_canon _ _ _ (scover0_B c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun0_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step0_A (c : Dev nD) (t : Fin cfg0.N) (hz : t.val = 0) :
    (outsAt0 V c t.val t.isLt).2 = k0_pay2 (iblk0 V c 0 t) (iblk0 V c 1 t) (iblk0 V c 2 t) (k0_pay1 (F := F)) := by
  rw [outsAt0_A V c t hz]
  dsimp only
  exact sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_A t hz).1) ((case0_A t hz).2.1) ((case0_A t hz).2.2.1) ((case0_A t hz).2.2.2) (iblk0 V c 0 t) (iblk0 V c 1 t) (iblk0 V c 2 t) (iblk0 V c 3 t) (iblk0 V c 4 t) (iblk0 V c 5 t) (iblk0 V c 6 t)

set_option maxHeartbeats 2000000 in
theorem step0_Z (c : Dev nD) (t : Fin cfg0.N) (hz : t.val ≠ 0) (h0 : t.val = 16) :
    (outsAt0 V c t.val t.isLt).2 = k0_pay3 (iblk0 V c 3 t) (iblk0 V c 4 t) (iblk0 V c 5 t) (outsAt0 V c (t.val - 1) (Nat.lt_of_le_of_lt (Nat.sub_le _ _) t.isLt)).2 := by
  rw [outsAt0_Z V c t hz h0]
  dsimp only
  exact sout0_Z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2

set_option maxHeartbeats 2000000 in
theorem last0 (c : Dev nD) (t : Fin cfg0.N) (hz : t.val ≠ 0) (h0 : t.val = 16) :
    (outsAt0 V c t.val t.isLt).1 = k0_pay4 (k0_pay3 (iblk0 V c 3 t) (iblk0 V c 4 t) (iblk0 V c 5 t) (outsAt0 V c (t.val - 1) (Nat.lt_of_le_of_lt (Nat.sub_le _ _) t.isLt)).2) (iblk0 V c 6 t) := by
  rw [outsAt0_Z V c t hz h0]
  dsimp only
  exact out0_Z_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_Z t hz h0).1) ((case0_Z t hz h0).2.1) ((case0_Z t hz h0).2.2.1) ((case0_Z t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2

set_option maxHeartbeats 2000000 in
theorem step0_B (c : Dev nD) (t : Fin cfg0.N) (hz : t.val ≠ 0) (h0 : ¬t.val = 16) :
    (outsAt0 V c t.val t.isLt).2 = k0_pay3 (iblk0 V c 3 t) (iblk0 V c 4 t) (iblk0 V c 5 t) (outsAt0 V c (t.val - 1) (Nat.lt_of_le_of_lt (Nat.sub_le _ _) t.isLt)).2 := by
  rw [outsAt0_B V c t hz h0]
  dsimp only
  exact sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((case0_B t hz h0).1) ((case0_B t hz h0).2.1) ((case0_B t hz h0).2.2.1) ((case0_B t hz h0).2.2.2) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2

end Cert.KernelIdeal.Hand

end
-- ==== Proof.KI.Tile.lean ====
/- One K-tile of a masked matrix product at the ideal instance, read at an index: the accumulator there plus the sum over the
   tile's 512 contraction columns of  lhs · (weight · mask). -/
import proofs.«164445_j37684043055467_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HandV

open Cert.KernelIdeal Cert.KernelIdeal.Gen
open Idealize.ShloMosaic Idealize.ShloMosaic.ValueIdx
open scoped BigOperators

/-- The tile product's dimension numbers: both operands contract their second axis. -/
abbrev Dt : DotDims S64x512 S1024x512 S64x1024 := dot_S64x512_S1024x512_S64x1024_1_1_0_0_n_n

theorem Dt_lhs0 (j : S64x1024.Idx) (k : Dt.contr.Idx) : (Dt.lhsIdx j k 0 : ℕ) = j 0 := by
  simp [DotDims.lhsIdx, Dt, dot_S64x512_S1024x512_S64x1024_1_1_0_0_n_n]; rfl
theorem Dt_lhs1 (j : S64x1024.Idx) (k : Dt.contr.Idx) : (Dt.lhsIdx j k 1 : ℕ) = k ⟨0, by decide⟩ := by
  simp [DotDims.lhsIdx, Dt, dot_S64x512_S1024x512_S64x1024_1_1_0_0_n_n]; rfl
theorem Dt_rhs0 (j : S64x1024.Idx) (k : Dt.contr.Idx) : (Dt.rhsIdx j k 0 : ℕ) = j 1 := by
  simp [DotDims.rhsIdx, Dt, dot_S64x512_S1024x512_S64x1024_1_1_0_0_n_n]; rfl
theorem Dt_rhs1 (j : S64x1024.Idx) (k : Dt.contr.Idx) : (Dt.rhsIdx j k 1 : ℕ) = k ⟨0, by decide⟩ := by
  simp [DotDims.rhsIdx, Dt, dot_S64x512_S1024x512_S64x1024_1_1_0_0_n_n]; rfl

/-- The tile's contraction index is its one coordinate, a column `q < 512`. -/
abbrev ce : Dt.contr.Idx ≃ Fin 512 := contrEquiv1 Dt 512 rfl rfl

theorem Dt_lhsIdx (b : Fin 64) (o : Fin 1024) (q : Fin 512) : Dt.lhsIdx (ix2 b o) (ce.symm q) = ix2 b q := by
  funext a; apply Fin.ext
  match a with
  | ⟨0, _⟩ => exact Dt_lhs0 (ix2 b o) (ce.symm q)
  | ⟨1, _⟩ => exact (Dt_lhs1 (ix2 b o) (ce.symm q)).trans (contrEquiv1_symm_val Dt 512 rfl rfl q)

theorem Dt_rhsIdx (b : Fin 64) (o : Fin 1024) (q : Fin 512) : Dt.rhsIdx (ix2 b o) (ce.symm q) = ix2 o q := by
  funext a; apply Fin.ext
  match a with
  | ⟨0, _⟩ => exact Dt_rhs0 (ix2 b o) (ce.symm q)
  | ⟨1, _⟩ => exact (Dt_rhs1 (ix2 b o) (ce.symm q)).trans (contrEquiv1_symm_val Dt 512 rfl rfl q)

/-- One tile: the accumulator plus the 512 products of the row of the left block with the row of weight · mask. -/
theorem tile_apply (x : FVec Ideal S64x512 .f32) (w m : FVec Ideal S1024x512 .f32) (prev : FVec Ideal S64x1024 .f32) (b : Fin 64) (o : Fin 1024) :
    addf prev (matmul Dt none (truncf .bf16 x bitsLt_bf16_f32) (truncf .bf16 (mulf w m) bitsLt_bf16_f32) (constant S64x1024 .f32 0x00000000#32)) (ix2 b o)
      = prev (ix2 b o) + ∑ q : Fin 512, x (ix2 b q) * (w (ix2 o q) * m (ix2 o q)) := by
  show prev (ix2 b o) + FloatOps.matmul Dt none (truncf .bf16 x bitsLt_bf16_f32) (truncf .bf16 (mulf w m) bitsLt_bf16_f32) (constant S64x1024 .f32 0x00000000#32) (ix2 b o) = _
  rw [Ideal.matmul_constant_zero_apply]
  refine congrArg (prev (ix2 b o) + ·) ?_
  rw [← Equiv.sum_comp ce.symm]
  refine Finset.sum_congr rfl fun q _ => ?_
  rw [Dt_lhsIdx, Dt_rhsIdx]
  rfl

end Cert.KernelIdeal.HandV

end
-- ==== Proof.LibSumBlocks.lean ====
import Mathlib.Algebra.BigOperators.Fin
import Mathlib.Logic.Equiv.Fin.Basic
import Mathlib.Algebra.BigOperators.Group.Finset.Sigma

/-!
# A sum over `T · K` items as a sum over `T` blocks of `K` items

A kernel that handles `K` images per grid step leaves per-STEP partial sums; a reference that handles one image per
step leaves per-IMAGE partial sums. Their totals agree because addition in a commutative monoid (the extended reals
of the ideal instance included: no finiteness is needed) can be regrouped.
-/

namespace Cert.LibSumBlocks

/-- The sum over all `T · K` items is the sum over the `T` blocks of each block's `K` items, item `i` of block `t` being
    item `t · K + i`. -/
theorem sum_blocks {M : Type} [AddCommMonoid M] (T K : Nat) (f : Fin (T * K) → M) :
    ∑ n : Fin (T * K), f n
      = ∑ t : Fin T, ∑ i : Fin K, f ⟨t.val * K + i.val, by
          have ht := t.isLt; have hi := i.isLt
          calc t.val * K + i.val < t.val * K + K := by omega
            _ = (t.val + 1) * K := (Nat.succ_mul t.val K).symm
            _ ≤ T * K := Nat.mul_le_mul_right K ht⟩ := by
  rw [← Fintype.sum_prod_type']
  rw [← (finProdFinEquiv (m := T) (n := K)).sum_comp]
  refine Finset.sum_congr rfl fun p _ => congrArg f (Fin.ext ?_)
  show p.2.val + K * p.1.val = p.1.val * K + p.2.val
  rw [Nat.mul_comm, Nat.add_comm]

end Cert.LibSumBlocks
-- ==== Proof.KI.V0.lean ====
/- Region 0 at the ideal instance, first part: each window's block at a grid point read at an index of the array it stages.
   Term 0 (x, W_in, the ones array) is one tile at point 0; term 1 (h, the slice of W_rec, the slice of mask_rec) is tile s at point s + 1,
   columns 512·s … 512·s + 511; the bias block is the whole 1 × 1024 array at every point. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R0Acc
import proofs.«164445_j37684043055467_1_alg».proof.Proof.KI.Tile
import proofs.«164445_j37684043055467_1_alg».proof.Proof.LibSumBlocks
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The printed index maps of region 0, decided over its seventeen points. -/
theorem idx0_t0 : ∀ t : Fin cfg0.N, t.val = 0 →
    win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, t.val = 0 → _)
theorem idx0_t1 : ∀ t : Fin cfg0.N, 1 ≤ t.val →
    win0_3.index t (0 : Fin 2) = 0 ∧ win0_3.index t (1 : Fin 2) = t.val - 1 ∧ win0_4.index t (0 : Fin 2) = 0 ∧ win0_4.index t (1 : Fin 2) = t.val - 1
    ∧ win0_5.index t (0 : Fin 2) = 0 ∧ win0_5.index t (1 : Fin 2) = t.val - 1 :=
  (by decide +kernel : ∀ t : Fin grid0.N, 1 ≤ t.val → _)
theorem idx0_b : ∀ t : Fin cfg0.N, win0_6.index t (0 : Fin 2) = 0 ∧ win0_6.index t (1 : Fin 2) = 0 :=
  (by decide +kernel : ∀ t : Fin grid0.N, _)

theorem blk0_0 (c : Dev nD) (t : Fin cfg0.N) (ht : t.val = 0) (r : Fin 64) (q : Fin 512) :
    iblk0 V c 0 t (ix2 r q) = V c main_arg0 (ix2 r q) := by
  unfold iblk0
  show V c main_arg0 (((cfg0.win 0).blk t).view.emb (ix2 r q)) = _
  refine congrArg (V c main_arg0) ?_
  obtain ⟨e0, e1, e2, e3, e4, e5⟩ := idx0_t0 t ht
  funext a; apply Fin.ext
  match a with
  | ⟨0, _⟩ => show win0_0.index t (0 : Fin 2) * 64 + 1 * r.val = r.val; omega
  | ⟨1, _⟩ => show win0_0.index t (1 : Fin 2) * 512 + 1 * q.val = q.val; omega

theorem blk0_1 (c : Dev nD) (t : Fin cfg0.N) (ht : t.val = 0) (r : Fin 1024) (q : Fin 512) :
    iblk0 V c 1 t (ix2 r q) = V c main_arg2 (ix2 r q) := by
  unfold iblk0
  show V c main_arg2 (((cfg0.win 1).blk t).view.emb (ix2 r q)) = _
  refine congrArg (V c main_arg2) ?_
  obtain ⟨e0, e1, e2, e3, e4, e5⟩ := idx0_t0 t ht
  funext a; apply Fin.ext
  match a with
  | ⟨0, _⟩ => show win0_1.index t (0 : Fin 2) * 1024 + 1 * r.val = r.val; omega
  | ⟨1, _⟩ => show win0_1.index t (1 : Fin 2) * 512 + 1 * q.val = q.val; omega

theorem blk0_2 (c : Dev nD) (t : Fin cfg0.N) (ht : t.val = 0) (r : Fin 1024) (q : Fin 512) :
    iblk0 V c 2 t (ix2 r q) = V c main_v0 (ix2 r q) := by
  unfold iblk0
  show V c main_v0 (((cfg0.win 2).blk t).view.emb (ix2 r q)) = _
  refine congrArg (V c main_v0) ?_
  obtain ⟨e0, e1, e2, e3, e4, e5⟩ := idx0_t0 t ht
  funext a; apply Fin.ext
  match a with
  | ⟨0, _⟩ => show win0_2.index t (0 : Fin 2) * 1024 + 1 * r.val = r.val; omega
  | ⟨1, _⟩ => show win0_2.index t (1 : Fin 2) * 512 + 1 * q.val = q.val; omega

theorem blk0_3 (c : Dev nD) (t : Fin cfg0.N) (s : Fin 16) (ht : t.val = s.val + 1) (r : Fin 64) (q : Fin 512) :
    iblk0 V c 3 t (ix2 r q) = V c main_arg1 (ix2 r (⟨512 * s.val + q.val, by have := s.isLt; have := q.isLt; omega⟩ : Fin 8192)) := by
  unfold iblk0
  show V c main_arg1 (((cfg0.win 3).blk t).view.emb (ix2 r q)) = _
  refine congrArg (V c main_arg1) ?_
  obtain ⟨e0, e1, e2, e3, e4, e5⟩ := idx0_t1 t (by omega)
  funext a; apply Fin.ext
  match a with
  | ⟨0, _⟩ => show win0_3.index t (0 : Fin 2) * 64 + 1 * r.val = r.val; omega
  | ⟨1, _⟩ => show win0_3.index t (1 : Fin 2) * 512 + 1 * q.val = 512 * s.val + q.val; omega

theorem blk0_4 (c : Dev nD) (t : Fin cfg0.N) (s : Fin 16) (ht : t.val = s.val + 1) (r : Fin 1024) (q : Fin 512) :
    iblk0 V c 4 t (ix2 r q) = V c main_v2 (ix2 r (⟨512 * s.val + q.val, by have := s.isLt; have := q.isLt; omega⟩ : Fin 8192)) := by
  unfold iblk0
  show V c main_v2 (((cfg0.win 4).blk t).view.emb (ix2 r q)) = _
  refine congrArg (V c main_v2) ?_
  obtain ⟨e0, e1, e2, e3, e4, e5⟩ := idx0_t1 t (by omega)
  funext a; apply Fin.ext
  match a with
  | ⟨0, _⟩ => show win0_4.index t (0 : Fin 2) * 1024 + 1 * r.val = r.val; omega
  | ⟨1, _⟩ => show win0_4.index t (1 : Fin 2) * 512 + 1 * q.val = 512 * s.val + q.val; omega

theorem blk0_5 (c : Dev nD) (t : Fin cfg0.N) (s : Fin 16) (ht : t.val = s.val + 1) (r : Fin 1024) (q : Fin 512) :
    iblk0 V c 5 t (ix2 r q) = V c main_v4 (ix2 r (⟨512 * s.val + q.val, by have := s.isLt; have := q.isLt; omega⟩ : Fin 8192)) := by
  unfold iblk0
  show V c main_v4 (((cfg0.win 5).blk t).view.emb (ix2 r q)) = _
  refine congrArg (V c main_v4) ?_
  obtain ⟨e0, e1, e2, e3, e4, e5⟩ := idx0_t1 t (by omega)
  funext a; apply Fin.ext
  match a with
  | ⟨0, _⟩ => show win0_5.index t (0 : Fin 2) * 1024 + 1 * r.val = r.val; omega
  | ⟨1, _⟩ => show win0_5.index t (1 : Fin 2) * 512 + 1 * q.val = 512 * s.val + q.val; omega

theorem blk0_6 (c : Dev nD) (t : Fin cfg0.N) (o : Fin 1024) :
    iblk0 V c 6 t (ix2 (0 : Fin 1) o) = V c main_v5 (ix2 (0 : Fin 1) o) := by
  unfold iblk0
  show V c main_v5 (((cfg0.win 6).blk t).view.emb (ix2 (0 : Fin 1) o)) = _
  refine congrArg (V c main_v5) ?_
  obtain ⟨e0, e1⟩ := idx0_b t
  funext a; apply Fin.ext
  match a with
  | ⟨0, _⟩ => show win0_6.index t (0 : Fin 2) * 1 + 1 * (0 : Fin 1).val = (0 : Fin 1).val; omega
  | ⟨1, _⟩ => show win0_6.index t (1 : Fin 2) * 1024 + 1 * o.val = o.val; omega

/-! ## The payloads at an index -/

theorem pay1_apply (j : S64x1024.Idx) : k0_pay1 (F := Ideal) j = 0 := by
  unfold k0_pay1
  simp only [shapeCast_self]
  show Ideal.ofBits .f32 0x00000000#32 = 0
  exact Ideal.ofBits_zero_f32

theorem pay2_apply (x : Vec Ideal S64x512 .f32) (w m : Vec Ideal S1024x512 .f32) (prev : Vec Ideal S64x1024 .f32) (b : Fin 64) (o : Fin 1024) :
    k0_pay2 x w m prev (ix2 b o) = prev (ix2 b o) + ∑ q : Fin 512, x (ix2 b q) * (w (ix2 o q) * m (ix2 o q)) := by
  unfold k0_pay2
  simp only [shapeCast_self]
  exact HandV.tile_apply x w m prev b o

theorem pay3_apply (x : Vec Ideal S64x512 .f32) (w m : Vec Ideal S1024x512 .f32) (prev : Vec Ideal S64x1024 .f32) (b : Fin 64) (o : Fin 1024) :
    k0_pay3 x w m prev (ix2 b o) = prev (ix2 b o) + ∑ q : Fin 512, x (ix2 b q) * (w (ix2 o q) * m (ix2 o q)) := by
  unfold k0_pay3
  simp only [shapeCast_self]
  exact HandV.tile_apply x w m prev b o

theorem pay4_apply (a : Vec Ideal S64x1024 .f32) (bias : Vec Ideal S1x1024 .f32) (b : Fin 64) (o : Fin 1024) :
    k0_pay4 a bias (ix2 b o) = Ideal.logistic (a (ix2 b o) + bias (ix2 (0 : Fin 1) o)) := by
  unfold k0_pay4
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The accumulator after each point -/

/-- The arrays region 0's windows stage, at their literal shapes. -/
abbrev a0_x (c : Dev nD) : S64x512.Idx → EReal := V c main_arg0
abbrev a0_w (c : Dev nD) : S1024x512.Idx → EReal := V c main_arg2
abbrev a0_m (c : Dev nD) : S1024x512.Idx → EReal := V c main_v0
abbrev a0_h (c : Dev nD) : S64x8192.Idx → EReal := V c main_arg1
abbrev a0_wr (c : Dev nD) : S1024x8192.Idx → EReal := V c main_v2
abbrev a0_mr (c : Dev nD) : S1024x8192.Idx → EReal := V c main_v4
abbrev a0_b (c : Dev nD) : S1x1024.Idx → EReal := V c main_v5

/-- Term 0: the one tile of x · W_inᵀ (the ones array as its mask). -/
def term0_0 (c : Dev nD) (b : Fin 64) (o : Fin 1024) : EReal :=
  ∑ q : Fin 512, a0_x V c (ix2 b q) * (a0_w V c (ix2 o q) * a0_m V c (ix2 o q))

/-- Term 1's tile `s`: columns 512·s … of h against the same columns of the weight and mask slices. -/
def tile0_1 (c : Dev nD) (s : Fin 16) (b : Fin 64) (o : Fin 1024) : EReal :=
  ∑ q : Fin 512, a0_h V c (ix2 b (⟨512 * s.val + q.val, by have := s.isLt; have := q.isLt; omega⟩ : Fin 8192))
    * (a0_wr V c (ix2 o (⟨512 * s.val + q.val, by have := s.isLt; have := q.isLt; omega⟩ : Fin 8192))
      * a0_mr V c (ix2 o (⟨512 * s.val + q.val, by have := s.isLt; have := q.isLt; omega⟩ : Fin 8192)))

/-- The same over the naturals, zero past the sixteenth tile. -/
def tileN0_1 (c : Dev nD) (s : ℕ) (b : Fin 64) (o : Fin 1024) : EReal :=
  if h : s < 16 then tile0_1 V c ⟨s, h⟩ b o else 0

set_option maxHeartbeats 2000000 in
theorem acc0_apply (c : Dev nD) (b : Fin 64) (o : Fin 1024) : ∀ (n : ℕ) (hn : n < cfg0.N),
    (outsAt0 V c n hn).2 (ix2 b o) = term0_0 V c b o + ∑ s ∈ Finset.range n, tileN0_1 V c s b o
  | 0, hn => by
    rw [show (outsAt0 V c 0 hn).2 = _ from step0_A V c ⟨0, hn⟩ rfl]
    rw [pay2_apply, pay1_apply, zero_add, Finset.range_zero, Finset.sum_empty, add_zero]
    unfold term0_0
    refine Finset.sum_congr rfl fun q _ => ?_
    rw [blk0_0 V c ⟨0, hn⟩ rfl, blk0_1 V c ⟨0, hn⟩ rfl, blk0_2 V c ⟨0, hn⟩ rfl]
  | n + 1, hn => by
    have hN : n + 1 < 17 := lt_of_lt_of_eq hn (show cfg0.N = 17 from N_0)
    have ih := acc0_apply c b o n (Nat.lt_of_succ_lt hn)
    have hstep : (outsAt0 V c (n + 1) hn).2 = k0_pay3 (iblk0 V c 3 ⟨n + 1, hn⟩) (iblk0 V c 4 ⟨n + 1, hn⟩) (iblk0 V c 5 ⟨n + 1, hn⟩) (outsAt0 V c n (Nat.lt_of_succ_lt hn)).2 := by
      by_cases h16 : n + 1 = 16
      · exact step0_Z V c ⟨n + 1, hn⟩ (Nat.succ_ne_zero n) h16
      · exact step0_B V c ⟨n + 1, hn⟩ (Nat.succ_ne_zero n) h16
    rw [hstep, pay3_apply, ih, Finset.sum_range_succ, add_assoc]
    refine congrArg (term0_0 V c b o + ·) (congrArg (∑ s ∈ Finset.range n, tileN0_1 V c s b o + ·) ?_)
    unfold tileN0_1
    rw [dif_pos (show n < 16 by omega)]
    unfold tile0_1
    refine Finset.sum_congr rfl fun q _ => ?_
    rw [blk0_3 V c ⟨n + 1, hn⟩ ⟨n, by omega⟩ rfl, blk0_4 V c ⟨n + 1, hn⟩ ⟨n, by omega⟩ rfl, blk0_5 V c ⟨n + 1, hn⟩ ⟨n, by omega⟩ rfl]

/-! ## The tiles regrouped, and the region's result at an index -/

/-- A sum over 8192 columns as sixteen blocks of 512. -/
theorem sum_8192 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega

/-- Term 1 whole: h · (W_rec₀ ∘ mask_rec₀)ᵀ at (b, o). -/
def whole0_1 (c : Dev nD) (b : Fin 64) (o : Fin 1024) : EReal :=
  ∑ n : Fin 8192, a0_h V c (ix2 b n) * (a0_wr V c (ix2 o n) * a0_mr V c (ix2 o n))

theorem tiles0_1 (c : Dev nD) (b : Fin 64) (o : Fin 1024) :
    ∑ s ∈ Finset.range 16, tileN0_1 V c s b o = whole0_1 V c b o := by
  rw [Finset.sum_range]
  unfold whole0_1
  rw [sum_8192]
  refine Finset.sum_congr rfl fun s _ => ?_
  unfold tileN0_1
  rw [dif_pos s.isLt]
  rfl

/-- What region 0 leaves in its output's buffer at the last point: the sigmoid of the two terms plus the bias. -/
theorem out0_apply (c : Dev nD) (h16 : 16 < cfg0.N) (b : Fin 64) (o : Fin 1024) :
    (outsAt0 V c 16 h16).1 (ix2 b o) = Ideal.logistic ((term0_0 V c b o + whole0_1 V c b o) + a0_b V c (ix2 (0 : Fin 1) o)) := by
  rw [show (outsAt0 V c 16 h16).1 = _ from last0 V c ⟨16, h16⟩ (by show (16 : ℕ) ≠ 0; decide) rfl]
  rw [← show (outsAt0 V c 16 h16).2 = _ from step0_Z V c ⟨16, h16⟩ (by show (16 : ℕ) ≠ 0; decide) rfl]
  rw [pay4_apply, acc0_apply V c b o 16 h16, tiles0_1, blk0_6]

/-! ## The region's output array -/

theorem idx0_out : ∀ t : Fin cfg0.N, win0_7.index t (0 : Fin 2) = 0 ∧ win0_7.index t (1 : Fin 2) = 0 :=
  (by decide +kernel : ∀ t : Fin grid0.N, _)

theorem h16_0 : 16 < cfg0.N := by rw [show cfg0.N = 17 from N_0]; decide

/-- What region 0 leaves in its output array: the last point's buffer, written back whole. -/
def G0 (c : Dev nD) : S64x1024.Idx → EReal := (outsAt0 V c 16 h16_0).1

theorem emb0_out (t : Fin cfg0.N) (y : S64x1024.Idx) : ((cfg0.win 7).blk t).view.emb y = y := by
  obtain ⟨e0, e1⟩ := idx0_out t
  funext a; apply Fin.ext
  match a with
  | ⟨0, _⟩ => show win0_7.index t (0 : Fin 2) * 64 + 1 * (y 0).val = (y 0).val; omega
  | ⟨1, _⟩ => show win0_7.index t (1 : Fin 2) * 1024 + 1 * (y 1).val = (y 1).val; omega

theorem flushed0_eq (c : Dev nD) (t : Fin cfg0.N) (hf : (cfg0.win 7).flush t = true) :
    (dat0 V c).flushed 7 t = ((cfg0.win 7).blk t).view.read (Elt Ideal) (G0 V c) := by
  have ht : t.val = 16 := by
    have h1 := (flush0_7 t).mp hf
    have h2 : t.val < 17 := lt_of_lt_of_eq t.isLt (show cfg0.N = 17 from N_0)
    omega
  have ht' : t = ⟨16, h16_0⟩ := Fin.ext ht
  subst ht'
  show (cfg0.win 7).cut (grid0.coords ⟨16, h16_0⟩) ((dat0 V c).after 7 ⟨16, h16_0⟩) = _
  rw [after0_7]
  funext y
  show (outsAt0 V c 16 h16_0).1 y = G0 V c (((cfg0.win 7).blk ⟨16, h16_0⟩).view.emb y)
  rw [emb0_out]
  rfl

theorem mem_blk0_out (t : Fin cfg0.N) (i : S64x1024.Idx) :
    i ∈ ((cfg0.win 7).blk t).view.set ↔ ∀ a : Fin 2, win0_7.index t a * S64x1024.size a ≤ (i a).val ∧ (i a).val < win0_7.index t a * S64x1024.size a + S64x1024.size a := by
  show i ∈ ((View.whole main_v6).slice (win0_7.rect t)).set ↔ _
  rw [View.set_slice_whole, Rect.mem_set_unit]
  exact Iff.rfl

theorem final0 (c : Dev nD) : (dat0 V c).arrAt 7 cfg0.N = G0 V c :=
  (dat0 V c).arrAt_eq_of_cover 7 (G0 V c) (fun t hf => flushed0_eq V c t hf) (fun i =>
    ⟨⟨16, h16_0⟩, (flush0_7 ⟨16, h16_0⟩).mpr (by show 16 % 17 = 16; decide), by
      rw [mem_blk0_out]
      obtain ⟨e0, e1⟩ := idx0_out ⟨16, h16_0⟩
      intro a
      match a with
      | ⟨0, _⟩ => show win0_7.index ⟨16, h16_0⟩ (0 : Fin 2) * 64 ≤ (i 0).val ∧ (i 0).val < win0_7.index ⟨16, h16_0⟩ (0 : Fin 2) * 64 + 64; have hi : (i 0).val < 64 := (i 0).isLt; omega
      | ⟨1, _⟩ => show win0_7.index ⟨16, h16_0⟩ (1 : Fin 2) * 1024 ≤ (i 1).val ∧ (i 1).val < win0_7.index ⟨16, h16_0⟩ (1 : Fin 2) * 1024 + 1024; have hi : (i 1).val < 1024 := (i 1).isLt; omega⟩)

/-- Region 0's output array at an index. -/
theorem final0_apply (c : Dev nD) (b : Fin 64) (o : Fin 1024) :
    (dat0 V c).arrAt 7 cfg0.N (ix2 b o) = Ideal.logistic ((term0_0 V c b o + whole0_1 V c b o) + a0_b V c (ix2 (0 : Fin 1) o)) :=
  (congrFun (final0 V c) (ix2 b o)).trans (out0_apply V c h16_0 b o)

end Cert.KernelIdeal.Hand

end
-- ==== Proof.KI.B0.lean ====
/- The first boundary's contents, read: what the host stretch before region 0 leaves in the arrays the region stages — the arguments
   untouched, an array of ones, slice 0 of the recurrent weights and of their mask as [1024, 8192] arrays, the input bias as a row. -/
import proofs.«164445_j37684043055467_1_alg».proof.Proof.Gen.KernelIdeal.Regions
import proofs.«164445_j37684043055467_1_alg».proof.Proof.Gen.KernelIdeal.Skeleton
import proofs.«164445_j37684043055467_1_alg».proof.Proof.Gen.KernelIdeal.Points
import proofs.«164445_j37684043055467_1_alg».proof.Proof.KI.Run
import Idealize.ShloMosaic.Lib.StableHlo.Run
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt Ideal) ℓ)

theorem E1_arg0 (c : Dev nD) : E1 m c main_arg0 = m ((c : Thread nD τ).loc main_arg0) := V1_of m c main_arg0 (by decide)
theorem E1_arg1 (c : Dev nD) : E1 m c main_arg1 = m ((c : Thread nD τ).loc main_arg1) := V1_of m c main_arg1 (by decide)
theorem E1_arg2 (c : Dev nD) : E1 m c main_arg2 = m ((c : Thread nD τ).loc main_arg2) := V1_of m c main_arg2 (by decide)

theorem E1_v0 (c : Dev nD) : (E1 m c main_v0 : S1024x512.Idx → EReal)
    = broadcastInDim S1024x512 ![] bcast_S_S1024x512 (constant (F := Ideal) S_ .f32 0x3F800000#32) := by
  show StableHlo.after hostOps0 (fun b => m (c, b)) (Proc.devRef .tc main_v0) = _
  after_results <;> rfl

theorem E1_v2 (c : Dev nD) : (E1 m c main_v2 : S1024x8192.Idx → EReal)
    = shapeCast S1024x8192 (extractStridedSlice S1x1024x8192 ![0, 0, 0] (m ((c : Thread nD τ).loc main_arg6)) slices_S7x1024x8192_S1x1024x8192_0_0_0) shapeCasts_S1x1024x8192_S1024x8192 := by
  show StableHlo.after hostOps0 (fun b => m (c, b)) (Proc.devRef .tc main_v2) = _
  after_results <;> rfl

theorem E1_v4 (c : Dev nD) : (E1 m c main_v4 : S1024x8192.Idx → EReal)
    = shapeCast S1024x8192 (extractStridedSlice S1x1024x8192 ![0, 0, 0] (m ((c : Thread nD τ).loc main_arg11)) slices_S7x1024x8192_S1x1024x8192_0_0_0) shapeCasts_S1x1024x8192_S1024x8192 := by
  show StableHlo.after hostOps0 (fun b => m (c, b)) (Proc.devRef .tc main_v4) = _
  after_results <;> rfl

theorem E1_v5 (c : Dev nD) : (E1 m c main_v5 : S1x1024.Idx → EReal)
    = shapeCast S1x1024 (m ((c : Thread nD τ).loc main_arg3)) shapeCasts_S1024_S1x1024 := by
  show StableHlo.after hostOps0 (fun b => m (c, b)) (Proc.devRef .tc main_v5) = _
  after_results <;> rfl

end Cert.KernelIdeal.Hand

end
-- ==== Proof.Bridge.L0.lean ====
/- Layer 0, the two sides joined: what the kernel's first region leaves in its output array is the reference's first layer, index by index.
   The kernel multiplies W_in by an array of ones and adds the bias last; the reference adds the bias between the two products. -/
import proofs.«164445_j37684043055467_1_alg».proof.Proof.KI.V0
import proofs.«164445_j37684043055467_1_alg».proof.Proof.KI.B0
import proofs.«164445_j37684043055467_1_alg».proof.Proof.RI.L0
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
theorem layer0 (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (b : Fin 64) (o : Fin 1024) :
    (Cert.KernelIdeal.Hand.o2 m c (ix2 b o) : EReal) = Cert.ReferenceIdeal.Value.res_main_v18 (StableHlo.launchContents m' c) (ix2 b o) := by
  rw [Cert.ReferenceIdeal.HandV.res18_apply]
  show (Cert.KernelIdeal.Hand.dat0 (Cert.KernelIdeal.Hand.E1 m) c).arrAt 7 Cert.KernelIdeal.cfg0.N (ix2 b o) = _
  rw [Cert.KernelIdeal.Hand.final0_apply]
  have ex : Cert.KernelIdeal.Hand.a0_x (Cert.KernelIdeal.Hand.E1 m) c = Cert.ReferenceIdeal.HandV.r_x (StableHlo.launchContents m' c) := by
    show Cert.KernelIdeal.Hand.E1 m c Cert.KernelIdeal.main_arg0 = m' ((c.tc : Thread Cert.ReferenceIdeal.nD Cert.ReferenceIdeal.τ).loc Cert.ReferenceIdeal.main_arg0)
    rw [h0]; exact Cert.KernelIdeal.Hand.E1_arg0 m c
  have ew : Cert.KernelIdeal.Hand.a0_w (Cert.KernelIdeal.Hand.E1 m) c = Cert.ReferenceIdeal.HandV.r_win (StableHlo.launchContents m' c) := by
    show Cert.KernelIdeal.Hand.E1 m c Cert.KernelIdeal.main_arg2 = m' ((c.tc : Thread Cert.ReferenceIdeal.nD Cert.ReferenceIdeal.τ).loc Cert.ReferenceIdeal.main_arg2)
    rw [h2]; exact Cert.KernelIdeal.Hand.E1_arg2 m c
  have em : ∀ i, Cert.KernelIdeal.Hand.a0_m (Cert.KernelIdeal.Hand.E1 m) c i = 1 := fun i =>
    (congrFun (Cert.KernelIdeal.Hand.E1_v0 m c) i).trans ((ValueIdx.broadcastInDim_scalar_apply _ _ i).trans Cert.ReferenceIdeal.HandV.one_f32)
  have eh : Cert.KernelIdeal.Hand.a0_h (Cert.KernelIdeal.Hand.E1 m) c = Cert.ReferenceIdeal.HandV.r_h (StableHlo.launchContents m' c) := by
    show Cert.KernelIdeal.Hand.E1 m c Cert.KernelIdeal.main_arg1 = m' ((c.tc : Thread Cert.ReferenceIdeal.nD Cert.ReferenceIdeal.τ).loc Cert.ReferenceIdeal.main_arg1)
    rw [h1]; exact Cert.KernelIdeal.Hand.E1_arg1 m c
  have ewr : Cert.KernelIdeal.Hand.a0_wr (Cert.KernelIdeal.Hand.E1 m) c = Cert.ReferenceIdeal.HandV.r_wr0 (StableHlo.launchContents m' c) := by
    show Cert.KernelIdeal.Hand.E1 m c Cert.KernelIdeal.main_v2 = shapeCast _ (extractStridedSlice _ ![0, 0, 0] (m' ((c.tc : Thread Cert.ReferenceIdeal.nD Cert.ReferenceIdeal.τ).loc Cert.ReferenceIdeal.main_arg6)) _) _
    rw [h6]; exact Cert.KernelIdeal.Hand.E1_v2 m c
  have emr : Cert.KernelIdeal.Hand.a0_mr (Cert.KernelIdeal.Hand.E1 m) c = Cert.ReferenceIdeal.HandV.r_mr0 (StableHlo.launchContents m' c) := by
    show Cert.KernelIdeal.Hand.E1 m c Cert.KernelIdeal.main_v4 = shapeCast _ (extractStridedSlice _ ![0, 0, 0] (m' ((c.tc : Thread Cert.ReferenceIdeal.nD Cert.ReferenceIdeal.τ).loc Cert.ReferenceIdeal.main_arg11)) _) _
    rw [h11]; exact Cert.KernelIdeal.Hand.E1_v4 m c
  have eb : Cert.KernelIdeal.Hand.a0_b (Cert.KernelIdeal.Hand.E1 m) c (ix2 (0 : Fin 1) o) = Cert.ReferenceIdeal.HandV.r_bin (StableHlo.launchContents m' c) (ix1 o) := by
    show Cert.KernelIdeal.Hand.E1 m c Cert.KernelIdeal.main_v5 (ix2 (0 : Fin 1) o) = m' ((c.tc : Thread Cert.ReferenceIdeal.nD Cert.ReferenceIdeal.τ).loc Cert.ReferenceIdeal.main_arg3) (ix1 o)
    rw [h3, congrFun (Cert.KernelIdeal.Hand.E1_v5 m c) (ix2 (0 : Fin 1) o)]
    exact Cert.LibHostApply.shapeCast_row_apply _ _ o
  unfold Cert.KernelIdeal.Hand.term0_0 Cert.KernelIdeal.Hand.whole0_1
  rw [ex, ew, eh, ewr, emr, eb]
  simp only [em, mul_one]
  rw [add_right_comm]

end Cert.Proof.Bridge

end
-- ==== Proof.KI.R1Acc.lean ====
/- Region 1: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R1Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl
local notation "hz2" => hz2_1

theorem sout1_A_eq (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond1_1 i) (hc2 : cond1_2 i) (hc3 : ¬cond1_3 i) (hc4 : ¬cond1_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    sout1_A c i arg1 harg1 arg2 harg2 arg3 harg3 arg4 harg4 arg5 harg5 arg6 harg6 arg7 harg7 arg8 harg8 arg9 harg9 hc1 hc2 hc3 hc4 x1 x2 x3 x4 x5 x6 x7 = k1_pay2 x1 x2 x3 (k1_pay1 (F := F)) := by
  unfold sout1_A
  rw [View.read_writes_eq_canon _ _ _ (scover1_A c i arg1 harg1 arg2 harg2 arg3 harg3 arg4 harg4 arg5 harg5 arg6 harg6 arg7 harg7 arg8 harg8 arg9 harg9 hc1 hc2 hc3 hc4 x1 x2 x3 x4 x5 x6 x7)]
  unfold kernelRun1_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout1_Z_eq (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout1_Z c i arg1 harg1 arg2 harg2 arg3 harg3 arg4 harg4 arg5 harg5 arg6 harg6 arg7 harg7 arg8 harg8 arg9 harg9 hc1 hc2 hc3 hc4 x1 x2 x3 x4 x5 x6 x7 xs = k1_pay3 x4 x5 x6 xs := by
  unfold sout1_Z
  rw [View.read_writes_eq_canon _ _ _ (scover1_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun1_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out1_Z_eq (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : cond1_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    out1_Z c i arg1 harg1 arg2 harg2 arg3 harg3 arg4 harg4 arg5 harg5 arg6 harg6 arg7 harg7 arg8 harg8 arg9 harg9 hc1 hc2 hc3 hc4 x1 x2 x3 x4 x5 x6 x7 xs = k1_pay4 (k1_pay3 x4 x5 x6 xs) x7 := by
  unfold out1_Z
  rw [View.read_writes_eq_canon _ _ _ (cover1_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun1_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout1_B_eq (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : cond1_2 i) (hc3 : ¬cond1_3 i) (hc4 : ¬cond1_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout1_B c i arg1 harg1 arg2 harg2 arg3 harg3 arg4 harg4 arg5 harg5 arg6 harg6 arg7 harg7 arg8 harg8 arg9 harg9 hc1 hc2 hc3 hc4 x1 x2 x3 x4 x5 x6 x7 xs = k1_pay2 x1 x2 x3 xs := by
  unfold sout1_B
  rw [View.read_writes_eq_canon _ _ _ (scover1_B c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun1_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout1_C_eq (c : Dev nD) (i : grid1.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond1_1 i) (hc2 : ¬cond1_2 i) (hc3 : cond1_3 i) (hc4 : ¬cond1_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout1_C c i arg1 harg1 arg2 harg2 arg3 harg3 arg4 harg4 arg5 harg5 arg6 harg6 arg7 harg7 arg8 harg8 arg9 harg9 hc1 hc2 hc3 hc4 x1 x2 x3 x4 x5 x6 x7 xs = k1_pay3 x4 x5 x6 xs := by
  unfold sout1_C
  rw [View.read_writes_eq_canon _ _ _ (scover1_C c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun1_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step1_A (c : Dev nD) (t : Fin cfg1.N) (hz : t.val = 0) :
    (outsAt1 V c t.val t.isLt).2 = k1_pay2 (iblk1 V c 0 t) (iblk1 V c 1 t) (iblk1 V c 2 t) (k1_pay1 (F := F)) := by
  rw [outsAt1_A V c t hz]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_A t hz).1) ((case1_A t hz).2.1) ((case1_A t hz).2.2.1) ((case1_A t hz).2.2.2) (iblk1 V c 0 t) (iblk1 V c 1 t) (iblk1 V c 2 t) (iblk1 V c 3 t) (iblk1 V c 4 t) (iblk1 V c 5 t) (iblk1 V c 6 t)

set_option maxHeartbeats 2000000 in
theorem step1_Z (c : Dev nD) (t : Fin cfg1.N) (hz : t.val ≠ 0) (h0 : t.val = 17) :
    (outsAt1 V c t.val t.isLt).2 = k1_pay3 (iblk1 V c 3 t) (iblk1 V c 4 t) (iblk1 V c 5 t) (outsAt1 V c (t.val - 1) (Nat.lt_of_le_of_lt (Nat.sub_le _ _) t.isLt)).2 := by
  rw [outsAt1_Z V c t hz h0]
  dsimp only
  exact sout1_Z_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

set_option maxHeartbeats 2000000 in
theorem last1 (c : Dev nD) (t : Fin cfg1.N) (hz : t.val ≠ 0) (h0 : t.val = 17) :
    (outsAt1 V c t.val t.isLt).1 = k1_pay4 (k1_pay3 (iblk1 V c 3 t) (iblk1 V c 4 t) (iblk1 V c 5 t) (outsAt1 V c (t.val - 1) (Nat.lt_of_le_of_lt (Nat.sub_le _ _) t.isLt)).2) (iblk1 V c 6 t) := by
  rw [outsAt1_Z V c t hz h0]
  dsimp only
  exact out1_Z_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_Z t hz h0).1) ((case1_Z t hz h0).2.1) ((case1_Z t hz h0).2.2.1) ((case1_Z t hz h0).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

set_option maxHeartbeats 2000000 in
theorem step1_B (c : Dev nD) (t : Fin cfg1.N) (hz : t.val ≠ 0) (h0 : ¬t.val = 17) (h1 : t.val = 1) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 := by
  rw [outsAt1_B V c t hz h0 h1]
  dsimp only
  exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_B t hz h0 h1).1) ((case1_B t hz h0 h1).2.1) ((case1_B t hz h0 h1).2.2.1) ((case1_B t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

set_option maxHeartbeats 2000000 in
theorem step1_C (c : Dev nD) (t : Fin cfg1.N) (hz : t.val ≠ 0) (h0 : ¬t.val = 17) (h1 : ¬t.val = 1) :
    (outsAt1 V c t.val t.isLt).2 = k1_pay3 (iblk1 V c 3 t) (iblk1 V c 4 t) (iblk1 V c 5 t) (outsAt1 V c (t.val - 1) (Nat.lt_of_le_of_lt (Nat.sub_le _ _) t.isLt)).2 := by
  rw [outsAt1_C V c t hz h0 h1]
  dsimp only
  exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((case1_C t hz h0 h1).1) ((case1_C t hz h0 h1).2.1) ((case1_C t hz h0 h1).2.2.1) ((case1_C t hz h0 h1).2.2.2) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

end Cert.KernelIdeal.Hand

end
-- ==== Proof.LibPaddedSums.lean ====
import Mathlib.Algebra.BigOperators.Intervals
import Mathlib.Algebra.BigOperators.Fin

/-!
# Partial sums of a sequence that is zero from some index on

A grid walks through several groups of tiles one after the other: group `j` occupies the points `a_j, …, a_j + T_j - 1`. After point `n`
the part of group `j` already added is its first `n + 1 - a_j` tiles (none before the group starts, all of them once it is over). With
each group's tile sequence continued by zeros, that count needs no clamping, and one step of the walk adds one tile to exactly one group.
-/

namespace Cert.LibPaddedSums

open scoped BigOperators

variable {M : Type} [AddCommMonoid M]

/-- A step inside the group: one more tile. -/
theorem step_active (f : ℕ → M) (a n : ℕ) (h : a ≤ n + 1) :
    ∑ s ∈ Finset.range (n + 1 + 1 - a), f s = ∑ s ∈ Finset.range (n + 1 - a), f s + f (n + 1 - a) := by
  rw [show n + 1 + 1 - a = (n + 1 - a) + 1 by omega, Finset.sum_range_succ]

/-- A step before the group starts or after it is over: nothing new. -/
theorem step_inactive (f : ℕ → M) (T a n : ℕ) (hf : ∀ s, T ≤ s → f s = 0) (h : n + 1 < a ∨ a + T ≤ n + 1) :
    ∑ s ∈ Finset.range (n + 1 + 1 - a), f s = ∑ s ∈ Finset.range (n + 1 - a), f s := by
  rcases h with h | h
  · rw [show n + 1 + 1 - a = 0 by omega, show n + 1 - a = 0 by omega]
  · rw [show n + 1 + 1 - a = (n + 1 - a) + 1 by omega, Finset.sum_range_succ, hf (n + 1 - a) (by omega), add_zero]

/-- Past the last tile the partial sum is the whole group. -/
theorem pad (f : ℕ → M) (T : ℕ) (hf : ∀ s, T ≤ s → f s = 0) : ∀ x, T ≤ x → ∑ s ∈ Finset.range x, f s = ∑ s ∈ Finset.range T, f s := by
  intro x hx
  obtain ⟨d, rfl⟩ := Nat.exists_eq_add_of_le hx
  induction d with
  | zero => rfl
  | succ d ih => rw [show T + (d + 1) = (T + d) + 1 by omega, Finset.sum_range_succ, hf (T + d) (by omega), add_zero]; exact ih (by omega)

/-- The whole group as a sum over its tiles' own index type. -/
theorem range_eq_fin (T : ℕ) (g : Fin T → M) (f : ℕ → M) (hfg : ∀ s : Fin T, f s.val = g s) :
    ∑ s ∈ Finset.range T, f s = ∑ s : Fin T, g s := by
  rw [Finset.sum_range]
  exact Finset.sum_congr rfl fun s _ => hfg s

end Cert.LibPaddedSums
-- ==== Proof.KI.V1.lean ====
/- Region 1 at the ideal instance: each window's block read at an index of the array it stages; the accumulator after every point as the
   sum, over the region's 2 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R1Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx1_t0 : ∀ t : Fin cfg1.N, 0 ≤ t.val → t.val < 2 → win1_0.index t (0 : Fin 2) = 0 ∧ win1_0.index t (1 : Fin 2) = t.val - 0 ∧ win1_1.index t (0 : Fin 2) = 0 ∧ win1_1.index t (1 : Fin 2) = t.val - 0 ∧ win1_2.index t (0 : Fin 2) = 0 ∧ win1_2.index t (1 : Fin 2) = t.val - 0 :=
  (by decide +kernel : ∀ t : Fin grid1.N, 0 ≤ t.val → t.val < 2 → _)
theorem idx1_t1 : ∀ t : Fin cfg1.N, 2 ≤ t.val → t.val < 18 → win1_3.index t (0 : Fin 2) = 0 ∧ win1_3.index t (1 : Fin 2) = t.val - 2 ∧ win1_4.index t (0 : Fin 2) = 0 ∧ win1_4.index t (1 : Fin 2) = t.val - 2 ∧ win1_5.index t (0 : Fin 2) = 0 ∧ win1_5.index t (1 : Fin 2) = t.val - 2 :=
  (by decide +kernel : ∀ t : Fin grid1.N, 2 ≤ t.val → t.val < 18 → _)
theorem idx1_b : ∀ t : Fin cfg1.N, win1_6.index t (0 : Fin 2) = 0 ∧ win1_6.index t (1 : Fin 2) = 0 :=
  (by decide +kernel : ∀ t : Fin grid1.N, _)
theorem idx1_out : ∀ t : Fin cfg1.N, win1_7.index t (0 : Fin 2) = 0 ∧ win1_7.index t (1 : Fin 2) = 0 :=
  (by decide +kernel : ∀ t : Fin grid1.N, _)

/-! ## The windows' blocks at their literal shapes -/
abbrev tb1_0 (c : Dev nD) (t : Fin cfg1.N) : Vec Ideal S64x512 .f32 := iblk1 V c 0 t
abbrev tb1_1 (c : Dev nD) (t : Fin cfg1.N) : Vec Ideal S1024x512 .f32 := iblk1 V c 1 t
abbrev tb1_2 (c : Dev nD) (t : Fin cfg1.N) : Vec Ideal S1024x512 .f32 := iblk1 V c 2 t
abbrev tb1_3 (c : Dev nD) (t : Fin cfg1.N) : Vec Ideal S64x512 .f32 := iblk1 V c 3 t
abbrev tb1_4 (c : Dev nD) (t : Fin cfg1.N) : Vec Ideal S1024x512 .f32 := iblk1 V c 4 t
abbrev tb1_5 (c : Dev nD) (t : Fin cfg1.N) : Vec Ideal S1024x512 .f32 := iblk1 V c 5 t
abbrev tb1_6 (c : Dev nD) (t : Fin cfg1.N) : Vec Ideal S1x1024 .f32 := iblk1 V c 6 t

/-! ## The blocks -/

theorem blk1_0 (c : Dev nD) (t : Fin cfg1.N) (s : Fin 2) (ht : t.val = s.val + 0) (r : Fin 64) (q : Fin 512) :
    iblk1 V c 0 t (ix2 r q) = V c main_v6 (ix2 r (⟨512 * s.val + q.val, by have := s.isLt; have := q.isLt; omega⟩ : Fin 1024)) := by
  unfold iblk1
  show V c main_v6 (((cfg1.win 0).blk t).view.emb (ix2 r q)) = _
  refine congrArg (V c main_v6) ?_
  have hs := s.isLt
  obtain ⟨e0, e1, e2, e3, e4, e5⟩ := idx1_t0 t (by omega) (by omega)
  funext a; apply Fin.ext
  match a with
  | ⟨0, _⟩ => show win1_0.index t (0 : Fin 2) * 64 + 1 * r.val = r.val; omega
  | ⟨1, _⟩ => show win1_0.index t (1 : Fin 2) * 512 + 1 * q.val = 512 * s.val + q.val; omega

theorem blk1_1 (c : Dev nD) (t : Fin cfg1.N) (s : Fin 2) (ht : t.val = s.val + 0) (r : Fin 1024) (q : Fin 512) :
    iblk1 V c 1 t (ix2 r q) = V c main_v11 (ix2 r (⟨512 * s.val + q.val, by have := s.isLt; have := q.isLt; omega⟩ : Fin 1024)) := by
  unfold iblk1
  show V c main_v11 (((cfg1.win 1).blk t).view.emb (ix2 r q)) = _
  refine congrArg (V c main_v11) ?_
  have hs := s.isLt
  obtain ⟨e0, e1, e2, e3, e4, e5⟩ := idx1_t0 t (by omega) (by omega)
  funext a; apply Fin.ext
  match a with
  | ⟨0, _⟩ => show win1_1.index t (0 : Fin 2) * 1024 + 1 * r.val = r.val; omega
  | ⟨1, _⟩ => show win1_1.index t (1 : Fin 2) * 512 + 1 * q.val = 512 * s.val + q.val; omega

theorem blk1_2 (c : Dev nD) (t : Fin cfg1.N) (s : Fin 2) (ht : t.val = s.val + 0) (r : Fin 1024) (q : Fin 512) :
    iblk1 V c 2 t (ix2 r q) = V c main_v13 (ix2 r (⟨512 * s.val + q.val, by have := s.isLt; have := q.isLt; omega⟩ : Fin 1024)) := by
  unfold iblk1
  show V c main_v13 (((cfg1.win 2).blk t).view.emb (ix2 r q)) = _
  refine congrArg (V c main_v13) ?_
  have hs := s.isLt
  obtain ⟨e0, e1, e2, e3, e4, e5⟩ := idx1_t0 t (by omega) (by omega)
  funext a; apply Fin.ext
  match a with
  | ⟨0, _⟩ => show win1_2.index t (0 : Fin 2) * 1024 + 1 * r.val = r.val; omega
  | ⟨1, _⟩ => show win1_2.index t (1 : Fin 2) * 512 + 1 * q.val = 512 * s.val + q.val; omega

theorem blk1_3 (c : Dev nD) (t : Fin cfg1.N) (s : Fin 16) (ht : t.val = s.val + 2) (r : Fin 64) (q : Fin 512) :
    iblk1 V c 3 t (ix2 r q) = V c main_arg1 (ix2 r (⟨512 * s.val + q.val, by have := s.isLt; have := q.isLt; omega⟩ : Fin 8192)) := by
  unfold iblk1
  show V c main_arg1 (((cfg1.win 3).blk t).view.emb (ix2 r q)) = _
  refine congrArg (V c main_arg1) ?_
  have hs := s.isLt
  obtain ⟨e0, e1, e2, e3, e4, e5⟩ := idx1_t1 t (by omega) (by omega)
  funext a; apply Fin.ext
  match a with
  | ⟨0, _⟩ => show win1_3.index t (0 : Fin 2) * 64 + 1 * r.val = r.val; omega
  | ⟨1, _⟩ => show win1_3.index t (1 : Fin 2) * 512 + 1 * q.val = 512 * s.val + q.val; omega

theorem blk1_4 (c : Dev nD) (t : Fin cfg1.N) (s : Fin 16) (ht : t.val = s.val + 2) (r : Fin 1024) (q : Fin 512) :
    iblk1 V c 4 t (ix2 r q) = V c main_v15 (ix2 r (⟨512 * s.val + q.val, by have := s.isLt; have := q.isLt; omega⟩ : Fin 8192)) := by
  unfold iblk1
  show V c main_v15 (((cfg1.win 4).blk t).view.emb (ix2 r q)) = _
  refine congrArg (V c main_v15) ?_
  have hs := s.isLt
  obtain ⟨e0, e1, e2, e3, e4, e5⟩ := idx1_t1 t (by omega) (by omega)
  funext a; apply Fin.ext
  match a with
  | ⟨0, _⟩ => show win1_4.index t (0 : Fin 2) * 1024 + 1 * r.val = r.val; omega
  | ⟨1, _⟩ => show win1_4.index t (1 : Fin 2) * 512 + 1 * q.val = 512 * s.val + q.val; omega

theorem blk1_5 (c : Dev nD) (t : Fin cfg1.N) (s : Fin 16) (ht : t.val = s.val + 2) (r : Fin 1024) (q : Fin 512) :
    iblk1 V c 5 t (ix2 r q) = V c main_v17 (ix2 r (⟨512 * s.val + q.val, by have := s.isLt; have := q.isLt; omega⟩ : Fin 8192)) := by
  unfold iblk1
  show V c main_v17 (((cfg1.win 5).blk t).view.emb (ix2 r q)) = _
  refine congrArg (V c main_v17) ?_
  have hs := s.isLt
  obtain ⟨e0, e1, e2, e3, e4, e5⟩ := idx1_t1 t (by omega) (by omega)
  funext a; apply Fin.ext
  match a with
  | ⟨0, _⟩ => show win1_5.index t (0 : Fin 2) * 1024 + 1 * r.val = r.val; omega
  | ⟨1, _⟩ => show win1_5.index t (1 : Fin 2) * 512 + 1 * q.val = 512 * s.val + q.val; omega

theorem blk1_6 (c : Dev nD) (t : Fin cfg1.N) (o : Fin 1024) :
    iblk1 V c 6 t (ix2 (0 : Fin 1) o) = V c main_v20 (ix2 (0 : Fin 1) o) := by
  unfold iblk1
  show V c main_v20 (((cfg1.win 6).blk t).view.emb (ix2 (0 : Fin 1) o)) = _
  refine congrArg (V c main_v20) ?_
  obtain ⟨e0, e1⟩ := idx1_b t
  funext a; apply Fin.ext
  match a with
  | ⟨0, _⟩ => show win1_6.index t (0 : Fin 2) * 1 + 1 * (0 : Fin 1).val = (0 : Fin 1).val; omega
  | ⟨1, _⟩ => show win1_6.index t (1 : Fin 2) * 1024 + 1 * o.val = o.val; omega

/-! ## The payloads at an index -/

theorem pay1_1_apply (j : S64x1024.Idx) : k1_pay1 (F := Ideal) j = 0 := by
  unfold k1_pay1
  simp only [shapeCast_self]
  show Ideal.ofBits .f32 0x00000000#32 = 0
  exact Ideal.ofBits_zero_f32

theorem pay1_2_apply (x : Vec Ideal S64x512 .f32) (w m : Vec Ideal S1024x512 .f32) (prev : Vec Ideal S64x1024 .f32) (b : Fin 64) (o : Fin 1024) :
    k1_pay2 x w m prev (ix2 b o) = prev (ix2 b o) + ∑ q : Fin 512, x (ix2 b q) * (w (ix2 o q) * m (ix2 o q)) := by
  unfold k1_pay2
  simp only [shapeCast_self]
  exact HandV.tile_apply x w m prev b o

theorem pay1_3_apply (x : Vec Ideal S64x512 .f32) (w m : Vec Ideal S1024x512 .f32) (prev : Vec Ideal S64x1024 .f32) (b : Fin 64) (o : Fin 1024) :
    k1_pay3 x w m prev (ix2 b o) = prev (ix2 b o) + ∑ q : Fin 512, x (ix2 b q) * (w (ix2 o q) * m (ix2 o q)) := by
  unfold k1_pay3
  simp only [shapeCast_self]
  exact HandV.tile_apply x w m prev b o

theorem pay1_4_apply (a : Vec Ideal S64x1024 .f32) (bias : Vec Ideal S1x1024 .f32) (b : Fin 64) (o : Fin 1024) :
    k1_pay4 a bias (ix2 b o) = Ideal.logistic (a (ix2 b o) + bias (ix2 (0 : Fin 1) o)) := by
  unfold k1_pay4
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a1_0 (c : Dev nD) : S64x1024.Idx → EReal := V c main_v6
abbrev a1_1 (c : Dev nD) : S1024x1024.Idx → EReal := V c main_v11
abbrev a1_2 (c : Dev nD) : S1024x1024.Idx → EReal := V c main_v13
abbrev a1_3 (c : Dev nD) : S64x8192.Idx → EReal := V c main_arg1
abbrev a1_4 (c : Dev nD) : S1024x8192.Idx → EReal := V c main_v15
abbrev a1_5 (c : Dev nD) : S1024x8192.Idx → EReal := V c main_v17
abbrev a1_6 (c : Dev nD) : S1x1024.Idx → EReal := V c main_v20

/-- Term 0's tile `s`: columns 512·s … of its left array against the same columns of weight · mask. -/
def tile1_0 (c : Dev nD) (s : Fin 2) (b : Fin 64) (o : Fin 1024) : EReal :=
  ∑ q : Fin 512, a1_0 V c (ix2 b (⟨512 * s.val + q.val, by have := s.isLt; have := q.isLt; omega⟩ : Fin 1024)) * (a1_1 V c (ix2 o (⟨512 * s.val + q.val, by have := s.isLt; have := q.isLt; omega⟩ : Fin 1024)) * a1_2 V c (ix2 o (⟨512 * s.val + q.val, by have := s.isLt; have := q.isLt; omega⟩ : Fin 1024)))
/-- The same over the naturals, zero past the term's last tile. -/
def tileN1_0 (c : Dev nD) (s : ℕ) (b : Fin 64) (o : Fin 1024) : EReal :=
  if h : s < 2 then tile1_0 V c ⟨s, h⟩ b o else 0
theorem tileN1_0_zero (c : Dev nD) (b : Fin 64) (o : Fin 1024) : ∀ s, 2 ≤ s → tileN1_0 V c s b o = 0 :=
  fun s h => dif_neg (by omega)
/-- Term 0 whole. -/
def whole1_0 (c : Dev nD) (b : Fin 64) (o : Fin 1024) : EReal :=
  ∑ n : Fin 1024, a1_0 V c (ix2 b n) * (a1_1 V c (ix2 o n) * a1_2 V c (ix2 o n))
theorem sum1_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles1_0 (c : Dev nD) (b : Fin 64) (o : Fin 1024) (x : ℕ) (hx : 2 ≤ x) :
    ∑ s ∈ Finset.range x, tileN1_0 V c s b o = whole1_0 V c b o := by
  rw [Cert.LibPaddedSums.pad (fun s => tileN1_0 V c s b o) 2 (tileN1_0_zero V c b o) x hx,
    Cert.LibPaddedSums.range_eq_fin 2 (fun s => tile1_0 V c s b o) (fun s => tileN1_0 V c s b o) (fun s => dif_pos s.isLt)]
  unfold whole1_0
  rw [sum1_0]
  rfl

/-- Term 1's tile `s`: columns 512·s … of its left array against the same columns of weight · mask. -/
def tile1_1 (c : Dev nD) (s : Fin 16) (b : Fin 64) (o : Fin 1024) : EReal :=
  ∑ q : Fin 512, a1_3 V c (ix2 b (⟨512 * s.val + q.val, by have := s.isLt; have := q.isLt; omega⟩ : Fin 8192)) * (a1_4 V c (ix2 o (⟨512 * s.val + q.val, by have := s.isLt; have := q.isLt; omega⟩ : Fin 8192)) * a1_5 V c (ix2 o (⟨512 * s.val + q.val, by have := s.isLt; have := q.isLt; omega⟩ : Fin 8192)))
/-- The same over the naturals, zero past the term's last tile. -/
def tileN1_1 (c : Dev nD) (s : ℕ) (b : Fin 64) (o : Fin 1024) : EReal :=
  if h : s < 16 then tile1_1 V c ⟨s, h⟩ b o else 0
theorem tileN1_1_zero (c : Dev nD) (b : Fin 64) (o : Fin 1024) : ∀ s, 16 ≤ s → tileN1_1 V c s b o = 0 :=
  fun s h => dif_neg (by omega)
/-- Term 1 whole. -/
def whole1_1 (c : Dev nD) (b : Fin 64) (o : Fin 1024) : EReal :=
  ∑ n : Fin 8192, a1_3 V c (ix2 b n) * (a1_4 V c (ix2 o n) * a1_5 V c (ix2 o n))
theorem sum1_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles1_1 (c : Dev nD) (b : Fin 64) (o : Fin 1024) (x : ℕ) (hx : 16 ≤ x) :
    ∑ s ∈ Finset.range x, tileN1_1 V c s b o = whole1_1 V c b o := by
  rw [Cert.LibPaddedSums.pad (fun s => tileN1_1 V c s b o) 16 (tileN1_1_zero V c b o) x hx,
    Cert.LibPaddedSums.range_eq_fin 16 (fun s => tile1_1 V c s b o) (fun s => tileN1_1 V c s b o) (fun s => dif_pos s.isLt)]
  unfold whole1_1
  rw [sum1_1]
  rfl

/-! ## The accumulator after each point -/

set_option maxHeartbeats 4000000 in
theorem acc1_apply (c : Dev nD) (b : Fin 64) (o : Fin 1024) : ∀ (n : ℕ) (hn : n < cfg1.N),
    (outsAt1 V c n hn).2 (ix2 b o) = ∑ s ∈ Finset.range (n + 1 - 0), tileN1_0 V c s b o + ∑ s ∈ Finset.range (n + 1 - 2), tileN1_1 V c s b o
  | 0, hn => by
    rw [show (outsAt1 V c 0 hn).2 = _ from step1_A V c ⟨0, hn⟩ rfl]
    rw [pay1_2_apply, pay1_1_apply, zero_add]
    rw [show (0 + 1 - 0) = 1 from rfl, Finset.sum_range_one, show (0 + 1 - 2) = 0 from rfl, Finset.range_zero, Finset.sum_empty, add_zero]
    unfold tileN1_0
    rw [dif_pos (show 0 < 2 by decide)]
    unfold tile1_0
    refine Finset.sum_congr rfl fun q _ => ?_
    rw [blk1_0 V c ⟨0, hn⟩ ⟨0, by decide⟩ rfl, blk1_1 V c ⟨0, hn⟩ ⟨0, by decide⟩ rfl, blk1_2 V c ⟨0, hn⟩ ⟨0, by decide⟩ rfl]
  | n + 1, hn => by
    have hN : n + 1 < 18 := lt_of_lt_of_eq hn (show cfg1.N = 18 from N_1)
    have ih := acc1_apply c b o n (Nat.lt_of_succ_lt hn)
    by_cases h0 : n + 1 = 17
    · have hstep : (outsAt1 V c (n + 1) hn).2 = k1_pay3 (iblk1 V c 3 ⟨n + 1, hn⟩) (iblk1 V c 4 ⟨n + 1, hn⟩) (iblk1 V c 5 ⟨n + 1, hn⟩) (outsAt1 V c n (Nat.lt_of_succ_lt hn)).2 :=
        step1_Z V c ⟨n + 1, hn⟩ (Nat.succ_ne_zero n) h0
      have htile : ∑ q : Fin 512, tb1_3 V c ⟨n + 1, hn⟩ (ix2 b q) * (tb1_4 V c ⟨n + 1, hn⟩ (ix2 o q) * tb1_5 V c ⟨n + 1, hn⟩ (ix2 o q)) = tileN1_1 V c (n + 1 - 2) b o := by
        dsimp only [tb1_3, tb1_4, tb1_5]
        unfold tileN1_1
        rw [dif_pos (show n + 1 - 2 < 16 by omega)]
        unfold tile1_1
        refine Finset.sum_congr rfl fun q _ => ?_
        rw [blk1_3 V c ⟨n + 1, hn⟩ ⟨n + 1 - 2, by omega⟩ (by show n + 1 = n + 1 - 2 + 2; omega), blk1_4 V c ⟨n + 1, hn⟩ ⟨n + 1 - 2, by omega⟩ (by show n + 1 = n + 1 - 2 + 2; omega), blk1_5 V c ⟨n + 1, hn⟩ ⟨n + 1 - 2, by omega⟩ (by show n + 1 = n + 1 - 2 + 2; omega)]
      rw [hstep, pay1_3_apply, ih, htile]
      rw [Cert.LibPaddedSums.step_inactive (fun s => tileN1_0 V c s b o) 2 0 n (tileN1_0_zero V c b o) (by omega),
        Cert.LibPaddedSums.step_active (fun s => tileN1_1 V c s b o) 2 n (by omega)]
      ac_rfl
    by_cases h1 : n + 1 = 1
    · have hstep : (outsAt1 V c (n + 1) hn).2 = k1_pay2 (iblk1 V c 0 ⟨n + 1, hn⟩) (iblk1 V c 1 ⟨n + 1, hn⟩) (iblk1 V c 2 ⟨n + 1, hn⟩) (outsAt1 V c n (Nat.lt_of_succ_lt hn)).2 :=
        step1_B V c ⟨n + 1, hn⟩ (Nat.succ_ne_zero n) h0 h1
      have htile : ∑ q : Fin 512, tb1_0 V c ⟨n + 1, hn⟩ (ix2 b q) * (tb1_1 V c ⟨n + 1, hn⟩ (ix2 o q) * tb1_2 V c ⟨n + 1, hn⟩ (ix2 o q)) = tileN1_0 V c (n + 1 - 0) b o := by
        dsimp only [tb1_0, tb1_1, tb1_2]
        unfold tileN1_0
        rw [dif_pos (show n + 1 - 0 < 2 by omega)]
        unfold tile1_0
        refine Finset.sum_congr rfl fun q _ => ?_
        rw [blk1_0 V c ⟨n + 1, hn⟩ ⟨n + 1 - 0, by omega⟩ (by show n + 1 = n + 1 - 0 + 0; omega), blk1_1 V c ⟨n + 1, hn⟩ ⟨n + 1 - 0, by omega⟩ (by show n + 1 = n + 1 - 0 + 0; omega), blk1_2 V c ⟨n + 1, hn⟩ ⟨n + 1 - 0, by omega⟩ (by show n + 1 = n + 1 - 0 + 0; omega)]
      rw [hstep, pay1_2_apply, ih, htile]
      rw [Cert.LibPaddedSums.step_active (fun s => tileN1_0 V c s b o) 0 n (by omega),
        Cert.LibPaddedSums.step_inactive (fun s => tileN1_1 V c s b o) 16 2 n (tileN1_1_zero V c b o) (by omega)]
      ac_rfl
    · have hstep : (outsAt1 V c (n + 1) hn).2 = k1_pay3 (iblk1 V c 3 ⟨n + 1, hn⟩) (iblk1 V c 4 ⟨n + 1, hn⟩) (iblk1 V c 5 ⟨n + 1, hn⟩) (outsAt1 V c n (Nat.lt_of_succ_lt hn)).2 :=
        step1_C V c ⟨n + 1, hn⟩ (Nat.succ_ne_zero n) h0 h1
      have htile : ∑ q : Fin 512, tb1_3 V c ⟨n + 1, hn⟩ (ix2 b q) * (tb1_4 V c ⟨n + 1, hn⟩ (ix2 o q) * tb1_5 V c ⟨n + 1, hn⟩ (ix2 o q)) = tileN1_1 V c (n + 1 - 2) b o := by
        dsimp only [tb1_3, tb1_4, tb1_5]
        unfold tileN1_1
        rw [dif_pos (show n + 1 - 2 < 16 by omega)]
        unfold tile1_1
        refine Finset.sum_congr rfl fun q _ => ?_
        rw [blk1_3 V c ⟨n + 1, hn⟩ ⟨n + 1 - 2, by omega⟩ (by show n + 1 = n + 1 - 2 + 2; omega), blk1_4 V c ⟨n + 1, hn⟩ ⟨n + 1 - 2, by omega⟩ (by show n + 1 = n + 1 - 2 + 2; omega), blk1_5 V c ⟨n + 1, hn⟩ ⟨n + 1 - 2, by omega⟩ (by show n + 1 = n + 1 - 2 + 2; omega)]
      rw [hstep, pay1_3_apply, ih, htile]
      rw [Cert.LibPaddedSums.step_inactive (fun s => tileN1_0 V c s b o) 2 0 n (tileN1_0_zero V c b o) (by omega),
        Cert.LibPaddedSums.step_active (fun s => tileN1_1 V c s b o) 2 n (by omega)]
      ac_rfl

/-! ## The region's result -/

theorem hlast1 : 17 < cfg1.N := by rw [show cfg1.N = 18 from N_1]; decide

set_option maxHeartbeats 2000000 in
theorem out1_apply (c : Dev nD) (b : Fin 64) (o : Fin 1024) :
    (outsAt1 V c 17 hlast1).1 (ix2 b o) = Ideal.logistic ((whole1_0 V c b o + whole1_1 V c b o) + a1_6 V c (ix2 (0 : Fin 1) o)) := by
  rw [show (outsAt1 V c 17 hlast1).1 = _ from last1 V c ⟨17, hlast1⟩ (by show (17 : ℕ) ≠ 0; decide) rfl]
  rw [← show (outsAt1 V c 17 hlast1).2 = _ from step1_Z V c ⟨17, hlast1⟩ (by show (17 : ℕ) ≠ 0; decide) rfl]
  rw [pay1_4_apply, acc1_apply V c b o 17 hlast1, blk1_6]
  rw [tiles1_0 V c b o (17 + 1 - 0) (by decide), tiles1_1 V c b o (17 + 1 - 2) (by decide)]

/-- What region 1 leaves in its output array: the last point's buffer, written back whole. -/
def G1 (c : Dev nD) : S64x1024.Idx → EReal := (outsAt1 V c 17 hlast1).1

theorem emb1_out (t : Fin cfg1.N) (y : S64x1024.Idx) : ((cfg1.win 7).blk t).view.emb y = y := by
  obtain ⟨e0, e1⟩ := idx1_out t
  funext a; apply Fin.ext
  match a with
  | ⟨0, _⟩ => show win1_7.index t (0 : Fin 2) * 64 + 1 * (y 0).val = (y 0).val; omega
  | ⟨1, _⟩ => show win1_7.index t (1 : Fin 2) * 1024 + 1 * (y 1).val = (y 1).val; omega

theorem flushed1_eq (c : Dev nD) (t : Fin cfg1.N) (hf : (cfg1.win 7).flush t = true) :
    (dat1 V c).flushed 7 t = ((cfg1.win 7).blk t).view.read (Elt Ideal) (G1 V c) := by
  have ht : t.val = 17 := by
    have h1 := (flush1_7 t).mp hf
    have h2 : t.val < 18 := lt_of_lt_of_eq t.isLt (show cfg1.N = 18 from N_1)
    omega
  have ht' : t = ⟨17, hlast1⟩ := Fin.ext ht
  subst ht'
  show (cfg1.win 7).cut (grid1.coords ⟨17, hlast1⟩) ((dat1 V c).after 7 ⟨17, hlast1⟩) = _
  rw [after1_7]
  funext y
  show (outsAt1 V c 17 hlast1).1 y = G1 V c (((cfg1.win 7).blk ⟨17, hlast1⟩).view.emb y)
  rw [emb1_out]
  rfl

theorem mem_blk1_out (t : Fin cfg1.N) (i : S64x1024.Idx) :
    i ∈ ((cfg1.win 7).blk t).view.set ↔ ∀ a : Fin 2, win1_7.index t a * S64x1024.size a ≤ (i a).val ∧ (i a).val < win1_7.index t a * S64x1024.size a + S64x1024.size a := by
  show i ∈ ((View.whole main_v21).slice (win1_7.rect t)).set ↔ _
  rw [View.set_slice_whole, Rect.mem_set_unit]
  exact Iff.rfl

theorem final1 (c : Dev nD) : (dat1 V c).arrAt 7 cfg1.N = G1 V c :=
  (dat1 V c).arrAt_eq_of_cover 7 (G1 V c) (fun t hf => flushed1_eq V c t hf) (fun i =>
    ⟨⟨17, hlast1⟩, (flush1_7 ⟨17, hlast1⟩).mpr (by show 17 % 18 = 17; decide), by
      rw [mem_blk1_out]
      obtain ⟨e0, e1⟩ := idx1_out ⟨17, hlast1⟩
      intro a
      match a with
      | ⟨0, _⟩ => show win1_7.index ⟨17, hlast1⟩ (0 : Fin 2) * 64 ≤ (i 0).val ∧ (i 0).val < win1_7.index ⟨17, hlast1⟩ (0 : Fin 2) * 64 + 64; have hi : (i 0).val < 64 := (i 0).isLt; omega
      | ⟨1, _⟩ => show win1_7.index ⟨17, hlast1⟩ (1 : Fin 2) * 1024 ≤ (i 1).val ∧ (i 1).val < win1_7.index ⟨17, hlast1⟩ (1 : Fin 2) * 1024 + 1024; have hi : (i 1).val < 1024 := (i 1).isLt; omega⟩)

/-- Region 1's output array at an index. -/
theorem final1_apply (c : Dev nD) (b : Fin 64) (o : Fin 1024) :
    (dat1 V c).arrAt 7 cfg1.N (ix2 b o) = Ideal.logistic ((whole1_0 V c b o + whole1_1 V c b o) + a1_6 V c (ix2 (0 : Fin 1) o)) :=
  (congrFun (final1 V c) (ix2 b o)).trans (out1_apply V c b o)

end Cert.KernelIdeal.Hand

end
-- ==== Proof.Bridge.L1.lean ====
/- Layer 1, the two sides joined: given the previous layer's equality, the buffer of earlier outputs agrees (the same scatter of equal arrays),
   every array region 1 stages is the reference's, and the two layer formulas differ only in the order of their additions. -/
import proofs.«164445_j37684043055467_1_alg».proof.Proof.KI.V1
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 1. -/
theorem skips1 (hA : Agree m m') (c : Dev Cert.KernelIdeal.nD)
    (hC : (Cert.KernelIdeal.Hand.o2 m c : Cert.KernelIdeal.S64x1024.Idx → EReal) = (Cert.ReferenceIdeal.Value.res_main_v18 (StableHlo.launchContents m' c))) :
    (Cert.KernelIdeal.Hand.E3 m c Cert.KernelIdeal.main_v9 : Cert.KernelIdeal.S64x7168.Idx → EReal) = (Cert.ReferenceIdeal.HandV.r_sk1 (StableHlo.launchContents m' c)) := by
  rw [Cert.KernelIdeal.Hand.B1_main_v9 m c]
  rw [show (Cert.KernelIdeal.Hand.E2 m c Cert.KernelIdeal.main_v6 : Cert.KernelIdeal.S64x1024.Idx → EReal) = (Cert.ReferenceIdeal.Value.res_main_v18 (StableHlo.launchContents m' c)) from (Cert.KernelIdeal.Hand.U2_out m c).trans hC]
  rfl

set_option maxHeartbeats 4000000 in
theorem layer1 (hA : Agree m m') (c : Dev Cert.KernelIdeal.nD)
    (hC : (Cert.KernelIdeal.Hand.o2 m c : Cert.KernelIdeal.S64x1024.Idx → EReal) = (Cert.ReferenceIdeal.Value.res_main_v18 (StableHlo.launchContents m' c))) :
    (Cert.KernelIdeal.Hand.o4 m c : Cert.KernelIdeal.S64x1024.Idx → EReal) = (Cert.ReferenceIdeal.Value.res_main_v47 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res47_apply]
  show (Cert.KernelIdeal.Hand.dat1 (Cert.KernelIdeal.Hand.E3 m) c).arrAt 7 Cert.KernelIdeal.cfg1.N (ix2 b o) = _
  rw [Cert.KernelIdeal.Hand.final1_apply]
  have e0 : Cert.KernelIdeal.Hand.a1_0 (Cert.KernelIdeal.Hand.E3 m) c = (Cert.ReferenceIdeal.Value.res_main_v18 (StableHlo.launchContents m' c)) := by
    show (Cert.KernelIdeal.Hand.E3 m c Cert.KernelIdeal.main_v6 : Cert.KernelIdeal.S64x1024.Idx → EReal) = _
    rw [Cert.KernelIdeal.Hand.keep3 m c Cert.KernelIdeal.main_v6 (by decide)]
    exact (Cert.KernelIdeal.Hand.U2_out m c).trans hC
  have e1 : Cert.KernelIdeal.Hand.a1_1 (Cert.KernelIdeal.Hand.E3 m) c = Cert.ReferenceIdeal.HandV.r_wh0 (StableHlo.launchContents m' c) := by
    show (Cert.KernelIdeal.Hand.E3 m c Cert.KernelIdeal.main_v11 : Cert.KernelIdeal.S1024x1024.Idx → EReal) = _
    rw [Cert.KernelIdeal.Hand.B1_main_v11 m c, Cert.KernelIdeal.Hand.U2_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a1_2 (Cert.KernelIdeal.Hand.E3 m) c = Cert.ReferenceIdeal.HandV.r_mh0 (StableHlo.launchContents m' c) := by
    show (Cert.KernelIdeal.Hand.E3 m c Cert.KernelIdeal.main_v13 : Cert.KernelIdeal.S1024x1024.Idx → EReal) = _
    rw [Cert.KernelIdeal.Hand.B1_main_v13 m c, Cert.KernelIdeal.Hand.U2_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a1_3 (Cert.KernelIdeal.Hand.E3 m) c = Cert.ReferenceIdeal.HandV.r_h (StableHlo.launchContents m' c) := by
    show (Cert.KernelIdeal.Hand.E3 m c Cert.KernelIdeal.main_arg1 : Cert.KernelIdeal.S64x8192.Idx → EReal) = _
    rw [Cert.KernelIdeal.Hand.U3_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a1_4 (Cert.KernelIdeal.Hand.E3 m) c = Cert.ReferenceIdeal.HandV.r_wr1 (StableHlo.launchContents m' c) := by
    show (Cert.KernelIdeal.Hand.E3 m c Cert.KernelIdeal.main_v15 : Cert.KernelIdeal.S1024x8192.Idx → EReal) = _
    rw [Cert.KernelIdeal.Hand.B1_main_v15 m c, Cert.KernelIdeal.Hand.U2_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a1_5 (Cert.KernelIdeal.Hand.E3 m) c = Cert.ReferenceIdeal.HandV.r_mr1 (StableHlo.launchContents m' c) := by
    show (Cert.KernelIdeal.Hand.E3 m c Cert.KernelIdeal.main_v17 : Cert.KernelIdeal.S1024x8192.Idx → EReal) = _
    rw [Cert.KernelIdeal.Hand.B1_main_v17 m c, Cert.KernelIdeal.Hand.U2_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have eb : Cert.KernelIdeal.Hand.a1_6 (Cert.KernelIdeal.Hand.E3 m) c (ix2 (0 : Fin 1) o) = Cert.ReferenceIdeal.HandV.r_bh0 (StableHlo.launchContents m' c) (ix1 o) := by
    show (Cert.KernelIdeal.Hand.E3 m c Cert.KernelIdeal.main_v20 : Cert.KernelIdeal.S1x1024.Idx → EReal) (ix2 (0 : Fin 1) o) = _
    rw [congrFun (Cert.KernelIdeal.Hand.B1_main_v20 m c) (ix2 (0 : Fin 1) o), Cert.LibHostApply.shapeCast_row_apply, Cert.KernelIdeal.Hand.U2_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole1_0 Cert.KernelIdeal.Hand.whole1_1
  rw [e0, e1, e2, e3, e4, e5, eb]
  refine congrArg Ideal.logistic ?_
  exact add_right_comm _ _ _

end Cert.Proof.Bridge

end
-- ==== Proof.KI.R2Acc.lean ====
/- Region 2: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R2Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_2 : (![0, 0] : Fin 2 → Nat) = fun _ => 0 := funext fun a => by fin_cases a <;> rfl
local notation "hz2" => hz2_2

theorem sout2_A_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond2_1 i) (hc2 : cond2_2 i) (hc3 : ¬cond2_3 i) (hc4 : ¬cond2_4 i) (hc5 : ¬cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    sout2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 = k2_pay2 x1 x2 x3 (k2_pay1 (F := F)) := by
  unfold sout2_A
  rw [View.read_writes_eq_canon _ _ _ (scover2_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10)]
  unfold kernelRun2_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout2_Z_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k2_pay4 x7 x8 x9 xs := by
  unfold sout2_Z
  rw [View.read_writes_eq_canon _ _ _ (scover2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun2_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out2_Z_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    out2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k2_pay5 (k2_pay4 x7 x8 x9 xs) x10 := by
  unfold out2_Z
  rw [View.read_writes_eq_canon _ _ _ (cover2_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun2_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout2_B_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : cond2_2 i) (hc3 : ¬cond2_3 i) (hc4 : ¬cond2_4 i) (hc5 : ¬cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k2_pay2 x1 x2 x3 xs := by
  unfold sout2_B
  rw [View.read_writes_eq_canon _ _ _ (scover2_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun2_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout2_C_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : cond2_3 i) (hc4 : ¬cond2_4 i) (hc5 : ¬cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k2_pay3 x4 x5 x6 xs := by
  unfold sout2_C
  rw [View.read_writes_eq_canon _ _ _ (scover2_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun2_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout2_D_eq (c : Dev nD) (i : grid2.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond2_1 i) (hc2 : ¬cond2_2 i) (hc3 : ¬cond2_3 i) (hc4 : cond2_4 i) (hc5 : ¬cond2_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k2_pay4 x7 x8 x9 xs := by
  unfold sout2_D
  rw [View.read_writes_eq_canon _ _ _ (scover2_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun2_D
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step2_A (c : Dev nD) (t : Fin cfg2.N) (hz : t.val = 0) :
    (outsAt2 V c t.val t.isLt).2 = k2_pay2 (iblk2 V c 0 t) (iblk2 V c 1 t) (iblk2 V c 2 t) (k2_pay1 (F := F)) := by
  rw [outsAt2_A V c t hz]
  dsimp only
  exact sout2_A_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_A t hz).1) ((case2_A t hz).2.1) ((case2_A t hz).2.2.1) ((case2_A t hz).2.2.2.1) ((case2_A t hz).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)

set_option maxHeartbeats 2000000 in
theorem step2_Z (c : Dev nD) (t : Fin cfg2.N) (hz : t.val ≠ 0) (h0 : t.val = 31) :
    (outsAt2 V c t.val t.isLt).2 = k2_pay4 (iblk2 V c 6 t) (iblk2 V c 7 t) (iblk2 V c 8 t) (outsAt2 V c (t.val - 1) (Nat.lt_of_le_of_lt (Nat.sub_le _ _) t.isLt)).2 := by
  rw [outsAt2_Z V c t hz h0]
  dsimp only
  exact sout2_Z_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2

set_option maxHeartbeats 2000000 in
theorem last2 (c : Dev nD) (t : Fin cfg2.N) (hz : t.val ≠ 0) (h0 : t.val = 31) :
    (outsAt2 V c t.val t.isLt).1 = k2_pay5 (k2_pay4 (iblk2 V c 6 t) (iblk2 V c 7 t) (iblk2 V c 8 t) (outsAt2 V c (t.val - 1) (Nat.lt_of_le_of_lt (Nat.sub_le _ _) t.isLt)).2) (iblk2 V c 9 t) := by
  rw [outsAt2_Z V c t hz h0]
  dsimp only
  exact out2_Z_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_Z t hz h0).1) ((case2_Z t hz h0).2.1) ((case2_Z t hz h0).2.2.1) ((case2_Z t hz h0).2.2.2.1) ((case2_Z t hz h0).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2

set_option maxHeartbeats 2000000 in
theorem step2_B (c : Dev nD) (t : Fin cfg2.N) (hz : t.val ≠ 0) (h0 : ¬t.val = 31) (h1 : t.val = 1) :
    (outsAt2 V c t.val t.isLt).2 = k2_pay2 (iblk2 V c 0 t) (iblk2 V c 1 t) (iblk2 V c 2 t) (outsAt2 V c (t.val - 1) (Nat.lt_of_le_of_lt (Nat.sub_le _ _) t.isLt)).2 := by
  rw [outsAt2_B V c t hz h0 h1]
  dsimp only
  exact sout2_B_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_B t hz h0 h1).1) ((case2_B t hz h0 h1).2.1) ((case2_B t hz h0 h1).2.2.1) ((case2_B t hz h0 h1).2.2.2.1) ((case2_B t hz h0 h1).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2

set_option maxHeartbeats 2000000 in
theorem step2_C (c : Dev nD) (t : Fin cfg2.N) (hz : t.val ≠ 0) (h0 : ¬t.val = 31) (h1 : ¬t.val = 1) (h2 : (2 ≤ t.val ∧ t.val ≤ 17)) :
    (outsAt2 V c t.val t.isLt).2 = k2_pay3 (iblk2 V c 3 t) (iblk2 V c 4 t) (iblk2 V c 5 t) (outsAt2 V c (t.val - 1) (Nat.lt_of_le_of_lt (Nat.sub_le _ _) t.isLt)).2 := by
  rw [outsAt2_C V c t hz h0 h1 h2]
  dsimp only
  exact sout2_C_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_C t hz h0 h1 h2).1) ((case2_C t hz h0 h1 h2).2.1) ((case2_C t hz h0 h1 h2).2.2.1) ((case2_C t hz h0 h1 h2).2.2.2.1) ((case2_C t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2

set_option maxHeartbeats 2000000 in
theorem step2_D (c : Dev nD) (t : Fin cfg2.N) (hz : t.val ≠ 0) (h0 : ¬t.val = 31) (h1 : ¬t.val = 1) (h2 : ¬(2 ≤ t.val ∧ t.val ≤ 17)) :
    (outsAt2 V c t.val t.isLt).2 = k2_pay4 (iblk2 V c 6 t) (iblk2 V c 7 t) (iblk2 V c 8 t) (outsAt2 V c (t.val - 1) (Nat.lt_of_le_of_lt (Nat.sub_le _ _) t.isLt)).2 := by
  rw [outsAt2_D V c t hz h0 h1 h2]
  dsimp only
  exact sout2_D_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2 (Memref.isWhole_whole _) ((case2_D t hz h0 h1 h2).1) ((case2_D t hz h0 h1 h2).2.1) ((case2_D t hz h0 h1 h2).2.2.1) ((case2_D t hz h0 h1 h2).2.2.2.1) ((case2_D t hz h0 h1 h2).2.2.2.2) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (outsAt2 V c (t.val - 1) (Nat.lt_of_le_of_lt (Nat.sub_le _ _) t.isLt)).2

end Cert.KernelIdeal.Hand

end
-- ==== Proof.KI.V2.lean ====
/- Region 2 at the ideal instance: each window's block read at an index of the array it stages; the accumulator after every point as the
   sum, over the region's 3 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R2Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx2_t0 : ∀ t : Fin cfg2.N, 0 ≤ t.val → t.val < 2 → win2_0.index t (0 : Fin 2) = 0 ∧ win2_0.index t (1 : Fin 2) = t.val - 0 ∧ win2_1.index t (0 : Fin 2) = 0 ∧ win2_1.index t (1 : Fin 2) = t.val - 0 ∧ win2_2.index t (0 : Fin 2) = 0 ∧ win2_2.index t (1 : Fin 2) = t.val - 0 :=
  (by decide +kernel : ∀ t : Fin grid2.N, 0 ≤ t.val → t.val < 2 → _)
theorem idx2_t1 : ∀ t : Fin cfg2.N, 2 ≤ t.val → t.val < 18 → win2_3.index t (0 : Fin 2) = 0 ∧ win2_3.index t (1 : Fin 2) = t.val - 2 ∧ win2_4.index t (0 : Fin 2) = 0 ∧ win2_4.index t (1 : Fin 2) = t.val - 2 ∧ win2_5.index t (0 : Fin 2) = 0 ∧ win2_5.index t (1 : Fin 2) = t.val - 2 :=
  (by decide +kernel : ∀ t : Fin grid2.N, 2 ≤ t.val → t.val < 18 → _)
theorem idx2_t2 : ∀ t : Fin cfg2.N, 18 ≤ t.val → t.val < 32 → win2_6.index t (0 : Fin 2) = 0 ∧ win2_6.index t (1 : Fin 2) = t.val - 18 ∧ win2_7.index t (0 : Fin 2) = 0 ∧ win2_7.index t (1 : Fin 2) = t.val - 18 ∧ win2_8.index t (0 : Fin 2) = 0 ∧ win2_8.index t (1 : Fin 2) = t.val - 18 :=
  (by decide +kernel : ∀ t : Fin grid2.N, 18 ≤ t.val → t.val < 32 → _)
theorem idx2_b : ∀ t : Fin cfg2.N, win2_9.index t (0 : Fin 2) = 0 ∧ win2_9.index t (1 : Fin 2) = 0 :=
  (by decide +kernel : ∀ t : Fin grid2.N, _)
theorem idx2_out : ∀ t : Fin cfg2.N, win2_10.index t (0 : Fin 2) = 0 ∧ win2_10.index t (1 : Fin 2) = 0 :=
  (by decide +kernel : ∀ t : Fin grid2.N, _)

/-! ## The windows' blocks at their literal shapes -/
abbrev tb2_0 (c : Dev nD) (t : Fin cfg2.N) : Vec Ideal S64x512 .f32 := iblk2 V c 0 t
abbrev tb2_1 (c : Dev nD) (t : Fin cfg2.N) : Vec Ideal S1024x512 .f32 := iblk2 V c 1 t
abbrev tb2_2 (c : Dev nD) (t : Fin cfg2.N) : Vec Ideal S1024x512 .f32 := iblk2 V c 2 t
abbrev tb2_3 (c : Dev nD) (t : Fin cfg2.N) : Vec Ideal S64x512 .f32 := iblk2 V c 3 t
abbrev tb2_4 (c : Dev nD) (t : Fin cfg2.N) : Vec Ideal S1024x512 .f32 := iblk2 V c 4 t
abbrev tb2_5 (c : Dev nD) (t : Fin cfg2.N) : Vec Ideal S1024x512 .f32 := iblk2 V c 5 t
abbrev tb2_6 (c : Dev nD) (t : Fin cfg2.N) : Vec Ideal S64x512 .f32 := iblk2 V c 6 t
abbrev tb2_7 (c : Dev nD) (t : Fin cfg2.N) : Vec Ideal S1024x512 .f32 := iblk2 V c 7 t
abbrev tb2_8 (c : Dev nD) (t : Fin cfg2.N) : Vec Ideal S1024x512 .f32 := iblk2 V c 8 t
abbrev tb2_9 (c : Dev nD) (t : Fin cfg2.N) : Vec Ideal S1x1024 .f32 := iblk2 V c 9 t

/-! ## The blocks -/

theorem blk2_0 (c : Dev nD) (t : Fin cfg2.N) (s : Fin 2) (ht : t.val = s.val + 0) (r : Fin 64) (q : Fin 512) :
    iblk2 V c 0 t (ix2 r q) = V c main_v21 (ix2 r (⟨512 * s.val + q.val, by have := s.isLt; have := q.isLt; omega⟩ : Fin 1024)) := by
  unfold iblk2
  show V c main_v21 (((cfg2.win 0).blk t).view.emb (ix2 r q)) = _
  refine congrArg (V c main_v21) ?_
  have hs := s.isLt
  obtain ⟨e0, e1, e2, e3, e4, e5⟩ := idx2_t0 t (by omega) (by omega)
  funext a; apply Fin.ext
  match a with
  | ⟨0, _⟩ => show win2_0.index t (0 : Fin 2) * 64 + 1 * r.val = r.val; omega
  | ⟨1, _⟩ => show win2_0.index t (1 : Fin 2) * 512 + 1 * q.val = 512 * s.val + q.val; omega

theorem blk2_1 (c : Dev nD) (t : Fin cfg2.N) (s : Fin 2) (ht : t.val = s.val + 0) (r : Fin 1024) (q : Fin 512) :
    iblk2 V c 1 t (ix2 r q) = V c main_v25 (ix2 r (⟨512 * s.val + q.val, by have := s.isLt; have := q.isLt; omega⟩ : Fin 1024)) := by
  unfold iblk2
  show V c main_v25 (((cfg2.win 1).blk t).view.emb (ix2 r q)) = _
  refine congrArg (V c main_v25) ?_
  have hs := s.isLt
  obtain ⟨e0, e1, e2, e3, e4, e5⟩ := idx2_t0 t (by omega) (by omega)
  funext a; apply Fin.ext
  match a with
  | ⟨0, _⟩ => show win2_1.index t (0 : Fin 2) * 1024 + 1 * r.val = r.val; omega
  | ⟨1, _⟩ => show win2_1.index t (1 : Fin 2) * 512 + 1 * q.val = 512 * s.val + q.val; omega

theorem blk2_2 (c : Dev nD) (t : Fin cfg2.N) (s : Fin 2) (ht : t.val = s.val + 0) (r : Fin 1024) (q : Fin 512) :
    iblk2 V c 2 t (ix2 r q) = V c main_v27 (ix2 r (⟨512 * s.val + q.val, by have := s.isLt; have := q.isLt; omega⟩ : Fin 1024)) := by
  unfold iblk2
  show V c main_v27 (((cfg2.win 2).blk t).view.emb (ix2 r q)) = _
  refine congrArg (V c main_v27) ?_
  have hs := s.isLt
  obtain ⟨e0, e1, e2, e3, e4, e5⟩ := idx2_t0 t (by omega) (by omega)
  funext a; apply Fin.ext
  match a with
  | ⟨0, _⟩ => show win2_2.index t (0 : Fin 2) * 1024 + 1 * r.val = r.val; omega
  | ⟨1, _⟩ => show win2_2.index t (1 : Fin 2) * 512 + 1 * q.val = 512 * s.val + q.val; omega

theorem blk2_3 (c : Dev nD) (t : Fin cfg2.N) (s : Fin 16) (ht : t.val = s.val + 2) (r : Fin 64) (q : Fin 512) :
    iblk2 V c 3 t (ix2 r q) = V c main_arg1 (ix2 r (⟨512 * s.val + q.val, by have := s.isLt; have := q.isLt; omega⟩ : Fin 8192)) := by
  unfold iblk2
  show V c main_arg1 (((cfg2.win 3).blk t).view.emb (ix2 r q)) = _
  refine congrArg (V c main_arg1) ?_
  have hs := s.isLt
  obtain ⟨e0, e1, e2, e3, e4, e5⟩ := idx2_t1 t (by omega) (by omega)
  funext a; apply Fin.ext
  match a with
  | ⟨0, _⟩ => show win2_3.index t (0 : Fin 2) * 64 + 1 * r.val = r.val; omega
  | ⟨1, _⟩ => show win2_3.index t (1 : Fin 2) * 512 + 1 * q.val = 512 * s.val + q.val; omega

theorem blk2_4 (c : Dev nD) (t : Fin cfg2.N) (s : Fin 16) (ht : t.val = s.val + 2) (r : Fin 1024) (q : Fin 512) :
    iblk2 V c 4 t (ix2 r q) = V c main_v29 (ix2 r (⟨512 * s.val + q.val, by have := s.isLt; have := q.isLt; omega⟩ : Fin 8192)) := by
  unfold iblk2
  show V c main_v29 (((cfg2.win 4).blk t).view.emb (ix2 r q)) = _
  refine congrArg (V c main_v29) ?_
  have hs := s.isLt
  obtain ⟨e0, e1, e2, e3, e4, e5⟩ := idx2_t1 t (by omega) (by omega)
  funext a; apply Fin.ext
  match a with
  | ⟨0, _⟩ => show win2_4.index t (0 : Fin 2) * 1024 + 1 * r.val = r.val; omega
  | ⟨1, _⟩ => show win2_4.index t (1 : Fin 2) * 512 + 1 * q.val = 512 * s.val + q.val; omega

theorem blk2_5 (c : Dev nD) (t : Fin cfg2.N) (s : Fin 16) (ht : t.val = s.val + 2) (r : Fin 1024) (q : Fin 512) :
    iblk2 V c 5 t (ix2 r q) = V c main_v31 (ix2 r (⟨512 * s.val + q.val, by have := s.isLt; have := q.isLt; omega⟩ : Fin 8192)) := by
  unfold iblk2
  show V c main_v31 (((cfg2.win 5).blk t).view.emb (ix2 r q)) = _
  refine congrArg (V c main_v31) ?_
  have hs := s.isLt
  obtain ⟨e0, e1, e2, e3, e4, e5⟩ := idx2_t1 t (by omega) (by omega)
  funext a; apply Fin.ext
  match a with
  | ⟨0, _⟩ => show win2_5.index t (0 : Fin 2) * 1024 + 1 * r.val = r.val; omega
  | ⟨1, _⟩ => show win2_5.index t (1 : Fin 2) * 512 + 1 * q.val = 512 * s.val + q.val; omega

theorem blk2_6 (c : Dev nD) (t : Fin cfg2.N) (s : Fin 14) (ht : t.val = s.val + 18) (r : Fin 64) (q : Fin 512) :
    iblk2 V c 6 t (ix2 r q) = V c main_v23 (ix2 r (⟨512 * s.val + q.val, by have := s.isLt; have := q.isLt; omega⟩ : Fin 7168)) := by
  unfold iblk2
  show V c main_v23 (((cfg2.win 6).blk t).view.emb (ix2 r q)) = _
  refine congrArg (V c main_v23) ?_
  have hs := s.isLt
  obtain ⟨e0, e1, e2, e3, e4, e5⟩ := idx2_t2 t (by omega) (by omega)
  funext a; apply Fin.ext
  match a with
  | ⟨0, _⟩ => show win2_6.index t (0 : Fin 2) * 64 + 1 * r.val = r.val; omega
  | ⟨1, _⟩ => show win2_6.index t (1 : Fin 2) * 512 + 1 * q.val = 512 * s.val + q.val; omega

theorem blk2_7 (c : Dev nD) (t : Fin cfg2.N) (s : Fin 14) (ht : t.val = s.val + 18) (r : Fin 1024) (q : Fin 512) :
    iblk2 V c 7 t (ix2 r q) = V c main_v33 (ix2 r (⟨512 * s.val + q.val, by have := s.isLt; have := q.isLt; omega⟩ : Fin 7168)) := by
  unfold iblk2
  show V c main_v33 (((cfg2.win 7).blk t).view.emb (ix2 r q)) = _
  refine congrArg (V c main_v33) ?_
  have hs := s.isLt
  obtain ⟨e0, e1, e2, e3, e4, e5⟩ := idx2_t2 t (by omega) (by omega)
  funext a; apply Fin.ext
  match a with
  | ⟨0, _⟩ => show win2_7.index t (0 : Fin 2) * 1024 + 1 * r.val = r.val; omega
  | ⟨1, _⟩ => show win2_7.index t (1 : Fin 2) * 512 + 1 * q.val = 512 * s.val + q.val; omega

theorem blk2_8 (c : Dev nD) (t : Fin cfg2.N) (s : Fin 14) (ht : t.val = s.val + 18) (r : Fin 1024) (q : Fin 512) :
    iblk2 V c 8 t (ix2 r q) = V c main_v35 (ix2 r (⟨512 * s.val + q.val, by have := s.isLt; have := q.isLt; omega⟩ : Fin 7168)) := by
  unfold iblk2
  show V c main_v35 (((cfg2.win 8).blk t).view.emb (ix2 r q)) = _
  refine congrArg (V c main_v35) ?_
  have hs := s.isLt
  obtain ⟨e0, e1, e2, e3, e4, e5⟩ := idx2_t2 t (by omega) (by omega)
  funext a; apply Fin.ext
  match a with
  | ⟨0, _⟩ => show win2_8.index t (0 : Fin 2) * 1024 + 1 * r.val = r.val; omega
  | ⟨1, _⟩ => show win2_8.index t (1 : Fin 2) * 512 + 1 * q.val = 512 * s.val + q.val; omega

theorem blk2_9 (c : Dev nD) (t : Fin cfg2.N) (o : Fin 1024) :
    iblk2 V c 9 t (ix2 (0 : Fin 1) o) = V c main_v38 (ix2 (0 : Fin 1) o) := by
  unfold iblk2
  show V c main_v38 (((cfg2.win 9).blk t).view.emb (ix2 (0 : Fin 1) o)) = _
  refine congrArg (V c main_v38) ?_
  obtain ⟨e0, e1⟩ := idx2_b t
  funext a; apply Fin.ext
  match a with
  | ⟨0, _⟩ => show win2_9.index t (0 : Fin 2) * 1 + 1 * (0 : Fin 1).val = (0 : Fin 1).val; omega
  | ⟨1, _⟩ => show win2_9.index t (1 : Fin 2) * 1024 + 1 * o.val = o.val; omega

/-! ## The payloads at an index -/

theorem pay2_1_apply (j : S64x1024.Idx) : k2_pay1 (F := Ideal) j = 0 := by
  unfold k2_pay1
  simp only [shapeCast_self]
  show Ideal.ofBits .f32 0x00000000#32 = 0
  exact Ideal.ofBits_zero_f32

theorem pay2_2_apply (x : Vec Ideal S64x512 .f32) (w m : Vec Ideal S1024x512 .f32) (prev : Vec Ideal S64x1024 .f32) (b : Fin 64) (o : Fin 1024) :
    k2_pay2 x w m prev (ix2 b o) = prev (ix2 b o) + ∑ q : Fin 512, x (ix2 b q) * (w (ix2 o q) * m (ix2 o q)) := by
  unfold k2_pay2
  simp only [shapeCast_self]
  exact HandV.tile_apply x w m prev b o

theorem pay2_3_apply (x : Vec Ideal S64x512 .f32) (w m : Vec Ideal S1024x512 .f32) (prev : Vec Ideal S64x1024 .f32) (b : Fin 64) (o : Fin 1024) :
    k2_pay3 x w m prev (ix2 b o) = prev (ix2 b o) + ∑ q : Fin 512, x (ix2 b q) * (w (ix2 o q) * m (ix2 o q)) := by
  unfold k2_pay3
  simp only [shapeCast_self]
  exact HandV.tile_apply x w m prev b o

theorem pay2_4_apply (x : Vec Ideal S64x512 .f32) (w m : Vec Ideal S1024x512 .f32) (prev : Vec Ideal S64x1024 .f32) (b : Fin 64) (o : Fin 1024) :
    k2_pay4 x w m prev (ix2 b o) = prev (ix2 b o) + ∑ q : Fin 512, x (ix2 b q) * (w (ix2 o q) * m (ix2 o q)) := by
  unfold k2_pay4
  simp only [shapeCast_self]
  exact HandV.tile_apply x w m prev b o

theorem pay2_5_apply (a : Vec Ideal S64x1024 .f32) (bias : Vec Ideal S1x1024 .f32) (b : Fin 64) (o : Fin 1024) :
    k2_pay5 a bias (ix2 b o) = Ideal.logistic (a (ix2 b o) + bias (ix2 (0 : Fin 1) o)) := by
  unfold k2_pay5
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a2_0 (c : Dev nD) : S64x1024.Idx → EReal := V c main_v21
abbrev a2_1 (c : Dev nD) : S1024x1024.Idx → EReal := V c main_v25
abbrev a2_2 (c : Dev nD) : S1024x1024.Idx → EReal := V c main_v27
abbrev a2_3 (c : Dev nD) : S64x8192.Idx → EReal := V c main_arg1
abbrev a2_4 (c : Dev nD) : S1024x8192.Idx → EReal := V c main_v29
abbrev a2_5 (c : Dev nD) : S1024x8192.Idx → EReal := V c main_v31
abbrev a2_6 (c : Dev nD) : S64x7168.Idx → EReal := V c main_v23
abbrev a2_7 (c : Dev nD) : S1024x7168.Idx → EReal := V c main_v33
abbrev a2_8 (c : Dev nD) : S1024x7168.Idx → EReal := V c main_v35
abbrev a2_9 (c : Dev nD) : S1x1024.Idx → EReal := V c main_v38

/-- Term 0's tile `s`: columns 512·s … of its left array against the same columns of weight · mask. -/
def tile2_0 (c : Dev nD) (s : Fin 2) (b : Fin 64) (o : Fin 1024) : EReal :=
  ∑ q : Fin 512, a2_0 V c (ix2 b (⟨512 * s.val + q.val, by have := s.isLt; have := q.isLt; omega⟩ : Fin 1024)) * (a2_1 V c (ix2 o (⟨512 * s.val + q.val, by have := s.isLt; have := q.isLt; omega⟩ : Fin 1024)) * a2_2 V c (ix2 o (⟨512 * s.val + q.val, by have := s.isLt; have := q.isLt; omega⟩ : Fin 1024)))
/-- The same over the naturals, zero past the term's last tile. -/
def tileN2_0 (c : Dev nD) (s : ℕ) (b : Fin 64) (o : Fin 1024) : EReal :=
  if h : s < 2 then tile2_0 V c ⟨s, h⟩ b o else 0
theorem tileN2_0_zero (c : Dev nD) (b : Fin 64) (o : Fin 1024) : ∀ s, 2 ≤ s → tileN2_0 V c s b o = 0 :=
  fun s h => dif_neg (by omega)
/-- Term 0 whole. -/
def whole2_0 (c : Dev nD) (b : Fin 64) (o : Fin 1024) : EReal :=
  ∑ n : Fin 1024, a2_0 V c (ix2 b n) * (a2_1 V c (ix2 o n) * a2_2 V c (ix2 o n))
theorem sum2_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles2_0 (c : Dev nD) (b : Fin 64) (o : Fin 1024) (x : ℕ) (hx : 2 ≤ x) :
    ∑ s ∈ Finset.range x, tileN2_0 V c s b o = whole2_0 V c b o := by
  rw [Cert.LibPaddedSums.pad (fun s => tileN2_0 V c s b o) 2 (tileN2_0_zero V c b o) x hx,
    Cert.LibPaddedSums.range_eq_fin 2 (fun s => tile2_0 V c s b o) (fun s => tileN2_0 V c s b o) (fun s => dif_pos s.isLt)]
  unfold whole2_0
  rw [sum2_0]
  rfl

/-- Term 1's tile `s`: columns 512·s … of its left array against the same columns of weight · mask. -/
def tile2_1 (c : Dev nD) (s : Fin 16) (b : Fin 64) (o : Fin 1024) : EReal :=
  ∑ q : Fin 512, a2_3 V c (ix2 b (⟨512 * s.val + q.val, by have := s.isLt; have := q.isLt; omega⟩ : Fin 8192)) * (a2_4 V c (ix2 o (⟨512 * s.val + q.val, by have := s.isLt; have := q.isLt; omega⟩ : Fin 8192)) * a2_5 V c (ix2 o (⟨512 * s.val + q.val, by have := s.isLt; have := q.isLt; omega⟩ : Fin 8192)))
/-- The same over the naturals, zero past the term's last tile. -/
def tileN2_1 (c : Dev nD) (s : ℕ) (b : Fin 64) (o : Fin 1024) : EReal :=
  if h : s < 16 then tile2_1 V c ⟨s, h⟩ b o else 0
theorem tileN2_1_zero (c : Dev nD) (b : Fin 64) (o : Fin 1024) : ∀ s, 16 ≤ s → tileN2_1 V c s b o = 0 :=
  fun s h => dif_neg (by omega)
/-- Term 1 whole. -/
def whole2_1 (c : Dev nD) (b : Fin 64) (o : Fin 1024) : EReal :=
  ∑ n : Fin 8192, a2_3 V c (ix2 b n) * (a2_4 V c (ix2 o n) * a2_5 V c (ix2 o n))
theorem sum2_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles2_1 (c : Dev nD) (b : Fin 64) (o : Fin 1024) (x : ℕ) (hx : 16 ≤ x) :
    ∑ s ∈ Finset.range x, tileN2_1 V c s b o = whole2_1 V c b o := by
  rw [Cert.LibPaddedSums.pad (fun s => tileN2_1 V c s b o) 16 (tileN2_1_zero V c b o) x hx,
    Cert.LibPaddedSums.range_eq_fin 16 (fun s => tile2_1 V c s b o) (fun s => tileN2_1 V c s b o) (fun s => dif_pos s.isLt)]
  unfold whole2_1
  rw [sum2_1]
  rfl

/-- Term 2's tile `s`: columns 512·s … of its left array against the same columns of weight · mask. -/
def tile2_2 (c : Dev nD) (s : Fin 14) (b : Fin 64) (o : Fin 1024) : EReal :=
  ∑ q : Fin 512, a2_6 V c (ix2 b (⟨512 * s.val + q.val, by have := s.isLt; have := q.isLt; omega⟩ : Fin 7168)) * (a2_7 V c (ix2 o (⟨512 * s.val + q.val, by have := s.isLt; have := q.isLt; omega⟩ : Fin 7168)) * a2_8 V c (ix2 o (⟨512 * s.val + q.val, by have := s.isLt; have := q.isLt; omega⟩ : Fin 7168)))
/-- The same over the naturals, zero past the term's last tile. -/
def tileN2_2 (c : Dev nD) (s : ℕ) (b : Fin 64) (o : Fin 1024) : EReal :=
  if h : s < 14 then tile2_2 V c ⟨s, h⟩ b o else 0
theorem tileN2_2_zero (c : Dev nD) (b : Fin 64) (o : Fin 1024) : ∀ s, 14 ≤ s → tileN2_2 V c s b o = 0 :=
  fun s h => dif_neg (by omega)
/-- Term 2 whole. -/
def whole2_2 (c : Dev nD) (b : Fin 64) (o : Fin 1024) : EReal :=
  ∑ n : Fin 7168, a2_6 V c (ix2 b n) * (a2_7 V c (ix2 o n) * a2_8 V c (ix2 o n))
theorem sum2_2 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles2_2 (c : Dev nD) (b : Fin 64) (o : Fin 1024) (x : ℕ) (hx : 14 ≤ x) :
    ∑ s ∈ Finset.range x, tileN2_2 V c s b o = whole2_2 V c b o := by
  rw [Cert.LibPaddedSums.pad (fun s => tileN2_2 V c s b o) 14 (tileN2_2_zero V c b o) x hx,
    Cert.LibPaddedSums.range_eq_fin 14 (fun s => tile2_2 V c s b o) (fun s => tileN2_2 V c s b o) (fun s => dif_pos s.isLt)]
  unfold whole2_2
  rw [sum2_2]
  rfl

/-! ## The accumulator after each point -/

set_option maxHeartbeats 4000000 in
theorem acc2_apply (c : Dev nD) (b : Fin 64) (o : Fin 1024) : ∀ (n : ℕ) (hn : n < cfg2.N),
    (outsAt2 V c n hn).2 (ix2 b o) = ∑ s ∈ Finset.range (n + 1 - 0), tileN2_0 V c s b o + ∑ s ∈ Finset.range (n + 1 - 2), tileN2_1 V c s b o + ∑ s ∈ Finset.range (n + 1 - 18), tileN2_2 V c s b o
  | 0, hn => by
    rw [show (outsAt2 V c 0 hn).2 = _ from step2_A V c ⟨0, hn⟩ rfl]
    rw [pay2_2_apply, pay2_1_apply, zero_add]
    rw [show (0 + 1 - 0) = 1 from rfl, Finset.sum_range_one, show (0 + 1 - 2) = 0 from rfl, Finset.range_zero, Finset.sum_empty, Finset.sum_empty, add_zero, add_zero]
    unfold tileN2_0
    rw [dif_pos (show 0 < 2 by decide)]
    unfold tile2_0
    refine Finset.sum_congr rfl fun q _ => ?_
    rw [blk2_0 V c ⟨0, hn⟩ ⟨0, by decide⟩ rfl, blk2_1 V c ⟨0, hn⟩ ⟨0, by decide⟩ rfl, blk2_2 V c ⟨0, hn⟩ ⟨0, by decide⟩ rfl]
  | n + 1, hn => by
    have hN : n + 1 < 32 := lt_of_lt_of_eq hn (show cfg2.N = 32 from N_2)
    have ih := acc2_apply c b o n (Nat.lt_of_succ_lt hn)
    by_cases h0 : n + 1 = 31
    · have hstep : (outsAt2 V c (n + 1) hn).2 = k2_pay4 (iblk2 V c 6 ⟨n + 1, hn⟩) (iblk2 V c 7 ⟨n + 1, hn⟩) (iblk2 V c 8 ⟨n + 1, hn⟩) (outsAt2 V c n (Nat.lt_of_succ_lt hn)).2 :=
        step2_Z V c ⟨n + 1, hn⟩ (Nat.succ_ne_zero n) h0
      have htile : ∑ q : Fin 512, tb2_6 V c ⟨n + 1, hn⟩ (ix2 b q) * (tb2_7 V c ⟨n + 1, hn⟩ (ix2 o q) * tb2_8 V c ⟨n + 1, hn⟩ (ix2 o q)) = tileN2_2 V c (n + 1 - 18) b o := by
        dsimp only [tb2_6, tb2_7, tb2_8]
        unfold tileN2_2
        rw [dif_pos (show n + 1 - 18 < 14 by omega)]
        unfold tile2_2
        refine Finset.sum_congr rfl fun q _ => ?_
        rw [blk2_6 V c ⟨n + 1, hn⟩ ⟨n + 1 - 18, by omega⟩ (by show n + 1 = n + 1 - 18 + 18; omega), blk2_7 V c ⟨n + 1, hn⟩ ⟨n + 1 - 18, by omega⟩ (by show n + 1 = n + 1 - 18 + 18; omega), blk2_8 V c ⟨n + 1, hn⟩ ⟨n + 1 - 18, by omega⟩ (by show n + 1 = n + 1 - 18 + 18; omega)]
      rw [hstep, pay2_4_apply, ih, htile]
      rw [Cert.LibPaddedSums.step_inactive (fun s => tileN2_0 V c s b o) 2 0 n (tileN2_0_zero V c b o) (by omega),
        Cert.LibPaddedSums.step_inactive (fun s => tileN2_1 V c s b o) 16 2 n (tileN2_1_zero V c b o) (by omega),
        Cert.LibPaddedSums.step_active (fun s => tileN2_2 V c s b o) 18 n (by omega)]
      ac_rfl
    by_cases h1 : n + 1 = 1
    · have hstep : (outsAt2 V c (n + 1) hn).2 = k2_pay2 (iblk2 V c 0 ⟨n + 1, hn⟩) (iblk2 V c 1 ⟨n + 1, hn⟩) (iblk2 V c 2 ⟨n + 1, hn⟩) (outsAt2 V c n (Nat.lt_of_succ_lt hn)).2 :=
        step2_B V c ⟨n + 1, hn⟩ (Nat.succ_ne_zero n) h0 h1
      have htile : ∑ q : Fin 512, tb2_0 V c ⟨n + 1, hn⟩ (ix2 b q) * (tb2_1 V c ⟨n + 1, hn⟩ (ix2 o q) * tb2_2 V c ⟨n + 1, hn⟩ (ix2 o q)) = tileN2_0 V c (n + 1 - 0) b o := by
        dsimp only [tb2_0, tb2_1, tb2_2]
        unfold tileN2_0
        rw [dif_pos (show n + 1 - 0 < 2 by omega)]
        unfold tile2_0
        refine Finset.sum_congr rfl fun q _ => ?_
        rw [blk2_0 V c ⟨n + 1, hn⟩ ⟨n + 1 - 0, by omega⟩ (by show n + 1 = n + 1 - 0 + 0; omega), blk2_1 V c ⟨n + 1, hn⟩ ⟨n + 1 - 0, by omega⟩ (by show n + 1 = n + 1 - 0 + 0; omega), blk2_2 V c ⟨n + 1, hn⟩ ⟨n + 1 - 0, by omega⟩ (by show n + 1 = n + 1 - 0 + 0; omega)]
      rw [hstep, pay2_2_apply, ih, htile]
      rw [Cert.LibPaddedSums.step_active (fun s => tileN2_0 V c s b o) 0 n (by omega),
        Cert.LibPaddedSums.step_inactive (fun s => tileN2_1 V c s b o) 16 2 n (tileN2_1_zero V c b o) (by omega),
        Cert.LibPaddedSums.step_inactive (fun s => tileN2_2 V c s b o) 14 18 n (tileN2_2_zero V c b o) (by omega)]
      ac_rfl
    by_cases h2 : (2 ≤ n + 1 ∧ n + 1 ≤ 17)
    · have hstep : (outsAt2 V c (n + 1) hn).2 = k2_pay3 (iblk2 V c 3 ⟨n + 1, hn⟩) (iblk2 V c 4 ⟨n + 1, hn⟩) (iblk2 V c 5 ⟨n + 1, hn⟩) (outsAt2 V c n (Nat.lt_of_succ_lt hn)).2 :=
        step2_C V c ⟨n + 1, hn⟩ (Nat.succ_ne_zero n) h0 h1 h2
      have htile : ∑ q : Fin 512, tb2_3 V c ⟨n + 1, hn⟩ (ix2 b q) * (tb2_4 V c ⟨n + 1, hn⟩ (ix2 o q) * tb2_5 V c ⟨n + 1, hn⟩ (ix2 o q)) = tileN2_1 V c (n + 1 - 2) b o := by
        dsimp only [tb2_3, tb2_4, tb2_5]
        unfold tileN2_1
        rw [dif_pos (show n + 1 - 2 < 16 by omega)]
        unfold tile2_1
        refine Finset.sum_congr rfl fun q _ => ?_
        rw [blk2_3 V c ⟨n + 1, hn⟩ ⟨n + 1 - 2, by omega⟩ (by show n + 1 = n + 1 - 2 + 2; omega), blk2_4 V c ⟨n + 1, hn⟩ ⟨n + 1 - 2, by omega⟩ (by show n + 1 = n + 1 - 2 + 2; omega), blk2_5 V c ⟨n + 1, hn⟩ ⟨n + 1 - 2, by omega⟩ (by show n + 1 = n + 1 - 2 + 2; omega)]
      rw [hstep, pay2_3_apply, ih, htile]
      rw [Cert.LibPaddedSums.step_inactive (fun s => tileN2_0 V c s b o) 2 0 n (tileN2_0_zero V c b o) (by omega),
        Cert.LibPaddedSums.step_active (fun s => tileN2_1 V c s b o) 2 n (by omega),
        Cert.LibPaddedSums.step_inactive (fun s => tileN2_2 V c s b o) 14 18 n (tileN2_2_zero V c b o) (by omega)]
      ac_rfl
    · have hstep : (outsAt2 V c (n + 1) hn).2 = k2_pay4 (iblk2 V c 6 ⟨n + 1, hn⟩) (iblk2 V c 7 ⟨n + 1, hn⟩) (iblk2 V c 8 ⟨n + 1, hn⟩) (outsAt2 V c n (Nat.lt_of_succ_lt hn)).2 :=
        step2_D V c ⟨n + 1, hn⟩ (Nat.succ_ne_zero n) h0 h1 h2
      have htile : ∑ q : Fin 512, tb2_6 V c ⟨n + 1, hn⟩ (ix2 b q) * (tb2_7 V c ⟨n + 1, hn⟩ (ix2 o q) * tb2_8 V c ⟨n + 1, hn⟩ (ix2 o q)) = tileN2_2 V c (n + 1 - 18) b o := by
        dsimp only [tb2_6, tb2_7, tb2_8]
        unfold tileN2_2
        rw [dif_pos (show n + 1 - 18 < 14 by omega)]
        unfold tile2_2
        refine Finset.sum_congr rfl fun q _ => ?_
        rw [blk2_6 V c ⟨n + 1, hn⟩ ⟨n + 1 - 18, by omega⟩ (by show n + 1 = n + 1 - 18 + 18; omega), blk2_7 V c ⟨n + 1, hn⟩ ⟨n + 1 - 18, by omega⟩ (by show n + 1 = n + 1 - 18 + 18; omega), blk2_8 V c ⟨n + 1, hn⟩ ⟨n + 1 - 18, by omega⟩ (by show n + 1 = n + 1 - 18 + 18; omega)]
      rw [hstep, pay2_4_apply, ih, htile]
      rw [Cert.LibPaddedSums.step_inactive (fun s => tileN2_0 V c s b o) 2 0 n (tileN2_0_zero V c b o) (by omega),
        Cert.LibPaddedSums.step_inactive (fun s => tileN2_1 V c s b o) 16 2 n (tileN2_1_zero V c b o) (by omega),
        Cert.LibPaddedSums.step_active (fun s => tileN2_2 V c s b o) 18 n (by omega)]
      ac_rfl

/-! ## The region's result -/

theorem hlast2 : 31 < cfg2.N := by rw [show cfg2.N = 32 from N_2]; decide

set_option maxHeartbeats 2000000 in
theorem out2_apply (c : Dev nD) (b : Fin 64) (o : Fin 1024) :
    (outsAt2 V c 31 hlast2).1 (ix2 b o) = Ideal.logistic ((whole2_0 V c b o + whole2_1 V c b o + whole2_2 V c b o) + a2_9 V c (ix2 (0 : Fin 1) o)) := by
  rw [show (outsAt2 V c 31 hlast2).1 = _ from last2 V c ⟨31, hlast2⟩ (by show (31 : ℕ) ≠ 0; decide) rfl]
  rw [← show (outsAt2 V c 31 hlast2).2 = _ from step2_Z V c ⟨31, hlast2⟩ (by show (31 : ℕ) ≠ 0; decide) rfl]
  rw [pay2_5_apply, acc2_apply V c b o 31 hlast2, blk2_9]
  rw [tiles2_0 V c b o (31 + 1 - 0) (by decide), tiles2_1 V c b o (31 + 1 - 2) (by decide), tiles2_2 V c b o (31 + 1 - 18) (by decide)]

/-- What region 2 leaves in its output array: the last point's buffer, written back whole. -/
def G2 (c : Dev nD) : S64x1024.Idx → EReal := (outsAt2 V c 31 hlast2).1

theorem emb2_out (t : Fin cfg2.N) (y : S64x1024.Idx) : ((cfg2.win 10).blk t).view.emb y = y := by
  obtain ⟨e0, e1⟩ := idx2_out t
  funext a; apply Fin.ext
  match a with
  | ⟨0, _⟩ => show win2_10.index t (0 : Fin 2) * 64 + 1 * (y 0).val = (y 0).val; omega
  | ⟨1, _⟩ => show win2_10.index t (1 : Fin 2) * 1024 + 1 * (y 1).val = (y 1).val; omega

theorem flushed2_eq (c : Dev nD) (t : Fin cfg2.N) (hf : (cfg2.win 10).flush t = true) :
    (dat2 V c).flushed 10 t = ((cfg2.win 10).blk t).view.read (Elt Ideal) (G2 V c) := by
  have ht : t.val = 31 := by
    have h1 := (flush2_10 t).mp hf
    have h2 : t.val < 32 := lt_of_lt_of_eq t.isLt (show cfg2.N = 32 from N_2)
    omega
  have ht' : t = ⟨31, hlast2⟩ := Fin.ext ht
  subst ht'
  show (cfg2.win 10).cut (grid2.coords ⟨31, hlast2⟩) ((dat2 V c).after 10 ⟨31, hlast2⟩) = _
  rw [after2_10]
  funext y
  show (outsAt2 V c 31 hlast2).1 y = G2 V c (((cfg2.win 10).blk ⟨31, hlast2⟩).view.emb y)
  rw [emb2_out]
  rfl

theorem mem_blk2_out (t : Fin cfg2.N) (i : S64x1024.Idx) :
    i ∈ ((cfg2.win 10).blk t).view.set ↔ ∀ a : Fin 2, win2_10.index t a * S64x1024.size a ≤ (i a).val ∧ (i a).val < win2_10.index t a * S64x1024.size a + S64x1024.size a := by
  show i ∈ ((View.whole main_v39).slice (win2_10.rect t)).set ↔ _
  rw [View.set_slice_whole, Rect.mem_set_unit]
  exact Iff.rfl

theorem final2 (c : Dev nD) : (dat2 V c).arrAt 10 cfg2.N = G2 V c :=
  (dat2 V c).arrAt_eq_of_cover 10 (G2 V c) (fun t hf => flushed2_eq V c t hf) (fun i =>
    ⟨⟨31, hlast2⟩, (flush2_10 ⟨31, hlast2⟩).mpr (by show 31 % 32 = 31; decide), by
      rw [mem_blk2_out]
      obtain ⟨e0, e1⟩ := idx2_out ⟨31, hlast2⟩
      intro a
      match a with
      | ⟨0, _⟩ => show win2_10.index ⟨31, hlast2⟩ (0 : Fin 2) * 64 ≤ (i 0).val ∧ (i 0).val < win2_10.index ⟨31, hlast2⟩ (0 : Fin 2) * 64 + 64; have hi : (i 0).val < 64 := (i 0).isLt; omega
      | ⟨1, _⟩ => show win2_10.index ⟨31, hlast2⟩ (1 : Fin 2) * 1024 ≤ (i 1).val ∧ (i 1).val < win2_10.index ⟨31, hlast2⟩ (1 : Fin 2) * 1024 + 1024; have hi : (i 1).val < 1024 := (i 1).isLt; omega⟩)

/-- Region 2's output array at an index. -/
theorem final2_apply (c : Dev nD) (b : Fin 64) (o : Fin 1024) :
    (dat2 V c).arrAt 10 cfg2.N (ix2 b o) = Ideal.logistic ((whole2_0 V c b o + whole2_1 V c b o + whole2_2 V c b o) + a2_9 V c (ix2 (0 : Fin 1) o)) :=
  (congrFun (final2 V c) (ix2 b o)).trans (out2_apply V c b o)

end Cert.KernelIdeal.Hand

end
-- ==== Proof.Bridge.L2.lean ====
/- Layer 2, the two sides joined: given the previous layer's equality, the buffer of earlier outputs agrees (the same scatter of equal arrays),
   every array region 2 stages is the reference's, and the two layer formulas differ only in the order of their additions. -/
import proofs.«164445_j37684043055467_1_alg».proof.Proof.KI.V2
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 2. -/
theorem skips2 (hA : Agree m m') (c : Dev Cert.KernelIdeal.nD)
    (hC : (Cert.KernelIdeal.Hand.o4 m c : Cert.KernelIdeal.S64x1024.Idx → EReal) = (Cert.ReferenceIdeal.Value.res_main_v47 (StableHlo.launchContents m' c)))
    (hS : (Cert.KernelIdeal.Hand.E3 m c Cert.KernelIdeal.main_v9 : Cert.KernelIdeal.S64x7168.Idx → EReal) = (Cert.ReferenceIdeal.HandV.r_sk1 (StableHlo.launchContents m' c))) :
    (Cert.KernelIdeal.Hand.E5 m c Cert.KernelIdeal.main_v23 : Cert.KernelIdeal.S64x7168.Idx → EReal) = (Cert.ReferenceIdeal.Value.res_main_v49 (StableHlo.launchContents m' c)) := by
  rw [Cert.KernelIdeal.Hand.B2_main_v23 m c]
  rw [show (Cert.KernelIdeal.Hand.E4 m c Cert.KernelIdeal.main_v21 : Cert.KernelIdeal.S64x1024.Idx → EReal) = (Cert.ReferenceIdeal.Value.res_main_v47 (StableHlo.launchContents m' c)) from (Cert.KernelIdeal.Hand.U4_out m c).trans hC]
  rw [show (Cert.KernelIdeal.Hand.E4 m c Cert.KernelIdeal.main_v9 : Cert.KernelIdeal.S64x7168.Idx → EReal) = (Cert.ReferenceIdeal.HandV.r_sk1 (StableHlo.launchContents m' c)) from (Cert.KernelIdeal.Hand.U4_ne m c Cert.KernelIdeal.main_v9 (by decide)).trans hS]
  rw [Cert.ReferenceIdeal.HandV.res49_eq]
  rfl

set_option maxHeartbeats 4000000 in
theorem layer2 (hA : Agree m m') (c : Dev Cert.KernelIdeal.nD)
    (hC : (Cert.KernelIdeal.Hand.o4 m c : Cert.KernelIdeal.S64x1024.Idx → EReal) = (Cert.ReferenceIdeal.Value.res_main_v47 (StableHlo.launchContents m' c)))
    (hS : (Cert.KernelIdeal.Hand.E5 m c Cert.KernelIdeal.main_v23 : Cert.KernelIdeal.S64x7168.Idx → EReal) = (Cert.ReferenceIdeal.Value.res_main_v49 (StableHlo.launchContents m' c))) :
    (Cert.KernelIdeal.Hand.o6 m c : Cert.KernelIdeal.S64x1024.Idx → EReal) = (Cert.ReferenceIdeal.Value.res_main_v83 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res83_apply]
  show (Cert.KernelIdeal.Hand.dat2 (Cert.KernelIdeal.Hand.E5 m) c).arrAt 10 Cert.KernelIdeal.cfg2.N (ix2 b o) = _
  rw [Cert.KernelIdeal.Hand.final2_apply]
  have e0 : Cert.KernelIdeal.Hand.a2_0 (Cert.KernelIdeal.Hand.E5 m) c = (Cert.ReferenceIdeal.Value.res_main_v47 (StableHlo.launchContents m' c)) := by
    show (Cert.KernelIdeal.Hand.E5 m c Cert.KernelIdeal.main_v21 : Cert.KernelIdeal.S64x1024.Idx → EReal) = _
    rw [Cert.KernelIdeal.Hand.keep5 m c Cert.KernelIdeal.main_v21 (by decide)]
    exact (Cert.KernelIdeal.Hand.U4_out m c).trans hC
  have e1 : Cert.KernelIdeal.Hand.a2_1 (Cert.KernelIdeal.Hand.E5 m) c = Cert.ReferenceIdeal.HandV.r_wh1 (StableHlo.launchContents m' c) := by
    show (Cert.KernelIdeal.Hand.E5 m c Cert.KernelIdeal.main_v25 : Cert.KernelIdeal.S1024x1024.Idx → EReal) = _
    rw [Cert.KernelIdeal.Hand.B2_main_v25 m c, Cert.KernelIdeal.Hand.U4_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a2_2 (Cert.KernelIdeal.Hand.E5 m) c = Cert.ReferenceIdeal.HandV.r_mh1 (StableHlo.launchContents m' c) := by
    show (Cert.KernelIdeal.Hand.E5 m c Cert.KernelIdeal.main_v27 : Cert.KernelIdeal.S1024x1024.Idx → EReal) = _
    rw [Cert.KernelIdeal.Hand.B2_main_v27 m c, Cert.KernelIdeal.Hand.U4_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a2_3 (Cert.KernelIdeal.Hand.E5 m) c = Cert.ReferenceIdeal.HandV.r_h (StableHlo.launchContents m' c) := by
    show (Cert.KernelIdeal.Hand.E5 m c Cert.KernelIdeal.main_arg1 : Cert.KernelIdeal.S64x8192.Idx → EReal) = _
    rw [Cert.KernelIdeal.Hand.U5_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a2_4 (Cert.KernelIdeal.Hand.E5 m) c = Cert.ReferenceIdeal.HandV.r_wr2 (StableHlo.launchContents m' c) := by
    show (Cert.KernelIdeal.Hand.E5 m c Cert.KernelIdeal.main_v29 : Cert.KernelIdeal.S1024x8192.Idx → EReal) = _
    rw [Cert.KernelIdeal.Hand.B2_main_v29 m c, Cert.KernelIdeal.Hand.U4_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a2_5 (Cert.KernelIdeal.Hand.E5 m) c = Cert.ReferenceIdeal.HandV.r_mr2 (StableHlo.launchContents m' c) := by
    show (Cert.KernelIdeal.Hand.E5 m c Cert.KernelIdeal.main_v31 : Cert.KernelIdeal.S1024x8192.Idx → EReal) = _
    rw [Cert.KernelIdeal.Hand.B2_main_v31 m c, Cert.KernelIdeal.Hand.U4_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have e6 : Cert.KernelIdeal.Hand.a2_6 (Cert.KernelIdeal.Hand.E5 m) c = (Cert.ReferenceIdeal.Value.res_main_v49 (StableHlo.launchContents m' c)) := hS
  have e7 : Cert.KernelIdeal.Hand.a2_7 (Cert.KernelIdeal.Hand.E5 m) c = Cert.ReferenceIdeal.HandV.r_ws0 (StableHlo.launchContents m' c) := by
    show (Cert.KernelIdeal.Hand.E5 m c Cert.KernelIdeal.main_v33 : Cert.KernelIdeal.S1024x7168.Idx → EReal) = _
    rw [Cert.KernelIdeal.Hand.B2_main_v33 m c, Cert.KernelIdeal.Hand.U4_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e8 : Cert.KernelIdeal.Hand.a2_8 (Cert.KernelIdeal.Hand.E5 m) c = Cert.ReferenceIdeal.HandV.r_ms0 (StableHlo.launchContents m' c) := by
    show (Cert.KernelIdeal.Hand.E5 m c Cert.KernelIdeal.main_v35 : Cert.KernelIdeal.S1024x7168.Idx → EReal) = _
    rw [Cert.KernelIdeal.Hand.B2_main_v35 m c, Cert.KernelIdeal.Hand.U4_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a2_9 (Cert.KernelIdeal.Hand.E5 m) c (ix2 (0 : Fin 1) o) = Cert.ReferenceIdeal.HandV.r_bh1 (StableHlo.launchContents m' c) (ix1 o) := by
    show (Cert.KernelIdeal.Hand.E5 m c Cert.KernelIdeal.main_v38 : Cert.KernelIdeal.S1x1024.Idx → EReal) (ix2 (0 : Fin 1) o) = _
    rw [congrFun (Cert.KernelIdeal.Hand.B2_main_v38 m c) (ix2 (0 : Fin 1) o), Cert.LibHostApply.shapeCast_row_apply, Cert.KernelIdeal.Hand.U4_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole2_0 Cert.KernelIdeal.Hand.whole2_1 Cert.KernelIdeal.Hand.whole2_2
  rw [e0, e1, e2, e3, e4, e5, e6, e7, e8, eb]
  refine congrArg Ideal.logistic ?_
  exact (add_right_comm _ _ _).trans (congrArg (· + _) (add_right_comm _ _ _))

end Cert.Proof.Bridge

end
-- ==== Proof.KI.R3Acc.lean ====
/- Region 3: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R3Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_3 : (![0, 0] : Fin 2 → Nat) = fun _ => 0 := funext fun a => by fin_cases a <;> rfl
local notation "hz2" => hz2_3

theorem sout3_A_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond3_1 i) (hc2 : cond3_2 i) (hc3 : ¬cond3_3 i) (hc4 : ¬cond3_4 i) (hc5 : ¬cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    sout3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 = k3_pay2 x1 x2 x3 (k3_pay1 (F := F)) := by
  unfold sout3_A
  rw [View.read_writes_eq_canon _ _ _ (scover3_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10)]
  unfold kernelRun3_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout3_Z_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k3_pay4 x7 x8 x9 xs := by
  unfold sout3_Z
  rw [View.read_writes_eq_canon _ _ _ (scover3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun3_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out3_Z_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    out3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k3_pay5 (k3_pay4 x7 x8 x9 xs) x10 := by
  unfold out3_Z
  rw [View.read_writes_eq_canon _ _ _ (cover3_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun3_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout3_B_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : cond3_2 i) (hc3 : ¬cond3_3 i) (hc4 : ¬cond3_4 i) (hc5 : ¬cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k3_pay2 x1 x2 x3 xs := by
  unfold sout3_B
  rw [View.read_writes_eq_canon _ _ _ (scover3_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun3_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout3_C_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : cond3_3 i) (hc4 : ¬cond3_4 i) (hc5 : ¬cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k3_pay3 x4 x5 x6 xs := by
  unfold sout3_C
  rw [View.read_writes_eq_canon _ _ _ (scover3_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun3_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout3_D_eq (c : Dev nD) (i : grid3.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond3_1 i) (hc2 : ¬cond3_2 i) (hc3 : ¬cond3_3 i) (hc4 : cond3_4 i) (hc5 : ¬cond3_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k3_pay4 x7 x8 x9 xs := by
  unfold sout3_D
  rw [View.read_writes_eq_canon _ _ _ (scover3_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun3_D
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step3_A (c : Dev nD) (t : Fin cfg3.N) (hz : t.val = 0) :
    (outsAt3 V c t.val t.isLt).2 = k3_pay2 (iblk3 V c 0 t) (iblk3 V c 1 t) (iblk3 V c 2 t) (k3_pay1 (F := F)) := by
  rw [outsAt3_A V c t hz]
  dsimp only
  exact sout3_A_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_A t hz).1) ((case3_A t hz).2.1) ((case3_A t hz).2.2.1) ((case3_A t hz).2.2.2.1) ((case3_A t hz).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)

set_option maxHeartbeats 2000000 in
theorem step3_Z (c : Dev nD) (t : Fin cfg3.N) (hz : t.val ≠ 0) (h0 : t.val = 31) :
    (outsAt3 V c t.val t.isLt).2 = k3_pay4 (iblk3 V c 6 t) (iblk3 V c 7 t) (iblk3 V c 8 t) (outsAt3 V c (t.val - 1) (Nat.lt_of_le_of_lt (Nat.sub_le _ _) t.isLt)).2 := by
  rw [outsAt3_Z V c t hz h0]
  dsimp only
  exact sout3_Z_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2

set_option maxHeartbeats 2000000 in
theorem last3 (c : Dev nD) (t : Fin cfg3.N) (hz : t.val ≠ 0) (h0 : t.val = 31) :
    (outsAt3 V c t.val t.isLt).1 = k3_pay5 (k3_pay4 (iblk3 V c 6 t) (iblk3 V c 7 t) (iblk3 V c 8 t) (outsAt3 V c (t.val - 1) (Nat.lt_of_le_of_lt (Nat.sub_le _ _) t.isLt)).2) (iblk3 V c 9 t) := by
  rw [outsAt3_Z V c t hz h0]
  dsimp only
  exact out3_Z_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_Z t hz h0).1) ((case3_Z t hz h0).2.1) ((case3_Z t hz h0).2.2.1) ((case3_Z t hz h0).2.2.2.1) ((case3_Z t hz h0).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2

set_option maxHeartbeats 2000000 in
theorem step3_B (c : Dev nD) (t : Fin cfg3.N) (hz : t.val ≠ 0) (h0 : ¬t.val = 31) (h1 : t.val = 1) :
    (outsAt3 V c t.val t.isLt).2 = k3_pay2 (iblk3 V c 0 t) (iblk3 V c 1 t) (iblk3 V c 2 t) (outsAt3 V c (t.val - 1) (Nat.lt_of_le_of_lt (Nat.sub_le _ _) t.isLt)).2 := by
  rw [outsAt3_B V c t hz h0 h1]
  dsimp only
  exact sout3_B_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_B t hz h0 h1).1) ((case3_B t hz h0 h1).2.1) ((case3_B t hz h0 h1).2.2.1) ((case3_B t hz h0 h1).2.2.2.1) ((case3_B t hz h0 h1).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2

set_option maxHeartbeats 2000000 in
theorem step3_C (c : Dev nD) (t : Fin cfg3.N) (hz : t.val ≠ 0) (h0 : ¬t.val = 31) (h1 : ¬t.val = 1) (h2 : (2 ≤ t.val ∧ t.val ≤ 17)) :
    (outsAt3 V c t.val t.isLt).2 = k3_pay3 (iblk3 V c 3 t) (iblk3 V c 4 t) (iblk3 V c 5 t) (outsAt3 V c (t.val - 1) (Nat.lt_of_le_of_lt (Nat.sub_le _ _) t.isLt)).2 := by
  rw [outsAt3_C V c t hz h0 h1 h2]
  dsimp only
  exact sout3_C_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_C t hz h0 h1 h2).1) ((case3_C t hz h0 h1 h2).2.1) ((case3_C t hz h0 h1 h2).2.2.1) ((case3_C t hz h0 h1 h2).2.2.2.1) ((case3_C t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2

set_option maxHeartbeats 2000000 in
theorem step3_D (c : Dev nD) (t : Fin cfg3.N) (hz : t.val ≠ 0) (h0 : ¬t.val = 31) (h1 : ¬t.val = 1) (h2 : ¬(2 ≤ t.val ∧ t.val ≤ 17)) :
    (outsAt3 V c t.val t.isLt).2 = k3_pay4 (iblk3 V c 6 t) (iblk3 V c 7 t) (iblk3 V c 8 t) (outsAt3 V c (t.val - 1) (Nat.lt_of_le_of_lt (Nat.sub_le _ _) t.isLt)).2 := by
  rw [outsAt3_D V c t hz h0 h1 h2]
  dsimp only
  exact sout3_D_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3 (Memref.isWhole_whole _) ((case3_D t hz h0 h1 h2).1) ((case3_D t hz h0 h1 h2).2.1) ((case3_D t hz h0 h1 h2).2.2.1) ((case3_D t hz h0 h1 h2).2.2.2.1) ((case3_D t hz h0 h1 h2).2.2.2.2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2

end Cert.KernelIdeal.Hand

end
-- ==== Proof.KI.V3.lean ====
/- Region 3 at the ideal instance: each window's block read at an index of the array it stages; the accumulator after every point as the
   sum, over the region's 3 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R3Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx3_t0 : ∀ t : Fin cfg3.N, 0 ≤ t.val → t.val < 2 → win3_0.index t (0 : Fin 2) = 0 ∧ win3_0.index t (1 : Fin 2) = t.val - 0 ∧ win3_1.index t (0 : Fin 2) = 0 ∧ win3_1.index t (1 : Fin 2) = t.val - 0 ∧ win3_2.index t (0 : Fin 2) = 0 ∧ win3_2.index t (1 : Fin 2) = t.val - 0 :=
  (by decide +kernel : ∀ t : Fin grid3.N, 0 ≤ t.val → t.val < 2 → _)
theorem idx3_t1 : ∀ t : Fin cfg3.N, 2 ≤ t.val → t.val < 18 → win3_3.index t (0 : Fin 2) = 0 ∧ win3_3.index t (1 : Fin 2) = t.val - 2 ∧ win3_4.index t (0 : Fin 2) = 0 ∧ win3_4.index t (1 : Fin 2) = t.val - 2 ∧ win3_5.index t (0 : Fin 2) = 0 ∧ win3_5.index t (1 : Fin 2) = t.val - 2 :=
  (by decide +kernel : ∀ t : Fin grid3.N, 2 ≤ t.val → t.val < 18 → _)
theorem idx3_t2 : ∀ t : Fin cfg3.N, 18 ≤ t.val → t.val < 32 → win3_6.index t (0 : Fin 2) = 0 ∧ win3_6.index t (1 : Fin 2) = t.val - 18 ∧ win3_7.index t (0 : Fin 2) = 0 ∧ win3_7.index t (1 : Fin 2) = t.val - 18 ∧ win3_8.index t (0 : Fin 2) = 0 ∧ win3_8.index t (1 : Fin 2) = t.val - 18 :=
  (by decide +kernel : ∀ t : Fin grid3.N, 18 ≤ t.val → t.val < 32 → _)
theorem idx3_b : ∀ t : Fin cfg3.N, win3_9.index t (0 : Fin 2) = 0 ∧ win3_9.index t (1 : Fin 2) = 0 :=
  (by decide +kernel : ∀ t : Fin grid3.N, _)
theorem idx3_out : ∀ t : Fin cfg3.N, win3_10.index t (0 : Fin 2) = 0 ∧ win3_10.index t (1 : Fin 2) = 0 :=
  (by decide +kernel : ∀ t : Fin grid3.N, _)

/-! ## The windows' blocks at their literal shapes -/
abbrev tb3_0 (c : Dev nD) (t : Fin cfg3.N) : Vec Ideal S64x512 .f32 := iblk3 V c 0 t
abbrev tb3_1 (c : Dev nD) (t : Fin cfg3.N) : Vec Ideal S1024x512 .f32 := iblk3 V c 1 t
abbrev tb3_2 (c : Dev nD) (t : Fin cfg3.N) : Vec Ideal S1024x512 .f32 := iblk3 V c 2 t
abbrev tb3_3 (c : Dev nD) (t : Fin cfg3.N) : Vec Ideal S64x512 .f32 := iblk3 V c 3 t
abbrev tb3_4 (c : Dev nD) (t : Fin cfg3.N) : Vec Ideal S1024x512 .f32 := iblk3 V c 4 t
abbrev tb3_5 (c : Dev nD) (t : Fin cfg3.N) : Vec Ideal S1024x512 .f32 := iblk3 V c 5 t
abbrev tb3_6 (c : Dev nD) (t : Fin cfg3.N) : Vec Ideal S64x512 .f32 := iblk3 V c 6 t
abbrev tb3_7 (c : Dev nD) (t : Fin cfg3.N) : Vec Ideal S1024x512 .f32 := iblk3 V c 7 t
abbrev tb3_8 (c : Dev nD) (t : Fin cfg3.N) : Vec Ideal S1024x512 .f32 := iblk3 V c 8 t
abbrev tb3_9 (c : Dev nD) (t : Fin cfg3.N) : Vec Ideal S1x1024 .f32 := iblk3 V c 9 t

/-! ## The blocks -/

theorem blk3_0 (c : Dev nD) (t : Fin cfg3.N) (s : Fin 2) (ht : t.val = s.val + 0) (r : Fin 64) (q : Fin 512) :
    iblk3 V c 0 t (ix2 r q) = V c main_v39 (ix2 r (⟨512 * s.val + q.val, by have := s.isLt; have := q.isLt; omega⟩ : Fin 1024)) := by
  unfold iblk3
  show V c main_v39 (((cfg3.win 0).blk t).view.emb (ix2 r q)) = _
  refine congrArg (V c main_v39) ?_
  have hs := s.isLt
  obtain ⟨e0, e1, e2, e3, e4, e5⟩ := idx3_t0 t (by omega) (by omega)
  funext a; apply Fin.ext
  match a with
  | ⟨0, _⟩ => show win3_0.index t (0 : Fin 2) * 64 + 1 * r.val = r.val; omega
  | ⟨1, _⟩ => show win3_0.index t (1 : Fin 2) * 512 + 1 * q.val = 512 * s.val + q.val; omega

theorem blk3_1 (c : Dev nD) (t : Fin cfg3.N) (s : Fin 2) (ht : t.val = s.val + 0) (r : Fin 1024) (q : Fin 512) :
    iblk3 V c 1 t (ix2 r q) = V c main_v43 (ix2 r (⟨512 * s.val + q.val, by have := s.isLt; have := q.isLt; omega⟩ : Fin 1024)) := by
  unfold iblk3
  show V c main_v43 (((cfg3.win 1).blk t).view.emb (ix2 r q)) = _
  refine congrArg (V c main_v43) ?_
  have hs := s.isLt
  obtain ⟨e0, e1, e2, e3, e4, e5⟩ := idx3_t0 t (by omega) (by omega)
  funext a; apply Fin.ext
  match a with
  | ⟨0, _⟩ => show win3_1.index t (0 : Fin 2) * 1024 + 1 * r.val = r.val; omega
  | ⟨1, _⟩ => show win3_1.index t (1 : Fin 2) * 512 + 1 * q.val = 512 * s.val + q.val; omega

theorem blk3_2 (c : Dev nD) (t : Fin cfg3.N) (s : Fin 2) (ht : t.val = s.val + 0) (r : Fin 1024) (q : Fin 512) :
    iblk3 V c 2 t (ix2 r q) = V c main_v45 (ix2 r (⟨512 * s.val + q.val, by have := s.isLt; have := q.isLt; omega⟩ : Fin 1024)) := by
  unfold iblk3
  show V c main_v45 (((cfg3.win 2).blk t).view.emb (ix2 r q)) = _
  refine congrArg (V c main_v45) ?_
  have hs := s.isLt
  obtain ⟨e0, e1, e2, e3, e4, e5⟩ := idx3_t0 t (by omega) (by omega)
  funext a; apply Fin.ext
  match a with
  | ⟨0, _⟩ => show win3_2.index t (0 : Fin 2) * 1024 + 1 * r.val = r.val; omega
  | ⟨1, _⟩ => show win3_2.index t (1 : Fin 2) * 512 + 1 * q.val = 512 * s.val + q.val; omega

theorem blk3_3 (c : Dev nD) (t : Fin cfg3.N) (s : Fin 16) (ht : t.val = s.val + 2) (r : Fin 64) (q : Fin 512) :
    iblk3 V c 3 t (ix2 r q) = V c main_arg1 (ix2 r (⟨512 * s.val + q.val, by have := s.isLt; have := q.isLt; omega⟩ : Fin 8192)) := by
  unfold iblk3
  show V c main_arg1 (((cfg3.win 3).blk t).view.emb (ix2 r q)) = _
  refine congrArg (V c main_arg1) ?_
  have hs := s.isLt
  obtain ⟨e0, e1, e2, e3, e4, e5⟩ := idx3_t1 t (by omega) (by omega)
  funext a; apply Fin.ext
  match a with
  | ⟨0, _⟩ => show win3_3.index t (0 : Fin 2) * 64 + 1 * r.val = r.val; omega
  | ⟨1, _⟩ => show win3_3.index t (1 : Fin 2) * 512 + 1 * q.val = 512 * s.val + q.val; omega

theorem blk3_4 (c : Dev nD) (t : Fin cfg3.N) (s : Fin 16) (ht : t.val = s.val + 2) (r : Fin 1024) (q : Fin 512) :
    iblk3 V c 4 t (ix2 r q) = V c main_v47 (ix2 r (⟨512 * s.val + q.val, by have := s.isLt; have := q.isLt; omega⟩ : Fin 8192)) := by
  unfold iblk3
  show V c main_v47 (((cfg3.win 4).blk t).view.emb (ix2 r q)) = _
  refine congrArg (V c main_v47) ?_
  have hs := s.isLt
  obtain ⟨e0, e1, e2, e3, e4, e5⟩ := idx3_t1 t (by omega) (by omega)
  funext a; apply Fin.ext
  match a with
  | ⟨0, _⟩ => show win3_4.index t (0 : Fin 2) * 1024 + 1 * r.val = r.val; omega
  | ⟨1, _⟩ => show win3_4.index t (1 : Fin 2) * 512 + 1 * q.val = 512 * s.val + q.val; omega

theorem blk3_5 (c : Dev nD) (t : Fin cfg3.N) (s : Fin 16) (ht : t.val = s.val + 2) (r : Fin 1024) (q : Fin 512) :
    iblk3 V c 5 t (ix2 r q) = V c main_v49 (ix2 r (⟨512 * s.val + q.val, by have := s.isLt; have := q.isLt; omega⟩ : Fin 8192)) := by
  unfold iblk3
  show V c main_v49 (((cfg3.win 5).blk t).view.emb (ix2 r q)) = _
  refine congrArg (V c main_v49) ?_
  have hs := s.isLt
  obtain ⟨e0, e1, e2, e3, e4, e5⟩ := idx3_t1 t (by omega) (by omega)
  funext a; apply Fin.ext
  match a with
  | ⟨0, _⟩ => show win3_5.index t (0 : Fin 2) * 1024 + 1 * r.val = r.val; omega
  | ⟨1, _⟩ => show win3_5.index t (1 : Fin 2) * 512 + 1 * q.val = 512 * s.val + q.val; omega

theorem blk3_6 (c : Dev nD) (t : Fin cfg3.N) (s : Fin 14) (ht : t.val = s.val + 18) (r : Fin 64) (q : Fin 512) :
    iblk3 V c 6 t (ix2 r q) = V c main_v41 (ix2 r (⟨512 * s.val + q.val, by have := s.isLt; have := q.isLt; omega⟩ : Fin 7168)) := by
  unfold iblk3
  show V c main_v41 (((cfg3.win 6).blk t).view.emb (ix2 r q)) = _
  refine congrArg (V c main_v41) ?_
  have hs := s.isLt
  obtain ⟨e0, e1, e2, e3, e4, e5⟩ := idx3_t2 t (by omega) (by omega)
  funext a; apply Fin.ext
  match a with
  | ⟨0, _⟩ => show win3_6.index t (0 : Fin 2) * 64 + 1 * r.val = r.val; omega
  | ⟨1, _⟩ => show win3_6.index t (1 : Fin 2) * 512 + 1 * q.val = 512 * s.val + q.val; omega

theorem blk3_7 (c : Dev nD) (t : Fin cfg3.N) (s : Fin 14) (ht : t.val = s.val + 18) (r : Fin 1024) (q : Fin 512) :
    iblk3 V c 7 t (ix2 r q) = V c main_v51 (ix2 r (⟨512 * s.val + q.val, by have := s.isLt; have := q.isLt; omega⟩ : Fin 7168)) := by
  unfold iblk3
  show V c main_v51 (((cfg3.win 7).blk t).view.emb (ix2 r q)) = _
  refine congrArg (V c main_v51) ?_
  have hs := s.isLt
  obtain ⟨e0, e1, e2, e3, e4, e5⟩ := idx3_t2 t (by omega) (by omega)
  funext a; apply Fin.ext
  match a with
  | ⟨0, _⟩ => show win3_7.index t (0 : Fin 2) * 1024 + 1 * r.val = r.val; omega
  | ⟨1, _⟩ => show win3_7.index t (1 : Fin 2) * 512 + 1 * q.val = 512 * s.val + q.val; omega

theorem blk3_8 (c : Dev nD) (t : Fin cfg3.N) (s : Fin 14) (ht : t.val = s.val + 18) (r : Fin 1024) (q : Fin 512) :
    iblk3 V c 8 t (ix2 r q) = V c main_v53 (ix2 r (⟨512 * s.val + q.val, by have := s.isLt; have := q.isLt; omega⟩ : Fin 7168)) := by
  unfold iblk3
  show V c main_v53 (((cfg3.win 8).blk t).view.emb (ix2 r q)) = _
  refine congrArg (V c main_v53) ?_
  have hs := s.isLt
  obtain ⟨e0, e1, e2, e3, e4, e5⟩ := idx3_t2 t (by omega) (by omega)
  funext a; apply Fin.ext
  match a with
  | ⟨0, _⟩ => show win3_8.index t (0 : Fin 2) * 1024 + 1 * r.val = r.val; omega
  | ⟨1, _⟩ => show win3_8.index t (1 : Fin 2) * 512 + 1 * q.val = 512 * s.val + q.val; omega

theorem blk3_9 (c : Dev nD) (t : Fin cfg3.N) (o : Fin 1024) :
    iblk3 V c 9 t (ix2 (0 : Fin 1) o) = V c main_v56 (ix2 (0 : Fin 1) o) := by
  unfold iblk3
  show V c main_v56 (((cfg3.win 9).blk t).view.emb (ix2 (0 : Fin 1) o)) = _
  refine congrArg (V c main_v56) ?_
  obtain ⟨e0, e1⟩ := idx3_b t
  funext a; apply Fin.ext
  match a with
  | ⟨0, _⟩ => show win3_9.index t (0 : Fin 2) * 1 + 1 * (0 : Fin 1).val = (0 : Fin 1).val; omega
  | ⟨1, _⟩ => show win3_9.index t (1 : Fin 2) * 1024 + 1 * o.val = o.val; omega

/-! ## The payloads at an index -/

theorem pay3_1_apply (j : S64x1024.Idx) : k3_pay1 (F := Ideal) j = 0 := by
  unfold k3_pay1
  simp only [shapeCast_self]
  show Ideal.ofBits .f32 0x00000000#32 = 0
  exact Ideal.ofBits_zero_f32

theorem pay3_2_apply (x : Vec Ideal S64x512 .f32) (w m : Vec Ideal S1024x512 .f32) (prev : Vec Ideal S64x1024 .f32) (b : Fin 64) (o : Fin 1024) :
    k3_pay2 x w m prev (ix2 b o) = prev (ix2 b o) + ∑ q : Fin 512, x (ix2 b q) * (w (ix2 o q) * m (ix2 o q)) := by
  unfold k3_pay2
  simp only [shapeCast_self]
  exact HandV.tile_apply x w m prev b o

theorem pay3_3_apply (x : Vec Ideal S64x512 .f32) (w m : Vec Ideal S1024x512 .f32) (prev : Vec Ideal S64x1024 .f32) (b : Fin 64) (o : Fin 1024) :
    k3_pay3 x w m prev (ix2 b o) = prev (ix2 b o) + ∑ q : Fin 512, x (ix2 b q) * (w (ix2 o q) * m (ix2 o q)) := by
  unfold k3_pay3
  simp only [shapeCast_self]
  exact HandV.tile_apply x w m prev b o

theorem pay3_4_apply (x : Vec Ideal S64x512 .f32) (w m : Vec Ideal S1024x512 .f32) (prev : Vec Ideal S64x1024 .f32) (b : Fin 64) (o : Fin 1024) :
    k3_pay4 x w m prev (ix2 b o) = prev (ix2 b o) + ∑ q : Fin 512, x (ix2 b q) * (w (ix2 o q) * m (ix2 o q)) := by
  unfold k3_pay4
  simp only [shapeCast_self]
  exact HandV.tile_apply x w m prev b o

theorem pay3_5_apply (a : Vec Ideal S64x1024 .f32) (bias : Vec Ideal S1x1024 .f32) (b : Fin 64) (o : Fin 1024) :
    k3_pay5 a bias (ix2 b o) = Ideal.logistic (a (ix2 b o) + bias (ix2 (0 : Fin 1) o)) := by
  unfold k3_pay5
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a3_0 (c : Dev nD) : S64x1024.Idx → EReal := V c main_v39
abbrev a3_1 (c : Dev nD) : S1024x1024.Idx → EReal := V c main_v43
abbrev a3_2 (c : Dev nD) : S1024x1024.Idx → EReal := V c main_v45
abbrev a3_3 (c : Dev nD) : S64x8192.Idx → EReal := V c main_arg1
abbrev a3_4 (c : Dev nD) : S1024x8192.Idx → EReal := V c main_v47
abbrev a3_5 (c : Dev nD) : S1024x8192.Idx → EReal := V c main_v49
abbrev a3_6 (c : Dev nD) : S64x7168.Idx → EReal := V c main_v41
abbrev a3_7 (c : Dev nD) : S1024x7168.Idx → EReal := V c main_v51
abbrev a3_8 (c : Dev nD) : S1024x7168.Idx → EReal := V c main_v53
abbrev a3_9 (c : Dev nD) : S1x1024.Idx → EReal := V c main_v56

/-- Term 0's tile `s`: columns 512·s … of its left array against the same columns of weight · mask. -/
def tile3_0 (c : Dev nD) (s : Fin 2) (b : Fin 64) (o : Fin 1024) : EReal :=
  ∑ q : Fin 512, a3_0 V c (ix2 b (⟨512 * s.val + q.val, by have := s.isLt; have := q.isLt; omega⟩ : Fin 1024)) * (a3_1 V c (ix2 o (⟨512 * s.val + q.val, by have := s.isLt; have := q.isLt; omega⟩ : Fin 1024)) * a3_2 V c (ix2 o (⟨512 * s.val + q.val, by have := s.isLt; have := q.isLt; omega⟩ : Fin 1024)))
/-- The same over the naturals, zero past the term's last tile. -/
def tileN3_0 (c : Dev nD) (s : ℕ) (b : Fin 64) (o : Fin 1024) : EReal :=
  if h : s < 2 then tile3_0 V c ⟨s, h⟩ b o else 0
theorem tileN3_0_zero (c : Dev nD) (b : Fin 64) (o : Fin 1024) : ∀ s, 2 ≤ s → tileN3_0 V c s b o = 0 :=
  fun s h => dif_neg (by omega)
/-- Term 0 whole. -/
def whole3_0 (c : Dev nD) (b : Fin 64) (o : Fin 1024) : EReal :=
  ∑ n : Fin 1024, a3_0 V c (ix2 b n) * (a3_1 V c (ix2 o n) * a3_2 V c (ix2 o n))
theorem sum3_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles3_0 (c : Dev nD) (b : Fin 64) (o : Fin 1024) (x : ℕ) (hx : 2 ≤ x) :
    ∑ s ∈ Finset.range x, tileN3_0 V c s b o = whole3_0 V c b o := by
  rw [Cert.LibPaddedSums.pad (fun s => tileN3_0 V c s b o) 2 (tileN3_0_zero V c b o) x hx,
    Cert.LibPaddedSums.range_eq_fin 2 (fun s => tile3_0 V c s b o) (fun s => tileN3_0 V c s b o) (fun s => dif_pos s.isLt)]
  unfold whole3_0
  rw [sum3_0]
  rfl

/-- Term 1's tile `s`: columns 512·s … of its left array against the same columns of weight · mask. -/
def tile3_1 (c : Dev nD) (s : Fin 16) (b : Fin 64) (o : Fin 1024) : EReal :=
  ∑ q : Fin 512, a3_3 V c (ix2 b (⟨512 * s.val + q.val, by have := s.isLt; have := q.isLt; omega⟩ : Fin 8192)) * (a3_4 V c (ix2 o (⟨512 * s.val + q.val, by have := s.isLt; have := q.isLt; omega⟩ : Fin 8192)) * a3_5 V c (ix2 o (⟨512 * s.val + q.val, by have := s.isLt; have := q.isLt; omega⟩ : Fin 8192)))
/-- The same over the naturals, zero past the term's last tile. -/
def tileN3_1 (c : Dev nD) (s : ℕ) (b : Fin 64) (o : Fin 1024) : EReal :=
  if h : s < 16 then tile3_1 V c ⟨s, h⟩ b o else 0
theorem tileN3_1_zero (c : Dev nD) (b : Fin 64) (o : Fin 1024) : ∀ s, 16 ≤ s → tileN3_1 V c s b o = 0 :=
  fun s h => dif_neg (by omega)
/-- Term 1 whole. -/
def whole3_1 (c : Dev nD) (b : Fin 64) (o : Fin 1024) : EReal :=
  ∑ n : Fin 8192, a3_3 V c (ix2 b n) * (a3_4 V c (ix2 o n) * a3_5 V c (ix2 o n))
theorem sum3_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles3_1 (c : Dev nD) (b : Fin 64) (o : Fin 1024) (x : ℕ) (hx : 16 ≤ x) :
    ∑ s ∈ Finset.range x, tileN3_1 V c s b o = whole3_1 V c b o := by
  rw [Cert.LibPaddedSums.pad (fun s => tileN3_1 V c s b o) 16 (tileN3_1_zero V c b o) x hx,
    Cert.LibPaddedSums.range_eq_fin 16 (fun s => tile3_1 V c s b o) (fun s => tileN3_1 V c s b o) (fun s => dif_pos s.isLt)]
  unfold whole3_1
  rw [sum3_1]
  rfl

/-- Term 2's tile `s`: columns 512·s … of its left array against the same columns of weight · mask. -/
def tile3_2 (c : Dev nD) (s : Fin 14) (b : Fin 64) (o : Fin 1024) : EReal :=
  ∑ q : Fin 512, a3_6 V c (ix2 b (⟨512 * s.val + q.val, by have := s.isLt; have := q.isLt; omega⟩ : Fin 7168)) * (a3_7 V c (ix2 o (⟨512 * s.val + q.val, by have := s.isLt; have := q.isLt; omega⟩ : Fin 7168)) * a3_8 V c (ix2 o (⟨512 * s.val + q.val, by have := s.isLt; have := q.isLt; omega⟩ : Fin 7168)))
/-- The same over the naturals, zero past the term's last tile. -/
def tileN3_2 (c : Dev nD) (s : ℕ) (b : Fin 64) (o : Fin 1024) : EReal :=
  if h : s < 14 then tile3_2 V c ⟨s, h⟩ b o else 0
theorem tileN3_2_zero (c : Dev nD) (b : Fin 64) (o : Fin 1024) : ∀ s, 14 ≤ s → tileN3_2 V c s b o = 0 :=
  fun s h => dif_neg (by omega)
/-- Term 2 whole. -/
def whole3_2 (c : Dev nD) (b : Fin 64) (o : Fin 1024) : EReal :=
  ∑ n : Fin 7168, a3_6 V c (ix2 b n) * (a3_7 V c (ix2 o n) * a3_8 V c (ix2 o n))
theorem sum3_2 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles3_2 (c : Dev nD) (b : Fin 64) (o : Fin 1024) (x : ℕ) (hx : 14 ≤ x) :
    ∑ s ∈ Finset.range x, tileN3_2 V c s b o = whole3_2 V c b o := by
  rw [Cert.LibPaddedSums.pad (fun s => tileN3_2 V c s b o) 14 (tileN3_2_zero V c b o) x hx,
    Cert.LibPaddedSums.range_eq_fin 14 (fun s => tile3_2 V c s b o) (fun s => tileN3_2 V c s b o) (fun s => dif_pos s.isLt)]
  unfold whole3_2
  rw [sum3_2]
  rfl

/-! ## The accumulator after each point -/

set_option maxHeartbeats 4000000 in
theorem acc3_apply (c : Dev nD) (b : Fin 64) (o : Fin 1024) : ∀ (n : ℕ) (hn : n < cfg3.N),
    (outsAt3 V c n hn).2 (ix2 b o) = ∑ s ∈ Finset.range (n + 1 - 0), tileN3_0 V c s b o + ∑ s ∈ Finset.range (n + 1 - 2), tileN3_1 V c s b o + ∑ s ∈ Finset.range (n + 1 - 18), tileN3_2 V c s b o
  | 0, hn => by
    rw [show (outsAt3 V c 0 hn).2 = _ from step3_A V c ⟨0, hn⟩ rfl]
    rw [pay3_2_apply, pay3_1_apply, zero_add]
    rw [show (0 + 1 - 0) = 1 from rfl, Finset.sum_range_one, show (0 + 1 - 2) = 0 from rfl, Finset.range_zero, Finset.sum_empty, Finset.sum_empty, add_zero, add_zero]
    unfold tileN3_0
    rw [dif_pos (show 0 < 2 by decide)]
    unfold tile3_0
    refine Finset.sum_congr rfl fun q _ => ?_
    rw [blk3_0 V c ⟨0, hn⟩ ⟨0, by decide⟩ rfl, blk3_1 V c ⟨0, hn⟩ ⟨0, by decide⟩ rfl, blk3_2 V c ⟨0, hn⟩ ⟨0, by decide⟩ rfl]
  | n + 1, hn => by
    have hN : n + 1 < 32 := lt_of_lt_of_eq hn (show cfg3.N = 32 from N_3)
    have ih := acc3_apply c b o n (Nat.lt_of_succ_lt hn)
    by_cases h0 : n + 1 = 31
    · have hstep : (outsAt3 V c (n + 1) hn).2 = k3_pay4 (iblk3 V c 6 ⟨n + 1, hn⟩) (iblk3 V c 7 ⟨n + 1, hn⟩) (iblk3 V c 8 ⟨n + 1, hn⟩) (outsAt3 V c n (Nat.lt_of_succ_lt hn)).2 :=
        step3_Z V c ⟨n + 1, hn⟩ (Nat.succ_ne_zero n) h0
      have htile : ∑ q : Fin 512, tb3_6 V c ⟨n + 1, hn⟩ (ix2 b q) * (tb3_7 V c ⟨n + 1, hn⟩ (ix2 o q) * tb3_8 V c ⟨n + 1, hn⟩ (ix2 o q)) = tileN3_2 V c (n + 1 - 18) b o := by
        dsimp only [tb3_6, tb3_7, tb3_8]
        unfold tileN3_2
        rw [dif_pos (show n + 1 - 18 < 14 by omega)]
        unfold tile3_2
        refine Finset.sum_congr rfl fun q _ => ?_
        rw [blk3_6 V c ⟨n + 1, hn⟩ ⟨n + 1 - 18, by omega⟩ (by show n + 1 = n + 1 - 18 + 18; omega), blk3_7 V c ⟨n + 1, hn⟩ ⟨n + 1 - 18, by omega⟩ (by show n + 1 = n + 1 - 18 + 18; omega), blk3_8 V c ⟨n + 1, hn⟩ ⟨n + 1 - 18, by omega⟩ (by show n + 1 = n + 1 - 18 + 18; omega)]
      rw [hstep, pay3_4_apply, ih, htile]
      rw [Cert.LibPaddedSums.step_inactive (fun s => tileN3_0 V c s b o) 2 0 n (tileN3_0_zero V c b o) (by omega),
        Cert.LibPaddedSums.step_inactive (fun s => tileN3_1 V c s b o) 16 2 n (tileN3_1_zero V c b o) (by omega),
        Cert.LibPaddedSums.step_active (fun s => tileN3_2 V c s b o) 18 n (by omega)]
      ac_rfl
    by_cases h1 : n + 1 = 1
    · have hstep : (outsAt3 V c (n + 1) hn).2 = k3_pay2 (iblk3 V c 0 ⟨n + 1, hn⟩) (iblk3 V c 1 ⟨n + 1, hn⟩) (iblk3 V c 2 ⟨n + 1, hn⟩) (outsAt3 V c n (Nat.lt_of_succ_lt hn)).2 :=
        step3_B V c ⟨n + 1, hn⟩ (Nat.succ_ne_zero n) h0 h1
      have htile : ∑ q : Fin 512, tb3_0 V c ⟨n + 1, hn⟩ (ix2 b q) * (tb3_1 V c ⟨n + 1, hn⟩ (ix2 o q) * tb3_2 V c ⟨n + 1, hn⟩ (ix2 o q)) = tileN3_0 V c (n + 1 - 0) b o := by
        dsimp only [tb3_0, tb3_1, tb3_2]
        unfold tileN3_0
        rw [dif_pos (show n + 1 - 0 < 2 by omega)]
        unfold tile3_0
        refine Finset.sum_congr rfl fun q _ => ?_
        rw [blk3_0 V c ⟨n + 1, hn⟩ ⟨n + 1 - 0, by omega⟩ (by show n + 1 = n + 1 - 0 + 0; omega), blk3_1 V c ⟨n + 1, hn⟩ ⟨n + 1 - 0, by omega⟩ (by show n + 1 = n + 1 - 0 + 0; omega), blk3_2 V c ⟨n + 1, hn⟩ ⟨n + 1 - 0, by omega⟩ (by show n + 1 = n + 1 - 0 + 0; omega)]
      rw [hstep, pay3_2_apply, ih, htile]
      rw [Cert.LibPaddedSums.step_active (fun s => tileN3_0 V c s b o) 0 n (by omega),
        Cert.LibPaddedSums.step_inactive (fun s => tileN3_1 V c s b o) 16 2 n (tileN3_1_zero V c b o) (by omega),
        Cert.LibPaddedSums.step_inactive (fun s => tileN3_2 V c s b o) 14 18 n (tileN3_2_zero V c b o) (by omega)]
      ac_rfl
    by_cases h2 : (2 ≤ n + 1 ∧ n + 1 ≤ 17)
    · have hstep : (outsAt3 V c (n + 1) hn).2 = k3_pay3 (iblk3 V c 3 ⟨n + 1, hn⟩) (iblk3 V c 4 ⟨n + 1, hn⟩) (iblk3 V c 5 ⟨n + 1, hn⟩) (outsAt3 V c n (Nat.lt_of_succ_lt hn)).2 :=
        step3_C V c ⟨n + 1, hn⟩ (Nat.succ_ne_zero n) h0 h1 h2
      have htile : ∑ q : Fin 512, tb3_3 V c ⟨n + 1, hn⟩ (ix2 b q) * (tb3_4 V c ⟨n + 1, hn⟩ (ix2 o q) * tb3_5 V c ⟨n + 1, hn⟩ (ix2 o q)) = tileN3_1 V c (n + 1 - 2) b o := by
        dsimp only [tb3_3, tb3_4, tb3_5]
        unfold tileN3_1
        rw [dif_pos (show n + 1 - 2 < 16 by omega)]
        unfold tile3_1
        refine Finset.sum_congr rfl fun q _ => ?_
        rw [blk3_3 V c ⟨n + 1, hn⟩ ⟨n + 1 - 2, by omega⟩ (by show n + 1 = n + 1 - 2 + 2; omega), blk3_4 V c ⟨n + 1, hn⟩ ⟨n + 1 - 2, by omega⟩ (by show n + 1 = n + 1 - 2 + 2; omega), blk3_5 V c ⟨n + 1, hn⟩ ⟨n + 1 - 2, by omega⟩ (by show n + 1 = n + 1 - 2 + 2; omega)]
      rw [hstep, pay3_3_apply, ih, htile]
      rw [Cert.LibPaddedSums.step_inactive (fun s => tileN3_0 V c s b o) 2 0 n (tileN3_0_zero V c b o) (by omega),
        Cert.LibPaddedSums.step_active (fun s => tileN3_1 V c s b o) 2 n (by omega),
        Cert.LibPaddedSums.step_inactive (fun s => tileN3_2 V c s b o) 14 18 n (tileN3_2_zero V c b o) (by omega)]
      ac_rfl
    · have hstep : (outsAt3 V c (n + 1) hn).2 = k3_pay4 (iblk3 V c 6 ⟨n + 1, hn⟩) (iblk3 V c 7 ⟨n + 1, hn⟩) (iblk3 V c 8 ⟨n + 1, hn⟩) (outsAt3 V c n (Nat.lt_of_succ_lt hn)).2 :=
        step3_D V c ⟨n + 1, hn⟩ (Nat.succ_ne_zero n) h0 h1 h2
      have htile : ∑ q : Fin 512, tb3_6 V c ⟨n + 1, hn⟩ (ix2 b q) * (tb3_7 V c ⟨n + 1, hn⟩ (ix2 o q) * tb3_8 V c ⟨n + 1, hn⟩ (ix2 o q)) = tileN3_2 V c (n + 1 - 18) b o := by
        dsimp only [tb3_6, tb3_7, tb3_8]
        unfold tileN3_2
        rw [dif_pos (show n + 1 - 18 < 14 by omega)]
        unfold tile3_2
        refine Finset.sum_congr rfl fun q _ => ?_
        rw [blk3_6 V c ⟨n + 1, hn⟩ ⟨n + 1 - 18, by omega⟩ (by show n + 1 = n + 1 - 18 + 18; omega), blk3_7 V c ⟨n + 1, hn⟩ ⟨n + 1 - 18, by omega⟩ (by show n + 1 = n + 1 - 18 + 18; omega), blk3_8 V c ⟨n + 1, hn⟩ ⟨n + 1 - 18, by omega⟩ (by show n + 1 = n + 1 - 18 + 18; omega)]
      rw [hstep, pay3_4_apply, ih, htile]
      rw [Cert.LibPaddedSums.step_inactive (fun s => tileN3_0 V c s b o) 2 0 n (tileN3_0_zero V c b o) (by omega),
        Cert.LibPaddedSums.step_inactive (fun s => tileN3_1 V c s b o) 16 2 n (tileN3_1_zero V c b o) (by omega),
        Cert.LibPaddedSums.step_active (fun s => tileN3_2 V c s b o) 18 n (by omega)]
      ac_rfl

/-! ## The region's result -/

theorem hlast3 : 31 < cfg3.N := by rw [show cfg3.N = 32 from N_3]; decide

set_option maxHeartbeats 2000000 in
theorem out3_apply (c : Dev nD) (b : Fin 64) (o : Fin 1024) :
    (outsAt3 V c 31 hlast3).1 (ix2 b o) = Ideal.logistic ((whole3_0 V c b o + whole3_1 V c b o + whole3_2 V c b o) + a3_9 V c (ix2 (0 : Fin 1) o)) := by
  rw [show (outsAt3 V c 31 hlast3).1 = _ from last3 V c ⟨31, hlast3⟩ (by show (31 : ℕ) ≠ 0; decide) rfl]
  rw [← show (outsAt3 V c 31 hlast3).2 = _ from step3_Z V c ⟨31, hlast3⟩ (by show (31 : ℕ) ≠ 0; decide) rfl]
  rw [pay3_5_apply, acc3_apply V c b o 31 hlast3, blk3_9]
  rw [tiles3_0 V c b o (31 + 1 - 0) (by decide), tiles3_1 V c b o (31 + 1 - 2) (by decide), tiles3_2 V c b o (31 + 1 - 18) (by decide)]

/-- What region 3 leaves in its output array: the last point's buffer, written back whole. -/
def G3 (c : Dev nD) : S64x1024.Idx → EReal := (outsAt3 V c 31 hlast3).1

theorem emb3_out (t : Fin cfg3.N) (y : S64x1024.Idx) : ((cfg3.win 10).blk t).view.emb y = y := by
  obtain ⟨e0, e1⟩ := idx3_out t
  funext a; apply Fin.ext
  match a with
  | ⟨0, _⟩ => show win3_10.index t (0 : Fin 2) * 64 + 1 * (y 0).val = (y 0).val; omega
  | ⟨1, _⟩ => show win3_10.index t (1 : Fin 2) * 1024 + 1 * (y 1).val = (y 1).val; omega

theorem flushed3_eq (c : Dev nD) (t : Fin cfg3.N) (hf : (cfg3.win 10).flush t = true) :
    (dat3 V c).flushed 10 t = ((cfg3.win 10).blk t).view.read (Elt Ideal) (G3 V c) := by
  have ht : t.val = 31 := by
    have h1 := (flush3_10 t).mp hf
    have h2 : t.val < 32 := lt_of_lt_of_eq t.isLt (show cfg3.N = 32 from N_3)
    omega
  have ht' : t = ⟨31, hlast3⟩ := Fin.ext ht
  subst ht'
  show (cfg3.win 10).cut (grid3.coords ⟨31, hlast3⟩) ((dat3 V c).after 10 ⟨31, hlast3⟩) = _
  rw [after3_10]
  funext y
  show (outsAt3 V c 31 hlast3).1 y = G3 V c (((cfg3.win 10).blk ⟨31, hlast3⟩).view.emb y)
  rw [emb3_out]
  rfl

theorem mem_blk3_out (t : Fin cfg3.N) (i : S64x1024.Idx) :
    i ∈ ((cfg3.win 10).blk t).view.set ↔ ∀ a : Fin 2, win3_10.index t a * S64x1024.size a ≤ (i a).val ∧ (i a).val < win3_10.index t a * S64x1024.size a + S64x1024.size a := by
  show i ∈ ((View.whole main_v57).slice (win3_10.rect t)).set ↔ _
  rw [View.set_slice_whole, Rect.mem_set_unit]
  exact Iff.rfl

theorem final3 (c : Dev nD) : (dat3 V c).arrAt 10 cfg3.N = G3 V c :=
  (dat3 V c).arrAt_eq_of_cover 10 (G3 V c) (fun t hf => flushed3_eq V c t hf) (fun i =>
    ⟨⟨31, hlast3⟩, (flush3_10 ⟨31, hlast3⟩).mpr (by show 31 % 32 = 31; decide), by
      rw [mem_blk3_out]
      obtain ⟨e0, e1⟩ := idx3_out ⟨31, hlast3⟩
      intro a
      match a with
      | ⟨0, _⟩ => show win3_10.index ⟨31, hlast3⟩ (0 : Fin 2) * 64 ≤ (i 0).val ∧ (i 0).val < win3_10.index ⟨31, hlast3⟩ (0 : Fin 2) * 64 + 64; have hi : (i 0).val < 64 := (i 0).isLt; omega
      | ⟨1, _⟩ => show win3_10.index ⟨31, hlast3⟩ (1 : Fin 2) * 1024 ≤ (i 1).val ∧ (i 1).val < win3_10.index ⟨31, hlast3⟩ (1 : Fin 2) * 1024 + 1024; have hi : (i 1).val < 1024 := (i 1).isLt; omega⟩)

/-- Region 3's output array at an index. -/
theorem final3_apply (c : Dev nD) (b : Fin 64) (o : Fin 1024) :
    (dat3 V c).arrAt 10 cfg3.N (ix2 b o) = Ideal.logistic ((whole3_0 V c b o + whole3_1 V c b o + whole3_2 V c b o) + a3_9 V c (ix2 (0 : Fin 1) o)) :=
  (congrFun (final3 V c) (ix2 b o)).trans (out3_apply V c b o)

end Cert.KernelIdeal.Hand

end
-- ==== Proof.Bridge.L3.lean ====
/- Layer 3, the two sides joined: given the previous layer's equality, the buffer of earlier outputs agrees (the same scatter of equal arrays),
   every array region 3 stages is the reference's, and the two layer formulas differ only in the order of their additions. -/
import proofs.«164445_j37684043055467_1_alg».proof.Proof.KI.V3
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 3. -/
theorem skips3 (hA : Agree m m') (c : Dev Cert.KernelIdeal.nD)
    (hC : (Cert.KernelIdeal.Hand.o6 m c : Cert.KernelIdeal.S64x1024.Idx → EReal) = (Cert.ReferenceIdeal.Value.res_main_v83 (StableHlo.launchContents m' c)))
    (hS : (Cert.KernelIdeal.Hand.E5 m c Cert.KernelIdeal.main_v23 : Cert.KernelIdeal.S64x7168.Idx → EReal) = (Cert.ReferenceIdeal.Value.res_main_v49 (StableHlo.launchContents m' c))) :
    (Cert.KernelIdeal.Hand.E7 m c Cert.KernelIdeal.main_v41 : Cert.KernelIdeal.S64x7168.Idx → EReal) = (Cert.ReferenceIdeal.Value.res_main_v85 (StableHlo.launchContents m' c)) := by
  rw [Cert.KernelIdeal.Hand.B3_main_v41 m c]
  rw [show (Cert.KernelIdeal.Hand.E6 m c Cert.KernelIdeal.main_v39 : Cert.KernelIdeal.S64x1024.Idx → EReal) = (Cert.ReferenceIdeal.Value.res_main_v83 (StableHlo.launchContents m' c)) from (Cert.KernelIdeal.Hand.U6_out m c).trans hC]
  rw [show (Cert.KernelIdeal.Hand.E6 m c Cert.KernelIdeal.main_v23 : Cert.KernelIdeal.S64x7168.Idx → EReal) = (Cert.ReferenceIdeal.Value.res_main_v49 (StableHlo.launchContents m' c)) from (Cert.KernelIdeal.Hand.U6_ne m c Cert.KernelIdeal.main_v23 (by decide)).trans hS]
  rw [Cert.ReferenceIdeal.HandV.res85_eq]
  rfl

set_option maxHeartbeats 4000000 in
theorem layer3 (hA : Agree m m') (c : Dev Cert.KernelIdeal.nD)
    (hC : (Cert.KernelIdeal.Hand.o6 m c : Cert.KernelIdeal.S64x1024.Idx → EReal) = (Cert.ReferenceIdeal.Value.res_main_v83 (StableHlo.launchContents m' c)))
    (hS : (Cert.KernelIdeal.Hand.E7 m c Cert.KernelIdeal.main_v41 : Cert.KernelIdeal.S64x7168.Idx → EReal) = (Cert.ReferenceIdeal.Value.res_main_v85 (StableHlo.launchContents m' c))) :
    (Cert.KernelIdeal.Hand.o8 m c : Cert.KernelIdeal.S64x1024.Idx → EReal) = (Cert.ReferenceIdeal.Value.res_main_v119 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res119_apply]
  show (Cert.KernelIdeal.Hand.dat3 (Cert.KernelIdeal.Hand.E7 m) c).arrAt 10 Cert.KernelIdeal.cfg3.N (ix2 b o) = _
  rw [Cert.KernelIdeal.Hand.final3_apply]
  have e0 : Cert.KernelIdeal.Hand.a3_0 (Cert.KernelIdeal.Hand.E7 m) c = (Cert.ReferenceIdeal.Value.res_main_v83 (StableHlo.launchContents m' c)) := by
    show (Cert.KernelIdeal.Hand.E7 m c Cert.KernelIdeal.main_v39 : Cert.KernelIdeal.S64x1024.Idx → EReal) = _
    rw [Cert.KernelIdeal.Hand.keep7 m c Cert.KernelIdeal.main_v39 (by decide)]
    exact (Cert.KernelIdeal.Hand.U6_out m c).trans hC
  have e1 : Cert.KernelIdeal.Hand.a3_1 (Cert.KernelIdeal.Hand.E7 m) c = Cert.ReferenceIdeal.HandV.r_wh2 (StableHlo.launchContents m' c) := by
    show (Cert.KernelIdeal.Hand.E7 m c Cert.KernelIdeal.main_v43 : Cert.KernelIdeal.S1024x1024.Idx → EReal) = _
    rw [Cert.KernelIdeal.Hand.B3_main_v43 m c, Cert.KernelIdeal.Hand.U6_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a3_2 (Cert.KernelIdeal.Hand.E7 m) c = Cert.ReferenceIdeal.HandV.r_mh2 (StableHlo.launchContents m' c) := by
    show (Cert.KernelIdeal.Hand.E7 m c Cert.KernelIdeal.main_v45 : Cert.KernelIdeal.S1024x1024.Idx → EReal) = _
    rw [Cert.KernelIdeal.Hand.B3_main_v45 m c, Cert.KernelIdeal.Hand.U6_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a3_3 (Cert.KernelIdeal.Hand.E7 m) c = Cert.ReferenceIdeal.HandV.r_h (StableHlo.launchContents m' c) := by
    show (Cert.KernelIdeal.Hand.E7 m c Cert.KernelIdeal.main_arg1 : Cert.KernelIdeal.S64x8192.Idx → EReal) = _
    rw [Cert.KernelIdeal.Hand.U7_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a3_4 (Cert.KernelIdeal.Hand.E7 m) c = Cert.ReferenceIdeal.HandV.r_wr3 (StableHlo.launchContents m' c) := by
    show (Cert.KernelIdeal.Hand.E7 m c Cert.KernelIdeal.main_v47 : Cert.KernelIdeal.S1024x8192.Idx → EReal) = _
    rw [Cert.KernelIdeal.Hand.B3_main_v47 m c, Cert.KernelIdeal.Hand.U6_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a3_5 (Cert.KernelIdeal.Hand.E7 m) c = Cert.ReferenceIdeal.HandV.r_mr3 (StableHlo.launchContents m' c) := by
    show (Cert.KernelIdeal.Hand.E7 m c Cert.KernelIdeal.main_v49 : Cert.KernelIdeal.S1024x8192.Idx → EReal) = _
    rw [Cert.KernelIdeal.Hand.B3_main_v49 m c, Cert.KernelIdeal.Hand.U6_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have e6 : Cert.KernelIdeal.Hand.a3_6 (Cert.KernelIdeal.Hand.E7 m) c = (Cert.ReferenceIdeal.Value.res_main_v85 (StableHlo.launchContents m' c)) := hS
  have e7 : Cert.KernelIdeal.Hand.a3_7 (Cert.KernelIdeal.Hand.E7 m) c = Cert.ReferenceIdeal.HandV.r_ws1 (StableHlo.launchContents m' c) := by
    show (Cert.KernelIdeal.Hand.E7 m c Cert.KernelIdeal.main_v51 : Cert.KernelIdeal.S1024x7168.Idx → EReal) = _
    rw [Cert.KernelIdeal.Hand.B3_main_v51 m c, Cert.KernelIdeal.Hand.U6_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e8 : Cert.KernelIdeal.Hand.a3_8 (Cert.KernelIdeal.Hand.E7 m) c = Cert.ReferenceIdeal.HandV.r_ms1 (StableHlo.launchContents m' c) := by
    show (Cert.KernelIdeal.Hand.E7 m c Cert.KernelIdeal.main_v53 : Cert.KernelIdeal.S1024x7168.Idx → EReal) = _
    rw [Cert.KernelIdeal.Hand.B3_main_v53 m c, Cert.KernelIdeal.Hand.U6_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a3_9 (Cert.KernelIdeal.Hand.E7 m) c (ix2 (0 : Fin 1) o) = Cert.ReferenceIdeal.HandV.r_bh2 (StableHlo.launchContents m' c) (ix1 o) := by
    show (Cert.KernelIdeal.Hand.E7 m c Cert.KernelIdeal.main_v56 : Cert.KernelIdeal.S1x1024.Idx → EReal) (ix2 (0 : Fin 1) o) = _
    rw [congrFun (Cert.KernelIdeal.Hand.B3_main_v56 m c) (ix2 (0 : Fin 1) o), Cert.LibHostApply.shapeCast_row_apply, Cert.KernelIdeal.Hand.U6_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole3_0 Cert.KernelIdeal.Hand.whole3_1 Cert.KernelIdeal.Hand.whole3_2
  rw [e0, e1, e2, e3, e4, e5, e6, e7, e8, eb]
  refine congrArg Ideal.logistic ?_
  exact (add_right_comm _ _ _).trans (congrArg (· + _) (add_right_comm _ _ _))

end Cert.Proof.Bridge

end
-- ==== Proof.KI.R4Acc.lean ====
/- Region 4: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R4Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_4 : (![0, 0] : Fin 2 → Nat) = fun _ => 0 := funext fun a => by fin_cases a <;> rfl
local notation "hz2" => hz2_4

theorem sout4_A_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond4_1 i) (hc2 : cond4_2 i) (hc3 : ¬cond4_3 i) (hc4 : ¬cond4_4 i) (hc5 : ¬cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    sout4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 = k4_pay2 x1 x2 x3 (k4_pay1 (F := F)) := by
  unfold sout4_A
  rw [View.read_writes_eq_canon _ _ _ (scover4_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10)]
  unfold kernelRun4_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout4_Z_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k4_pay4 x7 x8 x9 xs := by
  unfold sout4_Z
  rw [View.read_writes_eq_canon _ _ _ (scover4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun4_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out4_Z_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    out4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k4_pay5 (k4_pay4 x7 x8 x9 xs) x10 := by
  unfold out4_Z
  rw [View.read_writes_eq_canon _ _ _ (cover4_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun4_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout4_B_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : cond4_2 i) (hc3 : ¬cond4_3 i) (hc4 : ¬cond4_4 i) (hc5 : ¬cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k4_pay2 x1 x2 x3 xs := by
  unfold sout4_B
  rw [View.read_writes_eq_canon _ _ _ (scover4_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun4_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout4_C_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : cond4_3 i) (hc4 : ¬cond4_4 i) (hc5 : ¬cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k4_pay3 x4 x5 x6 xs := by
  unfold sout4_C
  rw [View.read_writes_eq_canon _ _ _ (scover4_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun4_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout4_D_eq (c : Dev nD) (i : grid4.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond4_1 i) (hc2 : ¬cond4_2 i) (hc3 : ¬cond4_3 i) (hc4 : cond4_4 i) (hc5 : ¬cond4_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k4_pay4 x7 x8 x9 xs := by
  unfold sout4_D
  rw [View.read_writes_eq_canon _ _ _ (scover4_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun4_D
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step4_A (c : Dev nD) (t : Fin cfg4.N) (hz : t.val = 0) :
    (outsAt4 V c t.val t.isLt).2 = k4_pay2 (iblk4 V c 0 t) (iblk4 V c 1 t) (iblk4 V c 2 t) (k4_pay1 (F := F)) := by
  rw [outsAt4_A V c t hz]
  dsimp only
  exact sout4_A_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_A t hz).1) ((case4_A t hz).2.1) ((case4_A t hz).2.2.1) ((case4_A t hz).2.2.2.1) ((case4_A t hz).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)

set_option maxHeartbeats 2000000 in
theorem step4_Z (c : Dev nD) (t : Fin cfg4.N) (hz : t.val ≠ 0) (h0 : t.val = 31) :
    (outsAt4 V c t.val t.isLt).2 = k4_pay4 (iblk4 V c 6 t) (iblk4 V c 7 t) (iblk4 V c 8 t) (outsAt4 V c (t.val - 1) (Nat.lt_of_le_of_lt (Nat.sub_le _ _) t.isLt)).2 := by
  rw [outsAt4_Z V c t hz h0]
  dsimp only
  exact sout4_Z_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2

set_option maxHeartbeats 2000000 in
theorem last4 (c : Dev nD) (t : Fin cfg4.N) (hz : t.val ≠ 0) (h0 : t.val = 31) :
    (outsAt4 V c t.val t.isLt).1 = k4_pay5 (k4_pay4 (iblk4 V c 6 t) (iblk4 V c 7 t) (iblk4 V c 8 t) (outsAt4 V c (t.val - 1) (Nat.lt_of_le_of_lt (Nat.sub_le _ _) t.isLt)).2) (iblk4 V c 9 t) := by
  rw [outsAt4_Z V c t hz h0]
  dsimp only
  exact out4_Z_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_Z t hz h0).1) ((case4_Z t hz h0).2.1) ((case4_Z t hz h0).2.2.1) ((case4_Z t hz h0).2.2.2.1) ((case4_Z t hz h0).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2

set_option maxHeartbeats 2000000 in
theorem step4_B (c : Dev nD) (t : Fin cfg4.N) (hz : t.val ≠ 0) (h0 : ¬t.val = 31) (h1 : t.val = 1) :
    (outsAt4 V c t.val t.isLt).2 = k4_pay2 (iblk4 V c 0 t) (iblk4 V c 1 t) (iblk4 V c 2 t) (outsAt4 V c (t.val - 1) (Nat.lt_of_le_of_lt (Nat.sub_le _ _) t.isLt)).2 := by
  rw [outsAt4_B V c t hz h0 h1]
  dsimp only
  exact sout4_B_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_B t hz h0 h1).1) ((case4_B t hz h0 h1).2.1) ((case4_B t hz h0 h1).2.2.1) ((case4_B t hz h0 h1).2.2.2.1) ((case4_B t hz h0 h1).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2

set_option maxHeartbeats 2000000 in
theorem step4_C (c : Dev nD) (t : Fin cfg4.N) (hz : t.val ≠ 0) (h0 : ¬t.val = 31) (h1 : ¬t.val = 1) (h2 : (2 ≤ t.val ∧ t.val ≤ 17)) :
    (outsAt4 V c t.val t.isLt).2 = k4_pay3 (iblk4 V c 3 t) (iblk4 V c 4 t) (iblk4 V c 5 t) (outsAt4 V c (t.val - 1) (Nat.lt_of_le_of_lt (Nat.sub_le _ _) t.isLt)).2 := by
  rw [outsAt4_C V c t hz h0 h1 h2]
  dsimp only
  exact sout4_C_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_C t hz h0 h1 h2).1) ((case4_C t hz h0 h1 h2).2.1) ((case4_C t hz h0 h1 h2).2.2.1) ((case4_C t hz h0 h1 h2).2.2.2.1) ((case4_C t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2

set_option maxHeartbeats 2000000 in
theorem step4_D (c : Dev nD) (t : Fin cfg4.N) (hz : t.val ≠ 0) (h0 : ¬t.val = 31) (h1 : ¬t.val = 1) (h2 : ¬(2 ≤ t.val ∧ t.val ≤ 17)) :
    (outsAt4 V c t.val t.isLt).2 = k4_pay4 (iblk4 V c 6 t) (iblk4 V c 7 t) (iblk4 V c 8 t) (outsAt4 V c (t.val - 1) (Nat.lt_of_le_of_lt (Nat.sub_le _ _) t.isLt)).2 := by
  rw [outsAt4_D V c t hz h0 h1 h2]
  dsimp only
  exact sout4_D_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) scM4 (Memref.isWhole_whole _) ((case4_D t hz h0 h1 h2).1) ((case4_D t hz h0 h1 h2).2.1) ((case4_D t hz h0 h1 h2).2.2.1) ((case4_D t hz h0 h1 h2).2.2.2.1) ((case4_D t hz h0 h1 h2).2.2.2.2) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (outsAt4 V c (t.val - 1) (Nat.lt_of_le_of_lt (Nat.sub_le _ _) t.isLt)).2

end Cert.KernelIdeal.Hand

end
-- ==== Proof.KI.V4.lean ====
/- Region 4 at the ideal instance: each window's block read at an index of the array it stages; the accumulator after every point as the
   sum, over the region's 3 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R4Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx4_t0 : ∀ t : Fin cfg4.N, 0 ≤ t.val → t.val < 2 → win4_0.index t (0 : Fin 2) = 0 ∧ win4_0.index t (1 : Fin 2) = t.val - 0 ∧ win4_1.index t (0 : Fin 2) = 0 ∧ win4_1.index t (1 : Fin 2) = t.val - 0 ∧ win4_2.index t (0 : Fin 2) = 0 ∧ win4_2.index t (1 : Fin 2) = t.val - 0 :=
  (by decide +kernel : ∀ t : Fin grid4.N, 0 ≤ t.val → t.val < 2 → _)
theorem idx4_t1 : ∀ t : Fin cfg4.N, 2 ≤ t.val → t.val < 18 → win4_3.index t (0 : Fin 2) = 0 ∧ win4_3.index t (1 : Fin 2) = t.val - 2 ∧ win4_4.index t (0 : Fin 2) = 0 ∧ win4_4.index t (1 : Fin 2) = t.val - 2 ∧ win4_5.index t (0 : Fin 2) = 0 ∧ win4_5.index t (1 : Fin 2) = t.val - 2 :=
  (by decide +kernel : ∀ t : Fin grid4.N, 2 ≤ t.val → t.val < 18 → _)
theorem idx4_t2 : ∀ t : Fin cfg4.N, 18 ≤ t.val → t.val < 32 → win4_6.index t (0 : Fin 2) = 0 ∧ win4_6.index t (1 : Fin 2) = t.val - 18 ∧ win4_7.index t (0 : Fin 2) = 0 ∧ win4_7.index t (1 : Fin 2) = t.val - 18 ∧ win4_8.index t (0 : Fin 2) = 0 ∧ win4_8.index t (1 : Fin 2) = t.val - 18 :=
  (by decide +kernel : ∀ t : Fin grid4.N, 18 ≤ t.val → t.val < 32 → _)
theorem idx4_b : ∀ t : Fin cfg4.N, win4_9.index t (0 : Fin 2) = 0 ∧ win4_9.index t (1 : Fin 2) = 0 :=
  (by decide +kernel : ∀ t : Fin grid4.N, _)
theorem idx4_out : ∀ t : Fin cfg4.N, win4_10.index t (0 : Fin 2) = 0 ∧ win4_10.index t (1 : Fin 2) = 0 :=
  (by decide +kernel : ∀ t : Fin grid4.N, _)

/-! ## The windows' blocks at their literal shapes -/
abbrev tb4_0 (c : Dev nD) (t : Fin cfg4.N) : Vec Ideal S64x512 .f32 := iblk4 V c 0 t
abbrev tb4_1 (c : Dev nD) (t : Fin cfg4.N) : Vec Ideal S1024x512 .f32 := iblk4 V c 1 t
abbrev tb4_2 (c : Dev nD) (t : Fin cfg4.N) : Vec Ideal S1024x512 .f32 := iblk4 V c 2 t
abbrev tb4_3 (c : Dev nD) (t : Fin cfg4.N) : Vec Ideal S64x512 .f32 := iblk4 V c 3 t
abbrev tb4_4 (c : Dev nD) (t : Fin cfg4.N) : Vec Ideal S1024x512 .f32 := iblk4 V c 4 t
abbrev tb4_5 (c : Dev nD) (t : Fin cfg4.N) : Vec Ideal S1024x512 .f32 := iblk4 V c 5 t
abbrev tb4_6 (c : Dev nD) (t : Fin cfg4.N) : Vec Ideal S64x512 .f32 := iblk4 V c 6 t
abbrev tb4_7 (c : Dev nD) (t : Fin cfg4.N) : Vec Ideal S1024x512 .f32 := iblk4 V c 7 t
abbrev tb4_8 (c : Dev nD) (t : Fin cfg4.N) : Vec Ideal S1024x512 .f32 := iblk4 V c 8 t
abbrev tb4_9 (c : Dev nD) (t : Fin cfg4.N) : Vec Ideal S1x1024 .f32 := iblk4 V c 9 t

/-! ## The blocks -/

theorem blk4_0 (c : Dev nD) (t : Fin cfg4.N) (s : Fin 2) (ht : t.val = s.val + 0) (r : Fin 64) (q : Fin 512) :
    iblk4 V c 0 t (ix2 r q) = V c main_v57 (ix2 r (⟨512 * s.val + q.val, by have := s.isLt; have := q.isLt; omega⟩ : Fin 1024)) := by
  unfold iblk4
  show V c main_v57 (((cfg4.win 0).blk t).view.emb (ix2 r q)) = _
  refine congrArg (V c main_v57) ?_
  have hs := s.isLt
  obtain ⟨e0, e1, e2, e3, e4, e5⟩ := idx4_t0 t (by omega) (by omega)
  funext a; apply Fin.ext
  match a with
  | ⟨0, _⟩ => show win4_0.index t (0 : Fin 2) * 64 + 1 * r.val = r.val; omega
  | ⟨1, _⟩ => show win4_0.index t (1 : Fin 2) * 512 + 1 * q.val = 512 * s.val + q.val; omega

theorem blk4_1 (c : Dev nD) (t : Fin cfg4.N) (s : Fin 2) (ht : t.val = s.val + 0) (r : Fin 1024) (q : Fin 512) :
    iblk4 V c 1 t (ix2 r q) = V c main_v61 (ix2 r (⟨512 * s.val + q.val, by have := s.isLt; have := q.isLt; omega⟩ : Fin 1024)) := by
  unfold iblk4
  show V c main_v61 (((cfg4.win 1).blk t).view.emb (ix2 r q)) = _
  refine congrArg (V c main_v61) ?_
  have hs := s.isLt
  obtain ⟨e0, e1, e2, e3, e4, e5⟩ := idx4_t0 t (by omega) (by omega)
  funext a; apply Fin.ext
  match a with
  | ⟨0, _⟩ => show win4_1.index t (0 : Fin 2) * 1024 + 1 * r.val = r.val; omega
  | ⟨1, _⟩ => show win4_1.index t (1 : Fin 2) * 512 + 1 * q.val = 512 * s.val + q.val; omega

theorem blk4_2 (c : Dev nD) (t : Fin cfg4.N) (s : Fin 2) (ht : t.val = s.val + 0) (r : Fin 1024) (q : Fin 512) :
    iblk4 V c 2 t (ix2 r q) = V c main_v63 (ix2 r (⟨512 * s.val + q.val, by have := s.isLt; have := q.isLt; omega⟩ : Fin 1024)) := by
  unfold iblk4
  show V c main_v63 (((cfg4.win 2).blk t).view.emb (ix2 r q)) = _
  refine congrArg (V c main_v63) ?_
  have hs := s.isLt
  obtain ⟨e0, e1, e2, e3, e4, e5⟩ := idx4_t0 t (by omega) (by omega)
  funext a; apply Fin.ext
  match a with
  | ⟨0, _⟩ => show win4_2.index t (0 : Fin 2) * 1024 + 1 * r.val = r.val; omega
  | ⟨1, _⟩ => show win4_2.index t (1 : Fin 2) * 512 + 1 * q.val = 512 * s.val + q.val; omega

theorem blk4_3 (c : Dev nD) (t : Fin cfg4.N) (s : Fin 16) (ht : t.val = s.val + 2) (r : Fin 64) (q : Fin 512) :
    iblk4 V c 3 t (ix2 r q) = V c main_arg1 (ix2 r (⟨512 * s.val + q.val, by have := s.isLt; have := q.isLt; omega⟩ : Fin 8192)) := by
  unfold iblk4
  show V c main_arg1 (((cfg4.win 3).blk t).view.emb (ix2 r q)) = _
  refine congrArg (V c main_arg1) ?_
  have hs := s.isLt
  obtain ⟨e0, e1, e2, e3, e4, e5⟩ := idx4_t1 t (by omega) (by omega)
  funext a; apply Fin.ext
  match a with
  | ⟨0, _⟩ => show win4_3.index t (0 : Fin 2) * 64 + 1 * r.val = r.val; omega
  | ⟨1, _⟩ => show win4_3.index t (1 : Fin 2) * 512 + 1 * q.val = 512 * s.val + q.val; omega

theorem blk4_4 (c : Dev nD) (t : Fin cfg4.N) (s : Fin 16) (ht : t.val = s.val + 2) (r : Fin 1024) (q : Fin 512) :
    iblk4 V c 4 t (ix2 r q) = V c main_v65 (ix2 r (⟨512 * s.val + q.val, by have := s.isLt; have := q.isLt; omega⟩ : Fin 8192)) := by
  unfold iblk4
  show V c main_v65 (((cfg4.win 4).blk t).view.emb (ix2 r q)) = _
  refine congrArg (V c main_v65) ?_
  have hs := s.isLt
  obtain ⟨e0, e1, e2, e3, e4, e5⟩ := idx4_t1 t (by omega) (by omega)
  funext a; apply Fin.ext
  match a with
  | ⟨0, _⟩ => show win4_4.index t (0 : Fin 2) * 1024 + 1 * r.val = r.val; omega
  | ⟨1, _⟩ => show win4_4.index t (1 : Fin 2) * 512 + 1 * q.val = 512 * s.val + q.val; omega

theorem blk4_5 (c : Dev nD) (t : Fin cfg4.N) (s : Fin 16) (ht : t.val = s.val + 2) (r : Fin 1024) (q : Fin 512) :
    iblk4 V c 5 t (ix2 r q) = V c main_v67 (ix2 r (⟨512 * s.val + q.val, by have := s.isLt; have := q.isLt; omega⟩ : Fin 8192)) := by
  unfold iblk4
  show V c main_v67 (((cfg4.win 5).blk t).view.emb (ix2 r q)) = _
  refine congrArg (V c main_v67) ?_
  have hs := s.isLt
  obtain ⟨e0, e1, e2, e3, e4, e5⟩ := idx4_t1 t (by omega) (by omega)
  funext a; apply Fin.ext
  match a with
  | ⟨0, _⟩ => show win4_5.index t (0 : Fin 2) * 1024 + 1 * r.val = r.val; omega
  | ⟨1, _⟩ => show win4_5.index t (1 : Fin 2) * 512 + 1 * q.val = 512 * s.val + q.val; omega

theorem blk4_6 (c : Dev nD) (t : Fin cfg4.N) (s : Fin 14) (ht : t.val = s.val + 18) (r : Fin 64) (q : Fin 512) :
    iblk4 V c 6 t (ix2 r q) = V c main_v59 (ix2 r (⟨512 * s.val + q.val, by have := s.isLt; have := q.isLt; omega⟩ : Fin 7168)) := by
  unfold iblk4
  show V c main_v59 (((cfg4.win 6).blk t).view.emb (ix2 r q)) = _
  refine congrArg (V c main_v59) ?_
  have hs := s.isLt
  obtain ⟨e0, e1, e2, e3, e4, e5⟩ := idx4_t2 t (by omega) (by omega)
  funext a; apply Fin.ext
  match a with
  | ⟨0, _⟩ => show win4_6.index t (0 : Fin 2) * 64 + 1 * r.val = r.val; omega
  | ⟨1, _⟩ => show win4_6.index t (1 : Fin 2) * 512 + 1 * q.val = 512 * s.val + q.val; omega

theorem blk4_7 (c : Dev nD) (t : Fin cfg4.N) (s : Fin 14) (ht : t.val = s.val + 18) (r : Fin 1024) (q : Fin 512) :
    iblk4 V c 7 t (ix2 r q) = V c main_v69 (ix2 r (⟨512 * s.val + q.val, by have := s.isLt; have := q.isLt; omega⟩ : Fin 7168)) := by
  unfold iblk4
  show V c main_v69 (((cfg4.win 7).blk t).view.emb (ix2 r q)) = _
  refine congrArg (V c main_v69) ?_
  have hs := s.isLt
  obtain ⟨e0, e1, e2, e3, e4, e5⟩ := idx4_t2 t (by omega) (by omega)
  funext a; apply Fin.ext
  match a with
  | ⟨0, _⟩ => show win4_7.index t (0 : Fin 2) * 1024 + 1 * r.val = r.val; omega
  | ⟨1, _⟩ => show win4_7.index t (1 : Fin 2) * 512 + 1 * q.val = 512 * s.val + q.val; omega

theorem blk4_8 (c : Dev nD) (t : Fin cfg4.N) (s : Fin 14) (ht : t.val = s.val + 18) (r : Fin 1024) (q : Fin 512) :
    iblk4 V c 8 t (ix2 r q) = V c main_v71 (ix2 r (⟨512 * s.val + q.val, by have := s.isLt; have := q.isLt; omega⟩ : Fin 7168)) := by
  unfold iblk4
  show V c main_v71 (((cfg4.win 8).blk t).view.emb (ix2 r q)) = _
  refine congrArg (V c main_v71) ?_
  have hs := s.isLt
  obtain ⟨e0, e1, e2, e3, e4, e5⟩ := idx4_t2 t (by omega) (by omega)
  funext a; apply Fin.ext
  match a with
  | ⟨0, _⟩ => show win4_8.index t (0 : Fin 2) * 1024 + 1 * r.val = r.val; omega
  | ⟨1, _⟩ => show win4_8.index t (1 : Fin 2) * 512 + 1 * q.val = 512 * s.val + q.val; omega

theorem blk4_9 (c : Dev nD) (t : Fin cfg4.N) (o : Fin 1024) :
    iblk4 V c 9 t (ix2 (0 : Fin 1) o) = V c main_v74 (ix2 (0 : Fin 1) o) := by
  unfold iblk4
  show V c main_v74 (((cfg4.win 9).blk t).view.emb (ix2 (0 : Fin 1) o)) = _
  refine congrArg (V c main_v74) ?_
  obtain ⟨e0, e1⟩ := idx4_b t
  funext a; apply Fin.ext
  match a with
  | ⟨0, _⟩ => show win4_9.index t (0 : Fin 2) * 1 + 1 * (0 : Fin 1).val = (0 : Fin 1).val; omega
  | ⟨1, _⟩ => show win4_9.index t (1 : Fin 2) * 1024 + 1 * o.val = o.val; omega

/-! ## The payloads at an index -/

theorem pay4_1_apply (j : S64x1024.Idx) : k4_pay1 (F := Ideal) j = 0 := by
  unfold k4_pay1
  simp only [shapeCast_self]
  show Ideal.ofBits .f32 0x00000000#32 = 0
  exact Ideal.ofBits_zero_f32

theorem pay4_2_apply (x : Vec Ideal S64x512 .f32) (w m : Vec Ideal S1024x512 .f32) (prev : Vec Ideal S64x1024 .f32) (b : Fin 64) (o : Fin 1024) :
    k4_pay2 x w m prev (ix2 b o) = prev (ix2 b o) + ∑ q : Fin 512, x (ix2 b q) * (w (ix2 o q) * m (ix2 o q)) := by
  unfold k4_pay2
  simp only [shapeCast_self]
  exact HandV.tile_apply x w m prev b o

theorem pay4_3_apply (x : Vec Ideal S64x512 .f32) (w m : Vec Ideal S1024x512 .f32) (prev : Vec Ideal S64x1024 .f32) (b : Fin 64) (o : Fin 1024) :
    k4_pay3 x w m prev (ix2 b o) = prev (ix2 b o) + ∑ q : Fin 512, x (ix2 b q) * (w (ix2 o q) * m (ix2 o q)) := by
  unfold k4_pay3
  simp only [shapeCast_self]
  exact HandV.tile_apply x w m prev b o

theorem pay4_4_apply (x : Vec Ideal S64x512 .f32) (w m : Vec Ideal S1024x512 .f32) (prev : Vec Ideal S64x1024 .f32) (b : Fin 64) (o : Fin 1024) :
    k4_pay4 x w m prev (ix2 b o) = prev (ix2 b o) + ∑ q : Fin 512, x (ix2 b q) * (w (ix2 o q) * m (ix2 o q)) := by
  unfold k4_pay4
  simp only [shapeCast_self]
  exact HandV.tile_apply x w m prev b o

theorem pay4_5_apply (a : Vec Ideal S64x1024 .f32) (bias : Vec Ideal S1x1024 .f32) (b : Fin 64) (o : Fin 1024) :
    k4_pay5 a bias (ix2 b o) = Ideal.logistic (a (ix2 b o) + bias (ix2 (0 : Fin 1) o)) := by
  unfold k4_pay5
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a4_0 (c : Dev nD) : S64x1024.Idx → EReal := V c main_v57
abbrev a4_1 (c : Dev nD) : S1024x1024.Idx → EReal := V c main_v61
abbrev a4_2 (c : Dev nD) : S1024x1024.Idx → EReal := V c main_v63
abbrev a4_3 (c : Dev nD) : S64x8192.Idx → EReal := V c main_arg1
abbrev a4_4 (c : Dev nD) : S1024x8192.Idx → EReal := V c main_v65
abbrev a4_5 (c : Dev nD) : S1024x8192.Idx → EReal := V c main_v67
abbrev a4_6 (c : Dev nD) : S64x7168.Idx → EReal := V c main_v59
abbrev a4_7 (c : Dev nD) : S1024x7168.Idx → EReal := V c main_v69
abbrev a4_8 (c : Dev nD) : S1024x7168.Idx → EReal := V c main_v71
abbrev a4_9 (c : Dev nD) : S1x1024.Idx → EReal := V c main_v74

/-- Term 0's tile `s`: columns 512·s … of its left array against the same columns of weight · mask. -/
def tile4_0 (c : Dev nD) (s : Fin 2) (b : Fin 64) (o : Fin 1024) : EReal :=
  ∑ q : Fin 512, a4_0 V c (ix2 b (⟨512 * s.val + q.val, by have := s.isLt; have := q.isLt; omega⟩ : Fin 1024)) * (a4_1 V c (ix2 o (⟨512 * s.val + q.val, by have := s.isLt; have := q.isLt; omega⟩ : Fin 1024)) * a4_2 V c (ix2 o (⟨512 * s.val + q.val, by have := s.isLt; have := q.isLt; omega⟩ : Fin 1024)))
/-- The same over the naturals, zero past the term's last tile. -/
def tileN4_0 (c : Dev nD) (s : ℕ) (b : Fin 64) (o : Fin 1024) : EReal :=
  if h : s < 2 then tile4_0 V c ⟨s, h⟩ b o else 0
theorem tileN4_0_zero (c : Dev nD) (b : Fin 64) (o : Fin 1024) : ∀ s, 2 ≤ s → tileN4_0 V c s b o = 0 :=
  fun s h => dif_neg (by omega)
/-- Term 0 whole. -/
def whole4_0 (c : Dev nD) (b : Fin 64) (o : Fin 1024) : EReal :=
  ∑ n : Fin 1024, a4_0 V c (ix2 b n) * (a4_1 V c (ix2 o n) * a4_2 V c (ix2 o n))
theorem sum4_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles4_0 (c : Dev nD) (b : Fin 64) (o : Fin 1024) (x : ℕ) (hx : 2 ≤ x) :
    ∑ s ∈ Finset.range x, tileN4_0 V c s b o = whole4_0 V c b o := by
  rw [Cert.LibPaddedSums.pad (fun s => tileN4_0 V c s b o) 2 (tileN4_0_zero V c b o) x hx,
    Cert.LibPaddedSums.range_eq_fin 2 (fun s => tile4_0 V c s b o) (fun s => tileN4_0 V c s b o) (fun s => dif_pos s.isLt)]
  unfold whole4_0
  rw [sum4_0]
  rfl

/-- Term 1's tile `s`: columns 512·s … of its left array against the same columns of weight · mask. -/
def tile4_1 (c : Dev nD) (s : Fin 16) (b : Fin 64) (o : Fin 1024) : EReal :=
  ∑ q : Fin 512, a4_3 V c (ix2 b (⟨512 * s.val + q.val, by have := s.isLt; have := q.isLt; omega⟩ : Fin 8192)) * (a4_4 V c (ix2 o (⟨512 * s.val + q.val, by have := s.isLt; have := q.isLt; omega⟩ : Fin 8192)) * a4_5 V c (ix2 o (⟨512 * s.val + q.val, by have := s.isLt; have := q.isLt; omega⟩ : Fin 8192)))
/-- The same over the naturals, zero past the term's last tile. -/
def tileN4_1 (c : Dev nD) (s : ℕ) (b : Fin 64) (o : Fin 1024) : EReal :=
  if h : s < 16 then tile4_1 V c ⟨s, h⟩ b o else 0
theorem tileN4_1_zero (c : Dev nD) (b : Fin 64) (o : Fin 1024) : ∀ s, 16 ≤ s → tileN4_1 V c s b o = 0 :=
  fun s h => dif_neg (by omega)
/-- Term 1 whole. -/
def whole4_1 (c : Dev nD) (b : Fin 64) (o : Fin 1024) : EReal :=
  ∑ n : Fin 8192, a4_3 V c (ix2 b n) * (a4_4 V c (ix2 o n) * a4_5 V c (ix2 o n))
theorem sum4_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles4_1 (c : Dev nD) (b : Fin 64) (o : Fin 1024) (x : ℕ) (hx : 16 ≤ x) :
    ∑ s ∈ Finset.range x, tileN4_1 V c s b o = whole4_1 V c b o := by
  rw [Cert.LibPaddedSums.pad (fun s => tileN4_1 V c s b o) 16 (tileN4_1_zero V c b o) x hx,
    Cert.LibPaddedSums.range_eq_fin 16 (fun s => tile4_1 V c s b o) (fun s => tileN4_1 V c s b o) (fun s => dif_pos s.isLt)]
  unfold whole4_1
  rw [sum4_1]
  rfl

/-- Term 2's tile `s`: columns 512·s … of its left array against the same columns of weight · mask. -/
def tile4_2 (c : Dev nD) (s : Fin 14) (b : Fin 64) (o : Fin 1024) : EReal :=
  ∑ q : Fin 512, a4_6 V c (ix2 b (⟨512 * s.val + q.val, by have := s.isLt; have := q.isLt; omega⟩ : Fin 7168)) * (a4_7 V c (ix2 o (⟨512 * s.val + q.val, by have := s.isLt; have := q.isLt; omega⟩ : Fin 7168)) * a4_8 V c (ix2 o (⟨512 * s.val + q.val, by have := s.isLt; have := q.isLt; omega⟩ : Fin 7168)))
/-- The same over the naturals, zero past the term's last tile. -/
def tileN4_2 (c : Dev nD) (s : ℕ) (b : Fin 64) (o : Fin 1024) : EReal :=
  if h : s < 14 then tile4_2 V c ⟨s, h⟩ b o else 0
theorem tileN4_2_zero (c : Dev nD) (b : Fin 64) (o : Fin 1024) : ∀ s, 14 ≤ s → tileN4_2 V c s b o = 0 :=
  fun s h => dif_neg (by omega)
/-- Term 2 whole. -/
def whole4_2 (c : Dev nD) (b : Fin 64) (o : Fin 1024) : EReal :=
  ∑ n : Fin 7168, a4_6 V c (ix2 b n) * (a4_7 V c (ix2 o n) * a4_8 V c (ix2 o n))
theorem sum4_2 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles4_2 (c : Dev nD) (b : Fin 64) (o : Fin 1024) (x : ℕ) (hx : 14 ≤ x) :
    ∑ s ∈ Finset.range x, tileN4_2 V c s b o = whole4_2 V c b o := by
  rw [Cert.LibPaddedSums.pad (fun s => tileN4_2 V c s b o) 14 (tileN4_2_zero V c b o) x hx,
    Cert.LibPaddedSums.range_eq_fin 14 (fun s => tile4_2 V c s b o) (fun s => tileN4_2 V c s b o) (fun s => dif_pos s.isLt)]
  unfold whole4_2
  rw [sum4_2]
  rfl

/-! ## The accumulator after each point -/

set_option maxHeartbeats 4000000 in
theorem acc4_apply (c : Dev nD) (b : Fin 64) (o : Fin 1024) : ∀ (n : ℕ) (hn : n < cfg4.N),
    (outsAt4 V c n hn).2 (ix2 b o) = ∑ s ∈ Finset.range (n + 1 - 0), tileN4_0 V c s b o + ∑ s ∈ Finset.range (n + 1 - 2), tileN4_1 V c s b o + ∑ s ∈ Finset.range (n + 1 - 18), tileN4_2 V c s b o
  | 0, hn => by
    rw [show (outsAt4 V c 0 hn).2 = _ from step4_A V c ⟨0, hn⟩ rfl]
    rw [pay4_2_apply, pay4_1_apply, zero_add]
    rw [show (0 + 1 - 0) = 1 from rfl, Finset.sum_range_one, show (0 + 1 - 2) = 0 from rfl, Finset.range_zero, Finset.sum_empty, Finset.sum_empty, add_zero, add_zero]
    unfold tileN4_0
    rw [dif_pos (show 0 < 2 by decide)]
    unfold tile4_0
    refine Finset.sum_congr rfl fun q _ => ?_
    rw [blk4_0 V c ⟨0, hn⟩ ⟨0, by decide⟩ rfl, blk4_1 V c ⟨0, hn⟩ ⟨0, by decide⟩ rfl, blk4_2 V c ⟨0, hn⟩ ⟨0, by decide⟩ rfl]
  | n + 1, hn => by
    have hN : n + 1 < 32 := lt_of_lt_of_eq hn (show cfg4.N = 32 from N_4)
    have ih := acc4_apply c b o n (Nat.lt_of_succ_lt hn)
    by_cases h0 : n + 1 = 31
    · have hstep : (outsAt4 V c (n + 1) hn).2 = k4_pay4 (iblk4 V c 6 ⟨n + 1, hn⟩) (iblk4 V c 7 ⟨n + 1, hn⟩) (iblk4 V c 8 ⟨n + 1, hn⟩) (outsAt4 V c n (Nat.lt_of_succ_lt hn)).2 :=
        step4_Z V c ⟨n + 1, hn⟩ (Nat.succ_ne_zero n) h0
      have htile : ∑ q : Fin 512, tb4_6 V c ⟨n + 1, hn⟩ (ix2 b q) * (tb4_7 V c ⟨n + 1, hn⟩ (ix2 o q) * tb4_8 V c ⟨n + 1, hn⟩ (ix2 o q)) = tileN4_2 V c (n + 1 - 18) b o := by
        dsimp only [tb4_6, tb4_7, tb4_8]
        unfold tileN4_2
        rw [dif_pos (show n + 1 - 18 < 14 by omega)]
        unfold tile4_2
        refine Finset.sum_congr rfl fun q _ => ?_
        rw [blk4_6 V c ⟨n + 1, hn⟩ ⟨n + 1 - 18, by omega⟩ (by show n + 1 = n + 1 - 18 + 18; omega), blk4_7 V c ⟨n + 1, hn⟩ ⟨n + 1 - 18, by omega⟩ (by show n + 1 = n + 1 - 18 + 18; omega), blk4_8 V c ⟨n + 1, hn⟩ ⟨n + 1 - 18, by omega⟩ (by show n + 1 = n + 1 - 18 + 18; omega)]
      rw [hstep, pay4_4_apply, ih, htile]
      rw [Cert.LibPaddedSums.step_inactive (fun s => tileN4_0 V c s b o) 2 0 n (tileN4_0_zero V c b o) (by omega),
        Cert.LibPaddedSums.step_inactive (fun s => tileN4_1 V c s b o) 16 2 n (tileN4_1_zero V c b o) (by omega),
        Cert.LibPaddedSums.step_active (fun s => tileN4_2 V c s b o) 18 n (by omega)]
      ac_rfl
    by_cases h1 : n + 1 = 1
    · have hstep : (outsAt4 V c (n + 1) hn).2 = k4_pay2 (iblk4 V c 0 ⟨n + 1, hn⟩) (iblk4 V c 1 ⟨n + 1, hn⟩) (iblk4 V c 2 ⟨n + 1, hn⟩) (outsAt4 V c n (Nat.lt_of_succ_lt hn)).2 :=
        step4_B V c ⟨n + 1, hn⟩ (Nat.succ_ne_zero n) h0 h1
      have htile : ∑ q : Fin 512, tb4_0 V c ⟨n + 1, hn⟩ (ix2 b q) * (tb4_1 V c ⟨n + 1, hn⟩ (ix2 o q) * tb4_2 V c ⟨n + 1, hn⟩ (ix2 o q)) = tileN4_0 V c (n + 1 - 0) b o := by
        dsimp only [tb4_0, tb4_1, tb4_2]
        unfold tileN4_0
        rw [dif_pos (show n + 1 - 0 < 2 by omega)]
        unfold tile4_0
        refine Finset.sum_congr rfl fun q _ => ?_
        rw [blk4_0 V c ⟨n + 1, hn⟩ ⟨n + 1 - 0, by omega⟩ (by show n + 1 = n + 1 - 0 + 0; omega), blk4_1 V c ⟨n + 1, hn⟩ ⟨n + 1 - 0, by omega⟩ (by show n + 1 = n + 1 - 0 + 0; omega), blk4_2 V c ⟨n + 1, hn⟩ ⟨n + 1 - 0, by omega⟩ (by show n + 1 = n + 1 - 0 + 0; omega)]
      rw [hstep, pay4_2_apply, ih, htile]
      rw [Cert.LibPaddedSums.step_active (fun s => tileN4_0 V c s b o) 0 n (by omega),
        Cert.LibPaddedSums.step_inactive (fun s => tileN4_1 V c s b o) 16 2 n (tileN4_1_zero V c b o) (by omega),
        Cert.LibPaddedSums.step_inactive (fun s => tileN4_2 V c s b o) 14 18 n (tileN4_2_zero V c b o) (by omega)]
      ac_rfl
    by_cases h2 : (2 ≤ n + 1 ∧ n + 1 ≤ 17)
    · have hstep : (outsAt4 V c (n + 1) hn).2 = k4_pay3 (iblk4 V c 3 ⟨n + 1, hn⟩) (iblk4 V c 4 ⟨n + 1, hn⟩) (iblk4 V c 5 ⟨n + 1, hn⟩) (outsAt4 V c n (Nat.lt_of_succ_lt hn)).2 :=
        step4_C V c ⟨n + 1, hn⟩ (Nat.succ_ne_zero n) h0 h1 h2
      have htile : ∑ q : Fin 512, tb4_3 V c ⟨n + 1, hn⟩ (ix2 b q) * (tb4_4 V c ⟨n + 1, hn⟩ (ix2 o q) * tb4_5 V c ⟨n + 1, hn⟩ (ix2 o q)) = tileN4_1 V c (n + 1 - 2) b o := by
        dsimp only [tb4_3, tb4_4, tb4_5]
        unfold tileN4_1
        rw [dif_pos (show n + 1 - 2 < 16 by omega)]
        unfold tile4_1
        refine Finset.sum_congr rfl fun q _ => ?_
        rw [blk4_3 V c ⟨n + 1, hn⟩ ⟨n + 1 - 2, by omega⟩ (by show n + 1 = n + 1 - 2 + 2; omega), blk4_4 V c ⟨n + 1, hn⟩ ⟨n + 1 - 2, by omega⟩ (by show n + 1 = n + 1 - 2 + 2; omega), blk4_5 V c ⟨n + 1, hn⟩ ⟨n + 1 - 2, by omega⟩ (by show n + 1 = n + 1 - 2 + 2; omega)]
      rw [hstep, pay4_3_apply, ih, htile]
      rw [Cert.LibPaddedSums.step_inactive (fun s => tileN4_0 V c s b o) 2 0 n (tileN4_0_zero V c b o) (by omega),
        Cert.LibPaddedSums.step_active (fun s => tileN4_1 V c s b o) 2 n (by omega),
        Cert.LibPaddedSums.step_inactive (fun s => tileN4_2 V c s b o) 14 18 n (tileN4_2_zero V c b o) (by omega)]
      ac_rfl
    · have hstep : (outsAt4 V c (n + 1) hn).2 = k4_pay4 (iblk4 V c 6 ⟨n + 1, hn⟩) (iblk4 V c 7 ⟨n + 1, hn⟩) (iblk4 V c 8 ⟨n + 1, hn⟩) (outsAt4 V c n (Nat.lt_of_succ_lt hn)).2 :=
        step4_D V c ⟨n + 1, hn⟩ (Nat.succ_ne_zero n) h0 h1 h2
      have htile : ∑ q : Fin 512, tb4_6 V c ⟨n + 1, hn⟩ (ix2 b q) * (tb4_7 V c ⟨n + 1, hn⟩ (ix2 o q) * tb4_8 V c ⟨n + 1, hn⟩ (ix2 o q)) = tileN4_2 V c (n + 1 - 18) b o := by
        dsimp only [tb4_6, tb4_7, tb4_8]
        unfold tileN4_2
        rw [dif_pos (show n + 1 - 18 < 14 by omega)]
        unfold tile4_2
        refine Finset.sum_congr rfl fun q _ => ?_
        rw [blk4_6 V c ⟨n + 1, hn⟩ ⟨n + 1 - 18, by omega⟩ (by show n + 1 = n + 1 - 18 + 18; omega), blk4_7 V c ⟨n + 1, hn⟩ ⟨n + 1 - 18, by omega⟩ (by show n + 1 = n + 1 - 18 + 18; omega), blk4_8 V c ⟨n + 1, hn⟩ ⟨n + 1 - 18, by omega⟩ (by show n + 1 = n + 1 - 18 + 18; omega)]
      rw [hstep, pay4_4_apply, ih, htile]
      rw [Cert.LibPaddedSums.step_inactive (fun s => tileN4_0 V c s b o) 2 0 n (tileN4_0_zero V c b o) (by omega),
        Cert.LibPaddedSums.step_inactive (fun s => tileN4_1 V c s b o) 16 2 n (tileN4_1_zero V c b o) (by omega),
        Cert.LibPaddedSums.step_active (fun s => tileN4_2 V c s b o) 18 n (by omega)]
      ac_rfl

/-! ## The region's result -/

theorem hlast4 : 31 < cfg4.N := by rw [show cfg4.N = 32 from N_4]; decide

set_option maxHeartbeats 2000000 in
theorem out4_apply (c : Dev nD) (b : Fin 64) (o : Fin 1024) :
    (outsAt4 V c 31 hlast4).1 (ix2 b o) = Ideal.logistic ((whole4_0 V c b o + whole4_1 V c b o + whole4_2 V c b o) + a4_9 V c (ix2 (0 : Fin 1) o)) := by
  rw [show (outsAt4 V c 31 hlast4).1 = _ from last4 V c ⟨31, hlast4⟩ (by show (31 : ℕ) ≠ 0; decide) rfl]
  rw [← show (outsAt4 V c 31 hlast4).2 = _ from step4_Z V c ⟨31, hlast4⟩ (by show (31 : ℕ) ≠ 0; decide) rfl]
  rw [pay4_5_apply, acc4_apply V c b o 31 hlast4, blk4_9]
  rw [tiles4_0 V c b o (31 + 1 - 0) (by decide), tiles4_1 V c b o (31 + 1 - 2) (by decide), tiles4_2 V c b o (31 + 1 - 18) (by decide)]

/-- What region 4 leaves in its output array: the last point's buffer, written back whole. -/
def G4 (c : Dev nD) : S64x1024.Idx → EReal := (outsAt4 V c 31 hlast4).1

theorem emb4_out (t : Fin cfg4.N) (y : S64x1024.Idx) : ((cfg4.win 10).blk t).view.emb y = y := by
  obtain ⟨e0, e1⟩ := idx4_out t
  funext a; apply Fin.ext
  match a with
  | ⟨0, _⟩ => show win4_10.index t (0 : Fin 2) * 64 + 1 * (y 0).val = (y 0).val; omega
  | ⟨1, _⟩ => show win4_10.index t (1 : Fin 2) * 1024 + 1 * (y 1).val = (y 1).val; omega

theorem flushed4_eq (c : Dev nD) (t : Fin cfg4.N) (hf : (cfg4.win 10).flush t = true) :
    (dat4 V c).flushed 10 t = ((cfg4.win 10).blk t).view.read (Elt Ideal) (G4 V c) := by
  have ht : t.val = 31 := by
    have h1 := (flush4_10 t).mp hf
    have h2 : t.val < 32 := lt_of_lt_of_eq t.isLt (show cfg4.N = 32 from N_4)
    omega
  have ht' : t = ⟨31, hlast4⟩ := Fin.ext ht
  subst ht'
  show (cfg4.win 10).cut (grid4.coords ⟨31, hlast4⟩) ((dat4 V c).after 10 ⟨31, hlast4⟩) = _
  rw [after4_10]
  funext y
  show (outsAt4 V c 31 hlast4).1 y = G4 V c (((cfg4.win 10).blk ⟨31, hlast4⟩).view.emb y)
  rw [emb4_out]
  rfl

theorem mem_blk4_out (t : Fin cfg4.N) (i : S64x1024.Idx) :
    i ∈ ((cfg4.win 10).blk t).view.set ↔ ∀ a : Fin 2, win4_10.index t a * S64x1024.size a ≤ (i a).val ∧ (i a).val < win4_10.index t a * S64x1024.size a + S64x1024.size a := by
  show i ∈ ((View.whole main_v75).slice (win4_10.rect t)).set ↔ _
  rw [View.set_slice_whole, Rect.mem_set_unit]
  exact Iff.rfl

theorem final4 (c : Dev nD) : (dat4 V c).arrAt 10 cfg4.N = G4 V c :=
  (dat4 V c).arrAt_eq_of_cover 10 (G4 V c) (fun t hf => flushed4_eq V c t hf) (fun i =>
    ⟨⟨31, hlast4⟩, (flush4_10 ⟨31, hlast4⟩).mpr (by show 31 % 32 = 31; decide), by
      rw [mem_blk4_out]
      obtain ⟨e0, e1⟩ := idx4_out ⟨31, hlast4⟩
      intro a
      match a with
      | ⟨0, _⟩ => show win4_10.index ⟨31, hlast4⟩ (0 : Fin 2) * 64 ≤ (i 0).val ∧ (i 0).val < win4_10.index ⟨31, hlast4⟩ (0 : Fin 2) * 64 + 64; have hi : (i 0).val < 64 := (i 0).isLt; omega
      | ⟨1, _⟩ => show win4_10.index ⟨31, hlast4⟩ (1 : Fin 2) * 1024 ≤ (i 1).val ∧ (i 1).val < win4_10.index ⟨31, hlast4⟩ (1 : Fin 2) * 1024 + 1024; have hi : (i 1).val < 1024 := (i 1).isLt; omega⟩)

/-- Region 4's output array at an index. -/
theorem final4_apply (c : Dev nD) (b : Fin 64) (o : Fin 1024) :
    (dat4 V c).arrAt 10 cfg4.N (ix2 b o) = Ideal.logistic ((whole4_0 V c b o + whole4_1 V c b o + whole4_2 V c b o) + a4_9 V c (ix2 (0 : Fin 1) o)) :=
  (congrFun (final4 V c) (ix2 b o)).trans (out4_apply V c b o)

end Cert.KernelIdeal.Hand

end
-- ==== Proof.Bridge.L4.lean ====
/- Layer 4, the two sides joined: given the previous layer's equality, the buffer of earlier outputs agrees (the same scatter of equal arrays),
   every array region 4 stages is the reference's, and the two layer formulas differ only in the order of their additions. -/
import proofs.«164445_j37684043055467_1_alg».proof.Proof.KI.V4
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 4. -/
theorem skips4 (hA : Agree m m') (c : Dev Cert.KernelIdeal.nD)
    (hC : (Cert.KernelIdeal.Hand.o8 m c : Cert.KernelIdeal.S64x1024.Idx → EReal) = (Cert.ReferenceIdeal.Value.res_main_v119 (StableHlo.launchContents m' c)))
    (hS : (Cert.KernelIdeal.Hand.E7 m c Cert.KernelIdeal.main_v41 : Cert.KernelIdeal.S64x7168.Idx → EReal) = (Cert.ReferenceIdeal.Value.res_main_v85 (StableHlo.launchContents m' c))) :
    (Cert.KernelIdeal.Hand.E9 m c Cert.KernelIdeal.main_v59 : Cert.KernelIdeal.S64x7168.Idx → EReal) = (Cert.ReferenceIdeal.Value.res_main_v121 (StableHlo.launchContents m' c)) := by
  rw [Cert.KernelIdeal.Hand.B4_main_v59 m c]
  rw [show (Cert.KernelIdeal.Hand.E8 m c Cert.KernelIdeal.main_v57 : Cert.KernelIdeal.S64x1024.Idx → EReal) = (Cert.ReferenceIdeal.Value.res_main_v119 (StableHlo.launchContents m' c)) from (Cert.KernelIdeal.Hand.U8_out m c).trans hC]
  rw [show (Cert.KernelIdeal.Hand.E8 m c Cert.KernelIdeal.main_v41 : Cert.KernelIdeal.S64x7168.Idx → EReal) = (Cert.ReferenceIdeal.Value.res_main_v85 (StableHlo.launchContents m' c)) from (Cert.KernelIdeal.Hand.U8_ne m c Cert.KernelIdeal.main_v41 (by decide)).trans hS]
  rw [Cert.ReferenceIdeal.HandV.res121_eq]
  rfl

set_option maxHeartbeats 4000000 in
theorem layer4 (hA : Agree m m') (c : Dev Cert.KernelIdeal.nD)
    (hC : (Cert.KernelIdeal.Hand.o8 m c : Cert.KernelIdeal.S64x1024.Idx → EReal) = (Cert.ReferenceIdeal.Value.res_main_v119 (StableHlo.launchContents m' c)))
    (hS : (Cert.KernelIdeal.Hand.E9 m c Cert.KernelIdeal.main_v59 : Cert.KernelIdeal.S64x7168.Idx → EReal) = (Cert.ReferenceIdeal.Value.res_main_v121 (StableHlo.launchContents m' c))) :
    (Cert.KernelIdeal.Hand.o10 m c : Cert.KernelIdeal.S64x1024.Idx → EReal) = (Cert.ReferenceIdeal.Value.res_main_v155 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res155_apply]
  show (Cert.KernelIdeal.Hand.dat4 (Cert.KernelIdeal.Hand.E9 m) c).arrAt 10 Cert.KernelIdeal.cfg4.N (ix2 b o) = _
  rw [Cert.KernelIdeal.Hand.final4_apply]
  have e0 : Cert.KernelIdeal.Hand.a4_0 (Cert.KernelIdeal.Hand.E9 m) c = (Cert.ReferenceIdeal.Value.res_main_v119 (StableHlo.launchContents m' c)) := by
    show (Cert.KernelIdeal.Hand.E9 m c Cert.KernelIdeal.main_v57 : Cert.KernelIdeal.S64x1024.Idx → EReal) = _
    rw [Cert.KernelIdeal.Hand.keep9 m c Cert.KernelIdeal.main_v57 (by decide)]
    exact (Cert.KernelIdeal.Hand.U8_out m c).trans hC
  have e1 : Cert.KernelIdeal.Hand.a4_1 (Cert.KernelIdeal.Hand.E9 m) c = Cert.ReferenceIdeal.HandV.r_wh3 (StableHlo.launchContents m' c) := by
    show (Cert.KernelIdeal.Hand.E9 m c Cert.KernelIdeal.main_v61 : Cert.KernelIdeal.S1024x1024.Idx → EReal) = _
    rw [Cert.KernelIdeal.Hand.B4_main_v61 m c, Cert.KernelIdeal.Hand.U8_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a4_2 (Cert.KernelIdeal.Hand.E9 m) c = Cert.ReferenceIdeal.HandV.r_mh3 (StableHlo.launchContents m' c) := by
    show (Cert.KernelIdeal.Hand.E9 m c Cert.KernelIdeal.main_v63 : Cert.KernelIdeal.S1024x1024.Idx → EReal) = _
    rw [Cert.KernelIdeal.Hand.B4_main_v63 m c, Cert.KernelIdeal.Hand.U8_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a4_3 (Cert.KernelIdeal.Hand.E9 m) c = Cert.ReferenceIdeal.HandV.r_h (StableHlo.launchContents m' c) := by
    show (Cert.KernelIdeal.Hand.E9 m c Cert.KernelIdeal.main_arg1 : Cert.KernelIdeal.S64x8192.Idx → EReal) = _
    rw [Cert.KernelIdeal.Hand.U9_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a4_4 (Cert.KernelIdeal.Hand.E9 m) c = Cert.ReferenceIdeal.HandV.r_wr4 (StableHlo.launchContents m' c) := by
    show (Cert.KernelIdeal.Hand.E9 m c Cert.KernelIdeal.main_v65 : Cert.KernelIdeal.S1024x8192.Idx → EReal) = _
    rw [Cert.KernelIdeal.Hand.B4_main_v65 m c, Cert.KernelIdeal.Hand.U8_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a4_5 (Cert.KernelIdeal.Hand.E9 m) c = Cert.ReferenceIdeal.HandV.r_mr4 (StableHlo.launchContents m' c) := by
    show (Cert.KernelIdeal.Hand.E9 m c Cert.KernelIdeal.main_v67 : Cert.KernelIdeal.S1024x8192.Idx → EReal) = _
    rw [Cert.KernelIdeal.Hand.B4_main_v67 m c, Cert.KernelIdeal.Hand.U8_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have e6 : Cert.KernelIdeal.Hand.a4_6 (Cert.KernelIdeal.Hand.E9 m) c = (Cert.ReferenceIdeal.Value.res_main_v121 (StableHlo.launchContents m' c)) := hS
  have e7 : Cert.KernelIdeal.Hand.a4_7 (Cert.KernelIdeal.Hand.E9 m) c = Cert.ReferenceIdeal.HandV.r_ws2 (StableHlo.launchContents m' c) := by
    show (Cert.KernelIdeal.Hand.E9 m c Cert.KernelIdeal.main_v69 : Cert.KernelIdeal.S1024x7168.Idx → EReal) = _
    rw [Cert.KernelIdeal.Hand.B4_main_v69 m c, Cert.KernelIdeal.Hand.U8_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e8 : Cert.KernelIdeal.Hand.a4_8 (Cert.KernelIdeal.Hand.E9 m) c = Cert.ReferenceIdeal.HandV.r_ms2 (StableHlo.launchContents m' c) := by
    show (Cert.KernelIdeal.Hand.E9 m c Cert.KernelIdeal.main_v71 : Cert.KernelIdeal.S1024x7168.Idx → EReal) = _
    rw [Cert.KernelIdeal.Hand.B4_main_v71 m c, Cert.KernelIdeal.Hand.U8_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a4_9 (Cert.KernelIdeal.Hand.E9 m) c (ix2 (0 : Fin 1) o) = Cert.ReferenceIdeal.HandV.r_bh3 (StableHlo.launchContents m' c) (ix1 o) := by
    show (Cert.KernelIdeal.Hand.E9 m c Cert.KernelIdeal.main_v74 : Cert.KernelIdeal.S1x1024.Idx → EReal) (ix2 (0 : Fin 1) o) = _
    rw [congrFun (Cert.KernelIdeal.Hand.B4_main_v74 m c) (ix2 (0 : Fin 1) o), Cert.LibHostApply.shapeCast_row_apply, Cert.KernelIdeal.Hand.U8_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole4_0 Cert.KernelIdeal.Hand.whole4_1 Cert.KernelIdeal.Hand.whole4_2
  rw [e0, e1, e2, e3, e4, e5, e6, e7, e8, eb]
  refine congrArg Ideal.logistic ?_
  exact (add_right_comm _ _ _).trans (congrArg (· + _) (add_right_comm _ _ _))

end Cert.Proof.Bridge

end
-- ==== Proof.KI.R5Acc.lean ====
/- Region 5: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R5Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_5 : (![0, 0] : Fin 2 → Nat) = fun _ => 0 := funext fun a => by fin_cases a <;> rfl
local notation "hz2" => hz2_5

theorem sout5_A_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond5_1 i) (hc2 : cond5_2 i) (hc3 : ¬cond5_3 i) (hc4 : ¬cond5_4 i) (hc5 : ¬cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    sout5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 = k5_pay2 x1 x2 x3 (k5_pay1 (F := F)) := by
  unfold sout5_A
  rw [View.read_writes_eq_canon _ _ _ (scover5_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10)]
  unfold kernelRun5_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout5_Z_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k5_pay4 x7 x8 x9 xs := by
  unfold sout5_Z
  rw [View.read_writes_eq_canon _ _ _ (scover5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun5_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out5_Z_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    out5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k5_pay5 (k5_pay4 x7 x8 x9 xs) x10 := by
  unfold out5_Z
  rw [View.read_writes_eq_canon _ _ _ (cover5_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun5_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout5_B_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : cond5_2 i) (hc3 : ¬cond5_3 i) (hc4 : ¬cond5_4 i) (hc5 : ¬cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k5_pay2 x1 x2 x3 xs := by
  unfold sout5_B
  rw [View.read_writes_eq_canon _ _ _ (scover5_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun5_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout5_C_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : cond5_3 i) (hc4 : ¬cond5_4 i) (hc5 : ¬cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k5_pay3 x4 x5 x6 xs := by
  unfold sout5_C
  rw [View.read_writes_eq_canon _ _ _ (scover5_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun5_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout5_D_eq (c : Dev nD) (i : grid5.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond5_1 i) (hc2 : ¬cond5_2 i) (hc3 : ¬cond5_3 i) (hc4 : cond5_4 i) (hc5 : ¬cond5_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k5_pay4 x7 x8 x9 xs := by
  unfold sout5_D
  rw [View.read_writes_eq_canon _ _ _ (scover5_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun5_D
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step5_A (c : Dev nD) (t : Fin cfg5.N) (hz : t.val = 0) :
    (outsAt5 V c t.val t.isLt).2 = k5_pay2 (iblk5 V c 0 t) (iblk5 V c 1 t) (iblk5 V c 2 t) (k5_pay1 (F := F)) := by
  rw [outsAt5_A V c t hz]
  dsimp only
  exact sout5_A_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_A t hz).1) ((case5_A t hz).2.1) ((case5_A t hz).2.2.1) ((case5_A t hz).2.2.2.1) ((case5_A t hz).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t)

set_option maxHeartbeats 2000000 in
theorem step5_Z (c : Dev nD) (t : Fin cfg5.N) (hz : t.val ≠ 0) (h0 : t.val = 31) :
    (outsAt5 V c t.val t.isLt).2 = k5_pay4 (iblk5 V c 6 t) (iblk5 V c 7 t) (iblk5 V c 8 t) (outsAt5 V c (t.val - 1) (Nat.lt_of_le_of_lt (Nat.sub_le _ _) t.isLt)).2 := by
  rw [outsAt5_Z V c t hz h0]
  dsimp only
  exact sout5_Z_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2

set_option maxHeartbeats 2000000 in
theorem last5 (c : Dev nD) (t : Fin cfg5.N) (hz : t.val ≠ 0) (h0 : t.val = 31) :
    (outsAt5 V c t.val t.isLt).1 = k5_pay5 (k5_pay4 (iblk5 V c 6 t) (iblk5 V c 7 t) (iblk5 V c 8 t) (outsAt5 V c (t.val - 1) (Nat.lt_of_le_of_lt (Nat.sub_le _ _) t.isLt)).2) (iblk5 V c 9 t) := by
  rw [outsAt5_Z V c t hz h0]
  dsimp only
  exact out5_Z_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_Z t hz h0).1) ((case5_Z t hz h0).2.1) ((case5_Z t hz h0).2.2.1) ((case5_Z t hz h0).2.2.2.1) ((case5_Z t hz h0).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2

set_option maxHeartbeats 2000000 in
theorem step5_B (c : Dev nD) (t : Fin cfg5.N) (hz : t.val ≠ 0) (h0 : ¬t.val = 31) (h1 : t.val = 1) :
    (outsAt5 V c t.val t.isLt).2 = k5_pay2 (iblk5 V c 0 t) (iblk5 V c 1 t) (iblk5 V c 2 t) (outsAt5 V c (t.val - 1) (Nat.lt_of_le_of_lt (Nat.sub_le _ _) t.isLt)).2 := by
  rw [outsAt5_B V c t hz h0 h1]
  dsimp only
  exact sout5_B_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_B t hz h0 h1).1) ((case5_B t hz h0 h1).2.1) ((case5_B t hz h0 h1).2.2.1) ((case5_B t hz h0 h1).2.2.2.1) ((case5_B t hz h0 h1).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2

set_option maxHeartbeats 2000000 in
theorem step5_C (c : Dev nD) (t : Fin cfg5.N) (hz : t.val ≠ 0) (h0 : ¬t.val = 31) (h1 : ¬t.val = 1) (h2 : (2 ≤ t.val ∧ t.val ≤ 17)) :
    (outsAt5 V c t.val t.isLt).2 = k5_pay3 (iblk5 V c 3 t) (iblk5 V c 4 t) (iblk5 V c 5 t) (outsAt5 V c (t.val - 1) (Nat.lt_of_le_of_lt (Nat.sub_le _ _) t.isLt)).2 := by
  rw [outsAt5_C V c t hz h0 h1 h2]
  dsimp only
  exact sout5_C_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_C t hz h0 h1 h2).1) ((case5_C t hz h0 h1 h2).2.1) ((case5_C t hz h0 h1 h2).2.2.1) ((case5_C t hz h0 h1 h2).2.2.2.1) ((case5_C t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2

set_option maxHeartbeats 2000000 in
theorem step5_D (c : Dev nD) (t : Fin cfg5.N) (hz : t.val ≠ 0) (h0 : ¬t.val = 31) (h1 : ¬t.val = 1) (h2 : ¬(2 ≤ t.val ∧ t.val ≤ 17)) :
    (outsAt5 V c t.val t.isLt).2 = k5_pay4 (iblk5 V c 6 t) (iblk5 V c 7 t) (iblk5 V c 8 t) (outsAt5 V c (t.val - 1) (Nat.lt_of_le_of_lt (Nat.sub_le _ _) t.isLt)).2 := by
  rw [outsAt5_D V c t hz h0 h1 h2]
  dsimp only
  exact sout5_D_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) scM5 (Memref.isWhole_whole _) ((case5_D t hz h0 h1 h2).1) ((case5_D t hz h0 h1 h2).2.1) ((case5_D t hz h0 h1 h2).2.2.1) ((case5_D t hz h0 h1 h2).2.2.2.1) ((case5_D t hz h0 h1 h2).2.2.2.2) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (outsAt5 V c (t.val - 1) (Nat.lt_of_le_of_lt (Nat.sub_le _ _) t.isLt)).2

end Cert.KernelIdeal.Hand

end
-- ==== Proof.KI.V5.lean ====
/- Region 5 at the ideal instance: each window's block read at an index of the array it stages; the accumulator after every point as the
   sum, over the region's 3 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R5Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx5_t0 : ∀ t : Fin cfg5.N, 0 ≤ t.val → t.val < 2 → win5_0.index t (0 : Fin 2) = 0 ∧ win5_0.index t (1 : Fin 2) = t.val - 0 ∧ win5_1.index t (0 : Fin 2) = 0 ∧ win5_1.index t (1 : Fin 2) = t.val - 0 ∧ win5_2.index t (0 : Fin 2) = 0 ∧ win5_2.index t (1 : Fin 2) = t.val - 0 :=
  (by decide +kernel : ∀ t : Fin grid5.N, 0 ≤ t.val → t.val < 2 → _)
theorem idx5_t1 : ∀ t : Fin cfg5.N, 2 ≤ t.val → t.val < 18 → win5_3.index t (0 : Fin 2) = 0 ∧ win5_3.index t (1 : Fin 2) = t.val - 2 ∧ win5_4.index t (0 : Fin 2) = 0 ∧ win5_4.index t (1 : Fin 2) = t.val - 2 ∧ win5_5.index t (0 : Fin 2) = 0 ∧ win5_5.index t (1 : Fin 2) = t.val - 2 :=
  (by decide +kernel : ∀ t : Fin grid5.N, 2 ≤ t.val → t.val < 18 → _)
theorem idx5_t2 : ∀ t : Fin cfg5.N, 18 ≤ t.val → t.val < 32 → win5_6.index t (0 : Fin 2) = 0 ∧ win5_6.index t (1 : Fin 2) = t.val - 18 ∧ win5_7.index t (0 : Fin 2) = 0 ∧ win5_7.index t (1 : Fin 2) = t.val - 18 ∧ win5_8.index t (0 : Fin 2) = 0 ∧ win5_8.index t (1 : Fin 2) = t.val - 18 :=
  (by decide +kernel : ∀ t : Fin grid5.N, 18 ≤ t.val → t.val < 32 → _)
theorem idx5_b : ∀ t : Fin cfg5.N, win5_9.index t (0 : Fin 2) = 0 ∧ win5_9.index t (1 : Fin 2) = 0 :=
  (by decide +kernel : ∀ t : Fin grid5.N, _)
theorem idx5_out : ∀ t : Fin cfg5.N, win5_10.index t (0 : Fin 2) = 0 ∧ win5_10.index t (1 : Fin 2) = 0 :=
  (by decide +kernel : ∀ t : Fin grid5.N, _)

/-! ## The windows' blocks at their literal shapes -/
abbrev tb5_0 (c : Dev nD) (t : Fin cfg5.N) : Vec Ideal S64x512 .f32 := iblk5 V c 0 t
abbrev tb5_1 (c : Dev nD) (t : Fin cfg5.N) : Vec Ideal S1024x512 .f32 := iblk5 V c 1 t
abbrev tb5_2 (c : Dev nD) (t : Fin cfg5.N) : Vec Ideal S1024x512 .f32 := iblk5 V c 2 t
abbrev tb5_3 (c : Dev nD) (t : Fin cfg5.N) : Vec Ideal S64x512 .f32 := iblk5 V c 3 t
abbrev tb5_4 (c : Dev nD) (t : Fin cfg5.N) : Vec Ideal S1024x512 .f32 := iblk5 V c 4 t
abbrev tb5_5 (c : Dev nD) (t : Fin cfg5.N) : Vec Ideal S1024x512 .f32 := iblk5 V c 5 t
abbrev tb5_6 (c : Dev nD) (t : Fin cfg5.N) : Vec Ideal S64x512 .f32 := iblk5 V c 6 t
abbrev tb5_7 (c : Dev nD) (t : Fin cfg5.N) : Vec Ideal S1024x512 .f32 := iblk5 V c 7 t
abbrev tb5_8 (c : Dev nD) (t : Fin cfg5.N) : Vec Ideal S1024x512 .f32 := iblk5 V c 8 t
abbrev tb5_9 (c : Dev nD) (t : Fin cfg5.N) : Vec Ideal S1x1024 .f32 := iblk5 V c 9 t

/-! ## The blocks -/

theorem blk5_0 (c : Dev nD) (t : Fin cfg5.N) (s : Fin 2) (ht : t.val = s.val + 0) (r : Fin 64) (q : Fin 512) :
    iblk5 V c 0 t (ix2 r q) = V c main_v75 (ix2 r (⟨512 * s.val + q.val, by have := s.isLt; have := q.isLt; omega⟩ : Fin 1024)) := by
  unfold iblk5
  show V c main_v75 (((cfg5.win 0).blk t).view.emb (ix2 r q)) = _
  refine congrArg (V c main_v75) ?_
  have hs := s.isLt
  obtain ⟨e0, e1, e2, e3, e4, e5⟩ := idx5_t0 t (by omega) (by omega)
  funext a; apply Fin.ext
  match a with
  | ⟨0, _⟩ => show win5_0.index t (0 : Fin 2) * 64 + 1 * r.val = r.val; omega
  | ⟨1, _⟩ => show win5_0.index t (1 : Fin 2) * 512 + 1 * q.val = 512 * s.val + q.val; omega

theorem blk5_1 (c : Dev nD) (t : Fin cfg5.N) (s : Fin 2) (ht : t.val = s.val + 0) (r : Fin 1024) (q : Fin 512) :
    iblk5 V c 1 t (ix2 r q) = V c main_v79 (ix2 r (⟨512 * s.val + q.val, by have := s.isLt; have := q.isLt; omega⟩ : Fin 1024)) := by
  unfold iblk5
  show V c main_v79 (((cfg5.win 1).blk t).view.emb (ix2 r q)) = _
  refine congrArg (V c main_v79) ?_
  have hs := s.isLt
  obtain ⟨e0, e1, e2, e3, e4, e5⟩ := idx5_t0 t (by omega) (by omega)
  funext a; apply Fin.ext
  match a with
  | ⟨0, _⟩ => show win5_1.index t (0 : Fin 2) * 1024 + 1 * r.val = r.val; omega
  | ⟨1, _⟩ => show win5_1.index t (1 : Fin 2) * 512 + 1 * q.val = 512 * s.val + q.val; omega

theorem blk5_2 (c : Dev nD) (t : Fin cfg5.N) (s : Fin 2) (ht : t.val = s.val + 0) (r : Fin 1024) (q : Fin 512) :
    iblk5 V c 2 t (ix2 r q) = V c main_v81 (ix2 r (⟨512 * s.val + q.val, by have := s.isLt; have := q.isLt; omega⟩ : Fin 1024)) := by
  unfold iblk5
  show V c main_v81 (((cfg5.win 2).blk t).view.emb (ix2 r q)) = _
  refine congrArg (V c main_v81) ?_
  have hs := s.isLt
  obtain ⟨e0, e1, e2, e3, e4, e5⟩ := idx5_t0 t (by omega) (by omega)
  funext a; apply Fin.ext
  match a with
  | ⟨0, _⟩ => show win5_2.index t (0 : Fin 2) * 1024 + 1 * r.val = r.val; omega
  | ⟨1, _⟩ => show win5_2.index t (1 : Fin 2) * 512 + 1 * q.val = 512 * s.val + q.val; omega

theorem blk5_3 (c : Dev nD) (t : Fin cfg5.N) (s : Fin 16) (ht : t.val = s.val + 2) (r : Fin 64) (q : Fin 512) :
    iblk5 V c 3 t (ix2 r q) = V c main_arg1 (ix2 r (⟨512 * s.val + q.val, by have := s.isLt; have := q.isLt; omega⟩ : Fin 8192)) := by
  unfold iblk5
  show V c main_arg1 (((cfg5.win 3).blk t).view.emb (ix2 r q)) = _
  refine congrArg (V c main_arg1) ?_
  have hs := s.isLt
  obtain ⟨e0, e1, e2, e3, e4, e5⟩ := idx5_t1 t (by omega) (by omega)
  funext a; apply Fin.ext
  match a with
  | ⟨0, _⟩ => show win5_3.index t (0 : Fin 2) * 64 + 1 * r.val = r.val; omega
  | ⟨1, _⟩ => show win5_3.index t (1 : Fin 2) * 512 + 1 * q.val = 512 * s.val + q.val; omega

theorem blk5_4 (c : Dev nD) (t : Fin cfg5.N) (s : Fin 16) (ht : t.val = s.val + 2) (r : Fin 1024) (q : Fin 512) :
    iblk5 V c 4 t (ix2 r q) = V c main_v83 (ix2 r (⟨512 * s.val + q.val, by have := s.isLt; have := q.isLt; omega⟩ : Fin 8192)) := by
  unfold iblk5
  show V c main_v83 (((cfg5.win 4).blk t).view.emb (ix2 r q)) = _
  refine congrArg (V c main_v83) ?_
  have hs := s.isLt
  obtain ⟨e0, e1, e2, e3, e4, e5⟩ := idx5_t1 t (by omega) (by omega)
  funext a; apply Fin.ext
  match a with
  | ⟨0, _⟩ => show win5_4.index t (0 : Fin 2) * 1024 + 1 * r.val = r.val; omega
  | ⟨1, _⟩ => show win5_4.index t (1 : Fin 2) * 512 + 1 * q.val = 512 * s.val + q.val; omega

theorem blk5_5 (c : Dev nD) (t : Fin cfg5.N) (s : Fin 16) (ht : t.val = s.val + 2) (r : Fin 1024) (q : Fin 512) :
    iblk5 V c 5 t (ix2 r q) = V c main_v85 (ix2 r (⟨512 * s.val + q.val, by have := s.isLt; have := q.isLt; omega⟩ : Fin 8192)) := by
  unfold iblk5
  show V c main_v85 (((cfg5.win 5).blk t).view.emb (ix2 r q)) = _
  refine congrArg (V c main_v85) ?_
  have hs := s.isLt
  obtain ⟨e0, e1, e2, e3, e4, e5⟩ := idx5_t1 t (by omega) (by omega)
  funext a; apply Fin.ext
  match a with
  | ⟨0, _⟩ => show win5_5.index t (0 : Fin 2) * 1024 + 1 * r.val = r.val; omega
  | ⟨1, _⟩ => show win5_5.index t (1 : Fin 2) * 512 + 1 * q.val = 512 * s.val + q.val; omega

theorem blk5_6 (c : Dev nD) (t : Fin cfg5.N) (s : Fin 14) (ht : t.val = s.val + 18) (r : Fin 64) (q : Fin 512) :
    iblk5 V c 6 t (ix2 r q) = V c main_v77 (ix2 r (⟨512 * s.val + q.val, by have := s.isLt; have := q.isLt; omega⟩ : Fin 7168)) := by
  unfold iblk5
  show V c main_v77 (((cfg5.win 6).blk t).view.emb (ix2 r q)) = _
  refine congrArg (V c main_v77) ?_
  have hs := s.isLt
  obtain ⟨e0, e1, e2, e3, e4, e5⟩ := idx5_t2 t (by omega) (by omega)
  funext a; apply Fin.ext
  match a with
  | ⟨0, _⟩ => show win5_6.index t (0 : Fin 2) * 64 + 1 * r.val = r.val; omega
  | ⟨1, _⟩ => show win5_6.index t (1 : Fin 2) * 512 + 1 * q.val = 512 * s.val + q.val; omega

theorem blk5_7 (c : Dev nD) (t : Fin cfg5.N) (s : Fin 14) (ht : t.val = s.val + 18) (r : Fin 1024) (q : Fin 512) :
    iblk5 V c 7 t (ix2 r q) = V c main_v87 (ix2 r (⟨512 * s.val + q.val, by have := s.isLt; have := q.isLt; omega⟩ : Fin 7168)) := by
  unfold iblk5
  show V c main_v87 (((cfg5.win 7).blk t).view.emb (ix2 r q)) = _
  refine congrArg (V c main_v87) ?_
  have hs := s.isLt
  obtain ⟨e0, e1, e2, e3, e4, e5⟩ := idx5_t2 t (by omega) (by omega)
  funext a; apply Fin.ext
  match a with
  | ⟨0, _⟩ => show win5_7.index t (0 : Fin 2) * 1024 + 1 * r.val = r.val; omega
  | ⟨1, _⟩ => show win5_7.index t (1 : Fin 2) * 512 + 1 * q.val = 512 * s.val + q.val; omega

theorem blk5_8 (c : Dev nD) (t : Fin cfg5.N) (s : Fin 14) (ht : t.val = s.val + 18) (r : Fin 1024) (q : Fin 512) :
    iblk5 V c 8 t (ix2 r q) = V c main_v89 (ix2 r (⟨512 * s.val + q.val, by have := s.isLt; have := q.isLt; omega⟩ : Fin 7168)) := by
  unfold iblk5
  show V c main_v89 (((cfg5.win 8).blk t).view.emb (ix2 r q)) = _
  refine congrArg (V c main_v89) ?_
  have hs := s.isLt
  obtain ⟨e0, e1, e2, e3, e4, e5⟩ := idx5_t2 t (by omega) (by omega)
  funext a; apply Fin.ext
  match a with
  | ⟨0, _⟩ => show win5_8.index t (0 : Fin 2) * 1024 + 1 * r.val = r.val; omega
  | ⟨1, _⟩ => show win5_8.index t (1 : Fin 2) * 512 + 1 * q.val = 512 * s.val + q.val; omega

theorem blk5_9 (c : Dev nD) (t : Fin cfg5.N) (o : Fin 1024) :
    iblk5 V c 9 t (ix2 (0 : Fin 1) o) = V c main_v92 (ix2 (0 : Fin 1) o) := by
  unfold iblk5
  show V c main_v92 (((cfg5.win 9).blk t).view.emb (ix2 (0 : Fin 1) o)) = _
  refine congrArg (V c main_v92) ?_
  obtain ⟨e0, e1⟩ := idx5_b t
  funext a; apply Fin.ext
  match a with
  | ⟨0, _⟩ => show win5_9.index t (0 : Fin 2) * 1 + 1 * (0 : Fin 1).val = (0 : Fin 1).val; omega
  | ⟨1, _⟩ => show win5_9.index t (1 : Fin 2) * 1024 + 1 * o.val = o.val; omega

/-! ## The payloads at an index -/

theorem pay5_1_apply (j : S64x1024.Idx) : k5_pay1 (F := Ideal) j = 0 := by
  unfold k5_pay1
  simp only [shapeCast_self]
  show Ideal.ofBits .f32 0x00000000#32 = 0
  exact Ideal.ofBits_zero_f32

theorem pay5_2_apply (x : Vec Ideal S64x512 .f32) (w m : Vec Ideal S1024x512 .f32) (prev : Vec Ideal S64x1024 .f32) (b : Fin 64) (o : Fin 1024) :
    k5_pay2 x w m prev (ix2 b o) = prev (ix2 b o) + ∑ q : Fin 512, x (ix2 b q) * (w (ix2 o q) * m (ix2 o q)) := by
  unfold k5_pay2
  simp only [shapeCast_self]
  exact HandV.tile_apply x w m prev b o

theorem pay5_3_apply (x : Vec Ideal S64x512 .f32) (w m : Vec Ideal S1024x512 .f32) (prev : Vec Ideal S64x1024 .f32) (b : Fin 64) (o : Fin 1024) :
    k5_pay3 x w m prev (ix2 b o) = prev (ix2 b o) + ∑ q : Fin 512, x (ix2 b q) * (w (ix2 o q) * m (ix2 o q)) := by
  unfold k5_pay3
  simp only [shapeCast_self]
  exact HandV.tile_apply x w m prev b o

theorem pay5_4_apply (x : Vec Ideal S64x512 .f32) (w m : Vec Ideal S1024x512 .f32) (prev : Vec Ideal S64x1024 .f32) (b : Fin 64) (o : Fin 1024) :
    k5_pay4 x w m prev (ix2 b o) = prev (ix2 b o) + ∑ q : Fin 512, x (ix2 b q) * (w (ix2 o q) * m (ix2 o q)) := by
  unfold k5_pay4
  simp only [shapeCast_self]
  exact HandV.tile_apply x w m prev b o

theorem pay5_5_apply (a : Vec Ideal S64x1024 .f32) (bias : Vec Ideal S1x1024 .f32) (b : Fin 64) (o : Fin 1024) :
    k5_pay5 a bias (ix2 b o) = Ideal.logistic (a (ix2 b o) + bias (ix2 (0 : Fin 1) o)) := by
  unfold k5_pay5
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a5_0 (c : Dev nD) : S64x1024.Idx → EReal := V c main_v75
abbrev a5_1 (c : Dev nD) : S1024x1024.Idx → EReal := V c main_v79
abbrev a5_2 (c : Dev nD) : S1024x1024.Idx → EReal := V c main_v81
abbrev a5_3 (c : Dev nD) : S64x8192.Idx → EReal := V c main_arg1
abbrev a5_4 (c : Dev nD) : S1024x8192.Idx → EReal := V c main_v83
abbrev a5_5 (c : Dev nD) : S1024x8192.Idx → EReal := V c main_v85
abbrev a5_6 (c : Dev nD) : S64x7168.Idx → EReal := V c main_v77
abbrev a5_7 (c : Dev nD) : S1024x7168.Idx → EReal := V c main_v87
abbrev a5_8 (c : Dev nD) : S1024x7168.Idx → EReal := V c main_v89
abbrev a5_9 (c : Dev nD) : S1x1024.Idx → EReal := V c main_v92

/-- Term 0's tile `s`: columns 512·s … of its left array against the same columns of weight · mask. -/
def tile5_0 (c : Dev nD) (s : Fin 2) (b : Fin 64) (o : Fin 1024) : EReal :=
  ∑ q : Fin 512, a5_0 V c (ix2 b (⟨512 * s.val + q.val, by have := s.isLt; have := q.isLt; omega⟩ : Fin 1024)) * (a5_1 V c (ix2 o (⟨512 * s.val + q.val, by have := s.isLt; have := q.isLt; omega⟩ : Fin 1024)) * a5_2 V c (ix2 o (⟨512 * s.val + q.val, by have := s.isLt; have := q.isLt; omega⟩ : Fin 1024)))
/-- The same over the naturals, zero past the term's last tile. -/
def tileN5_0 (c : Dev nD) (s : ℕ) (b : Fin 64) (o : Fin 1024) : EReal :=
  if h : s < 2 then tile5_0 V c ⟨s, h⟩ b o else 0
theorem tileN5_0_zero (c : Dev nD) (b : Fin 64) (o : Fin 1024) : ∀ s, 2 ≤ s → tileN5_0 V c s b o = 0 :=
  fun s h => dif_neg (by omega)
/-- Term 0 whole. -/
def whole5_0 (c : Dev nD) (b : Fin 64) (o : Fin 1024) : EReal :=
  ∑ n : Fin 1024, a5_0 V c (ix2 b n) * (a5_1 V c (ix2 o n) * a5_2 V c (ix2 o n))
theorem sum5_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles5_0 (c : Dev nD) (b : Fin 64) (o : Fin 1024) (x : ℕ) (hx : 2 ≤ x) :
    ∑ s ∈ Finset.range x, tileN5_0 V c s b o = whole5_0 V c b o := by
  rw [Cert.LibPaddedSums.pad (fun s => tileN5_0 V c s b o) 2 (tileN5_0_zero V c b o) x hx,
    Cert.LibPaddedSums.range_eq_fin 2 (fun s => tile5_0 V c s b o) (fun s => tileN5_0 V c s b o) (fun s => dif_pos s.isLt)]
  unfold whole5_0
  rw [sum5_0]
  rfl

/-- Term 1's tile `s`: columns 512·s … of its left array against the same columns of weight · mask. -/
def tile5_1 (c : Dev nD) (s : Fin 16) (b : Fin 64) (o : Fin 1024) : EReal :=
  ∑ q : Fin 512, a5_3 V c (ix2 b (⟨512 * s.val + q.val, by have := s.isLt; have := q.isLt; omega⟩ : Fin 8192)) * (a5_4 V c (ix2 o (⟨512 * s.val + q.val, by have := s.isLt; have := q.isLt; omega⟩ : Fin 8192)) * a5_5 V c (ix2 o (⟨512 * s.val + q.val, by have := s.isLt; have := q.isLt; omega⟩ : Fin 8192)))
/-- The same over the naturals, zero past the term's last tile. -/
def tileN5_1 (c : Dev nD) (s : ℕ) (b : Fin 64) (o : Fin 1024) : EReal :=
  if h : s < 16 then tile5_1 V c ⟨s, h⟩ b o else 0
theorem tileN5_1_zero (c : Dev nD) (b : Fin 64) (o : Fin 1024) : ∀ s, 16 ≤ s → tileN5_1 V c s b o = 0 :=
  fun s h => dif_neg (by omega)
/-- Term 1 whole. -/
def whole5_1 (c : Dev nD) (b : Fin 64) (o : Fin 1024) : EReal :=
  ∑ n : Fin 8192, a5_3 V c (ix2 b n) * (a5_4 V c (ix2 o n) * a5_5 V c (ix2 o n))
theorem sum5_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles5_1 (c : Dev nD) (b : Fin 64) (o : Fin 1024) (x : ℕ) (hx : 16 ≤ x) :
    ∑ s ∈ Finset.range x, tileN5_1 V c s b o = whole5_1 V c b o := by
  rw [Cert.LibPaddedSums.pad (fun s => tileN5_1 V c s b o) 16 (tileN5_1_zero V c b o) x hx,
    Cert.LibPaddedSums.range_eq_fin 16 (fun s => tile5_1 V c s b o) (fun s => tileN5_1 V c s b o) (fun s => dif_pos s.isLt)]
  unfold whole5_1
  rw [sum5_1]
  rfl

/-- Term 2's tile `s`: columns 512·s … of its left array against the same columns of weight · mask. -/
def tile5_2 (c : Dev nD) (s : Fin 14) (b : Fin 64) (o : Fin 1024) : EReal :=
  ∑ q : Fin 512, a5_6 V c (ix2 b (⟨512 * s.val + q.val, by have := s.isLt; have := q.isLt; omega⟩ : Fin 7168)) * (a5_7 V c (ix2 o (⟨512 * s.val + q.val, by have := s.isLt; have := q.isLt; omega⟩ : Fin 7168)) * a5_8 V c (ix2 o (⟨512 * s.val + q.val, by have := s.isLt; have := q.isLt; omega⟩ : Fin 7168)))
/-- The same over the naturals, zero past the term's last tile. -/
def tileN5_2 (c : Dev nD) (s : ℕ) (b : Fin 64) (o : Fin 1024) : EReal :=
  if h : s < 14 then tile5_2 V c ⟨s, h⟩ b o else 0
theorem tileN5_2_zero (c : Dev nD) (b : Fin 64) (o : Fin 1024) : ∀ s, 14 ≤ s → tileN5_2 V c s b o = 0 :=
  fun s h => dif_neg (by omega)
/-- Term 2 whole. -/
def whole5_2 (c : Dev nD) (b : Fin 64) (o : Fin 1024) : EReal :=
  ∑ n : Fin 7168, a5_6 V c (ix2 b n) * (a5_7 V c (ix2 o n) * a5_8 V c (ix2 o n))
theorem sum5_2 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles5_2 (c : Dev nD) (b : Fin 64) (o : Fin 1024) (x : ℕ) (hx : 14 ≤ x) :
    ∑ s ∈ Finset.range x, tileN5_2 V c s b o = whole5_2 V c b o := by
  rw [Cert.LibPaddedSums.pad (fun s => tileN5_2 V c s b o) 14 (tileN5_2_zero V c b o) x hx,
    Cert.LibPaddedSums.range_eq_fin 14 (fun s => tile5_2 V c s b o) (fun s => tileN5_2 V c s b o) (fun s => dif_pos s.isLt)]
  unfold whole5_2
  rw [sum5_2]
  rfl

/-! ## The accumulator after each point -/

set_option maxHeartbeats 4000000 in
theorem acc5_apply (c : Dev nD) (b : Fin 64) (o : Fin 1024) : ∀ (n : ℕ) (hn : n < cfg5.N),
    (outsAt5 V c n hn).2 (ix2 b o) = ∑ s ∈ Finset.range (n + 1 - 0), tileN5_0 V c s b o + ∑ s ∈ Finset.range (n + 1 - 2), tileN5_1 V c s b o + ∑ s ∈ Finset.range (n + 1 - 18), tileN5_2 V c s b o
  | 0, hn => by
    rw [show (outsAt5 V c 0 hn).2 = _ from step5_A V c ⟨0, hn⟩ rfl]
    rw [pay5_2_apply, pay5_1_apply, zero_add]
    rw [show (0 + 1 - 0) = 1 from rfl, Finset.sum_range_one, show (0 + 1 - 2) = 0 from rfl, Finset.range_zero, Finset.sum_empty, Finset.sum_empty, add_zero, add_zero]
    unfold tileN5_0
    rw [dif_pos (show 0 < 2 by decide)]
    unfold tile5_0
    refine Finset.sum_congr rfl fun q _ => ?_
    rw [blk5_0 V c ⟨0, hn⟩ ⟨0, by decide⟩ rfl, blk5_1 V c ⟨0, hn⟩ ⟨0, by decide⟩ rfl, blk5_2 V c ⟨0, hn⟩ ⟨0, by decide⟩ rfl]
  | n + 1, hn => by
    have hN : n + 1 < 32 := lt_of_lt_of_eq hn (show cfg5.N = 32 from N_5)
    have ih := acc5_apply c b o n (Nat.lt_of_succ_lt hn)
    by_cases h0 : n + 1 = 31
    · have hstep : (outsAt5 V c (n + 1) hn).2 = k5_pay4 (iblk5 V c 6 ⟨n + 1, hn⟩) (iblk5 V c 7 ⟨n + 1, hn⟩) (iblk5 V c 8 ⟨n + 1, hn⟩) (outsAt5 V c n (Nat.lt_of_succ_lt hn)).2 :=
        step5_Z V c ⟨n + 1, hn⟩ (Nat.succ_ne_zero n) h0
      have htile : ∑ q : Fin 512, tb5_6 V c ⟨n + 1, hn⟩ (ix2 b q) * (tb5_7 V c ⟨n + 1, hn⟩ (ix2 o q) * tb5_8 V c ⟨n + 1, hn⟩ (ix2 o q)) = tileN5_2 V c (n + 1 - 18) b o := by
        dsimp only [tb5_6, tb5_7, tb5_8]
        unfold tileN5_2
        rw [dif_pos (show n + 1 - 18 < 14 by omega)]
        unfold tile5_2
        refine Finset.sum_congr rfl fun q _ => ?_
        rw [blk5_6 V c ⟨n + 1, hn⟩ ⟨n + 1 - 18, by omega⟩ (by show n + 1 = n + 1 - 18 + 18; omega), blk5_7 V c ⟨n + 1, hn⟩ ⟨n + 1 - 18, by omega⟩ (by show n + 1 = n + 1 - 18 + 18; omega), blk5_8 V c ⟨n + 1, hn⟩ ⟨n + 1 - 18, by omega⟩ (by show n + 1 = n + 1 - 18 + 18; omega)]
      rw [hstep, pay5_4_apply, ih, htile]
      rw [Cert.LibPaddedSums.step_inactive (fun s => tileN5_0 V c s b o) 2 0 n (tileN5_0_zero V c b o) (by omega),
        Cert.LibPaddedSums.step_inactive (fun s => tileN5_1 V c s b o) 16 2 n (tileN5_1_zero V c b o) (by omega),
        Cert.LibPaddedSums.step_active (fun s => tileN5_2 V c s b o) 18 n (by omega)]
      ac_rfl
    by_cases h1 : n + 1 = 1
    · have hstep : (outsAt5 V c (n + 1) hn).2 = k5_pay2 (iblk5 V c 0 ⟨n + 1, hn⟩) (iblk5 V c 1 ⟨n + 1, hn⟩) (iblk5 V c 2 ⟨n + 1, hn⟩) (outsAt5 V c n (Nat.lt_of_succ_lt hn)).2 :=
        step5_B V c ⟨n + 1, hn⟩ (Nat.succ_ne_zero n) h0 h1
      have htile : ∑ q : Fin 512, tb5_0 V c ⟨n + 1, hn⟩ (ix2 b q) * (tb5_1 V c ⟨n + 1, hn⟩ (ix2 o q) * tb5_2 V c ⟨n + 1, hn⟩ (ix2 o q)) = tileN5_0 V c (n + 1 - 0) b o := by
        dsimp only [tb5_0, tb5_1, tb5_2]
        unfold tileN5_0
        rw [dif_pos (show n + 1 - 0 < 2 by omega)]
        unfold tile5_0
        refine Finset.sum_congr rfl fun q _ => ?_
        rw [blk5_0 V c ⟨n + 1, hn⟩ ⟨n + 1 - 0, by omega⟩ (by show n + 1 = n + 1 - 0 + 0; omega), blk5_1 V c ⟨n + 1, hn⟩ ⟨n + 1 - 0, by omega⟩ (by show n + 1 = n + 1 - 0 + 0; omega), blk5_2 V c ⟨n + 1, hn⟩ ⟨n + 1 - 0, by omega⟩ (by show n + 1 = n + 1 - 0 + 0; omega)]
      rw [hstep, pay5_2_apply, ih, htile]
      rw [Cert.LibPaddedSums.step_active (fun s => tileN5_0 V c s b o) 0 n (by omega),
        Cert.LibPaddedSums.step_inactive (fun s => tileN5_1 V c s b o) 16 2 n (tileN5_1_zero V c b o) (by omega),
        Cert.LibPaddedSums.step_inactive (fun s => tileN5_2 V c s b o) 14 18 n (tileN5_2_zero V c b o) (by omega)]
      ac_rfl
    by_cases h2 : (2 ≤ n + 1 ∧ n + 1 ≤ 17)
    · have hstep : (outsAt5 V c (n + 1) hn).2 = k5_pay3 (iblk5 V c 3 ⟨n + 1, hn⟩) (iblk5 V c 4 ⟨n + 1, hn⟩) (iblk5 V c 5 ⟨n + 1, hn⟩) (outsAt5 V c n (Nat.lt_of_succ_lt hn)).2 :=
        step5_C V c ⟨n + 1, hn⟩ (Nat.succ_ne_zero n) h0 h1 h2
      have htile : ∑ q : Fin 512, tb5_3 V c ⟨n + 1, hn⟩ (ix2 b q) * (tb5_4 V c ⟨n + 1, hn⟩ (ix2 o q) * tb5_5 V c ⟨n + 1, hn⟩ (ix2 o q)) = tileN5_1 V c (n + 1 - 2) b o := by
        dsimp only [tb5_3, tb5_4, tb5_5]
        unfold tileN5_1
        rw [dif_pos (show n + 1 - 2 < 16 by omega)]
        unfold tile5_1
        refine Finset.sum_congr rfl fun q _ => ?_
        rw [blk5_3 V c ⟨n + 1, hn⟩ ⟨n + 1 - 2, by omega⟩ (by show n + 1 = n + 1 - 2 + 2; omega), blk5_4 V c ⟨n + 1, hn⟩ ⟨n + 1 - 2, by omega⟩ (by show n + 1 = n + 1 - 2 + 2; omega), blk5_5 V c ⟨n + 1, hn⟩ ⟨n + 1 - 2, by omega⟩ (by show n + 1 = n + 1 - 2 + 2; omega)]
      rw [hstep, pay5_3_apply, ih, htile]
      rw [Cert.LibPaddedSums.step_inactive (fun s => tileN5_0 V c s b o) 2 0 n (tileN5_0_zero V c b o) (by omega),
        Cert.LibPaddedSums.step_active (fun s => tileN5_1 V c s b o) 2 n (by omega),
        Cert.LibPaddedSums.step_inactive (fun s => tileN5_2 V c s b o) 14 18 n (tileN5_2_zero V c b o) (by omega)]
      ac_rfl
    · have hstep : (outsAt5 V c (n + 1) hn).2 = k5_pay4 (iblk5 V c 6 ⟨n + 1, hn⟩) (iblk5 V c 7 ⟨n + 1, hn⟩) (iblk5 V c 8 ⟨n + 1, hn⟩) (outsAt5 V c n (Nat.lt_of_succ_lt hn)).2 :=
        step5_D V c ⟨n + 1, hn⟩ (Nat.succ_ne_zero n) h0 h1 h2
      have htile : ∑ q : Fin 512, tb5_6 V c ⟨n + 1, hn⟩ (ix2 b q) * (tb5_7 V c ⟨n + 1, hn⟩ (ix2 o q) * tb5_8 V c ⟨n + 1, hn⟩ (ix2 o q)) = tileN5_2 V c (n + 1 - 18) b o := by
        dsimp only [tb5_6, tb5_7, tb5_8]
        unfold tileN5_2
        rw [dif_pos (show n + 1 - 18 < 14 by omega)]
        unfold tile5_2
        refine Finset.sum_congr rfl fun q _ => ?_
        rw [blk5_6 V c ⟨n + 1, hn⟩ ⟨n + 1 - 18, by omega⟩ (by show n + 1 = n + 1 - 18 + 18; omega), blk5_7 V c ⟨n + 1, hn⟩ ⟨n + 1 - 18, by omega⟩ (by show n + 1 = n + 1 - 18 + 18; omega), blk5_8 V c ⟨n + 1, hn⟩ ⟨n + 1 - 18, by omega⟩ (by show n + 1 = n + 1 - 18 + 18; omega)]
      rw [hstep, pay5_4_apply, ih, htile]
      rw [Cert.LibPaddedSums.step_inactive (fun s => tileN5_0 V c s b o) 2 0 n (tileN5_0_zero V c b o) (by omega),
        Cert.LibPaddedSums.step_inactive (fun s => tileN5_1 V c s b o) 16 2 n (tileN5_1_zero V c b o) (by omega),
        Cert.LibPaddedSums.step_active (fun s => tileN5_2 V c s b o) 18 n (by omega)]
      ac_rfl

/-! ## The region's result -/

theorem hlast5 : 31 < cfg5.N := by rw [show cfg5.N = 32 from N_5]; decide

set_option maxHeartbeats 2000000 in
theorem out5_apply (c : Dev nD) (b : Fin 64) (o : Fin 1024) :
    (outsAt5 V c 31 hlast5).1 (ix2 b o) = Ideal.logistic ((whole5_0 V c b o + whole5_1 V c b o + whole5_2 V c b o) + a5_9 V c (ix2 (0 : Fin 1) o)) := by
  rw [show (outsAt5 V c 31 hlast5).1 = _ from last5 V c ⟨31, hlast5⟩ (by show (31 : ℕ) ≠ 0; decide) rfl]
  rw [← show (outsAt5 V c 31 hlast5).2 = _ from step5_Z V c ⟨31, hlast5⟩ (by show (31 : ℕ) ≠ 0; decide) rfl]
  rw [pay5_5_apply, acc5_apply V c b o 31 hlast5, blk5_9]
  rw [tiles5_0 V c b o (31 + 1 - 0) (by decide), tiles5_1 V c b o (31 + 1 - 2) (by decide), tiles5_2 V c b o (31 + 1 - 18) (by decide)]

/-- What region 5 leaves in its output array: the last point's buffer, written back whole. -/
def G5 (c : Dev nD) : S64x1024.Idx → EReal := (outsAt5 V c 31 hlast5).1

theorem emb5_out (t : Fin cfg5.N) (y : S64x1024.Idx) : ((cfg5.win 10).blk t).view.emb y = y := by
  obtain ⟨e0, e1⟩ := idx5_out t
  funext a; apply Fin.ext
  match a with
  | ⟨0, _⟩ => show win5_10.index t (0 : Fin 2) * 64 + 1 * (y 0).val = (y 0).val; omega
  | ⟨1, _⟩ => show win5_10.index t (1 : Fin 2) * 1024 + 1 * (y 1).val = (y 1).val; omega

theorem flushed5_eq (c : Dev nD) (t : Fin cfg5.N) (hf : (cfg5.win 10).flush t = true) :
    (dat5 V c).flushed 10 t = ((cfg5.win 10).blk t).view.read (Elt Ideal) (G5 V c) := by
  have ht : t.val = 31 := by
    have h1 := (flush5_10 t).mp hf
    have h2 : t.val < 32 := lt_of_lt_of_eq t.isLt (show cfg5.N = 32 from N_5)
    omega
  have ht' : t = ⟨31, hlast5⟩ := Fin.ext ht
  subst ht'
  show (cfg5.win 10).cut (grid5.coords ⟨31, hlast5⟩) ((dat5 V c).after 10 ⟨31, hlast5⟩) = _
  rw [after5_10]
  funext y
  show (outsAt5 V c 31 hlast5).1 y = G5 V c (((cfg5.win 10).blk ⟨31, hlast5⟩).view.emb y)
  rw [emb5_out]
  rfl

theorem mem_blk5_out (t : Fin cfg5.N) (i : S64x1024.Idx) :
    i ∈ ((cfg5.win 10).blk t).view.set ↔ ∀ a : Fin 2, win5_10.index t a * S64x1024.size a ≤ (i a).val ∧ (i a).val < win5_10.index t a * S64x1024.size a + S64x1024.size a := by
  show i ∈ ((View.whole main_v93).slice (win5_10.rect t)).set ↔ _
  rw [View.set_slice_whole, Rect.mem_set_unit]
  exact Iff.rfl

theorem final5 (c : Dev nD) : (dat5 V c).arrAt 10 cfg5.N = G5 V c :=
  (dat5 V c).arrAt_eq_of_cover 10 (G5 V c) (fun t hf => flushed5_eq V c t hf) (fun i =>
    ⟨⟨31, hlast5⟩, (flush5_10 ⟨31, hlast5⟩).mpr (by show 31 % 32 = 31; decide), by
      rw [mem_blk5_out]
      obtain ⟨e0, e1⟩ := idx5_out ⟨31, hlast5⟩
      intro a
      match a with
      | ⟨0, _⟩ => show win5_10.index ⟨31, hlast5⟩ (0 : Fin 2) * 64 ≤ (i 0).val ∧ (i 0).val < win5_10.index ⟨31, hlast5⟩ (0 : Fin 2) * 64 + 64; have hi : (i 0).val < 64 := (i 0).isLt; omega
      | ⟨1, _⟩ => show win5_10.index ⟨31, hlast5⟩ (1 : Fin 2) * 1024 ≤ (i 1).val ∧ (i 1).val < win5_10.index ⟨31, hlast5⟩ (1 : Fin 2) * 1024 + 1024; have hi : (i 1).val < 1024 := (i 1).isLt; omega⟩)

/-- Region 5's output array at an index. -/
theorem final5_apply (c : Dev nD) (b : Fin 64) (o : Fin 1024) :
    (dat5 V c).arrAt 10 cfg5.N (ix2 b o) = Ideal.logistic ((whole5_0 V c b o + whole5_1 V c b o + whole5_2 V c b o) + a5_9 V c (ix2 (0 : Fin 1) o)) :=
  (congrFun (final5 V c) (ix2 b o)).trans (out5_apply V c b o)

end Cert.KernelIdeal.Hand

end
-- ==== Proof.Bridge.L5.lean ====
/- Layer 5, the two sides joined: given the previous layer's equality, the buffer of earlier outputs agrees (the same scatter of equal arrays),
   every array region 5 stages is the reference's, and the two layer formulas differ only in the order of their additions. -/
import proofs.«164445_j37684043055467_1_alg».proof.Proof.KI.V5
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 5. -/
theorem skips5 (hA : Agree m m') (c : Dev Cert.KernelIdeal.nD)
    (hC : (Cert.KernelIdeal.Hand.o10 m c : Cert.KernelIdeal.S64x1024.Idx → EReal) = (Cert.ReferenceIdeal.Value.res_main_v155 (StableHlo.launchContents m' c)))
    (hS : (Cert.KernelIdeal.Hand.E9 m c Cert.KernelIdeal.main_v59 : Cert.KernelIdeal.S64x7168.Idx → EReal) = (Cert.ReferenceIdeal.Value.res_main_v121 (StableHlo.launchContents m' c))) :
    (Cert.KernelIdeal.Hand.E11 m c Cert.KernelIdeal.main_v77 : Cert.KernelIdeal.S64x7168.Idx → EReal) = (Cert.ReferenceIdeal.Value.res_main_v157 (StableHlo.launchContents m' c)) := by
  rw [Cert.KernelIdeal.Hand.B5_main_v77 m c]
  rw [show (Cert.KernelIdeal.Hand.E10 m c Cert.KernelIdeal.main_v75 : Cert.KernelIdeal.S64x1024.Idx → EReal) = (Cert.ReferenceIdeal.Value.res_main_v155 (StableHlo.launchContents m' c)) from (Cert.KernelIdeal.Hand.U10_out m c).trans hC]
  rw [show (Cert.KernelIdeal.Hand.E10 m c Cert.KernelIdeal.main_v59 : Cert.KernelIdeal.S64x7168.Idx → EReal) = (Cert.ReferenceIdeal.Value.res_main_v121 (StableHlo.launchContents m' c)) from (Cert.KernelIdeal.Hand.U10_ne m c Cert.KernelIdeal.main_v59 (by decide)).trans hS]
  rw [Cert.ReferenceIdeal.HandV.res157_eq]
  rfl

set_option maxHeartbeats 4000000 in
theorem layer5 (hA : Agree m m') (c : Dev Cert.KernelIdeal.nD)
    (hC : (Cert.KernelIdeal.Hand.o10 m c : Cert.KernelIdeal.S64x1024.Idx → EReal) = (Cert.ReferenceIdeal.Value.res_main_v155 (StableHlo.launchContents m' c)))
    (hS : (Cert.KernelIdeal.Hand.E11 m c Cert.KernelIdeal.main_v77 : Cert.KernelIdeal.S64x7168.Idx → EReal) = (Cert.ReferenceIdeal.Value.res_main_v157 (StableHlo.launchContents m' c))) :
    (Cert.KernelIdeal.Hand.o12 m c : Cert.KernelIdeal.S64x1024.Idx → EReal) = (Cert.ReferenceIdeal.Value.res_main_v191 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res191_apply]
  show (Cert.KernelIdeal.Hand.dat5 (Cert.KernelIdeal.Hand.E11 m) c).arrAt 10 Cert.KernelIdeal.cfg5.N (ix2 b o) = _
  rw [Cert.KernelIdeal.Hand.final5_apply]
  have e0 : Cert.KernelIdeal.Hand.a5_0 (Cert.KernelIdeal.Hand.E11 m) c = (Cert.ReferenceIdeal.Value.res_main_v155 (StableHlo.launchContents m' c)) := by
    show (Cert.KernelIdeal.Hand.E11 m c Cert.KernelIdeal.main_v75 : Cert.KernelIdeal.S64x1024.Idx → EReal) = _
    rw [Cert.KernelIdeal.Hand.keep11 m c Cert.KernelIdeal.main_v75 (by decide)]
    exact (Cert.KernelIdeal.Hand.U10_out m c).trans hC
  have e1 : Cert.KernelIdeal.Hand.a5_1 (Cert.KernelIdeal.Hand.E11 m) c = Cert.ReferenceIdeal.HandV.r_wh4 (StableHlo.launchContents m' c) := by
    show (Cert.KernelIdeal.Hand.E11 m c Cert.KernelIdeal.main_v79 : Cert.KernelIdeal.S1024x1024.Idx → EReal) = _
    rw [Cert.KernelIdeal.Hand.B5_main_v79 m c, Cert.KernelIdeal.Hand.U10_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a5_2 (Cert.KernelIdeal.Hand.E11 m) c = Cert.ReferenceIdeal.HandV.r_mh4 (StableHlo.launchContents m' c) := by
    show (Cert.KernelIdeal.Hand.E11 m c Cert.KernelIdeal.main_v81 : Cert.KernelIdeal.S1024x1024.Idx → EReal) = _
    rw [Cert.KernelIdeal.Hand.B5_main_v81 m c, Cert.KernelIdeal.Hand.U10_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a5_3 (Cert.KernelIdeal.Hand.E11 m) c = Cert.ReferenceIdeal.HandV.r_h (StableHlo.launchContents m' c) := by
    show (Cert.KernelIdeal.Hand.E11 m c Cert.KernelIdeal.main_arg1 : Cert.KernelIdeal.S64x8192.Idx → EReal) = _
    rw [Cert.KernelIdeal.Hand.U11_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a5_4 (Cert.KernelIdeal.Hand.E11 m) c = Cert.ReferenceIdeal.HandV.r_wr5 (StableHlo.launchContents m' c) := by
    show (Cert.KernelIdeal.Hand.E11 m c Cert.KernelIdeal.main_v83 : Cert.KernelIdeal.S1024x8192.Idx → EReal) = _
    rw [Cert.KernelIdeal.Hand.B5_main_v83 m c, Cert.KernelIdeal.Hand.U10_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a5_5 (Cert.KernelIdeal.Hand.E11 m) c = Cert.ReferenceIdeal.HandV.r_mr5 (StableHlo.launchContents m' c) := by
    show (Cert.KernelIdeal.Hand.E11 m c Cert.KernelIdeal.main_v85 : Cert.KernelIdeal.S1024x8192.Idx → EReal) = _
    rw [Cert.KernelIdeal.Hand.B5_main_v85 m c, Cert.KernelIdeal.Hand.U10_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have e6 : Cert.KernelIdeal.Hand.a5_6 (Cert.KernelIdeal.Hand.E11 m) c = (Cert.ReferenceIdeal.Value.res_main_v157 (StableHlo.launchContents m' c)) := hS
  have e7 : Cert.KernelIdeal.Hand.a5_7 (Cert.KernelIdeal.Hand.E11 m) c = Cert.ReferenceIdeal.HandV.r_ws3 (StableHlo.launchContents m' c) := by
    show (Cert.KernelIdeal.Hand.E11 m c Cert.KernelIdeal.main_v87 : Cert.KernelIdeal.S1024x7168.Idx → EReal) = _
    rw [Cert.KernelIdeal.Hand.B5_main_v87 m c, Cert.KernelIdeal.Hand.U10_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e8 : Cert.KernelIdeal.Hand.a5_8 (Cert.KernelIdeal.Hand.E11 m) c = Cert.ReferenceIdeal.HandV.r_ms3 (StableHlo.launchContents m' c) := by
    show (Cert.KernelIdeal.Hand.E11 m c Cert.KernelIdeal.main_v89 : Cert.KernelIdeal.S1024x7168.Idx → EReal) = _
    rw [Cert.KernelIdeal.Hand.B5_main_v89 m c, Cert.KernelIdeal.Hand.U10_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a5_9 (Cert.KernelIdeal.Hand.E11 m) c (ix2 (0 : Fin 1) o) = Cert.ReferenceIdeal.HandV.r_bh4 (StableHlo.launchContents m' c) (ix1 o) := by
    show (Cert.KernelIdeal.Hand.E11 m c Cert.KernelIdeal.main_v92 : Cert.KernelIdeal.S1x1024.Idx → EReal) (ix2 (0 : Fin 1) o) = _
    rw [congrFun (Cert.KernelIdeal.Hand.B5_main_v92 m c) (ix2 (0 : Fin 1) o), Cert.LibHostApply.shapeCast_row_apply, Cert.KernelIdeal.Hand.U10_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole5_0 Cert.KernelIdeal.Hand.whole5_1 Cert.KernelIdeal.Hand.whole5_2
  rw [e0, e1, e2, e3, e4, e5, e6, e7, e8, eb]
  refine congrArg Ideal.logistic ?_
  exact (add_right_comm _ _ _).trans (congrArg (· + _) (add_right_comm _ _ _))

end Cert.Proof.Bridge

end
-- ==== Proof.KI.R6Acc.lean ====
/- Region 6: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R6Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_6 : (![0, 0] : Fin 2 → Nat) = fun _ => 0 := funext fun a => by fin_cases a <;> rfl
local notation "hz2" => hz2_6

theorem sout6_A_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : cond6_1 i) (hc2 : cond6_2 i) (hc3 : ¬cond6_3 i) (hc4 : ¬cond6_4 i) (hc5 : ¬cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) :
    sout6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 = k6_pay2 x1 x2 x3 (k6_pay1 (F := F)) := by
  unfold sout6_A
  rw [View.read_writes_eq_canon _ _ _ (scover6_A c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10)]
  unfold kernelRun6_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout6_Z_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k6_pay4 x7 x8 x9 xs := by
  unfold sout6_Z
  rw [View.read_writes_eq_canon _ _ _ (scover6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun6_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out6_Z_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    out6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k6_pay5 (k6_pay4 x7 x8 x9 xs) x10 := by
  unfold out6_Z
  rw [View.read_writes_eq_canon _ _ _ (cover6_Z c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun6_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout6_B_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : cond6_2 i) (hc3 : ¬cond6_3 i) (hc4 : ¬cond6_4 i) (hc5 : ¬cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k6_pay2 x1 x2 x3 xs := by
  unfold sout6_B
  rw [View.read_writes_eq_canon _ _ _ (scover6_B c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun6_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout6_C_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : cond6_3 i) (hc4 : ¬cond6_4 i) (hc5 : ¬cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k6_pay3 x4 x5 x6 xs := by
  unfold sout6_C
  rw [View.read_writes_eq_canon _ _ _ (scover6_C c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun6_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout6_D_eq (c : Dev nD) (i : grid6.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S64x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1x1024 .f32) (harg10 : arg10.IsWhole) (arg11 : Memref sig .tc .vmem S64x1024 .f32) (harg11 : arg11.IsWhole) (arg12 : Memref sig .tc .vmem S64x1024 .f32) (harg12 : arg12.IsWhole) (hc1 : ¬cond6_1 i) (hc2 : ¬cond6_2 i) (hc3 : ¬cond6_3 i) (hc4 : cond6_4 i) (hc5 : ¬cond6_5 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S64x512 .f32) (x8 : Vec F S1024x512 .f32) (x9 : Vec F S1024x512 .f32) (x10 : Vec F S1x1024 .f32) (xs : Vec F S64x1024 .f32) :
    sout6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs = k6_pay4 x7 x8 x9 xs := by
  unfold sout6_D
  rw [View.read_writes_eq_canon _ _ _ (scover6_D c i arg1 harg1 arg2 harg2 arg3 harg3 arg4 harg4 arg5 harg5 arg6 harg6 arg7 harg7 arg8 harg8 arg9 harg9 arg10 harg10 arg11 harg11 arg12 harg12 hc1 hc2 hc3 hc4 hc5 x1 x2 x3 x4 x5 x6 x7 x8 x9 x10 xs)]
  unfold kernelRun6_D
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step6_A (c : Dev nD) (t : Fin cfg6.N) (hz : t.val = 0) :
    (outsAt6 V c t.val t.isLt).2 = k6_pay2 (iblk6 V c 0 t) (iblk6 V c 1 t) (iblk6 V c 2 t) (k6_pay1 (F := F)) := by
  rw [outsAt6_A V c t hz]
  dsimp only
  exact sout6_A_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_A t hz).1) ((case6_A t hz).2.1) ((case6_A t hz).2.2.1) ((case6_A t hz).2.2.2.1) ((case6_A t hz).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)

set_option maxHeartbeats 2000000 in
theorem step6_Z (c : Dev nD) (t : Fin cfg6.N) (hz : t.val ≠ 0) (h0 : t.val = 31) :
    (outsAt6 V c t.val t.isLt).2 = k6_pay4 (iblk6 V c 6 t) (iblk6 V c 7 t) (iblk6 V c 8 t) (outsAt6 V c (t.val - 1) (Nat.lt_of_le_of_lt (Nat.sub_le _ _) t.isLt)).2 := by
  rw [outsAt6_Z V c t hz h0]
  dsimp only
  exact sout6_Z_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2

set_option maxHeartbeats 2000000 in
theorem last6 (c : Dev nD) (t : Fin cfg6.N) (hz : t.val ≠ 0) (h0 : t.val = 31) :
    (outsAt6 V c t.val t.isLt).1 = k6_pay5 (k6_pay4 (iblk6 V c 6 t) (iblk6 V c 7 t) (iblk6 V c 8 t) (outsAt6 V c (t.val - 1) (Nat.lt_of_le_of_lt (Nat.sub_le _ _) t.isLt)).2) (iblk6 V c 9 t) := by
  rw [outsAt6_Z V c t hz h0]
  dsimp only
  exact out6_Z_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_Z t hz h0).1) ((case6_Z t hz h0).2.1) ((case6_Z t hz h0).2.2.1) ((case6_Z t hz h0).2.2.2.1) ((case6_Z t hz h0).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2

set_option maxHeartbeats 2000000 in
theorem step6_B (c : Dev nD) (t : Fin cfg6.N) (hz : t.val ≠ 0) (h0 : ¬t.val = 31) (h1 : t.val = 1) :
    (outsAt6 V c t.val t.isLt).2 = k6_pay2 (iblk6 V c 0 t) (iblk6 V c 1 t) (iblk6 V c 2 t) (outsAt6 V c (t.val - 1) (Nat.lt_of_le_of_lt (Nat.sub_le _ _) t.isLt)).2 := by
  rw [outsAt6_B V c t hz h0 h1]
  dsimp only
  exact sout6_B_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_B t hz h0 h1).1) ((case6_B t hz h0 h1).2.1) ((case6_B t hz h0 h1).2.2.1) ((case6_B t hz h0 h1).2.2.2.1) ((case6_B t hz h0 h1).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2

set_option maxHeartbeats 2000000 in
theorem step6_C (c : Dev nD) (t : Fin cfg6.N) (hz : t.val ≠ 0) (h0 : ¬t.val = 31) (h1 : ¬t.val = 1) (h2 : (2 ≤ t.val ∧ t.val ≤ 17)) :
    (outsAt6 V c t.val t.isLt).2 = k6_pay3 (iblk6 V c 3 t) (iblk6 V c 4 t) (iblk6 V c 5 t) (outsAt6 V c (t.val - 1) (Nat.lt_of_le_of_lt (Nat.sub_le _ _) t.isLt)).2 := by
  rw [outsAt6_C V c t hz h0 h1 h2]
  dsimp only
  exact sout6_C_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_C t hz h0 h1 h2).1) ((case6_C t hz h0 h1 h2).2.1) ((case6_C t hz h0 h1 h2).2.2.1) ((case6_C t hz h0 h1 h2).2.2.2.1) ((case6_C t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2

set_option maxHeartbeats 2000000 in
theorem step6_D (c : Dev nD) (t : Fin cfg6.N) (hz : t.val ≠ 0) (h0 : ¬t.val = 31) (h1 : ¬t.val = 1) (h2 : ¬(2 ≤ t.val ∧ t.val ≤ 17)) :
    (outsAt6 V c t.val t.isLt).2 = k6_pay4 (iblk6 V c 6 t) (iblk6 V c 7 t) (iblk6 V c 8 t) (outsAt6 V c (t.val - 1) (Nat.lt_of_le_of_lt (Nat.sub_le _ _) t.isLt)).2 := by
  rw [outsAt6_D V c t hz h0 h1 h2]
  dsimp only
  exact sout6_D_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) scM6 (Memref.isWhole_whole _) ((case6_D t hz h0 h1 h2).1) ((case6_D t hz h0 h1 h2).2.1) ((case6_D t hz h0 h1 h2).2.2.1) ((case6_D t hz h0 h1 h2).2.2.2.1) ((case6_D t hz h0 h1 h2).2.2.2.2) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (outsAt6 V c (t.val - 1) (Nat.lt_of_le_of_lt (Nat.sub_le _ _) t.isLt)).2

end Cert.KernelIdeal.Hand

end
-- ==== Proof.KI.V6.lean ====
/- Region 6 at the ideal instance: each window's block read at an index of the array it stages; the accumulator after every point as the
   sum, over the region's 3 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R6Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx6_t0 : ∀ t : Fin cfg6.N, 0 ≤ t.val → t.val < 2 → win6_0.index t (0 : Fin 2) = 0 ∧ win6_0.index t (1 : Fin 2) = t.val - 0 ∧ win6_1.index t (0 : Fin 2) = 0 ∧ win6_1.index t (1 : Fin 2) = t.val - 0 ∧ win6_2.index t (0 : Fin 2) = 0 ∧ win6_2.index t (1 : Fin 2) = t.val - 0 :=
  (by decide +kernel : ∀ t : Fin grid6.N, 0 ≤ t.val → t.val < 2 → _)
theorem idx6_t1 : ∀ t : Fin cfg6.N, 2 ≤ t.val → t.val < 18 → win6_3.index t (0 : Fin 2) = 0 ∧ win6_3.index t (1 : Fin 2) = t.val - 2 ∧ win6_4.index t (0 : Fin 2) = 0 ∧ win6_4.index t (1 : Fin 2) = t.val - 2 ∧ win6_5.index t (0 : Fin 2) = 0 ∧ win6_5.index t (1 : Fin 2) = t.val - 2 :=
  (by decide +kernel : ∀ t : Fin grid6.N, 2 ≤ t.val → t.val < 18 → _)
theorem idx6_t2 : ∀ t : Fin cfg6.N, 18 ≤ t.val → t.val < 32 → win6_6.index t (0 : Fin 2) = 0 ∧ win6_6.index t (1 : Fin 2) = t.val - 18 ∧ win6_7.index t (0 : Fin 2) = 0 ∧ win6_7.index t (1 : Fin 2) = t.val - 18 ∧ win6_8.index t (0 : Fin 2) = 0 ∧ win6_8.index t (1 : Fin 2) = t.val - 18 :=
  (by decide +kernel : ∀ t : Fin grid6.N, 18 ≤ t.val → t.val < 32 → _)
theorem idx6_b : ∀ t : Fin cfg6.N, win6_9.index t (0 : Fin 2) = 0 ∧ win6_9.index t (1 : Fin 2) = 0 :=
  (by decide +kernel : ∀ t : Fin grid6.N, _)
theorem idx6_out : ∀ t : Fin cfg6.N, win6_10.index t (0 : Fin 2) = 0 ∧ win6_10.index t (1 : Fin 2) = 0 :=
  (by decide +kernel : ∀ t : Fin grid6.N, _)

/-! ## The windows' blocks at their literal shapes -/
abbrev tb6_0 (c : Dev nD) (t : Fin cfg6.N) : Vec Ideal S64x512 .f32 := iblk6 V c 0 t
abbrev tb6_1 (c : Dev nD) (t : Fin cfg6.N) : Vec Ideal S1024x512 .f32 := iblk6 V c 1 t
abbrev tb6_2 (c : Dev nD) (t : Fin cfg6.N) : Vec Ideal S1024x512 .f32 := iblk6 V c 2 t
abbrev tb6_3 (c : Dev nD) (t : Fin cfg6.N) : Vec Ideal S64x512 .f32 := iblk6 V c 3 t
abbrev tb6_4 (c : Dev nD) (t : Fin cfg6.N) : Vec Ideal S1024x512 .f32 := iblk6 V c 4 t
abbrev tb6_5 (c : Dev nD) (t : Fin cfg6.N) : Vec Ideal S1024x512 .f32 := iblk6 V c 5 t
abbrev tb6_6 (c : Dev nD) (t : Fin cfg6.N) : Vec Ideal S64x512 .f32 := iblk6 V c 6 t
abbrev tb6_7 (c : Dev nD) (t : Fin cfg6.N) : Vec Ideal S1024x512 .f32 := iblk6 V c 7 t
abbrev tb6_8 (c : Dev nD) (t : Fin cfg6.N) : Vec Ideal S1024x512 .f32 := iblk6 V c 8 t
abbrev tb6_9 (c : Dev nD) (t : Fin cfg6.N) : Vec Ideal S1x1024 .f32 := iblk6 V c 9 t

/-! ## The blocks -/

theorem blk6_0 (c : Dev nD) (t : Fin cfg6.N) (s : Fin 2) (ht : t.val = s.val + 0) (r : Fin 64) (q : Fin 512) :
    iblk6 V c 0 t (ix2 r q) = V c main_v93 (ix2 r (⟨512 * s.val + q.val, by have := s.isLt; have := q.isLt; omega⟩ : Fin 1024)) := by
  unfold iblk6
  show V c main_v93 (((cfg6.win 0).blk t).view.emb (ix2 r q)) = _
  refine congrArg (V c main_v93) ?_
  have hs := s.isLt
  obtain ⟨e0, e1, e2, e3, e4, e5⟩ := idx6_t0 t (by omega) (by omega)
  funext a; apply Fin.ext
  match a with
  | ⟨0, _⟩ => show win6_0.index t (0 : Fin 2) * 64 + 1 * r.val = r.val; omega
  | ⟨1, _⟩ => show win6_0.index t (1 : Fin 2) * 512 + 1 * q.val = 512 * s.val + q.val; omega

theorem blk6_1 (c : Dev nD) (t : Fin cfg6.N) (s : Fin 2) (ht : t.val = s.val + 0) (r : Fin 1024) (q : Fin 512) :
    iblk6 V c 1 t (ix2 r q) = V c main_v97 (ix2 r (⟨512 * s.val + q.val, by have := s.isLt; have := q.isLt; omega⟩ : Fin 1024)) := by
  unfold iblk6
  show V c main_v97 (((cfg6.win 1).blk t).view.emb (ix2 r q)) = _
  refine congrArg (V c main_v97) ?_
  have hs := s.isLt
  obtain ⟨e0, e1, e2, e3, e4, e5⟩ := idx6_t0 t (by omega) (by omega)
  funext a; apply Fin.ext
  match a with
  | ⟨0, _⟩ => show win6_1.index t (0 : Fin 2) * 1024 + 1 * r.val = r.val; omega
  | ⟨1, _⟩ => show win6_1.index t (1 : Fin 2) * 512 + 1 * q.val = 512 * s.val + q.val; omega

theorem blk6_2 (c : Dev nD) (t : Fin cfg6.N) (s : Fin 2) (ht : t.val = s.val + 0) (r : Fin 1024) (q : Fin 512) :
    iblk6 V c 2 t (ix2 r q) = V c main_v99 (ix2 r (⟨512 * s.val + q.val, by have := s.isLt; have := q.isLt; omega⟩ : Fin 1024)) := by
  unfold iblk6
  show V c main_v99 (((cfg6.win 2).blk t).view.emb (ix2 r q)) = _
  refine congrArg (V c main_v99) ?_
  have hs := s.isLt
  obtain ⟨e0, e1, e2, e3, e4, e5⟩ := idx6_t0 t (by omega) (by omega)
  funext a; apply Fin.ext
  match a with
  | ⟨0, _⟩ => show win6_2.index t (0 : Fin 2) * 1024 + 1 * r.val = r.val; omega
  | ⟨1, _⟩ => show win6_2.index t (1 : Fin 2) * 512 + 1 * q.val = 512 * s.val + q.val; omega

theorem blk6_3 (c : Dev nD) (t : Fin cfg6.N) (s : Fin 16) (ht : t.val = s.val + 2) (r : Fin 64) (q : Fin 512) :
    iblk6 V c 3 t (ix2 r q) = V c main_arg1 (ix2 r (⟨512 * s.val + q.val, by have := s.isLt; have := q.isLt; omega⟩ : Fin 8192)) := by
  unfold iblk6
  show V c main_arg1 (((cfg6.win 3).blk t).view.emb (ix2 r q)) = _
  refine congrArg (V c main_arg1) ?_
  have hs := s.isLt
  obtain ⟨e0, e1, e2, e3, e4, e5⟩ := idx6_t1 t (by omega) (by omega)
  funext a; apply Fin.ext
  match a with
  | ⟨0, _⟩ => show win6_3.index t (0 : Fin 2) * 64 + 1 * r.val = r.val; omega
  | ⟨1, _⟩ => show win6_3.index t (1 : Fin 2) * 512 + 1 * q.val = 512 * s.val + q.val; omega

theorem blk6_4 (c : Dev nD) (t : Fin cfg6.N) (s : Fin 16) (ht : t.val = s.val + 2) (r : Fin 1024) (q : Fin 512) :
    iblk6 V c 4 t (ix2 r q) = V c main_v101 (ix2 r (⟨512 * s.val + q.val, by have := s.isLt; have := q.isLt; omega⟩ : Fin 8192)) := by
  unfold iblk6
  show V c main_v101 (((cfg6.win 4).blk t).view.emb (ix2 r q)) = _
  refine congrArg (V c main_v101) ?_
  have hs := s.isLt
  obtain ⟨e0, e1, e2, e3, e4, e5⟩ := idx6_t1 t (by omega) (by omega)
  funext a; apply Fin.ext
  match a with
  | ⟨0, _⟩ => show win6_4.index t (0 : Fin 2) * 1024 + 1 * r.val = r.val; omega
  | ⟨1, _⟩ => show win6_4.index t (1 : Fin 2) * 512 + 1 * q.val = 512 * s.val + q.val; omega

theorem blk6_5 (c : Dev nD) (t : Fin cfg6.N) (s : Fin 16) (ht : t.val = s.val + 2) (r : Fin 1024) (q : Fin 512) :
    iblk6 V c 5 t (ix2 r q) = V c main_v103 (ix2 r (⟨512 * s.val + q.val, by have := s.isLt; have := q.isLt; omega⟩ : Fin 8192)) := by
  unfold iblk6
  show V c main_v103 (((cfg6.win 5).blk t).view.emb (ix2 r q)) = _
  refine congrArg (V c main_v103) ?_
  have hs := s.isLt
  obtain ⟨e0, e1, e2, e3, e4, e5⟩ := idx6_t1 t (by omega) (by omega)
  funext a; apply Fin.ext
  match a with
  | ⟨0, _⟩ => show win6_5.index t (0 : Fin 2) * 1024 + 1 * r.val = r.val; omega
  | ⟨1, _⟩ => show win6_5.index t (1 : Fin 2) * 512 + 1 * q.val = 512 * s.val + q.val; omega

theorem blk6_6 (c : Dev nD) (t : Fin cfg6.N) (s : Fin 14) (ht : t.val = s.val + 18) (r : Fin 64) (q : Fin 512) :
    iblk6 V c 6 t (ix2 r q) = V c main_v95 (ix2 r (⟨512 * s.val + q.val, by have := s.isLt; have := q.isLt; omega⟩ : Fin 7168)) := by
  unfold iblk6
  show V c main_v95 (((cfg6.win 6).blk t).view.emb (ix2 r q)) = _
  refine congrArg (V c main_v95) ?_
  have hs := s.isLt
  obtain ⟨e0, e1, e2, e3, e4, e5⟩ := idx6_t2 t (by omega) (by omega)
  funext a; apply Fin.ext
  match a with
  | ⟨0, _⟩ => show win6_6.index t (0 : Fin 2) * 64 + 1 * r.val = r.val; omega
  | ⟨1, _⟩ => show win6_6.index t (1 : Fin 2) * 512 + 1 * q.val = 512 * s.val + q.val; omega

theorem blk6_7 (c : Dev nD) (t : Fin cfg6.N) (s : Fin 14) (ht : t.val = s.val + 18) (r : Fin 1024) (q : Fin 512) :
    iblk6 V c 7 t (ix2 r q) = V c main_v105 (ix2 r (⟨512 * s.val + q.val, by have := s.isLt; have := q.isLt; omega⟩ : Fin 7168)) := by
  unfold iblk6
  show V c main_v105 (((cfg6.win 7).blk t).view.emb (ix2 r q)) = _
  refine congrArg (V c main_v105) ?_
  have hs := s.isLt
  obtain ⟨e0, e1, e2, e3, e4, e5⟩ := idx6_t2 t (by omega) (by omega)
  funext a; apply Fin.ext
  match a with
  | ⟨0, _⟩ => show win6_7.index t (0 : Fin 2) * 1024 + 1 * r.val = r.val; omega
  | ⟨1, _⟩ => show win6_7.index t (1 : Fin 2) * 512 + 1 * q.val = 512 * s.val + q.val; omega

theorem blk6_8 (c : Dev nD) (t : Fin cfg6.N) (s : Fin 14) (ht : t.val = s.val + 18) (r : Fin 1024) (q : Fin 512) :
    iblk6 V c 8 t (ix2 r q) = V c main_v107 (ix2 r (⟨512 * s.val + q.val, by have := s.isLt; have := q.isLt; omega⟩ : Fin 7168)) := by
  unfold iblk6
  show V c main_v107 (((cfg6.win 8).blk t).view.emb (ix2 r q)) = _
  refine congrArg (V c main_v107) ?_
  have hs := s.isLt
  obtain ⟨e0, e1, e2, e3, e4, e5⟩ := idx6_t2 t (by omega) (by omega)
  funext a; apply Fin.ext
  match a with
  | ⟨0, _⟩ => show win6_8.index t (0 : Fin 2) * 1024 + 1 * r.val = r.val; omega
  | ⟨1, _⟩ => show win6_8.index t (1 : Fin 2) * 512 + 1 * q.val = 512 * s.val + q.val; omega

theorem blk6_9 (c : Dev nD) (t : Fin cfg6.N) (o : Fin 1024) :
    iblk6 V c 9 t (ix2 (0 : Fin 1) o) = V c main_v110 (ix2 (0 : Fin 1) o) := by
  unfold iblk6
  show V c main_v110 (((cfg6.win 9).blk t).view.emb (ix2 (0 : Fin 1) o)) = _
  refine congrArg (V c main_v110) ?_
  obtain ⟨e0, e1⟩ := idx6_b t
  funext a; apply Fin.ext
  match a with
  | ⟨0, _⟩ => show win6_9.index t (0 : Fin 2) * 1 + 1 * (0 : Fin 1).val = (0 : Fin 1).val; omega
  | ⟨1, _⟩ => show win6_9.index t (1 : Fin 2) * 1024 + 1 * o.val = o.val; omega

/-! ## The payloads at an index -/

theorem pay6_1_apply (j : S64x1024.Idx) : k6_pay1 (F := Ideal) j = 0 := by
  unfold k6_pay1
  simp only [shapeCast_self]
  show Ideal.ofBits .f32 0x00000000#32 = 0
  exact Ideal.ofBits_zero_f32

theorem pay6_2_apply (x : Vec Ideal S64x512 .f32) (w m : Vec Ideal S1024x512 .f32) (prev : Vec Ideal S64x1024 .f32) (b : Fin 64) (o : Fin 1024) :
    k6_pay2 x w m prev (ix2 b o) = prev (ix2 b o) + ∑ q : Fin 512, x (ix2 b q) * (w (ix2 o q) * m (ix2 o q)) := by
  unfold k6_pay2
  simp only [shapeCast_self]
  exact HandV.tile_apply x w m prev b o

theorem pay6_3_apply (x : Vec Ideal S64x512 .f32) (w m : Vec Ideal S1024x512 .f32) (prev : Vec Ideal S64x1024 .f32) (b : Fin 64) (o : Fin 1024) :
    k6_pay3 x w m prev (ix2 b o) = prev (ix2 b o) + ∑ q : Fin 512, x (ix2 b q) * (w (ix2 o q) * m (ix2 o q)) := by
  unfold k6_pay3
  simp only [shapeCast_self]
  exact HandV.tile_apply x w m prev b o

theorem pay6_4_apply (x : Vec Ideal S64x512 .f32) (w m : Vec Ideal S1024x512 .f32) (prev : Vec Ideal S64x1024 .f32) (b : Fin 64) (o : Fin 1024) :
    k6_pay4 x w m prev (ix2 b o) = prev (ix2 b o) + ∑ q : Fin 512, x (ix2 b q) * (w (ix2 o q) * m (ix2 o q)) := by
  unfold k6_pay4
  simp only [shapeCast_self]
  exact HandV.tile_apply x w m prev b o

theorem pay6_5_apply (a : Vec Ideal S64x1024 .f32) (bias : Vec Ideal S1x1024 .f32) (b : Fin 64) (o : Fin 1024) :
    k6_pay5 a bias (ix2 b o) = Ideal.logistic (a (ix2 b o) + bias (ix2 (0 : Fin 1) o)) := by
  unfold k6_pay5
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a6_0 (c : Dev nD) : S64x1024.Idx → EReal := V c main_v93
abbrev a6_1 (c : Dev nD) : S1024x1024.Idx → EReal := V c main_v97
abbrev a6_2 (c : Dev nD) : S1024x1024.Idx → EReal := V c main_v99
abbrev a6_3 (c : Dev nD) : S64x8192.Idx → EReal := V c main_arg1
abbrev a6_4 (c : Dev nD) : S1024x8192.Idx → EReal := V c main_v101
abbrev a6_5 (c : Dev nD) : S1024x8192.Idx → EReal := V c main_v103
abbrev a6_6 (c : Dev nD) : S64x7168.Idx → EReal := V c main_v95
abbrev a6_7 (c : Dev nD) : S1024x7168.Idx → EReal := V c main_v105
abbrev a6_8 (c : Dev nD) : S1024x7168.Idx → EReal := V c main_v107
abbrev a6_9 (c : Dev nD) : S1x1024.Idx → EReal := V c main_v110

/-- Term 0's tile `s`: columns 512·s … of its left array against the same columns of weight · mask. -/
def tile6_0 (c : Dev nD) (s : Fin 2) (b : Fin 64) (o : Fin 1024) : EReal :=
  ∑ q : Fin 512, a6_0 V c (ix2 b (⟨512 * s.val + q.val, by have := s.isLt; have := q.isLt; omega⟩ : Fin 1024)) * (a6_1 V c (ix2 o (⟨512 * s.val + q.val, by have := s.isLt; have := q.isLt; omega⟩ : Fin 1024)) * a6_2 V c (ix2 o (⟨512 * s.val + q.val, by have := s.isLt; have := q.isLt; omega⟩ : Fin 1024)))
/-- The same over the naturals, zero past the term's last tile. -/
def tileN6_0 (c : Dev nD) (s : ℕ) (b : Fin 64) (o : Fin 1024) : EReal :=
  if h : s < 2 then tile6_0 V c ⟨s, h⟩ b o else 0
theorem tileN6_0_zero (c : Dev nD) (b : Fin 64) (o : Fin 1024) : ∀ s, 2 ≤ s → tileN6_0 V c s b o = 0 :=
  fun s h => dif_neg (by omega)
/-- Term 0 whole. -/
def whole6_0 (c : Dev nD) (b : Fin 64) (o : Fin 1024) : EReal :=
  ∑ n : Fin 1024, a6_0 V c (ix2 b n) * (a6_1 V c (ix2 o n) * a6_2 V c (ix2 o n))
theorem sum6_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles6_0 (c : Dev nD) (b : Fin 64) (o : Fin 1024) (x : ℕ) (hx : 2 ≤ x) :
    ∑ s ∈ Finset.range x, tileN6_0 V c s b o = whole6_0 V c b o := by
  rw [Cert.LibPaddedSums.pad (fun s => tileN6_0 V c s b o) 2 (tileN6_0_zero V c b o) x hx,
    Cert.LibPaddedSums.range_eq_fin 2 (fun s => tile6_0 V c s b o) (fun s => tileN6_0 V c s b o) (fun s => dif_pos s.isLt)]
  unfold whole6_0
  rw [sum6_0]
  rfl

/-- Term 1's tile `s`: columns 512·s … of its left array against the same columns of weight · mask. -/
def tile6_1 (c : Dev nD) (s : Fin 16) (b : Fin 64) (o : Fin 1024) : EReal :=
  ∑ q : Fin 512, a6_3 V c (ix2 b (⟨512 * s.val + q.val, by have := s.isLt; have := q.isLt; omega⟩ : Fin 8192)) * (a6_4 V c (ix2 o (⟨512 * s.val + q.val, by have := s.isLt; have := q.isLt; omega⟩ : Fin 8192)) * a6_5 V c (ix2 o (⟨512 * s.val + q.val, by have := s.isLt; have := q.isLt; omega⟩ : Fin 8192)))
/-- The same over the naturals, zero past the term's last tile. -/
def tileN6_1 (c : Dev nD) (s : ℕ) (b : Fin 64) (o : Fin 1024) : EReal :=
  if h : s < 16 then tile6_1 V c ⟨s, h⟩ b o else 0
theorem tileN6_1_zero (c : Dev nD) (b : Fin 64) (o : Fin 1024) : ∀ s, 16 ≤ s → tileN6_1 V c s b o = 0 :=
  fun s h => dif_neg (by omega)
/-- Term 1 whole. -/
def whole6_1 (c : Dev nD) (b : Fin 64) (o : Fin 1024) : EReal :=
  ∑ n : Fin 8192, a6_3 V c (ix2 b n) * (a6_4 V c (ix2 o n) * a6_5 V c (ix2 o n))
theorem sum6_1 (g : Fin 8192 → EReal) :
    ∑ n : Fin 8192, g n = ∑ s : Fin 16, ∑ q : Fin 512, g ⟨512 * s.val + q.val, by have := s.isLt; have := q.isLt; omega⟩ := by
  refine (Cert.LibSumBlocks.sum_blocks 16 512 g).trans ?_
  refine Finset.sum_congr rfl fun s _ => Finset.sum_congr rfl fun q _ => congrArg g (Fin.ext ?_)
  show s.val * 512 + q.val = 512 * s.val + q.val
  omega
theorem tiles6_1 (c : Dev nD) (b : Fin 64) (o : Fin 1024) (x : ℕ) (hx : 16 ≤ x) :
    ∑ s ∈ Finset.range x, tileN6_1 V c s b o = whole6_1 V c b o := by
  rw [Cert.LibPaddedSums.pad (fun s => tileN6_1 V c s b o) 16 (tileN6_1_zero V c b o) x hx,
    Cert.LibPaddedSums.range_eq_fin 16 (fun s => tile6_1 V c s b o) (fun s => tileN6_1 V c s b o) (fun s => dif_pos s.isLt)]
  unfold whole6_1
  rw [sum6_1]
  rfl

/-- Term 2's tile `s`: columns 512·s … of its left array against the same columns of weight · mask. -/
def tile6_2 (c : Dev nD) (s : Fin 14) (b : Fin 64) (o : Fin 1024) : EReal :=
  ∑ q : Fin 512, a6_6 V c (ix2 b (⟨512 * s.val + q.val, by have := s.isLt; have := q.isLt; omega⟩ : Fin 7168)) * (a6_7 V c (ix2 o (⟨512 * s.val + q.val, by have := s.isLt; have := q.isLt; omega⟩ : Fin 7168)) * a6_8 V c (ix2 o (⟨512 * s.val + q.val, by have := s.isLt; have := q.isLt; omega⟩ : Fin 7168)))
/-- The same over the naturals, zero past the term's last tile. -/
def tileN6_2 (c : Dev nD) (s : ℕ) (b : Fin 64) (o : Fin 1024) : EReal :=
  if h : s < 14 then tile6_2 V c ⟨s, h⟩ b o else 0
theorem tileN6_2_zero (c : Dev nD) (b : Fin 64) (o : Fin 1024) : ∀ s, 14 ≤ s → tileN6_2 V c s b o = 0 :=
  fun s h => dif_neg (by omega)
/-- Term 2 whole. -/
def whole6_2 (c : Dev nD) (b : Fin 64) (o : Fin 1024) : EReal :=
  ∑ n : Fin 7168, a6_6 V c (ix2 b n) * (a6_7 V c (ix2 o n) * a6_8 V c (ix2 o n))
theorem sum6_2 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles6_2 (c : Dev nD) (b : Fin 64) (o : Fin 1024) (x : ℕ) (hx : 14 ≤ x) :
    ∑ s ∈ Finset.range x, tileN6_2 V c s b o = whole6_2 V c b o := by
  rw [Cert.LibPaddedSums.pad (fun s => tileN6_2 V c s b o) 14 (tileN6_2_zero V c b o) x hx,
    Cert.LibPaddedSums.range_eq_fin 14 (fun s => tile6_2 V c s b o) (fun s => tileN6_2 V c s b o) (fun s => dif_pos s.isLt)]
  unfold whole6_2
  rw [sum6_2]
  rfl

/-! ## The accumulator after each point -/

set_option maxHeartbeats 4000000 in
theorem acc6_apply (c : Dev nD) (b : Fin 64) (o : Fin 1024) : ∀ (n : ℕ) (hn : n < cfg6.N),
    (outsAt6 V c n hn).2 (ix2 b o) = ∑ s ∈ Finset.range (n + 1 - 0), tileN6_0 V c s b o + ∑ s ∈ Finset.range (n + 1 - 2), tileN6_1 V c s b o + ∑ s ∈ Finset.range (n + 1 - 18), tileN6_2 V c s b o
  | 0, hn => by
    rw [show (outsAt6 V c 0 hn).2 = _ from step6_A V c ⟨0, hn⟩ rfl]
    rw [pay6_2_apply, pay6_1_apply, zero_add]
    rw [show (0 + 1 - 0) = 1 from rfl, Finset.sum_range_one, show (0 + 1 - 2) = 0 from rfl, Finset.range_zero, Finset.sum_empty, Finset.sum_empty, add_zero, add_zero]
    unfold tileN6_0
    rw [dif_pos (show 0 < 2 by decide)]
    unfold tile6_0
    refine Finset.sum_congr rfl fun q _ => ?_
    rw [blk6_0 V c ⟨0, hn⟩ ⟨0, by decide⟩ rfl, blk6_1 V c ⟨0, hn⟩ ⟨0, by decide⟩ rfl, blk6_2 V c ⟨0, hn⟩ ⟨0, by decide⟩ rfl]
  | n + 1, hn => by
    have hN : n + 1 < 32 := lt_of_lt_of_eq hn (show cfg6.N = 32 from N_6)
    have ih := acc6_apply c b o n (Nat.lt_of_succ_lt hn)
    by_cases h0 : n + 1 = 31
    · have hstep : (outsAt6 V c (n + 1) hn).2 = k6_pay4 (iblk6 V c 6 ⟨n + 1, hn⟩) (iblk6 V c 7 ⟨n + 1, hn⟩) (iblk6 V c 8 ⟨n + 1, hn⟩) (outsAt6 V c n (Nat.lt_of_succ_lt hn)).2 :=
        step6_Z V c ⟨n + 1, hn⟩ (Nat.succ_ne_zero n) h0
      have htile : ∑ q : Fin 512, tb6_6 V c ⟨n + 1, hn⟩ (ix2 b q) * (tb6_7 V c ⟨n + 1, hn⟩ (ix2 o q) * tb6_8 V c ⟨n + 1, hn⟩ (ix2 o q)) = tileN6_2 V c (n + 1 - 18) b o := by
        dsimp only [tb6_6, tb6_7, tb6_8]
        unfold tileN6_2
        rw [dif_pos (show n + 1 - 18 < 14 by omega)]
        unfold tile6_2
        refine Finset.sum_congr rfl fun q _ => ?_
        rw [blk6_6 V c ⟨n + 1, hn⟩ ⟨n + 1 - 18, by omega⟩ (by show n + 1 = n + 1 - 18 + 18; omega), blk6_7 V c ⟨n + 1, hn⟩ ⟨n + 1 - 18, by omega⟩ (by show n + 1 = n + 1 - 18 + 18; omega), blk6_8 V c ⟨n + 1, hn⟩ ⟨n + 1 - 18, by omega⟩ (by show n + 1 = n + 1 - 18 + 18; omega)]
      rw [hstep, pay6_4_apply, ih, htile]
      rw [Cert.LibPaddedSums.step_inactive (fun s => tileN6_0 V c s b o) 2 0 n (tileN6_0_zero V c b o) (by omega),
        Cert.LibPaddedSums.step_inactive (fun s => tileN6_1 V c s b o) 16 2 n (tileN6_1_zero V c b o) (by omega),
        Cert.LibPaddedSums.step_active (fun s => tileN6_2 V c s b o) 18 n (by omega)]
      ac_rfl
    by_cases h1 : n + 1 = 1
    · have hstep : (outsAt6 V c (n + 1) hn).2 = k6_pay2 (iblk6 V c 0 ⟨n + 1, hn⟩) (iblk6 V c 1 ⟨n + 1, hn⟩) (iblk6 V c 2 ⟨n + 1, hn⟩) (outsAt6 V c n (Nat.lt_of_succ_lt hn)).2 :=
        step6_B V c ⟨n + 1, hn⟩ (Nat.succ_ne_zero n) h0 h1
      have htile : ∑ q : Fin 512, tb6_0 V c ⟨n + 1, hn⟩ (ix2 b q) * (tb6_1 V c ⟨n + 1, hn⟩ (ix2 o q) * tb6_2 V c ⟨n + 1, hn⟩ (ix2 o q)) = tileN6_0 V c (n + 1 - 0) b o := by
        dsimp only [tb6_0, tb6_1, tb6_2]
        unfold tileN6_0
        rw [dif_pos (show n + 1 - 0 < 2 by omega)]
        unfold tile6_0
        refine Finset.sum_congr rfl fun q _ => ?_
        rw [blk6_0 V c ⟨n + 1, hn⟩ ⟨n + 1 - 0, by omega⟩ (by show n + 1 = n + 1 - 0 + 0; omega), blk6_1 V c ⟨n + 1, hn⟩ ⟨n + 1 - 0, by omega⟩ (by show n + 1 = n + 1 - 0 + 0; omega), blk6_2 V c ⟨n + 1, hn⟩ ⟨n + 1 - 0, by omega⟩ (by show n + 1 = n + 1 - 0 + 0; omega)]
      rw [hstep, pay6_2_apply, ih, htile]
      rw [Cert.LibPaddedSums.step_active (fun s => tileN6_0 V c s b o) 0 n (by omega),
        Cert.LibPaddedSums.step_inactive (fun s => tileN6_1 V c s b o) 16 2 n (tileN6_1_zero V c b o) (by omega),
        Cert.LibPaddedSums.step_inactive (fun s => tileN6_2 V c s b o) 14 18 n (tileN6_2_zero V c b o) (by omega)]
      ac_rfl
    by_cases h2 : (2 ≤ n + 1 ∧ n + 1 ≤ 17)
    · have hstep : (outsAt6 V c (n + 1) hn).2 = k6_pay3 (iblk6 V c 3 ⟨n + 1, hn⟩) (iblk6 V c 4 ⟨n + 1, hn⟩) (iblk6 V c 5 ⟨n + 1, hn⟩) (outsAt6 V c n (Nat.lt_of_succ_lt hn)).2 :=
        step6_C V c ⟨n + 1, hn⟩ (Nat.succ_ne_zero n) h0 h1 h2
      have htile : ∑ q : Fin 512, tb6_3 V c ⟨n + 1, hn⟩ (ix2 b q) * (tb6_4 V c ⟨n + 1, hn⟩ (ix2 o q) * tb6_5 V c ⟨n + 1, hn⟩ (ix2 o q)) = tileN6_1 V c (n + 1 - 2) b o := by
        dsimp only [tb6_3, tb6_4, tb6_5]
        unfold tileN6_1
        rw [dif_pos (show n + 1 - 2 < 16 by omega)]
        unfold tile6_1
        refine Finset.sum_congr rfl fun q _ => ?_
        rw [blk6_3 V c ⟨n + 1, hn⟩ ⟨n + 1 - 2, by omega⟩ (by show n + 1 = n + 1 - 2 + 2; omega), blk6_4 V c ⟨n + 1, hn⟩ ⟨n + 1 - 2, by omega⟩ (by show n + 1 = n + 1 - 2 + 2; omega), blk6_5 V c ⟨n + 1, hn⟩ ⟨n + 1 - 2, by omega⟩ (by show n + 1 = n + 1 - 2 + 2; omega)]
      rw [hstep, pay6_3_apply, ih, htile]
      rw [Cert.LibPaddedSums.step_inactive (fun s => tileN6_0 V c s b o) 2 0 n (tileN6_0_zero V c b o) (by omega),
        Cert.LibPaddedSums.step_active (fun s => tileN6_1 V c s b o) 2 n (by omega),
        Cert.LibPaddedSums.step_inactive (fun s => tileN6_2 V c s b o) 14 18 n (tileN6_2_zero V c b o) (by omega)]
      ac_rfl
    · have hstep : (outsAt6 V c (n + 1) hn).2 = k6_pay4 (iblk6 V c 6 ⟨n + 1, hn⟩) (iblk6 V c 7 ⟨n + 1, hn⟩) (iblk6 V c 8 ⟨n + 1, hn⟩) (outsAt6 V c n (Nat.lt_of_succ_lt hn)).2 :=
        step6_D V c ⟨n + 1, hn⟩ (Nat.succ_ne_zero n) h0 h1 h2
      have htile : ∑ q : Fin 512, tb6_6 V c ⟨n + 1, hn⟩ (ix2 b q) * (tb6_7 V c ⟨n + 1, hn⟩ (ix2 o q) * tb6_8 V c ⟨n + 1, hn⟩ (ix2 o q)) = tileN6_2 V c (n + 1 - 18) b o := by
        dsimp only [tb6_6, tb6_7, tb6_8]
        unfold tileN6_2
        rw [dif_pos (show n + 1 - 18 < 14 by omega)]
        unfold tile6_2
        refine Finset.sum_congr rfl fun q _ => ?_
        rw [blk6_6 V c ⟨n + 1, hn⟩ ⟨n + 1 - 18, by omega⟩ (by show n + 1 = n + 1 - 18 + 18; omega), blk6_7 V c ⟨n + 1, hn⟩ ⟨n + 1 - 18, by omega⟩ (by show n + 1 = n + 1 - 18 + 18; omega), blk6_8 V c ⟨n + 1, hn⟩ ⟨n + 1 - 18, by omega⟩ (by show n + 1 = n + 1 - 18 + 18; omega)]
      rw [hstep, pay6_4_apply, ih, htile]
      rw [Cert.LibPaddedSums.step_inactive (fun s => tileN6_0 V c s b o) 2 0 n (tileN6_0_zero V c b o) (by omega),
        Cert.LibPaddedSums.step_inactive (fun s => tileN6_1 V c s b o) 16 2 n (tileN6_1_zero V c b o) (by omega),
        Cert.LibPaddedSums.step_active (fun s => tileN6_2 V c s b o) 18 n (by omega)]
      ac_rfl

/-! ## The region's result -/

theorem hlast6 : 31 < cfg6.N := by rw [show cfg6.N = 32 from N_6]; decide

set_option maxHeartbeats 2000000 in
theorem out6_apply (c : Dev nD) (b : Fin 64) (o : Fin 1024) :
    (outsAt6 V c 31 hlast6).1 (ix2 b o) = Ideal.logistic ((whole6_0 V c b o + whole6_1 V c b o + whole6_2 V c b o) + a6_9 V c (ix2 (0 : Fin 1) o)) := by
  rw [show (outsAt6 V c 31 hlast6).1 = _ from last6 V c ⟨31, hlast6⟩ (by show (31 : ℕ) ≠ 0; decide) rfl]
  rw [← show (outsAt6 V c 31 hlast6).2 = _ from step6_Z V c ⟨31, hlast6⟩ (by show (31 : ℕ) ≠ 0; decide) rfl]
  rw [pay6_5_apply, acc6_apply V c b o 31 hlast6, blk6_9]
  rw [tiles6_0 V c b o (31 + 1 - 0) (by decide), tiles6_1 V c b o (31 + 1 - 2) (by decide), tiles6_2 V c b o (31 + 1 - 18) (by decide)]

/-- What region 6 leaves in its output array: the last point's buffer, written back whole. -/
def G6 (c : Dev nD) : S64x1024.Idx → EReal := (outsAt6 V c 31 hlast6).1

theorem emb6_out (t : Fin cfg6.N) (y : S64x1024.Idx) : ((cfg6.win 10).blk t).view.emb y = y := by
  obtain ⟨e0, e1⟩ := idx6_out t
  funext a; apply Fin.ext
  match a with
  | ⟨0, _⟩ => show win6_10.index t (0 : Fin 2) * 64 + 1 * (y 0).val = (y 0).val; omega
  | ⟨1, _⟩ => show win6_10.index t (1 : Fin 2) * 1024 + 1 * (y 1).val = (y 1).val; omega

theorem flushed6_eq (c : Dev nD) (t : Fin cfg6.N) (hf : (cfg6.win 10).flush t = true) :
    (dat6 V c).flushed 10 t = ((cfg6.win 10).blk t).view.read (Elt Ideal) (G6 V c) := by
  have ht : t.val = 31 := by
    have h1 := (flush6_10 t).mp hf
    have h2 : t.val < 32 := lt_of_lt_of_eq t.isLt (show cfg6.N = 32 from N_6)
    omega
  have ht' : t = ⟨31, hlast6⟩ := Fin.ext ht
  subst ht'
  show (cfg6.win 10).cut (grid6.coords ⟨31, hlast6⟩) ((dat6 V c).after 10 ⟨31, hlast6⟩) = _
  rw [after6_10]
  funext y
  show (outsAt6 V c 31 hlast6).1 y = G6 V c (((cfg6.win 10).blk ⟨31, hlast6⟩).view.emb y)
  rw [emb6_out]
  rfl

theorem mem_blk6_out (t : Fin cfg6.N) (i : S64x1024.Idx) :
    i ∈ ((cfg6.win 10).blk t).view.set ↔ ∀ a : Fin 2, win6_10.index t a * S64x1024.size a ≤ (i a).val ∧ (i a).val < win6_10.index t a * S64x1024.size a + S64x1024.size a := by
  show i ∈ ((View.whole main_v111).slice (win6_10.rect t)).set ↔ _
  rw [View.set_slice_whole, Rect.mem_set_unit]
  exact Iff.rfl

theorem final6 (c : Dev nD) : (dat6 V c).arrAt 10 cfg6.N = G6 V c :=
  (dat6 V c).arrAt_eq_of_cover 10 (G6 V c) (fun t hf => flushed6_eq V c t hf) (fun i =>
    ⟨⟨31, hlast6⟩, (flush6_10 ⟨31, hlast6⟩).mpr (by show 31 % 32 = 31; decide), by
      rw [mem_blk6_out]
      obtain ⟨e0, e1⟩ := idx6_out ⟨31, hlast6⟩
      intro a
      match a with
      | ⟨0, _⟩ => show win6_10.index ⟨31, hlast6⟩ (0 : Fin 2) * 64 ≤ (i 0).val ∧ (i 0).val < win6_10.index ⟨31, hlast6⟩ (0 : Fin 2) * 64 + 64; have hi : (i 0).val < 64 := (i 0).isLt; omega
      | ⟨1, _⟩ => show win6_10.index ⟨31, hlast6⟩ (1 : Fin 2) * 1024 ≤ (i 1).val ∧ (i 1).val < win6_10.index ⟨31, hlast6⟩ (1 : Fin 2) * 1024 + 1024; have hi : (i 1).val < 1024 := (i 1).isLt; omega⟩)

/-- Region 6's output array at an index. -/
theorem final6_apply (c : Dev nD) (b : Fin 64) (o : Fin 1024) :
    (dat6 V c).arrAt 10 cfg6.N (ix2 b o) = Ideal.logistic ((whole6_0 V c b o + whole6_1 V c b o + whole6_2 V c b o) + a6_9 V c (ix2 (0 : Fin 1) o)) :=
  (congrFun (final6 V c) (ix2 b o)).trans (out6_apply V c b o)

end Cert.KernelIdeal.Hand

end
-- ==== Proof.Bridge.L6.lean ====
/- Layer 6, the two sides joined: given the previous layer's equality, the buffer of earlier outputs agrees (the same scatter of equal arrays),
   every array region 6 stages is the reference's, and the two layer formulas differ only in the order of their additions. -/
import proofs.«164445_j37684043055467_1_alg».proof.Proof.KI.V6
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 6. -/
theorem skips6 (hA : Agree m m') (c : Dev Cert.KernelIdeal.nD)
    (hC : (Cert.KernelIdeal.Hand.o12 m c : Cert.KernelIdeal.S64x1024.Idx → EReal) = (Cert.ReferenceIdeal.Value.res_main_v191 (StableHlo.launchContents m' c)))
    (hS : (Cert.KernelIdeal.Hand.E11 m c Cert.KernelIdeal.main_v77 : Cert.KernelIdeal.S64x7168.Idx → EReal) = (Cert.ReferenceIdeal.Value.res_main_v157 (StableHlo.launchContents m' c))) :
    (Cert.KernelIdeal.Hand.E13 m c Cert.KernelIdeal.main_v95 : Cert.KernelIdeal.S64x7168.Idx → EReal) = (Cert.ReferenceIdeal.Value.res_main_v193 (StableHlo.launchContents m' c)) := by
  rw [Cert.KernelIdeal.Hand.B6_main_v95 m c]
  rw [show (Cert.KernelIdeal.Hand.E12 m c Cert.KernelIdeal.main_v93 : Cert.KernelIdeal.S64x1024.Idx → EReal) = (Cert.ReferenceIdeal.Value.res_main_v191 (StableHlo.launchContents m' c)) from (Cert.KernelIdeal.Hand.U12_out m c).trans hC]
  rw [show (Cert.KernelIdeal.Hand.E12 m c Cert.KernelIdeal.main_v77 : Cert.KernelIdeal.S64x7168.Idx → EReal) = (Cert.ReferenceIdeal.Value.res_main_v157 (StableHlo.launchContents m' c)) from (Cert.KernelIdeal.Hand.U12_ne m c Cert.KernelIdeal.main_v77 (by decide)).trans hS]
  rw [Cert.ReferenceIdeal.HandV.res193_eq]
  rfl

set_option maxHeartbeats 4000000 in
theorem layer6 (hA : Agree m m') (c : Dev Cert.KernelIdeal.nD)
    (hC : (Cert.KernelIdeal.Hand.o12 m c : Cert.KernelIdeal.S64x1024.Idx → EReal) = (Cert.ReferenceIdeal.Value.res_main_v191 (StableHlo.launchContents m' c)))
    (hS : (Cert.KernelIdeal.Hand.E13 m c Cert.KernelIdeal.main_v95 : Cert.KernelIdeal.S64x7168.Idx → EReal) = (Cert.ReferenceIdeal.Value.res_main_v193 (StableHlo.launchContents m' c))) :
    (Cert.KernelIdeal.Hand.o14 m c : Cert.KernelIdeal.S64x1024.Idx → EReal) = (Cert.ReferenceIdeal.Value.res_main_v227 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.res227_apply]
  show (Cert.KernelIdeal.Hand.dat6 (Cert.KernelIdeal.Hand.E13 m) c).arrAt 10 Cert.KernelIdeal.cfg6.N (ix2 b o) = _
  rw [Cert.KernelIdeal.Hand.final6_apply]
  have e0 : Cert.KernelIdeal.Hand.a6_0 (Cert.KernelIdeal.Hand.E13 m) c = (Cert.ReferenceIdeal.Value.res_main_v191 (StableHlo.launchContents m' c)) := by
    show (Cert.KernelIdeal.Hand.E13 m c Cert.KernelIdeal.main_v93 : Cert.KernelIdeal.S64x1024.Idx → EReal) = _
    rw [Cert.KernelIdeal.Hand.keep13 m c Cert.KernelIdeal.main_v93 (by decide)]
    exact (Cert.KernelIdeal.Hand.U12_out m c).trans hC
  have e1 : Cert.KernelIdeal.Hand.a6_1 (Cert.KernelIdeal.Hand.E13 m) c = Cert.ReferenceIdeal.HandV.r_wh5 (StableHlo.launchContents m' c) := by
    show (Cert.KernelIdeal.Hand.E13 m c Cert.KernelIdeal.main_v97 : Cert.KernelIdeal.S1024x1024.Idx → EReal) = _
    rw [Cert.KernelIdeal.Hand.B6_main_v97 m c, Cert.KernelIdeal.Hand.U12_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a6_2 (Cert.KernelIdeal.Hand.E13 m) c = Cert.ReferenceIdeal.HandV.r_mh5 (StableHlo.launchContents m' c) := by
    show (Cert.KernelIdeal.Hand.E13 m c Cert.KernelIdeal.main_v99 : Cert.KernelIdeal.S1024x1024.Idx → EReal) = _
    rw [Cert.KernelIdeal.Hand.B6_main_v99 m c, Cert.KernelIdeal.Hand.U12_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a6_3 (Cert.KernelIdeal.Hand.E13 m) c = Cert.ReferenceIdeal.HandV.r_h (StableHlo.launchContents m' c) := by
    show (Cert.KernelIdeal.Hand.E13 m c Cert.KernelIdeal.main_arg1 : Cert.KernelIdeal.S64x8192.Idx → EReal) = _
    rw [Cert.KernelIdeal.Hand.U13_arg m c Cert.KernelIdeal.main_arg1 (by decide)]
    rw [show m ((c : Thread Cert.KernelIdeal.nD Cert.KernelIdeal.τ).loc Cert.KernelIdeal.main_arg1) = m' ((c.tc : Thread Cert.ReferenceIdeal.nD Cert.ReferenceIdeal.τ).loc Cert.ReferenceIdeal.main_arg1) from (hA.arg1 c).symm]
  have e4 : Cert.KernelIdeal.Hand.a6_4 (Cert.KernelIdeal.Hand.E13 m) c = Cert.ReferenceIdeal.HandV.r_wr6 (StableHlo.launchContents m' c) := by
    show (Cert.KernelIdeal.Hand.E13 m c Cert.KernelIdeal.main_v101 : Cert.KernelIdeal.S1024x8192.Idx → EReal) = _
    rw [Cert.KernelIdeal.Hand.B6_main_v101 m c, Cert.KernelIdeal.Hand.U12_arg m c Cert.KernelIdeal.main_arg6 (by decide)]
    rw [show m ((c : Thread Cert.KernelIdeal.nD Cert.KernelIdeal.τ).loc Cert.KernelIdeal.main_arg6) = m' ((c.tc : Thread Cert.ReferenceIdeal.nD Cert.ReferenceIdeal.τ).loc Cert.ReferenceIdeal.main_arg6) from (hA.arg6 c).symm]
  have e5 : Cert.KernelIdeal.Hand.a6_5 (Cert.KernelIdeal.Hand.E13 m) c = Cert.ReferenceIdeal.HandV.r_mr6 (StableHlo.launchContents m' c) := by
    show (Cert.KernelIdeal.Hand.E13 m c Cert.KernelIdeal.main_v103 : Cert.KernelIdeal.S1024x8192.Idx → EReal) = _
    rw [Cert.KernelIdeal.Hand.B6_main_v103 m c, Cert.KernelIdeal.Hand.U12_arg m c Cert.KernelIdeal.main_arg11 (by decide)]
    rw [show m ((c : Thread Cert.KernelIdeal.nD Cert.KernelIdeal.τ).loc Cert.KernelIdeal.main_arg11) = m' ((c.tc : Thread Cert.ReferenceIdeal.nD Cert.ReferenceIdeal.τ).loc Cert.ReferenceIdeal.main_arg11) from (hA.arg11 c).symm]
  have e6 : Cert.KernelIdeal.Hand.a6_6 (Cert.KernelIdeal.Hand.E13 m) c = (Cert.ReferenceIdeal.Value.res_main_v193 (StableHlo.launchContents m' c)) := hS
  have e7 : Cert.KernelIdeal.Hand.a6_7 (Cert.KernelIdeal.Hand.E13 m) c = Cert.ReferenceIdeal.HandV.r_ws4 (StableHlo.launchContents m' c) := by
    show (Cert.KernelIdeal.Hand.E13 m c Cert.KernelIdeal.main_v105 : Cert.KernelIdeal.S1024x7168.Idx → EReal) = _
    rw [Cert.KernelIdeal.Hand.B6_main_v105 m c, Cert.KernelIdeal.Hand.U12_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e8 : Cert.KernelIdeal.Hand.a6_8 (Cert.KernelIdeal.Hand.E13 m) c = Cert.ReferenceIdeal.HandV.r_ms4 (StableHlo.launchContents m' c) := by
    show (Cert.KernelIdeal.Hand.E13 m c Cert.KernelIdeal.main_v107 : Cert.KernelIdeal.S1024x7168.Idx → EReal) = _
    rw [Cert.KernelIdeal.Hand.B6_main_v107 m c, Cert.KernelIdeal.Hand.U12_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a6_9 (Cert.KernelIdeal.Hand.E13 m) c (ix2 (0 : Fin 1) o) = Cert.ReferenceIdeal.HandV.r_bh5 (StableHlo.launchContents m' c) (ix1 o) := by
    show (Cert.KernelIdeal.Hand.E13 m c Cert.KernelIdeal.main_v110 : Cert.KernelIdeal.S1x1024.Idx → EReal) (ix2 (0 : Fin 1) o) = _
    rw [congrFun (Cert.KernelIdeal.Hand.B6_main_v110 m c) (ix2 (0 : Fin 1) o), Cert.LibHostApply.shapeCast_row_apply, Cert.KernelIdeal.Hand.U12_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole6_0 Cert.KernelIdeal.Hand.whole6_1 Cert.KernelIdeal.Hand.whole6_2
  rw [e0, e1, e2, e3, e4, e5, e6, e7, e8, eb]
  refine congrArg Ideal.logistic ?_
  exact (add_right_comm _ _ _).trans (congrArg (· + _) (add_right_comm _ _ _))

end Cert.Proof.Bridge

end
-- ==== Proof.KI.R7Acc.lean ====
/- Region 7: the pieces each control case's run found, opened. After a point of a case the accumulator is that case's tile product added
   to what it held before (to the reset value at the first point), and at the last point the output's buffer is the bias added and the
   sigmoid applied to the accumulator; then the same as equations of the point-by-point contents. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R7Frame
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_7 : (![0, 0] : Fin 2 → Nat) = fun _ => 0 := funext fun a => by fin_cases a <;> rfl
local notation "hz2" => hz2_7

theorem sout7_A_eq (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : cond7_1 i) (hc2 : cond7_2 i) (hc3 : ¬cond7_3 i) (hc4 : ¬cond7_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) :
    sout7_A c i arg1 harg1 arg2 harg2 arg3 harg3 arg4 harg4 arg5 harg5 arg6 harg6 arg7 harg7 arg8 harg8 arg9 harg9 hc1 hc2 hc3 hc4 x1 x2 x3 x4 x5 x6 x7 = k7_pay2 x1 x2 x3 (k7_pay1 (F := F)) := by
  unfold sout7_A
  rw [View.read_writes_eq_canon _ _ _ (scover7_A c i arg1 harg1 arg2 harg2 arg3 harg3 arg4 harg4 arg5 harg5 arg6 harg6 arg7 harg7 arg8 harg8 arg9 harg9 hc1 hc2 hc3 hc4 x1 x2 x3 x4 x5 x6 x7)]
  unfold kernelRun7_A
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout7_Z_eq (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout7_Z c i arg1 harg1 arg2 harg2 arg3 harg3 arg4 harg4 arg5 harg5 arg6 harg6 arg7 harg7 arg8 harg8 arg9 harg9 hc1 hc2 hc3 hc4 x1 x2 x3 x4 x5 x6 x7 xs = k7_pay3 x4 x5 x6 xs := by
  unfold sout7_Z
  rw [View.read_writes_eq_canon _ _ _ (scover7_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun7_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem out7_Z_eq (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : cond7_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    out7_Z c i arg1 harg1 arg2 harg2 arg3 harg3 arg4 harg4 arg5 harg5 arg6 harg6 arg7 harg7 arg8 harg8 arg9 harg9 hc1 hc2 hc3 hc4 x1 x2 x3 x4 x5 x6 x7 xs = k7_pay4 (k7_pay3 x4 x5 x6 xs) x7 := by
  unfold out7_Z
  rw [View.read_writes_eq_canon _ _ _ (cover7_Z c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun7_Z
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout7_B_eq (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : cond7_2 i) (hc3 : ¬cond7_3 i) (hc4 : ¬cond7_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout7_B c i arg1 harg1 arg2 harg2 arg3 harg3 arg4 harg4 arg5 harg5 arg6 harg6 arg7 harg7 arg8 harg8 arg9 harg9 hc1 hc2 hc3 hc4 x1 x2 x3 x4 x5 x6 x7 xs = k7_pay2 x1 x2 x3 xs := by
  unfold sout7_B
  rw [View.read_writes_eq_canon _ _ _ (scover7_B c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun7_B
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

theorem sout7_C_eq (c : Dev nD) (i : grid7.Coords) (arg1 : Memref sig .tc .vmem S64x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (hc1 : ¬cond7_1 i) (hc2 : ¬cond7_2 i) (hc3 : cond7_3 i) (hc4 : ¬cond7_4 i) (x1 : Vec F S64x512 .f32) (x2 : Vec F S1024x512 .f32) (x3 : Vec F S1024x512 .f32) (x4 : Vec F S64x512 .f32) (x5 : Vec F S1024x512 .f32) (x6 : Vec F S1024x512 .f32) (x7 : Vec F S1x1024 .f32) (xs : Vec F S64x1024 .f32) :
    sout7_C c i arg1 harg1 arg2 harg2 arg3 harg3 arg4 harg4 arg5 harg5 arg6 harg6 arg7 harg7 arg8 harg8 arg9 harg9 hc1 hc2 hc3 hc4 x1 x2 x3 x4 x5 x6 x7 xs = k7_pay3 x4 x5 x6 xs := by
  unfold sout7_C
  rw [View.read_writes_eq_canon _ _ _ (scover7_C c i arg1 harg1 arg2 harg2 arg3 harg3 arg4 harg4 arg5 harg5 arg6 harg6 arg7 harg7 arg8 harg8 arg9 harg9 hc1 hc2 hc3 hc4 x1 x2 x3 x4 x5 x6 x7 xs)]
  unfold kernelRun7_C
  dsimp only
  sl_unfold_words
  rw [View.canon_cons_unit_zero hz2]
  simp only [View.readAt_eq_ld, Memref.IsWhole.read_unread, View.ld_unit_zero (S := S64x512) hz2, View.ld_unit_zero (S := S1024x512) hz2, View.ld_unit_zero (S := S1x1024) hz2, View.ld_unit_zero (S := S64x1024) hz2, View.readCov_unit_zero (S := S64x1024) _ hz2]

variable (V : (c : Dev nD) → (b : Ref sig .tc) → Buf (Elt F) ((c : Thread nD τ).loc b))

/-! ## The accumulator point by point -/

set_option maxHeartbeats 2000000 in
theorem step7_A (c : Dev nD) (t : Fin cfg7.N) (hz : t.val = 0) :
    (outsAt7 V c t.val t.isLt).2 = k7_pay2 (iblk7 V c 0 t) (iblk7 V c 1 t) (iblk7 V c 2 t) (k7_pay1 (F := F)) := by
  rw [outsAt7_A V c t hz]
  dsimp only
  exact sout7_A_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_A t hz).1) ((case7_A t hz).2.1) ((case7_A t hz).2.2.1) ((case7_A t hz).2.2.2) (iblk7 V c 0 t) (iblk7 V c 1 t) (iblk7 V c 2 t) (iblk7 V c 3 t) (iblk7 V c 4 t) (iblk7 V c 5 t) (iblk7 V c 6 t)

set_option maxHeartbeats 2000000 in
theorem step7_Z (c : Dev nD) (t : Fin cfg7.N) (hz : t.val ≠ 0) (h0 : t.val = 15) :
    (outsAt7 V c t.val t.isLt).2 = k7_pay3 (iblk7 V c 3 t) (iblk7 V c 4 t) (iblk7 V c 5 t) (outsAt7 V c (t.val - 1) (Nat.lt_of_le_of_lt (Nat.sub_le _ _) t.isLt)).2 := by
  rw [outsAt7_Z V c t hz h0]
  dsimp only
  exact sout7_Z_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2

set_option maxHeartbeats 2000000 in
theorem last7 (c : Dev nD) (t : Fin cfg7.N) (hz : t.val ≠ 0) (h0 : t.val = 15) :
    (outsAt7 V c t.val t.isLt).1 = k7_pay4 (k7_pay3 (iblk7 V c 3 t) (iblk7 V c 4 t) (iblk7 V c 5 t) (outsAt7 V c (t.val - 1) (Nat.lt_of_le_of_lt (Nat.sub_le _ _) t.isLt)).2) (iblk7 V c 6 t) := by
  rw [outsAt7_Z V c t hz h0]
  dsimp only
  exact out7_Z_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_Z t hz h0).1) ((case7_Z t hz h0).2.1) ((case7_Z t hz h0).2.2.1) ((case7_Z t hz h0).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2

set_option maxHeartbeats 2000000 in
theorem step7_B (c : Dev nD) (t : Fin cfg7.N) (hz : t.val ≠ 0) (h0 : ¬t.val = 15) (h1 : t.val = 1) :
    (outsAt7 V c t.val t.isLt).2 = k7_pay2 (iblk7 V c 0 t) (iblk7 V c 1 t) (iblk7 V c 2 t) (outsAt7 V c (t.val - 1) (Nat.lt_of_le_of_lt (Nat.sub_le _ _) t.isLt)).2 := by
  rw [outsAt7_B V c t hz h0 h1]
  dsimp only
  exact sout7_B_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_B t hz h0 h1).1) ((case7_B t hz h0 h1).2.1) ((case7_B t hz h0 h1).2.2.1) ((case7_B t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2

set_option maxHeartbeats 2000000 in
theorem step7_C (c : Dev nD) (t : Fin cfg7.N) (hz : t.val ≠ 0) (h0 : ¬t.val = 15) (h1 : ¬t.val = 1) :
    (outsAt7 V c t.val t.isLt).2 = k7_pay3 (iblk7 V c 3 t) (iblk7 V c 4 t) (iblk7 V c 5 t) (outsAt7 V c (t.val - 1) (Nat.lt_of_le_of_lt (Nat.sub_le _ _) t.isLt)).2 := by
  rw [outsAt7_C V c t hz h0 h1]
  dsimp only
  exact sout7_C_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7 (Memref.isWhole_whole _) ((case7_C t hz h0 h1).1) ((case7_C t hz h0 h1).2.1) ((case7_C t hz h0 h1).2.2.1) ((case7_C t hz h0 h1).2.2.2) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2

end Cert.KernelIdeal.Hand

end
-- ==== Proof.KI.V7.lean ====
/- Region 7 at the ideal instance: each window's block read at an index of the array it stages; the accumulator after every point as the
   sum, over the region's 2 terms, of the term's K-tiles met so far; the tiles regrouped into whole contractions; and the region's output array
   at an index: the sigmoid of the terms' whole products plus the bias. -/
import proofs.«164445_j37684043055467_1_alg».proof.Proof.Gen.KernelIdeal.Launch
import proofs.«164445_j37684043055467_1_alg».proof.Proof.Gen.KernelIdeal.Skeleton
import proofs.«164445_j37684043055467_1_alg».proof.Proof.Gen.KernelIdeal.Points
import proofs.«164445_j37684043055467_1_alg».proof.Proof.KI.R7Acc
import proofs.«164445_j37684043055467_1_alg».proof.Proof.KI.Tile
import proofs.«164445_j37684043055467_1_alg».proof.Proof.LibSumBlocks
import proofs.«164445_j37684043055467_1_alg».proof.Proof.LibPaddedSums
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The printed index maps, decided over the grid -/
theorem idx7_t0 : ∀ t : Fin cfg7.N, 0 ≤ t.val → t.val < 2 → win7_0.index t (0 : Fin 2) = 0 ∧ win7_0.index t (1 : Fin 2) = t.val - 0 ∧ win7_1.index t (0 : Fin 2) = 0 ∧ win7_1.index t (1 : Fin 2) = t.val - 0 ∧ win7_2.index t (0 : Fin 2) = 0 ∧ win7_2.index t (1 : Fin 2) = t.val - 0 :=
  (by decide +kernel : ∀ t : Fin grid7.N, 0 ≤ t.val → t.val < 2 → _)
theorem idx7_t1 : ∀ t : Fin cfg7.N, 2 ≤ t.val → t.val < 16 → win7_3.index t (0 : Fin 2) = 0 ∧ win7_3.index t (1 : Fin 2) = t.val - 2 ∧ win7_4.index t (0 : Fin 2) = 0 ∧ win7_4.index t (1 : Fin 2) = t.val - 2 ∧ win7_5.index t (0 : Fin 2) = 0 ∧ win7_5.index t (1 : Fin 2) = t.val - 2 :=
  (by decide +kernel : ∀ t : Fin grid7.N, 2 ≤ t.val → t.val < 16 → _)
theorem idx7_b : ∀ t : Fin cfg7.N, win7_6.index t (0 : Fin 2) = 0 ∧ win7_6.index t (1 : Fin 2) = 0 :=
  (by decide +kernel : ∀ t : Fin grid7.N, _)
theorem idx7_out : ∀ t : Fin cfg7.N, win7_7.index t (0 : Fin 2) = 0 ∧ win7_7.index t (1 : Fin 2) = 0 :=
  (by decide +kernel : ∀ t : Fin grid7.N, _)

/-! ## The windows' blocks at their literal shapes -/
abbrev tb7_0 (c : Dev nD) (t : Fin cfg7.N) : Vec Ideal S64x512 .f32 := iblk7 V c 0 t
abbrev tb7_1 (c : Dev nD) (t : Fin cfg7.N) : Vec Ideal S1024x512 .f32 := iblk7 V c 1 t
abbrev tb7_2 (c : Dev nD) (t : Fin cfg7.N) : Vec Ideal S1024x512 .f32 := iblk7 V c 2 t
abbrev tb7_3 (c : Dev nD) (t : Fin cfg7.N) : Vec Ideal S64x512 .f32 := iblk7 V c 3 t
abbrev tb7_4 (c : Dev nD) (t : Fin cfg7.N) : Vec Ideal S1024x512 .f32 := iblk7 V c 4 t
abbrev tb7_5 (c : Dev nD) (t : Fin cfg7.N) : Vec Ideal S1024x512 .f32 := iblk7 V c 5 t
abbrev tb7_6 (c : Dev nD) (t : Fin cfg7.N) : Vec Ideal S1x1024 .f32 := iblk7 V c 6 t

/-! ## The blocks -/

theorem blk7_0 (c : Dev nD) (t : Fin cfg7.N) (s : Fin 2) (ht : t.val = s.val + 0) (r : Fin 64) (q : Fin 512) :
    iblk7 V c 0 t (ix2 r q) = V c main_v111 (ix2 r (⟨512 * s.val + q.val, by have := s.isLt; have := q.isLt; omega⟩ : Fin 1024)) := by
  unfold iblk7
  show V c main_v111 (((cfg7.win 0).blk t).view.emb (ix2 r q)) = _
  refine congrArg (V c main_v111) ?_
  have hs := s.isLt
  obtain ⟨e0, e1, e2, e3, e4, e5⟩ := idx7_t0 t (by omega) (by omega)
  funext a; apply Fin.ext
  match a with
  | ⟨0, _⟩ => show win7_0.index t (0 : Fin 2) * 64 + 1 * r.val = r.val; omega
  | ⟨1, _⟩ => show win7_0.index t (1 : Fin 2) * 512 + 1 * q.val = 512 * s.val + q.val; omega

theorem blk7_1 (c : Dev nD) (t : Fin cfg7.N) (s : Fin 2) (ht : t.val = s.val + 0) (r : Fin 1024) (q : Fin 512) :
    iblk7 V c 1 t (ix2 r q) = V c main_v115 (ix2 r (⟨512 * s.val + q.val, by have := s.isLt; have := q.isLt; omega⟩ : Fin 1024)) := by
  unfold iblk7
  show V c main_v115 (((cfg7.win 1).blk t).view.emb (ix2 r q)) = _
  refine congrArg (V c main_v115) ?_
  have hs := s.isLt
  obtain ⟨e0, e1, e2, e3, e4, e5⟩ := idx7_t0 t (by omega) (by omega)
  funext a; apply Fin.ext
  match a with
  | ⟨0, _⟩ => show win7_1.index t (0 : Fin 2) * 1024 + 1 * r.val = r.val; omega
  | ⟨1, _⟩ => show win7_1.index t (1 : Fin 2) * 512 + 1 * q.val = 512 * s.val + q.val; omega

theorem blk7_2 (c : Dev nD) (t : Fin cfg7.N) (s : Fin 2) (ht : t.val = s.val + 0) (r : Fin 1024) (q : Fin 512) :
    iblk7 V c 2 t (ix2 r q) = V c main_v117 (ix2 r (⟨512 * s.val + q.val, by have := s.isLt; have := q.isLt; omega⟩ : Fin 1024)) := by
  unfold iblk7
  show V c main_v117 (((cfg7.win 2).blk t).view.emb (ix2 r q)) = _
  refine congrArg (V c main_v117) ?_
  have hs := s.isLt
  obtain ⟨e0, e1, e2, e3, e4, e5⟩ := idx7_t0 t (by omega) (by omega)
  funext a; apply Fin.ext
  match a with
  | ⟨0, _⟩ => show win7_2.index t (0 : Fin 2) * 1024 + 1 * r.val = r.val; omega
  | ⟨1, _⟩ => show win7_2.index t (1 : Fin 2) * 512 + 1 * q.val = 512 * s.val + q.val; omega

theorem blk7_3 (c : Dev nD) (t : Fin cfg7.N) (s : Fin 14) (ht : t.val = s.val + 2) (r : Fin 64) (q : Fin 512) :
    iblk7 V c 3 t (ix2 r q) = V c main_v113 (ix2 r (⟨512 * s.val + q.val, by have := s.isLt; have := q.isLt; omega⟩ : Fin 7168)) := by
  unfold iblk7
  show V c main_v113 (((cfg7.win 3).blk t).view.emb (ix2 r q)) = _
  refine congrArg (V c main_v113) ?_
  have hs := s.isLt
  obtain ⟨e0, e1, e2, e3, e4, e5⟩ := idx7_t1 t (by omega) (by omega)
  funext a; apply Fin.ext
  match a with
  | ⟨0, _⟩ => show win7_3.index t (0 : Fin 2) * 64 + 1 * r.val = r.val; omega
  | ⟨1, _⟩ => show win7_3.index t (1 : Fin 2) * 512 + 1 * q.val = 512 * s.val + q.val; omega

theorem blk7_4 (c : Dev nD) (t : Fin cfg7.N) (s : Fin 14) (ht : t.val = s.val + 2) (r : Fin 1024) (q : Fin 512) :
    iblk7 V c 4 t (ix2 r q) = V c main_v119 (ix2 r (⟨512 * s.val + q.val, by have := s.isLt; have := q.isLt; omega⟩ : Fin 7168)) := by
  unfold iblk7
  show V c main_v119 (((cfg7.win 4).blk t).view.emb (ix2 r q)) = _
  refine congrArg (V c main_v119) ?_
  have hs := s.isLt
  obtain ⟨e0, e1, e2, e3, e4, e5⟩ := idx7_t1 t (by omega) (by omega)
  funext a; apply Fin.ext
  match a with
  | ⟨0, _⟩ => show win7_4.index t (0 : Fin 2) * 1024 + 1 * r.val = r.val; omega
  | ⟨1, _⟩ => show win7_4.index t (1 : Fin 2) * 512 + 1 * q.val = 512 * s.val + q.val; omega

theorem blk7_5 (c : Dev nD) (t : Fin cfg7.N) (s : Fin 14) (ht : t.val = s.val + 2) (r : Fin 1024) (q : Fin 512) :
    iblk7 V c 5 t (ix2 r q) = V c main_v121 (ix2 r (⟨512 * s.val + q.val, by have := s.isLt; have := q.isLt; omega⟩ : Fin 7168)) := by
  unfold iblk7
  show V c main_v121 (((cfg7.win 5).blk t).view.emb (ix2 r q)) = _
  refine congrArg (V c main_v121) ?_
  have hs := s.isLt
  obtain ⟨e0, e1, e2, e3, e4, e5⟩ := idx7_t1 t (by omega) (by omega)
  funext a; apply Fin.ext
  match a with
  | ⟨0, _⟩ => show win7_5.index t (0 : Fin 2) * 1024 + 1 * r.val = r.val; omega
  | ⟨1, _⟩ => show win7_5.index t (1 : Fin 2) * 512 + 1 * q.val = 512 * s.val + q.val; omega

theorem blk7_6 (c : Dev nD) (t : Fin cfg7.N) (o : Fin 1024) :
    iblk7 V c 6 t (ix2 (0 : Fin 1) o) = V c main_v124 (ix2 (0 : Fin 1) o) := by
  unfold iblk7
  show V c main_v124 (((cfg7.win 6).blk t).view.emb (ix2 (0 : Fin 1) o)) = _
  refine congrArg (V c main_v124) ?_
  obtain ⟨e0, e1⟩ := idx7_b t
  funext a; apply Fin.ext
  match a with
  | ⟨0, _⟩ => show win7_6.index t (0 : Fin 2) * 1 + 1 * (0 : Fin 1).val = (0 : Fin 1).val; omega
  | ⟨1, _⟩ => show win7_6.index t (1 : Fin 2) * 1024 + 1 * o.val = o.val; omega

/-! ## The payloads at an index -/

theorem pay7_1_apply (j : S64x1024.Idx) : k7_pay1 (F := Ideal) j = 0 := by
  unfold k7_pay1
  simp only [shapeCast_self]
  show Ideal.ofBits .f32 0x00000000#32 = 0
  exact Ideal.ofBits_zero_f32

theorem pay7_2_apply (x : Vec Ideal S64x512 .f32) (w m : Vec Ideal S1024x512 .f32) (prev : Vec Ideal S64x1024 .f32) (b : Fin 64) (o : Fin 1024) :
    k7_pay2 x w m prev (ix2 b o) = prev (ix2 b o) + ∑ q : Fin 512, x (ix2 b q) * (w (ix2 o q) * m (ix2 o q)) := by
  unfold k7_pay2
  simp only [shapeCast_self]
  exact HandV.tile_apply x w m prev b o

theorem pay7_3_apply (x : Vec Ideal S64x512 .f32) (w m : Vec Ideal S1024x512 .f32) (prev : Vec Ideal S64x1024 .f32) (b : Fin 64) (o : Fin 1024) :
    k7_pay3 x w m prev (ix2 b o) = prev (ix2 b o) + ∑ q : Fin 512, x (ix2 b q) * (w (ix2 o q) * m (ix2 o q)) := by
  unfold k7_pay3
  simp only [shapeCast_self]
  exact HandV.tile_apply x w m prev b o

theorem pay7_4_apply (a : Vec Ideal S64x1024 .f32) (bias : Vec Ideal S1x1024 .f32) (b : Fin 64) (o : Fin 1024) :
    k7_pay4 a bias (ix2 b o) = Ideal.logistic (a (ix2 b o) + bias (ix2 (0 : Fin 1) o)) := by
  unfold k7_pay4
  simp only [shapeCast_self]
  show Ideal.logistic (a (ix2 b o) + broadcastTo S64x1024 bias broadcasts_S1x1024_S64x1024 (ix2 b o)) = _
  rw [broadcastTo_apply bias broadcasts_S1x1024_S64x1024 (ix2 b o) (ix2 (0 : Fin 1) o) (by
    intro a
    match a with
    | ⟨0, _⟩ => rfl
    | ⟨1, _⟩ => rfl)]

/-! ## The arrays the windows stage, the tiles, the whole contractions -/
abbrev a7_0 (c : Dev nD) : S64x1024.Idx → EReal := V c main_v111
abbrev a7_1 (c : Dev nD) : S1024x1024.Idx → EReal := V c main_v115
abbrev a7_2 (c : Dev nD) : S1024x1024.Idx → EReal := V c main_v117
abbrev a7_3 (c : Dev nD) : S64x7168.Idx → EReal := V c main_v113
abbrev a7_4 (c : Dev nD) : S1024x7168.Idx → EReal := V c main_v119
abbrev a7_5 (c : Dev nD) : S1024x7168.Idx → EReal := V c main_v121
abbrev a7_6 (c : Dev nD) : S1x1024.Idx → EReal := V c main_v124

/-- Term 0's tile `s`: columns 512·s … of its left array against the same columns of weight · mask. -/
def tile7_0 (c : Dev nD) (s : Fin 2) (b : Fin 64) (o : Fin 1024) : EReal :=
  ∑ q : Fin 512, a7_0 V c (ix2 b (⟨512 * s.val + q.val, by have := s.isLt; have := q.isLt; omega⟩ : Fin 1024)) * (a7_1 V c (ix2 o (⟨512 * s.val + q.val, by have := s.isLt; have := q.isLt; omega⟩ : Fin 1024)) * a7_2 V c (ix2 o (⟨512 * s.val + q.val, by have := s.isLt; have := q.isLt; omega⟩ : Fin 1024)))
/-- The same over the naturals, zero past the term's last tile. -/
def tileN7_0 (c : Dev nD) (s : ℕ) (b : Fin 64) (o : Fin 1024) : EReal :=
  if h : s < 2 then tile7_0 V c ⟨s, h⟩ b o else 0
theorem tileN7_0_zero (c : Dev nD) (b : Fin 64) (o : Fin 1024) : ∀ s, 2 ≤ s → tileN7_0 V c s b o = 0 :=
  fun s h => dif_neg (by omega)
/-- Term 0 whole. -/
def whole7_0 (c : Dev nD) (b : Fin 64) (o : Fin 1024) : EReal :=
  ∑ n : Fin 1024, a7_0 V c (ix2 b n) * (a7_1 V c (ix2 o n) * a7_2 V c (ix2 o n))
theorem sum7_0 (g : Fin 1024 → EReal) :
    ∑ n : Fin 1024, g n = ∑ s : Fin 2, ∑ q : Fin 512, g ⟨512 * s.val + q.val, by have := s.isLt; have := q.isLt; omega⟩ := by
  refine (Cert.LibSumBlocks.sum_blocks 2 512 g).trans ?_
  refine Finset.sum_congr rfl fun s _ => Finset.sum_congr rfl fun q _ => congrArg g (Fin.ext ?_)
  show s.val * 512 + q.val = 512 * s.val + q.val
  omega
theorem tiles7_0 (c : Dev nD) (b : Fin 64) (o : Fin 1024) (x : ℕ) (hx : 2 ≤ x) :
    ∑ s ∈ Finset.range x, tileN7_0 V c s b o = whole7_0 V c b o := by
  rw [Cert.LibPaddedSums.pad (fun s => tileN7_0 V c s b o) 2 (tileN7_0_zero V c b o) x hx,
    Cert.LibPaddedSums.range_eq_fin 2 (fun s => tile7_0 V c s b o) (fun s => tileN7_0 V c s b o) (fun s => dif_pos s.isLt)]
  unfold whole7_0
  rw [sum7_0]
  rfl

/-- Term 1's tile `s`: columns 512·s … of its left array against the same columns of weight · mask. -/
def tile7_1 (c : Dev nD) (s : Fin 14) (b : Fin 64) (o : Fin 1024) : EReal :=
  ∑ q : Fin 512, a7_3 V c (ix2 b (⟨512 * s.val + q.val, by have := s.isLt; have := q.isLt; omega⟩ : Fin 7168)) * (a7_4 V c (ix2 o (⟨512 * s.val + q.val, by have := s.isLt; have := q.isLt; omega⟩ : Fin 7168)) * a7_5 V c (ix2 o (⟨512 * s.val + q.val, by have := s.isLt; have := q.isLt; omega⟩ : Fin 7168)))
/-- The same over the naturals, zero past the term's last tile. -/
def tileN7_1 (c : Dev nD) (s : ℕ) (b : Fin 64) (o : Fin 1024) : EReal :=
  if h : s < 14 then tile7_1 V c ⟨s, h⟩ b o else 0
theorem tileN7_1_zero (c : Dev nD) (b : Fin 64) (o : Fin 1024) : ∀ s, 14 ≤ s → tileN7_1 V c s b o = 0 :=
  fun s h => dif_neg (by omega)
/-- Term 1 whole. -/
def whole7_1 (c : Dev nD) (b : Fin 64) (o : Fin 1024) : EReal :=
  ∑ n : Fin 7168, a7_3 V c (ix2 b n) * (a7_4 V c (ix2 o n) * a7_5 V c (ix2 o n))
theorem sum7_1 (g : Fin 7168 → EReal) :
    ∑ n : Fin 7168, g n = ∑ s : Fin 14, ∑ q : Fin 512, g ⟨512 * s.val + q.val, by have := s.isLt; have := q.isLt; omega⟩ := by
  refine (Cert.LibSumBlocks.sum_blocks 14 512 g).trans ?_
  refine Finset.sum_congr rfl fun s _ => Finset.sum_congr rfl fun q _ => congrArg g (Fin.ext ?_)
  show s.val * 512 + q.val = 512 * s.val + q.val
  omega
theorem tiles7_1 (c : Dev nD) (b : Fin 64) (o : Fin 1024) (x : ℕ) (hx : 14 ≤ x) :
    ∑ s ∈ Finset.range x, tileN7_1 V c s b o = whole7_1 V c b o := by
  rw [Cert.LibPaddedSums.pad (fun s => tileN7_1 V c s b o) 14 (tileN7_1_zero V c b o) x hx,
    Cert.LibPaddedSums.range_eq_fin 14 (fun s => tile7_1 V c s b o) (fun s => tileN7_1 V c s b o) (fun s => dif_pos s.isLt)]
  unfold whole7_1
  rw [sum7_1]
  rfl

/-! ## The accumulator after each point -/

set_option maxHeartbeats 4000000 in
theorem acc7_apply (c : Dev nD) (b : Fin 64) (o : Fin 1024) : ∀ (n : ℕ) (hn : n < cfg7.N),
    (outsAt7 V c n hn).2 (ix2 b o) = ∑ s ∈ Finset.range (n + 1 - 0), tileN7_0 V c s b o + ∑ s ∈ Finset.range (n + 1 - 2), tileN7_1 V c s b o
  | 0, hn => by
    rw [show (outsAt7 V c 0 hn).2 = _ from step7_A V c ⟨0, hn⟩ rfl]
    rw [pay7_2_apply, pay7_1_apply, zero_add]
    rw [show (0 + 1 - 0) = 1 from rfl, Finset.sum_range_one, show (0 + 1 - 2) = 0 from rfl, Finset.range_zero, Finset.sum_empty, add_zero]
    unfold tileN7_0
    rw [dif_pos (show 0 < 2 by decide)]
    unfold tile7_0
    refine Finset.sum_congr rfl fun q _ => ?_
    rw [blk7_0 V c ⟨0, hn⟩ ⟨0, by decide⟩ rfl, blk7_1 V c ⟨0, hn⟩ ⟨0, by decide⟩ rfl, blk7_2 V c ⟨0, hn⟩ ⟨0, by decide⟩ rfl]
  | n + 1, hn => by
    have hN : n + 1 < 16 := lt_of_lt_of_eq hn (show cfg7.N = 16 from N_7)
    have ih := acc7_apply c b o n (Nat.lt_of_succ_lt hn)
    by_cases h0 : n + 1 = 15
    · have hstep : (outsAt7 V c (n + 1) hn).2 = k7_pay3 (iblk7 V c 3 ⟨n + 1, hn⟩) (iblk7 V c 4 ⟨n + 1, hn⟩) (iblk7 V c 5 ⟨n + 1, hn⟩) (outsAt7 V c n (Nat.lt_of_succ_lt hn)).2 :=
        step7_Z V c ⟨n + 1, hn⟩ (Nat.succ_ne_zero n) h0
      have htile : ∑ q : Fin 512, tb7_3 V c ⟨n + 1, hn⟩ (ix2 b q) * (tb7_4 V c ⟨n + 1, hn⟩ (ix2 o q) * tb7_5 V c ⟨n + 1, hn⟩ (ix2 o q)) = tileN7_1 V c (n + 1 - 2) b o := by
        dsimp only [tb7_3, tb7_4, tb7_5]
        unfold tileN7_1
        rw [dif_pos (show n + 1 - 2 < 14 by omega)]
        unfold tile7_1
        refine Finset.sum_congr rfl fun q _ => ?_
        rw [blk7_3 V c ⟨n + 1, hn⟩ ⟨n + 1 - 2, by omega⟩ (by show n + 1 = n + 1 - 2 + 2; omega), blk7_4 V c ⟨n + 1, hn⟩ ⟨n + 1 - 2, by omega⟩ (by show n + 1 = n + 1 - 2 + 2; omega), blk7_5 V c ⟨n + 1, hn⟩ ⟨n + 1 - 2, by omega⟩ (by show n + 1 = n + 1 - 2 + 2; omega)]
      rw [hstep, pay7_3_apply, ih, htile]
      rw [Cert.LibPaddedSums.step_inactive (fun s => tileN7_0 V c s b o) 2 0 n (tileN7_0_zero V c b o) (by omega),
        Cert.LibPaddedSums.step_active (fun s => tileN7_1 V c s b o) 2 n (by omega)]
      ac_rfl
    by_cases h1 : n + 1 = 1
    · have hstep : (outsAt7 V c (n + 1) hn).2 = k7_pay2 (iblk7 V c 0 ⟨n + 1, hn⟩) (iblk7 V c 1 ⟨n + 1, hn⟩) (iblk7 V c 2 ⟨n + 1, hn⟩) (outsAt7 V c n (Nat.lt_of_succ_lt hn)).2 :=
        step7_B V c ⟨n + 1, hn⟩ (Nat.succ_ne_zero n) h0 h1
      have htile : ∑ q : Fin 512, tb7_0 V c ⟨n + 1, hn⟩ (ix2 b q) * (tb7_1 V c ⟨n + 1, hn⟩ (ix2 o q) * tb7_2 V c ⟨n + 1, hn⟩ (ix2 o q)) = tileN7_0 V c (n + 1 - 0) b o := by
        dsimp only [tb7_0, tb7_1, tb7_2]
        unfold tileN7_0
        rw [dif_pos (show n + 1 - 0 < 2 by omega)]
        unfold tile7_0
        refine Finset.sum_congr rfl fun q _ => ?_
        rw [blk7_0 V c ⟨n + 1, hn⟩ ⟨n + 1 - 0, by omega⟩ (by show n + 1 = n + 1 - 0 + 0; omega), blk7_1 V c ⟨n + 1, hn⟩ ⟨n + 1 - 0, by omega⟩ (by show n + 1 = n + 1 - 0 + 0; omega), blk7_2 V c ⟨n + 1, hn⟩ ⟨n + 1 - 0, by omega⟩ (by show n + 1 = n + 1 - 0 + 0; omega)]
      rw [hstep, pay7_2_apply, ih, htile]
      rw [Cert.LibPaddedSums.step_active (fun s => tileN7_0 V c s b o) 0 n (by omega),
        Cert.LibPaddedSums.step_inactive (fun s => tileN7_1 V c s b o) 14 2 n (tileN7_1_zero V c b o) (by omega)]
      ac_rfl
    · have hstep : (outsAt7 V c (n + 1) hn).2 = k7_pay3 (iblk7 V c 3 ⟨n + 1, hn⟩) (iblk7 V c 4 ⟨n + 1, hn⟩) (iblk7 V c 5 ⟨n + 1, hn⟩) (outsAt7 V c n (Nat.lt_of_succ_lt hn)).2 :=
        step7_C V c ⟨n + 1, hn⟩ (Nat.succ_ne_zero n) h0 h1
      have htile : ∑ q : Fin 512, tb7_3 V c ⟨n + 1, hn⟩ (ix2 b q) * (tb7_4 V c ⟨n + 1, hn⟩ (ix2 o q) * tb7_5 V c ⟨n + 1, hn⟩ (ix2 o q)) = tileN7_1 V c (n + 1 - 2) b o := by
        dsimp only [tb7_3, tb7_4, tb7_5]
        unfold tileN7_1
        rw [dif_pos (show n + 1 - 2 < 14 by omega)]
        unfold tile7_1
        refine Finset.sum_congr rfl fun q _ => ?_
        rw [blk7_3 V c ⟨n + 1, hn⟩ ⟨n + 1 - 2, by omega⟩ (by show n + 1 = n + 1 - 2 + 2; omega), blk7_4 V c ⟨n + 1, hn⟩ ⟨n + 1 - 2, by omega⟩ (by show n + 1 = n + 1 - 2 + 2; omega), blk7_5 V c ⟨n + 1, hn⟩ ⟨n + 1 - 2, by omega⟩ (by show n + 1 = n + 1 - 2 + 2; omega)]
      rw [hstep, pay7_3_apply, ih, htile]
      rw [Cert.LibPaddedSums.step_inactive (fun s => tileN7_0 V c s b o) 2 0 n (tileN7_0_zero V c b o) (by omega),
        Cert.LibPaddedSums.step_active (fun s => tileN7_1 V c s b o) 2 n (by omega)]
      ac_rfl

/-! ## The region's result -/

theorem hlast7 : 15 < cfg7.N := by rw [show cfg7.N = 16 from N_7]; decide

set_option maxHeartbeats 2000000 in
theorem out7_apply (c : Dev nD) (b : Fin 64) (o : Fin 1024) :
    (outsAt7 V c 15 hlast7).1 (ix2 b o) = Ideal.logistic ((whole7_0 V c b o + whole7_1 V c b o) + a7_6 V c (ix2 (0 : Fin 1) o)) := by
  rw [show (outsAt7 V c 15 hlast7).1 = _ from last7 V c ⟨15, hlast7⟩ (by show (15 : ℕ) ≠ 0; decide) rfl]
  rw [← show (outsAt7 V c 15 hlast7).2 = _ from step7_Z V c ⟨15, hlast7⟩ (by show (15 : ℕ) ≠ 0; decide) rfl]
  rw [pay7_4_apply, acc7_apply V c b o 15 hlast7, blk7_6]
  rw [tiles7_0 V c b o (15 + 1 - 0) (by decide), tiles7_1 V c b o (15 + 1 - 2) (by decide)]

/-- What region 7 leaves in its output array: the last point's buffer, written back whole. -/
def G7 (c : Dev nD) : S64x1024.Idx → EReal := (outsAt7 V c 15 hlast7).1

theorem emb7_out (t : Fin cfg7.N) (y : S64x1024.Idx) : ((cfg7.win 7).blk t).view.emb y = y := by
  obtain ⟨e0, e1⟩ := idx7_out t
  funext a; apply Fin.ext
  match a with
  | ⟨0, _⟩ => show win7_7.index t (0 : Fin 2) * 64 + 1 * (y 0).val = (y 0).val; omega
  | ⟨1, _⟩ => show win7_7.index t (1 : Fin 2) * 1024 + 1 * (y 1).val = (y 1).val; omega

theorem flushed7_eq (c : Dev nD) (t : Fin cfg7.N) (hf : (cfg7.win 7).flush t = true) :
    (dat7 V c).flushed 7 t = ((cfg7.win 7).blk t).view.read (Elt Ideal) (G7 V c) := by
  have ht : t.val = 15 := by
    have h1 := (flush7_7 t).mp hf
    have h2 : t.val < 16 := lt_of_lt_of_eq t.isLt (show cfg7.N = 16 from N_7)
    omega
  have ht' : t = ⟨15, hlast7⟩ := Fin.ext ht
  subst ht'
  show (cfg7.win 7).cut (grid7.coords ⟨15, hlast7⟩) ((dat7 V c).after 7 ⟨15, hlast7⟩) = _
  rw [after7_7]
  funext y
  show (outsAt7 V c 15 hlast7).1 y = G7 V c (((cfg7.win 7).blk ⟨15, hlast7⟩).view.emb y)
  rw [emb7_out]
  rfl

theorem mem_blk7_out (t : Fin cfg7.N) (i : S64x1024.Idx) :
    i ∈ ((cfg7.win 7).blk t).view.set ↔ ∀ a : Fin 2, win7_7.index t a * S64x1024.size a ≤ (i a).val ∧ (i a).val < win7_7.index t a * S64x1024.size a + S64x1024.size a := by
  show i ∈ ((View.whole main_v125).slice (win7_7.rect t)).set ↔ _
  rw [View.set_slice_whole, Rect.mem_set_unit]
  exact Iff.rfl

theorem final7 (c : Dev nD) : (dat7 V c).arrAt 7 cfg7.N = G7 V c :=
  (dat7 V c).arrAt_eq_of_cover 7 (G7 V c) (fun t hf => flushed7_eq V c t hf) (fun i =>
    ⟨⟨15, hlast7⟩, (flush7_7 ⟨15, hlast7⟩).mpr (by show 15 % 16 = 15; decide), by
      rw [mem_blk7_out]
      obtain ⟨e0, e1⟩ := idx7_out ⟨15, hlast7⟩
      intro a
      match a with
      | ⟨0, _⟩ => show win7_7.index ⟨15, hlast7⟩ (0 : Fin 2) * 64 ≤ (i 0).val ∧ (i 0).val < win7_7.index ⟨15, hlast7⟩ (0 : Fin 2) * 64 + 64; have hi : (i 0).val < 64 := (i 0).isLt; omega
      | ⟨1, _⟩ => show win7_7.index ⟨15, hlast7⟩ (1 : Fin 2) * 1024 ≤ (i 1).val ∧ (i 1).val < win7_7.index ⟨15, hlast7⟩ (1 : Fin 2) * 1024 + 1024; have hi : (i 1).val < 1024 := (i 1).isLt; omega⟩)

/-- Region 7's output array at an index. -/
theorem final7_apply (c : Dev nD) (b : Fin 64) (o : Fin 1024) :
    (dat7 V c).arrAt 7 cfg7.N (ix2 b o) = Ideal.logistic ((whole7_0 V c b o + whole7_1 V c b o) + a7_6 V c (ix2 (0 : Fin 1) o)) :=
  (congrFun (final7 V c) (ix2 b o)).trans (out7_apply V c b o)

end Cert.KernelIdeal.Hand

end
-- ==== Proof.Bridge.L7.lean ====
/- Layer 7, the two sides joined: given the previous layer's equality, the buffer of earlier outputs agrees (the same scatter of equal arrays),
   every array region 7 stages is the reference's, and the two layer formulas differ only in the order of their additions. -/
import proofs.«164445_j37684043055467_1_alg».proof.Proof.KI.V7
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The buffer of earlier outputs after the host stretch before region 7. -/
theorem skips7 (hA : Agree m m') (c : Dev Cert.KernelIdeal.nD)
    (hC : (Cert.KernelIdeal.Hand.o14 m c : Cert.KernelIdeal.S64x1024.Idx → EReal) = (Cert.ReferenceIdeal.Value.res_main_v227 (StableHlo.launchContents m' c)))
    (hS : (Cert.KernelIdeal.Hand.E13 m c Cert.KernelIdeal.main_v95 : Cert.KernelIdeal.S64x7168.Idx → EReal) = (Cert.ReferenceIdeal.Value.res_main_v193 (StableHlo.launchContents m' c))) :
    (Cert.KernelIdeal.Hand.E15 m c Cert.KernelIdeal.main_v113 : Cert.KernelIdeal.S64x7168.Idx → EReal) = (Cert.ReferenceIdeal.HandV.r_sk7 (StableHlo.launchContents m' c)) := by
  rw [Cert.KernelIdeal.Hand.B7_main_v113 m c]
  rw [show (Cert.KernelIdeal.Hand.E14 m c Cert.KernelIdeal.main_v111 : Cert.KernelIdeal.S64x1024.Idx → EReal) = (Cert.ReferenceIdeal.Value.res_main_v227 (StableHlo.launchContents m' c)) from (Cert.KernelIdeal.Hand.U14_out m c).trans hC]
  rw [show (Cert.KernelIdeal.Hand.E14 m c Cert.KernelIdeal.main_v95 : Cert.KernelIdeal.S64x7168.Idx → EReal) = (Cert.ReferenceIdeal.Value.res_main_v193 (StableHlo.launchContents m' c)) from (Cert.KernelIdeal.Hand.U14_ne m c Cert.KernelIdeal.main_v95 (by decide)).trans hS]
  rfl

set_option maxHeartbeats 4000000 in
theorem layer7 (hA : Agree m m') (c : Dev Cert.KernelIdeal.nD)
    (hC : (Cert.KernelIdeal.Hand.o14 m c : Cert.KernelIdeal.S64x1024.Idx → EReal) = (Cert.ReferenceIdeal.Value.res_main_v227 (StableHlo.launchContents m' c)))
    (hS : (Cert.KernelIdeal.Hand.E15 m c Cert.KernelIdeal.main_v113 : Cert.KernelIdeal.S64x7168.Idx → EReal) = (Cert.ReferenceIdeal.HandV.r_sk7 (StableHlo.launchContents m' c))) :
    (Cert.KernelIdeal.Hand.o16 m c : Cert.KernelIdeal.S64x1024.Idx → EReal) = (Cert.ReferenceIdeal.HandV.r_cur7 (StableHlo.launchContents m' c)) := by
  funext j
  obtain ⟨b, o, rfl⟩ : ∃ (b : Fin 64) (o : Fin 1024), j = ix2 b o := ⟨j 0, j 1, ValueIdx.eq_ix2 j⟩
  rw [Cert.ReferenceIdeal.HandV.cur7_apply]
  show (Cert.KernelIdeal.Hand.dat7 (Cert.KernelIdeal.Hand.E15 m) c).arrAt 7 Cert.KernelIdeal.cfg7.N (ix2 b o) = _
  rw [Cert.KernelIdeal.Hand.final7_apply]
  have e0 : Cert.KernelIdeal.Hand.a7_0 (Cert.KernelIdeal.Hand.E15 m) c = (Cert.ReferenceIdeal.Value.res_main_v227 (StableHlo.launchContents m' c)) := by
    show (Cert.KernelIdeal.Hand.E15 m c Cert.KernelIdeal.main_v111 : Cert.KernelIdeal.S64x1024.Idx → EReal) = _
    rw [Cert.KernelIdeal.Hand.keep15 m c Cert.KernelIdeal.main_v111 (by decide)]
    exact (Cert.KernelIdeal.Hand.U14_out m c).trans hC
  have e1 : Cert.KernelIdeal.Hand.a7_1 (Cert.KernelIdeal.Hand.E15 m) c = Cert.ReferenceIdeal.HandV.r_wh6 (StableHlo.launchContents m' c) := by
    show (Cert.KernelIdeal.Hand.E15 m c Cert.KernelIdeal.main_v115 : Cert.KernelIdeal.S1024x1024.Idx → EReal) = _
    rw [Cert.KernelIdeal.Hand.B7_main_v115 m c, Cert.KernelIdeal.Hand.U14_arg m c Cert.KernelIdeal.main_arg4 (by decide)]
    rw [show m ((c : Thread Cert.KernelIdeal.nD Cert.KernelIdeal.τ).loc Cert.KernelIdeal.main_arg4) = m' ((c.tc : Thread Cert.ReferenceIdeal.nD Cert.ReferenceIdeal.τ).loc Cert.ReferenceIdeal.main_arg4) from (hA.arg4 c).symm]
  have e2 : Cert.KernelIdeal.Hand.a7_2 (Cert.KernelIdeal.Hand.E15 m) c = Cert.ReferenceIdeal.HandV.r_mh6 (StableHlo.launchContents m' c) := by
    show (Cert.KernelIdeal.Hand.E15 m c Cert.KernelIdeal.main_v117 : Cert.KernelIdeal.S1024x1024.Idx → EReal) = _
    rw [Cert.KernelIdeal.Hand.B7_main_v117 m c, Cert.KernelIdeal.Hand.U14_arg m c Cert.KernelIdeal.main_arg10 (by decide)]
    rw [show m ((c : Thread Cert.KernelIdeal.nD Cert.KernelIdeal.τ).loc Cert.KernelIdeal.main_arg10) = m' ((c.tc : Thread Cert.ReferenceIdeal.nD Cert.ReferenceIdeal.τ).loc Cert.ReferenceIdeal.main_arg10) from (hA.arg10 c).symm]
  have e3 : Cert.KernelIdeal.Hand.a7_3 (Cert.KernelIdeal.Hand.E15 m) c = (Cert.ReferenceIdeal.HandV.r_sk7 (StableHlo.launchContents m' c)) := hS
  have e4 : Cert.KernelIdeal.Hand.a7_4 (Cert.KernelIdeal.Hand.E15 m) c = Cert.ReferenceIdeal.HandV.r_ws5 (StableHlo.launchContents m' c) := by
    show (Cert.KernelIdeal.Hand.E15 m c Cert.KernelIdeal.main_v119 : Cert.KernelIdeal.S1024x7168.Idx → EReal) = _
    rw [Cert.KernelIdeal.Hand.B7_main_v119 m c, Cert.KernelIdeal.Hand.U14_arg m c Cert.KernelIdeal.main_arg7 (by decide)]
    rw [show m ((c : Thread Cert.KernelIdeal.nD Cert.KernelIdeal.τ).loc Cert.KernelIdeal.main_arg7) = m' ((c.tc : Thread Cert.ReferenceIdeal.nD Cert.ReferenceIdeal.τ).loc Cert.ReferenceIdeal.main_arg7) from (hA.arg7 c).symm]
  have e5 : Cert.KernelIdeal.Hand.a7_5 (Cert.KernelIdeal.Hand.E15 m) c = Cert.ReferenceIdeal.HandV.r_ms5 (StableHlo.launchContents m' c) := by
    show (Cert.KernelIdeal.Hand.E15 m c Cert.KernelIdeal.main_v121 : Cert.KernelIdeal.S1024x7168.Idx → EReal) = _
    rw [Cert.KernelIdeal.Hand.B7_main_v121 m c, Cert.KernelIdeal.Hand.U14_arg m c Cert.KernelIdeal.main_arg12 (by decide)]
    rw [show m ((c : Thread Cert.KernelIdeal.nD Cert.KernelIdeal.τ).loc Cert.KernelIdeal.main_arg12) = m' ((c.tc : Thread Cert.ReferenceIdeal.nD Cert.ReferenceIdeal.τ).loc Cert.ReferenceIdeal.main_arg12) from (hA.arg12 c).symm]
  have eb : Cert.KernelIdeal.Hand.a7_6 (Cert.KernelIdeal.Hand.E15 m) c (ix2 (0 : Fin 1) o) = Cert.ReferenceIdeal.HandV.r_bh6 (StableHlo.launchContents m' c) (ix1 o) := by
    show (Cert.KernelIdeal.Hand.E15 m c Cert.KernelIdeal.main_v124 : Cert.KernelIdeal.S1x1024.Idx → EReal) (ix2 (0 : Fin 1) o) = _
    rw [congrFun (Cert.KernelIdeal.Hand.B7_main_v124 m c) (ix2 (0 : Fin 1) o), Cert.LibHostApply.shapeCast_row_apply, Cert.KernelIdeal.Hand.U14_arg m c Cert.KernelIdeal.main_arg5 (by decide)]
    rw [show m ((c : Thread Cert.KernelIdeal.nD Cert.KernelIdeal.τ).loc Cert.KernelIdeal.main_arg5) = m' ((c.tc : Thread Cert.ReferenceIdeal.nD Cert.ReferenceIdeal.τ).loc Cert.ReferenceIdeal.main_arg5) from (hA.arg5 c).symm]
  unfold Cert.KernelIdeal.Hand.whole7_0 Cert.KernelIdeal.Hand.whole7_1
  rw [e0, e1, e2, e3, e4, e5, eb]
  refine congrArg Ideal.logistic ?_
  exact add_right_comm _ _ _

end Cert.Proof.Bridge

end
-- ==== Proof.Bridge.All.lean ====
/- The last layer and the whole: the result array the kernel's last region leaves is the reference's result, given the last hidden layer's equality;
   and the chain of the nine layers from the arguments' agreement. -/
import proofs.«164445_j37684043055467_1_alg».proof.Proof.KI.V8
import proofs.«164445_j37684043055467_1_alg».proof.Proof.KI.Bnd
import proofs.«164445_j37684043055467_1_alg».proof.Proof.RI.Arrays
import proofs.«164445_j37684043055467_1_alg».proof.Proof.Bridge.Agree
import proofs.«164445_j37684043055467_1_alg».proof.Proof.Bridge.L0
import proofs.«164445_j37684043055467_1_alg».proof.Proof.Bridge.L1
import proofs.«164445_j37684043055467_1_alg».proof.Proof.Bridge.L2
import proofs.«164445_j37684043055467_1_alg».proof.Proof.Bridge.L3
import proofs.«164445_j37684043055467_1_alg».proof.Proof.Bridge.L4
import proofs.«164445_j37684043055467_1_alg».proof.Proof.Bridge.L5
import proofs.«164445_j37684043055467_1_alg».proof.Proof.Bridge.L6
import proofs.«164445_j37684043055467_1_alg».proof.Proof.Bridge.L7
import proofs.«164445_j37684043055467_1_alg».proof.Proof.LibHostApply

noncomputable section

namespace Cert.Proof.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
theorem layer8 (hA : Agree m m') (c : Dev Cert.KernelIdeal.nD)
    (hC : (Cert.KernelIdeal.Hand.o16 m c : Cert.KernelIdeal.S64x1024.Idx → EReal) = (Cert.ReferenceIdeal.HandV.r_cur7 (StableHlo.launchContents m' c))) :
    (Cert.KernelIdeal.Hand.o18 m c : Cert.KernelIdeal.S64x512.Idx → EReal) = Cert.ReferenceIdeal.HandV.r_out (StableHlo.launchContents m' c) := by
  funext j
  obtain ⟨b, o, rfl⟩ : ∃ (b : Fin 64) (o : Fin 512), j = ix2 b o := ⟨j 0, j 1, ValueIdx.eq_ix2 j⟩
  rw [Cert.ReferenceIdeal.HandV.out_apply]
  show (Cert.KernelIdeal.Hand.dat8 (Cert.KernelIdeal.Hand.E17 m) c).arrAt 3 Cert.KernelIdeal.cfg8.N (ix2 b o) = _
  rw [Cert.KernelIdeal.Hand.final8_apply]
  have e0 : Cert.KernelIdeal.Hand.a8_0 (Cert.KernelIdeal.Hand.E17 m) c = (Cert.ReferenceIdeal.HandV.r_cur7 (StableHlo.launchContents m' c)) := by
    show (Cert.KernelIdeal.Hand.E17 m c Cert.KernelIdeal.main_v125 : Cert.KernelIdeal.S64x1024.Idx → EReal) = _
    rw [Cert.KernelIdeal.Hand.keep17 m c Cert.KernelIdeal.main_v125 (by decide)]
    exact (Cert.KernelIdeal.Hand.U16_out m c).trans hC
  have e1 : Cert.KernelIdeal.Hand.a8_1 (Cert.KernelIdeal.Hand.E17 m) c = Cert.ReferenceIdeal.HandV.r_wout (StableHlo.launchContents m' c) := by
    show (Cert.KernelIdeal.Hand.E17 m c Cert.KernelIdeal.main_arg8 : Cert.KernelIdeal.S512x1024.Idx → EReal) = _
    rw [Cert.KernelIdeal.Hand.U17_arg m c Cert.KernelIdeal.main_arg8 (by decide)]
    rw [show m ((c : Thread Cert.KernelIdeal.nD Cert.KernelIdeal.τ).loc Cert.KernelIdeal.main_arg8) = m' ((c.tc : Thread Cert.ReferenceIdeal.nD Cert.ReferenceIdeal.τ).loc Cert.ReferenceIdeal.main_arg8) from (hA.arg8 c).symm]
  have eb : Cert.KernelIdeal.Hand.a8_2 (Cert.KernelIdeal.Hand.E17 m) c (ix2 (0 : Fin 1) o) = Cert.ReferenceIdeal.HandV.r_bout (StableHlo.launchContents m' c) (ix1 o) := by
    show (Cert.KernelIdeal.Hand.E17 m c Cert.KernelIdeal.main_v126 : Cert.KernelIdeal.S1x512.Idx → EReal) (ix2 (0 : Fin 1) o) = _
    rw [congrFun (Cert.KernelIdeal.Hand.B8_main_v126 m c) (ix2 (0 : Fin 1) o), Cert.LibHostApply.shapeCast_row_apply, Cert.KernelIdeal.Hand.U16_arg m c Cert.KernelIdeal.main_arg9 (by decide)]
    rw [show m ((c : Thread Cert.KernelIdeal.nD Cert.KernelIdeal.τ).loc Cert.KernelIdeal.main_arg9) = m' ((c.tc : Thread Cert.ReferenceIdeal.nD Cert.ReferenceIdeal.τ).loc Cert.ReferenceIdeal.main_arg9) from (hA.arg9 c).symm]
  rw [e0, e1, eb]

/-- The first layer as an equality of arrays. -/
theorem cur0 (hA : Agree m m') (c : Dev Cert.KernelIdeal.nD) :
    (Cert.KernelIdeal.Hand.o2 m c : Cert.KernelIdeal.S64x1024.Idx → EReal) = (Cert.ReferenceIdeal.Value.res_main_v18 (StableHlo.launchContents m' c)) := by
  funext j
  obtain ⟨b, o, rfl⟩ : ∃ (b : Fin 64) (o : Fin 1024), j = ix2 b o := ⟨j 0, j 1, ValueIdx.eq_ix2 j⟩
  exact layer0 m m' c (hA.arg0 c) (hA.arg1 c) (hA.arg2 c) (hA.arg3 c) (hA.arg6 c) (hA.arg11 c) b o

/-- The result arrays agree: the nine layers chained. -/
theorem result_eq (hA : Agree m m') (c : Dev Cert.KernelIdeal.nD) :
    Cert.ReferenceIdeal.HandV.r_out (StableHlo.launchContents m' c) = (Cert.KernelIdeal.Hand.o18 m c : Cert.KernelIdeal.S64x512.Idx → EReal) := by
  have hC0 := cur0 m m' hA c
  have hS1 := skips1 m m' hA c hC0
  have hC1 := layer1 m m' hA c hC0
  have hS2 := skips2 m m' hA c hC1 hS1
  have hC2 := layer2 m m' hA c hC1 hS2
  have hS3 := skips3 m m' hA c hC2 hS2
  have hC3 := layer3 m m' hA c hC2 hS3
  have hS4 := skips4 m m' hA c hC3 hS3
  have hC4 := layer4 m m' hA c hC3 hS4
  have hS5 := skips5 m m' hA c hC4 hS4
  have hC5 := layer5 m m' hA c hC4 hS5
  have hS6 := skips6 m m' hA c hC5 hS5
  have hC6 := layer6 m m' hA c hC5 hS6
  have hS7 := skips7 m m' hA c hC6 hS6
  have hC7 := layer7 m m' hA c hC6 hS7
  exact (layer8 m m' hA c hC7).symm

end Cert.Proof.Bridge

end
-- ==== Proof.lean ====
/- The certificate's claim: the eight masked-linear layer blocks of the recurrent network and its final linear map,
   as nine pipelined kernel regions, against the same network written with whole matrix products.
   At the ideal instance each block is  sigmoid(b + Σ_terms lhs · (W ∘ M)ᵀ): the kernel adds the terms K-tile by K-tile into an
   accumulator (512 columns of the contraction at a time, the order of the terms as the grid meets them), the reference
   adds whole products; addition of extended reals is commutative and associative, so the two sums agree, and the sigmoid
   of the kernel is by definition the quotient 1 / (1 + exp(-y)) the reference spells out. -/
import proofs.«164445_j37684043055467_1_alg».proof.Defs
import proofs.«164445_j37684043055467_1_alg».proof.Proof.Gen.Kernel
import proofs.«164445_j37684043055467_1_alg».proof.Proof.Gen.KernelIdeal
import proofs.«164445_j37684043055467_1_alg».proof.Proof.Gen.ReferenceIdeal
import proofs.«164445_j37684043055467_1_alg».proof.Proof.Gen.ReferenceIdeal.Run
import proofs.«164445_j37684043055467_1_alg».proof.Proof.Gen.Pre_finite_inputs
import proofs.«164445_j37684043055467_1_alg».proof.Proof.K.Run
import proofs.«164445_j37684043055467_1_alg».proof.Proof.KI.Run
import proofs.«164445_j37684043055467_1_alg».proof.Proof.Bridge.All
import Idealize.ShloMosaic.Adequacy
import Idealize.ShloMosaic.Init

noncomputable section

namespace Cert.Proof

open Idealize.ShloMosaic Idealize.SL.Sem

/-- The kernel program as printed: its nine regions run to the end and no host stretch or region writes an argument. -/
theorem frame_k : Cert.frame_Kernel := fun m ρ _ => Cert.Kernel.Hand.frame (F := Bits) m ρ

/-- The same of its idealization. -/
theorem frame_ki : Cert.frame_KernelIdeal := fun m ρ _ => Cert.KernelIdeal.Hand.frame (F := Ideal) m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs run; the kernel's result array ends at what its last region leaves (`o18`), the reference's at its
    operations' composed term: the two are one function of the arguments, layer by layer
    (each kernel region's output array against the reference's layer, from the previous layer's equality). -/
theorem algebraic : Cert.algebraic_KernelIdeal_ReferenceIdeal := by
  intro m ρ m' ρ' _ hagree
  refine ⟨fun c => Cert.KernelIdeal.Hand.o18 (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m m' hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
